-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v13)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S128x64 : Shape := ⟨2, ![128, 64]⟩
abbrev S64 : Shape := ⟨1, ![64]⟩
abbrev S64x128 : Shape := ⟨2, ![64, 128]⟩
abbrev S128 : Shape := ⟨1, ![128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg8 : FVec F S128x64 .f32) (main_arg9 : FVec F S64 .f32) (main_arg10 : FVec F S64x128 .f32) (main_arg11 : FVec F S128 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x128 .f32 := Host.absf main_arg10
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg5 : FVec F S128 .f32) (main_arg6 : FVec F S128x64 .f32) (main_arg7 : FVec F S64 .f32) (main_arg8 : FVec F S128x64 .f32) (main_arg9 : FVec F S64 .f32) (main_arg10 : FVec F S64x128 .f32) (main_arg11 : FVec F S128 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S8192x128 .f32) (main_arg1 : IVec S8192x8192 32) (main_arg2 : FVec F S128x64 .f32) (main_arg3 : FVec F S64 .f32) (main_arg4 : FVec F S64x128 .f32) (main_arg5 : FVec F S128 .f32) (main_arg6 : FVec F S128x64 .f32) (main_arg7 : FVec F S64 .f32) (main_arg8 : FVec F S128x64 .f32) (main_arg9 : FVec F S64 .f32) (main_arg10 : FVec F S64x128 .f32) (main_arg11 : FVec F S128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_arg7 main_arg8 main_arg9 main_arg10 main_arg11 main_v13 main_v16
-- ==== Kernel.lean ====
abbrev S8192x128 : Shape := ⟨2, ![8192, 128]⟩
abbrev S8192x8192 : Shape := ⟨2, ![8192, 8192]⟩
abbrev S128x64 : Shape := ⟨2, ![128, 64]⟩
abbrev S64 : Shape := ⟨1, ![64]⟩
abbrev S64x128 : Shape := ⟨2, ![64, 128]⟩
abbrev S128 : Shape := ⟨1, ![128]⟩
abbrev S8192x1 : Shape := ⟨2, ![8192, 1]⟩
abbrev S1024x2048 : Shape := ⟨2, ![1024, 2048]⟩
abbrev S1024x1 : Shape := ⟨2, ![1024, 1]⟩
abbrev S1024 : Shape := ⟨1, ![1024]⟩
abbrev S1x8192 : Shape := ⟨2, ![1, 8192]⟩
abbrev S1x2048 : Shape := ⟨2, ![1, 2048]⟩
abbrev S1x64 : Shape := ⟨2, ![1, 64]⟩
abbrev S8192x64 : Shape := ⟨2, ![8192, 64]⟩
abbrev S2048x2048 : Shape := ⟨2, ![2048, 2048]⟩
abbrev S2048x128 : Shape := ⟨2, ![2048, 128]⟩
abbrev S2048x64 : Shape := ⟨2, ![2048, 64]⟩
abbrev S1x128 : Shape := ⟨2, ![1, 128]⟩
abbrev S1024x64 : Shape := ⟨2, ![1024, 64]⟩

abbrev nBuf : Space → Nat
  | .hbm => 26
  | .vmem => 64
  | .smem => 0
  | _ => 0

abbrev bufTy : (tb : Table) → Fin (tcTables nBuf tb) → BufTy
  | .hbm, ⟨0, _⟩ => ⟨S8192x128, .f32⟩
  | .hbm, ⟨1, _⟩ => ⟨S8192x8192, .i32⟩
  | .hbm, ⟨2, _⟩ => ⟨S128x64, .f32⟩
  | .hbm, ⟨3, _⟩ => ⟨S64, .f32⟩
  | .hbm, ⟨4, _⟩ => ⟨S64x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S128x64, .f32⟩
  | .hbm, ⟨9, _⟩ => ⟨S64, .f32⟩
  | .hbm, ⟨10, _⟩ => ⟨S64x128, .f32⟩
  | .hbm, ⟨11, _⟩ => ⟨S128, .f32⟩
  | .hbm, ⟨12, _⟩ => ⟨S8192x1, .f32⟩
  | .hbm, ⟨13, _⟩ => ⟨S1x8192, .f32⟩
  | .hbm, ⟨14, _⟩ => ⟨S8192x8192, .bf16⟩
  | .hbm, ⟨15, _⟩ => ⟨S1x64, .f32⟩
  | .hbm, ⟨16, _⟩ => ⟨S8192x64, .f32⟩
  | .hbm, ⟨17, _⟩ => ⟨S1x128, .f32⟩
  | .hbm, ⟨18, _⟩ => ⟨S8192x128, .f32⟩
  | .hbm, ⟨19, _⟩ => ⟨S1x64, .f32⟩
  | .hbm, ⟨20, _⟩ => ⟨S8192x64, .f32⟩
  | .hbm, ⟨21, _⟩ => ⟨S8192x8192, .f32⟩
  | .hbm, ⟨22, _⟩ => ⟨S1x64, .f32⟩
  | .hbm, ⟨23, _⟩ => ⟨S8192x64, .f32⟩
  | .hbm, ⟨24, _⟩ => ⟨S1x128, .f32⟩
  | .hbm, ⟨25, _⟩ => ⟨S8192x128, .f32⟩
  | .local _ .vmem, ⟨0, _⟩ => ⟨S1024x2048, .i32⟩
  | .local _ .vmem, ⟨1, _⟩ => ⟨S1024x2048, .i32⟩
  | .local _ .vmem, ⟨2, _⟩ => ⟨S1024x1, .f32⟩
  | .local _ .vmem, ⟨3, _⟩ => ⟨S1024x1, .f32⟩
  | .local _ .vmem, ⟨4, _⟩ => ⟨S1024x1, .f32⟩
  | .local _ .vmem, ⟨5, _⟩ => ⟨S1024x2048, .i32⟩
  | .local _ .vmem, ⟨6, _⟩ => ⟨S1024x2048, .i32⟩
  | .local _ .vmem, ⟨7, _⟩ => ⟨S1024x1, .f32⟩
  | .local _ .vmem, ⟨8, _⟩ => ⟨S1024x1, .f32⟩
  | .local _ .vmem, ⟨9, _⟩ => ⟨S1x2048, .f32⟩
  | .local _ .vmem, ⟨10, _⟩ => ⟨S1x2048, .f32⟩
  | .local _ .vmem, ⟨11, _⟩ => ⟨S1024x2048, .bf16⟩
  | .local _ .vmem, ⟨12, _⟩ => ⟨S1024x2048, .bf16⟩
  | .local _ .vmem, ⟨13, _⟩ => ⟨S2048x2048, .bf16⟩
  | .local _ .vmem, ⟨14, _⟩ => ⟨S2048x2048, .bf16⟩
  | .local _ .vmem, ⟨15, _⟩ => ⟨S2048x128, .f32⟩
  | .local _ .vmem, ⟨16, _⟩ => ⟨S2048x128, .f32⟩
  | .local _ .vmem, ⟨17, _⟩ => ⟨S128x64, .f32⟩
  | .local _ .vmem, ⟨18, _⟩ => ⟨S1x64, .f32⟩
  | .local _ .vmem, ⟨19, _⟩ => ⟨S2048x64, .f32⟩
  | .local _ .vmem, ⟨20, _⟩ => ⟨S2048x64, .f32⟩
  | .local _ .vmem, ⟨21, _⟩ => ⟨S2048x64, .f32⟩
  | .local _ .vmem, ⟨22, _⟩ => ⟨S2048x2048, .bf16⟩
  | .local _ .vmem, ⟨23, _⟩ => ⟨S2048x2048, .bf16⟩
  | .local _ .vmem, ⟨24, _⟩ => ⟨S2048x64, .f32⟩
  | .local _ .vmem, ⟨25, _⟩ => ⟨S2048x64, .f32⟩
  | .local _ .vmem, ⟨26, _⟩ => ⟨S64x128, .f32⟩
  | .local _ .vmem, ⟨27, _⟩ => ⟨S1x128, .f32⟩
  | .local _ .vmem, ⟨28, _⟩ => ⟨S2048x128, .f32⟩
  | .local _ .vmem, ⟨29, _⟩ => ⟨S2048x128, .f32⟩
  | .local _ .vmem, ⟨30, _⟩ => ⟨S2048x128, .f32⟩
  | .local _ .vmem, ⟨31, _⟩ => ⟨S2048x2048, .bf16⟩
  | .local _ .vmem, ⟨32, _⟩ => ⟨S2048x2048, .bf16⟩
  | .local _ .vmem, ⟨33, _⟩ => ⟨S2048x128, .f32⟩
  | .local _ .vmem, ⟨34, _⟩ => ⟨S2048x128, .f32⟩
  | .local _ .vmem, ⟨35, _⟩ => ⟨S128x64, .f32⟩
  | .local _ .vmem, ⟨36, _⟩ => ⟨S1x64, .f32⟩
  | .local _ .vmem, ⟨37, _⟩ => ⟨S2048x64, .f32⟩
  | .local _ .vmem, ⟨38, _⟩ => ⟨S2048x64, .f32⟩
  | .local _ .vmem, ⟨39, _⟩ => ⟨S2048x64, .f32⟩
  | .local _ .vmem, ⟨40, _⟩ => ⟨S1024x64, .f32⟩
  | .local _ .vmem, ⟨41, _⟩ => ⟨S1024x64, .f32⟩
  | .local _ .vmem, ⟨42, _⟩ => ⟨S2048x64, .f32⟩
  | .local _ .vmem, ⟨43, _⟩ => ⟨S2048x64, .f32⟩
  | .local _ .vmem, ⟨44, _⟩ => ⟨S1024x2048, .f32⟩
  | .local _ .vmem, ⟨45, _⟩ => ⟨S1024x2048, .f32⟩
  | .local _ .vmem, ⟨46, _⟩ => ⟨S2048x2048, .bf16⟩
  | .local _ .vmem, ⟨47, _⟩ => ⟨S2048x2048, .bf16⟩
  | .local _ .vmem, ⟨48, _⟩ => ⟨S2048x128, .f32⟩
  | .local _ .vmem, ⟨49, _⟩ => ⟨S2048x128, .f32⟩
  | .local _ .vmem, ⟨50, _⟩ => ⟨S128x64, .f32⟩
  | .local _ .vmem, ⟨51, _⟩ => ⟨S1x64, .f32⟩
  | .local _ .vmem, ⟨52, _⟩ => ⟨S2048x64, .f32⟩
  | .local _ .vmem, ⟨53, _⟩ => ⟨S2048x64, .f32⟩
  | .local _ .vmem, ⟨54, _⟩ => ⟨S2048x64, .f32⟩
  | .local _ .vmem, ⟨55, _⟩ => ⟨S2048x2048, .bf16⟩
  | .local _ .vmem, ⟨56, _⟩ => ⟨S2048x2048, .bf16⟩
  | .local _ .vmem, ⟨57, _⟩ => ⟨S2048x64, .f32⟩
  | .local _ .vmem, ⟨58, _⟩ => ⟨S2048x64, .f32⟩
  | .local _ .vmem, ⟨59, _⟩ => ⟨S64x128, .f32⟩
  | .local _ .vmem, ⟨60, _⟩ => ⟨S1x128, .f32⟩
  | .local _ .vmem, ⟨61, _⟩ => ⟨S2048x128, .f32⟩
  | .local _ .vmem, ⟨62, _⟩ => ⟨S2048x128, .f32⟩
  | .local _ .vmem, ⟨63, _⟩ => ⟨S2048x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc2_scratch0 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg4_1 : Ref sig .tc := ⟨.vmem, 29, rfl⟩
abbrev cc3_scratch0 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg1_1 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg4_0 : Ref sig .tc := ⟨.vmem, 37, rfl⟩
abbrev cc4_stg4_1 : Ref sig .tc := ⟨.vmem, 38, rfl⟩
abbrev cc4_scratch0 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg1_1 : Ref sig .tc := ⟨.vmem, 43, rfl⟩
abbrev cc5_stg2_0 : Ref sig .tc := ⟨.vmem, 44, rfl⟩
abbrev cc5_stg2_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg1_1 : Ref sig .tc := ⟨.vmem, 49, rfl⟩
abbrev cc6_stg2_0 : Ref sig .tc := ⟨.vmem, 50, rfl⟩
abbrev cc6_stg3_0 : Ref sig .tc := ⟨.vmem, 51, rfl⟩
abbrev cc6_stg4_0 : Ref sig .tc := ⟨.vmem, 52, rfl⟩
abbrev cc6_stg4_1 : Ref sig .tc := ⟨.vmem, 53, rfl⟩
abbrev cc6_scratch0 : Ref sig .tc := ⟨.vmem, 54, rfl⟩
abbrev cc7_stg0_0 : Ref sig .tc := ⟨.vmem, 55, rfl⟩
abbrev cc7_stg0_1 : Ref sig .tc := ⟨.vmem, 56, rfl⟩
abbrev cc7_stg1_0 : Ref sig .tc := ⟨.vmem, 57, rfl⟩
abbrev cc7_stg1_1 : Ref sig .tc := ⟨.vmem, 58, rfl⟩
abbrev cc7_stg2_0 : Ref sig .tc := ⟨.vmem, 59, rfl⟩
abbrev cc7_stg3_0 : Ref sig .tc := ⟨.vmem, 60, rfl⟩
abbrev cc7_stg4_0 : Ref sig .tc := ⟨.vmem, 61, rfl⟩
abbrev cc7_stg4_1 : Ref sig .tc := ⟨.vmem, 62, rfl⟩
abbrev cc7_scratch0 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem4_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem3_0 : DmaSem sig := 33
abbrev cc4_sem4_0 : DmaSem sig := 34
abbrev cc4_sem4_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem2_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc6_sem3_0 : DmaSem sig := 47
abbrev cc6_sem4_0 : DmaSem sig := 48
abbrev cc6_sem4_1 : DmaSem sig := 49
abbrev cc7_sem0_0 : DmaSem sig := 50
abbrev cc7_sem0_1 : DmaSem sig := 51
abbrev cc7_sem1_0 : DmaSem sig := 52
abbrev cc7_sem1_1 : DmaSem sig := 53
abbrev cc7_sem2_0 : DmaSem sig := 54
abbrev cc7_sem3_0 : DmaSem sig := 55
abbrev cc7_sem4_0 : DmaSem sig := 56
abbrev cc7_sem4_1 : DmaSem sig := 57

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_7 : BitVec 32 := 0#32
  let v17 : BitVec 1 := Scalar.cmpi .ne v16 c0_i32_7
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![8, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![4, 4], ![false, false]⟩

def k2_cond2 (i : grid2.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_11 : BitVec 32 := 0#32
  let v19 : BitVec 1 := Scalar.cmpi .ne v18 c0_i32_11
  v19

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S2048x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨2, ![4, 4], ![false, false]⟩

def k3_cond2 (i : grid3.Coords) : BitVec 1 :=
  let arg1 : BitVec 32 := BitVec.ofNat 32 (i 1).val
  let c3_i32 : BitVec 32 := 3#32
  let v18 : BitVec 1 := Scalar.cmpi .eq arg1 c3_i32
  let v19 : BitVec 32 := Scalar.extui v18
  let c0_i32_11 : BitVec 32 := 0#32
  let v20 : BitVec 1 := Scalar.cmpi .ne v19 c0_i32_11
  v20

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S2048x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2048x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S64x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 2 → Memref sig .tc .vmem S2048x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev grid4 : Pipeline.Grid := ⟨2, ![4, 4], ![false, false]⟩

def k4_cond2 (i : grid4.Coords) : BitVec 1 :=
  let arg1 : BitVec 32 := BitVec.ofNat 32 (i 1).val
  let c3_i32 : BitVec 32 := 3#32
  let v18 : BitVec 1 := Scalar.cmpi .eq arg1 c3_i32
  let v19 : BitVec 32 := Scalar.extui v18
  let c0_i32_11 : BitVec 32 := 0#32
  let v20 : BitVec 1 := Scalar.cmpi .ne v19 c0_i32_11
  v20

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S2048x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S2048x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 1 → Memref sig .tc .vmem S128x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 2 → Memref sig .tc .vmem S2048x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, false]

abbrev grid5 : Pipeline.Grid := ⟨2, ![8, 4], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S1024x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S2048x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024x2048 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![4, 4], ![false, false]⟩

def k6_cond2 (i : grid6.Coords) : BitVec 1 :=
  let arg1 : BitVec 32 := BitVec.ofNat 32 (i 1).val
  let c3_i32 : BitVec 32 := 3#32
  let v18 : BitVec 1 := Scalar.cmpi .eq arg1 c3_i32
  let v19 : BitVec 32 := Scalar.extui v18
  let c0_i32_11 : BitVec 32 := 0#32
  let v20 : BitVec 1 := Scalar.cmpi .ne v19 c0_i32_11
  v20

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage6_0 : Fin 2 → Memref sig .tc .vmem S2048x2048 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S2048x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 1 → Memref sig .tc .vmem S128x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false, false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false, false]

abbrev stage6_4 : Fin 2 → Memref sig .tc .vmem S2048x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true, false]

abbrev grid7 : Pipeline.Grid := ⟨2, ![4, 4], ![false, false]⟩

def k7_cond2 (i : grid7.Coords) : BitVec 1 :=
  let arg1 : BitVec 32 := BitVec.ofNat 32 (i 1).val
  let c3_i32 : BitVec 32 := 3#32
  let v18 : BitVec 1 := Scalar.cmpi .eq arg1 c3_i32
  let v19 : BitVec 32 := Scalar.extui v18
  let c0_i32_11 : BitVec 32 := 0#32
  let v20 : BitVec 1 := Scalar.cmpi .ne v19 c0_i32_11
  v20

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage7_0 : Fin 2 → Memref sig .tc .vmem S2048x2048 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 2 → Memref sig .tc .vmem S2048x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 1 → Memref sig .tc .vmem S64x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false, false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false, false]

abbrev stage7_4 : Fin 2 → Memref sig .tc .vmem S2048x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2048_S1024x2048_0_0 : ∀ a, (![0, 0] : Fin 2 → Nat) a + S1024x2048.size a ≤ S1024x2048.size a
  h_S1024x2048 : 0 < S1024x2048.numel
  natLt_1_32 : 1 < 32
  reduces_S1024x2048_S1024 : S1024x2048.Reduces [1] S1024
  shapeCasts_S1024_S1024x1 : S1024.ShapeCasts S1024x1
  shapeCasts_S8192x1_S1x8192 : S8192x1.ShapeCasts S1x8192
  iota_S1024x2048_d0_w32 : S1024x2048.Iotas .tc 32 [0]
  iota_S1024x2048_d1_w32 : S1024x2048.Iotas .tc 32 [1]
  broadcasts_S1024x1_S1024x2048 : S1024x1.Broadcasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  bitsLt_bf16_f32 : FTy.bits .bf16 < FTy.bits .f32
  packedbf16_S1024x2048_S1024x2048_0_0 : (Rect.unit (s := S1024x2048) ![0, 0] S1024x2048.size inb_S1024x2048_S1024x2048_0_0).PackedRows (EltTy.packing .bf16)
  shapeCasts_S64_S1x64 : S64.ShapeCasts S1x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S2048x128_S2048x128_0_0 : ∀ a, (![0, 0] : Fin 2 → Nat) a + S2048x128.size a ≤ S2048x128.size a
  h_S2048x128 : 0 < S2048x128.numel
  inb_S128x64_S128x64_0_0 : ∀ a, (![0, 0] : Fin 2 → Nat) a + S128x64.size a ≤ S128x64.size a
  h_S128x64 : 0 < S128x64.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  shapeCasts_S128_S1x128 : S128.ShapeCasts S1x128
  shapeCasts_S2048x128_S2048x128 : S2048x128.ShapeCasts S2048x128
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  dot_S2048x128_S128x64_S2048x64_1_0_0_1_n_n_wf : DotDims.WF S2048x128 S128x64 S2048x64 [1] [0] [0] [1] [] []
  dot_S2048x2048_S2048x64_S2048x64_1_0_0_1_n_n_wf : DotDims.WF S2048x2048 S2048x64 S2048x64 [1] [0] [0] [1] [] []
  dot_S2048x64_S64x128_S2048x128_1_0_0_1_n_n_wf : DotDims.WF S2048x64 S64x128 S2048x128 [1] [0] [0] [1] [] []
  dot_S2048x2048_S2048x128_S2048x128_1_0_0_1_n_n_wf : DotDims.WF S2048x2048 S2048x128 S2048x128 [1] [0] [0] [1] [] []
  dot_S1024x64_S2048x64_S1024x2048_1_1_0_0_n_n_wf : DotDims.WF S1024x64 S2048x64 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x8192.size a
  hwx0_0 : ∀ i : grid0.Coords, EltTy.bits .i32 = 32 ∨ (Rect.block (s := S8192x8192) S1024x2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S8192x1.size a
  hwx0_1 : ∀ i : grid0.Coords, EltTy.bits .f32 = 32 ∨ (Rect.block (s := S8192x1) S1024x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .i32 = 32 ∨ (Rect.block (s := S8192x8192) S1024x2048.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S8192x1.size a
  hwx1_1 : ∀ i : grid1.Coords, EltTy.bits .f32 = 32 ∨ (Rect.block (s := S8192x1) S1024x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x8192.size a
  hwx1_2 : ∀ i : grid1.Coords, EltTy.bits .f32 = 32 ∨ (Rect.block (s := S1x8192) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S8192x8192.size a
  hwx1_3 : ∀ i : grid1.Coords, EltTy.bits .bf16 = 32 ∨ (Rect.block (s := S8192x8192) S1024x2048.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x2048.size a ≤ S8192x8192.size a
  hwx2_0 : ∀ i : grid2.Coords, EltTy.bits .bf16 = 32 ∨ (Rect.block (s := S8192x8192) S2048x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S8192x128.size a
  hwx2_1 : ∀ i : grid2.Coords, EltTy.bits .f32 = 32 ∨ (Rect.block (s := S8192x128) S2048x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2048x64.size a ≤ S8192x64.size a
  hwx2_4 : ∀ i : grid2.Coords, EltTy.bits .f32 = 32 ∨ (Rect.block (s := S8192x64) S2048x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x2048.size a ≤ S8192x8192.size a
  hwx3_0 : ∀ i : grid3.Coords, EltTy.bits .bf16 = 32 ∨ (Rect.block (s := S8192x8192) S2048x2048.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x64.size a ≤ S8192x64.size a
  hwx3_1 : ∀ i : grid3.Coords, EltTy.bits .f32 = 32 ∨ (Rect.block (s := S8192x64) S2048x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x128.size a ≤ S64x128.size a
  hwx3_2 : ∀ i : grid3.Coords, EltTy.bits .f32 = 32 ∨ (Rect.block (s := S64x128) S64x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2048x128.size a ≤ S8192x128.size a
  hwx3_4 : ∀ i : grid3.Coords, EltTy.bits .f32 = 32 ∨ (Rect.block (s := S8192x128) S2048x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x2048.size a ≤ S8192x8192.size a
  hwx4_0 : ∀ i : grid4.Coords, EltTy.bits .bf16 = 32 ∨ (Rect.block (s := S8192x8192) S2048x2048.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x128.size a ≤ S8192x128.size a
  hwx4_1 : ∀ i : grid4.Coords, EltTy.bits .f32 = 32 ∨ (Rect.block (s := S8192x128) S2048x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x64.size a ≤ S128x64.size a
  hwx4_2 : ∀ i : grid4.Coords, EltTy.bits .f32 = 32 ∨ (Rect.block (s := S128x64) S128x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2048x64.size a ≤ S8192x64.size a
  hwx4_4 : ∀ i : grid4.Coords, EltTy.bits .f32 = 32 ∨ (Rect.block (s := S8192x64) S2048x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x64.size a ≤ S8192x64.size a
  hwx5_0 : ∀ i : grid5.Coords, EltTy.bits .f32 = 32 ∨ (Rect.block (s := S8192x64) S1024x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2048x64.size a ≤ S8192x64.size a
  hwx5_1 : ∀ i : grid5.Coords, EltTy.bits .f32 = 32 ∨ (Rect.block (s := S8192x64) S2048x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1024x2048.size a ≤ S8192x8192.size a
  hwx5_2 : ∀ i : grid5.Coords, EltTy.bits .f32 = 32 ∨ (Rect.block (s := S8192x8192) S1024x2048.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2048x2048.size a ≤ S8192x8192.size a
  hwx6_0 : ∀ i : grid6.Coords, EltTy.bits .bf16 = 32 ∨ (Rect.block (s := S8192x8192) S2048x2048.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2048x128.size a ≤ S8192x128.size a
  hwx6_1 : ∀ i : grid6.Coords, EltTy.bits .f32 = 32 ∨ (Rect.block (s := S8192x128) S2048x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x64.size a ≤ S128x64.size a
  hwx6_2 : ∀ i : grid6.Coords, EltTy.bits .f32 = 32 ∨ (Rect.block (s := S128x64) S128x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S2048x64.size a ≤ S8192x64.size a
  hwx6_4 : ∀ i : grid6.Coords, EltTy.bits .f32 = 32 ∨ (Rect.block (s := S8192x64) S2048x64.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2048x2048.size a ≤ S8192x8192.size a
  hwx7_0 : ∀ i : grid7.Coords, EltTy.bits .bf16 = 32 ∨ (Rect.block (s := S8192x8192) S2048x2048.size (cc7_transform_0 i) (hinb7_0 i)).WholeWords (EltTy.packing .bf16)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2048x64.size a ≤ S8192x64.size a
  hwx7_1 : ∀ i : grid7.Coords, EltTy.bits .f32 = 32 ∨ (Rect.block (s := S8192x64) S2048x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S64x128.size a ≤ S64x128.size a
  hwx7_2 : ∀ i : grid7.Coords, EltTy.bits .f32 = 32 ∨ (Rect.block (s := S64x128) S64x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S2048x128.size a ≤ S8192x128.size a
  hwx7_4 : ∀ i : grid7.Coords, EltTy.bits .f32 = 32 ∨ (Rect.block (s := S8192x128) S2048x128.size (cc7_transform_4 i) (hinb7_4 i)).WholeWords (EltTy.packing .f32)

variable [Facts₀]

def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S2048x2048_S2048x64_S2048x64_1_0_0_1_n_n : DotDims S2048x2048 S2048x64 S2048x64 where
  lhsContracting := [1]
  rhsContracting := [0]
  lhsNonContracting := [0]
  rhsNonContracting := [1]
  lhsBatch := []
  rhsBatch := []
  wf := dot_S2048x2048_S2048x64_S2048x64_1_0_0_1_n_n_wf
def dot_S2048x64_S64x128_S2048x128_1_0_0_1_n_n : DotDims S2048x64 S64x128 S2048x128 where
  lhsContracting := [1]
  rhsContracting := [0]
  lhsNonContracting := [0]
  rhsNonContracting := [1]
  lhsBatch := []
  rhsBatch := []
  wf := dot_S2048x64_S64x128_S2048x128_1_0_0_1_n_n_wf
def dot_S2048x2048_S2048x128_S2048x128_1_0_0_1_n_n : DotDims S2048x2048 S2048x128 S2048x128 where
  lhsContracting := [1]
  rhsContracting := [0]
  lhsNonContracting := [0]
  rhsNonContracting := [1]
  lhsBatch := []
  rhsBatch := []
  wf := dot_S2048x2048_S2048x128_S2048x128_1_0_0_1_n_n_wf
def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1024x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v2) S2048x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v3) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v4) S2048x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

abbrev win3_0 : Pipeline.Window sig grid3 :=
  Pipeline.Window.ofSpec (Memref.whole main_v2) S2048x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v4) S2048x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg4) S64x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v5) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v6) S2048x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

abbrev win4_0 : Pipeline.Window sig grid4 :=
  Pipeline.Window.ofSpec (Memref.whole main_v2) S2048x2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v6) S2048x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg6) S128x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v7) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v8) S2048x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev idle4 : Fin 5 → grid4.Coords → Bool := fun | 0 => fun _ => false | 1 => fun _ => false | 2 => fun _ => false | 3 => fun _ => false | 4 => fun i => !(k4_cond2 i == 1#1) | ⟨_ + 5, h⟩ => absurd h (Nat.not_lt.2 (Nat.le_add_left _ _))

abbrev win5_0 : Pipeline.Window sig grid5 :=
  Pipeline.Window.ofSpec (Memref.whole main_v8) S1024x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v8) S2048x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v9) S1024x2048.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v2) S2048x2048.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v6) S2048x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg8) S128x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v10) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v11) S2048x64.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev idle6 : Fin 5 → grid6.Coords → Bool := fun | 0 => fun _ => false | 1 => fun _ => false | 2 => fun _ => false | 3 => fun _ => false | 4 => fun i => !(k6_cond2 i == 1#1) | ⟨_ + 5, h⟩ => absurd h (Nat.not_lt.2 (Nat.le_add_left _ _))

abbrev win7_0 : Pipeline.Window sig grid7 :=
  Pipeline.Window.ofSpec (Memref.whole main_v2) S2048x2048.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v11) S2048x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_arg10) S64x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v12) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v13) S2048x128.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev idle7 : Fin 5 → grid7.Coords → Bool := fun | 0 => fun _ => false | 1 => fun _ => false | 2 => fun _ => false | 3 => fun _ => false | 4 => fun i => !(k7_cond2 i == 1#1) | ⟨_ + 5, h⟩ => absurd h (Nat.not_lt.2 (Nat.le_add_left _ _))

class Facts : Prop extends Facts₀ where

variable [Facts]
-- ==== ReferenceIdeal.lean ====
abbrev S8192x128 : Shape := ⟨2, ![8192, 128]⟩
abbrev S8192x8192 : Shape := ⟨2, ![8192, 8192]⟩
abbrev S128x64 : Shape := ⟨2, ![128, 64]⟩
abbrev S64 : Shape := ⟨1, ![64]⟩
abbrev S64x128 : Shape := ⟨2, ![64, 128]⟩
abbrev S128 : Shape := ⟨1, ![128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x64 : Shape := ⟨2, ![8192, 64]⟩
abbrev S1x64 : Shape := ⟨2, ![1, 64]⟩
abbrev S1x128 : Shape := ⟨2, ![1, 128]⟩
abbrev S64x8192 : Shape := ⟨2, ![64, 8192]⟩

abbrev nBuf : Space → Nat
  | .hbm => 115
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .i32⟩
  | .hbm, ⟨2, _⟩ => ⟨S128x64, .f32⟩
  | .hbm, ⟨3, _⟩ => ⟨S64, .f32⟩
  | .hbm, ⟨4, _⟩ => ⟨S64x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S128x64, .f32⟩
  | .hbm, ⟨9, _⟩ => ⟨S64, .f32⟩
  | .hbm, ⟨10, _⟩ => ⟨S64x128, .f32⟩
  | .hbm, ⟨11, _⟩ => ⟨S128, .f32⟩
  | .hbm, ⟨12, _⟩ => ⟨S_, .i32⟩
  | .hbm, ⟨13, _⟩ => ⟨S8192x8192, .i32⟩
  | .hbm, ⟨14, _⟩ => ⟨S8192x8192, .i1⟩
  | .hbm, ⟨15, _⟩ => ⟨S8192x8192, .f32⟩
  | .hbm, ⟨16, _⟩ => ⟨S8192x8192, .i32⟩
  | .hbm, ⟨17, _⟩ => ⟨S8192x8192, .i32⟩
  | .hbm, ⟨18, _⟩ => ⟨S_, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S8192, .f32⟩
  | .hbm, ⟨26, _⟩ => ⟨S_, .f32⟩
  | .hbm, ⟨27, _⟩ => ⟨S8192, .f32⟩
  | .hbm, ⟨28, _⟩ => ⟨S8192, .i1⟩
  | .hbm, ⟨29, _⟩ => ⟨S8192, .f32⟩
  | .hbm, ⟨30, _⟩ => ⟨S_, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S8192x1, .f32⟩
  | .hbm, ⟨35, _⟩ => ⟨S8192x8192, .f32⟩
  | .hbm, ⟨36, _⟩ => ⟨S8192x8192, .f32⟩
  | .hbm, ⟨37, _⟩ => ⟨S1x8192, .f32⟩
  | .hbm, ⟨38, _⟩ => ⟨S8192x8192, .f32⟩
  | .hbm, ⟨39, _⟩ => ⟨S8192x8192, .f32⟩
  | .hbm, ⟨40, _⟩ => ⟨S8192x64, .f32⟩
  | .hbm, ⟨41, _⟩ => ⟨S8192x64, .f32⟩
  | .hbm, ⟨42, _⟩ => ⟨S1x64, .f32⟩
  | .hbm, ⟨43, _⟩ => ⟨S8192x64, .f32⟩
  | .hbm, ⟨44, _⟩ => ⟨S8192x64, .f32⟩
  | .hbm, ⟨45, _⟩ => ⟨S_, .f32⟩
  | .hbm, ⟨46, _⟩ => ⟨S_, .f32⟩
  | .hbm, ⟨47, _⟩ => ⟨S8192x64, .f32⟩
  | .hbm, ⟨48, _⟩ => ⟨S8192x64, .i1⟩
  | .hbm, ⟨49, _⟩ => ⟨S_, .f32⟩
  | .hbm, ⟨50, _⟩ => ⟨S8192x64, .f32⟩
  | .hbm, ⟨51, _⟩ => ⟨S8192x64, .f32⟩
  | .hbm, ⟨52, _⟩ => ⟨S8192x64, .f32⟩
  | .hbm, ⟨53, _⟩ => ⟨S8192x128, .f32⟩
  | .hbm, ⟨54, _⟩ => ⟨S8192x128, .f32⟩
  | .hbm, ⟨55, _⟩ => ⟨S1x128, .f32⟩
  | .hbm, ⟨56, _⟩ => ⟨S8192x128, .f32⟩
  | .hbm, ⟨57, _⟩ => ⟨S8192x128, .f32⟩
  | .hbm, ⟨58, _⟩ => ⟨S_, .f32⟩
  | .hbm, ⟨59, _⟩ => ⟨S_, .f32⟩
  | .hbm, ⟨60, _⟩ => ⟨S8192x128, .f32⟩
  | .hbm, ⟨61, _⟩ => ⟨S8192x128, .i1⟩
  | .hbm, ⟨62, _⟩ => ⟨S_, .f32⟩
  | .hbm, ⟨63, _⟩ => ⟨S8192x128, .f32⟩
  | .hbm, ⟨64, _⟩ => ⟨S8192x128, .f32⟩
  | .hbm, ⟨65, _⟩ => ⟨S8192x128, .f32⟩
  | .hbm, ⟨66, _⟩ => ⟨S8192x64, .f32⟩
  | .hbm, ⟨67, _⟩ => ⟨S8192x64, .f32⟩
  | .hbm, ⟨68, _⟩ => ⟨S1x64, .f32⟩
  | .hbm, ⟨69, _⟩ => ⟨S8192x64, .f32⟩
  | .hbm, ⟨70, _⟩ => ⟨S8192x64, .f32⟩
  | .hbm, ⟨71, _⟩ => ⟨S_, .f32⟩
  | .hbm, ⟨72, _⟩ => ⟨S_, .f32⟩
  | .hbm, ⟨73, _⟩ => ⟨S8192x64, .f32⟩
  | .hbm, ⟨74, _⟩ => ⟨S8192x64, .i1⟩
  | .hbm, ⟨75, _⟩ => ⟨S_, .f32⟩
  | .hbm, ⟨76, _⟩ => ⟨S8192x64, .f32⟩
  | .hbm, ⟨77, _⟩ => ⟨S8192x64, .f32⟩
  | .hbm, ⟨78, _⟩ => ⟨S8192x64, .f32⟩
  | .hbm, ⟨79, _⟩ => ⟨S64x8192, .f32⟩
  | .hbm, ⟨80, _⟩ => ⟨S8192x8192, .f32⟩
  | .hbm, ⟨81, _⟩ => ⟨S8192x8192, .f32⟩
  | .hbm, ⟨82, _⟩ => ⟨S8192x8192, .f32⟩
  | .hbm, ⟨83, _⟩ => ⟨S_, .f32⟩
  | .hbm, ⟨84, _⟩ => ⟨S8192x8192, .f32⟩
  | .hbm, ⟨85, _⟩ => ⟨S8192x8192, .f32⟩
  | .hbm, ⟨86, _⟩ => ⟨S_, .f32⟩
  | .hbm, ⟨87, _⟩ => ⟨S8192x8192, .f32⟩
  | .hbm, ⟨88, _⟩ => ⟨S8192x8192, .f32⟩
  | .hbm, ⟨89, _⟩ => ⟨S8192x64, .f32⟩
  | .hbm, ⟨90, _⟩ => ⟨S8192x64, .f32⟩
  | .hbm, ⟨91, _⟩ => ⟨S1x64, .f32⟩
  | .hbm, ⟨92, _⟩ => ⟨S8192x64, .f32⟩
  | .hbm, ⟨93, _⟩ => ⟨S8192x64, .f32⟩
  | .hbm, ⟨94, _⟩ => ⟨S_, .f32⟩
  | .hbm, ⟨95, _⟩ => ⟨S_, .f32⟩
  | .hbm, ⟨96, _⟩ => ⟨S8192x64, .f32⟩
  | .hbm, ⟨97, _⟩ => ⟨S8192x64, .i1⟩
  | .hbm, ⟨98, _⟩ => ⟨S_, .f32⟩
  | .hbm, ⟨99, _⟩ => ⟨S8192x64, .f32⟩
  | .hbm, ⟨100, _⟩ => ⟨S8192x64, .f32⟩
  | .hbm, ⟨101, _⟩ => ⟨S8192x64, .f32⟩
  | .hbm, ⟨102, _⟩ => ⟨S8192x128, .f32⟩
  | .hbm, ⟨103, _⟩ => ⟨S8192x128, .f32⟩
  | .hbm, ⟨104, _⟩ => ⟨S1x128, .f32⟩
  | .hbm, ⟨105, _⟩ => ⟨S8192x128, .f32⟩
  | .hbm, ⟨106, _⟩ => ⟨S8192x128, .f32⟩
  | .hbm, ⟨107, _⟩ => ⟨S_, .f32⟩
  | .hbm, ⟨108, _⟩ => ⟨S_, .f32⟩
  | .hbm, ⟨109, _⟩ => ⟨S8192x128, .f32⟩
  | .hbm, ⟨110, _⟩ => ⟨S8192x128, .i1⟩
  | .hbm, ⟨111, _⟩ => ⟨S_, .f32⟩
  | .hbm, ⟨112, _⟩ => ⟨S8192x128, .f32⟩
  | .hbm, ⟨113, _⟩ => ⟨S8192x128, .f32⟩
  | .hbm, ⟨114, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_call1_cst : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_4 : Ref sig .tc := ⟨.hbm, 58, rfl⟩
abbrev main_call2_cst : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_cst_5 : Ref sig .tc := ⟨.hbm, 71, rfl⟩
abbrev main_call3_cst : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_call3_v3 : Ref sig .tc := ⟨.hbm, 76, rfl⟩
abbrev main_call3_v4 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_cst_6 : Ref sig .tc := ⟨.hbm, 83, rfl⟩
abbrev main_v43 : Ref sig .tc := ⟨.hbm, 84, rfl⟩
abbrev main_v44 : Ref sig .tc := ⟨.hbm, 85, rfl⟩
abbrev main_cst_7 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_cst_8 : Ref sig .tc := ⟨.hbm, 94, rfl⟩
abbrev main_call4_cst : Ref sig .tc := ⟨.hbm, 95, rfl⟩
abbrev main_call4_v0 : Ref sig .tc := ⟨.hbm, 96, rfl⟩
abbrev main_call4_v1 : Ref sig .tc := ⟨.hbm, 97, rfl⟩
abbrev main_call4_v2 : Ref sig .tc := ⟨.hbm, 98, rfl⟩
abbrev main_call4_v3 : Ref sig .tc := ⟨.hbm, 99, rfl⟩
abbrev main_call4_v4 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_cst_9 : Ref sig .tc := ⟨.hbm, 107, rfl⟩
abbrev main_call5_cst : Ref sig .tc := ⟨.hbm, 108, rfl⟩
abbrev main_call5_v0 : Ref sig .tc := ⟨.hbm, 109, rfl⟩
abbrev main_call5_v1 : Ref sig .tc := ⟨.hbm, 110, rfl⟩
abbrev main_call5_v2 : Ref sig .tc := ⟨.hbm, 111, rfl⟩
abbrev main_call5_v3 : Ref sig .tc := ⟨.hbm, 112, rfl⟩
abbrev main_call5_v4 : Ref sig .tc := ⟨.hbm, 113, rfl⟩
abbrev main_v58 : Ref sig .tc := ⟨.hbm, 114, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  transposes_S8192x64_S64x8192_1_0 : S8192x64.Transposes [1, 0] S64x8192
  dot_S8192x128_S128x64_S8192x64_1_0_0_1_n_n_wf : DotDims.WF S8192x128 S128x64 S8192x64 [1] [0] [0] [1] [] []
  dot_S8192x8192_S8192x64_S8192x64_1_0_0_1_n_n_wf : DotDims.WF S8192x8192 S8192x64 S8192x64 [1] [0] [0] [1] [] []
  dot_S8192x64_S64x128_S8192x128_1_0_0_1_n_n_wf : DotDims.WF S8192x64 S64x128 S8192x128 [1] [0] [0] [1] [] []
  dot_S8192x8192_S8192x128_S8192x128_1_0_0_1_n_n_wf : DotDims.WF S8192x8192 S8192x128 S8192x128 [1] [0] [0] [1] [] []
  dot_S8192x64_S64x8192_S8192x8192_1_0_0_1_n_n_wf : DotDims.WF S8192x64 S64x8192 S8192x8192 [1] [0] [0] [1] [] []

variable [Facts₀]

def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.KRun.lean ====
/-
  The kernel program's run, region by region.

  @main is eight kernel regions among one-operation host stretches (reshapes).  Between two items every unscoped
  buffer of a core is held whole at a known valuation: the launch memory, then after each host stretch the
  stretch's operations applied, then after each region the region's output array at what its write-backs leave
  (the proof data's array after the last point) and every other buffer as it was.  Each region enters the
  pipeline's invariant with its own arrays split off that valuation and leaves by putting them back; the core's
  generator register and its (empty) dues ride along.  The run's post says what every unscoped buffer holds at
  the end; the frame and the results are read off it.

  The regions' own data — proof data, body obligation, the invariant's first and last states — are parameters
  here (one bundle of hypotheses per region), so that this module states the assembly alone.
-/
import proofs.«178500_j188978561286_1_alg».proof.Proof.Gen.Kernel.Launch
import proofs.«178500_j188978561286_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A core's buffer contents as a region's proof data take them: read at the TensorCore's references. -/
abbrev Contents : Type := (c : Dev nD) → (b : Ref sig .tc) → Buf (Elt F) ((c : Thread nD τ).loc b)

/-- What one region supplies: its proof data at any entry contents (arrays read off the contents, full shares,
    nothing owed), the body obligation, and the invariant before the first point and after the last against
    the class invariant (the scoped rest and the generator register). -/
structure Region0 where
  dat : Contents (F := F) → (c : Dev nD) → Dat τ (Elt F) Unit ℕ (UR sig nD τ) ℕ cfg0 c
  A_eq : ∀ (V : Contents (F := F)) (c : Dev nD) (w : Fin cfg0.W), (dat V c).A w = V c (Pipeline.arrRef spec0 w)
  q_eq : ∀ (V : Contents (F := F)) (c : Dev nD) (w : Fin cfg0.W), (dat V c).q w = fullShare
  owed_eq : ∀ (V : Contents (F := F)) (c : Dev nD) (t : Fin (cfg0.N + 1)), (dat V c).owed t = 0
  rec_eq : ∀ (V : Contents (F := F)) (c : Dev nD) (t : Fin (cfg0.N + 1)), (dat V c).recorded t = Set.univ
  body : ∀ (V : Contents (F := F)) (c : Dev nD), BodyObligation (dat V c) (defs₀ (F := F)) Variants.none () Set.univ
  hin : ∀ (V : Contents (F := F)) (c : Dev nD), (Pipeline.ΦA spec0 c : sProp 𝕄) ⊢ (dat V c).Φ 0
  hout : ∀ (V : Contents (F := F)) (c : Dev nD), (dat V c).Φ (Fin.last cfg0.N) ⊢ (Pipeline.ΦA spec0 c : sProp 𝕄)

structure Region1 where
  dat : Contents (F := F) → (c : Dev nD) → Dat τ (Elt F) Unit ℕ (UR sig nD τ) ℕ cfg1 c
  A_eq : ∀ (V : Contents (F := F)) (c : Dev nD) (w : Fin cfg1.W), (dat V c).A w = V c (Pipeline.arrRef spec1 w)
  q_eq : ∀ (V : Contents (F := F)) (c : Dev nD) (w : Fin cfg1.W), (dat V c).q w = fullShare
  owed_eq : ∀ (V : Contents (F := F)) (c : Dev nD) (t : Fin (cfg1.N + 1)), (dat V c).owed t = 0
  rec_eq : ∀ (V : Contents (F := F)) (c : Dev nD) (t : Fin (cfg1.N + 1)), (dat V c).recorded t = Set.univ
  body : ∀ (V : Contents (F := F)) (c : Dev nD), BodyObligation (dat V c) (defs₀ (F := F)) Variants.none () Set.univ
  hin : ∀ (V : Contents (F := F)) (c : Dev nD), (Pipeline.ΦA spec1 c : sProp 𝕄) ⊢ (dat V c).Φ 0
  hout : ∀ (V : Contents (F := F)) (c : Dev nD), (dat V c).Φ (Fin.last cfg1.N) ⊢ (Pipeline.ΦA spec1 c : sProp 𝕄)

structure Region2 where
  dat : Contents (F := F) → (c : Dev nD) → Dat τ (Elt F) Unit ℕ (UR sig nD τ) ℕ cfg2 c
  A_eq : ∀ (V : Contents (F := F)) (c : Dev nD) (w : Fin cfg2.W), (dat V c).A w = V c (Pipeline.arrRef spec2 w)
  q_eq : ∀ (V : Contents (F := F)) (c : Dev nD) (w : Fin cfg2.W), (dat V c).q w = fullShare
  owed_eq : ∀ (V : Contents (F := F)) (c : Dev nD) (t : Fin (cfg2.N + 1)), (dat V c).owed t = 0
  rec_eq : ∀ (V : Contents (F := F)) (c : Dev nD) (t : Fin (cfg2.N + 1)), (dat V c).recorded t = Set.univ
  body : ∀ (V : Contents (F := F)) (c : Dev nD), BodyObligation (dat V c) (defs₀ (F := F)) Variants.none () Set.univ
  hin : ∀ (V : Contents (F := F)) (c : Dev nD), (Pipeline.ΦA spec2 c : sProp 𝕄) ⊢ (dat V c).Φ 0
  hout : ∀ (V : Contents (F := F)) (c : Dev nD), (dat V c).Φ (Fin.last cfg2.N) ⊢ (Pipeline.ΦA spec2 c : sProp 𝕄)

structure Region3 where
  dat : Contents (F := F) → (c : Dev nD) → Dat τ (Elt F) Unit ℕ (UR sig nD τ) ℕ cfg3 c
  A_eq : ∀ (V : Contents (F := F)) (c : Dev nD) (w : Fin cfg3.W), (dat V c).A w = V c (Pipeline.arrRef spec3 w)
  q_eq : ∀ (V : Contents (F := F)) (c : Dev nD) (w : Fin cfg3.W), (dat V c).q w = fullShare
  owed_eq : ∀ (V : Contents (F := F)) (c : Dev nD) (t : Fin (cfg3.N + 1)), (dat V c).owed t = 0
  rec_eq : ∀ (V : Contents (F := F)) (c : Dev nD) (t : Fin (cfg3.N + 1)), (dat V c).recorded t = Set.univ
  body : ∀ (V : Contents (F := F)) (c : Dev nD), BodyObligation (dat V c) (defs₀ (F := F)) Variants.none () Set.univ
  hin : ∀ (V : Contents (F := F)) (c : Dev nD), (Pipeline.ΦA spec3 c : sProp 𝕄) ⊢ (dat V c).Φ 0
  hout : ∀ (V : Contents (F := F)) (c : Dev nD), (dat V c).Φ (Fin.last cfg3.N) ⊢ (Pipeline.ΦA spec3 c : sProp 𝕄)

structure Region4 where
  dat : Contents (F := F) → (c : Dev nD) → Dat τ (Elt F) Unit ℕ (UR sig nD τ) ℕ cfg4 c
  A_eq : ∀ (V : Contents (F := F)) (c : Dev nD) (w : Fin cfg4.W), (dat V c).A w = V c (Pipeline.arrRef spec4 w)
  q_eq : ∀ (V : Contents (F := F)) (c : Dev nD) (w : Fin cfg4.W), (dat V c).q w = fullShare
  owed_eq : ∀ (V : Contents (F := F)) (c : Dev nD) (t : Fin (cfg4.N + 1)), (dat V c).owed t = 0
  rec_eq : ∀ (V : Contents (F := F)) (c : Dev nD) (t : Fin (cfg4.N + 1)), (dat V c).recorded t = Set.univ
  body : ∀ (V : Contents (F := F)) (c : Dev nD), BodyObligation (dat V c) (defs₀ (F := F)) Variants.none () Set.univ
  hin : ∀ (V : Contents (F := F)) (c : Dev nD), (Pipeline.ΦA spec4 c : sProp 𝕄) ⊢ (dat V c).Φ 0
  hout : ∀ (V : Contents (F := F)) (c : Dev nD), (dat V c).Φ (Fin.last cfg4.N) ⊢ (Pipeline.ΦA spec4 c : sProp 𝕄)

structure Region5 where
  dat : Contents (F := F) → (c : Dev nD) → Dat τ (Elt F) Unit ℕ (UR sig nD τ) ℕ cfg5 c
  A_eq : ∀ (V : Contents (F := F)) (c : Dev nD) (w : Fin cfg5.W), (dat V c).A w = V c (Pipeline.arrRef spec5 w)
  q_eq : ∀ (V : Contents (F := F)) (c : Dev nD) (w : Fin cfg5.W), (dat V c).q w = (dat V c).q w
  owed_eq : ∀ (V : Contents (F := F)) (c : Dev nD) (t : Fin (cfg5.N + 1)), (dat V c).owed t = 0
  rec_eq : ∀ (V : Contents (F := F)) (c : Dev nD) (t : Fin (cfg5.N + 1)), (dat V c).recorded t = Set.univ
  body : ∀ (V : Contents (F := F)) (c : Dev nD), BodyObligation (dat V c) (defs₀ (F := F)) Variants.none () Set.univ
  hin : ∀ (V : Contents (F := F)) (c : Dev nD), (Pipeline.ΦA spec5 c : sProp 𝕄) ⊢ (dat V c).Φ 0
  hout : ∀ (V : Contents (F := F)) (c : Dev nD), (dat V c).Φ (Fin.last cfg5.N) ⊢ (Pipeline.ΦA spec5 c : sProp 𝕄)
  hsplit : ∀ (V : Contents (F := F)) (c : Dev nD), (unscopedBufs c (V c) : sProp 𝕄) ⊢ iprop((dat V c).arrays ((dat V c).arrAt · 0) ∗ Pipeline.unscopedRest spec5 c (V c))
  hjoin : ∀ (V : Contents (F := F)) (c : Dev nD) (V' : (b : Ref sig .tc) → Buf (Elt F) ((c : Thread nD τ).loc b)),
    (∀ w, (dat V c).arrAt w cfg5.N = V' (Pipeline.arrRef spec5 w)) →
    (∀ b, b ∉ Finset.univ.image (Pipeline.arrRef spec5) → V' b = V c b) →
    iprop((dat V c).arrays ((dat V c).arrAt · cfg5.N) ∗ Pipeline.unscopedRest spec5 c (V c)) ⊢ (unscopedBufs c V' : sProp 𝕄)

structure Region6 where
  dat : Contents (F := F) → (c : Dev nD) → Dat τ (Elt F) Unit ℕ (UR sig nD τ) ℕ cfg6 c
  A_eq : ∀ (V : Contents (F := F)) (c : Dev nD) (w : Fin cfg6.W), (dat V c).A w = V c (Pipeline.arrRef spec6 w)
  q_eq : ∀ (V : Contents (F := F)) (c : Dev nD) (w : Fin cfg6.W), (dat V c).q w = fullShare
  owed_eq : ∀ (V : Contents (F := F)) (c : Dev nD) (t : Fin (cfg6.N + 1)), (dat V c).owed t = 0
  rec_eq : ∀ (V : Contents (F := F)) (c : Dev nD) (t : Fin (cfg6.N + 1)), (dat V c).recorded t = Set.univ
  body : ∀ (V : Contents (F := F)) (c : Dev nD), BodyObligation (dat V c) (defs₀ (F := F)) Variants.none () Set.univ
  hin : ∀ (V : Contents (F := F)) (c : Dev nD), (Pipeline.ΦA spec6 c : sProp 𝕄) ⊢ (dat V c).Φ 0
  hout : ∀ (V : Contents (F := F)) (c : Dev nD), (dat V c).Φ (Fin.last cfg6.N) ⊢ (Pipeline.ΦA spec6 c : sProp 𝕄)

structure Region7 where
  dat : Contents (F := F) → (c : Dev nD) → Dat τ (Elt F) Unit ℕ (UR sig nD τ) ℕ cfg7 c
  A_eq : ∀ (V : Contents (F := F)) (c : Dev nD) (w : Fin cfg7.W), (dat V c).A w = V c (Pipeline.arrRef spec7 w)
  q_eq : ∀ (V : Contents (F := F)) (c : Dev nD) (w : Fin cfg7.W), (dat V c).q w = fullShare
  owed_eq : ∀ (V : Contents (F := F)) (c : Dev nD) (t : Fin (cfg7.N + 1)), (dat V c).owed t = 0
  rec_eq : ∀ (V : Contents (F := F)) (c : Dev nD) (t : Fin (cfg7.N + 1)), (dat V c).recorded t = Set.univ
  body : ∀ (V : Contents (F := F)) (c : Dev nD), BodyObligation (dat V c) (defs₀ (F := F)) Variants.none () Set.univ
  hin : ∀ (V : Contents (F := F)) (c : Dev nD), (Pipeline.ΦA spec7 c : sProp 𝕄) ⊢ (dat V c).Φ 0
  hout : ∀ (V : Contents (F := F)) (c : Dev nD), (dat V c).Φ (Fin.last cfg7.N) ⊢ (Pipeline.ΦA spec7 c : sProp 𝕄)

/-- With nothing owed and no bound on the recorded pairs, the pipeline's form of a core's dues is the plain one. -/
theorem owesAt_of {cfg : Cfg sig Λ₀} {c : Dev nD} (dat : Dat τ (Elt F) Unit ℕ (UR sig nD τ) ℕ cfg c) (t : Fin (cfg.N + 1))
    (ho : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin Pipeline.Dat.bound
  rw [ho, hr]
  iintro ⟨%W, HO⟩; iexists W; isplitr; · ipureintro; exact fun _ _ => Or.inl trivial
  iexact HO

theorem of_owesAt {cfg : Cfg sig Λ₀} {c : Dev nD} (dat : Dat τ (Elt F) Unit ℕ (UR sig nD τ) ℕ cfg c) (t : Fin (cfg.N + 1))
    (ho : dat.owed t = 0) :
    dat.owesAt () t ⊢ (iprop(∃ W, owes (c : Thread nD τ) (0 : CellTallies nD τ sig Unit) W) : sProp 𝕄) := by
  unfold Pipeline.Dat.owesAt Pipeline.owesWithin
  rw [ho]
  iintro ⟨%W, -, HO⟩; iexists W; iexact HO

section Run

variable (m : (ℓ : Loc nD τ sig) → Buf (Elt F) ℓ) (ρ : Dev nD → PrngReg)
variable (R0 : Region0 (F := F)) (R1 : Region1 (F := F)) (R2 : Region2 (F := F)) (R3 : Region3 (F := F)) (R4 : Region4 (F := F)) (R5 : Region5 (F := F)) (R6 : Region6 (F := F)) (R7 : Region7 (F := F))

/-! ## The buffer contents at each boundary: a fold through @main -/

/-- Core `c`'s buffers at launch (region 0's entry). -/
abbrev B0 : Dev nD → Valuation τ sig (Elt F) := fun c b => m (c, b)
/-- The same read at the TensorCore's references. -/
abbrev C0 : Contents (F := F) := fun c b => B0 m c b
/-- At region 0's exit: its arrays at what the pipeline leaves, every other buffer as entered. -/
def B1 (c : Dev nD) : Valuation τ sig (Elt F) :=
  Pipeline.withArrays spec0 c (B0 m  c) fun w => (R0.dat (C0 m ) c).arrAt w cfg0.N
theorem B1_arr (c : Dev nD) (w : Fin cfg0.W) :
    B1 m R0 c (Proc.devRef .tc (Pipeline.arrRef spec0 w)) = (R0.dat (C0 m ) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m R0 c (Proc.devRef .tc b) = B0 m  c (Proc.devRef .tc b) := by
  unfold B1; exact Pipeline.withArrays_of_ne spec0 c _ _ b hb
/-- The same read at the TensorCore's references. -/
abbrev C1 : Contents (F := F) := fun c b => B1 m R0 c b
/-- After the host stretch `hostOps1`. -/
abbrev B2 : Dev nD → Valuation τ sig (Elt F) := fun c => StableHlo.after hostOps1 (B1 m R0 c)
abbrev C2 : Contents (F := F) := fun c b => B2 m R0 c b
/-- At region 1's exit: its arrays at what the pipeline leaves, every other buffer as entered. -/
def B3 (c : Dev nD) : Valuation τ sig (Elt F) :=
  Pipeline.withArrays spec1 c (B2 m R0 c) fun w => (R1.dat (C2 m R0) c).arrAt w cfg1.N
theorem B3_arr (c : Dev nD) (w : Fin cfg1.W) :
    B3 m R0 R1 c (Proc.devRef .tc (Pipeline.arrRef spec1 w)) = (R1.dat (C2 m R0) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m R0 R1 c (Proc.devRef .tc b) = B2 m R0 c (Proc.devRef .tc b) := by
  unfold B3; exact Pipeline.withArrays_of_ne spec1 c _ _ b hb
/-- The same read at the TensorCore's references. -/
abbrev C3 : Contents (F := F) := fun c b => B3 m R0 R1 c b
/-- After the host stretch `hostOps2`. -/
abbrev B4 : Dev nD → Valuation τ sig (Elt F) := fun c => StableHlo.after hostOps2 (B3 m R0 R1 c)
abbrev C4 : Contents (F := F) := fun c b => B4 m R0 R1 c b
/-- At region 2's exit: its arrays at what the pipeline leaves, every other buffer as entered. -/
def B5 (c : Dev nD) : Valuation τ sig (Elt F) :=
  Pipeline.withArrays spec2 c (B4 m R0 R1 c) fun w => (R2.dat (C4 m R0 R1) c).arrAt w cfg2.N
theorem B5_arr (c : Dev nD) (w : Fin cfg2.W) :
    B5 m R0 R1 R2 c (Proc.devRef .tc (Pipeline.arrRef spec2 w)) = (R2.dat (C4 m R0 R1) c).arrAt w cfg2.N := by
  unfold B5; exact Pipeline.withArrays_arr spec2 launch2.win.arr_inj c _ _ w
theorem B5_of_ne (c : Dev nD) (b : Ref sig .tc) (hb : ∀ w, Pipeline.arrRef spec2 w ≠ b) :
    B5 m R0 R1 R2 c (Proc.devRef .tc b) = B4 m R0 R1 c (Proc.devRef .tc b) := by
  unfold B5; exact Pipeline.withArrays_of_ne spec2 c _ _ b hb
/-- The same read at the TensorCore's references. -/
abbrev C5 : Contents (F := F) := fun c b => B5 m R0 R1 R2 c b
/-- After the host stretch `hostOps3`. -/
abbrev B6 : Dev nD → Valuation τ sig (Elt F) := fun c => StableHlo.after hostOps3 (B5 m R0 R1 R2 c)
abbrev C6 : Contents (F := F) := fun c b => B6 m R0 R1 R2 c b
/-- At region 3's exit: its arrays at what the pipeline leaves, every other buffer as entered. -/
def B7 (c : Dev nD) : Valuation τ sig (Elt F) :=
  Pipeline.withArrays spec3 c (B6 m R0 R1 R2 c) fun w => (R3.dat (C6 m R0 R1 R2) c).arrAt w cfg3.N
theorem B7_arr (c : Dev nD) (w : Fin cfg3.W) :
    B7 m R0 R1 R2 R3 c (Proc.devRef .tc (Pipeline.arrRef spec3 w)) = (R3.dat (C6 m R0 R1 R2) c).arrAt w cfg3.N := by
  unfold B7; exact Pipeline.withArrays_arr spec3 launch3.win.arr_inj c _ _ w
theorem B7_of_ne (c : Dev nD) (b : Ref sig .tc) (hb : ∀ w, Pipeline.arrRef spec3 w ≠ b) :
    B7 m R0 R1 R2 R3 c (Proc.devRef .tc b) = B6 m R0 R1 R2 c (Proc.devRef .tc b) := by
  unfold B7; exact Pipeline.withArrays_of_ne spec3 c _ _ b hb
/-- The same read at the TensorCore's references. -/
abbrev C7 : Contents (F := F) := fun c b => B7 m R0 R1 R2 R3 c b
/-- After the host stretch `hostOps4`. -/
abbrev B8 : Dev nD → Valuation τ sig (Elt F) := fun c => StableHlo.after hostOps4 (B7 m R0 R1 R2 R3 c)
abbrev C8 : Contents (F := F) := fun c b => B8 m R0 R1 R2 R3 c b
/-- At region 4's exit: its arrays at what the pipeline leaves, every other buffer as entered. -/
def B9 (c : Dev nD) : Valuation τ sig (Elt F) :=
  Pipeline.withArrays spec4 c (B8 m R0 R1 R2 R3 c) fun w => (R4.dat (C8 m R0 R1 R2 R3) c).arrAt w cfg4.N
theorem B9_arr (c : Dev nD) (w : Fin cfg4.W) :
    B9 m R0 R1 R2 R3 R4 c (Proc.devRef .tc (Pipeline.arrRef spec4 w)) = (R4.dat (C8 m R0 R1 R2 R3) c).arrAt w cfg4.N := by
  unfold B9; exact Pipeline.withArrays_arr spec4 launch4.win.arr_inj c _ _ w
theorem B9_of_ne (c : Dev nD) (b : Ref sig .tc) (hb : ∀ w, Pipeline.arrRef spec4 w ≠ b) :
    B9 m R0 R1 R2 R3 R4 c (Proc.devRef .tc b) = B8 m R0 R1 R2 R3 c (Proc.devRef .tc b) := by
  unfold B9; exact Pipeline.withArrays_of_ne spec4 c _ _ b hb
/-- The same read at the TensorCore's references. -/
abbrev C9 : Contents (F := F) := fun c b => B9 m R0 R1 R2 R3 R4 c b
/-- At region 5's exit: its output array at what the pipeline leaves, every other buffer (the shared input array among
    them) as entered. -/
def B10 (c : Dev nD) : Valuation τ sig (Elt F) :=
  Function.update (B9 m R0 R1 R2 R3 R4 c) (Proc.devRef .tc (Pipeline.arrRef spec5 2)) ((R5.dat (C9 m R0 R1 R2 R3 R4) c).arrAt 2 cfg5.N)
theorem B10_out (c : Dev nD) :
    B10 m R0 R1 R2 R3 R4 R5 c (Proc.devRef .tc (Pipeline.arrRef spec5 2)) = (R5.dat (C9 m R0 R1 R2 R3 R4) c).arrAt 2 cfg5.N := by
  unfold B10; exact Function.update_self _ _ _
theorem B10_of_ne (c : Dev nD) (b : Ref sig .tc) (hb : Pipeline.arrRef spec5 2 ≠ b) :
    B10 m R0 R1 R2 R3 R4 R5 c (Proc.devRef .tc b) = B9 m R0 R1 R2 R3 R4 c (Proc.devRef .tc b) := by
  unfold B10; exact Function.update_of_ne (StableHlo.devRef_ne_of_ne (Ne.symm hb)) _ _
/-- The same read at the TensorCore's references. -/
abbrev C10 : Contents (F := F) := fun c b => B10 m R0 R1 R2 R3 R4 R5 c b
/-- After the host stretch `hostOps6`. -/
abbrev B11 : Dev nD → Valuation τ sig (Elt F) := fun c => StableHlo.after hostOps6 (B10 m R0 R1 R2 R3 R4 R5 c)
abbrev C11 : Contents (F := F) := fun c b => B11 m R0 R1 R2 R3 R4 R5 c b
/-- At region 6's exit: its arrays at what the pipeline leaves, every other buffer as entered. -/
def B12 (c : Dev nD) : Valuation τ sig (Elt F) :=
  Pipeline.withArrays spec6 c (B11 m R0 R1 R2 R3 R4 R5 c) fun w => (R6.dat (C11 m R0 R1 R2 R3 R4 R5) c).arrAt w cfg6.N
theorem B12_arr (c : Dev nD) (w : Fin cfg6.W) :
    B12 m R0 R1 R2 R3 R4 R5 R6 c (Proc.devRef .tc (Pipeline.arrRef spec6 w)) = (R6.dat (C11 m R0 R1 R2 R3 R4 R5) c).arrAt w cfg6.N := by
  unfold B12; exact Pipeline.withArrays_arr spec6 launch6.win.arr_inj c _ _ w
theorem B12_of_ne (c : Dev nD) (b : Ref sig .tc) (hb : ∀ w, Pipeline.arrRef spec6 w ≠ b) :
    B12 m R0 R1 R2 R3 R4 R5 R6 c (Proc.devRef .tc b) = B11 m R0 R1 R2 R3 R4 R5 c (Proc.devRef .tc b) := by
  unfold B12; exact Pipeline.withArrays_of_ne spec6 c _ _ b hb
/-- The same read at the TensorCore's references. -/
abbrev C12 : Contents (F := F) := fun c b => B12 m R0 R1 R2 R3 R4 R5 R6 c b
/-- After the host stretch `hostOps7`. -/
abbrev B13 : Dev nD → Valuation τ sig (Elt F) := fun c => StableHlo.after hostOps7 (B12 m R0 R1 R2 R3 R4 R5 R6 c)
abbrev C13 : Contents (F := F) := fun c b => B13 m R0 R1 R2 R3 R4 R5 R6 c b
/-- At region 7's exit: its arrays at what the pipeline leaves, every other buffer as entered. -/
def B14 (c : Dev nD) : Valuation τ sig (Elt F) :=
  Pipeline.withArrays spec7 c (B13 m R0 R1 R2 R3 R4 R5 R6 c) fun w => (R7.dat (C13 m R0 R1 R2 R3 R4 R5 R6) c).arrAt w cfg7.N
theorem B14_arr (c : Dev nD) (w : Fin cfg7.W) :
    B14 m R0 R1 R2 R3 R4 R5 R6 R7 c (Proc.devRef .tc (Pipeline.arrRef spec7 w)) = (R7.dat (C13 m R0 R1 R2 R3 R4 R5 R6) c).arrAt w cfg7.N := by
  unfold B14; exact Pipeline.withArrays_arr spec7 launch7.win.arr_inj c _ _ w
theorem B14_of_ne (c : Dev nD) (b : Ref sig .tc) (hb : ∀ w, Pipeline.arrRef spec7 w ≠ b) :
    B14 m R0 R1 R2 R3 R4 R5 R6 R7 c (Proc.devRef .tc b) = B13 m R0 R1 R2 R3 R4 R5 R6 c (Proc.devRef .tc b) := by
  unfold B14; exact Pipeline.withArrays_of_ne spec7 c _ _ b hb
/-- The same read at the TensorCore's references. -/
abbrev C14 : Contents (F := F) := fun c b => B14 m R0 R1 R2 R3 R4 R5 R6 R7 c b

/-! ## What each item leaves unchanged -/

/-- Region 0 changes its output array alone: an input window's array ends as it was entered, and no other buffer is touched. -/
theorem B1_keep (c : Dev nD) (r : Ref sig .tc) (h : Pipeline.arrRef spec0 1 ≠ r) :
    B1 m R0 c (Proc.devRef .tc r) = B0 m  c (Proc.devRef .tc r) := by
  by_cases hr : ∃ w, Pipeline.arrRef spec0 w = r
  · obtain ⟨w, rfl⟩ := hr
    match w with
    | ⟨0, _⟩ => exact (B1_arr m R0 c 0).trans (((R0.dat (C0 m ) c).arrAt_in 0 rfl _).trans (R0.A_eq (C0 m ) c 0))
    | ⟨1, _⟩ => exact absurd rfl h
  · exact B1_of_ne m R0 c r fun w e => hr ⟨w, e⟩
/-- The host stretch `hostOps1` writes its one result alone. -/
theorem B2_keep (c : Dev nD) (r : Ref sig .tc) (h : r ∉ hostOps1_W) :
    B2 m R0 c (Proc.devRef .tc r) = B1 m R0 c (Proc.devRef .tc r) :=
  StableHlo.after_of_writes_sub hostOps1 _ hostOps1_writes h
/-- Region 1 changes its output array alone: an input window's array ends as it was entered, and no other buffer is touched. -/
theorem B3_keep (c : Dev nD) (r : Ref sig .tc) (h : Pipeline.arrRef spec1 3 ≠ r) :
    B3 m R0 R1 c (Proc.devRef .tc r) = B2 m R0 c (Proc.devRef .tc r) := by
  by_cases hr : ∃ w, Pipeline.arrRef spec1 w = r
  · obtain ⟨w, rfl⟩ := hr
    match w with
    | ⟨0, _⟩ => exact (B3_arr m R0 R1 c 0).trans (((R1.dat (C2 m R0) c).arrAt_in 0 rfl _).trans (R1.A_eq (C2 m R0) c 0))
    | ⟨1, _⟩ => exact (B3_arr m R0 R1 c 1).trans (((R1.dat (C2 m R0) c).arrAt_in 1 rfl _).trans (R1.A_eq (C2 m R0) c 1))
    | ⟨2, _⟩ => exact (B3_arr m R0 R1 c 2).trans (((R1.dat (C2 m R0) c).arrAt_in 2 rfl _).trans (R1.A_eq (C2 m R0) c 2))
    | ⟨3, _⟩ => exact absurd rfl h
  · exact B3_of_ne m R0 R1 c r fun w e => hr ⟨w, e⟩
/-- The host stretch `hostOps2` writes its one result alone. -/
theorem B4_keep (c : Dev nD) (r : Ref sig .tc) (h : r ∉ hostOps2_W) :
    B4 m R0 R1 c (Proc.devRef .tc r) = B3 m R0 R1 c (Proc.devRef .tc r) :=
  StableHlo.after_of_writes_sub hostOps2 _ hostOps2_writes h
/-- Region 2 changes its output array alone: an input window's array ends as it was entered, and no other buffer is touched. -/
theorem B5_keep (c : Dev nD) (r : Ref sig .tc) (h : Pipeline.arrRef spec2 4 ≠ r) :
    B5 m R0 R1 R2 c (Proc.devRef .tc r) = B4 m R0 R1 c (Proc.devRef .tc r) := by
  by_cases hr : ∃ w, Pipeline.arrRef spec2 w = r
  · obtain ⟨w, rfl⟩ := hr
    match w with
    | ⟨0, _⟩ => exact (B5_arr m R0 R1 R2 c 0).trans (((R2.dat (C4 m R0 R1) c).arrAt_in 0 rfl _).trans (R2.A_eq (C4 m R0 R1) c 0))
    | ⟨1, _⟩ => exact (B5_arr m R0 R1 R2 c 1).trans (((R2.dat (C4 m R0 R1) c).arrAt_in 1 rfl _).trans (R2.A_eq (C4 m R0 R1) c 1))
    | ⟨2, _⟩ => exact (B5_arr m R0 R1 R2 c 2).trans (((R2.dat (C4 m R0 R1) c).arrAt_in 2 rfl _).trans (R2.A_eq (C4 m R0 R1) c 2))
    | ⟨3, _⟩ => exact (B5_arr m R0 R1 R2 c 3).trans (((R2.dat (C4 m R0 R1) c).arrAt_in 3 rfl _).trans (R2.A_eq (C4 m R0 R1) c 3))
    | ⟨4, _⟩ => exact absurd rfl h
  · exact B5_of_ne m R0 R1 R2 c r fun w e => hr ⟨w, e⟩
/-- The host stretch `hostOps3` writes its one result alone. -/
theorem B6_keep (c : Dev nD) (r : Ref sig .tc) (h : r ∉ hostOps3_W) :
    B6 m R0 R1 R2 c (Proc.devRef .tc r) = B5 m R0 R1 R2 c (Proc.devRef .tc r) :=
  StableHlo.after_of_writes_sub hostOps3 _ hostOps3_writes h
/-- Region 3 changes its output array alone: an input window's array ends as it was entered, and no other buffer is touched. -/
theorem B7_keep (c : Dev nD) (r : Ref sig .tc) (h : Pipeline.arrRef spec3 4 ≠ r) :
    B7 m R0 R1 R2 R3 c (Proc.devRef .tc r) = B6 m R0 R1 R2 c (Proc.devRef .tc r) := by
  by_cases hr : ∃ w, Pipeline.arrRef spec3 w = r
  · obtain ⟨w, rfl⟩ := hr
    match w with
    | ⟨0, _⟩ => exact (B7_arr m R0 R1 R2 R3 c 0).trans (((R3.dat (C6 m R0 R1 R2) c).arrAt_in 0 rfl _).trans (R3.A_eq (C6 m R0 R1 R2) c 0))
    | ⟨1, _⟩ => exact (B7_arr m R0 R1 R2 R3 c 1).trans (((R3.dat (C6 m R0 R1 R2) c).arrAt_in 1 rfl _).trans (R3.A_eq (C6 m R0 R1 R2) c 1))
    | ⟨2, _⟩ => exact (B7_arr m R0 R1 R2 R3 c 2).trans (((R3.dat (C6 m R0 R1 R2) c).arrAt_in 2 rfl _).trans (R3.A_eq (C6 m R0 R1 R2) c 2))
    | ⟨3, _⟩ => exact (B7_arr m R0 R1 R2 R3 c 3).trans (((R3.dat (C6 m R0 R1 R2) c).arrAt_in 3 rfl _).trans (R3.A_eq (C6 m R0 R1 R2) c 3))
    | ⟨4, _⟩ => exact absurd rfl h
  · exact B7_of_ne m R0 R1 R2 R3 c r fun w e => hr ⟨w, e⟩
/-- The host stretch `hostOps4` writes its one result alone. -/
theorem B8_keep (c : Dev nD) (r : Ref sig .tc) (h : r ∉ hostOps4_W) :
    B8 m R0 R1 R2 R3 c (Proc.devRef .tc r) = B7 m R0 R1 R2 R3 c (Proc.devRef .tc r) :=
  StableHlo.after_of_writes_sub hostOps4 _ hostOps4_writes h
/-- Region 4 changes its output array alone: an input window's array ends as it was entered, and no other buffer is touched. -/
theorem B9_keep (c : Dev nD) (r : Ref sig .tc) (h : Pipeline.arrRef spec4 4 ≠ r) :
    B9 m R0 R1 R2 R3 R4 c (Proc.devRef .tc r) = B8 m R0 R1 R2 R3 c (Proc.devRef .tc r) := by
  by_cases hr : ∃ w, Pipeline.arrRef spec4 w = r
  · obtain ⟨w, rfl⟩ := hr
    match w with
    | ⟨0, _⟩ => exact (B9_arr m R0 R1 R2 R3 R4 c 0).trans (((R4.dat (C8 m R0 R1 R2 R3) c).arrAt_in 0 rfl _).trans (R4.A_eq (C8 m R0 R1 R2 R3) c 0))
    | ⟨1, _⟩ => exact (B9_arr m R0 R1 R2 R3 R4 c 1).trans (((R4.dat (C8 m R0 R1 R2 R3) c).arrAt_in 1 rfl _).trans (R4.A_eq (C8 m R0 R1 R2 R3) c 1))
    | ⟨2, _⟩ => exact (B9_arr m R0 R1 R2 R3 R4 c 2).trans (((R4.dat (C8 m R0 R1 R2 R3) c).arrAt_in 2 rfl _).trans (R4.A_eq (C8 m R0 R1 R2 R3) c 2))
    | ⟨3, _⟩ => exact (B9_arr m R0 R1 R2 R3 R4 c 3).trans (((R4.dat (C8 m R0 R1 R2 R3) c).arrAt_in 3 rfl _).trans (R4.A_eq (C8 m R0 R1 R2 R3) c 3))
    | ⟨4, _⟩ => exact absurd rfl h
  · exact B9_of_ne m R0 R1 R2 R3 R4 c r fun w e => hr ⟨w, e⟩
/-- Region 5 changes its output array alone. -/
theorem B10_keep (c : Dev nD) (r : Ref sig .tc) (h : Pipeline.arrRef spec5 2 ≠ r) :
    B10 m R0 R1 R2 R3 R4 R5 c (Proc.devRef .tc r) = B9 m R0 R1 R2 R3 R4 c (Proc.devRef .tc r) := B10_of_ne m R0 R1 R2 R3 R4 R5 c r h
/-- The host stretch `hostOps6` writes its one result alone. -/
theorem B11_keep (c : Dev nD) (r : Ref sig .tc) (h : r ∉ hostOps6_W) :
    B11 m R0 R1 R2 R3 R4 R5 c (Proc.devRef .tc r) = B10 m R0 R1 R2 R3 R4 R5 c (Proc.devRef .tc r) :=
  StableHlo.after_of_writes_sub hostOps6 _ hostOps6_writes h
/-- Region 6 changes its output array alone: an input window's array ends as it was entered, and no other buffer is touched. -/
theorem B12_keep (c : Dev nD) (r : Ref sig .tc) (h : Pipeline.arrRef spec6 4 ≠ r) :
    B12 m R0 R1 R2 R3 R4 R5 R6 c (Proc.devRef .tc r) = B11 m R0 R1 R2 R3 R4 R5 c (Proc.devRef .tc r) := by
  by_cases hr : ∃ w, Pipeline.arrRef spec6 w = r
  · obtain ⟨w, rfl⟩ := hr
    match w with
    | ⟨0, _⟩ => exact (B12_arr m R0 R1 R2 R3 R4 R5 R6 c 0).trans (((R6.dat (C11 m R0 R1 R2 R3 R4 R5) c).arrAt_in 0 rfl _).trans (R6.A_eq (C11 m R0 R1 R2 R3 R4 R5) c 0))
    | ⟨1, _⟩ => exact (B12_arr m R0 R1 R2 R3 R4 R5 R6 c 1).trans (((R6.dat (C11 m R0 R1 R2 R3 R4 R5) c).arrAt_in 1 rfl _).trans (R6.A_eq (C11 m R0 R1 R2 R3 R4 R5) c 1))
    | ⟨2, _⟩ => exact (B12_arr m R0 R1 R2 R3 R4 R5 R6 c 2).trans (((R6.dat (C11 m R0 R1 R2 R3 R4 R5) c).arrAt_in 2 rfl _).trans (R6.A_eq (C11 m R0 R1 R2 R3 R4 R5) c 2))
    | ⟨3, _⟩ => exact (B12_arr m R0 R1 R2 R3 R4 R5 R6 c 3).trans (((R6.dat (C11 m R0 R1 R2 R3 R4 R5) c).arrAt_in 3 rfl _).trans (R6.A_eq (C11 m R0 R1 R2 R3 R4 R5) c 3))
    | ⟨4, _⟩ => exact absurd rfl h
  · exact B12_of_ne m R0 R1 R2 R3 R4 R5 R6 c r fun w e => hr ⟨w, e⟩
/-- The host stretch `hostOps7` writes its one result alone. -/
theorem B13_keep (c : Dev nD) (r : Ref sig .tc) (h : r ∉ hostOps7_W) :
    B13 m R0 R1 R2 R3 R4 R5 R6 c (Proc.devRef .tc r) = B12 m R0 R1 R2 R3 R4 R5 R6 c (Proc.devRef .tc r) :=
  StableHlo.after_of_writes_sub hostOps7 _ hostOps7_writes h
/-- Region 7 changes its output array alone: an input window's array ends as it was entered, and no other buffer is touched. -/
theorem B14_keep (c : Dev nD) (r : Ref sig .tc) (h : Pipeline.arrRef spec7 4 ≠ r) :
    B14 m R0 R1 R2 R3 R4 R5 R6 R7 c (Proc.devRef .tc r) = B13 m R0 R1 R2 R3 R4 R5 R6 c (Proc.devRef .tc r) := by
  by_cases hr : ∃ w, Pipeline.arrRef spec7 w = r
  · obtain ⟨w, rfl⟩ := hr
    match w with
    | ⟨0, _⟩ => exact (B14_arr m R0 R1 R2 R3 R4 R5 R6 R7 c 0).trans (((R7.dat (C13 m R0 R1 R2 R3 R4 R5 R6) c).arrAt_in 0 rfl _).trans (R7.A_eq (C13 m R0 R1 R2 R3 R4 R5 R6) c 0))
    | ⟨1, _⟩ => exact (B14_arr m R0 R1 R2 R3 R4 R5 R6 R7 c 1).trans (((R7.dat (C13 m R0 R1 R2 R3 R4 R5 R6) c).arrAt_in 1 rfl _).trans (R7.A_eq (C13 m R0 R1 R2 R3 R4 R5 R6) c 1))
    | ⟨2, _⟩ => exact (B14_arr m R0 R1 R2 R3 R4 R5 R6 R7 c 2).trans (((R7.dat (C13 m R0 R1 R2 R3 R4 R5 R6) c).arrAt_in 2 rfl _).trans (R7.A_eq (C13 m R0 R1 R2 R3 R4 R5 R6) c 2))
    | ⟨3, _⟩ => exact (B14_arr m R0 R1 R2 R3 R4 R5 R6 R7 c 3).trans (((R7.dat (C13 m R0 R1 R2 R3 R4 R5 R6) c).arrAt_in 3 rfl _).trans (R7.A_eq (C13 m R0 R1 R2 R3 R4 R5 R6) c 3))
    | ⟨4, _⟩ => exact absurd rfl h
  · exact B14_of_ne m R0 R1 R2 R3 R4 R5 R6 R7 c r fun w e => hr ⟨w, e⟩

/-! ## The proof data family and the thread state -/

/-- Every pipeline's proof data, each at its region's entry contents: a literal match on the pipeline. -/
def pdats : (p : Fin 8) → (c : Dev nD) → Dat τ (Elt F) Unit ℕ (UR sig nD τ) ℕ (Pipeline.pin (pcfgs (F := F)) adm p) c
  | ⟨0, _⟩ => fun c => R0.dat (C0 m ) c
  | ⟨1, _⟩ => fun c => R1.dat (C2 m R0) c
  | ⟨2, _⟩ => fun c => R2.dat (C4 m R0 R1) c
  | ⟨3, _⟩ => fun c => R3.dat (C6 m R0 R1 R2) c
  | ⟨4, _⟩ => fun c => R4.dat (C8 m R0 R1 R2 R3) c
  | ⟨5, _⟩ => fun c => R5.dat (C9 m R0 R1 R2 R3 R4) c
  | ⟨6, _⟩ => fun c => R6.dat (C11 m R0 R1 R2 R3 R4 R5) c
  | ⟨7, _⟩ => fun c => R7.dat (C13 m R0 R1 R2 R3 R4 R5 R6) c

abbrev 𝒱₀ : Variants := Variants.none
/-- No core owes another anything: no level is assigned. -/
abbrev Lv : GSem nD τ sig → Finset Unit := fun _ => ∅
abbrev lv : GSem nD τ sig → Unit → ℕ := fun _ _ => 0
/-- What rides beside the buffers through every segment: the core's generator register at some state and its dues, at
    nothing. -/
abbrev Rest (c : Dev nD) : sProp 𝕄 := iprop((∃ r, prngReg c r) ∗ ∃ W, owes (c : Thread nD τ) (0 : CellTallies nD τ sig Unit) W)
/-- A host stretch as a segment over the unscoped references from the contents `W`, `Rest` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lv lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register
    at some state. -/
abbrev Tₙ (c : Dev nD) : sProp 𝕄 := iprop(StableHlo.held (c : Thread nD τ) (Pipeline.ucRefs τ sig) (B14 m R0 R1 R2 R3 R4 R5 R6 R7 c) ∗ ∃ r, prngReg c r)

/-! ## The regions as segments -/

theorem hF0 (c : Dev nD) (w : Fin cfg0.W) : (R0.dat (C0 m ) c).arrAt w cfg0.N = C1 m R0 c (Pipeline.arrRef spec0 w) :=
  (B1_arr m R0 c w).symm
theorem hrest0 (c : Dev nD) : ∀ b, b ∉ Finset.univ.image (Pipeline.arrRef spec0) → C1 m R0 c b = C0 m  c b :=
  fun b hb => B1_of_ne m R0 c b fun w e => hb (Finset.mem_image.mpr ⟨w, Finset.mem_univ _, e⟩)

set_option backward.isDefEq.respectTransparency.types false in
/-- REGION 0 over the thread state: entered from every unscoped buffer at its entry contents, left at its exit contents.
    Its arrays are split out of the unscoped buffers and put back at the exit contents; the generator register goes into
    the class invariant and comes out; nothing is owed; the kernel has no semaphore of its own. -/
def reg0 : Pipeline.RegionSeg (pcfgs (F := F)) adm (pdats m R0 R1 R2 R3 R4 R5 R6 R7) () defs₀ 𝒱₀ Lv lv 0 where
  win := launch0.win.to₀
  block_pos := launch0.block_pos
  stage_whole := launch0.stage_whole
  K := PEmpty
  osem k := k.elim
  ho := Pipeline.OwnSemFacts.none _
  hbody c := (R0.body (C0 m ) c).loose
  hwaits := Pipeline.hwaits_of_owed_zero _ _ _ _ Lv lv 0 fun c t => R0.owed_eq (C0 m ) c t
  pre c := iprop(StableHlo.held (c : Thread nD τ) (Pipeline.ucRefs τ sig) (B0 m  c) ∗ Rest c)
  post c := iprop(StableHlo.held (c : Thread nD τ) (Pipeline.ucRefs τ sig) (B1 m R0 c) ∗ Rest c)
  X c := iprop(∃ r, prngReg c r)
  Y c := iprop(∃ r, prngReg c r)
  Z c := Pipeline.unscopedRest (Ix := Unit) (Name := ℕ) (U := UR sig nD τ) (Lvl := ℕ) spec0 c (C0 m  c)
  hentry c := by
    rw [Pipeline.ownSems0_none]
    have hsplit := Pipeline.arrays_of_unscopedBufs (p := 0) (pcfgs (F := F)) adm (pdats m R0 R1 R2 R3 R4 R5 R6 R7) launch0.win launch0.arr_whole c
      ((pdats m R0 R1 R2 R3 R4 R5 R6 R7 0 c).share_full fun w => R0.q_eq (C0 m ) c w) (C0 m  c) fun w => R0.A_eq (C0 m ) c w
    rw [Pipeline.unscopedBufs_held] at hsplit
    have howes := owesAt_of (R0.dat (C0 m ) c) 0 (R0.owed_eq (C0 m ) c 0) (R0.rec_eq (C0 m ) c 0)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply howes; iexact HO
    isplitl [Hp]; · iexact Hp
    iexact Hrest
  hin c := by
    rw [show (pdats m R0 R1 R2 R3 R4 R5 R6 R7 0 c).Φ 0 = (R0.dat (C0 m ) c).Φ 0 from rfl]
    have h := R0.hin (C0 m ) c
    unfold Pipeline.ΦA at h
    iintro ⟨Hp, -, Hr⟩
    iapply h
    isplitl [Hr]; · iexact Hr
    iexact Hp
  hout c := by
    rw [Pipeline.ownSems0_none, show (pdats m R0 R1 R2 R3 R4 R5 R6 R7 0 c).Φ (Fin.last _) = (R0.dat (C0 m ) c).Φ (Fin.last cfg0.N) from rfl]
    have h := R0.hout (C0 m ) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m R0 R1 R2 R3 R4 R5 R6 R7) ((pdats m R0 R1 R2 R3 R4 R5 R6 R7 0 c).share_full fun w => R0.q_eq (C0 m ) c w)
      (C0 m  c) (C1 m R0 c) ((pdats m R0 R1 R2 R3 R4 R5 R6 R7 0 c).arrAt · cfg0.N) (hF0 m R0 c) (hrest0 m R0 c)
    rw [Pipeline.unscopedBufs_held] at hjoin
    have howes := of_owesAt (R0.dat (C0 m ) c) (Fin.last cfg0.N) (R0.owed_eq (C0 m ) c (Fin.last cfg0.N))
    iintro ⟨Ha, HO, HY, Hrest⟩
    imodintro
    isplitl [Ha Hrest]
    · iapply hjoin; isplitl [Ha] <;> iassumption
    isplitl [HY]; · iexact HY
    iapply howes; iexact HO

theorem hF1 (c : Dev nD) (w : Fin cfg1.W) : (R1.dat (C2 m R0) c).arrAt w cfg1.N = C3 m R0 R1 c (Pipeline.arrRef spec1 w) :=
  (B3_arr m R0 R1 c w).symm
theorem hrest1 (c : Dev nD) : ∀ b, b ∉ Finset.univ.image (Pipeline.arrRef spec1) → C3 m R0 R1 c b = C2 m R0 c b :=
  fun b hb => B3_of_ne m R0 R1 c b fun w e => hb (Finset.mem_image.mpr ⟨w, Finset.mem_univ _, e⟩)

set_option backward.isDefEq.respectTransparency.types false in
/-- REGION 1 over the thread state: entered from every unscoped buffer at its entry contents, left at its exit contents.
    Its arrays are split out of the unscoped buffers and put back at the exit contents; the generator register goes into
    the class invariant and comes out; nothing is owed; the kernel has no semaphore of its own. -/
def reg1 : Pipeline.RegionSeg (pcfgs (F := F)) adm (pdats m R0 R1 R2 R3 R4 R5 R6 R7) () defs₀ 𝒱₀ Lv lv 1 where
  win := launch1.win.to₀
  block_pos := launch1.block_pos
  stage_whole := launch1.stage_whole
  K := PEmpty
  osem k := k.elim
  ho := Pipeline.OwnSemFacts.none _
  hbody c := (R1.body (C2 m R0) c).loose
  hwaits := Pipeline.hwaits_of_owed_zero _ _ _ _ Lv lv 1 fun c t => R1.owed_eq (C2 m R0) c t
  pre c := iprop(StableHlo.held (c : Thread nD τ) (Pipeline.ucRefs τ sig) (B2 m R0 c) ∗ Rest c)
  post c := iprop(StableHlo.held (c : Thread nD τ) (Pipeline.ucRefs τ sig) (B3 m R0 R1 c) ∗ Rest c)
  X c := iprop(∃ r, prngReg c r)
  Y c := iprop(∃ r, prngReg c r)
  Z c := Pipeline.unscopedRest (Ix := Unit) (Name := ℕ) (U := UR sig nD τ) (Lvl := ℕ) spec1 c (C2 m R0 c)
  hentry c := by
    rw [Pipeline.ownSems0_none]
    have hsplit := Pipeline.arrays_of_unscopedBufs (p := 1) (pcfgs (F := F)) adm (pdats m R0 R1 R2 R3 R4 R5 R6 R7) launch1.win launch1.arr_whole c
      ((pdats m R0 R1 R2 R3 R4 R5 R6 R7 1 c).share_full fun w => R1.q_eq (C2 m R0) c w) (C2 m R0 c) fun w => R1.A_eq (C2 m R0) c w
    rw [Pipeline.unscopedBufs_held] at hsplit
    have howes := owesAt_of (R1.dat (C2 m R0) c) 0 (R1.owed_eq (C2 m R0) c 0) (R1.rec_eq (C2 m R0) c 0)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply howes; iexact HO
    isplitl [Hp]; · iexact Hp
    iexact Hrest
  hin c := by
    rw [show (pdats m R0 R1 R2 R3 R4 R5 R6 R7 1 c).Φ 0 = (R1.dat (C2 m R0) c).Φ 0 from rfl]
    have h := R1.hin (C2 m R0) c
    unfold Pipeline.ΦA at h
    iintro ⟨Hp, -, Hr⟩
    iapply h
    isplitl [Hr]; · iexact Hr
    iexact Hp
  hout c := by
    rw [Pipeline.ownSems0_none, show (pdats m R0 R1 R2 R3 R4 R5 R6 R7 1 c).Φ (Fin.last _) = (R1.dat (C2 m R0) c).Φ (Fin.last cfg1.N) from rfl]
    have h := R1.hout (C2 m R0) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m R0 R1 R2 R3 R4 R5 R6 R7) ((pdats m R0 R1 R2 R3 R4 R5 R6 R7 1 c).share_full fun w => R1.q_eq (C2 m R0) c w)
      (C2 m R0 c) (C3 m R0 R1 c) ((pdats m R0 R1 R2 R3 R4 R5 R6 R7 1 c).arrAt · cfg1.N) (hF1 m R0 R1 c) (hrest1 m R0 R1 c)
    rw [Pipeline.unscopedBufs_held] at hjoin
    have howes := of_owesAt (R1.dat (C2 m R0) c) (Fin.last cfg1.N) (R1.owed_eq (C2 m R0) c (Fin.last cfg1.N))
    iintro ⟨Ha, HO, HY, Hrest⟩
    imodintro
    isplitl [Ha Hrest]
    · iapply hjoin; isplitl [Ha] <;> iassumption
    isplitl [HY]; · iexact HY
    iapply howes; iexact HO

theorem hF2 (c : Dev nD) (w : Fin cfg2.W) : (R2.dat (C4 m R0 R1) c).arrAt w cfg2.N = C5 m R0 R1 R2 c (Pipeline.arrRef spec2 w) :=
  (B5_arr m R0 R1 R2 c w).symm
theorem hrest2 (c : Dev nD) : ∀ b, b ∉ Finset.univ.image (Pipeline.arrRef spec2) → C5 m R0 R1 R2 c b = C4 m R0 R1 c b :=
  fun b hb => B5_of_ne m R0 R1 R2 c b fun w e => hb (Finset.mem_image.mpr ⟨w, Finset.mem_univ _, e⟩)

set_option backward.isDefEq.respectTransparency.types false in
/-- REGION 2 over the thread state: entered from every unscoped buffer at its entry contents, left at its exit contents.
    Its arrays are split out of the unscoped buffers and put back at the exit contents; the generator register goes into
    the class invariant and comes out; nothing is owed; the kernel has no semaphore of its own. -/
def reg2 : Pipeline.RegionSeg (pcfgs (F := F)) adm (pdats m R0 R1 R2 R3 R4 R5 R6 R7) () defs₀ 𝒱₀ Lv lv 2 where
  win := launch2.win.to₀
  block_pos := launch2.block_pos
  stage_whole := launch2.stage_whole
  K := PEmpty
  osem k := k.elim
  ho := Pipeline.OwnSemFacts.none _
  hbody c := (R2.body (C4 m R0 R1) c).loose
  hwaits := Pipeline.hwaits_of_owed_zero _ _ _ _ Lv lv 2 fun c t => R2.owed_eq (C4 m R0 R1) c t
  pre c := iprop(StableHlo.held (c : Thread nD τ) (Pipeline.ucRefs τ sig) (B4 m R0 R1 c) ∗ Rest c)
  post c := iprop(StableHlo.held (c : Thread nD τ) (Pipeline.ucRefs τ sig) (B5 m R0 R1 R2 c) ∗ Rest c)
  X c := iprop(∃ r, prngReg c r)
  Y c := iprop(∃ r, prngReg c r)
  Z c := Pipeline.unscopedRest (Ix := Unit) (Name := ℕ) (U := UR sig nD τ) (Lvl := ℕ) spec2 c (C4 m R0 R1 c)
  hentry c := by
    rw [Pipeline.ownSems0_none]
    have hsplit := Pipeline.arrays_of_unscopedBufs (p := 2) (pcfgs (F := F)) adm (pdats m R0 R1 R2 R3 R4 R5 R6 R7) launch2.win launch2.arr_whole c
      ((pdats m R0 R1 R2 R3 R4 R5 R6 R7 2 c).share_full fun w => R2.q_eq (C4 m R0 R1) c w) (C4 m R0 R1 c) fun w => R2.A_eq (C4 m R0 R1) c w
    rw [Pipeline.unscopedBufs_held] at hsplit
    have howes := owesAt_of (R2.dat (C4 m R0 R1) c) 0 (R2.owed_eq (C4 m R0 R1) c 0) (R2.rec_eq (C4 m R0 R1) c 0)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply howes; iexact HO
    isplitl [Hp]; · iexact Hp
    iexact Hrest
  hin c := by
    rw [show (pdats m R0 R1 R2 R3 R4 R5 R6 R7 2 c).Φ 0 = (R2.dat (C4 m R0 R1) c).Φ 0 from rfl]
    have h := R2.hin (C4 m R0 R1) c
    unfold Pipeline.ΦA at h
    iintro ⟨Hp, -, Hr⟩
    iapply h
    isplitl [Hr]; · iexact Hr
    iexact Hp
  hout c := by
    rw [Pipeline.ownSems0_none, show (pdats m R0 R1 R2 R3 R4 R5 R6 R7 2 c).Φ (Fin.last _) = (R2.dat (C4 m R0 R1) c).Φ (Fin.last cfg2.N) from rfl]
    have h := R2.hout (C4 m R0 R1) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m R0 R1 R2 R3 R4 R5 R6 R7) ((pdats m R0 R1 R2 R3 R4 R5 R6 R7 2 c).share_full fun w => R2.q_eq (C4 m R0 R1) c w)
      (C4 m R0 R1 c) (C5 m R0 R1 R2 c) ((pdats m R0 R1 R2 R3 R4 R5 R6 R7 2 c).arrAt · cfg2.N) (hF2 m R0 R1 R2 c) (hrest2 m R0 R1 R2 c)
    rw [Pipeline.unscopedBufs_held] at hjoin
    have howes := of_owesAt (R2.dat (C4 m R0 R1) c) (Fin.last cfg2.N) (R2.owed_eq (C4 m R0 R1) c (Fin.last cfg2.N))
    iintro ⟨Ha, HO, HY, Hrest⟩
    imodintro
    isplitl [Ha Hrest]
    · iapply hjoin; isplitl [Ha] <;> iassumption
    isplitl [HY]; · iexact HY
    iapply howes; iexact HO

theorem hF3 (c : Dev nD) (w : Fin cfg3.W) : (R3.dat (C6 m R0 R1 R2) c).arrAt w cfg3.N = C7 m R0 R1 R2 R3 c (Pipeline.arrRef spec3 w) :=
  (B7_arr m R0 R1 R2 R3 c w).symm
theorem hrest3 (c : Dev nD) : ∀ b, b ∉ Finset.univ.image (Pipeline.arrRef spec3) → C7 m R0 R1 R2 R3 c b = C6 m R0 R1 R2 c b :=
  fun b hb => B7_of_ne m R0 R1 R2 R3 c b fun w e => hb (Finset.mem_image.mpr ⟨w, Finset.mem_univ _, e⟩)

set_option backward.isDefEq.respectTransparency.types false in
/-- REGION 3 over the thread state: entered from every unscoped buffer at its entry contents, left at its exit contents.
    Its arrays are split out of the unscoped buffers and put back at the exit contents; the generator register goes into
    the class invariant and comes out; nothing is owed; the kernel has no semaphore of its own. -/
def reg3 : Pipeline.RegionSeg (pcfgs (F := F)) adm (pdats m R0 R1 R2 R3 R4 R5 R6 R7) () defs₀ 𝒱₀ Lv lv 3 where
  win := launch3.win.to₀
  block_pos := launch3.block_pos
  stage_whole := launch3.stage_whole
  K := PEmpty
  osem k := k.elim
  ho := Pipeline.OwnSemFacts.none _
  hbody c := (R3.body (C6 m R0 R1 R2) c).loose
  hwaits := Pipeline.hwaits_of_owed_zero _ _ _ _ Lv lv 3 fun c t => R3.owed_eq (C6 m R0 R1 R2) c t
  pre c := iprop(StableHlo.held (c : Thread nD τ) (Pipeline.ucRefs τ sig) (B6 m R0 R1 R2 c) ∗ Rest c)
  post c := iprop(StableHlo.held (c : Thread nD τ) (Pipeline.ucRefs τ sig) (B7 m R0 R1 R2 R3 c) ∗ Rest c)
  X c := iprop(∃ r, prngReg c r)
  Y c := iprop(∃ r, prngReg c r)
  Z c := Pipeline.unscopedRest (Ix := Unit) (Name := ℕ) (U := UR sig nD τ) (Lvl := ℕ) spec3 c (C6 m R0 R1 R2 c)
  hentry c := by
    rw [Pipeline.ownSems0_none]
    have hsplit := Pipeline.arrays_of_unscopedBufs (p := 3) (pcfgs (F := F)) adm (pdats m R0 R1 R2 R3 R4 R5 R6 R7) launch3.win launch3.arr_whole c
      ((pdats m R0 R1 R2 R3 R4 R5 R6 R7 3 c).share_full fun w => R3.q_eq (C6 m R0 R1 R2) c w) (C6 m R0 R1 R2 c) fun w => R3.A_eq (C6 m R0 R1 R2) c w
    rw [Pipeline.unscopedBufs_held] at hsplit
    have howes := owesAt_of (R3.dat (C6 m R0 R1 R2) c) 0 (R3.owed_eq (C6 m R0 R1 R2) c 0) (R3.rec_eq (C6 m R0 R1 R2) c 0)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply howes; iexact HO
    isplitl [Hp]; · iexact Hp
    iexact Hrest
  hin c := by
    rw [show (pdats m R0 R1 R2 R3 R4 R5 R6 R7 3 c).Φ 0 = (R3.dat (C6 m R0 R1 R2) c).Φ 0 from rfl]
    have h := R3.hin (C6 m R0 R1 R2) c
    unfold Pipeline.ΦA at h
    iintro ⟨Hp, -, Hr⟩
    iapply h
    isplitl [Hr]; · iexact Hr
    iexact Hp
  hout c := by
    rw [Pipeline.ownSems0_none, show (pdats m R0 R1 R2 R3 R4 R5 R6 R7 3 c).Φ (Fin.last _) = (R3.dat (C6 m R0 R1 R2) c).Φ (Fin.last cfg3.N) from rfl]
    have h := R3.hout (C6 m R0 R1 R2) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m R0 R1 R2 R3 R4 R5 R6 R7) ((pdats m R0 R1 R2 R3 R4 R5 R6 R7 3 c).share_full fun w => R3.q_eq (C6 m R0 R1 R2) c w)
      (C6 m R0 R1 R2 c) (C7 m R0 R1 R2 R3 c) ((pdats m R0 R1 R2 R3 R4 R5 R6 R7 3 c).arrAt · cfg3.N) (hF3 m R0 R1 R2 R3 c) (hrest3 m R0 R1 R2 R3 c)
    rw [Pipeline.unscopedBufs_held] at hjoin
    have howes := of_owesAt (R3.dat (C6 m R0 R1 R2) c) (Fin.last cfg3.N) (R3.owed_eq (C6 m R0 R1 R2) c (Fin.last cfg3.N))
    iintro ⟨Ha, HO, HY, Hrest⟩
    imodintro
    isplitl [Ha Hrest]
    · iapply hjoin; isplitl [Ha] <;> iassumption
    isplitl [HY]; · iexact HY
    iapply howes; iexact HO

theorem hF4 (c : Dev nD) (w : Fin cfg4.W) : (R4.dat (C8 m R0 R1 R2 R3) c).arrAt w cfg4.N = C9 m R0 R1 R2 R3 R4 c (Pipeline.arrRef spec4 w) :=
  (B9_arr m R0 R1 R2 R3 R4 c w).symm
theorem hrest4 (c : Dev nD) : ∀ b, b ∉ Finset.univ.image (Pipeline.arrRef spec4) → C9 m R0 R1 R2 R3 R4 c b = C8 m R0 R1 R2 R3 c b :=
  fun b hb => B9_of_ne m R0 R1 R2 R3 R4 c b fun w e => hb (Finset.mem_image.mpr ⟨w, Finset.mem_univ _, e⟩)

set_option backward.isDefEq.respectTransparency.types false in
/-- REGION 4 over the thread state: entered from every unscoped buffer at its entry contents, left at its exit contents.
    Its arrays are split out of the unscoped buffers and put back at the exit contents; the generator register goes into
    the class invariant and comes out; nothing is owed; the kernel has no semaphore of its own. -/
def reg4 : Pipeline.RegionSeg (pcfgs (F := F)) adm (pdats m R0 R1 R2 R3 R4 R5 R6 R7) () defs₀ 𝒱₀ Lv lv 4 where
  win := launch4.win.to₀
  block_pos := launch4.block_pos
  stage_whole := launch4.stage_whole
  K := PEmpty
  osem k := k.elim
  ho := Pipeline.OwnSemFacts.none _
  hbody c := (R4.body (C8 m R0 R1 R2 R3) c).loose
  hwaits := Pipeline.hwaits_of_owed_zero _ _ _ _ Lv lv 4 fun c t => R4.owed_eq (C8 m R0 R1 R2 R3) c t
  pre c := iprop(StableHlo.held (c : Thread nD τ) (Pipeline.ucRefs τ sig) (B8 m R0 R1 R2 R3 c) ∗ Rest c)
  post c := iprop(StableHlo.held (c : Thread nD τ) (Pipeline.ucRefs τ sig) (B9 m R0 R1 R2 R3 R4 c) ∗ Rest c)
  X c := iprop(∃ r, prngReg c r)
  Y c := iprop(∃ r, prngReg c r)
  Z c := Pipeline.unscopedRest (Ix := Unit) (Name := ℕ) (U := UR sig nD τ) (Lvl := ℕ) spec4 c (C8 m R0 R1 R2 R3 c)
  hentry c := by
    rw [Pipeline.ownSems0_none]
    have hsplit := Pipeline.arrays_of_unscopedBufs (p := 4) (pcfgs (F := F)) adm (pdats m R0 R1 R2 R3 R4 R5 R6 R7) launch4.win launch4.arr_whole c
      ((pdats m R0 R1 R2 R3 R4 R5 R6 R7 4 c).share_full fun w => R4.q_eq (C8 m R0 R1 R2 R3) c w) (C8 m R0 R1 R2 R3 c) fun w => R4.A_eq (C8 m R0 R1 R2 R3) c w
    rw [Pipeline.unscopedBufs_held] at hsplit
    have howes := owesAt_of (R4.dat (C8 m R0 R1 R2 R3) c) 0 (R4.owed_eq (C8 m R0 R1 R2 R3) c 0) (R4.rec_eq (C8 m R0 R1 R2 R3) c 0)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply howes; iexact HO
    isplitl [Hp]; · iexact Hp
    iexact Hrest
  hin c := by
    rw [show (pdats m R0 R1 R2 R3 R4 R5 R6 R7 4 c).Φ 0 = (R4.dat (C8 m R0 R1 R2 R3) c).Φ 0 from rfl]
    have h := R4.hin (C8 m R0 R1 R2 R3) c
    unfold Pipeline.ΦA at h
    iintro ⟨Hp, -, Hr⟩
    iapply h
    isplitl [Hr]; · iexact Hr
    iexact Hp
  hout c := by
    rw [Pipeline.ownSems0_none, show (pdats m R0 R1 R2 R3 R4 R5 R6 R7 4 c).Φ (Fin.last _) = (R4.dat (C8 m R0 R1 R2 R3) c).Φ (Fin.last cfg4.N) from rfl]
    have h := R4.hout (C8 m R0 R1 R2 R3) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m R0 R1 R2 R3 R4 R5 R6 R7) ((pdats m R0 R1 R2 R3 R4 R5 R6 R7 4 c).share_full fun w => R4.q_eq (C8 m R0 R1 R2 R3) c w)
      (C8 m R0 R1 R2 R3 c) (C9 m R0 R1 R2 R3 R4 c) ((pdats m R0 R1 R2 R3 R4 R5 R6 R7 4 c).arrAt · cfg4.N) (hF4 m R0 R1 R2 R3 R4 c) (hrest4 m R0 R1 R2 R3 R4 c)
    rw [Pipeline.unscopedBufs_held] at hjoin
    have howes := of_owesAt (R4.dat (C8 m R0 R1 R2 R3) c) (Fin.last cfg4.N) (R4.owed_eq (C8 m R0 R1 R2 R3) c (Fin.last cfg4.N))
    iintro ⟨Ha, HO, HY, Hrest⟩
    imodintro
    isplitl [Ha Hrest]
    · iapply hjoin; isplitl [Ha] <;> iassumption
    isplitl [HY]; · iexact HY
    iapply howes; iexact HO

theorem hF5 (c : Dev nD) (w : Fin cfg5.W) : (R5.dat (C9 m R0 R1 R2 R3 R4) c).arrAt w cfg5.N = C10 m R0 R1 R2 R3 R4 R5 c (Pipeline.arrRef spec5 w) := by
  match w with
  | ⟨0, _⟩ => exact (((R5.dat (C9 m R0 R1 R2 R3 R4) c).arrAt_in 0 rfl _).trans (R5.A_eq (C9 m R0 R1 R2 R3 R4) c 0)).trans (B10_of_ne m R0 R1 R2 R3 R4 R5 c _ (by decide)).symm
  | ⟨1, _⟩ => exact (((R5.dat (C9 m R0 R1 R2 R3 R4) c).arrAt_in 1 rfl _).trans (R5.A_eq (C9 m R0 R1 R2 R3 R4) c 1)).trans (B10_of_ne m R0 R1 R2 R3 R4 R5 c _ (by decide)).symm
  | ⟨2, _⟩ => exact (B10_out m R0 R1 R2 R3 R4 R5 c).symm
theorem hrest5 (c : Dev nD) : ∀ b, b ∉ Finset.univ.image (Pipeline.arrRef spec5) → C10 m R0 R1 R2 R3 R4 R5 c b = C9 m R0 R1 R2 R3 R4 c b :=
  fun b hb => B10_of_ne m R0 R1 R2 R3 R4 R5 c b fun e => hb (Finset.mem_image.mpr ⟨2, Finset.mem_univ _, e⟩)

set_option backward.isDefEq.respectTransparency.types false in
/-- REGION 5 over the thread state: entered from every unscoped buffer at its entry contents, left at its exit contents.
    Its arrays are split out of the unscoped buffers and put back at the exit contents; the generator register goes into
    the class invariant and comes out; nothing is owed; the kernel has no semaphore of its own. -/
def reg5 : Pipeline.RegionSeg (pcfgs (F := F)) adm (pdats m R0 R1 R2 R3 R4 R5 R6 R7) () defs₀ 𝒱₀ Lv lv 5 where
  win := winFacts₀5
  block_pos := block_pos5
  stage_whole := stage_whole5
  K := PEmpty
  osem k := k.elim
  ho := Pipeline.OwnSemFacts.none _
  hbody c := (R5.body (C9 m R0 R1 R2 R3 R4) c).loose
  hwaits := Pipeline.hwaits_of_owed_zero _ _ _ _ Lv lv 5 fun c t => R5.owed_eq (C9 m R0 R1 R2 R3 R4) c t
  pre c := iprop(StableHlo.held (c : Thread nD τ) (Pipeline.ucRefs τ sig) (B9 m R0 R1 R2 R3 R4 c) ∗ Rest c)
  post c := iprop(StableHlo.held (c : Thread nD τ) (Pipeline.ucRefs τ sig) (B10 m R0 R1 R2 R3 R4 R5 c) ∗ Rest c)
  X c := iprop(∃ r, prngReg c r)
  Y c := iprop(∃ r, prngReg c r)
  Z c := Pipeline.unscopedRest (Ix := Unit) (Name := ℕ) (U := UR sig nD τ) (Lvl := ℕ) spec5 c (C9 m R0 R1 R2 R3 R4 c)
  hentry c := by
    rw [Pipeline.ownSems0_none]
    have hsplit : (unscopedBufs c (C9 m R0 R1 R2 R3 R4 c) : sProp 𝕄)
        ⊢ iprop((pdats m R0 R1 R2 R3 R4 R5 R6 R7 5 c).arrays ((pdats m R0 R1 R2 R3 R4 R5 R6 R7 5 c).arrAt · 0) ∗ Pipeline.unscopedRest spec5 c (C9 m R0 R1 R2 R3 R4 c)) :=
      R5.hsplit (C9 m R0 R1 R2 R3 R4) c
    rw [Pipeline.unscopedBufs_held] at hsplit
    have howes := owesAt_of (R5.dat (C9 m R0 R1 R2 R3 R4) c) 0 (R5.owed_eq (C9 m R0 R1 R2 R3 R4) c 0) (R5.rec_eq (C9 m R0 R1 R2 R3 R4) c 0)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply howes; iexact HO
    isplitl [Hp]; · iexact Hp
    iexact Hrest
  hin c := by
    rw [show (pdats m R0 R1 R2 R3 R4 R5 R6 R7 5 c).Φ 0 = (R5.dat (C9 m R0 R1 R2 R3 R4) c).Φ 0 from rfl]
    have h := R5.hin (C9 m R0 R1 R2 R3 R4) c
    unfold Pipeline.ΦA at h
    iintro ⟨Hp, -, Hr⟩
    iapply h
    isplitl [Hr]; · iexact Hr
    iexact Hp
  hout c := by
    rw [Pipeline.ownSems0_none, show (pdats m R0 R1 R2 R3 R4 R5 R6 R7 5 c).Φ (Fin.last _) = (R5.dat (C9 m R0 R1 R2 R3 R4) c).Φ (Fin.last cfg5.N) from rfl]
    have h := R5.hout (C9 m R0 R1 R2 R3 R4) c
    unfold Pipeline.ΦA at h
    iintro HΦ
    ihave H := h $$ HΦ
    icases H with ⟨Hr, Hp⟩
    isplitl [Hp]; · iexact Hp
    isplitr; · iempintro
    iexact Hr
  hexit c := by
    have hjoin : iprop((pdats m R0 R1 R2 R3 R4 R5 R6 R7 5 c).arrays ((pdats m R0 R1 R2 R3 R4 R5 R6 R7 5 c).arrAt · cfg5.N) ∗ Pipeline.unscopedRest spec5 c (C9 m R0 R1 R2 R3 R4 c))
        ⊢ (unscopedBufs c (C10 m R0 R1 R2 R3 R4 R5 c) : sProp 𝕄) :=
      R5.hjoin (C9 m R0 R1 R2 R3 R4) c (C10 m R0 R1 R2 R3 R4 R5 c) (hF5 m R0 R1 R2 R3 R4 R5 c) (hrest5 m R0 R1 R2 R3 R4 R5 c)
    rw [Pipeline.unscopedBufs_held] at hjoin
    have howes := of_owesAt (R5.dat (C9 m R0 R1 R2 R3 R4) c) (Fin.last cfg5.N) (R5.owed_eq (C9 m R0 R1 R2 R3 R4) c (Fin.last cfg5.N))
    iintro ⟨Ha, HO, HY, Hrest⟩
    imodintro
    isplitl [Ha Hrest]
    · iapply hjoin; isplitl [Ha] <;> iassumption
    isplitl [HY]; · iexact HY
    iapply howes; iexact HO

theorem hF6 (c : Dev nD) (w : Fin cfg6.W) : (R6.dat (C11 m R0 R1 R2 R3 R4 R5) c).arrAt w cfg6.N = C12 m R0 R1 R2 R3 R4 R5 R6 c (Pipeline.arrRef spec6 w) :=
  (B12_arr m R0 R1 R2 R3 R4 R5 R6 c w).symm
theorem hrest6 (c : Dev nD) : ∀ b, b ∉ Finset.univ.image (Pipeline.arrRef spec6) → C12 m R0 R1 R2 R3 R4 R5 R6 c b = C11 m R0 R1 R2 R3 R4 R5 c b :=
  fun b hb => B12_of_ne m R0 R1 R2 R3 R4 R5 R6 c b fun w e => hb (Finset.mem_image.mpr ⟨w, Finset.mem_univ _, e⟩)

set_option backward.isDefEq.respectTransparency.types false in
/-- REGION 6 over the thread state: entered from every unscoped buffer at its entry contents, left at its exit contents.
    Its arrays are split out of the unscoped buffers and put back at the exit contents; the generator register goes into
    the class invariant and comes out; nothing is owed; the kernel has no semaphore of its own. -/
def reg6 : Pipeline.RegionSeg (pcfgs (F := F)) adm (pdats m R0 R1 R2 R3 R4 R5 R6 R7) () defs₀ 𝒱₀ Lv lv 6 where
  win := launch6.win.to₀
  block_pos := launch6.block_pos
  stage_whole := launch6.stage_whole
  K := PEmpty
  osem k := k.elim
  ho := Pipeline.OwnSemFacts.none _
  hbody c := (R6.body (C11 m R0 R1 R2 R3 R4 R5) c).loose
  hwaits := Pipeline.hwaits_of_owed_zero _ _ _ _ Lv lv 6 fun c t => R6.owed_eq (C11 m R0 R1 R2 R3 R4 R5) c t
  pre c := iprop(StableHlo.held (c : Thread nD τ) (Pipeline.ucRefs τ sig) (B11 m R0 R1 R2 R3 R4 R5 c) ∗ Rest c)
  post c := iprop(StableHlo.held (c : Thread nD τ) (Pipeline.ucRefs τ sig) (B12 m R0 R1 R2 R3 R4 R5 R6 c) ∗ Rest c)
  X c := iprop(∃ r, prngReg c r)
  Y c := iprop(∃ r, prngReg c r)
  Z c := Pipeline.unscopedRest (Ix := Unit) (Name := ℕ) (U := UR sig nD τ) (Lvl := ℕ) spec6 c (C11 m R0 R1 R2 R3 R4 R5 c)
  hentry c := by
    rw [Pipeline.ownSems0_none]
    have hsplit := Pipeline.arrays_of_unscopedBufs (p := 6) (pcfgs (F := F)) adm (pdats m R0 R1 R2 R3 R4 R5 R6 R7) launch6.win launch6.arr_whole c
      ((pdats m R0 R1 R2 R3 R4 R5 R6 R7 6 c).share_full fun w => R6.q_eq (C11 m R0 R1 R2 R3 R4 R5) c w) (C11 m R0 R1 R2 R3 R4 R5 c) fun w => R6.A_eq (C11 m R0 R1 R2 R3 R4 R5) c w
    rw [Pipeline.unscopedBufs_held] at hsplit
    have howes := owesAt_of (R6.dat (C11 m R0 R1 R2 R3 R4 R5) c) 0 (R6.owed_eq (C11 m R0 R1 R2 R3 R4 R5) c 0) (R6.rec_eq (C11 m R0 R1 R2 R3 R4 R5) c 0)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply howes; iexact HO
    isplitl [Hp]; · iexact Hp
    iexact Hrest
  hin c := by
    rw [show (pdats m R0 R1 R2 R3 R4 R5 R6 R7 6 c).Φ 0 = (R6.dat (C11 m R0 R1 R2 R3 R4 R5) c).Φ 0 from rfl]
    have h := R6.hin (C11 m R0 R1 R2 R3 R4 R5) c
    unfold Pipeline.ΦA at h
    iintro ⟨Hp, -, Hr⟩
    iapply h
    isplitl [Hr]; · iexact Hr
    iexact Hp
  hout c := by
    rw [Pipeline.ownSems0_none, show (pdats m R0 R1 R2 R3 R4 R5 R6 R7 6 c).Φ (Fin.last _) = (R6.dat (C11 m R0 R1 R2 R3 R4 R5) c).Φ (Fin.last cfg6.N) from rfl]
    have h := R6.hout (C11 m R0 R1 R2 R3 R4 R5) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m R0 R1 R2 R3 R4 R5 R6 R7) ((pdats m R0 R1 R2 R3 R4 R5 R6 R7 6 c).share_full fun w => R6.q_eq (C11 m R0 R1 R2 R3 R4 R5) c w)
      (C11 m R0 R1 R2 R3 R4 R5 c) (C12 m R0 R1 R2 R3 R4 R5 R6 c) ((pdats m R0 R1 R2 R3 R4 R5 R6 R7 6 c).arrAt · cfg6.N) (hF6 m R0 R1 R2 R3 R4 R5 R6 c) (hrest6 m R0 R1 R2 R3 R4 R5 R6 c)
    rw [Pipeline.unscopedBufs_held] at hjoin
    have howes := of_owesAt (R6.dat (C11 m R0 R1 R2 R3 R4 R5) c) (Fin.last cfg6.N) (R6.owed_eq (C11 m R0 R1 R2 R3 R4 R5) c (Fin.last cfg6.N))
    iintro ⟨Ha, HO, HY, Hrest⟩
    imodintro
    isplitl [Ha Hrest]
    · iapply hjoin; isplitl [Ha] <;> iassumption
    isplitl [HY]; · iexact HY
    iapply howes; iexact HO

theorem hF7 (c : Dev nD) (w : Fin cfg7.W) : (R7.dat (C13 m R0 R1 R2 R3 R4 R5 R6) c).arrAt w cfg7.N = C14 m R0 R1 R2 R3 R4 R5 R6 R7 c (Pipeline.arrRef spec7 w) :=
  (B14_arr m R0 R1 R2 R3 R4 R5 R6 R7 c w).symm
theorem hrest7 (c : Dev nD) : ∀ b, b ∉ Finset.univ.image (Pipeline.arrRef spec7) → C14 m R0 R1 R2 R3 R4 R5 R6 R7 c b = C13 m R0 R1 R2 R3 R4 R5 R6 c b :=
  fun b hb => B14_of_ne m R0 R1 R2 R3 R4 R5 R6 R7 c b fun w e => hb (Finset.mem_image.mpr ⟨w, Finset.mem_univ _, e⟩)

set_option backward.isDefEq.respectTransparency.types false in
/-- REGION 7 over the thread state: entered from every unscoped buffer at its entry contents, left at its exit contents.
    Its arrays are split out of the unscoped buffers and put back at the exit contents; the generator register goes into
    the class invariant and comes out; nothing is owed; the kernel has no semaphore of its own. -/
def reg7 : Pipeline.RegionSeg (pcfgs (F := F)) adm (pdats m R0 R1 R2 R3 R4 R5 R6 R7) () defs₀ 𝒱₀ Lv lv 7 where
  win := launch7.win.to₀
  block_pos := launch7.block_pos
  stage_whole := launch7.stage_whole
  K := PEmpty
  osem k := k.elim
  ho := Pipeline.OwnSemFacts.none _
  hbody c := (R7.body (C13 m R0 R1 R2 R3 R4 R5 R6) c).loose
  hwaits := Pipeline.hwaits_of_owed_zero _ _ _ _ Lv lv 7 fun c t => R7.owed_eq (C13 m R0 R1 R2 R3 R4 R5 R6) c t
  pre c := iprop(StableHlo.held (c : Thread nD τ) (Pipeline.ucRefs τ sig) (B13 m R0 R1 R2 R3 R4 R5 R6 c) ∗ Rest c)
  post c := iprop(Tₙ m R0 R1 R2 R3 R4 R5 R6 R7 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec7 c (C13 m R0 R1 R2 R3 R4 R5 R6 c)
  hentry c := by
    rw [Pipeline.ownSems0_none]
    have hsplit := Pipeline.arrays_of_unscopedBufs (p := 7) (pcfgs (F := F)) adm (pdats m R0 R1 R2 R3 R4 R5 R6 R7) launch7.win launch7.arr_whole c
      ((pdats m R0 R1 R2 R3 R4 R5 R6 R7 7 c).share_full fun w => R7.q_eq (C13 m R0 R1 R2 R3 R4 R5 R6) c w) (C13 m R0 R1 R2 R3 R4 R5 R6 c) fun w => R7.A_eq (C13 m R0 R1 R2 R3 R4 R5 R6) c w
    rw [Pipeline.unscopedBufs_held] at hsplit
    have howes := owesAt_of (R7.dat (C13 m R0 R1 R2 R3 R4 R5 R6) c) 0 (R7.owed_eq (C13 m R0 R1 R2 R3 R4 R5 R6) c 0) (R7.rec_eq (C13 m R0 R1 R2 R3 R4 R5 R6) c 0)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply howes; iexact HO
    isplitl [Hp]; · iexact Hp
    iexact Hrest
  hin c := by
    rw [show (pdats m R0 R1 R2 R3 R4 R5 R6 R7 7 c).Φ 0 = (R7.dat (C13 m R0 R1 R2 R3 R4 R5 R6) c).Φ 0 from rfl]
    have h := R7.hin (C13 m R0 R1 R2 R3 R4 R5 R6) c
    unfold Pipeline.ΦA at h
    iintro ⟨Hp, -, Hr⟩
    iapply h
    isplitl [Hr]; · iexact Hr
    iexact Hp
  hout c := by
    rw [Pipeline.ownSems0_none, show (pdats m R0 R1 R2 R3 R4 R5 R6 R7 7 c).Φ (Fin.last _) = (R7.dat (C13 m R0 R1 R2 R3 R4 R5 R6) c).Φ (Fin.last cfg7.N) from rfl]
    have h := R7.hout (C13 m R0 R1 R2 R3 R4 R5 R6) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m R0 R1 R2 R3 R4 R5 R6 R7) ((pdats m R0 R1 R2 R3 R4 R5 R6 R7 7 c).share_full fun w => R7.q_eq (C13 m R0 R1 R2 R3 R4 R5 R6) c w)
      (C13 m R0 R1 R2 R3 R4 R5 R6 c) (C14 m R0 R1 R2 R3 R4 R5 R6 R7 c) ((pdats m R0 R1 R2 R3 R4 R5 R6 R7 7 c).arrAt · cfg7.N) (hF7 m R0 R1 R2 R3 R4 R5 R6 R7 c) (hrest7 m R0 R1 R2 R3 R4 R5 R6 R7 c)
    rw [Pipeline.unscopedBufs_held] at hjoin
    have howes := of_owesAt (R7.dat (C13 m R0 R1 R2 R3 R4 R5 R6) c) (Fin.last cfg7.N) (R7.owed_eq (C13 m R0 R1 R2 R3 R4 R5 R6) c (Fin.last cfg7.N))
    iintro ⟨Ha, HO, HY, Hrest⟩
    imodintro
    isplitl [Ha Hrest HY]
    · isplitl [Ha Hrest]
      · iapply hjoin; isplitl [Ha] <;> iassumption
      iexact HY
    iapply howes; iexact HO

/-! ## @main as segments, and the launch -/

/-- @main's 14 segments in order: a region per kernel call, a host segment per stretch from its boundary's contents. -/
abbrev segs : List (Pipeline.Seg (pcfgs (F := F)) adm (pdats m R0 R1 R2 R3 R4 R5 R6 R7) () defs₀ 𝒱₀ Lv lv) :=
  [ .region (reg0 m R0 R1 R2 R3 R4 R5 R6 R7),
    .host (hseg hostOps1 hostOps1_sub hostOps1_fresh (B1 m R0)),
    .region (reg1 m R0 R1 R2 R3 R4 R5 R6 R7),
    .host (hseg hostOps2 hostOps2_sub hostOps2_fresh (B3 m R0 R1)),
    .region (reg2 m R0 R1 R2 R3 R4 R5 R6 R7),
    .host (hseg hostOps3 hostOps3_sub hostOps3_fresh (B5 m R0 R1 R2)),
    .region (reg3 m R0 R1 R2 R3 R4 R5 R6 R7),
    .host (hseg hostOps4 hostOps4_sub hostOps4_fresh (B7 m R0 R1 R2 R3)),
    .region (reg4 m R0 R1 R2 R3 R4 R5 R6 R7),
    .region (reg5 m R0 R1 R2 R3 R4 R5 R6 R7),
    .host (hseg hostOps6 hostOps6_sub hostOps6_fresh (B10 m R0 R1 R2 R3 R4 R5)),
    .region (reg6 m R0 R1 R2 R3 R4 R5 R6 R7),
    .host (hseg hostOps7 hostOps7_sub hostOps7_fresh (B12 m R0 R1 R2 R3 R4 R5 R6)),
    .region (reg7 m R0 R1 R2 R3 R4 R5 R6 R7) ]

/-- @main IS the run of the segments. -/
theorem main_run (c : Dev nD) : main (F := F) c = Pipeline.Seg.run (segs m R0 R1 R2 R3 R4 R5 R6 R7) := (main_chain c).trans (by chain_rfl)

set_option backward.isDefEq.respectTransparency.types false in
/-- THE RUN: from any memory with zero counters every weakly fair execution of @main on the TensorCores terminates,
    nothing faulting, and in every final state each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B14 m R0 R1 R2 R3 R4 R5 R6 R7 c b) :=
  Pipeline.θ_run_regions_kit (pcfgs (F := F)) adm (pdats m R0 R1 R2 R3 R4 R5 R6 R7) () cellOf_inj emb₁ defs₀ 𝒱₀ Lv lv m ρ main (segs m R0 R1 R2 R3 R4 R5 R6 R7)
    (fun c Q => by rw [main_run m R0 R1 R2 R3 R4 R5 R6 R7 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Rest c)) (Tₙ := Tₙ m R0 R1 R2 R3 R4 R5 R6 R7)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach Lv lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B14 m R0 R1 R2 R3 R4 R5 R6 R7 c b)
    (hfin := fun c s' => by
      iintro ⟨⟨Hh, -⟩, HSI⟩
      unfold StableHlo.held
      imodintro
      iapply (pointsTo_read_all (Pipeline.ucRefs τ sig) (fun b => (((c : Thread nD τ)).1, b)) (B14 m R0 R1 R2 R3 R4 R5 R6 R7 c) s')
      isplitl [Hh] <;> iassumption)
    (hQ := fun s h c => h c)

/-! ## The arguments end as launched -/

theorem B14_arg0 (c : Dev nD) : B14 m R0 R1 R2 R3 R4 R5 R6 R7 c (Proc.devRef .tc main_arg0) = m ((c : Thread nD τ).loc main_arg0) :=
  ((B14_keep m R0 R1 R2 R3 R4 R5 R6 R7 c main_arg0 (by decide)).trans ((B13_keep m R0 R1 R2 R3 R4 R5 R6 c main_arg0 (by decide)).trans ((B12_keep m R0 R1 R2 R3 R4 R5 R6 c main_arg0 (by decide)).trans ((B11_keep m R0 R1 R2 R3 R4 R5 c main_arg0 (by decide)).trans ((B10_keep m R0 R1 R2 R3 R4 R5 c main_arg0 (by decide)).trans ((B9_keep m R0 R1 R2 R3 R4 c main_arg0 (by decide)).trans ((B8_keep m R0 R1 R2 R3 c main_arg0 (by decide)).trans ((B7_keep m R0 R1 R2 R3 c main_arg0 (by decide)).trans ((B6_keep m R0 R1 R2 c main_arg0 (by decide)).trans ((B5_keep m R0 R1 R2 c main_arg0 (by decide)).trans ((B4_keep m R0 R1 c main_arg0 (by decide)).trans ((B3_keep m R0 R1 c main_arg0 (by decide)).trans ((B2_keep m R0 c main_arg0 (by decide)).trans (B1_keep m R0 c main_arg0 (by decide))))))))))))))).trans rfl
theorem B14_arg1 (c : Dev nD) : B14 m R0 R1 R2 R3 R4 R5 R6 R7 c (Proc.devRef .tc main_arg1) = m ((c : Thread nD τ).loc main_arg1) :=
  ((B14_keep m R0 R1 R2 R3 R4 R5 R6 R7 c main_arg1 (by decide)).trans ((B13_keep m R0 R1 R2 R3 R4 R5 R6 c main_arg1 (by decide)).trans ((B12_keep m R0 R1 R2 R3 R4 R5 R6 c main_arg1 (by decide)).trans ((B11_keep m R0 R1 R2 R3 R4 R5 c main_arg1 (by decide)).trans ((B10_keep m R0 R1 R2 R3 R4 R5 c main_arg1 (by decide)).trans ((B9_keep m R0 R1 R2 R3 R4 c main_arg1 (by decide)).trans ((B8_keep m R0 R1 R2 R3 c main_arg1 (by decide)).trans ((B7_keep m R0 R1 R2 R3 c main_arg1 (by decide)).trans ((B6_keep m R0 R1 R2 c main_arg1 (by decide)).trans ((B5_keep m R0 R1 R2 c main_arg1 (by decide)).trans ((B4_keep m R0 R1 c main_arg1 (by decide)).trans ((B3_keep m R0 R1 c main_arg1 (by decide)).trans ((B2_keep m R0 c main_arg1 (by decide)).trans (B1_keep m R0 c main_arg1 (by decide))))))))))))))).trans rfl
theorem B14_arg2 (c : Dev nD) : B14 m R0 R1 R2 R3 R4 R5 R6 R7 c (Proc.devRef .tc main_arg2) = m ((c : Thread nD τ).loc main_arg2) :=
  ((B14_keep m R0 R1 R2 R3 R4 R5 R6 R7 c main_arg2 (by decide)).trans ((B13_keep m R0 R1 R2 R3 R4 R5 R6 c main_arg2 (by decide)).trans ((B12_keep m R0 R1 R2 R3 R4 R5 R6 c main_arg2 (by decide)).trans ((B11_keep m R0 R1 R2 R3 R4 R5 c main_arg2 (by decide)).trans ((B10_keep m R0 R1 R2 R3 R4 R5 c main_arg2 (by decide)).trans ((B9_keep m R0 R1 R2 R3 R4 c main_arg2 (by decide)).trans ((B8_keep m R0 R1 R2 R3 c main_arg2 (by decide)).trans ((B7_keep m R0 R1 R2 R3 c main_arg2 (by decide)).trans ((B6_keep m R0 R1 R2 c main_arg2 (by decide)).trans ((B5_keep m R0 R1 R2 c main_arg2 (by decide)).trans ((B4_keep m R0 R1 c main_arg2 (by decide)).trans ((B3_keep m R0 R1 c main_arg2 (by decide)).trans ((B2_keep m R0 c main_arg2 (by decide)).trans (B1_keep m R0 c main_arg2 (by decide))))))))))))))).trans rfl
theorem B14_arg3 (c : Dev nD) : B14 m R0 R1 R2 R3 R4 R5 R6 R7 c (Proc.devRef .tc main_arg3) = m ((c : Thread nD τ).loc main_arg3) :=
  ((B14_keep m R0 R1 R2 R3 R4 R5 R6 R7 c main_arg3 (by decide)).trans ((B13_keep m R0 R1 R2 R3 R4 R5 R6 c main_arg3 (by decide)).trans ((B12_keep m R0 R1 R2 R3 R4 R5 R6 c main_arg3 (by decide)).trans ((B11_keep m R0 R1 R2 R3 R4 R5 c main_arg3 (by decide)).trans ((B10_keep m R0 R1 R2 R3 R4 R5 c main_arg3 (by decide)).trans ((B9_keep m R0 R1 R2 R3 R4 c main_arg3 (by decide)).trans ((B8_keep m R0 R1 R2 R3 c main_arg3 (by decide)).trans ((B7_keep m R0 R1 R2 R3 c main_arg3 (by decide)).trans ((B6_keep m R0 R1 R2 c main_arg3 (by decide)).trans ((B5_keep m R0 R1 R2 c main_arg3 (by decide)).trans ((B4_keep m R0 R1 c main_arg3 (by decide)).trans ((B3_keep m R0 R1 c main_arg3 (by decide)).trans ((B2_keep m R0 c main_arg3 (by decide)).trans (B1_keep m R0 c main_arg3 (by decide))))))))))))))).trans rfl
theorem B14_arg4 (c : Dev nD) : B14 m R0 R1 R2 R3 R4 R5 R6 R7 c (Proc.devRef .tc main_arg4) = m ((c : Thread nD τ).loc main_arg4) :=
  ((B14_keep m R0 R1 R2 R3 R4 R5 R6 R7 c main_arg4 (by decide)).trans ((B13_keep m R0 R1 R2 R3 R4 R5 R6 c main_arg4 (by decide)).trans ((B12_keep m R0 R1 R2 R3 R4 R5 R6 c main_arg4 (by decide)).trans ((B11_keep m R0 R1 R2 R3 R4 R5 c main_arg4 (by decide)).trans ((B10_keep m R0 R1 R2 R3 R4 R5 c main_arg4 (by decide)).trans ((B9_keep m R0 R1 R2 R3 R4 c main_arg4 (by decide)).trans ((B8_keep m R0 R1 R2 R3 c main_arg4 (by decide)).trans ((B7_keep m R0 R1 R2 R3 c main_arg4 (by decide)).trans ((B6_keep m R0 R1 R2 c main_arg4 (by decide)).trans ((B5_keep m R0 R1 R2 c main_arg4 (by decide)).trans ((B4_keep m R0 R1 c main_arg4 (by decide)).trans ((B3_keep m R0 R1 c main_arg4 (by decide)).trans ((B2_keep m R0 c main_arg4 (by decide)).trans (B1_keep m R0 c main_arg4 (by decide))))))))))))))).trans rfl
theorem B14_arg5 (c : Dev nD) : B14 m R0 R1 R2 R3 R4 R5 R6 R7 c (Proc.devRef .tc main_arg5) = m ((c : Thread nD τ).loc main_arg5) :=
  ((B14_keep m R0 R1 R2 R3 R4 R5 R6 R7 c main_arg5 (by decide)).trans ((B13_keep m R0 R1 R2 R3 R4 R5 R6 c main_arg5 (by decide)).trans ((B12_keep m R0 R1 R2 R3 R4 R5 R6 c main_arg5 (by decide)).trans ((B11_keep m R0 R1 R2 R3 R4 R5 c main_arg5 (by decide)).trans ((B10_keep m R0 R1 R2 R3 R4 R5 c main_arg5 (by decide)).trans ((B9_keep m R0 R1 R2 R3 R4 c main_arg5 (by decide)).trans ((B8_keep m R0 R1 R2 R3 c main_arg5 (by decide)).trans ((B7_keep m R0 R1 R2 R3 c main_arg5 (by decide)).trans ((B6_keep m R0 R1 R2 c main_arg5 (by decide)).trans ((B5_keep m R0 R1 R2 c main_arg5 (by decide)).trans ((B4_keep m R0 R1 c main_arg5 (by decide)).trans ((B3_keep m R0 R1 c main_arg5 (by decide)).trans ((B2_keep m R0 c main_arg5 (by decide)).trans (B1_keep m R0 c main_arg5 (by decide))))))))))))))).trans rfl
theorem B14_arg6 (c : Dev nD) : B14 m R0 R1 R2 R3 R4 R5 R6 R7 c (Proc.devRef .tc main_arg6) = m ((c : Thread nD τ).loc main_arg6) :=
  ((B14_keep m R0 R1 R2 R3 R4 R5 R6 R7 c main_arg6 (by decide)).trans ((B13_keep m R0 R1 R2 R3 R4 R5 R6 c main_arg6 (by decide)).trans ((B12_keep m R0 R1 R2 R3 R4 R5 R6 c main_arg6 (by decide)).trans ((B11_keep m R0 R1 R2 R3 R4 R5 c main_arg6 (by decide)).trans ((B10_keep m R0 R1 R2 R3 R4 R5 c main_arg6 (by decide)).trans ((B9_keep m R0 R1 R2 R3 R4 c main_arg6 (by decide)).trans ((B8_keep m R0 R1 R2 R3 c main_arg6 (by decide)).trans ((B7_keep m R0 R1 R2 R3 c main_arg6 (by decide)).trans ((B6_keep m R0 R1 R2 c main_arg6 (by decide)).trans ((B5_keep m R0 R1 R2 c main_arg6 (by decide)).trans ((B4_keep m R0 R1 c main_arg6 (by decide)).trans ((B3_keep m R0 R1 c main_arg6 (by decide)).trans ((B2_keep m R0 c main_arg6 (by decide)).trans (B1_keep m R0 c main_arg6 (by decide))))))))))))))).trans rfl
theorem B14_arg7 (c : Dev nD) : B14 m R0 R1 R2 R3 R4 R5 R6 R7 c (Proc.devRef .tc main_arg7) = m ((c : Thread nD τ).loc main_arg7) :=
  ((B14_keep m R0 R1 R2 R3 R4 R5 R6 R7 c main_arg7 (by decide)).trans ((B13_keep m R0 R1 R2 R3 R4 R5 R6 c main_arg7 (by decide)).trans ((B12_keep m R0 R1 R2 R3 R4 R5 R6 c main_arg7 (by decide)).trans ((B11_keep m R0 R1 R2 R3 R4 R5 c main_arg7 (by decide)).trans ((B10_keep m R0 R1 R2 R3 R4 R5 c main_arg7 (by decide)).trans ((B9_keep m R0 R1 R2 R3 R4 c main_arg7 (by decide)).trans ((B8_keep m R0 R1 R2 R3 c main_arg7 (by decide)).trans ((B7_keep m R0 R1 R2 R3 c main_arg7 (by decide)).trans ((B6_keep m R0 R1 R2 c main_arg7 (by decide)).trans ((B5_keep m R0 R1 R2 c main_arg7 (by decide)).trans ((B4_keep m R0 R1 c main_arg7 (by decide)).trans ((B3_keep m R0 R1 c main_arg7 (by decide)).trans ((B2_keep m R0 c main_arg7 (by decide)).trans (B1_keep m R0 c main_arg7 (by decide))))))))))))))).trans rfl
theorem B14_arg8 (c : Dev nD) : B14 m R0 R1 R2 R3 R4 R5 R6 R7 c (Proc.devRef .tc main_arg8) = m ((c : Thread nD τ).loc main_arg8) :=
  ((B14_keep m R0 R1 R2 R3 R4 R5 R6 R7 c main_arg8 (by decide)).trans ((B13_keep m R0 R1 R2 R3 R4 R5 R6 c main_arg8 (by decide)).trans ((B12_keep m R0 R1 R2 R3 R4 R5 R6 c main_arg8 (by decide)).trans ((B11_keep m R0 R1 R2 R3 R4 R5 c main_arg8 (by decide)).trans ((B10_keep m R0 R1 R2 R3 R4 R5 c main_arg8 (by decide)).trans ((B9_keep m R0 R1 R2 R3 R4 c main_arg8 (by decide)).trans ((B8_keep m R0 R1 R2 R3 c main_arg8 (by decide)).trans ((B7_keep m R0 R1 R2 R3 c main_arg8 (by decide)).trans ((B6_keep m R0 R1 R2 c main_arg8 (by decide)).trans ((B5_keep m R0 R1 R2 c main_arg8 (by decide)).trans ((B4_keep m R0 R1 c main_arg8 (by decide)).trans ((B3_keep m R0 R1 c main_arg8 (by decide)).trans ((B2_keep m R0 c main_arg8 (by decide)).trans (B1_keep m R0 c main_arg8 (by decide))))))))))))))).trans rfl
theorem B14_arg9 (c : Dev nD) : B14 m R0 R1 R2 R3 R4 R5 R6 R7 c (Proc.devRef .tc main_arg9) = m ((c : Thread nD τ).loc main_arg9) :=
  ((B14_keep m R0 R1 R2 R3 R4 R5 R6 R7 c main_arg9 (by decide)).trans ((B13_keep m R0 R1 R2 R3 R4 R5 R6 c main_arg9 (by decide)).trans ((B12_keep m R0 R1 R2 R3 R4 R5 R6 c main_arg9 (by decide)).trans ((B11_keep m R0 R1 R2 R3 R4 R5 c main_arg9 (by decide)).trans ((B10_keep m R0 R1 R2 R3 R4 R5 c main_arg9 (by decide)).trans ((B9_keep m R0 R1 R2 R3 R4 c main_arg9 (by decide)).trans ((B8_keep m R0 R1 R2 R3 c main_arg9 (by decide)).trans ((B7_keep m R0 R1 R2 R3 c main_arg9 (by decide)).trans ((B6_keep m R0 R1 R2 c main_arg9 (by decide)).trans ((B5_keep m R0 R1 R2 c main_arg9 (by decide)).trans ((B4_keep m R0 R1 c main_arg9 (by decide)).trans ((B3_keep m R0 R1 c main_arg9 (by decide)).trans ((B2_keep m R0 c main_arg9 (by decide)).trans (B1_keep m R0 c main_arg9 (by decide))))))))))))))).trans rfl
theorem B14_arg10 (c : Dev nD) : B14 m R0 R1 R2 R3 R4 R5 R6 R7 c (Proc.devRef .tc main_arg10) = m ((c : Thread nD τ).loc main_arg10) :=
  ((B14_keep m R0 R1 R2 R3 R4 R5 R6 R7 c main_arg10 (by decide)).trans ((B13_keep m R0 R1 R2 R3 R4 R5 R6 c main_arg10 (by decide)).trans ((B12_keep m R0 R1 R2 R3 R4 R5 R6 c main_arg10 (by decide)).trans ((B11_keep m R0 R1 R2 R3 R4 R5 c main_arg10 (by decide)).trans ((B10_keep m R0 R1 R2 R3 R4 R5 c main_arg10 (by decide)).trans ((B9_keep m R0 R1 R2 R3 R4 c main_arg10 (by decide)).trans ((B8_keep m R0 R1 R2 R3 c main_arg10 (by decide)).trans ((B7_keep m R0 R1 R2 R3 c main_arg10 (by decide)).trans ((B6_keep m R0 R1 R2 c main_arg10 (by decide)).trans ((B5_keep m R0 R1 R2 c main_arg10 (by decide)).trans ((B4_keep m R0 R1 c main_arg10 (by decide)).trans ((B3_keep m R0 R1 c main_arg10 (by decide)).trans ((B2_keep m R0 c main_arg10 (by decide)).trans (B1_keep m R0 c main_arg10 (by decide))))))))))))))).trans rfl
theorem B14_arg11 (c : Dev nD) : B14 m R0 R1 R2 R3 R4 R5 R6 R7 c (Proc.devRef .tc main_arg11) = m ((c : Thread nD τ).loc main_arg11) :=
  ((B14_keep m R0 R1 R2 R3 R4 R5 R6 R7 c main_arg11 (by decide)).trans ((B13_keep m R0 R1 R2 R3 R4 R5 R6 c main_arg11 (by decide)).trans ((B12_keep m R0 R1 R2 R3 R4 R5 R6 c main_arg11 (by decide)).trans ((B11_keep m R0 R1 R2 R3 R4 R5 c main_arg11 (by decide)).trans ((B10_keep m R0 R1 R2 R3 R4 R5 c main_arg11 (by decide)).trans ((B9_keep m R0 R1 R2 R3 R4 c main_arg11 (by decide)).trans ((B8_keep m R0 R1 R2 R3 c main_arg11 (by decide)).trans ((B7_keep m R0 R1 R2 R3 c main_arg11 (by decide)).trans ((B6_keep m R0 R1 R2 c main_arg11 (by decide)).trans ((B5_keep m R0 R1 R2 c main_arg11 (by decide)).trans ((B4_keep m R0 R1 c main_arg11 (by decide)).trans ((B3_keep m R0 R1 c main_arg11 (by decide)).trans ((B2_keep m R0 c main_arg11 (by decide)).trans (B1_keep m R0 c main_arg11 (by decide))))))))))))))).trans rfl

include R0 R1 R2 R3 R4 R5 R6 R7 in
/-- THE FRAME: every weakly fair execution of @main terminates, nothing faulting, and every final state has the argument
    arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_arg0 (by decide))).trans (B14_arg0 m R0 R1 R2 R3 R4 R5 R6 R7 c),
     (h c _ (mem_uc main_arg1 (by decide))).trans (B14_arg1 m R0 R1 R2 R3 R4 R5 R6 R7 c),
     (h c _ (mem_uc main_arg2 (by decide))).trans (B14_arg2 m R0 R1 R2 R3 R4 R5 R6 R7 c),
     (h c _ (mem_uc main_arg3 (by decide))).trans (B14_arg3 m R0 R1 R2 R3 R4 R5 R6 R7 c),
     (h c _ (mem_uc main_arg4 (by decide))).trans (B14_arg4 m R0 R1 R2 R3 R4 R5 R6 R7 c),
     (h c _ (mem_uc main_arg5 (by decide))).trans (B14_arg5 m R0 R1 R2 R3 R4 R5 R6 R7 c),
     (h c _ (mem_uc main_arg6 (by decide))).trans (B14_arg6 m R0 R1 R2 R3 R4 R5 R6 R7 c),
     (h c _ (mem_uc main_arg7 (by decide))).trans (B14_arg7 m R0 R1 R2 R3 R4 R5 R6 R7 c),
     (h c _ (mem_uc main_arg8 (by decide))).trans (B14_arg8 m R0 R1 R2 R3 R4 R5 R6 R7 c),
     (h c _ (mem_uc main_arg9 (by decide))).trans (B14_arg9 m R0 R1 R2 R3 R4 R5 R6 R7 c),
     (h c _ (mem_uc main_arg10 (by decide))).trans (B14_arg10 m R0 R1 R2 R3 R4 R5 R6 R7 c),
     (h c _ (mem_uc main_arg11 (by decide))).trans (B14_arg11 m R0 R1 R2 R3 R4 R5 R6 R7 c)⟩)
    (run_all m ρ R0 R1 R2 R3 R4 R5 R6 R7)

end Run

end Cert.Kernel.Hand

end
-- ==== Proof.KRegion0Runs.lean ====
import proofs.«178500_j188978561286_1_alg».proof.Proof.Gen.Kernel.Launch
import proofs.«178500_j188978561286_1_alg».proof.Proof.Gen.Kernel.Skeleton
import proofs.«178500_j188978561286_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks of the degree pass -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The edge table's current staging buffer holds its block at every point, for any proof data whose array is the
    entry contents and whose body leaves the block in place: the window is fetched at every point, uncut, never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions, in closed form over the 32 grid points

A point t is (i, k) with k = t mod 4: the accumulator is zeroed when k = 0 and the result stored when k = 3. -/

/-- The first conditional: the column-tile coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The second conditional: the column-tile coordinate is 3 (the last of a row of tiles). -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem idleAt0_1_A : ∀ t : Fin cfg0.N, cond0_0 (grid0.coords t) → ¬cond0_1 (grid0.coords t) → cfg0.idle 1 (grid0.coords t) = true := by decide +kernel
theorem noFlush0_1_A : ∀ t : Fin cfg0.N, cond0_0 (grid0.coords t) → ¬cond0_1 (grid0.coords t) → (cfg0.win 1).flush t = false := by decide +kernel
theorem idleAt0_1_B : ∀ t : Fin cfg0.N, ¬cond0_0 (grid0.coords t) → ¬cond0_1 (grid0.coords t) → cfg0.idle 1 (grid0.coords t) = true := by decide +kernel
theorem noFlush0_1_B : ∀ t : Fin cfg0.N, ¬cond0_0 (grid0.coords t) → ¬cond0_1 (grid0.coords t) → (cfg0.win 1).flush t = false := by decide +kernel
theorem liveAt0_1_C : ∀ t : Fin cfg0.N, ¬cond0_0 (grid0.coords t) → cond0_1 (grid0.coords t) → cfg0.idle 1 (grid0.coords t) = false := by decide +kernel

/-! ## The memrefs the body is called with -/

/-- One staging buffer of the output window, through which its contents are stated. -/
abbrev VO0_1 : View sig .tc .vmem S1024x1 .f32 := (Memref.whole cc0_stg1_0 : Memref sig .tc .vmem S1024x1 .f32).view
abbrev ms0_0 (t : Fin cfg0.N) : Memref sig .tc .vmem S1024x2048 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .f32 := win0_1.stage (cfg0.slots t 1)
abbrev hs0_1 (t : Fin cfg0.N) : (ms0_1 t).IsWhole := hstage0_1 ((cfg0.slots t 1).cast nbuf0_1)
/-- The accumulator: a whole scoped buffer of the kernel's own. -/
abbrev scM0_0 : Memref sig .tc .vmem S1024x1 .f32 := Memref.whole cc0_scratch0
abbrev VS0_0 : View sig .tc .vmem S1024x1 .f32 := scM0_0.view

/-- The class invariant with the accumulator as a memref owned at some contents, the other scoped buffers unopened. -/
theorem PhiA0_eq (c : Dev nD) :
    (Pipeline.ΦA spec0 c : sProp 𝕄)
      = iprop(iprop(iprop((∃ d, owns (c : Thread nD τ) scM0_0 fullShare d)) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

/-! ## The body's run in each of its three control cases -/

set_option maxHeartbeats 1000000 in
/-- Case A (first tile of a row: the accumulator is zeroed, then the tile's row sums added; nothing stored into the output). -/
noncomputable def kernelRun0_A (c : Dev nD) (i : grid0.Coords) (arg2 : Memref sig .tc .vmem S1024x2048 .i32) (harg2 : arg2.IsWhole) (arg3 : Memref sig .tc .vmem S1024x1 .f32) (harg3 : arg3.IsWhole) (arg4 : Memref sig .tc .vmem S1024x1 .f32) (harg4 : arg4.IsWhole) (hc0 : cond0_0 i) (hc1 : ¬cond0_1 i)
    (x0 : Vec F S1024x2048 .i32) :
    Σ' (L1 : List (View.Piece (Elt F) S1024x1 .f32)), { LS0 : List (View.Piece (Elt F) S1024x1 .f32) //
      ∀ (xi1 : Vec F S1024x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__deg_kernel i arg2 harg2 arg3 harg3 arg4 harg4) K } := by
  refine ⟨[], ?_, fun xi1 E K => ?run⟩
  case run =>
    simp only [cc0__deg_kernel_eq_skeleton]; unfold cc0__deg_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- Case B (a middle tile: the tile's row sums added to the carried accumulator; nothing stored into the output). -/
noncomputable def kernelRun0_B (c : Dev nD) (i : grid0.Coords) (arg2 : Memref sig .tc .vmem S1024x2048 .i32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : ¬cond0_1 i)
    (x0 : Vec F S1024x2048 .i32) (xs0 : Vec F S1024x1 .f32) :
    Σ' (L1 : List (View.Piece (Elt F) S1024x1 .f32)), { LS0 : List (View.Piece (Elt F) S1024x1 .f32) //
      ∀ (xi1 : Vec F S1024x1 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__deg_kernel i arg2 harg2 arg3 harg3 arg4 harg4) K } := by
  refine ⟨[], ?_, fun xi1 E K => ?run⟩
  case run =>
    simp only [cc0__deg_kernel_eq_skeleton]; unfold cc0__deg_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- Case C (the last tile of a row: the tile's row sums added, then the output block stored from the accumulator). -/
noncomputable def kernelRun0_C (c : Dev nD) (i : grid0.Coords) (arg2 : Memref sig .tc .vmem S1024x2048 .i32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x2048 .i32) (xs0 : Vec F S1024x1 .f32) :
    Σ' (L1 : List (View.Piece (Elt F) S1024x1 .f32)), { LS0 : List (View.Piece (Elt F) S1024x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__deg_kernel i arg2 harg2 arg3 harg3 arg4 harg4) K } := by
  refine ⟨?_, ?_, fun E K => ?run⟩
  case run =>
    simp only [cc0__deg_kernel_eq_skeleton]; unfold cc0__deg_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.Kernel.Hand

end
-- ==== Proof.KRegion0.lean ====
import proofs.«178500_j188978561286_1_alg».proof.Proof.KRegion0Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the output's staging buffer and in the accumulator -/

/-- Case A stores nothing into the output: no pieces (a placeholder nothing consults). -/
def out0_A_1 (c : Dev nD) (i : grid0.Coords) (arg2 : Memref sig .tc .vmem S1024x2048 .i32) (harg2 : arg2.IsWhole) (arg3 : Memref sig .tc .vmem S1024x1 .f32) (harg3 : arg3.IsWhole) (arg4 : Memref sig .tc .vmem S1024x1 .f32) (harg4 : arg4.IsWhole) (hc0 : cond0_0 i) (hc1 : ¬cond0_1 i)
    (x0 : Vec F S1024x2048 .i32) : Vec F S1024x1 .f32 :=
  VO0_1.read (Elt F) (VO0_1.writes (Elt F) VO0_1.junk (kernelRun0_A c i arg2 harg2 arg3 harg3 arg4 harg4 hc0 hc1 x0).1)

/-- Case A's stores into the accumulator cover it. -/
theorem scover0_A_0 (c : Dev nD) (i : grid0.Coords) (arg2 : Memref sig .tc .vmem S1024x2048 .i32) (harg2 : arg2.IsWhole) (arg3 : Memref sig .tc .vmem S1024x1 .f32) (harg3 : arg3.IsWhole) (arg4 : Memref sig .tc .vmem S1024x1 .f32) (harg4 : arg4.IsWhole) (hc0 : cond0_0 i) (hc1 : ¬cond0_1 i)
    (x0 : Vec F S1024x2048 .i32) (y : S1024x1.Idx) :
    ∃ pc ∈ (kernelRun0_A c i arg2 harg2 arg3 harg3 arg4 harg4 hc0 hc1 x0).2.1, y ∈ pc.1.set :=
  View.cover_of_tiledL (kernelRun0_A c i arg2 harg2 arg3 harg3 arg4 harg4 hc0 hc1 x0).2.1 S1024x1.size (by sl_kernel_rfl) y

/-- What case A leaves in the accumulator. -/
def sout0_A_0 (c : Dev nD) (i : grid0.Coords) (arg2 : Memref sig .tc .vmem S1024x2048 .i32) (harg2 : arg2.IsWhole) (arg3 : Memref sig .tc .vmem S1024x1 .f32) (harg3 : arg3.IsWhole) (arg4 : Memref sig .tc .vmem S1024x1 .f32) (harg4 : arg4.IsWhole) (hc0 : cond0_0 i) (hc1 : ¬cond0_1 i)
    (x0 : Vec F S1024x2048 .i32) : Vec F S1024x1 .f32 :=
  VS0_0.read (Elt F) (VS0_0.writes (Elt F) VS0_0.junk (kernelRun0_A c i arg2 harg2 arg3 harg3 arg4 harg4 hc0 hc1 x0).2.1)

/-- Case B stores nothing into the output either. -/
def out0_B_1 (c : Dev nD) (i : grid0.Coords) (arg2 : Memref sig .tc .vmem S1024x2048 .i32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : ¬cond0_1 i)
    (x0 : Vec F S1024x2048 .i32) (xs0 : Vec F S1024x1 .f32) : Vec F S1024x1 .f32 :=
  VO0_1.read (Elt F) (VO0_1.writes (Elt F) VO0_1.junk (kernelRun0_B c i arg2 harg2 arg3 harg3 arg4 harg4 hc0 hc1 x0 xs0).1)

theorem scover0_B_0 (c : Dev nD) (i : grid0.Coords) (arg2 : Memref sig .tc .vmem S1024x2048 .i32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : ¬cond0_1 i)
    (x0 : Vec F S1024x2048 .i32) (xs0 : Vec F S1024x1 .f32) (y : S1024x1.Idx) :
    ∃ pc ∈ (kernelRun0_B c i arg2 harg2 arg3 harg3 arg4 harg4 hc0 hc1 x0 xs0).2.1, y ∈ pc.1.set :=
  View.cover_of_tiledL (kernelRun0_B c i arg2 harg2 arg3 harg3 arg4 harg4 hc0 hc1 x0 xs0).2.1 S1024x1.size (by sl_kernel_rfl) y

def sout0_B_0 (c : Dev nD) (i : grid0.Coords) (arg2 : Memref sig .tc .vmem S1024x2048 .i32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : ¬cond0_1 i)
    (x0 : Vec F S1024x2048 .i32) (xs0 : Vec F S1024x1 .f32) : Vec F S1024x1 .f32 :=
  VS0_0.read (Elt F) (VS0_0.writes (Elt F) VS0_0.junk (kernelRun0_B c i arg2 harg2 arg3 harg3 arg4 harg4 hc0 hc1 x0 xs0).2.1)

/-- Case C's one store into the output covers its block. -/
theorem cover0_C_1 (c : Dev nD) (i : grid0.Coords) (arg2 : Memref sig .tc .vmem S1024x2048 .i32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x2048 .i32) (xs0 : Vec F S1024x1 .f32) (y : S1024x1.Idx) :
    ∃ pc ∈ (kernelRun0_C c i arg2 harg2 arg3 harg3 arg4 harg4 hc0 hc1 x0 xs0).1, y ∈ pc.1.set :=
  View.cover_of_tiledL (kernelRun0_C c i arg2 harg2 arg3 harg3 arg4 harg4 hc0 hc1 x0 xs0).1 S1024x1.size (by sl_kernel_rfl) y

/-- What case C leaves in the output's staging buffer. -/
def out0_C_1 (c : Dev nD) (i : grid0.Coords) (arg2 : Memref sig .tc .vmem S1024x2048 .i32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x2048 .i32) (xs0 : Vec F S1024x1 .f32) : Vec F S1024x1 .f32 :=
  VO0_1.read (Elt F) (VO0_1.writes (Elt F) VO0_1.junk (kernelRun0_C c i arg2 harg2 arg3 harg3 arg4 harg4 hc0 hc1 x0 xs0).1)

theorem scover0_C_0 (c : Dev nD) (i : grid0.Coords) (arg2 : Memref sig .tc .vmem S1024x2048 .i32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x2048 .i32) (xs0 : Vec F S1024x1 .f32) (y : S1024x1.Idx) :
    ∃ pc ∈ (kernelRun0_C c i arg2 harg2 arg3 harg3 arg4 harg4 hc0 hc1 x0 xs0).2.1, y ∈ pc.1.set :=
  View.cover_of_tiledL (kernelRun0_C c i arg2 harg2 arg3 harg3 arg4 harg4 hc0 hc1 x0 xs0).2.1 S1024x1.size (by sl_kernel_rfl) y

def sout0_C_0 (c : Dev nD) (i : grid0.Coords) (arg2 : Memref sig .tc .vmem S1024x2048 .i32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x2048 .i32) (xs0 : Vec F S1024x1 .f32) : Vec F S1024x1 .f32 :=
  VS0_0.read (Elt F) (VS0_0.writes (Elt F) VS0_0.junk (kernelRun0_C c i arg2 harg2 arg3 harg3 arg4 harg4 hc0 hc1 x0 xs0).2.1)

/-! ## What the output's staging buffer and the accumulator hold after each point -/

/-- After the body at position n: (the output's staging buffer, the accumulator) — the case the closed forms select
    at n, run on the edge block of the point and on what the point before left in the accumulator. -/
def outsAt0 (c : Dev nD) : (n : ℕ) → n < cfg0.N → Vec F S1024x1 .f32 × Vec F S1024x1 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h0 : (n + 1) % 4 = 0 then
      if h1 : (n + 1) % 4 = 3 then
        False.elim (by omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩))
    else
      if h1 : (n + 1) % 4 = 3 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2)

theorem outsAt0_A (c : Dev nD) (t : Fin cfg0.N) (h0 : t.val % 4 = 0) (h1 : ¬t.val % 4 = 3) :
    outsAt0 V c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk0 V c 0 t), sout0_A_0 c (grid0.coords t) (ms0_0 t) (hs0_0 t) (ms0_1 t) (hs0_1 t) scM0_0 (Memref.isWhole_whole _) ((hcond0_0 t).mpr h0) (fun h => h1 ((hcond0_1 t).mp h)) (iblk0 V c 0 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position n: before the first point the class's; afterwards the accumulator at what the
    point before left, the other scoped buffers unopened, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The proof data of the degree pass -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d

/-- The edge table is an input: its array is never written. -/
theorem arrAt_in0 (c : Dev nD) : (dat0 V c).arrAt 0 cfg0.N = V c (Pipeline.arrRef spec0 0) :=
  ((dat0 V c).arrAt_in 0 rfl _).trans (A_eq0 V c 0)

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  by_cases h0 : t.val % 4 = 0
  · by_cases h1 : t.val % 4 = 3
    · exfalso; omega
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_A t ((hcond0_0 t).mpr h0) (fun h => h1 ((hcond0_1 t).mp h))) (noFlush0_1_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, Hr⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexact HS0
        iintro ⟨H0, H1, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A_0 c _ _ _ _ _ _ _ _ _ _)
            iexact Hr
          iexact Hg
        isplitl [Ho]; · iexact Ho
        isplitl [H0]; · iexact H0
        iexists _; iexact H1
      · rw [PhiS0_castSucc V c t, PhiS0_pos V c _ _ hz]
        iintro ⟨⟨⟨HS0, Hr⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexists _; iexact HS0
        iintro ⟨H0, H1, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A_0 c _ _ _ _ _ _ _ _ _ _)
            iexact Hr
          iexact Hg
        isplitl [Ho]; · iexact Ho
        isplitl [H0]; · iexact H0
        iexists _; iexact H1
  · by_cases h1 : t.val % 4 = 3
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1_C t (fun h => h0 ((hcond0_0 t).mp h)) ((hcond0_1 t).mpr h1)], after0_1]
      rw [outsAt0_C V c t h0 h1]
      unfold out0_C_1 sout0_C_0; (try dsimp only)
      by_cases hz : t.val = 0
      · exfalso; omega
      · rw [PhiS0_castSucc V c t, PhiS0_pos V c _ _ hz]
        iintro ⟨⟨⟨HS0, Hr⟩, Hg⟩, Ho, ⟨%d0, H0⟩, ⟨%d1, H1⟩⟩
        iapply ((kernelRun0_C c (grid0.coords t) _ _ _ _ _ _ (fun h => h0 ((hcond0_0 t).mp h)) ((hcond0_1 t).mpr h1) (iblk0 V c 0 t) _).2.2 Set.univ _)
        isplitl [H0]; · iexact H0
        isplitl [H1]; · iexists _; iexact H1
        isplitl [HS0]; · iexact HS0
        iintro ⟨H0, ⟨%e1, H1⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_C_0 c _ _ _ _ _ _ _ _ _ _ _)
            iexact Hr
          iexact Hg
        isplitl [Ho]; · iexact Ho
        isplitl [H0]; · iexact H0
        unfold owns; iexists _; isplitr
        swap; · iexact H1
        ipureintro; exact View.read_writes_of_cover _ _ _ _ _ (cover0_C_1 c _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      rw [outsAt0_B V c t h0 h1]
      unfold sout0_B_0; (try dsimp only)
      by_cases hz : t.val = 0
      · exfalso; omega
      · rw [PhiS0_castSucc V c t, PhiS0_pos V c _ _ hz]
        iintro ⟨⟨⟨HS0, Hr⟩, Hg⟩, Ho, ⟨%d0, H0⟩, ⟨%d1, H1⟩⟩
        iapply ((kernelRun0_B c (grid0.coords t) _ _ _ _ _ _ (fun h => h0 ((hcond0_0 t).mp h)) (fun h => h1 ((hcond0_1 t).mp h)) (iblk0 V c 0 t) _).2.2 _ Set.univ _)
        isplitl [H0]; · iexact H0
        isplitl [H1]; · iexact H1
        isplitl [HS0]; · iexact HS0
        iintro ⟨H0, H1, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_B_0 c _ _ _ _ _ _ _ _ _ _ _)
            iexact Hr
          iexact Hg
        isplitl [Ho]; · iexact Ho
        isplitl [H0]; · iexact H0
        iexists _; iexact H1

/-- The body obligation of the degree pass, at every point. -/
theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hr⟩, Hg⟩
  isplitl [HS0 Hr]
  · isplitl [HS0]
    · iexists _; iexact HS0
    iexact Hr
  iexact Hg

theorem hout0 (c : Dev nD) : (dat0 V c).Φ (Fin.last cfg0.N) ⊢ Pipeline.ΦA spec0 c :=
  Phi_out0 V c _ (by rw [Fin.val_last]; have : cfg0.N = 32 := N_0; omega)

end Cert.Kernel.Hand

end
-- ==== Proof.KRegion1.lean ====
/-
  The normalised-adjacency region (pipeline 1), frame half, at any float model.

  The grid is 8 × 4.  At the point (i, j) the body reads a 1024 × 2048 block of the edge table, the
  1024 × 1 block of the scale column and the 1 × 2048 block of the scale row, and stores ONE whole
  1024 × 2048 block of the result.  Every point is alike: there is no carried state, so the invariant
  is the constant one, and the stored block is a function of the three blocks read and of the
  point's coordinates (the diagonal indicator is built from them).
-/
import proofs.«178500_j188978561286_1_alg».proof.Proof.Gen.Kernel.Launch
import proofs.«178500_j188978561286_1_alg».proof.Proof.Gen.Kernel.Skeleton
import proofs.«178500_j188978561286_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the block was
    fetched at this point or at an earlier one with the same block index: the window is never cut and
    never idle, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read and written whole -/

abbrev r1_a : Rect S1024x2048 := Rect.unit (s := S1024x2048) ![0, 0] S1024x2048.size inb_S1024x2048_S1024x2048_0_0
abbrev r1_b : Rect S1024x1 := Rect.unit (s := S1024x1) ![0, 0] S1024x1.size inb_S1024x1_S1024x1_0_0
abbrev r1_c : Rect S1x2048 := Rect.unit (s := S1x2048) ![0, 0] S1x2048.size inb_S1x2048_S1x2048_0_0

/-! ## What the body leaves in the output window's buffer -/

/-- The output's staging buffer after the body at the point with coordinates `i`, from the three
    blocks read: its one store, of the whole block. -/
def out1_3 (i : grid1.Coords) (x0 : Vec F S1024x2048 .i32) (x1 : Vec F S1024x1 .f32) (x2 : Vec F S1x2048 .f32) : Vec F S1024x2048 .bf16 :=
  View.canon [⟨r1_a, k1_pay1 i (View.ld x0 r1_a) (View.ld x1 r1_b) (View.ld x2 r1_c)⟩]

/-- The one store covers the buffer. -/
theorem cover1_3 (p0 : Vec F S1024x2048 .bf16) (y : S1024x2048.Idx) :
    ∃ pc ∈ ([⟨r1_a, p0⟩] : List (View.Piece (Elt F) S1024x2048 .bf16)), y ∈ pc.1.set :=
  View.cover_of_tiled [⟨r1_a, p0⟩] S1024x2048.size (by rfl) y

/-! ## The body's triple -/

set_option maxHeartbeats 1000000 in
/-- The kernel body on whole staging memrefs, the inputs' at contents `xW` and the output's at anything, runs to
    the continuation holding the inputs' as they were and the output's at `out1_3` of the inputs'. -/
theorem sound_kernel1 (c : Dev nD) (E : Set ℕ) (i : grid1.Coords)
    (arg2 : Memref sig .tc .vmem S1024x2048 .i32) (harg2 : arg2.IsWhole) (arg3 : Memref sig .tc .vmem S1024x1 .f32) (harg3 : arg3.IsWhole)
    (arg4 : Memref sig .tc .vmem S1x2048 .f32) (harg4 : arg4.IsWhole) (arg5 : Memref sig .tc .vmem S1024x2048 .bf16) (harg5 : arg5.IsWhole)
    (x0 : Vec F S1024x2048 .i32) (x1 : Vec F S1024x1 .f32) (x2 : Vec F S1x2048 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 i x0 x1 x2)) -∗ K ⟨⟩))
      ⊢ wp frame (wpE (defs₀ (F := F)) Variants.none c none) E (cc1__nadj_kernel i arg2 harg2 arg3 harg3 arg4 harg4 arg5 harg5) K := by
  simp only [cc1__nadj_kernel_eq_skeleton]; unfold cc1__nadj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them; after the body at point `t`
    each input's buffer at its block and the output's at `out1_3` of the point's coordinates and the input
    blocks; the constant invariant (the scoped rest and the generator register, untouched); nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (grid1.coords t) (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (grid1.coords t) (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the kernel's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the two ends, and the input arrays at the end -/

theorem hin1 (c : Dev nD) : Pipeline.ΦA spec1 c ⊢ (dat1 V c).Φ 0 := .rfl

theorem hout1 (c : Dev nD) : (dat1 V c).Φ (Fin.last cfg1.N) ⊢ Pipeline.ΦA spec1 c := .rfl

/-- An input window's array is never written: at the end it is what the region found. -/
theorem arrAt_in1_0 (c : Dev nD) : (dat1 V c).arrAt 0 cfg1.N = V c (Pipeline.arrRef spec1 0) :=
  ((dat1 V c).arrAt_in 0 rfl cfg1.N).trans (A_eq1 V c 0)
theorem arrAt_in1_1 (c : Dev nD) : (dat1 V c).arrAt 1 cfg1.N = V c (Pipeline.arrRef spec1 1) :=
  ((dat1 V c).arrAt_in 1 rfl cfg1.N).trans (A_eq1 V c 1)
theorem arrAt_in1_2 (c : Dev nD) : (dat1 V c).arrAt 2 cfg1.N = V c (Pipeline.arrRef spec1 2) :=
  ((dat1 V c).arrAt_in 2 rfl cfg1.N).trans (A_eq1 V c 2)

end Cert.Kernel.Hand

end
-- ==== Proof.KRegion2Runs.lean ====
import proofs.«178500_j188978561286_1_alg».proof.Proof.Gen.Kernel.Launch
import proofs.«178500_j188978561286_1_alg».proof.Proof.Gen.Kernel.Skeleton
import proofs.«178500_j188978561286_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## The body's two conditions, over the grid

The grid is 4 × 4, walked row-major: point `t` is tile `k = t % 4` of block row `i = t / 4`.  The body's first
conditional (clear the accumulator) tests `k = 0`, its second (finish the row: add the bias row, apply the leaky
rectifier, store the output block) tests `k = 3`. -/

/-- The first conditional's test, from the grid coordinates. -/
abbrev cond2_0 (i : grid2.Coords) : Prop := (Scalar.cmpi .ne (Scalar.extui (Scalar.cmpi .eq (BitVec.ofNat 32 (i 1).val) 0#32)) 0#32) = 1#1
/-- It holds exactly at the points whose position is 0 modulo 4. -/
theorem hcond2_0 : ∀ t : Fin cfg2.N, cond2_0 (grid2.coords t) ↔ t.val % 4 = 0 :=
  (by decide +kernel : ∀ t : Fin grid2.N, cond2_0 (grid2.coords t) ↔ t.val % 4 = 0)

/-- The second conditional's test. -/
abbrev cond2_1 (i : grid2.Coords) : Prop := k2_cond2 i = 1#1
/-- It holds exactly at the points whose position is 3 modulo 4. -/
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

/-- The four inputs are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- The output is idle, and not written back, at every point but the last of a row. -/
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
/-- At the last point of a row it is live. -/
theorem liveAt2_4 : ∀ t : Fin cfg2.N, cond2_1 (grid2.coords t) → cfg2.idle 4 (grid2.coords t) = false := by decide +kernel

/-! ## The memrefs the body is called with -/

/-- One staging buffer of the output window, through which its contents are stated. -/
abbrev VO2_4 : View sig .tc .vmem S2048x64 .f32 := (Memref.whole cc2_stg4_0 : Memref sig .tc .vmem S2048x64 .f32).view
/-- Each window's current staging memref at point `t`, and its wholeness. -/
abbrev ms2_0 (t : Fin cfg2.N) : Memref sig .tc .vmem S2048x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S2048x64 .f32 := win2_4.stage (cfg2.slots t 4)
abbrev hs2_4 (t : Fin cfg2.N) : (ms2_4 t).IsWhole := hstage2_4 ((cfg2.slots t 4).cast nbuf2_4)
/-- The accumulator: a whole scoped buffer of the kernel's own, carried from point to point. -/
abbrev scM2_0 : Memref sig .tc .vmem S2048x64 .f32 := Memref.whole cc2_scratch0
abbrev VS2_0 : View sig .tc .vmem S2048x64 .f32 := scM2_0.view

/-- What the launch hands the region, with the accumulator split off as a memref owned at some contents; the other
    scoped buffers stay unopened. -/
theorem PhiA2_eq (c : Dev nD) :
    (Pipeline.ΦA spec2 c : sProp 𝕄)
      = iprop(iprop((∃ d, owns (c : Thread nD τ) scM2_0 fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

/-! ## The body's three runs

Each is the body's triple on whole memrefs, with the lists of pieces its stores leave as the witness found by the
symbolic run. -/

set_option maxHeartbeats 1000000 in
/-- First tile of a row (`k = 0`): the accumulator, at anything, is cleared and one tile product added; the output's
    buffer is handed back untouched. -/
noncomputable def kernelRun2_A (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole) (hc0 : cond2_0 i) (hc1 : ¬cond2_1 i)
    (x0 : Vec F S2048x2048 .bf16) (x1 : Vec F S2048x128 .f32) (x2 : Vec F S128x64 .f32) (x3 : Vec F S1x64 .f32) :
    Σ' (L4 : List (View.Piece (Elt F) S2048x64 .f32)), { LS0 : List (View.Piece (Elt F) S2048x64 .f32) //
      ∀ (xi4 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc2__gcn_kernel i arg2 harg2 arg3 harg3 arg4 harg4 arg5 harg5 arg6 harg6 arg7 harg7) K } := by
  refine ⟨[], ?_, fun xi4 E K => ?run⟩
  case run =>
    simp only [cc2__gcn_kernel_eq_skeleton]; unfold cc2__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- A middle tile (`k = 1, 2`): one tile product is added to the accumulator the point before left; the output's
    buffer is handed back untouched. -/
noncomputable def kernelRun2_B (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole) (hc0 : ¬cond2_0 i) (hc1 : ¬cond2_1 i)
    (x0 : Vec F S2048x2048 .bf16) (x1 : Vec F S2048x128 .f32) (x2 : Vec F S128x64 .f32) (x3 : Vec F S1x64 .f32) (xs0 : Vec F S2048x64 .f32) :
    Σ' (L4 : List (View.Piece (Elt F) S2048x64 .f32)), { LS0 : List (View.Piece (Elt F) S2048x64 .f32) //
      ∀ (xi4 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc2__gcn_kernel i arg2 harg2 arg3 harg3 arg4 harg4 arg5 harg5 arg6 harg6 arg7 harg7) K } := by
  refine ⟨[], ?_, fun xi4 E K => ?run⟩
  case run =>
    simp only [cc2__gcn_kernel_eq_skeleton]; unfold cc2__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- Last tile of a row (`k = 3`): the last tile product is added, then the output block is stored from the finished
    accumulator and the bias row. -/
noncomputable def kernelRun2_C (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole) (hc0 : ¬cond2_0 i) (hc1 : cond2_1 i)
    (x0 : Vec F S2048x2048 .bf16) (x1 : Vec F S2048x128 .f32) (x2 : Vec F S128x64 .f32) (x3 : Vec F S1x64 .f32) (xs0 : Vec F S2048x64 .f32) :
    Σ' (L4 : List (View.Piece (Elt F) S2048x64 .f32)), { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc2__gcn_kernel i arg2 harg2 arg3 harg3 arg4 harg4 arg5 harg5 arg6 harg6 arg7 harg7) K } := by
  refine ⟨?_, ?_, fun E K => ?run⟩
  case run =>
    simp only [cc2__gcn_kernel_eq_skeleton]; unfold cc2__gcn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.KRegion2.lean ====
import proofs.«178500_j188978561286_1_alg».proof.Proof.KRegion2Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the first graph-convolution layer, at the entry contents `V`

The grid is 4 × 4.  At point `t = 4 i + k` the body adds tile `k` of block row `i` of the product to an accumulator
it carries from point to point (cleared at `k = 0`), and at `k = 3` stores the finished row block.  The proof data
records, point by point, what the accumulator and the output's staging buffer hold. -/

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not: where it is not
    fetched its block index has not moved.  For any proof data whose array is the entry contents and whose body
    leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves -/

/-- The first tile of a row at point `t`. -/
abbrev runA2 (c : Dev nD) (t : Fin cfg2.N) (h0 : t.val % 4 = 0) :=
  kernelRun2_A (F := F) c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => by have h3 := (hcond2_1 t).mp h; omega) (iblk2 V c 0 t) (iblk2 V c 1 t) (iblk2 V c 2 t) (iblk2 V c 3 t)
/-- A middle tile at point `t`, over what the accumulator held. -/
abbrev runB2 (c : Dev nD) (t : Fin cfg2.N) (h0 : ¬t.val % 4 = 0) (h1 : ¬t.val % 4 = 3) (prev : Vec F S2048x64 .f32) :=
  kernelRun2_B (F := F) c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk2 V c 0 t) (iblk2 V c 1 t) (iblk2 V c 2 t) (iblk2 V c 3 t) prev
/-- The last tile of a row at point `t`, over what the accumulator held. -/
abbrev runC2 (c : Dev nD) (t : Fin cfg2.N) (h0 : ¬t.val % 4 = 0) (h1 : t.val % 4 = 3) (prev : Vec F S2048x64 .f32) :=
  kernelRun2_C (F := F) c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) prev

/-- A list of pieces read back through the accumulator's view, and through the output's. -/
abbrev readS2 (L : List (View.Piece (Elt F) S2048x64 .f32)) : Vec F S2048x64 .f32 := VS2_0.read (Elt F) (VS2_0.writes (Elt F) VS2_0.junk L)
abbrev readO2 (L : List (View.Piece (Elt F) S2048x64 .f32)) : Vec F S2048x64 .f32 := VO2_4.read (Elt F) (VO2_4.writes (Elt F) VO2_4.junk L)

/-- In every case the pieces stored into the accumulator tile it, so they cover it. -/
theorem scover2_A (c : Dev nD) (t : Fin cfg2.N) (h0 : t.val % 4 = 0) (y : S2048x64.Idx) :
    ∃ pc ∈ (runA2 V c t h0).2.1, y ∈ pc.1.set :=
  View.cover_of_tiledL (runA2 V c t h0).2.1 S2048x64.size (by sl_kernel_rfl) y
theorem scover2_B (c : Dev nD) (t : Fin cfg2.N) (h0 : ¬t.val % 4 = 0) (h1 : ¬t.val % 4 = 3) (prev : Vec F S2048x64 .f32) (y : S2048x64.Idx) :
    ∃ pc ∈ (runB2 V c t h0 h1 prev).2.1, y ∈ pc.1.set :=
  View.cover_of_tiledL (runB2 V c t h0 h1 prev).2.1 S2048x64.size (by sl_kernel_rfl) y
theorem scover2_C (c : Dev nD) (t : Fin cfg2.N) (h0 : ¬t.val % 4 = 0) (h1 : t.val % 4 = 3) (prev : Vec F S2048x64 .f32) (y : S2048x64.Idx) :
    ∃ pc ∈ (runC2 V c t h0 h1 prev).2.1, y ∈ pc.1.set :=
  View.cover_of_tiledL (runC2 V c t h0 h1 prev).2.1 S2048x64.size (by sl_kernel_rfl) y
/-- At the last tile of a row the one store into the output's buffer covers it. -/
theorem cover2_C (c : Dev nD) (t : Fin cfg2.N) (h0 : ¬t.val % 4 = 0) (h1 : t.val % 4 = 3) (prev : Vec F S2048x64 .f32) (y : S2048x64.Idx) :
    ∃ pc ∈ (runC2 V c t h0 h1 prev).1, y ∈ pc.1.set :=
  View.cover_of_tiledL (runC2 V c t h0 h1 prev).1 S2048x64.size (by sl_kernel_rfl) y

/-! ## Point by point -/

/-- One step: what the output's staging buffer and the accumulator hold after the body at point `t`, from what the
    accumulator held before it (not consulted at the first tile of a row, where it is cleared).  Where the output is
    not stored its component is a placeholder nothing reads. -/
def stepAt2 (c : Dev nD) (t : Fin cfg2.N) (prev : Vec F S2048x64 .f32) : Vec F S2048x64 .f32 × Vec F S2048x64 .f32 :=
  if h0 : t.val % 4 = 0 then (readO2 (runA2 V c t h0).1, readS2 (runA2 V c t h0).2.1)
  else if h1 : t.val % 4 = 3 then (readO2 (runC2 V c t h0 h1 prev).1, readS2 (runC2 V c t h0 h1 prev).2.1)
  else (readO2 (runB2 V c t h0 h1 prev).1, readS2 (runB2 V c t h0 h1 prev).2.1)

theorem stepAt2_A (c : Dev nD) (t : Fin cfg2.N) (prev : Vec F S2048x64 .f32) (h0 : t.val % 4 = 0) :
    stepAt2 V c t prev = (readO2 (runA2 V c t h0).1, readS2 (runA2 V c t h0).2.1) := dif_pos h0
theorem stepAt2_B (c : Dev nD) (t : Fin cfg2.N) (prev : Vec F S2048x64 .f32) (h0 : ¬t.val % 4 = 0) (h1 : ¬t.val % 4 = 3) :
    stepAt2 V c t prev = (readO2 (runB2 V c t h0 h1 prev).1, readS2 (runB2 V c t h0 h1 prev).2.1) := (dif_neg h0).trans (dif_neg h1)
theorem stepAt2_C (c : Dev nD) (t : Fin cfg2.N) (prev : Vec F S2048x64 .f32) (h0 : ¬t.val % 4 = 0) (h1 : t.val % 4 = 3) :
    stepAt2 V c t prev = (readO2 (runC2 V c t h0 h1 prev).1, readS2 (runC2 V c t h0 h1 prev).2.1) := (dif_neg h0).trans (dif_pos h1)

/-- THE ACCUMULATION: the pair after the body at position `n`, by recursion on the position. -/
def outsAt2 (c : Dev nD) : (n : ℕ) → n < cfg2.N → Vec F S2048x64 .f32 × Vec F S2048x64 .f32
  | 0, hn => stepAt2 V c ⟨0, hn⟩ (readS2 [])
  | n + 1, hn => stepAt2 V c ⟨n + 1, hn⟩ (outsAt2 c n (Nat.lt_of_succ_lt hn)).2

/-- What the accumulator holds when the body is entered at point `t`. -/
def prevAt2 (c : Dev nD) (t : Fin cfg2.N) : Vec F S2048x64 .f32 :=
  if h : t.val = 0 then readS2 [] else (outsAt2 V c (t.val - 1) (Nat.lt_of_le_of_lt (Nat.sub_le _ _) t.isLt)).2

theorem outsAt2_eq (c : Dev nD) (t : Fin cfg2.N) : outsAt2 V c t.val t.isLt = stepAt2 V c t (prevAt2 V c t) := by
  obtain ⟨n, hn⟩ := t
  cases n with
  | zero => rfl
  | succ n => rfl

theorem prevAt2_pos (c : Dev nD) (t : Fin cfg2.N) (hz : t.val ≠ 0) :
    prevAt2 V c t = (outsAt2 V c (t.val - 1) (Nat.lt_of_le_of_lt (Nat.sub_le _ _) t.isLt)).2 := dif_neg hz

/-! ## The invariant -/

/-- Before the first point: what the launch hands over.  Afterwards: the accumulator at what the point before left,
    the other scoped buffers unopened, the generator register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2)
      ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2)
      ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2)
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The proof data -/

/-- The arrays as the region finds them; after the body each input's buffer at its block and the output's at the
    step's first component; the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- An input's array is never written: after the run it is the entry contents. -/
theorem arrAt_in2_0 (c : Dev nD) : (dat2 V c).arrAt 0 cfg2.N = V c (Pipeline.arrRef spec2 0) := ((dat2 V c).arrAt_in 0 rfl _).trans (A_eq2 V c 0)
theorem arrAt_in2_1 (c : Dev nD) : (dat2 V c).arrAt 1 cfg2.N = V c (Pipeline.arrRef spec2 1) := ((dat2 V c).arrAt_in 1 rfl _).trans (A_eq2 V c 1)
theorem arrAt_in2_2 (c : Dev nD) : (dat2 V c).arrAt 2 cfg2.N = V c (Pipeline.arrRef spec2 2) := ((dat2 V c).arrAt_in 2 rfl _).trans (A_eq2 V c 2)
theorem arrAt_in2_3 (c : Dev nD) : (dat2 V c).arrAt 3 cfg2.N = V c (Pipeline.arrRef spec2 3) := ((dat2 V c).arrAt_in 3 rfl _).trans (A_eq2 V c 3)

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point.  The inputs' buffers hold their blocks; the position modulo 4 says which of the three runs
    applies; the invariant hands the body the accumulator (at anything before the first point, else at what the point
    before left) and takes it back at this point's contents, the pieces stored into it covering it; the output's buffer
    is handed back untouched except at the last tile of a row, where the one store covers it. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  have hN : t.val < 16 := lt_of_lt_of_eq t.isLt (show cfg2.N = 16 from N_2)
  by_cases h0 : t.val % 4 = 0
  · have h1 : ¬t.val % 4 = 3 := by omega
    rw [Dat.leavesExact_idle (dat2 V c) 4 t (idleAt2_4 t (fun h => h1 ((hcond2_1 t).mp h))) (noFlush2_4 t (fun h => h1 ((hcond2_1 t).mp h)))]
    rw [outsAt2_eq V c t, stepAt2_A V c t _ h0]
    (try dsimp only)
    by_cases hz : t.val = 0
    · rw [PhiS2_castSucc V c t, PhiS2_zero V c _ _ hz, PhiA2_eq]
      iintro ⟨⟨⟨HS0, Hr⟩, Hg⟩, Ho, ⟨%d0, H0⟩, ⟨%d1, H1⟩, ⟨%d2, H2⟩, ⟨%d3, H3⟩, ⟨%d4, H4⟩⟩
      iapply ((runA2 V c t h0).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover2_A V c t h0)
          iexact Hr
        iexact Hg
      isplitl [Ho]; · iexact Ho
      isplitl [H0]; · iexact H0
      isplitl [H1]; · iexact H1
      isplitl [H2]; · iexact H2
      isplitl [H3]; · iexact H3
      iexists _; iexact H4
    · rw [PhiS2_castSucc V c t, PhiS2_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((runA2 V c t h0).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover2_A V c t h0)
          iexact Hr
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 4 = 3
    · rw [show (dat2 V c).leavesExact 4 t = owns (c : Thread nD τ) (ms2_4 t) fullShare ((dat2 V c).after 4 t) from by
        unfold Dat.leavesExact; rw [liveAt2_4 t ((hcond2_1 t).mpr h1)], after2_4]
      rw [outsAt2_eq V c t, stepAt2_C V c t _ h0 h1]
      (try dsimp only)
      rw [PhiS2_castSucc V c t, PhiS2_pos V c _ _ hz, prevAt2_pos V c t hz]
      iintro ⟨⟨⟨HS0, Hr⟩, Hg⟩, Ho, ⟨%d0, H0⟩, ⟨%d1, H1⟩, ⟨%d2, H2⟩, ⟨%d3, H3⟩, ⟨%d4, H4⟩⟩
      iapply ((runC2 V c t h0 h1 _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover2_C V c t h0 h1 _)
          iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover2_C V c t h0 h1 _)
    · rw [Dat.leavesExact_idle (dat2 V c) 4 t (idleAt2_4 t (fun h => h1 ((hcond2_1 t).mp h))) (noFlush2_4 t (fun h => h1 ((hcond2_1 t).mp h)))]
      rw [outsAt2_eq V c t, stepAt2_B V c t _ h0 h1]
      (try dsimp only)
      rw [PhiS2_castSucc V c t, PhiS2_pos V c _ _ hz, prevAt2_pos V c t hz]
      iintro ⟨⟨⟨HS0, Hr⟩, Hg⟩, Ho, ⟨%d0, H0⟩, ⟨%d1, H1⟩, ⟨%d2, H2⟩, ⟨%d3, H3⟩, ⟨%d4, H4⟩⟩
      iapply ((runB2 V c t h0 h1 _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover2_B V c t h0 h1 _)
          iexact Hr
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives it back: what the accumulator holds is forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hr⟩, Hg⟩
  isplitl [HS0 Hr]
  · isplitl [HS0]
    · iexists _; iexact HS0
    iexact Hr
  iexact Hg

/-- The same after the last point. -/
theorem hout2 (c : Dev nD) : (dat2 V c).Φ (Fin.last cfg2.N) ⊢ Pipeline.ΦA spec2 c :=
  Phi_out2 V c _ (by rw [Fin.val_last]; have : cfg2.N = 16 := N_2; omega)

end Cert.Kernel.Hand

end
-- ==== Proof.KRegion3Runs.lean ====
import proofs.«178500_j188978561286_1_alg».proof.Proof.Gen.Kernel.Launch
import proofs.«178500_j188978561286_1_alg».proof.Proof.Gen.Kernel.Skeleton
import proofs.«178500_j188978561286_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## The body's two conditions, over the grid

The grid is 4 × 4, walked row-major: point `t` is tile `k = t % 4` of block row `i = t / 4`.  The body's first
conditional (clear the accumulator) tests `k = 0`, its second (finish the row: add the bias row, apply the leaky
rectifier, store the output block) tests `k = 3`. -/

/-- The first conditional's test, from the grid coordinates. -/
abbrev cond3_0 (i : grid3.Coords) : Prop := (Scalar.cmpi .ne (Scalar.extui (Scalar.cmpi .eq (BitVec.ofNat 32 (i 1).val) 0#32)) 0#32) = 1#1
/-- It holds exactly at the points whose position is 0 modulo 4. -/
theorem hcond3_0 : ∀ t : Fin cfg3.N, cond3_0 (grid3.coords t) ↔ t.val % 4 = 0 :=
  (by decide +kernel : ∀ t : Fin grid3.N, cond3_0 (grid3.coords t) ↔ t.val % 4 = 0)

/-- The second conditional's test. -/
abbrev cond3_1 (i : grid3.Coords) : Prop := k3_cond2 i = 1#1
/-- It holds exactly at the points whose position is 3 modulo 4. -/
theorem hcond3_1 : ∀ t : Fin cfg3.N, cond3_1 (grid3.coords t) ↔ t.val % 4 = 3 :=
  (by decide +kernel : ∀ t : Fin grid3.N, cond3_1 (grid3.coords t) ↔ t.val % 4 = 3)

/-! ## Where the windows are idle -/

/-- The four inputs are never idle. -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
/-- The output is idle, and not written back, at every point but the last of a row. -/
theorem idleAt3_4 : ∀ t : Fin cfg3.N, ¬cond3_1 (grid3.coords t) → cfg3.idle 4 (grid3.coords t) = true := by decide +kernel
theorem noFlush3_4 : ∀ t : Fin cfg3.N, ¬cond3_1 (grid3.coords t) → (cfg3.win 4).flush t = false := by decide +kernel
/-- At the last point of a row it is live. -/
theorem liveAt3_4 : ∀ t : Fin cfg3.N, cond3_1 (grid3.coords t) → cfg3.idle 4 (grid3.coords t) = false := by decide +kernel

/-! ## The memrefs the body is called with -/

/-- One staging buffer of the output window, through which its contents are stated. -/
abbrev VO3_4 : View sig .tc .vmem S2048x128 .f32 := (Memref.whole cc3_stg4_0 : Memref sig .tc .vmem S2048x128 .f32).view
/-- Each window's current staging memref at point `t`, and its wholeness. -/
abbrev ms3_0 (t : Fin cfg3.N) : Memref sig .tc .vmem S2048x2048 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x64 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S64x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x128 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S2048x128 .f32 := win3_4.stage (cfg3.slots t 4)
abbrev hs3_4 (t : Fin cfg3.N) : (ms3_4 t).IsWhole := hstage3_4 ((cfg3.slots t 4).cast nbuf3_4)
/-- The accumulator: a whole scoped buffer of the kernel's own, carried from point to point. -/
abbrev scM3_0 : Memref sig .tc .vmem S2048x128 .f32 := Memref.whole cc3_scratch0
abbrev VS3_0 : View sig .tc .vmem S2048x128 .f32 := scM3_0.view

/-- What the launch hands the region, with the accumulator split off as a memref owned at some contents; the other
    scoped buffers stay unopened. -/
theorem PhiA3_eq (c : Dev nD) :
    (Pipeline.ΦA spec3 c : sProp 𝕄)
      = iprop(iprop((∃ d, owns (c : Thread nD τ) scM3_0 fullShare d)
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

/-! ## The body's three runs

Each is the body's triple on whole memrefs, with the lists of pieces its stores leave as the witness found by the
symbolic run. -/

set_option maxHeartbeats 1000000 in
/-- First tile of a row (`k = 0`): the accumulator, at anything, is cleared and one tile product added; the output's
    buffer is handed back untouched. -/
noncomputable def kernelRun3_A (c : Dev nD) (i : grid3.Coords) (arg2 : Memref sig .tc .vmem S2048x2048 .bf16) (harg2 : arg2.IsWhole) (arg3 : Memref sig .tc .vmem S2048x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : cond3_0 i) (hc1 : ¬cond3_1 i)
    (x0 : Vec F S2048x2048 .bf16) (x1 : Vec F S2048x64 .f32) (x2 : Vec F S64x128 .f32) (x3 : Vec F S1x128 .f32) :
    Σ' (L4 : List (View.Piece (Elt F) S2048x128 .f32)), { LS0 : List (View.Piece (Elt F) S2048x128 .f32) //
      ∀ (xi4 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc3__gcn_kernel i arg2 harg2 arg3 harg3 arg4 harg4 arg5 harg5 arg6 harg6 arg7 harg7) K } := by
  refine ⟨[], ?_, fun xi4 E K => ?run⟩
  case run =>
    simp only [cc3__gcn_kernel_eq_skeleton]; unfold cc3__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- A middle tile (`k = 1, 2`): one tile product is added to the accumulator the point before left; the output's
    buffer is handed back untouched. -/
noncomputable def kernelRun3_B (c : Dev nD) (i : grid3.Coords) (arg2 : Memref sig .tc .vmem S2048x2048 .bf16) (harg2 : arg2.IsWhole) (arg3 : Memref sig .tc .vmem S2048x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬cond3_0 i) (hc1 : ¬cond3_1 i)
    (x0 : Vec F S2048x2048 .bf16) (x1 : Vec F S2048x64 .f32) (x2 : Vec F S64x128 .f32) (x3 : Vec F S1x128 .f32) (xs0 : Vec F S2048x128 .f32) :
    Σ' (L4 : List (View.Piece (Elt F) S2048x128 .f32)), { LS0 : List (View.Piece (Elt F) S2048x128 .f32) //
      ∀ (xi4 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc3__gcn_kernel i arg2 harg2 arg3 harg3 arg4 harg4 arg5 harg5 arg6 harg6 arg7 harg7) K } := by
  refine ⟨[], ?_, fun xi4 E K => ?run⟩
  case run =>
    simp only [cc3__gcn_kernel_eq_skeleton]; unfold cc3__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- Last tile of a row (`k = 3`): the last tile product is added, then the output block is stored from the finished
    accumulator and the bias row. -/
noncomputable def kernelRun3_C (c : Dev nD) (i : grid3.Coords) (arg2 : Memref sig .tc .vmem S2048x2048 .bf16) (harg2 : arg2.IsWhole) (arg3 : Memref sig .tc .vmem S2048x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬cond3_0 i) (hc1 : cond3_1 i)
    (x0 : Vec F S2048x2048 .bf16) (x1 : Vec F S2048x64 .f32) (x2 : Vec F S64x128 .f32) (x3 : Vec F S1x128 .f32) (xs0 : Vec F S2048x128 .f32) :
    Σ' (L4 : List (View.Piece (Elt F) S2048x128 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc3__gcn_kernel i arg2 harg2 arg3 harg3 arg4 harg4 arg5 harg5 arg6 harg6 arg7 harg7) K } := by
  refine ⟨?_, ?_, fun E K => ?run⟩
  case run =>
    simp only [cc3__gcn_kernel_eq_skeleton]; unfold cc3__gcn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.KRegion3.lean ====
import proofs.«178500_j188978561286_1_alg».proof.Proof.KRegion3Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 3: the layer producing the latent code, at the entry contents `V`

The grid is 4 × 4.  At point `t = 4 i + k` the body adds tile `k` of block row `i` of the product to an accumulator
it carries from point to point (cleared at `k = 0`), and at `k = 3` stores the finished row block.  The proof data
records, point by point, what the accumulator and the output's staging buffer hold. -/

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not: where it is not
    fetched its block index has not moved.  For any proof data whose array is the entry contents and whose body
    leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## What each case leaves -/

/-- The first tile of a row at point `t`. -/
abbrev runA3 (c : Dev nD) (t : Fin cfg3.N) (h0 : t.val % 4 = 0) :=
  kernelRun3_A (F := F) c (grid3.coords t) (ms3_0 t) (hs3_0 t) (ms3_1 t) (hs3_1 t) (ms3_2 t) (hs3_2 t) (ms3_3 t) (hs3_3 t) (ms3_4 t) (hs3_4 t) scM3_0 (Memref.isWhole_whole _) ((hcond3_0 t).mpr h0) (fun h => by have h3 := (hcond3_1 t).mp h; omega) (iblk3 V c 0 t) (iblk3 V c 1 t) (iblk3 V c 2 t) (iblk3 V c 3 t)
/-- A middle tile at point `t`, over what the accumulator held. -/
abbrev runB3 (c : Dev nD) (t : Fin cfg3.N) (h0 : ¬t.val % 4 = 0) (h1 : ¬t.val % 4 = 3) (prev : Vec F S2048x128 .f32) :=
  kernelRun3_B (F := F) c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) (fun h => h1 ((hcond3_1 t).mp h)) (iblk3 V c 0 t) (iblk3 V c 1 t) (iblk3 V c 2 t) (iblk3 V c 3 t) prev
/-- The last tile of a row at point `t`, over what the accumulator held. -/
abbrev runC3 (c : Dev nD) (t : Fin cfg3.N) (h0 : ¬t.val % 4 = 0) (h1 : t.val % 4 = 3) (prev : Vec F S2048x128 .f32) :=
  kernelRun3_C (F := F) c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) ((hcond3_1 t).mpr h1) (iblk3 V c 0 t) (iblk3 V c 1 t) (iblk3 V c 2 t) (iblk3 V c 3 t) prev

/-- A list of pieces read back through the accumulator's view, and through the output's. -/
abbrev readS3 (L : List (View.Piece (Elt F) S2048x128 .f32)) : Vec F S2048x128 .f32 := VS3_0.read (Elt F) (VS3_0.writes (Elt F) VS3_0.junk L)
abbrev readO3 (L : List (View.Piece (Elt F) S2048x128 .f32)) : Vec F S2048x128 .f32 := VO3_4.read (Elt F) (VO3_4.writes (Elt F) VO3_4.junk L)

/-- In every case the pieces stored into the accumulator tile it, so they cover it. -/
theorem scover3_A (c : Dev nD) (t : Fin cfg3.N) (h0 : t.val % 4 = 0) (y : S2048x128.Idx) :
    ∃ pc ∈ (runA3 V c t h0).2.1, y ∈ pc.1.set :=
  View.cover_of_tiledL (runA3 V c t h0).2.1 S2048x128.size (by sl_kernel_rfl) y
theorem scover3_B (c : Dev nD) (t : Fin cfg3.N) (h0 : ¬t.val % 4 = 0) (h1 : ¬t.val % 4 = 3) (prev : Vec F S2048x128 .f32) (y : S2048x128.Idx) :
    ∃ pc ∈ (runB3 V c t h0 h1 prev).2.1, y ∈ pc.1.set :=
  View.cover_of_tiledL (runB3 V c t h0 h1 prev).2.1 S2048x128.size (by sl_kernel_rfl) y
theorem scover3_C (c : Dev nD) (t : Fin cfg3.N) (h0 : ¬t.val % 4 = 0) (h1 : t.val % 4 = 3) (prev : Vec F S2048x128 .f32) (y : S2048x128.Idx) :
    ∃ pc ∈ (runC3 V c t h0 h1 prev).2.1, y ∈ pc.1.set :=
  View.cover_of_tiledL (runC3 V c t h0 h1 prev).2.1 S2048x128.size (by sl_kernel_rfl) y
/-- At the last tile of a row the one store into the output's buffer covers it. -/
theorem cover3_C (c : Dev nD) (t : Fin cfg3.N) (h0 : ¬t.val % 4 = 0) (h1 : t.val % 4 = 3) (prev : Vec F S2048x128 .f32) (y : S2048x128.Idx) :
    ∃ pc ∈ (runC3 V c t h0 h1 prev).1, y ∈ pc.1.set :=
  View.cover_of_tiledL (runC3 V c t h0 h1 prev).1 S2048x128.size (by sl_kernel_rfl) y

/-! ## Point by point -/

/-- One step: what the output's staging buffer and the accumulator hold after the body at point `t`, from what the
    accumulator held before it (not consulted at the first tile of a row, where it is cleared).  Where the output is
    not stored its component is a placeholder nothing reads. -/
def stepAt3 (c : Dev nD) (t : Fin cfg3.N) (prev : Vec F S2048x128 .f32) : Vec F S2048x128 .f32 × Vec F S2048x128 .f32 :=
  if h0 : t.val % 4 = 0 then (readO3 (runA3 V c t h0).1, readS3 (runA3 V c t h0).2.1)
  else if h1 : t.val % 4 = 3 then (readO3 (runC3 V c t h0 h1 prev).1, readS3 (runC3 V c t h0 h1 prev).2.1)
  else (readO3 (runB3 V c t h0 h1 prev).1, readS3 (runB3 V c t h0 h1 prev).2.1)

theorem stepAt3_A (c : Dev nD) (t : Fin cfg3.N) (prev : Vec F S2048x128 .f32) (h0 : t.val % 4 = 0) :
    stepAt3 V c t prev = (readO3 (runA3 V c t h0).1, readS3 (runA3 V c t h0).2.1) := dif_pos h0
theorem stepAt3_B (c : Dev nD) (t : Fin cfg3.N) (prev : Vec F S2048x128 .f32) (h0 : ¬t.val % 4 = 0) (h1 : ¬t.val % 4 = 3) :
    stepAt3 V c t prev = (readO3 (runB3 V c t h0 h1 prev).1, readS3 (runB3 V c t h0 h1 prev).2.1) := (dif_neg h0).trans (dif_neg h1)
theorem stepAt3_C (c : Dev nD) (t : Fin cfg3.N) (prev : Vec F S2048x128 .f32) (h0 : ¬t.val % 4 = 0) (h1 : t.val % 4 = 3) :
    stepAt3 V c t prev = (readO3 (runC3 V c t h0 h1 prev).1, readS3 (runC3 V c t h0 h1 prev).2.1) := (dif_neg h0).trans (dif_pos h1)

/-- THE ACCUMULATION: the pair after the body at position `n`, by recursion on the position. -/
def outsAt3 (c : Dev nD) : (n : ℕ) → n < cfg3.N → Vec F S2048x128 .f32 × Vec F S2048x128 .f32
  | 0, hn => stepAt3 V c ⟨0, hn⟩ (readS3 [])
  | n + 1, hn => stepAt3 V c ⟨n + 1, hn⟩ (outsAt3 c n (Nat.lt_of_succ_lt hn)).2

/-- What the accumulator holds when the body is entered at point `t`. -/
def prevAt3 (c : Dev nD) (t : Fin cfg3.N) : Vec F S2048x128 .f32 :=
  if h : t.val = 0 then readS3 [] else (outsAt3 V c (t.val - 1) (Nat.lt_of_le_of_lt (Nat.sub_le _ _) t.isLt)).2

theorem outsAt3_eq (c : Dev nD) (t : Fin cfg3.N) : outsAt3 V c t.val t.isLt = stepAt3 V c t (prevAt3 V c t) := by
  obtain ⟨n, hn⟩ := t
  cases n with
  | zero => rfl
  | succ n => rfl

theorem prevAt3_pos (c : Dev nD) (t : Fin cfg3.N) (hz : t.val ≠ 0) :
    prevAt3 V c t = (outsAt3 V c (t.val - 1) (Nat.lt_of_le_of_lt (Nat.sub_le _ _) t.isLt)).2 := dif_neg hz

/-! ## The invariant -/

/-- Before the first point: what the launch hands over.  Afterwards: the accumulator at what the point before left,
    the other scoped buffers unopened, the generator register at some state. -/
def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2)
      ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3_0 fullShare ((outsAt3 V c n hn).2)
      ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(owns (c : Thread nD τ) scM3_0 fullShare ((outsAt3 V c (n - 1) (by omega)).2)
      ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The proof data -/

/-- The arrays as the region finds them; after the body each input's buffer at its block and the output's at the
    step's first component; the invariant above; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- An input's array is never written: after the run it is the entry contents. -/
theorem arrAt_in3_0 (c : Dev nD) : (dat3 V c).arrAt 0 cfg3.N = V c (Pipeline.arrRef spec3 0) := ((dat3 V c).arrAt_in 0 rfl _).trans (A_eq3 V c 0)
theorem arrAt_in3_1 (c : Dev nD) : (dat3 V c).arrAt 1 cfg3.N = V c (Pipeline.arrRef spec3 1) := ((dat3 V c).arrAt_in 1 rfl _).trans (A_eq3 V c 1)
theorem arrAt_in3_2 (c : Dev nD) : (dat3 V c).arrAt 2 cfg3.N = V c (Pipeline.arrRef spec3 2) := ((dat3 V c).arrAt_in 2 rfl _).trans (A_eq3 V c 2)
theorem arrAt_in3_3 (c : Dev nD) : (dat3 V c).arrAt 3 cfg3.N = V c (Pipeline.arrRef spec3 3) := ((dat3 V c).arrAt_in 3 rfl _).trans (A_eq3 V c 3)

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 4800000 in
/-- The body at any point.  The inputs' buffers hold their blocks; the position modulo 4 says which of the three runs
    applies; the invariant hands the body the accumulator (at anything before the first point, else at what the point
    before left) and takes it back at this point's contents, the pieces stored into it covering it; the output's buffer
    is handed back untouched except at the last tile of a row, where the one store covers it. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  have hN : t.val < 16 := lt_of_lt_of_eq t.isLt (show cfg3.N = 16 from N_3)
  by_cases h0 : t.val % 4 = 0
  · have h1 : ¬t.val % 4 = 3 := by omega
    rw [Dat.leavesExact_idle (dat3 V c) 4 t (idleAt3_4 t (fun h => h1 ((hcond3_1 t).mp h))) (noFlush3_4 t (fun h => h1 ((hcond3_1 t).mp h)))]
    rw [outsAt3_eq V c t, stepAt3_A V c t _ h0]
    (try dsimp only)
    by_cases hz : t.val = 0
    · rw [PhiS3_castSucc V c t, PhiS3_zero V c _ _ hz, PhiA3_eq]
      iintro ⟨⟨⟨HS0, Hr⟩, Hg⟩, Ho, ⟨%d0, H0⟩, ⟨%d1, H1⟩, ⟨%d2, H2⟩, ⟨%d3, H3⟩, ⟨%d4, H4⟩⟩
      iapply ((runA3 V c t h0).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_A V c t h0)
          iexact Hr
        iexact Hg
      isplitl [Ho]; · iexact Ho
      isplitl [H0]; · iexact H0
      isplitl [H1]; · iexact H1
      isplitl [H2]; · iexact H2
      isplitl [H3]; · iexact H3
      iexists _; iexact H4
    · rw [PhiS3_castSucc V c t, PhiS3_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((runA3 V c t h0).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_A V c t h0)
          iexact Hr
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 4 = 3
    · rw [show (dat3 V c).leavesExact 4 t = owns (c : Thread nD τ) (ms3_4 t) fullShare ((dat3 V c).after 4 t) from by
        unfold Dat.leavesExact; rw [liveAt3_4 t ((hcond3_1 t).mpr h1)], after3_4]
      rw [outsAt3_eq V c t, stepAt3_C V c t _ h0 h1]
      (try dsimp only)
      rw [PhiS3_castSucc V c t, PhiS3_pos V c _ _ hz, prevAt3_pos V c t hz]
      iintro ⟨⟨⟨HS0, Hr⟩, Hg⟩, Ho, ⟨%d0, H0⟩, ⟨%d1, H1⟩, ⟨%d2, H2⟩, ⟨%d3, H3⟩, ⟨%d4, H4⟩⟩
      iapply ((runC3 V c t h0 h1 _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_C V c t h0 h1 _)
          iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover3_C V c t h0 h1 _)
    · rw [Dat.leavesExact_idle (dat3 V c) 4 t (idleAt3_4 t (fun h => h1 ((hcond3_1 t).mp h))) (noFlush3_4 t (fun h => h1 ((hcond3_1 t).mp h)))]
      rw [outsAt3_eq V c t, stepAt3_B V c t _ h0 h1]
      (try dsimp only)
      rw [PhiS3_castSucc V c t, PhiS3_pos V c _ _ hz, prevAt3_pos V c t hz]
      iintro ⟨⟨⟨HS0, Hr⟩, Hg⟩, Ho, ⟨%d0, H0⟩, ⟨%d1, H1⟩, ⟨%d2, H2⟩, ⟨%d3, H3⟩, ⟨%d4, H4⟩⟩
      iapply ((runB3 V c t h0 h1 _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_B V c t h0 h1 _)
          iexact Hr
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point the invariant gives it back: what the accumulator holds is forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS0, Hr⟩, Hg⟩
  isplitl [HS0 Hr]
  · isplitl [HS0]
    · iexists _; iexact HS0
    iexact Hr
  iexact Hg

/-- The same after the last point. -/
theorem hout3 (c : Dev nD) : (dat3 V c).Φ (Fin.last cfg3.N) ⊢ Pipeline.ΦA spec3 c :=
  Phi_out3 V c _ (by rw [Fin.val_last]; have : cfg3.N = 16 := N_3; omega)

end Cert.Kernel.Hand

end
-- ==== Proof.KRegion4Runs.lean ====
import proofs.«178500_j188978561286_1_alg».proof.Proof.Gen.Kernel.Launch
import proofs.«178500_j188978561286_1_alg».proof.Proof.Gen.Kernel.Skeleton
import proofs.«178500_j188978561286_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## The body's two conditions, over the grid

The grid is 4 × 4, walked row-major: point `t` is tile `k = t % 4` of block row `i = t / 4`.  The body's first
conditional (clear the accumulator) tests `k = 0`, its second (finish the row: add the bias row, apply the leaky
rectifier, store the output block) tests `k = 3`. -/

/-- The first conditional's test, from the grid coordinates. -/
abbrev cond4_0 (i : grid4.Coords) : Prop := (Scalar.cmpi .ne (Scalar.extui (Scalar.cmpi .eq (BitVec.ofNat 32 (i 1).val) 0#32)) 0#32) = 1#1
/-- It holds exactly at the points whose position is 0 modulo 4. -/
theorem hcond4_0 : ∀ t : Fin cfg4.N, cond4_0 (grid4.coords t) ↔ t.val % 4 = 0 :=
  (by decide +kernel : ∀ t : Fin grid4.N, cond4_0 (grid4.coords t) ↔ t.val % 4 = 0)

/-- The second conditional's test. -/
abbrev cond4_1 (i : grid4.Coords) : Prop := k4_cond2 i = 1#1
/-- It holds exactly at the points whose position is 3 modulo 4. -/
theorem hcond4_1 : ∀ t : Fin cfg4.N, cond4_1 (grid4.coords t) ↔ t.val % 4 = 3 :=
  (by decide +kernel : ∀ t : Fin grid4.N, cond4_1 (grid4.coords t) ↔ t.val % 4 = 3)

/-! ## Where the windows are idle -/

/-- The four inputs are never idle. -/
theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
/-- The output is idle, and not written back, at every point but the last of a row. -/
theorem idleAt4_4 : ∀ t : Fin cfg4.N, ¬cond4_1 (grid4.coords t) → cfg4.idle 4 (grid4.coords t) = true := by decide +kernel
theorem noFlush4_4 : ∀ t : Fin cfg4.N, ¬cond4_1 (grid4.coords t) → (cfg4.win 4).flush t = false := by decide +kernel
/-- At the last point of a row it is live. -/
theorem liveAt4_4 : ∀ t : Fin cfg4.N, cond4_1 (grid4.coords t) → cfg4.idle 4 (grid4.coords t) = false := by decide +kernel

/-! ## The memrefs the body is called with -/

/-- One staging buffer of the output window, through which its contents are stated. -/
abbrev VO4_4 : View sig .tc .vmem S2048x64 .f32 := (Memref.whole cc4_stg4_0 : Memref sig .tc .vmem S2048x64 .f32).view
/-- Each window's current staging memref at point `t`, and its wholeness. -/
abbrev ms4_0 (t : Fin cfg4.N) : Memref sig .tc .vmem S2048x2048 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2048x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S128x64 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x64 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S2048x64 .f32 := win4_4.stage (cfg4.slots t 4)
abbrev hs4_4 (t : Fin cfg4.N) : (ms4_4 t).IsWhole := hstage4_4 ((cfg4.slots t 4).cast nbuf4_4)
/-- The accumulator: a whole scoped buffer of the kernel's own, carried from point to point. -/
abbrev scM4_0 : Memref sig .tc .vmem S2048x64 .f32 := Memref.whole cc4_scratch0
abbrev VS4_0 : View sig .tc .vmem S2048x64 .f32 := scM4_0.view

/-- What the launch hands the region, with the accumulator split off as a memref owned at some contents; the other
    scoped buffers stay unopened. -/
theorem PhiA4_eq (c : Dev nD) :
    (Pipeline.ΦA spec4 c : sProp 𝕄)
      = iprop(iprop((∃ d, owns (c : Thread nD τ) scM4_0 fullShare d)
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4_0, owns_whole]; try rfl

/-! ## The body's three runs

Each is the body's triple on whole memrefs, with the lists of pieces its stores leave as the witness found by the
symbolic run. -/

set_option maxHeartbeats 1000000 in
/-- First tile of a row (`k = 0`): the accumulator, at anything, is cleared and one tile product added; the output's
    buffer is handed back untouched. -/
noncomputable def kernelRun4_A (c : Dev nD) (i : grid4.Coords) (arg2 : Memref sig .tc .vmem S2048x2048 .bf16) (harg2 : arg2.IsWhole) (arg3 : Memref sig .tc .vmem S2048x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole) (hc0 : cond4_0 i) (hc1 : ¬cond4_1 i)
    (x0 : Vec F S2048x2048 .bf16) (x1 : Vec F S2048x128 .f32) (x2 : Vec F S128x64 .f32) (x3 : Vec F S1x64 .f32) :
    Σ' (L4 : List (View.Piece (Elt F) S2048x64 .f32)), { LS0 : List (View.Piece (Elt F) S2048x64 .f32) //
      ∀ (xi4 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc4__gcn_kernel i arg2 harg2 arg3 harg3 arg4 harg4 arg5 harg5 arg6 harg6 arg7 harg7) K } := by
  refine ⟨[], ?_, fun xi4 E K => ?run⟩
  case run =>
    simp only [cc4__gcn_kernel_eq_skeleton]; unfold cc4__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- A middle tile (`k = 1, 2`): one tile product is added to the accumulator the point before left; the output's
    buffer is handed back untouched. -/
noncomputable def kernelRun4_B (c : Dev nD) (i : grid4.Coords) (arg2 : Memref sig .tc .vmem S2048x2048 .bf16) (harg2 : arg2.IsWhole) (arg3 : Memref sig .tc .vmem S2048x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole) (hc0 : ¬cond4_0 i) (hc1 : ¬cond4_1 i)
    (x0 : Vec F S2048x2048 .bf16) (x1 : Vec F S2048x128 .f32) (x2 : Vec F S128x64 .f32) (x3 : Vec F S1x64 .f32) (xs0 : Vec F S2048x64 .f32) :
    Σ' (L4 : List (View.Piece (Elt F) S2048x64 .f32)), { LS0 : List (View.Piece (Elt F) S2048x64 .f32) //
      ∀ (xi4 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc4__gcn_kernel i arg2 harg2 arg3 harg3 arg4 harg4 arg5 harg5 arg6 harg6 arg7 harg7) K } := by
  refine ⟨[], ?_, fun xi4 E K => ?run⟩
  case run =>
    simp only [cc4__gcn_kernel_eq_skeleton]; unfold cc4__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- Last tile of a row (`k = 3`): the last tile product is added, then the output block is stored from the finished
    accumulator and the bias row. -/
noncomputable def kernelRun4_C (c : Dev nD) (i : grid4.Coords) (arg2 : Memref sig .tc .vmem S2048x2048 .bf16) (harg2 : arg2.IsWhole) (arg3 : Memref sig .tc .vmem S2048x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole) (hc0 : ¬cond4_0 i) (hc1 : cond4_1 i)
    (x0 : Vec F S2048x2048 .bf16) (x1 : Vec F S2048x128 .f32) (x2 : Vec F S128x64 .f32) (x3 : Vec F S1x64 .f32) (xs0 : Vec F S2048x64 .f32) :
    Σ' (L4 : List (View.Piece (Elt F) S2048x64 .f32)), { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc4__gcn_kernel i arg2 harg2 arg3 harg3 arg4 harg4 arg5 harg5 arg6 harg6 arg7 harg7) K } := by
  refine ⟨?_, ?_, fun E K => ?run⟩
  case run =>
    simp only [cc4__gcn_kernel_eq_skeleton]; unfold cc4__gcn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.KRegion4.lean ====
import proofs.«178500_j188978561286_1_alg».proof.Proof.KRegion4Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 4: the layer producing the features the edge decoder multiplies, at the entry contents `V`

The grid is 4 × 4.  At point `t = 4 i + k` the body adds tile `k` of block row `i` of the product to an accumulator
it carries from point to point (cleared at `k = 0`), and at `k = 3` stores the finished row block.  The proof data
records, point by point, what the accumulator and the output's staging buffer hold. -/

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not: where it is not
    fetched its block index has not moved.  For any proof data whose array is the entry contents and whose body
    leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## What each case leaves -/

/-- The first tile of a row at point `t`. -/
abbrev runA4 (c : Dev nD) (t : Fin cfg4.N) (h0 : t.val % 4 = 0) :=
  kernelRun4_A (F := F) c (grid4.coords t) (ms4_0 t) (hs4_0 t) (ms4_1 t) (hs4_1 t) (ms4_2 t) (hs4_2 t) (ms4_3 t) (hs4_3 t) (ms4_4 t) (hs4_4 t) scM4_0 (Memref.isWhole_whole _) ((hcond4_0 t).mpr h0) (fun h => by have h3 := (hcond4_1 t).mp h; omega) (iblk4 V c 0 t) (iblk4 V c 1 t) (iblk4 V c 2 t) (iblk4 V c 3 t)
/-- A middle tile at point `t`, over what the accumulator held. -/
abbrev runB4 (c : Dev nD) (t : Fin cfg4.N) (h0 : ¬t.val % 4 = 0) (h1 : ¬t.val % 4 = 3) (prev : Vec F S2048x64 .f32) :=
  kernelRun4_B (F := F) c (grid4.coords t) (ms4_0 t) (hs4_0 t) (ms4_1 t) (hs4_1 t) (ms4_2 t) (hs4_2 t) (ms4_3 t) (hs4_3 t) (ms4_4 t) (hs4_4 t) scM4_0 (Memref.isWhole_whole _) (fun h => h0 ((hcond4_0 t).mp h)) (fun h => h1 ((hcond4_1 t).mp h)) (iblk4 V c 0 t) (iblk4 V c 1 t) (iblk4 V c 2 t) (iblk4 V c 3 t) prev
/-- The last tile of a row at point `t`, over what the accumulator held. -/
abbrev runC4 (c : Dev nD) (t : Fin cfg4.N) (h0 : ¬t.val % 4 = 0) (h1 : t.val % 4 = 3) (prev : Vec F S2048x64 .f32) :=
  kernelRun4_C (F := F) c (grid4.coords t) (ms4_0 t) (hs4_0 t) (ms4_1 t) (hs4_1 t) (ms4_2 t) (hs4_2 t) (ms4_3 t) (hs4_3 t) (ms4_4 t) (hs4_4 t) scM4_0 (Memref.isWhole_whole _) (fun h => h0 ((hcond4_0 t).mp h)) ((hcond4_1 t).mpr h1) (iblk4 V c 0 t) (iblk4 V c 1 t) (iblk4 V c 2 t) (iblk4 V c 3 t) prev

/-- A list of pieces read back through the accumulator's view, and through the output's. -/
abbrev readS4 (L : List (View.Piece (Elt F) S2048x64 .f32)) : Vec F S2048x64 .f32 := VS4_0.read (Elt F) (VS4_0.writes (Elt F) VS4_0.junk L)
abbrev readO4 (L : List (View.Piece (Elt F) S2048x64 .f32)) : Vec F S2048x64 .f32 := VO4_4.read (Elt F) (VO4_4.writes (Elt F) VO4_4.junk L)

/-- In every case the pieces stored into the accumulator tile it, so they cover it. -/
theorem scover4_A (c : Dev nD) (t : Fin cfg4.N) (h0 : t.val % 4 = 0) (y : S2048x64.Idx) :
    ∃ pc ∈ (runA4 V c t h0).2.1, y ∈ pc.1.set :=
  View.cover_of_tiledL (runA4 V c t h0).2.1 S2048x64.size (by sl_kernel_rfl) y
theorem scover4_B (c : Dev nD) (t : Fin cfg4.N) (h0 : ¬t.val % 4 = 0) (h1 : ¬t.val % 4 = 3) (prev : Vec F S2048x64 .f32) (y : S2048x64.Idx) :
    ∃ pc ∈ (runB4 V c t h0 h1 prev).2.1, y ∈ pc.1.set :=
  View.cover_of_tiledL (runB4 V c t h0 h1 prev).2.1 S2048x64.size (by sl_kernel_rfl) y
theorem scover4_C (c : Dev nD) (t : Fin cfg4.N) (h0 : ¬t.val % 4 = 0) (h1 : t.val % 4 = 3) (prev : Vec F S2048x64 .f32) (y : S2048x64.Idx) :
    ∃ pc ∈ (runC4 V c t h0 h1 prev).2.1, y ∈ pc.1.set :=
  View.cover_of_tiledL (runC4 V c t h0 h1 prev).2.1 S2048x64.size (by sl_kernel_rfl) y
/-- At the last tile of a row the one store into the output's buffer covers it. -/
theorem cover4_C (c : Dev nD) (t : Fin cfg4.N) (h0 : ¬t.val % 4 = 0) (h1 : t.val % 4 = 3) (prev : Vec F S2048x64 .f32) (y : S2048x64.Idx) :
    ∃ pc ∈ (runC4 V c t h0 h1 prev).1, y ∈ pc.1.set :=
  View.cover_of_tiledL (runC4 V c t h0 h1 prev).1 S2048x64.size (by sl_kernel_rfl) y

/-! ## Point by point -/

/-- One step: what the output's staging buffer and the accumulator hold after the body at point `t`, from what the
    accumulator held before it (not consulted at the first tile of a row, where it is cleared).  Where the output is
    not stored its component is a placeholder nothing reads. -/
def stepAt4 (c : Dev nD) (t : Fin cfg4.N) (prev : Vec F S2048x64 .f32) : Vec F S2048x64 .f32 × Vec F S2048x64 .f32 :=
  if h0 : t.val % 4 = 0 then (readO4 (runA4 V c t h0).1, readS4 (runA4 V c t h0).2.1)
  else if h1 : t.val % 4 = 3 then (readO4 (runC4 V c t h0 h1 prev).1, readS4 (runC4 V c t h0 h1 prev).2.1)
  else (readO4 (runB4 V c t h0 h1 prev).1, readS4 (runB4 V c t h0 h1 prev).2.1)

theorem stepAt4_A (c : Dev nD) (t : Fin cfg4.N) (prev : Vec F S2048x64 .f32) (h0 : t.val % 4 = 0) :
    stepAt4 V c t prev = (readO4 (runA4 V c t h0).1, readS4 (runA4 V c t h0).2.1) := dif_pos h0
theorem stepAt4_B (c : Dev nD) (t : Fin cfg4.N) (prev : Vec F S2048x64 .f32) (h0 : ¬t.val % 4 = 0) (h1 : ¬t.val % 4 = 3) :
    stepAt4 V c t prev = (readO4 (runB4 V c t h0 h1 prev).1, readS4 (runB4 V c t h0 h1 prev).2.1) := (dif_neg h0).trans (dif_neg h1)
theorem stepAt4_C (c : Dev nD) (t : Fin cfg4.N) (prev : Vec F S2048x64 .f32) (h0 : ¬t.val % 4 = 0) (h1 : t.val % 4 = 3) :
    stepAt4 V c t prev = (readO4 (runC4 V c t h0 h1 prev).1, readS4 (runC4 V c t h0 h1 prev).2.1) := (dif_neg h0).trans (dif_pos h1)

/-- THE ACCUMULATION: the pair after the body at position `n`, by recursion on the position. -/
def outsAt4 (c : Dev nD) : (n : ℕ) → n < cfg4.N → Vec F S2048x64 .f32 × Vec F S2048x64 .f32
  | 0, hn => stepAt4 V c ⟨0, hn⟩ (readS4 [])
  | n + 1, hn => stepAt4 V c ⟨n + 1, hn⟩ (outsAt4 c n (Nat.lt_of_succ_lt hn)).2

/-- What the accumulator holds when the body is entered at point `t`. -/
def prevAt4 (c : Dev nD) (t : Fin cfg4.N) : Vec F S2048x64 .f32 :=
  if h : t.val = 0 then readS4 [] else (outsAt4 V c (t.val - 1) (Nat.lt_of_le_of_lt (Nat.sub_le _ _) t.isLt)).2

theorem outsAt4_eq (c : Dev nD) (t : Fin cfg4.N) : outsAt4 V c t.val t.isLt = stepAt4 V c t (prevAt4 V c t) := by
  obtain ⟨n, hn⟩ := t
  cases n with
  | zero => rfl
  | succ n => rfl

theorem prevAt4_pos (c : Dev nD) (t : Fin cfg4.N) (hz : t.val ≠ 0) :
    prevAt4 V c t = (outsAt4 V c (t.val - 1) (Nat.lt_of_le_of_lt (Nat.sub_le _ _) t.isLt)).2 := dif_neg hz

/-! ## The invariant -/

/-- Before the first point: what the launch hands over.  Afterwards: the accumulator at what the point before left,
    the other scoped buffers unopened, the generator register at some state. -/
def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2)
      ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4_0 fullShare ((outsAt4 V c n hn).2)
      ∗ Pipeline.scopedRestBut (Ix := Unit) (Name := ℕ) (U := UR sig nD τ) (Lvl := ℕ) (Val := Elt F) spec4 c [cc4_scratch0]) ∗ (∃ r, prngReg c r)) := rfl

theorem PhiS4_pos (c : Dev nD) (n : ℕ) (h : n ≤ cfg4.N) (hz : n ≠ 0) :
    PhiS4 V c n h = iprop(iprop(owns (c : Thread nD τ) scM4_0 fullShare ((outsAt4 V c (n - 1) (by omega)).2)
      ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-! ## The proof data -/

/-- The arrays as the region finds them; after the body each input's buffer at its block and the output's at the
    step's first component; the invariant above; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-- An input's array is never written: after the run it is the entry contents. -/
theorem arrAt_in4_0 (c : Dev nD) : (dat4 V c).arrAt 0 cfg4.N = V c (Pipeline.arrRef spec4 0) := ((dat4 V c).arrAt_in 0 rfl _).trans (A_eq4 V c 0)
theorem arrAt_in4_1 (c : Dev nD) : (dat4 V c).arrAt 1 cfg4.N = V c (Pipeline.arrRef spec4 1) := ((dat4 V c).arrAt_in 1 rfl _).trans (A_eq4 V c 1)
theorem arrAt_in4_2 (c : Dev nD) : (dat4 V c).arrAt 2 cfg4.N = V c (Pipeline.arrRef spec4 2) := ((dat4 V c).arrAt_in 2 rfl _).trans (A_eq4 V c 2)
theorem arrAt_in4_3 (c : Dev nD) : (dat4 V c).arrAt 3 cfg4.N = V c (Pipeline.arrRef spec4 3) := ((dat4 V c).arrAt_in 3 rfl _).trans (A_eq4 V c 3)

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

set_option maxHeartbeats 4800000 in
/-- The body at any point.  The inputs' buffers hold their blocks; the position modulo 4 says which of the three runs
    applies; the invariant hands the body the accumulator (at anything before the first point, else at what the point
    before left) and takes it back at this point's contents, the pieces stored into it covering it; the output's buffer
    is handed back untouched except at the last tile of a row, where the one store covers it. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  have hN : t.val < 16 := lt_of_lt_of_eq t.isLt (show cfg4.N = 16 from N_4)
  by_cases h0 : t.val % 4 = 0
  · have h1 : ¬t.val % 4 = 3 := by omega
    rw [Dat.leavesExact_idle (dat4 V c) 4 t (idleAt4_4 t (fun h => h1 ((hcond4_1 t).mp h))) (noFlush4_4 t (fun h => h1 ((hcond4_1 t).mp h)))]
    rw [outsAt4_eq V c t, stepAt4_A V c t _ h0]
    (try dsimp only)
    by_cases hz : t.val = 0
    · rw [PhiS4_castSucc V c t, PhiS4_zero V c _ _ hz, PhiA4_eq]
      iintro ⟨⟨⟨HS0, Hr⟩, Hg⟩, Ho, ⟨%d0, H0⟩, ⟨%d1, H1⟩, ⟨%d2, H2⟩, ⟨%d3, H3⟩, ⟨%d4, H4⟩⟩
      iapply ((runA4 V c t h0).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover4_A V c t h0)
          iexact Hr
        iexact Hg
      isplitl [Ho]; · iexact Ho
      isplitl [H0]; · iexact H0
      isplitl [H1]; · iexact H1
      isplitl [H2]; · iexact H2
      isplitl [H3]; · iexact H3
      iexists _; iexact H4
    · rw [PhiS4_castSucc V c t, PhiS4_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((runA4 V c t h0).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover4_A V c t h0)
          iexact Hr
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 4 = 3
    · rw [show (dat4 V c).leavesExact 4 t = owns (c : Thread nD τ) (ms4_4 t) fullShare ((dat4 V c).after 4 t) from by
        unfold Dat.leavesExact; rw [liveAt4_4 t ((hcond4_1 t).mpr h1)], after4_4]
      rw [outsAt4_eq V c t, stepAt4_C V c t _ h0 h1]
      (try dsimp only)
      rw [PhiS4_castSucc V c t, PhiS4_pos V c _ _ hz, prevAt4_pos V c t hz]
      iintro ⟨⟨⟨HS0, Hr⟩, Hg⟩, Ho, ⟨%d0, H0⟩, ⟨%d1, H1⟩, ⟨%d2, H2⟩, ⟨%d3, H3⟩, ⟨%d4, H4⟩⟩
      iapply ((runC4 V c t h0 h1 _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover4_C V c t h0 h1 _)
          iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover4_C V c t h0 h1 _)
    · rw [Dat.leavesExact_idle (dat4 V c) 4 t (idleAt4_4 t (fun h => h1 ((hcond4_1 t).mp h))) (noFlush4_4 t (fun h => h1 ((hcond4_1 t).mp h)))]
      rw [outsAt4_eq V c t, stepAt4_B V c t _ h0 h1]
      (try dsimp only)
      rw [PhiS4_castSucc V c t, PhiS4_pos V c _ _ hz, prevAt4_pos V c t hz]
      iintro ⟨⟨⟨HS0, Hr⟩, Hg⟩, Ho, ⟨%d0, H0⟩, ⟨%d1, H1⟩, ⟨%d2, H2⟩, ⟨%d3, H3⟩, ⟨%d4, H4⟩⟩
      iapply ((runB4 V c t h0 h1 _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover4_B V c t h0 h1 _)
          iexact Hr
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point the invariant gives it back: what the accumulator holds is forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, Hr⟩, Hg⟩
  isplitl [HS0 Hr]
  · isplitl [HS0]
    · iexists _; iexact HS0
    iexact Hr
  iexact Hg

/-- The same after the last point. -/
theorem hout4 (c : Dev nD) : (dat4 V c).Φ (Fin.last cfg4.N) ⊢ Pipeline.ΦA spec4 c :=
  Phi_out4 V c _ (by rw [Fin.val_last]; have : cfg4.N = 16 := N_4; omega)

end Cert.Kernel.Hand

end
-- ==== Proof.KRegion5.lean ====
/-
  The edge-decoder region (pipeline 5), frame half, at any float model.

  The grid is 8 × 4.  At the point (i, j) the body reads the 1024 × 64 block i and the 2048 × 64 block j of
  ONE array of decoded features, and stores one whole 1024 × 2048 block of the result.  Every point is alike,
  so the invariant is the constant one.  Because the two input windows read the same array, the array's
  ownership is dealt between them in two halves; the two lemmas at the end say how the core's buffers make
  the windows' arrays at entry and how they are put back at exit.
-/
import proofs.«178500_j188978561286_1_alg».proof.Proof.Gen.Kernel.Launch
import proofs.«178500_j188978561286_1_alg».proof.Proof.Gen.Kernel.Skeleton
import proofs.«178500_j188978561286_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, whether the block was
    fetched at this point or at an earlier one with the same block index. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each buffer is read and written whole -/

abbrev r5_a : Rect S1024x64 := Rect.unit (s := S1024x64) ![0, 0] S1024x64.size inb_S1024x64_S1024x64_0_0
abbrev r5_b : Rect S2048x64 := Rect.unit (s := S2048x64) ![0, 0] S2048x64.size inb_S2048x64_S2048x64_0_0
abbrev r5_o : Rect S1024x2048 := Rect.unit (s := S1024x2048) ![0, 0] S1024x2048.size inb_S1024x2048_S1024x2048_0_0

/-! ## What the body leaves in the output window's buffer -/

/-- The output's staging buffer after the body, from the two blocks read: its one store, of the whole block. -/
def out5_2 (x0 : Vec F S1024x64 .f32) (x1 : Vec F S2048x64 .f32) : Vec F S1024x2048 .f32 :=
  View.canon [⟨r5_o, k5_pay1 (View.ld x0 r5_a) (View.ld x1 r5_b)⟩]

/-- The one store covers the buffer. -/
theorem cover5_2 (p0 : Vec F S1024x2048 .f32) (y : S1024x2048.Idx) :
    ∃ pc ∈ ([⟨r5_o, p0⟩] : List (View.Piece (Elt F) S1024x2048 .f32)), y ∈ pc.1.set :=
  View.cover_of_tiled [⟨r5_o, p0⟩] S1024x2048.size (by rfl) y

/-! ## The body's triple -/

set_option maxHeartbeats 1000000 in
/-- The kernel body on whole staging memrefs, the inputs' at contents `xW` and the output's at anything, runs to
    the continuation holding the inputs' as they were and the output's at `out5_2` of the inputs'. -/
theorem sound_kernel5 (c : Dev nD) (E : Set ℕ) (i : grid5.Coords)
    (arg2 : Memref sig .tc .vmem S1024x64 .f32) (harg2 : arg2.IsWhole) (arg3 : Memref sig .tc .vmem S2048x64 .f32) (harg3 : arg3.IsWhole)
    (arg4 : Memref sig .tc .vmem S1024x2048 .f32) (harg4 : arg4.IsWhole)
    (x0 : Vec F S1024x64 .f32) (x1 : Vec F S2048x64 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out5_2 x0 x1)) -∗ K ⟨⟩))
      ⊢ wp frame (wpE (defs₀ (F := F)) Variants.none c none) E (cc5__recon_kernel i arg2 harg2 arg3 harg3 arg4 harg4) K := by
  simp only [cc5__recon_kernel_eq_skeleton]; unfold cc5__recon_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-! ## The pipeline's proof data -/

/-- The proof data of pipeline 5 on core `c`: the arrays as the region finds them; after the body at point `t`
    each input's buffer at its block and the output's at `out5_2` of the input blocks; the constant invariant;
    nothing owed.  The two input windows read one array: the first holds the left half of its ownership, the
    second the right half. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q w := match w with
    | ⟨0, _⟩ => fullShare.left
    | ⟨1, _⟩ => fullShare.right
    | ⟨2, _⟩ => fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) :
    (dat5 V c).after 2 t = out5_2 (iblk5 V c 0 t) (iblk5 V c 1 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' memrefs hold their blocks, so the kernel's triple applies; the invariant and
    the core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ (grid5.coords t) _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation5 (c : Dev nD) : BodyObligation (dat5 (F := F) V c) (defs₀ (F := F)) Variants.none () Set.univ := fun t => by
  rw [bigSep_W5, bigSep_W5]
  exact sound_body5 V c t

/-! ## The invariant at the two ends, and the input arrays at the end -/

theorem hin5 (c : Dev nD) : Pipeline.ΦA spec5 c ⊢ (dat5 V c).Φ 0 := .rfl

theorem hout5 (c : Dev nD) : (dat5 V c).Φ (Fin.last cfg5.N) ⊢ Pipeline.ΦA spec5 c := .rfl

/-- An input window's array is never written: at the end it is what the region found. -/
theorem arrAt_in5_0 (c : Dev nD) : (dat5 V c).arrAt 0 cfg5.N = V c (Pipeline.arrRef spec5 0) :=
  ((dat5 V c).arrAt_in 0 rfl cfg5.N).trans (A_eq5 V c 0)
theorem arrAt_in5_1 (c : Dev nD) : (dat5 V c).arrAt 1 cfg5.N = V c (Pipeline.arrRef spec5 1) :=
  ((dat5 V c).arrAt_in 1 rfl cfg5.N).trans (A_eq5 V c 1)

/-! ## The shared array: the core's buffers into the windows' arrays, and back -/

/-- The shares the windows hold their arrays at. -/
theorem share5_0 (c : Dev nD) : (dat5 V c).share 0 = fullShare.left := rfl
theorem share5_1 (c : Dev nD) : (dat5 V c).share 1 = fullShare.right := rfl
theorem share5_2 (c : Dev nD) : (dat5 V c).share 2 = fullShare := rfl

/-- The buffers behind the windows' arrays are two: the features and the result. -/
theorem arrImage5 : Finset.univ.image (Pipeline.arrRef spec5) = {main_v8, main_v9} := by decide

/-- ENTRY: a core's unscoped buffers at contents `V c` are the windows' arrays at those contents — the feature
    array's ownership cut in two halves, one per input window — and the unscoped rest. -/
theorem hsplit5 (c : Dev nD) :
    (unscopedBufs c (V c) : sProp 𝕄)
      ⊢ iprop((dat5 V c).arrays ((dat5 V c).arrAt · 0) ∗ Pipeline.unscopedRest spec5 c (V c)) := by
  rw [Pipeline.unscopedBufs_split₀ cfgs 5 winFacts₀5.arr_unscoped c (V c)]
  refine sep_mono ?_ .rfl
  unfold Pipeline.arrBufs Dat.arrays
  rw [bigSep_W5, show Finset.image (Pipeline.arrRef (cfgs 5).spec) Finset.univ = {main_v8, main_v9} from arrImage5,
    bigSep_insert (by decide), bigSep_singleton]
  show iprop(((c : Thread nD τ).loc main_v8 ↦{fullShare} V c main_v8) ∗ ((c : Thread nD τ).loc main_v9 ↦{fullShare} V c main_v9))
    ⊢ iprop(((c : Thread nD τ).loc main_v8 ↦[(Memref.whole main_v8).view.set]{fullShare.left} V c main_v8)
      ∗ ((c : Thread nD τ).loc main_v8 ↦[(Memref.whole main_v8).view.set]{fullShare.right} V c main_v8)
      ∗ ((c : Thread nD τ).loc main_v9 ↦[(Memref.whole main_v9).view.set]{fullShare} V c main_v9))
  rw [(Memref.isWhole_whole main_v8).set_eq_univ, (Memref.isWhole_whole main_v9).set_eq_univ]
  iintro ⟨H8, H9⟩
  ihave H8 := (pointsTo_share (PosShare.mem_left_op_right fullShare)).1 $$ H8
  icases H8 with ⟨Hl, Hr⟩
  isplitl [Hl]; · iexact Hl
  isplitl [Hr]; · iexact Hr
  iexact H9

/-- EXIT: the windows' arrays at their final contents — the two halves of the feature array, which no point
    writes, and the result — and the unscoped rest make the core's unscoped buffers at any contents `V'` that
    agree with the final arrays (`hF`) and, off the arrays, with the entry contents (`hrest`). -/
theorem hjoin5 (c : Dev nD) (V' : (b : Ref sig .tc) → Buf (Elt F) ((c : Thread nD τ).loc b))
    (hF : ∀ w, (dat5 V c).arrAt w cfg5.N = V' (Pipeline.arrRef spec5 w))
    (hrest : ∀ b, b ∉ Finset.univ.image (Pipeline.arrRef spec5) → V' b = V c b) :
    iprop((dat5 V c).arrays ((dat5 V c).arrAt · cfg5.N) ∗ Pipeline.unscopedRest spec5 c (V c))
      ⊢ (unscopedBufs c V' : sProp 𝕄) := by
  rw [Pipeline.unscopedBufs_split₀ cfgs 5 winFacts₀5.arr_unscoped c V']
  refine sep_mono ?_ (Entails.of_eq ?_)
  · unfold Pipeline.arrBufs Dat.arrays
    rw [bigSep_W5, show Finset.image (Pipeline.arrRef (cfgs 5).spec) Finset.univ = {main_v8, main_v9} from arrImage5,
      bigSep_insert (by decide), bigSep_singleton]
    simp only [hF]
    show iprop(((c : Thread nD τ).loc main_v8 ↦[(Memref.whole main_v8).view.set]{fullShare.left} V' main_v8)
        ∗ ((c : Thread nD τ).loc main_v8 ↦[(Memref.whole main_v8).view.set]{fullShare.right} V' main_v8)
        ∗ ((c : Thread nD τ).loc main_v9 ↦[(Memref.whole main_v9).view.set]{fullShare} V' main_v9))
      ⊢ iprop(((c : Thread nD τ).loc main_v8 ↦{fullShare} V' main_v8) ∗ ((c : Thread nD τ).loc main_v9 ↦{fullShare} V' main_v9))
    rw [(Memref.isWhole_whole main_v8).set_eq_univ, (Memref.isWhole_whole main_v9).set_eq_univ]
    iintro ⟨Hl, Hr, H9⟩
    ihave H8 := (pointsTo_share (PosShare.mem_left_op_right fullShare)).2 $$ [Hl Hr]
    · isplitl [Hl] <;> iassumption
    isplitl [H8]; · iexact H8
    iexact H9
  · unfold Pipeline.unscopedRest
    exact bigSep_congr fun b hb => by rw [hrest b (Finset.mem_sdiff.mp hb).2]

end Cert.Kernel.Hand

end
-- ==== Proof.KRegion6Runs.lean ====
import proofs.«178500_j188978561286_1_alg».proof.Proof.Gen.Kernel.Launch
import proofs.«178500_j188978561286_1_alg».proof.Proof.Gen.Kernel.Skeleton
import proofs.«178500_j188978561286_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## The body's two conditions, over the grid

The grid is 4 × 4, walked row-major: point `t` is tile `k = t % 4` of block row `i = t / 4`.  The body's first
conditional (clear the accumulator) tests `k = 0`, its second (finish the row: add the bias row, apply the leaky
rectifier, store the output block) tests `k = 3`. -/

/-- The first conditional's test, from the grid coordinates. -/
abbrev cond6_0 (i : grid6.Coords) : Prop := (Scalar.cmpi .ne (Scalar.extui (Scalar.cmpi .eq (BitVec.ofNat 32 (i 1).val) 0#32)) 0#32) = 1#1
/-- It holds exactly at the points whose position is 0 modulo 4. -/
theorem hcond6_0 : ∀ t : Fin cfg6.N, cond6_0 (grid6.coords t) ↔ t.val % 4 = 0 :=
  (by decide +kernel : ∀ t : Fin grid6.N, cond6_0 (grid6.coords t) ↔ t.val % 4 = 0)

/-- The second conditional's test. -/
abbrev cond6_1 (i : grid6.Coords) : Prop := k6_cond2 i = 1#1
/-- It holds exactly at the points whose position is 3 modulo 4. -/
theorem hcond6_1 : ∀ t : Fin cfg6.N, cond6_1 (grid6.coords t) ↔ t.val % 4 = 3 :=
  (by decide +kernel : ∀ t : Fin grid6.N, cond6_1 (grid6.coords t) ↔ t.val % 4 = 3)

/-! ## Where the windows are idle -/

/-- The four inputs are never idle. -/
theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel
theorem liveAt6_3 : ∀ t : Fin cfg6.N, cfg6.idle 3 (grid6.coords t) = false := by decide +kernel
/-- The output is idle, and not written back, at every point but the last of a row. -/
theorem idleAt6_4 : ∀ t : Fin cfg6.N, ¬cond6_1 (grid6.coords t) → cfg6.idle 4 (grid6.coords t) = true := by decide +kernel
theorem noFlush6_4 : ∀ t : Fin cfg6.N, ¬cond6_1 (grid6.coords t) → (cfg6.win 4).flush t = false := by decide +kernel
/-- At the last point of a row it is live. -/
theorem liveAt6_4 : ∀ t : Fin cfg6.N, cond6_1 (grid6.coords t) → cfg6.idle 4 (grid6.coords t) = false := by decide +kernel

/-! ## The memrefs the body is called with -/

/-- One staging buffer of the output window, through which its contents are stated. -/
abbrev VO6_4 : View sig .tc .vmem S2048x64 .f32 := (Memref.whole cc6_stg4_0 : Memref sig .tc .vmem S2048x64 .f32).view
/-- Each window's current staging memref at point `t`, and its wholeness. -/
abbrev ms6_0 (t : Fin cfg6.N) : Memref sig .tc .vmem S2048x2048 .bf16 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S2048x128 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S128x64 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S1x64 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S2048x64 .f32 := win6_4.stage (cfg6.slots t 4)
abbrev hs6_4 (t : Fin cfg6.N) : (ms6_4 t).IsWhole := hstage6_4 ((cfg6.slots t 4).cast nbuf6_4)
/-- The accumulator: a whole scoped buffer of the kernel's own, carried from point to point. -/
abbrev scM6_0 : Memref sig .tc .vmem S2048x64 .f32 := Memref.whole cc6_scratch0
abbrev VS6_0 : View sig .tc .vmem S2048x64 .f32 := scM6_0.view

/-- What the launch hands the region, with the accumulator split off as a memref owned at some contents; the other
    scoped buffers stay unopened. -/
theorem PhiA6_eq (c : Dev nD) :
    (Pipeline.ΦA spec6 c : sProp 𝕄)
      = iprop(iprop((∃ d, owns (c : Thread nD τ) scM6_0 fullShare d)
          ∗ Pipeline.scopedRestBut (Ix := Unit) (Name := ℕ) (U := UR sig nD τ) (Lvl := ℕ) (Val := Elt F) spec6 c [cc6_scratch0]) ∗ (∃ r, prngReg c r)) := by
  unfold Pipeline.ΦA; rw [scopedRest6_split]; simp only [scM6_0, owns_whole]; try rfl

/-! ## The body's three runs

Each is the body's triple on whole memrefs, with the lists of pieces its stores leave as the witness found by the
symbolic run. -/

set_option maxHeartbeats 1000000 in
/-- First tile of a row (`k = 0`): the accumulator, at anything, is cleared and one tile product added; the output's
    buffer is handed back untouched. -/
noncomputable def kernelRun6_A (c : Dev nD) (i : grid6.Coords) (arg2 : Memref sig .tc .vmem S2048x2048 .bf16) (harg2 : arg2.IsWhole) (arg3 : Memref sig .tc .vmem S2048x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole) (hc0 : cond6_0 i) (hc1 : ¬cond6_1 i)
    (x0 : Vec F S2048x2048 .bf16) (x1 : Vec F S2048x128 .f32) (x2 : Vec F S128x64 .f32) (x3 : Vec F S1x64 .f32) :
    Σ' (L4 : List (View.Piece (Elt F) S2048x64 .f32)), { LS0 : List (View.Piece (Elt F) S2048x64 .f32) //
      ∀ (xi4 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc6__gcn_kernel i arg2 harg2 arg3 harg3 arg4 harg4 arg5 harg5 arg6 harg6 arg7 harg7) K } := by
  refine ⟨[], ?_, fun xi4 E K => ?run⟩
  case run =>
    simp only [cc6__gcn_kernel_eq_skeleton]; unfold cc6__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- A middle tile (`k = 1, 2`): one tile product is added to the accumulator the point before left; the output's
    buffer is handed back untouched. -/
noncomputable def kernelRun6_B (c : Dev nD) (i : grid6.Coords) (arg2 : Memref sig .tc .vmem S2048x2048 .bf16) (harg2 : arg2.IsWhole) (arg3 : Memref sig .tc .vmem S2048x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole) (hc0 : ¬cond6_0 i) (hc1 : ¬cond6_1 i)
    (x0 : Vec F S2048x2048 .bf16) (x1 : Vec F S2048x128 .f32) (x2 : Vec F S128x64 .f32) (x3 : Vec F S1x64 .f32) (xs0 : Vec F S2048x64 .f32) :
    Σ' (L4 : List (View.Piece (Elt F) S2048x64 .f32)), { LS0 : List (View.Piece (Elt F) S2048x64 .f32) //
      ∀ (xi4 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc6__gcn_kernel i arg2 harg2 arg3 harg3 arg4 harg4 arg5 harg5 arg6 harg6 arg7 harg7) K } := by
  refine ⟨[], ?_, fun xi4 E K => ?run⟩
  case run =>
    simp only [cc6__gcn_kernel_eq_skeleton]; unfold cc6__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- Last tile of a row (`k = 3`): the last tile product is added, then the output block is stored from the finished
    accumulator and the bias row. -/
noncomputable def kernelRun6_C (c : Dev nD) (i : grid6.Coords) (arg2 : Memref sig .tc .vmem S2048x2048 .bf16) (harg2 : arg2.IsWhole) (arg3 : Memref sig .tc .vmem S2048x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole) (hc0 : ¬cond6_0 i) (hc1 : cond6_1 i)
    (x0 : Vec F S2048x2048 .bf16) (x1 : Vec F S2048x128 .f32) (x2 : Vec F S128x64 .f32) (x3 : Vec F S1x64 .f32) (xs0 : Vec F S2048x64 .f32) :
    Σ' (L4 : List (View.Piece (Elt F) S2048x64 .f32)), { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc6__gcn_kernel i arg2 harg2 arg3 harg3 arg4 harg4 arg5 harg5 arg6 harg6 arg7 harg7) K } := by
  refine ⟨?_, ?_, fun E K => ?run⟩
  case run =>
    simp only [cc6__gcn_kernel_eq_skeleton]; unfold cc6__gcn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.KRegion6.lean ====
import proofs.«178500_j188978561286_1_alg».proof.Proof.KRegion6Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 6: the feature decoder's hidden layer, at the entry contents `V`

The grid is 4 × 4.  At point `t = 4 i + k` the body adds tile `k` of block row `i` of the product to an accumulator
it carries from point to point (cleared at `k = 0`), and at `k = 3` stores the finished row block.  The proof data
records, point by point, what the accumulator and the output's staging buffer hold. -/

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current staging buffer holds its block at every point, fetched there or not: where it is not
    fetched its block index has not moved.  For any proof data whose array is the entry contents and whose body
    leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-! ## What each case leaves -/

/-- The first tile of a row at point `t`. -/
abbrev runA6 (c : Dev nD) (t : Fin cfg6.N) (h0 : t.val % 4 = 0) :=
  kernelRun6_A (F := F) c (grid6.coords t) (ms6_0 t) (hs6_0 t) (ms6_1 t) (hs6_1 t) (ms6_2 t) (hs6_2 t) (ms6_3 t) (hs6_3 t) (ms6_4 t) (hs6_4 t) scM6_0 (Memref.isWhole_whole _) ((hcond6_0 t).mpr h0) (fun h => by have h3 := (hcond6_1 t).mp h; omega) (iblk6 V c 0 t) (iblk6 V c 1 t) (iblk6 V c 2 t) (iblk6 V c 3 t)
/-- A middle tile at point `t`, over what the accumulator held. -/
abbrev runB6 (c : Dev nD) (t : Fin cfg6.N) (h0 : ¬t.val % 4 = 0) (h1 : ¬t.val % 4 = 3) (prev : Vec F S2048x64 .f32) :=
  kernelRun6_B (F := F) c (grid6.coords t) (ms6_0 t) (hs6_0 t) (ms6_1 t) (hs6_1 t) (ms6_2 t) (hs6_2 t) (ms6_3 t) (hs6_3 t) (ms6_4 t) (hs6_4 t) scM6_0 (Memref.isWhole_whole _) (fun h => h0 ((hcond6_0 t).mp h)) (fun h => h1 ((hcond6_1 t).mp h)) (iblk6 V c 0 t) (iblk6 V c 1 t) (iblk6 V c 2 t) (iblk6 V c 3 t) prev
/-- The last tile of a row at point `t`, over what the accumulator held. -/
abbrev runC6 (c : Dev nD) (t : Fin cfg6.N) (h0 : ¬t.val % 4 = 0) (h1 : t.val % 4 = 3) (prev : Vec F S2048x64 .f32) :=
  kernelRun6_C (F := F) c (grid6.coords t) (ms6_0 t) (hs6_0 t) (ms6_1 t) (hs6_1 t) (ms6_2 t) (hs6_2 t) (ms6_3 t) (hs6_3 t) (ms6_4 t) (hs6_4 t) scM6_0 (Memref.isWhole_whole _) (fun h => h0 ((hcond6_0 t).mp h)) ((hcond6_1 t).mpr h1) (iblk6 V c 0 t) (iblk6 V c 1 t) (iblk6 V c 2 t) (iblk6 V c 3 t) prev

/-- A list of pieces read back through the accumulator's view, and through the output's. -/
abbrev readS6 (L : List (View.Piece (Elt F) S2048x64 .f32)) : Vec F S2048x64 .f32 := VS6_0.read (Elt F) (VS6_0.writes (Elt F) VS6_0.junk L)
abbrev readO6 (L : List (View.Piece (Elt F) S2048x64 .f32)) : Vec F S2048x64 .f32 := VO6_4.read (Elt F) (VO6_4.writes (Elt F) VO6_4.junk L)

/-- In every case the pieces stored into the accumulator tile it, so they cover it. -/
theorem scover6_A (c : Dev nD) (t : Fin cfg6.N) (h0 : t.val % 4 = 0) (y : S2048x64.Idx) :
    ∃ pc ∈ (runA6 V c t h0).2.1, y ∈ pc.1.set :=
  View.cover_of_tiledL (runA6 V c t h0).2.1 S2048x64.size (by sl_kernel_rfl) y
theorem scover6_B (c : Dev nD) (t : Fin cfg6.N) (h0 : ¬t.val % 4 = 0) (h1 : ¬t.val % 4 = 3) (prev : Vec F S2048x64 .f32) (y : S2048x64.Idx) :
    ∃ pc ∈ (runB6 V c t h0 h1 prev).2.1, y ∈ pc.1.set :=
  View.cover_of_tiledL (runB6 V c t h0 h1 prev).2.1 S2048x64.size (by sl_kernel_rfl) y
theorem scover6_C (c : Dev nD) (t : Fin cfg6.N) (h0 : ¬t.val % 4 = 0) (h1 : t.val % 4 = 3) (prev : Vec F S2048x64 .f32) (y : S2048x64.Idx) :
    ∃ pc ∈ (runC6 V c t h0 h1 prev).2.1, y ∈ pc.1.set :=
  View.cover_of_tiledL (runC6 V c t h0 h1 prev).2.1 S2048x64.size (by sl_kernel_rfl) y
/-- At the last tile of a row the one store into the output's buffer covers it. -/
theorem cover6_C (c : Dev nD) (t : Fin cfg6.N) (h0 : ¬t.val % 4 = 0) (h1 : t.val % 4 = 3) (prev : Vec F S2048x64 .f32) (y : S2048x64.Idx) :
    ∃ pc ∈ (runC6 V c t h0 h1 prev).1, y ∈ pc.1.set :=
  View.cover_of_tiledL (runC6 V c t h0 h1 prev).1 S2048x64.size (by sl_kernel_rfl) y

/-! ## Point by point -/

/-- One step: what the output's staging buffer and the accumulator hold after the body at point `t`, from what the
    accumulator held before it (not consulted at the first tile of a row, where it is cleared).  Where the output is
    not stored its component is a placeholder nothing reads. -/
def stepAt6 (c : Dev nD) (t : Fin cfg6.N) (prev : Vec F S2048x64 .f32) : Vec F S2048x64 .f32 × Vec F S2048x64 .f32 :=
  if h0 : t.val % 4 = 0 then (readO6 (runA6 V c t h0).1, readS6 (runA6 V c t h0).2.1)
  else if h1 : t.val % 4 = 3 then (readO6 (runC6 V c t h0 h1 prev).1, readS6 (runC6 V c t h0 h1 prev).2.1)
  else (readO6 (runB6 V c t h0 h1 prev).1, readS6 (runB6 V c t h0 h1 prev).2.1)

theorem stepAt6_A (c : Dev nD) (t : Fin cfg6.N) (prev : Vec F S2048x64 .f32) (h0 : t.val % 4 = 0) :
    stepAt6 V c t prev = (readO6 (runA6 V c t h0).1, readS6 (runA6 V c t h0).2.1) := dif_pos h0
theorem stepAt6_B (c : Dev nD) (t : Fin cfg6.N) (prev : Vec F S2048x64 .f32) (h0 : ¬t.val % 4 = 0) (h1 : ¬t.val % 4 = 3) :
    stepAt6 V c t prev = (readO6 (runB6 V c t h0 h1 prev).1, readS6 (runB6 V c t h0 h1 prev).2.1) := (dif_neg h0).trans (dif_neg h1)
theorem stepAt6_C (c : Dev nD) (t : Fin cfg6.N) (prev : Vec F S2048x64 .f32) (h0 : ¬t.val % 4 = 0) (h1 : t.val % 4 = 3) :
    stepAt6 V c t prev = (readO6 (runC6 V c t h0 h1 prev).1, readS6 (runC6 V c t h0 h1 prev).2.1) := (dif_neg h0).trans (dif_pos h1)

/-- THE ACCUMULATION: the pair after the body at position `n`, by recursion on the position. -/
def outsAt6 (c : Dev nD) : (n : ℕ) → n < cfg6.N → Vec F S2048x64 .f32 × Vec F S2048x64 .f32
  | 0, hn => stepAt6 V c ⟨0, hn⟩ (readS6 [])
  | n + 1, hn => stepAt6 V c ⟨n + 1, hn⟩ (outsAt6 c n (Nat.lt_of_succ_lt hn)).2

/-- What the accumulator holds when the body is entered at point `t`. -/
def prevAt6 (c : Dev nD) (t : Fin cfg6.N) : Vec F S2048x64 .f32 :=
  if h : t.val = 0 then readS6 [] else (outsAt6 V c (t.val - 1) (Nat.lt_of_le_of_lt (Nat.sub_le _ _) t.isLt)).2

theorem outsAt6_eq (c : Dev nD) (t : Fin cfg6.N) : outsAt6 V c t.val t.isLt = stepAt6 V c t (prevAt6 V c t) := by
  obtain ⟨n, hn⟩ := t
  cases n with
  | zero => rfl
  | succ n => rfl

theorem prevAt6_pos (c : Dev nD) (t : Fin cfg6.N) (hz : t.val ≠ 0) :
    prevAt6 V c t = (outsAt6 V c (t.val - 1) (Nat.lt_of_le_of_lt (Nat.sub_le _ _) t.isLt)).2 := dif_neg hz

/-! ## The invariant -/

/-- Before the first point: what the launch hands over.  Afterwards: the accumulator at what the point before left,
    the other scoped buffers unopened, the generator register at some state. -/
def PhiS6 (c : Dev nD) : (n : ℕ) → n ≤ cfg6.N → sProp 𝕄
  | 0, _ => Pipeline.ΦA spec6 c
  | n + 1, hn => iprop(iprop(owns (c : Thread nD τ) scM6_0 fullShare ((outsAt6 V c n hn).2)
      ∗ Pipeline.scopedRestBut (Ix := Unit) (Name := ℕ) (U := UR sig nD τ) (Lvl := ℕ) (Val := Elt F) spec6 c [cc6_scratch0]) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(owns (c : Thread nD τ) scM6_0 fullShare ((outsAt6 V c n hn).2)
      ∗ Pipeline.scopedRestBut (Ix := Unit) (Name := ℕ) (U := UR sig nD τ) (Lvl := ℕ) (Val := Elt F) spec6 c [cc6_scratch0]) ∗ (∃ r, prngReg c r)) := rfl

theorem PhiS6_pos (c : Dev nD) (n : ℕ) (h : n ≤ cfg6.N) (hz : n ≠ 0) :
    PhiS6 V c n h = iprop(iprop(owns (c : Thread nD τ) scM6_0 fullShare ((outsAt6 V c (n - 1) (by omega)).2)
      ∗ Pipeline.scopedRestBut (Ix := Unit) (Name := ℕ) (U := UR sig nD τ) (Lvl := ℕ) (Val := Elt F) spec6 c [cc6_scratch0]) ∗ (∃ r, prngReg c r)) := by
  cases n with
  | zero => exact absurd rfl hz
  | succ n => rfl

/-! ## The proof data -/

/-- The arrays as the region finds them; after the body each input's buffer at its block and the output's at the
    step's first component; the invariant above; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => (outsAt6 V c t.val t.isLt).1
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = (outsAt6 V c t.val t.isLt).1 := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d

/-- An input's array is never written: after the run it is the entry contents. -/
theorem arrAt_in6_0 (c : Dev nD) : (dat6 V c).arrAt 0 cfg6.N = V c (Pipeline.arrRef spec6 0) := ((dat6 V c).arrAt_in 0 rfl _).trans (A_eq6 V c 0)
theorem arrAt_in6_1 (c : Dev nD) : (dat6 V c).arrAt 1 cfg6.N = V c (Pipeline.arrRef spec6 1) := ((dat6 V c).arrAt_in 1 rfl _).trans (A_eq6 V c 1)
theorem arrAt_in6_2 (c : Dev nD) : (dat6 V c).arrAt 2 cfg6.N = V c (Pipeline.arrRef spec6 2) := ((dat6 V c).arrAt_in 2 rfl _).trans (A_eq6 V c 2)
theorem arrAt_in6_3 (c : Dev nD) : (dat6 V c).arrAt 3 cfg6.N = V c (Pipeline.arrRef spec6 3) := ((dat6 V c).arrAt_in 3 rfl _).trans (A_eq6 V c 3)

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d)))

/-- and what it returns. -/
def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t)

set_option maxHeartbeats 4800000 in
/-- The body at any point.  The inputs' buffers hold their blocks; the position modulo 4 says which of the three runs
    applies; the invariant hands the body the accumulator (at anything before the first point, else at what the point
    before left) and takes it back at this point's contents, the pieces stored into it covering it; the output's buffer
    is handed back untouched except at the last tile of a row, where the one store covers it. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).owesAt () t.succ = (dat6 V c).owesAt () t.castSucc from rfl]
  rw [show (dat6 V c).Φ t.succ = PhiS6 V c (t.val + 1) t.isLt from rfl, PhiS6_succ]
  rw [show (dat6 V c).leavesExact 0 t = owns (c : Thread nD τ) (ms6_0 t) fullShare ((dat6 V c).after 0 t) from by
    unfold Dat.leavesExact; rw [liveAt6_0 t], after6_0]
  rw [show (dat6 V c).leavesExact 1 t = owns (c : Thread nD τ) (ms6_1 t) fullShare ((dat6 V c).after 1 t) from by
    unfold Dat.leavesExact; rw [liveAt6_1 t], after6_1]
  rw [show (dat6 V c).leavesExact 2 t = owns (c : Thread nD τ) (ms6_2 t) fullShare ((dat6 V c).after 2 t) from by
    unfold Dat.leavesExact; rw [liveAt6_2 t], after6_2]
  rw [show (dat6 V c).leavesExact 3 t = owns (c : Thread nD τ) (ms6_3 t) fullShare ((dat6 V c).after 3 t) from by
    unfold Dat.leavesExact; rw [liveAt6_3 t], after6_3]
  have hN : t.val < 16 := lt_of_lt_of_eq t.isLt (show cfg6.N = 16 from N_6)
  by_cases h0 : t.val % 4 = 0
  · have h1 : ¬t.val % 4 = 3 := by omega
    rw [Dat.leavesExact_idle (dat6 V c) 4 t (idleAt6_4 t (fun h => h1 ((hcond6_1 t).mp h))) (noFlush6_4 t (fun h => h1 ((hcond6_1 t).mp h)))]
    rw [outsAt6_eq V c t, stepAt6_A V c t _ h0]
    (try dsimp only)
    by_cases hz : t.val = 0
    · rw [PhiS6_castSucc V c t, PhiS6_zero V c _ _ hz, PhiA6_eq]
      iintro ⟨⟨⟨HS0, Hr⟩, Hg⟩, Ho, ⟨%d0, H0⟩, ⟨%d1, H1⟩, ⟨%d2, H2⟩, ⟨%d3, H3⟩, ⟨%d4, H4⟩⟩
      iapply ((runA6 V c t h0).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover6_A V c t h0)
          iexact Hr
        iexact Hg
      isplitl [Ho]; · iexact Ho
      isplitl [H0]; · iexact H0
      isplitl [H1]; · iexact H1
      isplitl [H2]; · iexact H2
      isplitl [H3]; · iexact H3
      iexists _; iexact H4
    · rw [PhiS6_castSucc V c t, PhiS6_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((runA6 V c t h0).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover6_A V c t h0)
          iexact Hr
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 4 = 3
    · rw [show (dat6 V c).leavesExact 4 t = owns (c : Thread nD τ) (ms6_4 t) fullShare ((dat6 V c).after 4 t) from by
        unfold Dat.leavesExact; rw [liveAt6_4 t ((hcond6_1 t).mpr h1)], after6_4]
      rw [outsAt6_eq V c t, stepAt6_C V c t _ h0 h1]
      (try dsimp only)
      rw [PhiS6_castSucc V c t, PhiS6_pos V c _ _ hz, prevAt6_pos V c t hz]
      iintro ⟨⟨⟨HS0, Hr⟩, Hg⟩, Ho, ⟨%d0, H0⟩, ⟨%d1, H1⟩, ⟨%d2, H2⟩, ⟨%d3, H3⟩, ⟨%d4, H4⟩⟩
      iapply ((runC6 V c t h0 h1 _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover6_C V c t h0 h1 _)
          iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover6_C V c t h0 h1 _)
    · rw [Dat.leavesExact_idle (dat6 V c) 4 t (idleAt6_4 t (fun h => h1 ((hcond6_1 t).mp h))) (noFlush6_4 t (fun h => h1 ((hcond6_1 t).mp h)))]
      rw [outsAt6_eq V c t, stepAt6_B V c t _ h0 h1]
      (try dsimp only)
      rw [PhiS6_castSucc V c t, PhiS6_pos V c _ _ hz, prevAt6_pos V c t hz]
      iintro ⟨⟨⟨HS0, Hr⟩, Hg⟩, Ho, ⟨%d0, H0⟩, ⟨%d1, H1⟩, ⟨%d2, H2⟩, ⟨%d3, H3⟩, ⟨%d4, H4⟩⟩
      iapply ((runB6 V c t h0 h1 _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover6_B V c t h0 h1 _)
          iexact Hr
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation6 (c : Dev nD) : BodyObligation (dat6 (F := F) V c) (defs₀ (F := F)) Variants.none () Set.univ := fun t => by
  rw [bigSep_W6, bigSep_W6]
  exact sound_body6 V c t

/-- What the launch hands the region is the invariant before the first point. -/
theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

/-- After any point the invariant gives it back: what the accumulator holds is forgotten. -/
theorem Phi_out6 (c : Dev nD) (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨HS0, Hr⟩, Hg⟩
  isplitl [HS0 Hr]
  · isplitl [HS0]
    · iexists _; iexact HS0
    iexact Hr
  iexact Hg

/-- The same after the last point. -/
theorem hout6 (c : Dev nD) : (dat6 V c).Φ (Fin.last cfg6.N) ⊢ Pipeline.ΦA spec6 c :=
  Phi_out6 V c _ (by rw [Fin.val_last]; have : cfg6.N = 16 := N_6; omega)

end Cert.Kernel.Hand

end
-- ==== Proof.KRegion7Runs.lean ====
import proofs.«178500_j188978561286_1_alg».proof.Proof.Gen.Kernel.Launch
import proofs.«178500_j188978561286_1_alg».proof.Proof.Gen.Kernel.Skeleton
import proofs.«178500_j188978561286_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## The body's two conditions, over the grid

The grid is 4 × 4, walked row-major: point `t` is tile `k = t % 4` of block row `i = t / 4`.  The body's first
conditional (clear the accumulator) tests `k = 0`, its second (finish the row: add the bias row, apply the leaky
rectifier, store the output block) tests `k = 3`. -/

/-- The first conditional's test, from the grid coordinates. -/
abbrev cond7_0 (i : grid7.Coords) : Prop := (Scalar.cmpi .ne (Scalar.extui (Scalar.cmpi .eq (BitVec.ofNat 32 (i 1).val) 0#32)) 0#32) = 1#1
/-- It holds exactly at the points whose position is 0 modulo 4. -/
theorem hcond7_0 : ∀ t : Fin cfg7.N, cond7_0 (grid7.coords t) ↔ t.val % 4 = 0 :=
  (by decide +kernel : ∀ t : Fin grid7.N, cond7_0 (grid7.coords t) ↔ t.val % 4 = 0)

/-- The second conditional's test. -/
abbrev cond7_1 (i : grid7.Coords) : Prop := k7_cond2 i = 1#1
/-- It holds exactly at the points whose position is 3 modulo 4. -/
theorem hcond7_1 : ∀ t : Fin cfg7.N, cond7_1 (grid7.coords t) ↔ t.val % 4 = 3 :=
  (by decide +kernel : ∀ t : Fin grid7.N, cond7_1 (grid7.coords t) ↔ t.val % 4 = 3)

/-! ## Where the windows are idle -/

/-- The four inputs are never idle. -/
theorem liveAt7_0 : ∀ t : Fin cfg7.N, cfg7.idle 0 (grid7.coords t) = false := by decide +kernel
theorem liveAt7_1 : ∀ t : Fin cfg7.N, cfg7.idle 1 (grid7.coords t) = false := by decide +kernel
theorem liveAt7_2 : ∀ t : Fin cfg7.N, cfg7.idle 2 (grid7.coords t) = false := by decide +kernel
theorem liveAt7_3 : ∀ t : Fin cfg7.N, cfg7.idle 3 (grid7.coords t) = false := by decide +kernel
/-- The output is idle, and not written back, at every point but the last of a row. -/
theorem idleAt7_4 : ∀ t : Fin cfg7.N, ¬cond7_1 (grid7.coords t) → cfg7.idle 4 (grid7.coords t) = true := by decide +kernel
theorem noFlush7_4 : ∀ t : Fin cfg7.N, ¬cond7_1 (grid7.coords t) → (cfg7.win 4).flush t = false := by decide +kernel
/-- At the last point of a row it is live. -/
theorem liveAt7_4 : ∀ t : Fin cfg7.N, cond7_1 (grid7.coords t) → cfg7.idle 4 (grid7.coords t) = false := by decide +kernel

/-! ## The memrefs the body is called with -/

/-- One staging buffer of the output window, through which its contents are stated. -/
abbrev VO7_4 : View sig .tc .vmem S2048x128 .f32 := (Memref.whole cc7_stg4_0 : Memref sig .tc .vmem S2048x128 .f32).view
/-- Each window's current staging memref at point `t`, and its wholeness. -/
abbrev ms7_0 (t : Fin cfg7.N) : Memref sig .tc .vmem S2048x2048 .bf16 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S2048x64 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S64x128 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1x128 .f32 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S2048x128 .f32 := win7_4.stage (cfg7.slots t 4)
abbrev hs7_4 (t : Fin cfg7.N) : (ms7_4 t).IsWhole := hstage7_4 ((cfg7.slots t 4).cast nbuf7_4)
/-- The accumulator: a whole scoped buffer of the kernel's own, carried from point to point. -/
abbrev scM7_0 : Memref sig .tc .vmem S2048x128 .f32 := Memref.whole cc7_scratch0
abbrev VS7_0 : View sig .tc .vmem S2048x128 .f32 := scM7_0.view

/-- What the launch hands the region, with the accumulator split off as a memref owned at some contents; the other
    scoped buffers stay unopened. -/
theorem PhiA7_eq (c : Dev nD) :
    (Pipeline.ΦA spec7 c : sProp 𝕄)
      = iprop(iprop((∃ d, owns (c : Thread nD τ) scM7_0 fullShare d)
          ∗ Pipeline.scopedRestBut (Ix := Unit) (Name := ℕ) (U := UR sig nD τ) (Lvl := ℕ) (Val := Elt F) spec7 c [cc7_scratch0]) ∗ (∃ r, prngReg c r)) := by
  unfold Pipeline.ΦA; rw [scopedRest7_split]; simp only [scM7_0, owns_whole]; try rfl

/-! ## The body's three runs

Each is the body's triple on whole memrefs, with the lists of pieces its stores leave as the witness found by the
symbolic run. -/

set_option maxHeartbeats 1000000 in
/-- First tile of a row (`k = 0`): the accumulator, at anything, is cleared and one tile product added; the output's
    buffer is handed back untouched. -/
noncomputable def kernelRun7_A (c : Dev nD) (i : grid7.Coords) (arg2 : Memref sig .tc .vmem S2048x2048 .bf16) (harg2 : arg2.IsWhole) (arg3 : Memref sig .tc .vmem S2048x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : cond7_0 i) (hc1 : ¬cond7_1 i)
    (x0 : Vec F S2048x2048 .bf16) (x1 : Vec F S2048x64 .f32) (x2 : Vec F S64x128 .f32) (x3 : Vec F S1x128 .f32) :
    Σ' (L4 : List (View.Piece (Elt F) S2048x128 .f32)), { LS0 : List (View.Piece (Elt F) S2048x128 .f32) //
      ∀ (xi4 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc7__gcn_kernel i arg2 harg2 arg3 harg3 arg4 harg4 arg5 harg5 arg6 harg6 arg7 harg7) K } := by
  refine ⟨[], ?_, fun xi4 E K => ?run⟩
  case run =>
    simp only [cc7__gcn_kernel_eq_skeleton]; unfold cc7__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- A middle tile (`k = 1, 2`): one tile product is added to the accumulator the point before left; the output's
    buffer is handed back untouched. -/
noncomputable def kernelRun7_B (c : Dev nD) (i : grid7.Coords) (arg2 : Memref sig .tc .vmem S2048x2048 .bf16) (harg2 : arg2.IsWhole) (arg3 : Memref sig .tc .vmem S2048x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬cond7_0 i) (hc1 : ¬cond7_1 i)
    (x0 : Vec F S2048x2048 .bf16) (x1 : Vec F S2048x64 .f32) (x2 : Vec F S64x128 .f32) (x3 : Vec F S1x128 .f32) (xs0 : Vec F S2048x128 .f32) :
    Σ' (L4 : List (View.Piece (Elt F) S2048x128 .f32)), { LS0 : List (View.Piece (Elt F) S2048x128 .f32) //
      ∀ (xi4 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc7__gcn_kernel i arg2 harg2 arg3 harg3 arg4 harg4 arg5 harg5 arg6 harg6 arg7 harg7) K } := by
  refine ⟨[], ?_, fun xi4 E K => ?run⟩
  case run =>
    simp only [cc7__gcn_kernel_eq_skeleton]; unfold cc7__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- Last tile of a row (`k = 3`): the last tile product is added, then the output block is stored from the finished
    accumulator and the bias row. -/
noncomputable def kernelRun7_C (c : Dev nD) (i : grid7.Coords) (arg2 : Memref sig .tc .vmem S2048x2048 .bf16) (harg2 : arg2.IsWhole) (arg3 : Memref sig .tc .vmem S2048x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬cond7_0 i) (hc1 : cond7_1 i)
    (x0 : Vec F S2048x2048 .bf16) (x1 : Vec F S2048x64 .f32) (x2 : Vec F S64x128 .f32) (x3 : Vec F S1x128 .f32) (xs0 : Vec F S2048x128 .f32) :
    Σ' (L4 : List (View.Piece (Elt F) S2048x128 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc7__gcn_kernel i arg2 harg2 arg3 harg3 arg4 harg4 arg5 harg5 arg6 harg6 arg7 harg7) K } := by
  refine ⟨?_, ?_, fun E K => ?run⟩
  case run =>
    simp only [cc7__gcn_kernel_eq_skeleton]; unfold cc7__gcn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.KRegion7.lean ====
import proofs.«178500_j188978561286_1_alg».proof.Proof.KRegion7Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 7: the layer producing the reconstructed features, at the entry contents `V`

The grid is 4 × 4.  At point `t = 4 i + k` the body adds tile `k` of block row `i` of the product to an accumulator
it carries from point to point (cleared at `k = 0`), and at `k = 3` stores the finished row block.  The proof data
records, point by point, what the accumulator and the output's staging buffer hold. -/

/-! ## The windows' blocks -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's current staging buffer holds its block at every point, fetched there or not: where it is not
    fetched its block index has not moved.  For any proof data whose array is the entry contents and whose body
    leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-! ## What each case leaves -/

/-- The first tile of a row at point `t`. -/
abbrev runA7 (c : Dev nD) (t : Fin cfg7.N) (h0 : t.val % 4 = 0) :=
  kernelRun7_A (F := F) c (grid7.coords t) (ms7_0 t) (hs7_0 t) (ms7_1 t) (hs7_1 t) (ms7_2 t) (hs7_2 t) (ms7_3 t) (hs7_3 t) (ms7_4 t) (hs7_4 t) scM7_0 (Memref.isWhole_whole _) ((hcond7_0 t).mpr h0) (fun h => by have h3 := (hcond7_1 t).mp h; omega) (iblk7 V c 0 t) (iblk7 V c 1 t) (iblk7 V c 2 t) (iblk7 V c 3 t)
/-- A middle tile at point `t`, over what the accumulator held. -/
abbrev runB7 (c : Dev nD) (t : Fin cfg7.N) (h0 : ¬t.val % 4 = 0) (h1 : ¬t.val % 4 = 3) (prev : Vec F S2048x128 .f32) :=
  kernelRun7_B (F := F) c (grid7.coords t) (ms7_0 t) (hs7_0 t) (ms7_1 t) (hs7_1 t) (ms7_2 t) (hs7_2 t) (ms7_3 t) (hs7_3 t) (ms7_4 t) (hs7_4 t) scM7_0 (Memref.isWhole_whole _) (fun h => h0 ((hcond7_0 t).mp h)) (fun h => h1 ((hcond7_1 t).mp h)) (iblk7 V c 0 t) (iblk7 V c 1 t) (iblk7 V c 2 t) (iblk7 V c 3 t) prev
/-- The last tile of a row at point `t`, over what the accumulator held. -/
abbrev runC7 (c : Dev nD) (t : Fin cfg7.N) (h0 : ¬t.val % 4 = 0) (h1 : t.val % 4 = 3) (prev : Vec F S2048x128 .f32) :=
  kernelRun7_C (F := F) c (grid7.coords t) (ms7_0 t) (hs7_0 t) (ms7_1 t) (hs7_1 t) (ms7_2 t) (hs7_2 t) (ms7_3 t) (hs7_3 t) (ms7_4 t) (hs7_4 t) scM7_0 (Memref.isWhole_whole _) (fun h => h0 ((hcond7_0 t).mp h)) ((hcond7_1 t).mpr h1) (iblk7 V c 0 t) (iblk7 V c 1 t) (iblk7 V c 2 t) (iblk7 V c 3 t) prev

/-- A list of pieces read back through the accumulator's view, and through the output's. -/
abbrev readS7 (L : List (View.Piece (Elt F) S2048x128 .f32)) : Vec F S2048x128 .f32 := VS7_0.read (Elt F) (VS7_0.writes (Elt F) VS7_0.junk L)
abbrev readO7 (L : List (View.Piece (Elt F) S2048x128 .f32)) : Vec F S2048x128 .f32 := VO7_4.read (Elt F) (VO7_4.writes (Elt F) VO7_4.junk L)

/-- In every case the pieces stored into the accumulator tile it, so they cover it. -/
theorem scover7_A (c : Dev nD) (t : Fin cfg7.N) (h0 : t.val % 4 = 0) (y : S2048x128.Idx) :
    ∃ pc ∈ (runA7 V c t h0).2.1, y ∈ pc.1.set :=
  View.cover_of_tiledL (runA7 V c t h0).2.1 S2048x128.size (by sl_kernel_rfl) y
theorem scover7_B (c : Dev nD) (t : Fin cfg7.N) (h0 : ¬t.val % 4 = 0) (h1 : ¬t.val % 4 = 3) (prev : Vec F S2048x128 .f32) (y : S2048x128.Idx) :
    ∃ pc ∈ (runB7 V c t h0 h1 prev).2.1, y ∈ pc.1.set :=
  View.cover_of_tiledL (runB7 V c t h0 h1 prev).2.1 S2048x128.size (by sl_kernel_rfl) y
theorem scover7_C (c : Dev nD) (t : Fin cfg7.N) (h0 : ¬t.val % 4 = 0) (h1 : t.val % 4 = 3) (prev : Vec F S2048x128 .f32) (y : S2048x128.Idx) :
    ∃ pc ∈ (runC7 V c t h0 h1 prev).2.1, y ∈ pc.1.set :=
  View.cover_of_tiledL (runC7 V c t h0 h1 prev).2.1 S2048x128.size (by sl_kernel_rfl) y
/-- At the last tile of a row the one store into the output's buffer covers it. -/
theorem cover7_C (c : Dev nD) (t : Fin cfg7.N) (h0 : ¬t.val % 4 = 0) (h1 : t.val % 4 = 3) (prev : Vec F S2048x128 .f32) (y : S2048x128.Idx) :
    ∃ pc ∈ (runC7 V c t h0 h1 prev).1, y ∈ pc.1.set :=
  View.cover_of_tiledL (runC7 V c t h0 h1 prev).1 S2048x128.size (by sl_kernel_rfl) y

/-! ## Point by point -/

/-- One step: what the output's staging buffer and the accumulator hold after the body at point `t`, from what the
    accumulator held before it (not consulted at the first tile of a row, where it is cleared).  Where the output is
    not stored its component is a placeholder nothing reads. -/
def stepAt7 (c : Dev nD) (t : Fin cfg7.N) (prev : Vec F S2048x128 .f32) : Vec F S2048x128 .f32 × Vec F S2048x128 .f32 :=
  if h0 : t.val % 4 = 0 then (readO7 (runA7 V c t h0).1, readS7 (runA7 V c t h0).2.1)
  else if h1 : t.val % 4 = 3 then (readO7 (runC7 V c t h0 h1 prev).1, readS7 (runC7 V c t h0 h1 prev).2.1)
  else (readO7 (runB7 V c t h0 h1 prev).1, readS7 (runB7 V c t h0 h1 prev).2.1)

theorem stepAt7_A (c : Dev nD) (t : Fin cfg7.N) (prev : Vec F S2048x128 .f32) (h0 : t.val % 4 = 0) :
    stepAt7 V c t prev = (readO7 (runA7 V c t h0).1, readS7 (runA7 V c t h0).2.1) := dif_pos h0
theorem stepAt7_B (c : Dev nD) (t : Fin cfg7.N) (prev : Vec F S2048x128 .f32) (h0 : ¬t.val % 4 = 0) (h1 : ¬t.val % 4 = 3) :
    stepAt7 V c t prev = (readO7 (runB7 V c t h0 h1 prev).1, readS7 (runB7 V c t h0 h1 prev).2.1) := (dif_neg h0).trans (dif_neg h1)
theorem stepAt7_C (c : Dev nD) (t : Fin cfg7.N) (prev : Vec F S2048x128 .f32) (h0 : ¬t.val % 4 = 0) (h1 : t.val % 4 = 3) :
    stepAt7 V c t prev = (readO7 (runC7 V c t h0 h1 prev).1, readS7 (runC7 V c t h0 h1 prev).2.1) := (dif_neg h0).trans (dif_pos h1)

/-- THE ACCUMULATION: the pair after the body at position `n`, by recursion on the position. -/
def outsAt7 (c : Dev nD) : (n : ℕ) → n < cfg7.N → Vec F S2048x128 .f32 × Vec F S2048x128 .f32
  | 0, hn => stepAt7 V c ⟨0, hn⟩ (readS7 [])
  | n + 1, hn => stepAt7 V c ⟨n + 1, hn⟩ (outsAt7 c n (Nat.lt_of_succ_lt hn)).2

/-- What the accumulator holds when the body is entered at point `t`. -/
def prevAt7 (c : Dev nD) (t : Fin cfg7.N) : Vec F S2048x128 .f32 :=
  if h : t.val = 0 then readS7 [] else (outsAt7 V c (t.val - 1) (Nat.lt_of_le_of_lt (Nat.sub_le _ _) t.isLt)).2

theorem outsAt7_eq (c : Dev nD) (t : Fin cfg7.N) : outsAt7 V c t.val t.isLt = stepAt7 V c t (prevAt7 V c t) := by
  obtain ⟨n, hn⟩ := t
  cases n with
  | zero => rfl
  | succ n => rfl

theorem prevAt7_pos (c : Dev nD) (t : Fin cfg7.N) (hz : t.val ≠ 0) :
    prevAt7 V c t = (outsAt7 V c (t.val - 1) (Nat.lt_of_le_of_lt (Nat.sub_le _ _) t.isLt)).2 := dif_neg hz

/-! ## The invariant -/

/-- Before the first point: what the launch hands over.  Afterwards: the accumulator at what the point before left,
    the other scoped buffers unopened, the generator register at some state. -/
def PhiS7 (c : Dev nD) : (n : ℕ) → n ≤ cfg7.N → sProp 𝕄
  | 0, _ => Pipeline.ΦA spec7 c
  | n + 1, hn => iprop(iprop(owns (c : Thread nD τ) scM7_0 fullShare ((outsAt7 V c n hn).2)
      ∗ Pipeline.scopedRestBut (Ix := Unit) (Name := ℕ) (U := UR sig nD τ) (Lvl := ℕ) (Val := Elt F) spec7 c [cc7_scratch0]) ∗ (∃ r, prngReg c r))

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = iprop(iprop(owns (c : Thread nD τ) scM7_0 fullShare ((outsAt7 V c n hn).2)
      ∗ Pipeline.scopedRestBut (Ix := Unit) (Name := ℕ) (U := UR sig nD τ) (Lvl := ℕ) (Val := Elt F) spec7 c [cc7_scratch0]) ∗ (∃ r, prngReg c r)) := rfl

theorem PhiS7_pos (c : Dev nD) (n : ℕ) (h : n ≤ cfg7.N) (hz : n ≠ 0) :
    PhiS7 V c n h = iprop(iprop(owns (c : Thread nD τ) scM7_0 fullShare ((outsAt7 V c (n - 1) (by omega)).2)
      ∗ Pipeline.scopedRestBut (Ix := Unit) (Name := ℕ) (U := UR sig nD τ) (Lvl := ℕ) (Val := Elt F) spec7 c [cc7_scratch0]) ∗ (∃ r, prngReg c r)) := by
  cases n with
  | zero => exact absurd rfl hz
  | succ n => rfl

/-! ## The proof data -/

/-- The arrays as the region finds them; after the body each input's buffer at its block and the output's at the
    step's first component; the invariant above; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => (outsAt7 V c t.val t.isLt).1
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = (outsAt7 V c t.val t.isLt).1 := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d

/-- An input's array is never written: after the run it is the entry contents. -/
theorem arrAt_in7_0 (c : Dev nD) : (dat7 V c).arrAt 0 cfg7.N = V c (Pipeline.arrRef spec7 0) := ((dat7 V c).arrAt_in 0 rfl _).trans (A_eq7 V c 0)
theorem arrAt_in7_1 (c : Dev nD) : (dat7 V c).arrAt 1 cfg7.N = V c (Pipeline.arrRef spec7 1) := ((dat7 V c).arrAt_in 1 rfl _).trans (A_eq7 V c 1)
theorem arrAt_in7_2 (c : Dev nD) : (dat7 V c).arrAt 2 cfg7.N = V c (Pipeline.arrRef spec7 2) := ((dat7 V c).arrAt_in 2 rfl _).trans (A_eq7 V c 2)
theorem arrAt_in7_3 (c : Dev nD) : (dat7 V c).arrAt 3 cfg7.N = V c (Pipeline.arrRef spec7 3) := ((dat7 V c).arrAt_in 3 rfl _).trans (A_eq7 V c 3)

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d))
    ∗ (∃ d, owns (c : Thread nD τ) (ms7_4 t) fullShare ((dat7 V c).before 4 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t
    ∗ (dat7 V c).leavesExact 4 t)

set_option maxHeartbeats 4800000 in
/-- The body at any point.  The inputs' buffers hold their blocks; the position modulo 4 says which of the three runs
    applies; the invariant hands the body the accumulator (at anything before the first point, else at what the point
    before left) and takes it back at this point's contents, the pieces stored into it covering it; the output's buffer
    is handed back untouched except at the last tile of a row, where the one store covers it. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3]
  rw [show (dat7 V c).owesAt () t.succ = (dat7 V c).owesAt () t.castSucc from rfl]
  rw [show (dat7 V c).Φ t.succ = PhiS7 V c (t.val + 1) t.isLt from rfl, PhiS7_succ]
  rw [show (dat7 V c).leavesExact 0 t = owns (c : Thread nD τ) (ms7_0 t) fullShare ((dat7 V c).after 0 t) from by
    unfold Dat.leavesExact; rw [liveAt7_0 t], after7_0]
  rw [show (dat7 V c).leavesExact 1 t = owns (c : Thread nD τ) (ms7_1 t) fullShare ((dat7 V c).after 1 t) from by
    unfold Dat.leavesExact; rw [liveAt7_1 t], after7_1]
  rw [show (dat7 V c).leavesExact 2 t = owns (c : Thread nD τ) (ms7_2 t) fullShare ((dat7 V c).after 2 t) from by
    unfold Dat.leavesExact; rw [liveAt7_2 t], after7_2]
  rw [show (dat7 V c).leavesExact 3 t = owns (c : Thread nD τ) (ms7_3 t) fullShare ((dat7 V c).after 3 t) from by
    unfold Dat.leavesExact; rw [liveAt7_3 t], after7_3]
  have hN : t.val < 16 := lt_of_lt_of_eq t.isLt (show cfg7.N = 16 from N_7)
  by_cases h0 : t.val % 4 = 0
  · have h1 : ¬t.val % 4 = 3 := by omega
    rw [Dat.leavesExact_idle (dat7 V c) 4 t (idleAt7_4 t (fun h => h1 ((hcond7_1 t).mp h))) (noFlush7_4 t (fun h => h1 ((hcond7_1 t).mp h)))]
    rw [outsAt7_eq V c t, stepAt7_A V c t _ h0]
    (try dsimp only)
    by_cases hz : t.val = 0
    · rw [PhiS7_castSucc V c t, PhiS7_zero V c _ _ hz, PhiA7_eq]
      iintro ⟨⟨⟨HS0, Hr⟩, Hg⟩, Ho, ⟨%d0, H0⟩, ⟨%d1, H1⟩, ⟨%d2, H2⟩, ⟨%d3, H3⟩, ⟨%d4, H4⟩⟩
      iapply ((runA7 V c t h0).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover7_A V c t h0)
          iexact Hr
        iexact Hg
      isplitl [Ho]; · iexact Ho
      isplitl [H0]; · iexact H0
      isplitl [H1]; · iexact H1
      isplitl [H2]; · iexact H2
      isplitl [H3]; · iexact H3
      iexists _; iexact H4
    · rw [PhiS7_castSucc V c t, PhiS7_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((runA7 V c t h0).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover7_A V c t h0)
          iexact Hr
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 4 = 3
    · rw [show (dat7 V c).leavesExact 4 t = owns (c : Thread nD τ) (ms7_4 t) fullShare ((dat7 V c).after 4 t) from by
        unfold Dat.leavesExact; rw [liveAt7_4 t ((hcond7_1 t).mpr h1)], after7_4]
      rw [outsAt7_eq V c t, stepAt7_C V c t _ h0 h1]
      (try dsimp only)
      rw [PhiS7_castSucc V c t, PhiS7_pos V c _ _ hz, prevAt7_pos V c t hz]
      iintro ⟨⟨⟨HS0, Hr⟩, Hg⟩, Ho, ⟨%d0, H0⟩, ⟨%d1, H1⟩, ⟨%d2, H2⟩, ⟨%d3, H3⟩, ⟨%d4, H4⟩⟩
      iapply ((runC7 V c t h0 h1 _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover7_C V c t h0 h1 _)
          iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover7_C V c t h0 h1 _)
    · rw [Dat.leavesExact_idle (dat7 V c) 4 t (idleAt7_4 t (fun h => h1 ((hcond7_1 t).mp h))) (noFlush7_4 t (fun h => h1 ((hcond7_1 t).mp h)))]
      rw [outsAt7_eq V c t, stepAt7_B V c t _ h0 h1]
      (try dsimp only)
      rw [PhiS7_castSucc V c t, PhiS7_pos V c _ _ hz, prevAt7_pos V c t hz]
      iintro ⟨⟨⟨HS0, Hr⟩, Hg⟩, Ho, ⟨%d0, H0⟩, ⟨%d1, H1⟩, ⟨%d2, H2⟩, ⟨%d3, H3⟩, ⟨%d4, H4⟩⟩
      iapply ((runB7 V c t h0 h1 _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover7_B V c t h0 h1 _)
          iexact Hr
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation7 (c : Dev nD) : BodyObligation (dat7 (F := F) V c) (defs₀ (F := F)) Variants.none () Set.univ := fun t => by
  rw [bigSep_W7, bigSep_W7]
  exact sound_body7 V c t

/-- What the launch hands the region is the invariant before the first point. -/
theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

/-- After any point the invariant gives it back: what the accumulator holds is forgotten. -/
theorem Phi_out7 (c : Dev nD) (t : Fin (cfg7.N + 1)) (ht : t.val ≠ 0) : (dat7 V c).Φ t ⊢ Pipeline.ΦA spec7 c := by
  rw [show (dat7 V c).Φ t = PhiS7 V c t.val (Nat.le_of_lt_succ t.isLt) from rfl, PhiS7_pos V c _ _ ht, PhiA7_eq]
  iintro ⟨⟨HS0, Hr⟩, Hg⟩
  isplitl [HS0 Hr]
  · isplitl [HS0]
    · iexists _; iexact HS0
    iexact Hr
  iexact Hg

/-- The same after the last point. -/
theorem hout7 (c : Dev nD) : (dat7 V c).Φ (Fin.last cfg7.N) ⊢ Pipeline.ΦA spec7 c :=
  Phi_out7 V c _ (by rw [Fin.val_last]; have : cfg7.N = 16 := N_7; omega)

end Cert.Kernel.Hand

end
-- ==== Proof.KBundles.lean ====
/-
  The eight regions' data gathered as the run's parameters.

  Each kernel region's module states, at any contents the region may be entered from, its proof data (arrays read off
  the contents, every share full but for the one array two windows of the edge decoder both read, nothing owed, no
  bound on recorded pairs), its body obligation and its invariant's first and last states.  This module only
  packs them in the form the run takes.
-/
import proofs.«178500_j188978561286_1_alg».proof.Proof.KRun
import proofs.«178500_j188978561286_1_alg».proof.Proof.KRegion0
import proofs.«178500_j188978561286_1_alg».proof.Proof.KRegion1
import proofs.«178500_j188978561286_1_alg».proof.Proof.KRegion2
import proofs.«178500_j188978561286_1_alg».proof.Proof.KRegion3
import proofs.«178500_j188978561286_1_alg».proof.Proof.KRegion4
import proofs.«178500_j188978561286_1_alg».proof.Proof.KRegion5
import proofs.«178500_j188978561286_1_alg».proof.Proof.KRegion6
import proofs.«178500_j188978561286_1_alg».proof.Proof.KRegion7

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)

variable {F : FTy → Type} [FloatOps F]

/-- Region 0's data. -/
def bundle0 : Region0 (F := F) where
  dat := dat0
  A_eq := A_eq0
  q_eq := fun _ _ _ => rfl
  owed_eq := fun _ _ _ => rfl
  rec_eq := fun _ _ _ => rfl
  body := body_obligation0
  hin := hin0
  hout := hout0

/-- Region 1's data. -/
def bundle1 : Region1 (F := F) where
  dat := dat1
  A_eq := A_eq1
  q_eq := fun _ _ _ => rfl
  owed_eq := fun _ _ _ => rfl
  rec_eq := fun _ _ _ => rfl
  body := body_obligation1
  hin := hin1
  hout := hout1

/-- Region 2's data. -/
def bundle2 : Region2 (F := F) where
  dat := dat2
  A_eq := A_eq2
  q_eq := fun _ _ _ => rfl
  owed_eq := fun _ _ _ => rfl
  rec_eq := fun _ _ _ => rfl
  body := body_obligation2
  hin := hin2
  hout := hout2

/-- Region 3's data. -/
def bundle3 : Region3 (F := F) where
  dat := dat3
  A_eq := A_eq3
  q_eq := fun _ _ _ => rfl
  owed_eq := fun _ _ _ => rfl
  rec_eq := fun _ _ _ => rfl
  body := body_obligation3
  hin := hin3
  hout := hout3

/-- Region 4's data. -/
def bundle4 : Region4 (F := F) where
  dat := dat4
  A_eq := A_eq4
  q_eq := fun _ _ _ => rfl
  owed_eq := fun _ _ _ => rfl
  rec_eq := fun _ _ _ => rfl
  body := body_obligation4
  hin := hin4
  hout := hout4

/-- Region 5's data. -/
def bundle5 : Region5 (F := F) where
  dat := dat5
  A_eq := A_eq5
  q_eq := fun _ _ _ => rfl
  owed_eq := fun _ _ _ => rfl
  rec_eq := fun _ _ _ => rfl
  body := body_obligation5
  hin := hin5
  hout := hout5
  hsplit := hsplit5
  hjoin := hjoin5

/-- Region 6's data. -/
def bundle6 : Region6 (F := F) where
  dat := dat6
  A_eq := A_eq6
  q_eq := fun _ _ _ => rfl
  owed_eq := fun _ _ _ => rfl
  rec_eq := fun _ _ _ => rfl
  body := body_obligation6
  hin := hin6
  hout := hout6

/-- Region 7's data. -/
def bundle7 : Region7 (F := F) where
  dat := dat7
  A_eq := A_eq7
  q_eq := fun _ _ _ => rfl
  owed_eq := fun _ _ _ => rfl
  rec_eq := fun _ _ _ => rfl
  body := body_obligation7
  hin := hin7
  hout := hout7

end Cert.Kernel.Hand

end
-- ==== Proof.Run.lean ====
/-
  The kernel program's run, region by region.

  @main is eight kernel regions among one-operation host stretches (reshapes).  Between two items every unscoped
  buffer of a core is held whole at a known valuation: the launch memory, then after each host stretch the
  stretch's operations applied, then after each region the region's output array at what its write-backs leave
  (the proof data's array after the last point) and every other buffer as it was.  Each region enters the
  pipeline's invariant with its own arrays split off that valuation and leaves by putting them back; the core's
  generator register and its (empty) dues ride along.  The run's post says what every unscoped buffer holds at
  the end; the frame and the results are read off it.

  The regions' own data — proof data, body obligation, the invariant's first and last states — are parameters
  here (one bundle of hypotheses per region), so that this module states the assembly alone.
-/
import proofs.«178500_j188978561286_1_alg».proof.Proof.Gen.KernelIdeal.Launch
import proofs.«178500_j188978561286_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A core's buffer contents as a region's proof data take them: read at the TensorCore's references. -/
abbrev Contents : Type := (c : Dev nD) → (b : Ref sig .tc) → Buf (Elt F) ((c : Thread nD τ).loc b)

/-- What one region supplies: its proof data at any entry contents (arrays read off the contents, full shares,
    nothing owed), the body obligation, and the invariant before the first point and after the last against
    the class invariant (the scoped rest and the generator register). -/
structure Region0 where
  dat : Contents (F := F) → (c : Dev nD) → Dat τ (Elt F) Unit ℕ (UR sig nD τ) ℕ cfg0 c
  A_eq : ∀ (V : Contents (F := F)) (c : Dev nD) (w : Fin cfg0.W), (dat V c).A w = V c (Pipeline.arrRef spec0 w)
  q_eq : ∀ (V : Contents (F := F)) (c : Dev nD) (w : Fin cfg0.W), (dat V c).q w = fullShare
  owed_eq : ∀ (V : Contents (F := F)) (c : Dev nD) (t : Fin (cfg0.N + 1)), (dat V c).owed t = 0
  rec_eq : ∀ (V : Contents (F := F)) (c : Dev nD) (t : Fin (cfg0.N + 1)), (dat V c).recorded t = Set.univ
  body : ∀ (V : Contents (F := F)) (c : Dev nD), BodyObligation (dat V c) (defs₀ (F := F)) Variants.none () Set.univ
  hin : ∀ (V : Contents (F := F)) (c : Dev nD), (Pipeline.ΦA spec0 c : sProp 𝕄) ⊢ (dat V c).Φ 0
  hout : ∀ (V : Contents (F := F)) (c : Dev nD), (dat V c).Φ (Fin.last cfg0.N) ⊢ (Pipeline.ΦA spec0 c : sProp 𝕄)

structure Region1 where
  dat : Contents (F := F) → (c : Dev nD) → Dat τ (Elt F) Unit ℕ (UR sig nD τ) ℕ cfg1 c
  A_eq : ∀ (V : Contents (F := F)) (c : Dev nD) (w : Fin cfg1.W), (dat V c).A w = V c (Pipeline.arrRef spec1 w)
  q_eq : ∀ (V : Contents (F := F)) (c : Dev nD) (w : Fin cfg1.W), (dat V c).q w = fullShare
  owed_eq : ∀ (V : Contents (F := F)) (c : Dev nD) (t : Fin (cfg1.N + 1)), (dat V c).owed t = 0
  rec_eq : ∀ (V : Contents (F := F)) (c : Dev nD) (t : Fin (cfg1.N + 1)), (dat V c).recorded t = Set.univ
  body : ∀ (V : Contents (F := F)) (c : Dev nD), BodyObligation (dat V c) (defs₀ (F := F)) Variants.none () Set.univ
  hin : ∀ (V : Contents (F := F)) (c : Dev nD), (Pipeline.ΦA spec1 c : sProp 𝕄) ⊢ (dat V c).Φ 0
  hout : ∀ (V : Contents (F := F)) (c : Dev nD), (dat V c).Φ (Fin.last cfg1.N) ⊢ (Pipeline.ΦA spec1 c : sProp 𝕄)

structure Region2 where
  dat : Contents (F := F) → (c : Dev nD) → Dat τ (Elt F) Unit ℕ (UR sig nD τ) ℕ cfg2 c
  A_eq : ∀ (V : Contents (F := F)) (c : Dev nD) (w : Fin cfg2.W), (dat V c).A w = V c (Pipeline.arrRef spec2 w)
  q_eq : ∀ (V : Contents (F := F)) (c : Dev nD) (w : Fin cfg2.W), (dat V c).q w = fullShare
  owed_eq : ∀ (V : Contents (F := F)) (c : Dev nD) (t : Fin (cfg2.N + 1)), (dat V c).owed t = 0
  rec_eq : ∀ (V : Contents (F := F)) (c : Dev nD) (t : Fin (cfg2.N + 1)), (dat V c).recorded t = Set.univ
  body : ∀ (V : Contents (F := F)) (c : Dev nD), BodyObligation (dat V c) (defs₀ (F := F)) Variants.none () Set.univ
  hin : ∀ (V : Contents (F := F)) (c : Dev nD), (Pipeline.ΦA spec2 c : sProp 𝕄) ⊢ (dat V c).Φ 0
  hout : ∀ (V : Contents (F := F)) (c : Dev nD), (dat V c).Φ (Fin.last cfg2.N) ⊢ (Pipeline.ΦA spec2 c : sProp 𝕄)

structure Region3 where
  dat : Contents (F := F) → (c : Dev nD) → Dat τ (Elt F) Unit ℕ (UR sig nD τ) ℕ cfg3 c
  A_eq : ∀ (V : Contents (F := F)) (c : Dev nD) (w : Fin cfg3.W), (dat V c).A w = V c (Pipeline.arrRef spec3 w)
  q_eq : ∀ (V : Contents (F := F)) (c : Dev nD) (w : Fin cfg3.W), (dat V c).q w = fullShare
  owed_eq : ∀ (V : Contents (F := F)) (c : Dev nD) (t : Fin (cfg3.N + 1)), (dat V c).owed t = 0
  rec_eq : ∀ (V : Contents (F := F)) (c : Dev nD) (t : Fin (cfg3.N + 1)), (dat V c).recorded t = Set.univ
  body : ∀ (V : Contents (F := F)) (c : Dev nD), BodyObligation (dat V c) (defs₀ (F := F)) Variants.none () Set.univ
  hin : ∀ (V : Contents (F := F)) (c : Dev nD), (Pipeline.ΦA spec3 c : sProp 𝕄) ⊢ (dat V c).Φ 0
  hout : ∀ (V : Contents (F := F)) (c : Dev nD), (dat V c).Φ (Fin.last cfg3.N) ⊢ (Pipeline.ΦA spec3 c : sProp 𝕄)

structure Region4 where
  dat : Contents (F := F) → (c : Dev nD) → Dat τ (Elt F) Unit ℕ (UR sig nD τ) ℕ cfg4 c
  A_eq : ∀ (V : Contents (F := F)) (c : Dev nD) (w : Fin cfg4.W), (dat V c).A w = V c (Pipeline.arrRef spec4 w)
  q_eq : ∀ (V : Contents (F := F)) (c : Dev nD) (w : Fin cfg4.W), (dat V c).q w = fullShare
  owed_eq : ∀ (V : Contents (F := F)) (c : Dev nD) (t : Fin (cfg4.N + 1)), (dat V c).owed t = 0
  rec_eq : ∀ (V : Contents (F := F)) (c : Dev nD) (t : Fin (cfg4.N + 1)), (dat V c).recorded t = Set.univ
  body : ∀ (V : Contents (F := F)) (c : Dev nD), BodyObligation (dat V c) (defs₀ (F := F)) Variants.none () Set.univ
  hin : ∀ (V : Contents (F := F)) (c : Dev nD), (Pipeline.ΦA spec4 c : sProp 𝕄) ⊢ (dat V c).Φ 0
  hout : ∀ (V : Contents (F := F)) (c : Dev nD), (dat V c).Φ (Fin.last cfg4.N) ⊢ (Pipeline.ΦA spec4 c : sProp 𝕄)

structure Region5 where
  dat : Contents (F := F) → (c : Dev nD) → Dat τ (Elt F) Unit ℕ (UR sig nD τ) ℕ cfg5 c
  A_eq : ∀ (V : Contents (F := F)) (c : Dev nD) (w : Fin cfg5.W), (dat V c).A w = V c (Pipeline.arrRef spec5 w)
  q_eq : ∀ (V : Contents (F := F)) (c : Dev nD) (w : Fin cfg5.W), (dat V c).q w = (dat V c).q w
  owed_eq : ∀ (V : Contents (F := F)) (c : Dev nD) (t : Fin (cfg5.N + 1)), (dat V c).owed t = 0
  rec_eq : ∀ (V : Contents (F := F)) (c : Dev nD) (t : Fin (cfg5.N + 1)), (dat V c).recorded t = Set.univ
  body : ∀ (V : Contents (F := F)) (c : Dev nD), BodyObligation (dat V c) (defs₀ (F := F)) Variants.none () Set.univ
  hin : ∀ (V : Contents (F := F)) (c : Dev nD), (Pipeline.ΦA spec5 c : sProp 𝕄) ⊢ (dat V c).Φ 0
  hout : ∀ (V : Contents (F := F)) (c : Dev nD), (dat V c).Φ (Fin.last cfg5.N) ⊢ (Pipeline.ΦA spec5 c : sProp 𝕄)
  hsplit : ∀ (V : Contents (F := F)) (c : Dev nD), (unscopedBufs c (V c) : sProp 𝕄) ⊢ iprop((dat V c).arrays ((dat V c).arrAt · 0) ∗ Pipeline.unscopedRest spec5 c (V c))
  hjoin : ∀ (V : Contents (F := F)) (c : Dev nD) (V' : (b : Ref sig .tc) → Buf (Elt F) ((c : Thread nD τ).loc b)),
    (∀ w, (dat V c).arrAt w cfg5.N = V' (Pipeline.arrRef spec5 w)) →
    (∀ b, b ∉ Finset.univ.image (Pipeline.arrRef spec5) → V' b = V c b) →
    iprop((dat V c).arrays ((dat V c).arrAt · cfg5.N) ∗ Pipeline.unscopedRest spec5 c (V c)) ⊢ (unscopedBufs c V' : sProp 𝕄)

structure Region6 where
  dat : Contents (F := F) → (c : Dev nD) → Dat τ (Elt F) Unit ℕ (UR sig nD τ) ℕ cfg6 c
  A_eq : ∀ (V : Contents (F := F)) (c : Dev nD) (w : Fin cfg6.W), (dat V c).A w = V c (Pipeline.arrRef spec6 w)
  q_eq : ∀ (V : Contents (F := F)) (c : Dev nD) (w : Fin cfg6.W), (dat V c).q w = fullShare
  owed_eq : ∀ (V : Contents (F := F)) (c : Dev nD) (t : Fin (cfg6.N + 1)), (dat V c).owed t = 0
  rec_eq : ∀ (V : Contents (F := F)) (c : Dev nD) (t : Fin (cfg6.N + 1)), (dat V c).recorded t = Set.univ
  body : ∀ (V : Contents (F := F)) (c : Dev nD), BodyObligation (dat V c) (defs₀ (F := F)) Variants.none () Set.univ
  hin : ∀ (V : Contents (F := F)) (c : Dev nD), (Pipeline.ΦA spec6 c : sProp 𝕄) ⊢ (dat V c).Φ 0
  hout : ∀ (V : Contents (F := F)) (c : Dev nD), (dat V c).Φ (Fin.last cfg6.N) ⊢ (Pipeline.ΦA spec6 c : sProp 𝕄)

structure Region7 where
  dat : Contents (F := F) → (c : Dev nD) → Dat τ (Elt F) Unit ℕ (UR sig nD τ) ℕ cfg7 c
  A_eq : ∀ (V : Contents (F := F)) (c : Dev nD) (w : Fin cfg7.W), (dat V c).A w = V c (Pipeline.arrRef spec7 w)
  q_eq : ∀ (V : Contents (F := F)) (c : Dev nD) (w : Fin cfg7.W), (dat V c).q w = fullShare
  owed_eq : ∀ (V : Contents (F := F)) (c : Dev nD) (t : Fin (cfg7.N + 1)), (dat V c).owed t = 0
  rec_eq : ∀ (V : Contents (F := F)) (c : Dev nD) (t : Fin (cfg7.N + 1)), (dat V c).recorded t = Set.univ
  body : ∀ (V : Contents (F := F)) (c : Dev nD), BodyObligation (dat V c) (defs₀ (F := F)) Variants.none () Set.univ
  hin : ∀ (V : Contents (F := F)) (c : Dev nD), (Pipeline.ΦA spec7 c : sProp 𝕄) ⊢ (dat V c).Φ 0
  hout : ∀ (V : Contents (F := F)) (c : Dev nD), (dat V c).Φ (Fin.last cfg7.N) ⊢ (Pipeline.ΦA spec7 c : sProp 𝕄)

/-- With nothing owed and no bound on the recorded pairs, the pipeline's form of a core's dues is the plain one. -/
theorem owesAt_of {cfg : Cfg sig Λ₀} {c : Dev nD} (dat : Dat τ (Elt F) Unit ℕ (UR sig nD τ) ℕ cfg c) (t : Fin (cfg.N + 1))
    (ho : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin Pipeline.Dat.bound
  rw [ho, hr]
  iintro ⟨%W, HO⟩; iexists W; isplitr; · ipureintro; exact fun _ _ => Or.inl trivial
  iexact HO

theorem of_owesAt {cfg : Cfg sig Λ₀} {c : Dev nD} (dat : Dat τ (Elt F) Unit ℕ (UR sig nD τ) ℕ cfg c) (t : Fin (cfg.N + 1))
    (ho : dat.owed t = 0) :
    dat.owesAt () t ⊢ (iprop(∃ W, owes (c : Thread nD τ) (0 : CellTallies nD τ sig Unit) W) : sProp 𝕄) := by
  unfold Pipeline.Dat.owesAt Pipeline.owesWithin
  rw [ho]
  iintro ⟨%W, -, HO⟩; iexists W; iexact HO

section Run

variable (m : (ℓ : Loc nD τ sig) → Buf (Elt F) ℓ) (ρ : Dev nD → PrngReg)
variable (R0 : Region0 (F := F)) (R1 : Region1 (F := F)) (R2 : Region2 (F := F)) (R3 : Region3 (F := F)) (R4 : Region4 (F := F)) (R5 : Region5 (F := F)) (R6 : Region6 (F := F)) (R7 : Region7 (F := F))

/-! ## The buffer contents at each boundary: a fold through @main -/

/-- Core `c`'s buffers at launch (region 0's entry). -/
abbrev B0 : Dev nD → Valuation τ sig (Elt F) := fun c b => m (c, b)
/-- The same read at the TensorCore's references. -/
abbrev C0 : Contents (F := F) := fun c b => B0 m c b
/-- At region 0's exit: its arrays at what the pipeline leaves, every other buffer as entered. -/
def B1 (c : Dev nD) : Valuation τ sig (Elt F) :=
  Pipeline.withArrays spec0 c (B0 m  c) fun w => (R0.dat (C0 m ) c).arrAt w cfg0.N
theorem B1_arr (c : Dev nD) (w : Fin cfg0.W) :
    B1 m R0 c (Proc.devRef .tc (Pipeline.arrRef spec0 w)) = (R0.dat (C0 m ) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m R0 c (Proc.devRef .tc b) = B0 m  c (Proc.devRef .tc b) := by
  unfold B1; exact Pipeline.withArrays_of_ne spec0 c _ _ b hb
/-- The same read at the TensorCore's references. -/
abbrev C1 : Contents (F := F) := fun c b => B1 m R0 c b
/-- After the host stretch `hostOps1`. -/
abbrev B2 : Dev nD → Valuation τ sig (Elt F) := fun c => StableHlo.after hostOps1 (B1 m R0 c)
abbrev C2 : Contents (F := F) := fun c b => B2 m R0 c b
/-- At region 1's exit: its arrays at what the pipeline leaves, every other buffer as entered. -/
def B3 (c : Dev nD) : Valuation τ sig (Elt F) :=
  Pipeline.withArrays spec1 c (B2 m R0 c) fun w => (R1.dat (C2 m R0) c).arrAt w cfg1.N
theorem B3_arr (c : Dev nD) (w : Fin cfg1.W) :
    B3 m R0 R1 c (Proc.devRef .tc (Pipeline.arrRef spec1 w)) = (R1.dat (C2 m R0) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m R0 R1 c (Proc.devRef .tc b) = B2 m R0 c (Proc.devRef .tc b) := by
  unfold B3; exact Pipeline.withArrays_of_ne spec1 c _ _ b hb
/-- The same read at the TensorCore's references. -/
abbrev C3 : Contents (F := F) := fun c b => B3 m R0 R1 c b
/-- After the host stretch `hostOps2`. -/
abbrev B4 : Dev nD → Valuation τ sig (Elt F) := fun c => StableHlo.after hostOps2 (B3 m R0 R1 c)
abbrev C4 : Contents (F := F) := fun c b => B4 m R0 R1 c b
/-- At region 2's exit: its arrays at what the pipeline leaves, every other buffer as entered. -/
def B5 (c : Dev nD) : Valuation τ sig (Elt F) :=
  Pipeline.withArrays spec2 c (B4 m R0 R1 c) fun w => (R2.dat (C4 m R0 R1) c).arrAt w cfg2.N
theorem B5_arr (c : Dev nD) (w : Fin cfg2.W) :
    B5 m R0 R1 R2 c (Proc.devRef .tc (Pipeline.arrRef spec2 w)) = (R2.dat (C4 m R0 R1) c).arrAt w cfg2.N := by
  unfold B5; exact Pipeline.withArrays_arr spec2 launch2.win.arr_inj c _ _ w
theorem B5_of_ne (c : Dev nD) (b : Ref sig .tc) (hb : ∀ w, Pipeline.arrRef spec2 w ≠ b) :
    B5 m R0 R1 R2 c (Proc.devRef .tc b) = B4 m R0 R1 c (Proc.devRef .tc b) := by
  unfold B5; exact Pipeline.withArrays_of_ne spec2 c _ _ b hb
/-- The same read at the TensorCore's references. -/
abbrev C5 : Contents (F := F) := fun c b => B5 m R0 R1 R2 c b
/-- After the host stretch `hostOps3`. -/
abbrev B6 : Dev nD → Valuation τ sig (Elt F) := fun c => StableHlo.after hostOps3 (B5 m R0 R1 R2 c)
abbrev C6 : Contents (F := F) := fun c b => B6 m R0 R1 R2 c b
/-- At region 3's exit: its arrays at what the pipeline leaves, every other buffer as entered. -/
def B7 (c : Dev nD) : Valuation τ sig (Elt F) :=
  Pipeline.withArrays spec3 c (B6 m R0 R1 R2 c) fun w => (R3.dat (C6 m R0 R1 R2) c).arrAt w cfg3.N
theorem B7_arr (c : Dev nD) (w : Fin cfg3.W) :
    B7 m R0 R1 R2 R3 c (Proc.devRef .tc (Pipeline.arrRef spec3 w)) = (R3.dat (C6 m R0 R1 R2) c).arrAt w cfg3.N := by
  unfold B7; exact Pipeline.withArrays_arr spec3 launch3.win.arr_inj c _ _ w
theorem B7_of_ne (c : Dev nD) (b : Ref sig .tc) (hb : ∀ w, Pipeline.arrRef spec3 w ≠ b) :
    B7 m R0 R1 R2 R3 c (Proc.devRef .tc b) = B6 m R0 R1 R2 c (Proc.devRef .tc b) := by
  unfold B7; exact Pipeline.withArrays_of_ne spec3 c _ _ b hb
/-- The same read at the TensorCore's references. -/
abbrev C7 : Contents (F := F) := fun c b => B7 m R0 R1 R2 R3 c b
/-- After the host stretch `hostOps4`. -/
abbrev B8 : Dev nD → Valuation τ sig (Elt F) := fun c => StableHlo.after hostOps4 (B7 m R0 R1 R2 R3 c)
abbrev C8 : Contents (F := F) := fun c b => B8 m R0 R1 R2 R3 c b
/-- At region 4's exit: its arrays at what the pipeline leaves, every other buffer as entered. -/
def B9 (c : Dev nD) : Valuation τ sig (Elt F) :=
  Pipeline.withArrays spec4 c (B8 m R0 R1 R2 R3 c) fun w => (R4.dat (C8 m R0 R1 R2 R3) c).arrAt w cfg4.N
theorem B9_arr (c : Dev nD) (w : Fin cfg4.W) :
    B9 m R0 R1 R2 R3 R4 c (Proc.devRef .tc (Pipeline.arrRef spec4 w)) = (R4.dat (C8 m R0 R1 R2 R3) c).arrAt w cfg4.N := by
  unfold B9; exact Pipeline.withArrays_arr spec4 launch4.win.arr_inj c _ _ w
theorem B9_of_ne (c : Dev nD) (b : Ref sig .tc) (hb : ∀ w, Pipeline.arrRef spec4 w ≠ b) :
    B9 m R0 R1 R2 R3 R4 c (Proc.devRef .tc b) = B8 m R0 R1 R2 R3 c (Proc.devRef .tc b) := by
  unfold B9; exact Pipeline.withArrays_of_ne spec4 c _ _ b hb
/-- The same read at the TensorCore's references. -/
abbrev C9 : Contents (F := F) := fun c b => B9 m R0 R1 R2 R3 R4 c b
/-- At region 5's exit: its output array at what the pipeline leaves, every other buffer (the shared input array among
    them) as entered. -/
def B10 (c : Dev nD) : Valuation τ sig (Elt F) :=
  Function.update (B9 m R0 R1 R2 R3 R4 c) (Proc.devRef .tc (Pipeline.arrRef spec5 2)) ((R5.dat (C9 m R0 R1 R2 R3 R4) c).arrAt 2 cfg5.N)
theorem B10_out (c : Dev nD) :
    B10 m R0 R1 R2 R3 R4 R5 c (Proc.devRef .tc (Pipeline.arrRef spec5 2)) = (R5.dat (C9 m R0 R1 R2 R3 R4) c).arrAt 2 cfg5.N := by
  unfold B10; exact Function.update_self _ _ _
theorem B10_of_ne (c : Dev nD) (b : Ref sig .tc) (hb : Pipeline.arrRef spec5 2 ≠ b) :
    B10 m R0 R1 R2 R3 R4 R5 c (Proc.devRef .tc b) = B9 m R0 R1 R2 R3 R4 c (Proc.devRef .tc b) := by
  unfold B10; exact Function.update_of_ne (StableHlo.devRef_ne_of_ne (Ne.symm hb)) _ _
/-- The same read at the TensorCore's references. -/
abbrev C10 : Contents (F := F) := fun c b => B10 m R0 R1 R2 R3 R4 R5 c b
/-- After the host stretch `hostOps6`. -/
abbrev B11 : Dev nD → Valuation τ sig (Elt F) := fun c => StableHlo.after hostOps6 (B10 m R0 R1 R2 R3 R4 R5 c)
abbrev C11 : Contents (F := F) := fun c b => B11 m R0 R1 R2 R3 R4 R5 c b
/-- At region 6's exit: its arrays at what the pipeline leaves, every other buffer as entered. -/
def B12 (c : Dev nD) : Valuation τ sig (Elt F) :=
  Pipeline.withArrays spec6 c (B11 m R0 R1 R2 R3 R4 R5 c) fun w => (R6.dat (C11 m R0 R1 R2 R3 R4 R5) c).arrAt w cfg6.N
theorem B12_arr (c : Dev nD) (w : Fin cfg6.W) :
    B12 m R0 R1 R2 R3 R4 R5 R6 c (Proc.devRef .tc (Pipeline.arrRef spec6 w)) = (R6.dat (C11 m R0 R1 R2 R3 R4 R5) c).arrAt w cfg6.N := by
  unfold B12; exact Pipeline.withArrays_arr spec6 launch6.win.arr_inj c _ _ w
theorem B12_of_ne (c : Dev nD) (b : Ref sig .tc) (hb : ∀ w, Pipeline.arrRef spec6 w ≠ b) :
    B12 m R0 R1 R2 R3 R4 R5 R6 c (Proc.devRef .tc b) = B11 m R0 R1 R2 R3 R4 R5 c (Proc.devRef .tc b) := by
  unfold B12; exact Pipeline.withArrays_of_ne spec6 c _ _ b hb
/-- The same read at the TensorCore's references. -/
abbrev C12 : Contents (F := F) := fun c b => B12 m R0 R1 R2 R3 R4 R5 R6 c b
/-- After the host stretch `hostOps7`. -/
abbrev B13 : Dev nD → Valuation τ sig (Elt F) := fun c => StableHlo.after hostOps7 (B12 m R0 R1 R2 R3 R4 R5 R6 c)
abbrev C13 : Contents (F := F) := fun c b => B13 m R0 R1 R2 R3 R4 R5 R6 c b
/-- At region 7's exit: its arrays at what the pipeline leaves, every other buffer as entered. -/
def B14 (c : Dev nD) : Valuation τ sig (Elt F) :=
  Pipeline.withArrays spec7 c (B13 m R0 R1 R2 R3 R4 R5 R6 c) fun w => (R7.dat (C13 m R0 R1 R2 R3 R4 R5 R6) c).arrAt w cfg7.N
theorem B14_arr (c : Dev nD) (w : Fin cfg7.W) :
    B14 m R0 R1 R2 R3 R4 R5 R6 R7 c (Proc.devRef .tc (Pipeline.arrRef spec7 w)) = (R7.dat (C13 m R0 R1 R2 R3 R4 R5 R6) c).arrAt w cfg7.N := by
  unfold B14; exact Pipeline.withArrays_arr spec7 launch7.win.arr_inj c _ _ w
theorem B14_of_ne (c : Dev nD) (b : Ref sig .tc) (hb : ∀ w, Pipeline.arrRef spec7 w ≠ b) :
    B14 m R0 R1 R2 R3 R4 R5 R6 R7 c (Proc.devRef .tc b) = B13 m R0 R1 R2 R3 R4 R5 R6 c (Proc.devRef .tc b) := by
  unfold B14; exact Pipeline.withArrays_of_ne spec7 c _ _ b hb
/-- The same read at the TensorCore's references. -/
abbrev C14 : Contents (F := F) := fun c b => B14 m R0 R1 R2 R3 R4 R5 R6 R7 c b

/-! ## What each item leaves unchanged -/

/-- Region 0 changes its output array alone: an input window's array ends as it was entered, and no other buffer is touched. -/
theorem B1_keep (c : Dev nD) (r : Ref sig .tc) (h : Pipeline.arrRef spec0 1 ≠ r) :
    B1 m R0 c (Proc.devRef .tc r) = B0 m  c (Proc.devRef .tc r) := by
  by_cases hr : ∃ w, Pipeline.arrRef spec0 w = r
  · obtain ⟨w, rfl⟩ := hr
    match w with
    | ⟨0, _⟩ => exact (B1_arr m R0 c 0).trans (((R0.dat (C0 m ) c).arrAt_in 0 rfl _).trans (R0.A_eq (C0 m ) c 0))
    | ⟨1, _⟩ => exact absurd rfl h
  · exact B1_of_ne m R0 c r fun w e => hr ⟨w, e⟩
/-- The host stretch `hostOps1` writes its one result alone. -/
theorem B2_keep (c : Dev nD) (r : Ref sig .tc) (h : r ∉ hostOps1_W) :
    B2 m R0 c (Proc.devRef .tc r) = B1 m R0 c (Proc.devRef .tc r) :=
  StableHlo.after_of_writes_sub hostOps1 _ hostOps1_writes h
/-- Region 1 changes its output array alone: an input window's array ends as it was entered, and no other buffer is touched. -/
theorem B3_keep (c : Dev nD) (r : Ref sig .tc) (h : Pipeline.arrRef spec1 3 ≠ r) :
    B3 m R0 R1 c (Proc.devRef .tc r) = B2 m R0 c (Proc.devRef .tc r) := by
  by_cases hr : ∃ w, Pipeline.arrRef spec1 w = r
  · obtain ⟨w, rfl⟩ := hr
    match w with
    | ⟨0, _⟩ => exact (B3_arr m R0 R1 c 0).trans (((R1.dat (C2 m R0) c).arrAt_in 0 rfl _).trans (R1.A_eq (C2 m R0) c 0))
    | ⟨1, _⟩ => exact (B3_arr m R0 R1 c 1).trans (((R1.dat (C2 m R0) c).arrAt_in 1 rfl _).trans (R1.A_eq (C2 m R0) c 1))
    | ⟨2, _⟩ => exact (B3_arr m R0 R1 c 2).trans (((R1.dat (C2 m R0) c).arrAt_in 2 rfl _).trans (R1.A_eq (C2 m R0) c 2))
    | ⟨3, _⟩ => exact absurd rfl h
  · exact B3_of_ne m R0 R1 c r fun w e => hr ⟨w, e⟩
/-- The host stretch `hostOps2` writes its one result alone. -/
theorem B4_keep (c : Dev nD) (r : Ref sig .tc) (h : r ∉ hostOps2_W) :
    B4 m R0 R1 c (Proc.devRef .tc r) = B3 m R0 R1 c (Proc.devRef .tc r) :=
  StableHlo.after_of_writes_sub hostOps2 _ hostOps2_writes h
/-- Region 2 changes its output array alone: an input window's array ends as it was entered, and no other buffer is touched. -/
theorem B5_keep (c : Dev nD) (r : Ref sig .tc) (h : Pipeline.arrRef spec2 4 ≠ r) :
    B5 m R0 R1 R2 c (Proc.devRef .tc r) = B4 m R0 R1 c (Proc.devRef .tc r) := by
  by_cases hr : ∃ w, Pipeline.arrRef spec2 w = r
  · obtain ⟨w, rfl⟩ := hr
    match w with
    | ⟨0, _⟩ => exact (B5_arr m R0 R1 R2 c 0).trans (((R2.dat (C4 m R0 R1) c).arrAt_in 0 rfl _).trans (R2.A_eq (C4 m R0 R1) c 0))
    | ⟨1, _⟩ => exact (B5_arr m R0 R1 R2 c 1).trans (((R2.dat (C4 m R0 R1) c).arrAt_in 1 rfl _).trans (R2.A_eq (C4 m R0 R1) c 1))
    | ⟨2, _⟩ => exact (B5_arr m R0 R1 R2 c 2).trans (((R2.dat (C4 m R0 R1) c).arrAt_in 2 rfl _).trans (R2.A_eq (C4 m R0 R1) c 2))
    | ⟨3, _⟩ => exact (B5_arr m R0 R1 R2 c 3).trans (((R2.dat (C4 m R0 R1) c).arrAt_in 3 rfl _).trans (R2.A_eq (C4 m R0 R1) c 3))
    | ⟨4, _⟩ => exact absurd rfl h
  · exact B5_of_ne m R0 R1 R2 c r fun w e => hr ⟨w, e⟩
/-- The host stretch `hostOps3` writes its one result alone. -/
theorem B6_keep (c : Dev nD) (r : Ref sig .tc) (h : r ∉ hostOps3_W) :
    B6 m R0 R1 R2 c (Proc.devRef .tc r) = B5 m R0 R1 R2 c (Proc.devRef .tc r) :=
  StableHlo.after_of_writes_sub hostOps3 _ hostOps3_writes h
/-- Region 3 changes its output array alone: an input window's array ends as it was entered, and no other buffer is touched. -/
theorem B7_keep (c : Dev nD) (r : Ref sig .tc) (h : Pipeline.arrRef spec3 4 ≠ r) :
    B7 m R0 R1 R2 R3 c (Proc.devRef .tc r) = B6 m R0 R1 R2 c (Proc.devRef .tc r) := by
  by_cases hr : ∃ w, Pipeline.arrRef spec3 w = r
  · obtain ⟨w, rfl⟩ := hr
    match w with
    | ⟨0, _⟩ => exact (B7_arr m R0 R1 R2 R3 c 0).trans (((R3.dat (C6 m R0 R1 R2) c).arrAt_in 0 rfl _).trans (R3.A_eq (C6 m R0 R1 R2) c 0))
    | ⟨1, _⟩ => exact (B7_arr m R0 R1 R2 R3 c 1).trans (((R3.dat (C6 m R0 R1 R2) c).arrAt_in 1 rfl _).trans (R3.A_eq (C6 m R0 R1 R2) c 1))
    | ⟨2, _⟩ => exact (B7_arr m R0 R1 R2 R3 c 2).trans (((R3.dat (C6 m R0 R1 R2) c).arrAt_in 2 rfl _).trans (R3.A_eq (C6 m R0 R1 R2) c 2))
    | ⟨3, _⟩ => exact (B7_arr m R0 R1 R2 R3 c 3).trans (((R3.dat (C6 m R0 R1 R2) c).arrAt_in 3 rfl _).trans (R3.A_eq (C6 m R0 R1 R2) c 3))
    | ⟨4, _⟩ => exact absurd rfl h
  · exact B7_of_ne m R0 R1 R2 R3 c r fun w e => hr ⟨w, e⟩
/-- The host stretch `hostOps4` writes its one result alone. -/
theorem B8_keep (c : Dev nD) (r : Ref sig .tc) (h : r ∉ hostOps4_W) :
    B8 m R0 R1 R2 R3 c (Proc.devRef .tc r) = B7 m R0 R1 R2 R3 c (Proc.devRef .tc r) :=
  StableHlo.after_of_writes_sub hostOps4 _ hostOps4_writes h
/-- Region 4 changes its output array alone: an input window's array ends as it was entered, and no other buffer is touched. -/
theorem B9_keep (c : Dev nD) (r : Ref sig .tc) (h : Pipeline.arrRef spec4 4 ≠ r) :
    B9 m R0 R1 R2 R3 R4 c (Proc.devRef .tc r) = B8 m R0 R1 R2 R3 c (Proc.devRef .tc r) := by
  by_cases hr : ∃ w, Pipeline.arrRef spec4 w = r
  · obtain ⟨w, rfl⟩ := hr
    match w with
    | ⟨0, _⟩ => exact (B9_arr m R0 R1 R2 R3 R4 c 0).trans (((R4.dat (C8 m R0 R1 R2 R3) c).arrAt_in 0 rfl _).trans (R4.A_eq (C8 m R0 R1 R2 R3) c 0))
    | ⟨1, _⟩ => exact (B9_arr m R0 R1 R2 R3 R4 c 1).trans (((R4.dat (C8 m R0 R1 R2 R3) c).arrAt_in 1 rfl _).trans (R4.A_eq (C8 m R0 R1 R2 R3) c 1))
    | ⟨2, _⟩ => exact (B9_arr m R0 R1 R2 R3 R4 c 2).trans (((R4.dat (C8 m R0 R1 R2 R3) c).arrAt_in 2 rfl _).trans (R4.A_eq (C8 m R0 R1 R2 R3) c 2))
    | ⟨3, _⟩ => exact (B9_arr m R0 R1 R2 R3 R4 c 3).trans (((R4.dat (C8 m R0 R1 R2 R3) c).arrAt_in 3 rfl _).trans (R4.A_eq (C8 m R0 R1 R2 R3) c 3))
    | ⟨4, _⟩ => exact absurd rfl h
  · exact B9_of_ne m R0 R1 R2 R3 R4 c r fun w e => hr ⟨w, e⟩
/-- Region 5 changes its output array alone. -/
theorem B10_keep (c : Dev nD) (r : Ref sig .tc) (h : Pipeline.arrRef spec5 2 ≠ r) :
    B10 m R0 R1 R2 R3 R4 R5 c (Proc.devRef .tc r) = B9 m R0 R1 R2 R3 R4 c (Proc.devRef .tc r) := B10_of_ne m R0 R1 R2 R3 R4 R5 c r h
/-- The host stretch `hostOps6` writes its one result alone. -/
theorem B11_keep (c : Dev nD) (r : Ref sig .tc) (h : r ∉ hostOps6_W) :
    B11 m R0 R1 R2 R3 R4 R5 c (Proc.devRef .tc r) = B10 m R0 R1 R2 R3 R4 R5 c (Proc.devRef .tc r) :=
  StableHlo.after_of_writes_sub hostOps6 _ hostOps6_writes h
/-- Region 6 changes its output array alone: an input window's array ends as it was entered, and no other buffer is touched. -/
theorem B12_keep (c : Dev nD) (r : Ref sig .tc) (h : Pipeline.arrRef spec6 4 ≠ r) :
    B12 m R0 R1 R2 R3 R4 R5 R6 c (Proc.devRef .tc r) = B11 m R0 R1 R2 R3 R4 R5 c (Proc.devRef .tc r) := by
  by_cases hr : ∃ w, Pipeline.arrRef spec6 w = r
  · obtain ⟨w, rfl⟩ := hr
    match w with
    | ⟨0, _⟩ => exact (B12_arr m R0 R1 R2 R3 R4 R5 R6 c 0).trans (((R6.dat (C11 m R0 R1 R2 R3 R4 R5) c).arrAt_in 0 rfl _).trans (R6.A_eq (C11 m R0 R1 R2 R3 R4 R5) c 0))
    | ⟨1, _⟩ => exact (B12_arr m R0 R1 R2 R3 R4 R5 R6 c 1).trans (((R6.dat (C11 m R0 R1 R2 R3 R4 R5) c).arrAt_in 1 rfl _).trans (R6.A_eq (C11 m R0 R1 R2 R3 R4 R5) c 1))
    | ⟨2, _⟩ => exact (B12_arr m R0 R1 R2 R3 R4 R5 R6 c 2).trans (((R6.dat (C11 m R0 R1 R2 R3 R4 R5) c).arrAt_in 2 rfl _).trans (R6.A_eq (C11 m R0 R1 R2 R3 R4 R5) c 2))
    | ⟨3, _⟩ => exact (B12_arr m R0 R1 R2 R3 R4 R5 R6 c 3).trans (((R6.dat (C11 m R0 R1 R2 R3 R4 R5) c).arrAt_in 3 rfl _).trans (R6.A_eq (C11 m R0 R1 R2 R3 R4 R5) c 3))
    | ⟨4, _⟩ => exact absurd rfl h
  · exact B12_of_ne m R0 R1 R2 R3 R4 R5 R6 c r fun w e => hr ⟨w, e⟩
/-- The host stretch `hostOps7` writes its one result alone. -/
theorem B13_keep (c : Dev nD) (r : Ref sig .tc) (h : r ∉ hostOps7_W) :
    B13 m R0 R1 R2 R3 R4 R5 R6 c (Proc.devRef .tc r) = B12 m R0 R1 R2 R3 R4 R5 R6 c (Proc.devRef .tc r) :=
  StableHlo.after_of_writes_sub hostOps7 _ hostOps7_writes h
/-- Region 7 changes its output array alone: an input window's array ends as it was entered, and no other buffer is touched. -/
theorem B14_keep (c : Dev nD) (r : Ref sig .tc) (h : Pipeline.arrRef spec7 4 ≠ r) :
    B14 m R0 R1 R2 R3 R4 R5 R6 R7 c (Proc.devRef .tc r) = B13 m R0 R1 R2 R3 R4 R5 R6 c (Proc.devRef .tc r) := by
  by_cases hr : ∃ w, Pipeline.arrRef spec7 w = r
  · obtain ⟨w, rfl⟩ := hr
    match w with
    | ⟨0, _⟩ => exact (B14_arr m R0 R1 R2 R3 R4 R5 R6 R7 c 0).trans (((R7.dat (C13 m R0 R1 R2 R3 R4 R5 R6) c).arrAt_in 0 rfl _).trans (R7.A_eq (C13 m R0 R1 R2 R3 R4 R5 R6) c 0))
    | ⟨1, _⟩ => exact (B14_arr m R0 R1 R2 R3 R4 R5 R6 R7 c 1).trans (((R7.dat (C13 m R0 R1 R2 R3 R4 R5 R6) c).arrAt_in 1 rfl _).trans (R7.A_eq (C13 m R0 R1 R2 R3 R4 R5 R6) c 1))
    | ⟨2, _⟩ => exact (B14_arr m R0 R1 R2 R3 R4 R5 R6 R7 c 2).trans (((R7.dat (C13 m R0 R1 R2 R3 R4 R5 R6) c).arrAt_in 2 rfl _).trans (R7.A_eq (C13 m R0 R1 R2 R3 R4 R5 R6) c 2))
    | ⟨3, _⟩ => exact (B14_arr m R0 R1 R2 R3 R4 R5 R6 R7 c 3).trans (((R7.dat (C13 m R0 R1 R2 R3 R4 R5 R6) c).arrAt_in 3 rfl _).trans (R7.A_eq (C13 m R0 R1 R2 R3 R4 R5 R6) c 3))
    | ⟨4, _⟩ => exact absurd rfl h
  · exact B14_of_ne m R0 R1 R2 R3 R4 R5 R6 R7 c r fun w e => hr ⟨w, e⟩

/-! ## The proof data family and the thread state -/

/-- Every pipeline's proof data, each at its region's entry contents: a literal match on the pipeline. -/
def pdats : (p : Fin 8) → (c : Dev nD) → Dat τ (Elt F) Unit ℕ (UR sig nD τ) ℕ (Pipeline.pin (pcfgs (F := F)) adm p) c
  | ⟨0, _⟩ => fun c => R0.dat (C0 m ) c
  | ⟨1, _⟩ => fun c => R1.dat (C2 m R0) c
  | ⟨2, _⟩ => fun c => R2.dat (C4 m R0 R1) c
  | ⟨3, _⟩ => fun c => R3.dat (C6 m R0 R1 R2) c
  | ⟨4, _⟩ => fun c => R4.dat (C8 m R0 R1 R2 R3) c
  | ⟨5, _⟩ => fun c => R5.dat (C9 m R0 R1 R2 R3 R4) c
  | ⟨6, _⟩ => fun c => R6.dat (C11 m R0 R1 R2 R3 R4 R5) c
  | ⟨7, _⟩ => fun c => R7.dat (C13 m R0 R1 R2 R3 R4 R5 R6) c

abbrev 𝒱₀ : Variants := Variants.none
/-- No core owes another anything: no level is assigned. -/
abbrev Lv : GSem nD τ sig → Finset Unit := fun _ => ∅
abbrev lv : GSem nD τ sig → Unit → ℕ := fun _ _ => 0
/-- What rides beside the buffers through every segment: the core's generator register at some state and its dues, at
    nothing. -/
abbrev Rest (c : Dev nD) : sProp 𝕄 := iprop((∃ r, prngReg c r) ∗ ∃ W, owes (c : Thread nD τ) (0 : CellTallies nD τ sig Unit) W)
/-- A host stretch as a segment over the unscoped references from the contents `W`, `Rest` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lv lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register
    at some state. -/
abbrev Tₙ (c : Dev nD) : sProp 𝕄 := iprop(StableHlo.held (c : Thread nD τ) (Pipeline.ucRefs τ sig) (B14 m R0 R1 R2 R3 R4 R5 R6 R7 c) ∗ ∃ r, prngReg c r)

/-! ## The regions as segments -/

theorem hF0 (c : Dev nD) (w : Fin cfg0.W) : (R0.dat (C0 m ) c).arrAt w cfg0.N = C1 m R0 c (Pipeline.arrRef spec0 w) :=
  (B1_arr m R0 c w).symm
theorem hrest0 (c : Dev nD) : ∀ b, b ∉ Finset.univ.image (Pipeline.arrRef spec0) → C1 m R0 c b = C0 m  c b :=
  fun b hb => B1_of_ne m R0 c b fun w e => hb (Finset.mem_image.mpr ⟨w, Finset.mem_univ _, e⟩)

set_option backward.isDefEq.respectTransparency.types false in
/-- REGION 0 over the thread state: entered from every unscoped buffer at its entry contents, left at its exit contents.
    Its arrays are split out of the unscoped buffers and put back at the exit contents; the generator register goes into
    the class invariant and comes out; nothing is owed; the kernel has no semaphore of its own. -/
def reg0 : Pipeline.RegionSeg (pcfgs (F := F)) adm (pdats m R0 R1 R2 R3 R4 R5 R6 R7) () defs₀ 𝒱₀ Lv lv 0 where
  win := launch0.win.to₀
  block_pos := launch0.block_pos
  stage_whole := launch0.stage_whole
  K := PEmpty
  osem k := k.elim
  ho := Pipeline.OwnSemFacts.none _
  hbody c := (R0.body (C0 m ) c).loose
  hwaits := Pipeline.hwaits_of_owed_zero _ _ _ _ Lv lv 0 fun c t => R0.owed_eq (C0 m ) c t
  pre c := iprop(StableHlo.held (c : Thread nD τ) (Pipeline.ucRefs τ sig) (B0 m  c) ∗ Rest c)
  post c := iprop(StableHlo.held (c : Thread nD τ) (Pipeline.ucRefs τ sig) (B1 m R0 c) ∗ Rest c)
  X c := iprop(∃ r, prngReg c r)
  Y c := iprop(∃ r, prngReg c r)
  Z c := Pipeline.unscopedRest (Ix := Unit) (Name := ℕ) (U := UR sig nD τ) (Lvl := ℕ) spec0 c (C0 m  c)
  hentry c := by
    rw [Pipeline.ownSems0_none]
    have hsplit := Pipeline.arrays_of_unscopedBufs (p := 0) (pcfgs (F := F)) adm (pdats m R0 R1 R2 R3 R4 R5 R6 R7) launch0.win launch0.arr_whole c
      ((pdats m R0 R1 R2 R3 R4 R5 R6 R7 0 c).share_full fun w => R0.q_eq (C0 m ) c w) (C0 m  c) fun w => R0.A_eq (C0 m ) c w
    rw [Pipeline.unscopedBufs_held] at hsplit
    have howes := owesAt_of (R0.dat (C0 m ) c) 0 (R0.owed_eq (C0 m ) c 0) (R0.rec_eq (C0 m ) c 0)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply howes; iexact HO
    isplitl [Hp]; · iexact Hp
    iexact Hrest
  hin c := by
    rw [show (pdats m R0 R1 R2 R3 R4 R5 R6 R7 0 c).Φ 0 = (R0.dat (C0 m ) c).Φ 0 from rfl]
    have h := R0.hin (C0 m ) c
    unfold Pipeline.ΦA at h
    iintro ⟨Hp, -, Hr⟩
    iapply h
    isplitl [Hr]; · iexact Hr
    iexact Hp
  hout c := by
    rw [Pipeline.ownSems0_none, show (pdats m R0 R1 R2 R3 R4 R5 R6 R7 0 c).Φ (Fin.last _) = (R0.dat (C0 m ) c).Φ (Fin.last cfg0.N) from rfl]
    have h := R0.hout (C0 m ) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m R0 R1 R2 R3 R4 R5 R6 R7) ((pdats m R0 R1 R2 R3 R4 R5 R6 R7 0 c).share_full fun w => R0.q_eq (C0 m ) c w)
      (C0 m  c) (C1 m R0 c) ((pdats m R0 R1 R2 R3 R4 R5 R6 R7 0 c).arrAt · cfg0.N) (hF0 m R0 c) (hrest0 m R0 c)
    rw [Pipeline.unscopedBufs_held] at hjoin
    have howes := of_owesAt (R0.dat (C0 m ) c) (Fin.last cfg0.N) (R0.owed_eq (C0 m ) c (Fin.last cfg0.N))
    iintro ⟨Ha, HO, HY, Hrest⟩
    imodintro
    isplitl [Ha Hrest]
    · iapply hjoin; isplitl [Ha] <;> iassumption
    isplitl [HY]; · iexact HY
    iapply howes; iexact HO

theorem hF1 (c : Dev nD) (w : Fin cfg1.W) : (R1.dat (C2 m R0) c).arrAt w cfg1.N = C3 m R0 R1 c (Pipeline.arrRef spec1 w) :=
  (B3_arr m R0 R1 c w).symm
theorem hrest1 (c : Dev nD) : ∀ b, b ∉ Finset.univ.image (Pipeline.arrRef spec1) → C3 m R0 R1 c b = C2 m R0 c b :=
  fun b hb => B3_of_ne m R0 R1 c b fun w e => hb (Finset.mem_image.mpr ⟨w, Finset.mem_univ _, e⟩)

set_option backward.isDefEq.respectTransparency.types false in
/-- REGION 1 over the thread state: entered from every unscoped buffer at its entry contents, left at its exit contents.
    Its arrays are split out of the unscoped buffers and put back at the exit contents; the generator register goes into
    the class invariant and comes out; nothing is owed; the kernel has no semaphore of its own. -/
def reg1 : Pipeline.RegionSeg (pcfgs (F := F)) adm (pdats m R0 R1 R2 R3 R4 R5 R6 R7) () defs₀ 𝒱₀ Lv lv 1 where
  win := launch1.win.to₀
  block_pos := launch1.block_pos
  stage_whole := launch1.stage_whole
  K := PEmpty
  osem k := k.elim
  ho := Pipeline.OwnSemFacts.none _
  hbody c := (R1.body (C2 m R0) c).loose
  hwaits := Pipeline.hwaits_of_owed_zero _ _ _ _ Lv lv 1 fun c t => R1.owed_eq (C2 m R0) c t
  pre c := iprop(StableHlo.held (c : Thread nD τ) (Pipeline.ucRefs τ sig) (B2 m R0 c) ∗ Rest c)
  post c := iprop(StableHlo.held (c : Thread nD τ) (Pipeline.ucRefs τ sig) (B3 m R0 R1 c) ∗ Rest c)
  X c := iprop(∃ r, prngReg c r)
  Y c := iprop(∃ r, prngReg c r)
  Z c := Pipeline.unscopedRest (Ix := Unit) (Name := ℕ) (U := UR sig nD τ) (Lvl := ℕ) spec1 c (C2 m R0 c)
  hentry c := by
    rw [Pipeline.ownSems0_none]
    have hsplit := Pipeline.arrays_of_unscopedBufs (p := 1) (pcfgs (F := F)) adm (pdats m R0 R1 R2 R3 R4 R5 R6 R7) launch1.win launch1.arr_whole c
      ((pdats m R0 R1 R2 R3 R4 R5 R6 R7 1 c).share_full fun w => R1.q_eq (C2 m R0) c w) (C2 m R0 c) fun w => R1.A_eq (C2 m R0) c w
    rw [Pipeline.unscopedBufs_held] at hsplit
    have howes := owesAt_of (R1.dat (C2 m R0) c) 0 (R1.owed_eq (C2 m R0) c 0) (R1.rec_eq (C2 m R0) c 0)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply howes; iexact HO
    isplitl [Hp]; · iexact Hp
    iexact Hrest
  hin c := by
    rw [show (pdats m R0 R1 R2 R3 R4 R5 R6 R7 1 c).Φ 0 = (R1.dat (C2 m R0) c).Φ 0 from rfl]
    have h := R1.hin (C2 m R0) c
    unfold Pipeline.ΦA at h
    iintro ⟨Hp, -, Hr⟩
    iapply h
    isplitl [Hr]; · iexact Hr
    iexact Hp
  hout c := by
    rw [Pipeline.ownSems0_none, show (pdats m R0 R1 R2 R3 R4 R5 R6 R7 1 c).Φ (Fin.last _) = (R1.dat (C2 m R0) c).Φ (Fin.last cfg1.N) from rfl]
    have h := R1.hout (C2 m R0) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m R0 R1 R2 R3 R4 R5 R6 R7) ((pdats m R0 R1 R2 R3 R4 R5 R6 R7 1 c).share_full fun w => R1.q_eq (C2 m R0) c w)
      (C2 m R0 c) (C3 m R0 R1 c) ((pdats m R0 R1 R2 R3 R4 R5 R6 R7 1 c).arrAt · cfg1.N) (hF1 m R0 R1 c) (hrest1 m R0 R1 c)
    rw [Pipeline.unscopedBufs_held] at hjoin
    have howes := of_owesAt (R1.dat (C2 m R0) c) (Fin.last cfg1.N) (R1.owed_eq (C2 m R0) c (Fin.last cfg1.N))
    iintro ⟨Ha, HO, HY, Hrest⟩
    imodintro
    isplitl [Ha Hrest]
    · iapply hjoin; isplitl [Ha] <;> iassumption
    isplitl [HY]; · iexact HY
    iapply howes; iexact HO

theorem hF2 (c : Dev nD) (w : Fin cfg2.W) : (R2.dat (C4 m R0 R1) c).arrAt w cfg2.N = C5 m R0 R1 R2 c (Pipeline.arrRef spec2 w) :=
  (B5_arr m R0 R1 R2 c w).symm
theorem hrest2 (c : Dev nD) : ∀ b, b ∉ Finset.univ.image (Pipeline.arrRef spec2) → C5 m R0 R1 R2 c b = C4 m R0 R1 c b :=
  fun b hb => B5_of_ne m R0 R1 R2 c b fun w e => hb (Finset.mem_image.mpr ⟨w, Finset.mem_univ _, e⟩)

set_option backward.isDefEq.respectTransparency.types false in
/-- REGION 2 over the thread state: entered from every unscoped buffer at its entry contents, left at its exit contents.
    Its arrays are split out of the unscoped buffers and put back at the exit contents; the generator register goes into
    the class invariant and comes out; nothing is owed; the kernel has no semaphore of its own. -/
def reg2 : Pipeline.RegionSeg (pcfgs (F := F)) adm (pdats m R0 R1 R2 R3 R4 R5 R6 R7) () defs₀ 𝒱₀ Lv lv 2 where
  win := launch2.win.to₀
  block_pos := launch2.block_pos
  stage_whole := launch2.stage_whole
  K := PEmpty
  osem k := k.elim
  ho := Pipeline.OwnSemFacts.none _
  hbody c := (R2.body (C4 m R0 R1) c).loose
  hwaits := Pipeline.hwaits_of_owed_zero _ _ _ _ Lv lv 2 fun c t => R2.owed_eq (C4 m R0 R1) c t
  pre c := iprop(StableHlo.held (c : Thread nD τ) (Pipeline.ucRefs τ sig) (B4 m R0 R1 c) ∗ Rest c)
  post c := iprop(StableHlo.held (c : Thread nD τ) (Pipeline.ucRefs τ sig) (B5 m R0 R1 R2 c) ∗ Rest c)
  X c := iprop(∃ r, prngReg c r)
  Y c := iprop(∃ r, prngReg c r)
  Z c := Pipeline.unscopedRest (Ix := Unit) (Name := ℕ) (U := UR sig nD τ) (Lvl := ℕ) spec2 c (C4 m R0 R1 c)
  hentry c := by
    rw [Pipeline.ownSems0_none]
    have hsplit := Pipeline.arrays_of_unscopedBufs (p := 2) (pcfgs (F := F)) adm (pdats m R0 R1 R2 R3 R4 R5 R6 R7) launch2.win launch2.arr_whole c
      ((pdats m R0 R1 R2 R3 R4 R5 R6 R7 2 c).share_full fun w => R2.q_eq (C4 m R0 R1) c w) (C4 m R0 R1 c) fun w => R2.A_eq (C4 m R0 R1) c w
    rw [Pipeline.unscopedBufs_held] at hsplit
    have howes := owesAt_of (R2.dat (C4 m R0 R1) c) 0 (R2.owed_eq (C4 m R0 R1) c 0) (R2.rec_eq (C4 m R0 R1) c 0)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply howes; iexact HO
    isplitl [Hp]; · iexact Hp
    iexact Hrest
  hin c := by
    rw [show (pdats m R0 R1 R2 R3 R4 R5 R6 R7 2 c).Φ 0 = (R2.dat (C4 m R0 R1) c).Φ 0 from rfl]
    have h := R2.hin (C4 m R0 R1) c
    unfold Pipeline.ΦA at h
    iintro ⟨Hp, -, Hr⟩
    iapply h
    isplitl [Hr]; · iexact Hr
    iexact Hp
  hout c := by
    rw [Pipeline.ownSems0_none, show (pdats m R0 R1 R2 R3 R4 R5 R6 R7 2 c).Φ (Fin.last _) = (R2.dat (C4 m R0 R1) c).Φ (Fin.last cfg2.N) from rfl]
    have h := R2.hout (C4 m R0 R1) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m R0 R1 R2 R3 R4 R5 R6 R7) ((pdats m R0 R1 R2 R3 R4 R5 R6 R7 2 c).share_full fun w => R2.q_eq (C4 m R0 R1) c w)
      (C4 m R0 R1 c) (C5 m R0 R1 R2 c) ((pdats m R0 R1 R2 R3 R4 R5 R6 R7 2 c).arrAt · cfg2.N) (hF2 m R0 R1 R2 c) (hrest2 m R0 R1 R2 c)
    rw [Pipeline.unscopedBufs_held] at hjoin
    have howes := of_owesAt (R2.dat (C4 m R0 R1) c) (Fin.last cfg2.N) (R2.owed_eq (C4 m R0 R1) c (Fin.last cfg2.N))
    iintro ⟨Ha, HO, HY, Hrest⟩
    imodintro
    isplitl [Ha Hrest]
    · iapply hjoin; isplitl [Ha] <;> iassumption
    isplitl [HY]; · iexact HY
    iapply howes; iexact HO

theorem hF3 (c : Dev nD) (w : Fin cfg3.W) : (R3.dat (C6 m R0 R1 R2) c).arrAt w cfg3.N = C7 m R0 R1 R2 R3 c (Pipeline.arrRef spec3 w) :=
  (B7_arr m R0 R1 R2 R3 c w).symm
theorem hrest3 (c : Dev nD) : ∀ b, b ∉ Finset.univ.image (Pipeline.arrRef spec3) → C7 m R0 R1 R2 R3 c b = C6 m R0 R1 R2 c b :=
  fun b hb => B7_of_ne m R0 R1 R2 R3 c b fun w e => hb (Finset.mem_image.mpr ⟨w, Finset.mem_univ _, e⟩)

set_option backward.isDefEq.respectTransparency.types false in
/-- REGION 3 over the thread state: entered from every unscoped buffer at its entry contents, left at its exit contents.
    Its arrays are split out of the unscoped buffers and put back at the exit contents; the generator register goes into
    the class invariant and comes out; nothing is owed; the kernel has no semaphore of its own. -/
def reg3 : Pipeline.RegionSeg (pcfgs (F := F)) adm (pdats m R0 R1 R2 R3 R4 R5 R6 R7) () defs₀ 𝒱₀ Lv lv 3 where
  win := launch3.win.to₀
  block_pos := launch3.block_pos
  stage_whole := launch3.stage_whole
  K := PEmpty
  osem k := k.elim
  ho := Pipeline.OwnSemFacts.none _
  hbody c := (R3.body (C6 m R0 R1 R2) c).loose
  hwaits := Pipeline.hwaits_of_owed_zero _ _ _ _ Lv lv 3 fun c t => R3.owed_eq (C6 m R0 R1 R2) c t
  pre c := iprop(StableHlo.held (c : Thread nD τ) (Pipeline.ucRefs τ sig) (B6 m R0 R1 R2 c) ∗ Rest c)
  post c := iprop(StableHlo.held (c : Thread nD τ) (Pipeline.ucRefs τ sig) (B7 m R0 R1 R2 R3 c) ∗ Rest c)
  X c := iprop(∃ r, prngReg c r)
  Y c := iprop(∃ r, prngReg c r)
  Z c := Pipeline.unscopedRest (Ix := Unit) (Name := ℕ) (U := UR sig nD τ) (Lvl := ℕ) spec3 c (C6 m R0 R1 R2 c)
  hentry c := by
    rw [Pipeline.ownSems0_none]
    have hsplit := Pipeline.arrays_of_unscopedBufs (p := 3) (pcfgs (F := F)) adm (pdats m R0 R1 R2 R3 R4 R5 R6 R7) launch3.win launch3.arr_whole c
      ((pdats m R0 R1 R2 R3 R4 R5 R6 R7 3 c).share_full fun w => R3.q_eq (C6 m R0 R1 R2) c w) (C6 m R0 R1 R2 c) fun w => R3.A_eq (C6 m R0 R1 R2) c w
    rw [Pipeline.unscopedBufs_held] at hsplit
    have howes := owesAt_of (R3.dat (C6 m R0 R1 R2) c) 0 (R3.owed_eq (C6 m R0 R1 R2) c 0) (R3.rec_eq (C6 m R0 R1 R2) c 0)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply howes; iexact HO
    isplitl [Hp]; · iexact Hp
    iexact Hrest
  hin c := by
    rw [show (pdats m R0 R1 R2 R3 R4 R5 R6 R7 3 c).Φ 0 = (R3.dat (C6 m R0 R1 R2) c).Φ 0 from rfl]
    have h := R3.hin (C6 m R0 R1 R2) c
    unfold Pipeline.ΦA at h
    iintro ⟨Hp, -, Hr⟩
    iapply h
    isplitl [Hr]; · iexact Hr
    iexact Hp
  hout c := by
    rw [Pipeline.ownSems0_none, show (pdats m R0 R1 R2 R3 R4 R5 R6 R7 3 c).Φ (Fin.last _) = (R3.dat (C6 m R0 R1 R2) c).Φ (Fin.last cfg3.N) from rfl]
    have h := R3.hout (C6 m R0 R1 R2) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m R0 R1 R2 R3 R4 R5 R6 R7) ((pdats m R0 R1 R2 R3 R4 R5 R6 R7 3 c).share_full fun w => R3.q_eq (C6 m R0 R1 R2) c w)
      (C6 m R0 R1 R2 c) (C7 m R0 R1 R2 R3 c) ((pdats m R0 R1 R2 R3 R4 R5 R6 R7 3 c).arrAt · cfg3.N) (hF3 m R0 R1 R2 R3 c) (hrest3 m R0 R1 R2 R3 c)
    rw [Pipeline.unscopedBufs_held] at hjoin
    have howes := of_owesAt (R3.dat (C6 m R0 R1 R2) c) (Fin.last cfg3.N) (R3.owed_eq (C6 m R0 R1 R2) c (Fin.last cfg3.N))
    iintro ⟨Ha, HO, HY, Hrest⟩
    imodintro
    isplitl [Ha Hrest]
    · iapply hjoin; isplitl [Ha] <;> iassumption
    isplitl [HY]; · iexact HY
    iapply howes; iexact HO

theorem hF4 (c : Dev nD) (w : Fin cfg4.W) : (R4.dat (C8 m R0 R1 R2 R3) c).arrAt w cfg4.N = C9 m R0 R1 R2 R3 R4 c (Pipeline.arrRef spec4 w) :=
  (B9_arr m R0 R1 R2 R3 R4 c w).symm
theorem hrest4 (c : Dev nD) : ∀ b, b ∉ Finset.univ.image (Pipeline.arrRef spec4) → C9 m R0 R1 R2 R3 R4 c b = C8 m R0 R1 R2 R3 c b :=
  fun b hb => B9_of_ne m R0 R1 R2 R3 R4 c b fun w e => hb (Finset.mem_image.mpr ⟨w, Finset.mem_univ _, e⟩)

set_option backward.isDefEq.respectTransparency.types false in
/-- REGION 4 over the thread state: entered from every unscoped buffer at its entry contents, left at its exit contents.
    Its arrays are split out of the unscoped buffers and put back at the exit contents; the generator register goes into
    the class invariant and comes out; nothing is owed; the kernel has no semaphore of its own. -/
def reg4 : Pipeline.RegionSeg (pcfgs (F := F)) adm (pdats m R0 R1 R2 R3 R4 R5 R6 R7) () defs₀ 𝒱₀ Lv lv 4 where
  win := launch4.win.to₀
  block_pos := launch4.block_pos
  stage_whole := launch4.stage_whole
  K := PEmpty
  osem k := k.elim
  ho := Pipeline.OwnSemFacts.none _
  hbody c := (R4.body (C8 m R0 R1 R2 R3) c).loose
  hwaits := Pipeline.hwaits_of_owed_zero _ _ _ _ Lv lv 4 fun c t => R4.owed_eq (C8 m R0 R1 R2 R3) c t
  pre c := iprop(StableHlo.held (c : Thread nD τ) (Pipeline.ucRefs τ sig) (B8 m R0 R1 R2 R3 c) ∗ Rest c)
  post c := iprop(StableHlo.held (c : Thread nD τ) (Pipeline.ucRefs τ sig) (B9 m R0 R1 R2 R3 R4 c) ∗ Rest c)
  X c := iprop(∃ r, prngReg c r)
  Y c := iprop(∃ r, prngReg c r)
  Z c := Pipeline.unscopedRest (Ix := Unit) (Name := ℕ) (U := UR sig nD τ) (Lvl := ℕ) spec4 c (C8 m R0 R1 R2 R3 c)
  hentry c := by
    rw [Pipeline.ownSems0_none]
    have hsplit := Pipeline.arrays_of_unscopedBufs (p := 4) (pcfgs (F := F)) adm (pdats m R0 R1 R2 R3 R4 R5 R6 R7) launch4.win launch4.arr_whole c
      ((pdats m R0 R1 R2 R3 R4 R5 R6 R7 4 c).share_full fun w => R4.q_eq (C8 m R0 R1 R2 R3) c w) (C8 m R0 R1 R2 R3 c) fun w => R4.A_eq (C8 m R0 R1 R2 R3) c w
    rw [Pipeline.unscopedBufs_held] at hsplit
    have howes := owesAt_of (R4.dat (C8 m R0 R1 R2 R3) c) 0 (R4.owed_eq (C8 m R0 R1 R2 R3) c 0) (R4.rec_eq (C8 m R0 R1 R2 R3) c 0)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply howes; iexact HO
    isplitl [Hp]; · iexact Hp
    iexact Hrest
  hin c := by
    rw [show (pdats m R0 R1 R2 R3 R4 R5 R6 R7 4 c).Φ 0 = (R4.dat (C8 m R0 R1 R2 R3) c).Φ 0 from rfl]
    have h := R4.hin (C8 m R0 R1 R2 R3) c
    unfold Pipeline.ΦA at h
    iintro ⟨Hp, -, Hr⟩
    iapply h
    isplitl [Hr]; · iexact Hr
    iexact Hp
  hout c := by
    rw [Pipeline.ownSems0_none, show (pdats m R0 R1 R2 R3 R4 R5 R6 R7 4 c).Φ (Fin.last _) = (R4.dat (C8 m R0 R1 R2 R3) c).Φ (Fin.last cfg4.N) from rfl]
    have h := R4.hout (C8 m R0 R1 R2 R3) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m R0 R1 R2 R3 R4 R5 R6 R7) ((pdats m R0 R1 R2 R3 R4 R5 R6 R7 4 c).share_full fun w => R4.q_eq (C8 m R0 R1 R2 R3) c w)
      (C8 m R0 R1 R2 R3 c) (C9 m R0 R1 R2 R3 R4 c) ((pdats m R0 R1 R2 R3 R4 R5 R6 R7 4 c).arrAt · cfg4.N) (hF4 m R0 R1 R2 R3 R4 c) (hrest4 m R0 R1 R2 R3 R4 c)
    rw [Pipeline.unscopedBufs_held] at hjoin
    have howes := of_owesAt (R4.dat (C8 m R0 R1 R2 R3) c) (Fin.last cfg4.N) (R4.owed_eq (C8 m R0 R1 R2 R3) c (Fin.last cfg4.N))
    iintro ⟨Ha, HO, HY, Hrest⟩
    imodintro
    isplitl [Ha Hrest]
    · iapply hjoin; isplitl [Ha] <;> iassumption
    isplitl [HY]; · iexact HY
    iapply howes; iexact HO

theorem hF5 (c : Dev nD) (w : Fin cfg5.W) : (R5.dat (C9 m R0 R1 R2 R3 R4) c).arrAt w cfg5.N = C10 m R0 R1 R2 R3 R4 R5 c (Pipeline.arrRef spec5 w) := by
  match w with
  | ⟨0, _⟩ => exact (((R5.dat (C9 m R0 R1 R2 R3 R4) c).arrAt_in 0 rfl _).trans (R5.A_eq (C9 m R0 R1 R2 R3 R4) c 0)).trans (B10_of_ne m R0 R1 R2 R3 R4 R5 c _ (by decide)).symm
  | ⟨1, _⟩ => exact (((R5.dat (C9 m R0 R1 R2 R3 R4) c).arrAt_in 1 rfl _).trans (R5.A_eq (C9 m R0 R1 R2 R3 R4) c 1)).trans (B10_of_ne m R0 R1 R2 R3 R4 R5 c _ (by decide)).symm
  | ⟨2, _⟩ => exact (B10_out m R0 R1 R2 R3 R4 R5 c).symm
theorem hrest5 (c : Dev nD) : ∀ b, b ∉ Finset.univ.image (Pipeline.arrRef spec5) → C10 m R0 R1 R2 R3 R4 R5 c b = C9 m R0 R1 R2 R3 R4 c b :=
  fun b hb => B10_of_ne m R0 R1 R2 R3 R4 R5 c b fun e => hb (Finset.mem_image.mpr ⟨2, Finset.mem_univ _, e⟩)

set_option backward.isDefEq.respectTransparency.types false in
/-- REGION 5 over the thread state: entered from every unscoped buffer at its entry contents, left at its exit contents.
    Its arrays are split out of the unscoped buffers and put back at the exit contents; the generator register goes into
    the class invariant and comes out; nothing is owed; the kernel has no semaphore of its own. -/
def reg5 : Pipeline.RegionSeg (pcfgs (F := F)) adm (pdats m R0 R1 R2 R3 R4 R5 R6 R7) () defs₀ 𝒱₀ Lv lv 5 where
  win := winFacts₀5
  block_pos := block_pos5
  stage_whole := stage_whole5
  K := PEmpty
  osem k := k.elim
  ho := Pipeline.OwnSemFacts.none _
  hbody c := (R5.body (C9 m R0 R1 R2 R3 R4) c).loose
  hwaits := Pipeline.hwaits_of_owed_zero _ _ _ _ Lv lv 5 fun c t => R5.owed_eq (C9 m R0 R1 R2 R3 R4) c t
  pre c := iprop(StableHlo.held (c : Thread nD τ) (Pipeline.ucRefs τ sig) (B9 m R0 R1 R2 R3 R4 c) ∗ Rest c)
  post c := iprop(StableHlo.held (c : Thread nD τ) (Pipeline.ucRefs τ sig) (B10 m R0 R1 R2 R3 R4 R5 c) ∗ Rest c)
  X c := iprop(∃ r, prngReg c r)
  Y c := iprop(∃ r, prngReg c r)
  Z c := Pipeline.unscopedRest (Ix := Unit) (Name := ℕ) (U := UR sig nD τ) (Lvl := ℕ) spec5 c (C9 m R0 R1 R2 R3 R4 c)
  hentry c := by
    rw [Pipeline.ownSems0_none]
    have hsplit : (unscopedBufs c (C9 m R0 R1 R2 R3 R4 c) : sProp 𝕄)
        ⊢ iprop((pdats m R0 R1 R2 R3 R4 R5 R6 R7 5 c).arrays ((pdats m R0 R1 R2 R3 R4 R5 R6 R7 5 c).arrAt · 0) ∗ Pipeline.unscopedRest spec5 c (C9 m R0 R1 R2 R3 R4 c)) :=
      R5.hsplit (C9 m R0 R1 R2 R3 R4) c
    rw [Pipeline.unscopedBufs_held] at hsplit
    have howes := owesAt_of (R5.dat (C9 m R0 R1 R2 R3 R4) c) 0 (R5.owed_eq (C9 m R0 R1 R2 R3 R4) c 0) (R5.rec_eq (C9 m R0 R1 R2 R3 R4) c 0)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply howes; iexact HO
    isplitl [Hp]; · iexact Hp
    iexact Hrest
  hin c := by
    rw [show (pdats m R0 R1 R2 R3 R4 R5 R6 R7 5 c).Φ 0 = (R5.dat (C9 m R0 R1 R2 R3 R4) c).Φ 0 from rfl]
    have h := R5.hin (C9 m R0 R1 R2 R3 R4) c
    unfold Pipeline.ΦA at h
    iintro ⟨Hp, -, Hr⟩
    iapply h
    isplitl [Hr]; · iexact Hr
    iexact Hp
  hout c := by
    rw [Pipeline.ownSems0_none, show (pdats m R0 R1 R2 R3 R4 R5 R6 R7 5 c).Φ (Fin.last _) = (R5.dat (C9 m R0 R1 R2 R3 R4) c).Φ (Fin.last cfg5.N) from rfl]
    have h := R5.hout (C9 m R0 R1 R2 R3 R4) c
    unfold Pipeline.ΦA at h
    iintro HΦ
    ihave H := h $$ HΦ
    icases H with ⟨Hr, Hp⟩
    isplitl [Hp]; · iexact Hp
    isplitr; · iempintro
    iexact Hr
  hexit c := by
    have hjoin : iprop((pdats m R0 R1 R2 R3 R4 R5 R6 R7 5 c).arrays ((pdats m R0 R1 R2 R3 R4 R5 R6 R7 5 c).arrAt · cfg5.N) ∗ Pipeline.unscopedRest spec5 c (C9 m R0 R1 R2 R3 R4 c))
        ⊢ (unscopedBufs c (C10 m R0 R1 R2 R3 R4 R5 c) : sProp 𝕄) :=
      R5.hjoin (C9 m R0 R1 R2 R3 R4) c (C10 m R0 R1 R2 R3 R4 R5 c) (hF5 m R0 R1 R2 R3 R4 R5 c) (hrest5 m R0 R1 R2 R3 R4 R5 c)
    rw [Pipeline.unscopedBufs_held] at hjoin
    have howes := of_owesAt (R5.dat (C9 m R0 R1 R2 R3 R4) c) (Fin.last cfg5.N) (R5.owed_eq (C9 m R0 R1 R2 R3 R4) c (Fin.last cfg5.N))
    iintro ⟨Ha, HO, HY, Hrest⟩
    imodintro
    isplitl [Ha Hrest]
    · iapply hjoin; isplitl [Ha] <;> iassumption
    isplitl [HY]; · iexact HY
    iapply howes; iexact HO

theorem hF6 (c : Dev nD) (w : Fin cfg6.W) : (R6.dat (C11 m R0 R1 R2 R3 R4 R5) c).arrAt w cfg6.N = C12 m R0 R1 R2 R3 R4 R5 R6 c (Pipeline.arrRef spec6 w) :=
  (B12_arr m R0 R1 R2 R3 R4 R5 R6 c w).symm
theorem hrest6 (c : Dev nD) : ∀ b, b ∉ Finset.univ.image (Pipeline.arrRef spec6) → C12 m R0 R1 R2 R3 R4 R5 R6 c b = C11 m R0 R1 R2 R3 R4 R5 c b :=
  fun b hb => B12_of_ne m R0 R1 R2 R3 R4 R5 R6 c b fun w e => hb (Finset.mem_image.mpr ⟨w, Finset.mem_univ _, e⟩)

set_option backward.isDefEq.respectTransparency.types false in
/-- REGION 6 over the thread state: entered from every unscoped buffer at its entry contents, left at its exit contents.
    Its arrays are split out of the unscoped buffers and put back at the exit contents; the generator register goes into
    the class invariant and comes out; nothing is owed; the kernel has no semaphore of its own. -/
def reg6 : Pipeline.RegionSeg (pcfgs (F := F)) adm (pdats m R0 R1 R2 R3 R4 R5 R6 R7) () defs₀ 𝒱₀ Lv lv 6 where
  win := launch6.win.to₀
  block_pos := launch6.block_pos
  stage_whole := launch6.stage_whole
  K := PEmpty
  osem k := k.elim
  ho := Pipeline.OwnSemFacts.none _
  hbody c := (R6.body (C11 m R0 R1 R2 R3 R4 R5) c).loose
  hwaits := Pipeline.hwaits_of_owed_zero _ _ _ _ Lv lv 6 fun c t => R6.owed_eq (C11 m R0 R1 R2 R3 R4 R5) c t
  pre c := iprop(StableHlo.held (c : Thread nD τ) (Pipeline.ucRefs τ sig) (B11 m R0 R1 R2 R3 R4 R5 c) ∗ Rest c)
  post c := iprop(StableHlo.held (c : Thread nD τ) (Pipeline.ucRefs τ sig) (B12 m R0 R1 R2 R3 R4 R5 R6 c) ∗ Rest c)
  X c := iprop(∃ r, prngReg c r)
  Y c := iprop(∃ r, prngReg c r)
  Z c := Pipeline.unscopedRest (Ix := Unit) (Name := ℕ) (U := UR sig nD τ) (Lvl := ℕ) spec6 c (C11 m R0 R1 R2 R3 R4 R5 c)
  hentry c := by
    rw [Pipeline.ownSems0_none]
    have hsplit := Pipeline.arrays_of_unscopedBufs (p := 6) (pcfgs (F := F)) adm (pdats m R0 R1 R2 R3 R4 R5 R6 R7) launch6.win launch6.arr_whole c
      ((pdats m R0 R1 R2 R3 R4 R5 R6 R7 6 c).share_full fun w => R6.q_eq (C11 m R0 R1 R2 R3 R4 R5) c w) (C11 m R0 R1 R2 R3 R4 R5 c) fun w => R6.A_eq (C11 m R0 R1 R2 R3 R4 R5) c w
    rw [Pipeline.unscopedBufs_held] at hsplit
    have howes := owesAt_of (R6.dat (C11 m R0 R1 R2 R3 R4 R5) c) 0 (R6.owed_eq (C11 m R0 R1 R2 R3 R4 R5) c 0) (R6.rec_eq (C11 m R0 R1 R2 R3 R4 R5) c 0)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply howes; iexact HO
    isplitl [Hp]; · iexact Hp
    iexact Hrest
  hin c := by
    rw [show (pdats m R0 R1 R2 R3 R4 R5 R6 R7 6 c).Φ 0 = (R6.dat (C11 m R0 R1 R2 R3 R4 R5) c).Φ 0 from rfl]
    have h := R6.hin (C11 m R0 R1 R2 R3 R4 R5) c
    unfold Pipeline.ΦA at h
    iintro ⟨Hp, -, Hr⟩
    iapply h
    isplitl [Hr]; · iexact Hr
    iexact Hp
  hout c := by
    rw [Pipeline.ownSems0_none, show (pdats m R0 R1 R2 R3 R4 R5 R6 R7 6 c).Φ (Fin.last _) = (R6.dat (C11 m R0 R1 R2 R3 R4 R5) c).Φ (Fin.last cfg6.N) from rfl]
    have h := R6.hout (C11 m R0 R1 R2 R3 R4 R5) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m R0 R1 R2 R3 R4 R5 R6 R7) ((pdats m R0 R1 R2 R3 R4 R5 R6 R7 6 c).share_full fun w => R6.q_eq (C11 m R0 R1 R2 R3 R4 R5) c w)
      (C11 m R0 R1 R2 R3 R4 R5 c) (C12 m R0 R1 R2 R3 R4 R5 R6 c) ((pdats m R0 R1 R2 R3 R4 R5 R6 R7 6 c).arrAt · cfg6.N) (hF6 m R0 R1 R2 R3 R4 R5 R6 c) (hrest6 m R0 R1 R2 R3 R4 R5 R6 c)
    rw [Pipeline.unscopedBufs_held] at hjoin
    have howes := of_owesAt (R6.dat (C11 m R0 R1 R2 R3 R4 R5) c) (Fin.last cfg6.N) (R6.owed_eq (C11 m R0 R1 R2 R3 R4 R5) c (Fin.last cfg6.N))
    iintro ⟨Ha, HO, HY, Hrest⟩
    imodintro
    isplitl [Ha Hrest]
    · iapply hjoin; isplitl [Ha] <;> iassumption
    isplitl [HY]; · iexact HY
    iapply howes; iexact HO

theorem hF7 (c : Dev nD) (w : Fin cfg7.W) : (R7.dat (C13 m R0 R1 R2 R3 R4 R5 R6) c).arrAt w cfg7.N = C14 m R0 R1 R2 R3 R4 R5 R6 R7 c (Pipeline.arrRef spec7 w) :=
  (B14_arr m R0 R1 R2 R3 R4 R5 R6 R7 c w).symm
theorem hrest7 (c : Dev nD) : ∀ b, b ∉ Finset.univ.image (Pipeline.arrRef spec7) → C14 m R0 R1 R2 R3 R4 R5 R6 R7 c b = C13 m R0 R1 R2 R3 R4 R5 R6 c b :=
  fun b hb => B14_of_ne m R0 R1 R2 R3 R4 R5 R6 R7 c b fun w e => hb (Finset.mem_image.mpr ⟨w, Finset.mem_univ _, e⟩)

set_option backward.isDefEq.respectTransparency.types false in
/-- REGION 7 over the thread state: entered from every unscoped buffer at its entry contents, left at its exit contents.
    Its arrays are split out of the unscoped buffers and put back at the exit contents; the generator register goes into
    the class invariant and comes out; nothing is owed; the kernel has no semaphore of its own. -/
def reg7 : Pipeline.RegionSeg (pcfgs (F := F)) adm (pdats m R0 R1 R2 R3 R4 R5 R6 R7) () defs₀ 𝒱₀ Lv lv 7 where
  win := launch7.win.to₀
  block_pos := launch7.block_pos
  stage_whole := launch7.stage_whole
  K := PEmpty
  osem k := k.elim
  ho := Pipeline.OwnSemFacts.none _
  hbody c := (R7.body (C13 m R0 R1 R2 R3 R4 R5 R6) c).loose
  hwaits := Pipeline.hwaits_of_owed_zero _ _ _ _ Lv lv 7 fun c t => R7.owed_eq (C13 m R0 R1 R2 R3 R4 R5 R6) c t
  pre c := iprop(StableHlo.held (c : Thread nD τ) (Pipeline.ucRefs τ sig) (B13 m R0 R1 R2 R3 R4 R5 R6 c) ∗ Rest c)
  post c := iprop(Tₙ m R0 R1 R2 R3 R4 R5 R6 R7 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec7 c (C13 m R0 R1 R2 R3 R4 R5 R6 c)
  hentry c := by
    rw [Pipeline.ownSems0_none]
    have hsplit := Pipeline.arrays_of_unscopedBufs (p := 7) (pcfgs (F := F)) adm (pdats m R0 R1 R2 R3 R4 R5 R6 R7) launch7.win launch7.arr_whole c
      ((pdats m R0 R1 R2 R3 R4 R5 R6 R7 7 c).share_full fun w => R7.q_eq (C13 m R0 R1 R2 R3 R4 R5 R6) c w) (C13 m R0 R1 R2 R3 R4 R5 R6 c) fun w => R7.A_eq (C13 m R0 R1 R2 R3 R4 R5 R6) c w
    rw [Pipeline.unscopedBufs_held] at hsplit
    have howes := owesAt_of (R7.dat (C13 m R0 R1 R2 R3 R4 R5 R6) c) 0 (R7.owed_eq (C13 m R0 R1 R2 R3 R4 R5 R6) c 0) (R7.rec_eq (C13 m R0 R1 R2 R3 R4 R5 R6) c 0)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply howes; iexact HO
    isplitl [Hp]; · iexact Hp
    iexact Hrest
  hin c := by
    rw [show (pdats m R0 R1 R2 R3 R4 R5 R6 R7 7 c).Φ 0 = (R7.dat (C13 m R0 R1 R2 R3 R4 R5 R6) c).Φ 0 from rfl]
    have h := R7.hin (C13 m R0 R1 R2 R3 R4 R5 R6) c
    unfold Pipeline.ΦA at h
    iintro ⟨Hp, -, Hr⟩
    iapply h
    isplitl [Hr]; · iexact Hr
    iexact Hp
  hout c := by
    rw [Pipeline.ownSems0_none, show (pdats m R0 R1 R2 R3 R4 R5 R6 R7 7 c).Φ (Fin.last _) = (R7.dat (C13 m R0 R1 R2 R3 R4 R5 R6) c).Φ (Fin.last cfg7.N) from rfl]
    have h := R7.hout (C13 m R0 R1 R2 R3 R4 R5 R6) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m R0 R1 R2 R3 R4 R5 R6 R7) ((pdats m R0 R1 R2 R3 R4 R5 R6 R7 7 c).share_full fun w => R7.q_eq (C13 m R0 R1 R2 R3 R4 R5 R6) c w)
      (C13 m R0 R1 R2 R3 R4 R5 R6 c) (C14 m R0 R1 R2 R3 R4 R5 R6 R7 c) ((pdats m R0 R1 R2 R3 R4 R5 R6 R7 7 c).arrAt · cfg7.N) (hF7 m R0 R1 R2 R3 R4 R5 R6 R7 c) (hrest7 m R0 R1 R2 R3 R4 R5 R6 R7 c)
    rw [Pipeline.unscopedBufs_held] at hjoin
    have howes := of_owesAt (R7.dat (C13 m R0 R1 R2 R3 R4 R5 R6) c) (Fin.last cfg7.N) (R7.owed_eq (C13 m R0 R1 R2 R3 R4 R5 R6) c (Fin.last cfg7.N))
    iintro ⟨Ha, HO, HY, Hrest⟩
    imodintro
    isplitl [Ha Hrest HY]
    · isplitl [Ha Hrest]
      · iapply hjoin; isplitl [Ha] <;> iassumption
      iexact HY
    iapply howes; iexact HO

/-! ## @main as segments, and the launch -/

/-- @main's 14 segments in order: a region per kernel call, a host segment per stretch from its boundary's contents. -/
abbrev segs : List (Pipeline.Seg (pcfgs (F := F)) adm (pdats m R0 R1 R2 R3 R4 R5 R6 R7) () defs₀ 𝒱₀ Lv lv) :=
  [ .region (reg0 m R0 R1 R2 R3 R4 R5 R6 R7),
    .host (hseg hostOps1 hostOps1_sub hostOps1_fresh (B1 m R0)),
    .region (reg1 m R0 R1 R2 R3 R4 R5 R6 R7),
    .host (hseg hostOps2 hostOps2_sub hostOps2_fresh (B3 m R0 R1)),
    .region (reg2 m R0 R1 R2 R3 R4 R5 R6 R7),
    .host (hseg hostOps3 hostOps3_sub hostOps3_fresh (B5 m R0 R1 R2)),
    .region (reg3 m R0 R1 R2 R3 R4 R5 R6 R7),
    .host (hseg hostOps4 hostOps4_sub hostOps4_fresh (B7 m R0 R1 R2 R3)),
    .region (reg4 m R0 R1 R2 R3 R4 R5 R6 R7),
    .region (reg5 m R0 R1 R2 R3 R4 R5 R6 R7),
    .host (hseg hostOps6 hostOps6_sub hostOps6_fresh (B10 m R0 R1 R2 R3 R4 R5)),
    .region (reg6 m R0 R1 R2 R3 R4 R5 R6 R7),
    .host (hseg hostOps7 hostOps7_sub hostOps7_fresh (B12 m R0 R1 R2 R3 R4 R5 R6)),
    .region (reg7 m R0 R1 R2 R3 R4 R5 R6 R7) ]

/-- @main IS the run of the segments. -/
theorem main_run (c : Dev nD) : main (F := F) c = Pipeline.Seg.run (segs m R0 R1 R2 R3 R4 R5 R6 R7) := (main_chain c).trans (by chain_rfl)

set_option backward.isDefEq.respectTransparency.types false in
/-- THE RUN: from any memory with zero counters every weakly fair execution of @main on the TensorCores terminates,
    nothing faulting, and in every final state each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B14 m R0 R1 R2 R3 R4 R5 R6 R7 c b) :=
  Pipeline.θ_run_regions_kit (pcfgs (F := F)) adm (pdats m R0 R1 R2 R3 R4 R5 R6 R7) () cellOf_inj emb₁ defs₀ 𝒱₀ Lv lv m ρ main (segs m R0 R1 R2 R3 R4 R5 R6 R7)
    (fun c Q => by rw [main_run m R0 R1 R2 R3 R4 R5 R6 R7 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Rest c)) (Tₙ := Tₙ m R0 R1 R2 R3 R4 R5 R6 R7)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach Lv lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B14 m R0 R1 R2 R3 R4 R5 R6 R7 c b)
    (hfin := fun c s' => by
      iintro ⟨⟨Hh, -⟩, HSI⟩
      unfold StableHlo.held
      imodintro
      iapply (pointsTo_read_all (Pipeline.ucRefs τ sig) (fun b => (((c : Thread nD τ)).1, b)) (B14 m R0 R1 R2 R3 R4 R5 R6 R7 c) s')
      isplitl [Hh] <;> iassumption)
    (hQ := fun s h c => h c)

/-! ## The arguments end as launched -/

theorem B14_arg0 (c : Dev nD) : B14 m R0 R1 R2 R3 R4 R5 R6 R7 c (Proc.devRef .tc main_arg0) = m ((c : Thread nD τ).loc main_arg0) :=
  ((B14_keep m R0 R1 R2 R3 R4 R5 R6 R7 c main_arg0 (by decide)).trans ((B13_keep m R0 R1 R2 R3 R4 R5 R6 c main_arg0 (by decide)).trans ((B12_keep m R0 R1 R2 R3 R4 R5 R6 c main_arg0 (by decide)).trans ((B11_keep m R0 R1 R2 R3 R4 R5 c main_arg0 (by decide)).trans ((B10_keep m R0 R1 R2 R3 R4 R5 c main_arg0 (by decide)).trans ((B9_keep m R0 R1 R2 R3 R4 c main_arg0 (by decide)).trans ((B8_keep m R0 R1 R2 R3 c main_arg0 (by decide)).trans ((B7_keep m R0 R1 R2 R3 c main_arg0 (by decide)).trans ((B6_keep m R0 R1 R2 c main_arg0 (by decide)).trans ((B5_keep m R0 R1 R2 c main_arg0 (by decide)).trans ((B4_keep m R0 R1 c main_arg0 (by decide)).trans ((B3_keep m R0 R1 c main_arg0 (by decide)).trans ((B2_keep m R0 c main_arg0 (by decide)).trans (B1_keep m R0 c main_arg0 (by decide))))))))))))))).trans rfl
theorem B14_arg1 (c : Dev nD) : B14 m R0 R1 R2 R3 R4 R5 R6 R7 c (Proc.devRef .tc main_arg1) = m ((c : Thread nD τ).loc main_arg1) :=
  ((B14_keep m R0 R1 R2 R3 R4 R5 R6 R7 c main_arg1 (by decide)).trans ((B13_keep m R0 R1 R2 R3 R4 R5 R6 c main_arg1 (by decide)).trans ((B12_keep m R0 R1 R2 R3 R4 R5 R6 c main_arg1 (by decide)).trans ((B11_keep m R0 R1 R2 R3 R4 R5 c main_arg1 (by decide)).trans ((B10_keep m R0 R1 R2 R3 R4 R5 c main_arg1 (by decide)).trans ((B9_keep m R0 R1 R2 R3 R4 c main_arg1 (by decide)).trans ((B8_keep m R0 R1 R2 R3 c main_arg1 (by decide)).trans ((B7_keep m R0 R1 R2 R3 c main_arg1 (by decide)).trans ((B6_keep m R0 R1 R2 c main_arg1 (by decide)).trans ((B5_keep m R0 R1 R2 c main_arg1 (by decide)).trans ((B4_keep m R0 R1 c main_arg1 (by decide)).trans ((B3_keep m R0 R1 c main_arg1 (by decide)).trans ((B2_keep m R0 c main_arg1 (by decide)).trans (B1_keep m R0 c main_arg1 (by decide))))))))))))))).trans rfl
theorem B14_arg2 (c : Dev nD) : B14 m R0 R1 R2 R3 R4 R5 R6 R7 c (Proc.devRef .tc main_arg2) = m ((c : Thread nD τ).loc main_arg2) :=
  ((B14_keep m R0 R1 R2 R3 R4 R5 R6 R7 c main_arg2 (by decide)).trans ((B13_keep m R0 R1 R2 R3 R4 R5 R6 c main_arg2 (by decide)).trans ((B12_keep m R0 R1 R2 R3 R4 R5 R6 c main_arg2 (by decide)).trans ((B11_keep m R0 R1 R2 R3 R4 R5 c main_arg2 (by decide)).trans ((B10_keep m R0 R1 R2 R3 R4 R5 c main_arg2 (by decide)).trans ((B9_keep m R0 R1 R2 R3 R4 c main_arg2 (by decide)).trans ((B8_keep m R0 R1 R2 R3 c main_arg2 (by decide)).trans ((B7_keep m R0 R1 R2 R3 c main_arg2 (by decide)).trans ((B6_keep m R0 R1 R2 c main_arg2 (by decide)).trans ((B5_keep m R0 R1 R2 c main_arg2 (by decide)).trans ((B4_keep m R0 R1 c main_arg2 (by decide)).trans ((B3_keep m R0 R1 c main_arg2 (by decide)).trans ((B2_keep m R0 c main_arg2 (by decide)).trans (B1_keep m R0 c main_arg2 (by decide))))))))))))))).trans rfl
theorem B14_arg3 (c : Dev nD) : B14 m R0 R1 R2 R3 R4 R5 R6 R7 c (Proc.devRef .tc main_arg3) = m ((c : Thread nD τ).loc main_arg3) :=
  ((B14_keep m R0 R1 R2 R3 R4 R5 R6 R7 c main_arg3 (by decide)).trans ((B13_keep m R0 R1 R2 R3 R4 R5 R6 c main_arg3 (by decide)).trans ((B12_keep m R0 R1 R2 R3 R4 R5 R6 c main_arg3 (by decide)).trans ((B11_keep m R0 R1 R2 R3 R4 R5 c main_arg3 (by decide)).trans ((B10_keep m R0 R1 R2 R3 R4 R5 c main_arg3 (by decide)).trans ((B9_keep m R0 R1 R2 R3 R4 c main_arg3 (by decide)).trans ((B8_keep m R0 R1 R2 R3 c main_arg3 (by decide)).trans ((B7_keep m R0 R1 R2 R3 c main_arg3 (by decide)).trans ((B6_keep m R0 R1 R2 c main_arg3 (by decide)).trans ((B5_keep m R0 R1 R2 c main_arg3 (by decide)).trans ((B4_keep m R0 R1 c main_arg3 (by decide)).trans ((B3_keep m R0 R1 c main_arg3 (by decide)).trans ((B2_keep m R0 c main_arg3 (by decide)).trans (B1_keep m R0 c main_arg3 (by decide))))))))))))))).trans rfl
theorem B14_arg4 (c : Dev nD) : B14 m R0 R1 R2 R3 R4 R5 R6 R7 c (Proc.devRef .tc main_arg4) = m ((c : Thread nD τ).loc main_arg4) :=
  ((B14_keep m R0 R1 R2 R3 R4 R5 R6 R7 c main_arg4 (by decide)).trans ((B13_keep m R0 R1 R2 R3 R4 R5 R6 c main_arg4 (by decide)).trans ((B12_keep m R0 R1 R2 R3 R4 R5 R6 c main_arg4 (by decide)).trans ((B11_keep m R0 R1 R2 R3 R4 R5 c main_arg4 (by decide)).trans ((B10_keep m R0 R1 R2 R3 R4 R5 c main_arg4 (by decide)).trans ((B9_keep m R0 R1 R2 R3 R4 c main_arg4 (by decide)).trans ((B8_keep m R0 R1 R2 R3 c main_arg4 (by decide)).trans ((B7_keep m R0 R1 R2 R3 c main_arg4 (by decide)).trans ((B6_keep m R0 R1 R2 c main_arg4 (by decide)).trans ((B5_keep m R0 R1 R2 c main_arg4 (by decide)).trans ((B4_keep m R0 R1 c main_arg4 (by decide)).trans ((B3_keep m R0 R1 c main_arg4 (by decide)).trans ((B2_keep m R0 c main_arg4 (by decide)).trans (B1_keep m R0 c main_arg4 (by decide))))))))))))))).trans rfl
theorem B14_arg5 (c : Dev nD) : B14 m R0 R1 R2 R3 R4 R5 R6 R7 c (Proc.devRef .tc main_arg5) = m ((c : Thread nD τ).loc main_arg5) :=
  ((B14_keep m R0 R1 R2 R3 R4 R5 R6 R7 c main_arg5 (by decide)).trans ((B13_keep m R0 R1 R2 R3 R4 R5 R6 c main_arg5 (by decide)).trans ((B12_keep m R0 R1 R2 R3 R4 R5 R6 c main_arg5 (by decide)).trans ((B11_keep m R0 R1 R2 R3 R4 R5 c main_arg5 (by decide)).trans ((B10_keep m R0 R1 R2 R3 R4 R5 c main_arg5 (by decide)).trans ((B9_keep m R0 R1 R2 R3 R4 c main_arg5 (by decide)).trans ((B8_keep m R0 R1 R2 R3 c main_arg5 (by decide)).trans ((B7_keep m R0 R1 R2 R3 c main_arg5 (by decide)).trans ((B6_keep m R0 R1 R2 c main_arg5 (by decide)).trans ((B5_keep m R0 R1 R2 c main_arg5 (by decide)).trans ((B4_keep m R0 R1 c main_arg5 (by decide)).trans ((B3_keep m R0 R1 c main_arg5 (by decide)).trans ((B2_keep m R0 c main_arg5 (by decide)).trans (B1_keep m R0 c main_arg5 (by decide))))))))))))))).trans rfl
theorem B14_arg6 (c : Dev nD) : B14 m R0 R1 R2 R3 R4 R5 R6 R7 c (Proc.devRef .tc main_arg6) = m ((c : Thread nD τ).loc main_arg6) :=
  ((B14_keep m R0 R1 R2 R3 R4 R5 R6 R7 c main_arg6 (by decide)).trans ((B13_keep m R0 R1 R2 R3 R4 R5 R6 c main_arg6 (by decide)).trans ((B12_keep m R0 R1 R2 R3 R4 R5 R6 c main_arg6 (by decide)).trans ((B11_keep m R0 R1 R2 R3 R4 R5 c main_arg6 (by decide)).trans ((B10_keep m R0 R1 R2 R3 R4 R5 c main_arg6 (by decide)).trans ((B9_keep m R0 R1 R2 R3 R4 c main_arg6 (by decide)).trans ((B8_keep m R0 R1 R2 R3 c main_arg6 (by decide)).trans ((B7_keep m R0 R1 R2 R3 c main_arg6 (by decide)).trans ((B6_keep m R0 R1 R2 c main_arg6 (by decide)).trans ((B5_keep m R0 R1 R2 c main_arg6 (by decide)).trans ((B4_keep m R0 R1 c main_arg6 (by decide)).trans ((B3_keep m R0 R1 c main_arg6 (by decide)).trans ((B2_keep m R0 c main_arg6 (by decide)).trans (B1_keep m R0 c main_arg6 (by decide))))))))))))))).trans rfl
theorem B14_arg7 (c : Dev nD) : B14 m R0 R1 R2 R3 R4 R5 R6 R7 c (Proc.devRef .tc main_arg7) = m ((c : Thread nD τ).loc main_arg7) :=
  ((B14_keep m R0 R1 R2 R3 R4 R5 R6 R7 c main_arg7 (by decide)).trans ((B13_keep m R0 R1 R2 R3 R4 R5 R6 c main_arg7 (by decide)).trans ((B12_keep m R0 R1 R2 R3 R4 R5 R6 c main_arg7 (by decide)).trans ((B11_keep m R0 R1 R2 R3 R4 R5 c main_arg7 (by decide)).trans ((B10_keep m R0 R1 R2 R3 R4 R5 c main_arg7 (by decide)).trans ((B9_keep m R0 R1 R2 R3 R4 c main_arg7 (by decide)).trans ((B8_keep m R0 R1 R2 R3 c main_arg7 (by decide)).trans ((B7_keep m R0 R1 R2 R3 c main_arg7 (by decide)).trans ((B6_keep m R0 R1 R2 c main_arg7 (by decide)).trans ((B5_keep m R0 R1 R2 c main_arg7 (by decide)).trans ((B4_keep m R0 R1 c main_arg7 (by decide)).trans ((B3_keep m R0 R1 c main_arg7 (by decide)).trans ((B2_keep m R0 c main_arg7 (by decide)).trans (B1_keep m R0 c main_arg7 (by decide))))))))))))))).trans rfl
theorem B14_arg8 (c : Dev nD) : B14 m R0 R1 R2 R3 R4 R5 R6 R7 c (Proc.devRef .tc main_arg8) = m ((c : Thread nD τ).loc main_arg8) :=
  ((B14_keep m R0 R1 R2 R3 R4 R5 R6 R7 c main_arg8 (by decide)).trans ((B13_keep m R0 R1 R2 R3 R4 R5 R6 c main_arg8 (by decide)).trans ((B12_keep m R0 R1 R2 R3 R4 R5 R6 c main_arg8 (by decide)).trans ((B11_keep m R0 R1 R2 R3 R4 R5 c main_arg8 (by decide)).trans ((B10_keep m R0 R1 R2 R3 R4 R5 c main_arg8 (by decide)).trans ((B9_keep m R0 R1 R2 R3 R4 c main_arg8 (by decide)).trans ((B8_keep m R0 R1 R2 R3 c main_arg8 (by decide)).trans ((B7_keep m R0 R1 R2 R3 c main_arg8 (by decide)).trans ((B6_keep m R0 R1 R2 c main_arg8 (by decide)).trans ((B5_keep m R0 R1 R2 c main_arg8 (by decide)).trans ((B4_keep m R0 R1 c main_arg8 (by decide)).trans ((B3_keep m R0 R1 c main_arg8 (by decide)).trans ((B2_keep m R0 c main_arg8 (by decide)).trans (B1_keep m R0 c main_arg8 (by decide))))))))))))))).trans rfl
theorem B14_arg9 (c : Dev nD) : B14 m R0 R1 R2 R3 R4 R5 R6 R7 c (Proc.devRef .tc main_arg9) = m ((c : Thread nD τ).loc main_arg9) :=
  ((B14_keep m R0 R1 R2 R3 R4 R5 R6 R7 c main_arg9 (by decide)).trans ((B13_keep m R0 R1 R2 R3 R4 R5 R6 c main_arg9 (by decide)).trans ((B12_keep m R0 R1 R2 R3 R4 R5 R6 c main_arg9 (by decide)).trans ((B11_keep m R0 R1 R2 R3 R4 R5 c main_arg9 (by decide)).trans ((B10_keep m R0 R1 R2 R3 R4 R5 c main_arg9 (by decide)).trans ((B9_keep m R0 R1 R2 R3 R4 c main_arg9 (by decide)).trans ((B8_keep m R0 R1 R2 R3 c main_arg9 (by decide)).trans ((B7_keep m R0 R1 R2 R3 c main_arg9 (by decide)).trans ((B6_keep m R0 R1 R2 c main_arg9 (by decide)).trans ((B5_keep m R0 R1 R2 c main_arg9 (by decide)).trans ((B4_keep m R0 R1 c main_arg9 (by decide)).trans ((B3_keep m R0 R1 c main_arg9 (by decide)).trans ((B2_keep m R0 c main_arg9 (by decide)).trans (B1_keep m R0 c main_arg9 (by decide))))))))))))))).trans rfl
theorem B14_arg10 (c : Dev nD) : B14 m R0 R1 R2 R3 R4 R5 R6 R7 c (Proc.devRef .tc main_arg10) = m ((c : Thread nD τ).loc main_arg10) :=
  ((B14_keep m R0 R1 R2 R3 R4 R5 R6 R7 c main_arg10 (by decide)).trans ((B13_keep m R0 R1 R2 R3 R4 R5 R6 c main_arg10 (by decide)).trans ((B12_keep m R0 R1 R2 R3 R4 R5 R6 c main_arg10 (by decide)).trans ((B11_keep m R0 R1 R2 R3 R4 R5 c main_arg10 (by decide)).trans ((B10_keep m R0 R1 R2 R3 R4 R5 c main_arg10 (by decide)).trans ((B9_keep m R0 R1 R2 R3 R4 c main_arg10 (by decide)).trans ((B8_keep m R0 R1 R2 R3 c main_arg10 (by decide)).trans ((B7_keep m R0 R1 R2 R3 c main_arg10 (by decide)).trans ((B6_keep m R0 R1 R2 c main_arg10 (by decide)).trans ((B5_keep m R0 R1 R2 c main_arg10 (by decide)).trans ((B4_keep m R0 R1 c main_arg10 (by decide)).trans ((B3_keep m R0 R1 c main_arg10 (by decide)).trans ((B2_keep m R0 c main_arg10 (by decide)).trans (B1_keep m R0 c main_arg10 (by decide))))))))))))))).trans rfl
theorem B14_arg11 (c : Dev nD) : B14 m R0 R1 R2 R3 R4 R5 R6 R7 c (Proc.devRef .tc main_arg11) = m ((c : Thread nD τ).loc main_arg11) :=
  ((B14_keep m R0 R1 R2 R3 R4 R5 R6 R7 c main_arg11 (by decide)).trans ((B13_keep m R0 R1 R2 R3 R4 R5 R6 c main_arg11 (by decide)).trans ((B12_keep m R0 R1 R2 R3 R4 R5 R6 c main_arg11 (by decide)).trans ((B11_keep m R0 R1 R2 R3 R4 R5 c main_arg11 (by decide)).trans ((B10_keep m R0 R1 R2 R3 R4 R5 c main_arg11 (by decide)).trans ((B9_keep m R0 R1 R2 R3 R4 c main_arg11 (by decide)).trans ((B8_keep m R0 R1 R2 R3 c main_arg11 (by decide)).trans ((B7_keep m R0 R1 R2 R3 c main_arg11 (by decide)).trans ((B6_keep m R0 R1 R2 c main_arg11 (by decide)).trans ((B5_keep m R0 R1 R2 c main_arg11 (by decide)).trans ((B4_keep m R0 R1 c main_arg11 (by decide)).trans ((B3_keep m R0 R1 c main_arg11 (by decide)).trans ((B2_keep m R0 c main_arg11 (by decide)).trans (B1_keep m R0 c main_arg11 (by decide))))))))))))))).trans rfl

include R0 R1 R2 R3 R4 R5 R6 R7 in
/-- THE FRAME: every weakly fair execution of @main terminates, nothing faulting, and every final state has the argument
    arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_arg0 (by decide))).trans (B14_arg0 m R0 R1 R2 R3 R4 R5 R6 R7 c),
     (h c _ (mem_uc main_arg1 (by decide))).trans (B14_arg1 m R0 R1 R2 R3 R4 R5 R6 R7 c),
     (h c _ (mem_uc main_arg2 (by decide))).trans (B14_arg2 m R0 R1 R2 R3 R4 R5 R6 R7 c),
     (h c _ (mem_uc main_arg3 (by decide))).trans (B14_arg3 m R0 R1 R2 R3 R4 R5 R6 R7 c),
     (h c _ (mem_uc main_arg4 (by decide))).trans (B14_arg4 m R0 R1 R2 R3 R4 R5 R6 R7 c),
     (h c _ (mem_uc main_arg5 (by decide))).trans (B14_arg5 m R0 R1 R2 R3 R4 R5 R6 R7 c),
     (h c _ (mem_uc main_arg6 (by decide))).trans (B14_arg6 m R0 R1 R2 R3 R4 R5 R6 R7 c),
     (h c _ (mem_uc main_arg7 (by decide))).trans (B14_arg7 m R0 R1 R2 R3 R4 R5 R6 R7 c),
     (h c _ (mem_uc main_arg8 (by decide))).trans (B14_arg8 m R0 R1 R2 R3 R4 R5 R6 R7 c),
     (h c _ (mem_uc main_arg9 (by decide))).trans (B14_arg9 m R0 R1 R2 R3 R4 R5 R6 R7 c),
     (h c _ (mem_uc main_arg10 (by decide))).trans (B14_arg10 m R0 R1 R2 R3 R4 R5 R6 R7 c),
     (h c _ (mem_uc main_arg11 (by decide))).trans (B14_arg11 m R0 R1 R2 R3 R4 R5 R6 R7 c)⟩)
    (run_all m ρ R0 R1 R2 R3 R4 R5 R6 R7)

end Run

end Cert.KernelIdeal.Hand

end
-- ==== Proof.Region0Runs.lean ====
import proofs.«178500_j188978561286_1_alg».proof.Proof.Gen.KernelIdeal.Launch
import proofs.«178500_j188978561286_1_alg».proof.Proof.Gen.KernelIdeal.Skeleton
import proofs.«178500_j188978561286_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks of the degree pass -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The edge table's current staging buffer holds its block at every point, for any proof data whose array is the
    entry contents and whose body leaves the block in place: the window is fetched at every point, uncut, never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions, in closed form over the 32 grid points

A point t is (i, k) with k = t mod 4: the accumulator is zeroed when k = 0 and the result stored when k = 3. -/

/-- The first conditional: the column-tile coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The second conditional: the column-tile coordinate is 3 (the last of a row of tiles). -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem idleAt0_1_A : ∀ t : Fin cfg0.N, cond0_0 (grid0.coords t) → ¬cond0_1 (grid0.coords t) → cfg0.idle 1 (grid0.coords t) = true := by decide +kernel
theorem noFlush0_1_A : ∀ t : Fin cfg0.N, cond0_0 (grid0.coords t) → ¬cond0_1 (grid0.coords t) → (cfg0.win 1).flush t = false := by decide +kernel
theorem idleAt0_1_B : ∀ t : Fin cfg0.N, ¬cond0_0 (grid0.coords t) → ¬cond0_1 (grid0.coords t) → cfg0.idle 1 (grid0.coords t) = true := by decide +kernel
theorem noFlush0_1_B : ∀ t : Fin cfg0.N, ¬cond0_0 (grid0.coords t) → ¬cond0_1 (grid0.coords t) → (cfg0.win 1).flush t = false := by decide +kernel
theorem liveAt0_1_C : ∀ t : Fin cfg0.N, ¬cond0_0 (grid0.coords t) → cond0_1 (grid0.coords t) → cfg0.idle 1 (grid0.coords t) = false := by decide +kernel

/-! ## The memrefs the body is called with -/

/-- One staging buffer of the output window, through which its contents are stated. -/
abbrev VO0_1 : View sig .tc .vmem S1024x1 .f32 := (Memref.whole cc0_stg1_0 : Memref sig .tc .vmem S1024x1 .f32).view
abbrev ms0_0 (t : Fin cfg0.N) : Memref sig .tc .vmem S1024x2048 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .f32 := win0_1.stage (cfg0.slots t 1)
abbrev hs0_1 (t : Fin cfg0.N) : (ms0_1 t).IsWhole := hstage0_1 ((cfg0.slots t 1).cast nbuf0_1)
/-- The accumulator: a whole scoped buffer of the kernel's own. -/
abbrev scM0_0 : Memref sig .tc .vmem S1024x1 .f32 := Memref.whole cc0_scratch0
abbrev VS0_0 : View sig .tc .vmem S1024x1 .f32 := scM0_0.view

/-- The class invariant with the accumulator as a memref owned at some contents, the other scoped buffers unopened. -/
theorem PhiA0_eq (c : Dev nD) :
    (Pipeline.ΦA spec0 c : sProp 𝕄)
      = iprop(iprop(iprop((∃ d, owns (c : Thread nD τ) scM0_0 fullShare d)) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

/-! ## The body's run in each of its three control cases -/

set_option maxHeartbeats 1000000 in
/-- Case A (first tile of a row: the accumulator is zeroed, then the tile's row sums added; nothing stored into the output). -/
noncomputable def kernelRun0_A (c : Dev nD) (i : grid0.Coords) (arg2 : Memref sig .tc .vmem S1024x2048 .i32) (harg2 : arg2.IsWhole) (arg3 : Memref sig .tc .vmem S1024x1 .f32) (harg3 : arg3.IsWhole) (arg4 : Memref sig .tc .vmem S1024x1 .f32) (harg4 : arg4.IsWhole) (hc0 : cond0_0 i) (hc1 : ¬cond0_1 i)
    (x0 : Vec F S1024x2048 .i32) :
    Σ' (L1 : List (View.Piece (Elt F) S1024x1 .f32)), { LS0 : List (View.Piece (Elt F) S1024x1 .f32) //
      ∀ (xi1 : Vec F S1024x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__deg_kernel i arg2 harg2 arg3 harg3 arg4 harg4) K } := by
  refine ⟨[], ?_, fun xi1 E K => ?run⟩
  case run =>
    simp only [cc0__deg_kernel_eq_skeleton]; unfold cc0__deg_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- Case B (a middle tile: the tile's row sums added to the carried accumulator; nothing stored into the output). -/
noncomputable def kernelRun0_B (c : Dev nD) (i : grid0.Coords) (arg2 : Memref sig .tc .vmem S1024x2048 .i32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : ¬cond0_1 i)
    (x0 : Vec F S1024x2048 .i32) (xs0 : Vec F S1024x1 .f32) :
    Σ' (L1 : List (View.Piece (Elt F) S1024x1 .f32)), { LS0 : List (View.Piece (Elt F) S1024x1 .f32) //
      ∀ (xi1 : Vec F S1024x1 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__deg_kernel i arg2 harg2 arg3 harg3 arg4 harg4) K } := by
  refine ⟨[], ?_, fun xi1 E K => ?run⟩
  case run =>
    simp only [cc0__deg_kernel_eq_skeleton]; unfold cc0__deg_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- Case C (the last tile of a row: the tile's row sums added, then the output block stored from the accumulator). -/
noncomputable def kernelRun0_C (c : Dev nD) (i : grid0.Coords) (arg2 : Memref sig .tc .vmem S1024x2048 .i32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x2048 .i32) (xs0 : Vec F S1024x1 .f32) :
    Σ' (L1 : List (View.Piece (Elt F) S1024x1 .f32)), { LS0 : List (View.Piece (Elt F) S1024x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__deg_kernel i arg2 harg2 arg3 harg3 arg4 harg4) K } := by
  refine ⟨?_, ?_, fun E K => ?run⟩
  case run =>
    simp only [cc0__deg_kernel_eq_skeleton]; unfold cc0__deg_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.KernelIdeal.Hand

end
-- ==== Proof.Region0.lean ====
import proofs.«178500_j188978561286_1_alg».proof.Proof.Region0Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the output's staging buffer and in the accumulator -/

/-- Case A stores nothing into the output: no pieces (a placeholder nothing consults). -/
def out0_A_1 (c : Dev nD) (i : grid0.Coords) (arg2 : Memref sig .tc .vmem S1024x2048 .i32) (harg2 : arg2.IsWhole) (arg3 : Memref sig .tc .vmem S1024x1 .f32) (harg3 : arg3.IsWhole) (arg4 : Memref sig .tc .vmem S1024x1 .f32) (harg4 : arg4.IsWhole) (hc0 : cond0_0 i) (hc1 : ¬cond0_1 i)
    (x0 : Vec F S1024x2048 .i32) : Vec F S1024x1 .f32 :=
  VO0_1.read (Elt F) (VO0_1.writes (Elt F) VO0_1.junk (kernelRun0_A c i arg2 harg2 arg3 harg3 arg4 harg4 hc0 hc1 x0).1)

/-- Case A's stores into the accumulator cover it. -/
theorem scover0_A_0 (c : Dev nD) (i : grid0.Coords) (arg2 : Memref sig .tc .vmem S1024x2048 .i32) (harg2 : arg2.IsWhole) (arg3 : Memref sig .tc .vmem S1024x1 .f32) (harg3 : arg3.IsWhole) (arg4 : Memref sig .tc .vmem S1024x1 .f32) (harg4 : arg4.IsWhole) (hc0 : cond0_0 i) (hc1 : ¬cond0_1 i)
    (x0 : Vec F S1024x2048 .i32) (y : S1024x1.Idx) :
    ∃ pc ∈ (kernelRun0_A c i arg2 harg2 arg3 harg3 arg4 harg4 hc0 hc1 x0).2.1, y ∈ pc.1.set :=
  View.cover_of_tiledL (kernelRun0_A c i arg2 harg2 arg3 harg3 arg4 harg4 hc0 hc1 x0).2.1 S1024x1.size (by sl_kernel_rfl) y

/-- What case A leaves in the accumulator. -/
def sout0_A_0 (c : Dev nD) (i : grid0.Coords) (arg2 : Memref sig .tc .vmem S1024x2048 .i32) (harg2 : arg2.IsWhole) (arg3 : Memref sig .tc .vmem S1024x1 .f32) (harg3 : arg3.IsWhole) (arg4 : Memref sig .tc .vmem S1024x1 .f32) (harg4 : arg4.IsWhole) (hc0 : cond0_0 i) (hc1 : ¬cond0_1 i)
    (x0 : Vec F S1024x2048 .i32) : Vec F S1024x1 .f32 :=
  VS0_0.read (Elt F) (VS0_0.writes (Elt F) VS0_0.junk (kernelRun0_A c i arg2 harg2 arg3 harg3 arg4 harg4 hc0 hc1 x0).2.1)

/-- Case B stores nothing into the output either. -/
def out0_B_1 (c : Dev nD) (i : grid0.Coords) (arg2 : Memref sig .tc .vmem S1024x2048 .i32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : ¬cond0_1 i)
    (x0 : Vec F S1024x2048 .i32) (xs0 : Vec F S1024x1 .f32) : Vec F S1024x1 .f32 :=
  VO0_1.read (Elt F) (VO0_1.writes (Elt F) VO0_1.junk (kernelRun0_B c i arg2 harg2 arg3 harg3 arg4 harg4 hc0 hc1 x0 xs0).1)

theorem scover0_B_0 (c : Dev nD) (i : grid0.Coords) (arg2 : Memref sig .tc .vmem S1024x2048 .i32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : ¬cond0_1 i)
    (x0 : Vec F S1024x2048 .i32) (xs0 : Vec F S1024x1 .f32) (y : S1024x1.Idx) :
    ∃ pc ∈ (kernelRun0_B c i arg2 harg2 arg3 harg3 arg4 harg4 hc0 hc1 x0 xs0).2.1, y ∈ pc.1.set :=
  View.cover_of_tiledL (kernelRun0_B c i arg2 harg2 arg3 harg3 arg4 harg4 hc0 hc1 x0 xs0).2.1 S1024x1.size (by sl_kernel_rfl) y

def sout0_B_0 (c : Dev nD) (i : grid0.Coords) (arg2 : Memref sig .tc .vmem S1024x2048 .i32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : ¬cond0_1 i)
    (x0 : Vec F S1024x2048 .i32) (xs0 : Vec F S1024x1 .f32) : Vec F S1024x1 .f32 :=
  VS0_0.read (Elt F) (VS0_0.writes (Elt F) VS0_0.junk (kernelRun0_B c i arg2 harg2 arg3 harg3 arg4 harg4 hc0 hc1 x0 xs0).2.1)

/-- Case C's one store into the output covers its block. -/
theorem cover0_C_1 (c : Dev nD) (i : grid0.Coords) (arg2 : Memref sig .tc .vmem S1024x2048 .i32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x2048 .i32) (xs0 : Vec F S1024x1 .f32) (y : S1024x1.Idx) :
    ∃ pc ∈ (kernelRun0_C c i arg2 harg2 arg3 harg3 arg4 harg4 hc0 hc1 x0 xs0).1, y ∈ pc.1.set :=
  View.cover_of_tiledL (kernelRun0_C c i arg2 harg2 arg3 harg3 arg4 harg4 hc0 hc1 x0 xs0).1 S1024x1.size (by sl_kernel_rfl) y

/-- What case C leaves in the output's staging buffer. -/
def out0_C_1 (c : Dev nD) (i : grid0.Coords) (arg2 : Memref sig .tc .vmem S1024x2048 .i32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x2048 .i32) (xs0 : Vec F S1024x1 .f32) : Vec F S1024x1 .f32 :=
  VO0_1.read (Elt F) (VO0_1.writes (Elt F) VO0_1.junk (kernelRun0_C c i arg2 harg2 arg3 harg3 arg4 harg4 hc0 hc1 x0 xs0).1)

theorem scover0_C_0 (c : Dev nD) (i : grid0.Coords) (arg2 : Memref sig .tc .vmem S1024x2048 .i32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x2048 .i32) (xs0 : Vec F S1024x1 .f32) (y : S1024x1.Idx) :
    ∃ pc ∈ (kernelRun0_C c i arg2 harg2 arg3 harg3 arg4 harg4 hc0 hc1 x0 xs0).2.1, y ∈ pc.1.set :=
  View.cover_of_tiledL (kernelRun0_C c i arg2 harg2 arg3 harg3 arg4 harg4 hc0 hc1 x0 xs0).2.1 S1024x1.size (by sl_kernel_rfl) y

def sout0_C_0 (c : Dev nD) (i : grid0.Coords) (arg2 : Memref sig .tc .vmem S1024x2048 .i32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x2048 .i32) (xs0 : Vec F S1024x1 .f32) : Vec F S1024x1 .f32 :=
  VS0_0.read (Elt F) (VS0_0.writes (Elt F) VS0_0.junk (kernelRun0_C c i arg2 harg2 arg3 harg3 arg4 harg4 hc0 hc1 x0 xs0).2.1)

/-! ## What the output's staging buffer and the accumulator hold after each point -/

/-- After the body at position n: (the output's staging buffer, the accumulator) — the case the closed forms select
    at n, run on the edge block of the point and on what the point before left in the accumulator. -/
def outsAt0 (c : Dev nD) : (n : ℕ) → n < cfg0.N → Vec F S1024x1 .f32 × Vec F S1024x1 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h0 : (n + 1) % 4 = 0 then
      if h1 : (n + 1) % 4 = 3 then
        False.elim (by omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩))
    else
      if h1 : (n + 1) % 4 = 3 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2)

theorem outsAt0_A (c : Dev nD) (t : Fin cfg0.N) (h0 : t.val % 4 = 0) (h1 : ¬t.val % 4 = 3) :
    outsAt0 V c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk0 V c 0 t), sout0_A_0 c (grid0.coords t) (ms0_0 t) (hs0_0 t) (ms0_1 t) (hs0_1 t) scM0_0 (Memref.isWhole_whole _) ((hcond0_0 t).mpr h0) (fun h => h1 ((hcond0_1 t).mp h)) (iblk0 V c 0 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position n: before the first point the class's; afterwards the accumulator at what the
    point before left, the other scoped buffers unopened, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The proof data of the degree pass -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d

/-- The edge table is an input: its array is never written. -/
theorem arrAt_in0 (c : Dev nD) : (dat0 V c).arrAt 0 cfg0.N = V c (Pipeline.arrRef spec0 0) :=
  ((dat0 V c).arrAt_in 0 rfl _).trans (A_eq0 V c 0)

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  by_cases h0 : t.val % 4 = 0
  · by_cases h1 : t.val % 4 = 3
    · exfalso; omega
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_A t ((hcond0_0 t).mpr h0) (fun h => h1 ((hcond0_1 t).mp h))) (noFlush0_1_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, Hr⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexact HS0
        iintro ⟨H0, H1, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A_0 c _ _ _ _ _ _ _ _ _ _)
            iexact Hr
          iexact Hg
        isplitl [Ho]; · iexact Ho
        isplitl [H0]; · iexact H0
        iexists _; iexact H1
      · rw [PhiS0_castSucc V c t, PhiS0_pos V c _ _ hz]
        iintro ⟨⟨⟨HS0, Hr⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexists _; iexact HS0
        iintro ⟨H0, H1, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A_0 c _ _ _ _ _ _ _ _ _ _)
            iexact Hr
          iexact Hg
        isplitl [Ho]; · iexact Ho
        isplitl [H0]; · iexact H0
        iexists _; iexact H1
  · by_cases h1 : t.val % 4 = 3
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1_C t (fun h => h0 ((hcond0_0 t).mp h)) ((hcond0_1 t).mpr h1)], after0_1]
      rw [outsAt0_C V c t h0 h1]
      unfold out0_C_1 sout0_C_0; (try dsimp only)
      by_cases hz : t.val = 0
      · exfalso; omega
      · rw [PhiS0_castSucc V c t, PhiS0_pos V c _ _ hz]
        iintro ⟨⟨⟨HS0, Hr⟩, Hg⟩, Ho, ⟨%d0, H0⟩, ⟨%d1, H1⟩⟩
        iapply ((kernelRun0_C c (grid0.coords t) _ _ _ _ _ _ (fun h => h0 ((hcond0_0 t).mp h)) ((hcond0_1 t).mpr h1) (iblk0 V c 0 t) _).2.2 Set.univ _)
        isplitl [H0]; · iexact H0
        isplitl [H1]; · iexists _; iexact H1
        isplitl [HS0]; · iexact HS0
        iintro ⟨H0, ⟨%e1, H1⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_C_0 c _ _ _ _ _ _ _ _ _ _ _)
            iexact Hr
          iexact Hg
        isplitl [Ho]; · iexact Ho
        isplitl [H0]; · iexact H0
        unfold owns; iexists _; isplitr
        swap; · iexact H1
        ipureintro; exact View.read_writes_of_cover _ _ _ _ _ (cover0_C_1 c _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      rw [outsAt0_B V c t h0 h1]
      unfold sout0_B_0; (try dsimp only)
      by_cases hz : t.val = 0
      · exfalso; omega
      · rw [PhiS0_castSucc V c t, PhiS0_pos V c _ _ hz]
        iintro ⟨⟨⟨HS0, Hr⟩, Hg⟩, Ho, ⟨%d0, H0⟩, ⟨%d1, H1⟩⟩
        iapply ((kernelRun0_B c (grid0.coords t) _ _ _ _ _ _ (fun h => h0 ((hcond0_0 t).mp h)) (fun h => h1 ((hcond0_1 t).mp h)) (iblk0 V c 0 t) _).2.2 _ Set.univ _)
        isplitl [H0]; · iexact H0
        isplitl [H1]; · iexact H1
        isplitl [HS0]; · iexact HS0
        iintro ⟨H0, H1, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_B_0 c _ _ _ _ _ _ _ _ _ _ _)
            iexact Hr
          iexact Hg
        isplitl [Ho]; · iexact Ho
        isplitl [H0]; · iexact H0
        iexists _; iexact H1

/-- The body obligation of the degree pass, at every point. -/
theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hr⟩, Hg⟩
  isplitl [HS0 Hr]
  · isplitl [HS0]
    · iexists _; iexact HS0
    iexact Hr
  iexact Hg

theorem hout0 (c : Dev nD) : (dat0 V c).Φ (Fin.last cfg0.N) ⊢ Pipeline.ΦA spec0 c :=
  Phi_out0 V c _ (by rw [Fin.val_last]; have : cfg0.N = 32 := N_0; omega)

end Cert.KernelIdeal.Hand

end
-- ==== Proof.Region1.lean ====
/-
  The normalised-adjacency region (pipeline 1), frame half, at any float model.

  The grid is 8 × 4.  At the point (i, j) the body reads a 1024 × 2048 block of the edge table, the
  1024 × 1 block of the scale column and the 1 × 2048 block of the scale row, and stores ONE whole
  1024 × 2048 block of the result.  Every point is alike: there is no carried state, so the invariant
  is the constant one, and the stored block is a function of the three blocks read and of the
  point's coordinates (the diagonal indicator is built from them).
-/
import proofs.«178500_j188978561286_1_alg».proof.Proof.Gen.KernelIdeal.Launch
import proofs.«178500_j188978561286_1_alg».proof.Proof.Gen.KernelIdeal.Skeleton
import proofs.«178500_j188978561286_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the block was
    fetched at this point or at an earlier one with the same block index: the window is never cut and
    never idle, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read and written whole -/

abbrev r1_a : Rect S1024x2048 := Rect.unit (s := S1024x2048) ![0, 0] S1024x2048.size inb_S1024x2048_S1024x2048_0_0
abbrev r1_b : Rect S1024x1 := Rect.unit (s := S1024x1) ![0, 0] S1024x1.size inb_S1024x1_S1024x1_0_0
abbrev r1_c : Rect S1x2048 := Rect.unit (s := S1x2048) ![0, 0] S1x2048.size inb_S1x2048_S1x2048_0_0

/-! ## What the body leaves in the output window's buffer -/

/-- The output's staging buffer after the body at the point with coordinates `i`, from the three
    blocks read: its one store, of the whole block. -/
def out1_3 (i : grid1.Coords) (x0 : Vec F S1024x2048 .i32) (x1 : Vec F S1024x1 .f32) (x2 : Vec F S1x2048 .f32) : Vec F S1024x2048 .bf16 :=
  View.canon [⟨r1_a, k1_pay1 i (View.ld x0 r1_a) (View.ld x1 r1_b) (View.ld x2 r1_c)⟩]

/-- The one store covers the buffer. -/
theorem cover1_3 (p0 : Vec F S1024x2048 .bf16) (y : S1024x2048.Idx) :
    ∃ pc ∈ ([⟨r1_a, p0⟩] : List (View.Piece (Elt F) S1024x2048 .bf16)), y ∈ pc.1.set :=
  View.cover_of_tiled [⟨r1_a, p0⟩] S1024x2048.size (by rfl) y

/-! ## The body's triple -/

set_option maxHeartbeats 1000000 in
/-- The kernel body on whole staging memrefs, the inputs' at contents `xW` and the output's at anything, runs to
    the continuation holding the inputs' as they were and the output's at `out1_3` of the inputs'. -/
theorem sound_kernel1 (c : Dev nD) (E : Set ℕ) (i : grid1.Coords)
    (arg2 : Memref sig .tc .vmem S1024x2048 .i32) (harg2 : arg2.IsWhole) (arg3 : Memref sig .tc .vmem S1024x1 .f32) (harg3 : arg3.IsWhole)
    (arg4 : Memref sig .tc .vmem S1x2048 .f32) (harg4 : arg4.IsWhole) (arg5 : Memref sig .tc .vmem S1024x2048 .bf16) (harg5 : arg5.IsWhole)
    (x0 : Vec F S1024x2048 .i32) (x1 : Vec F S1024x1 .f32) (x2 : Vec F S1x2048 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 i x0 x1 x2)) -∗ K ⟨⟩))
      ⊢ wp frame (wpE (defs₀ (F := F)) Variants.none c none) E (cc1__nadj_kernel i arg2 harg2 arg3 harg3 arg4 harg4 arg5 harg5) K := by
  simp only [cc1__nadj_kernel_eq_skeleton]; unfold cc1__nadj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them; after the body at point `t`
    each input's buffer at its block and the output's at `out1_3` of the point's coordinates and the input
    blocks; the constant invariant (the scoped rest and the generator register, untouched); nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (grid1.coords t) (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (grid1.coords t) (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the kernel's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the two ends, and the input arrays at the end -/

theorem hin1 (c : Dev nD) : Pipeline.ΦA spec1 c ⊢ (dat1 V c).Φ 0 := .rfl

theorem hout1 (c : Dev nD) : (dat1 V c).Φ (Fin.last cfg1.N) ⊢ Pipeline.ΦA spec1 c := .rfl

/-- An input window's array is never written: at the end it is what the region found. -/
theorem arrAt_in1_0 (c : Dev nD) : (dat1 V c).arrAt 0 cfg1.N = V c (Pipeline.arrRef spec1 0) :=
  ((dat1 V c).arrAt_in 0 rfl cfg1.N).trans (A_eq1 V c 0)
theorem arrAt_in1_1 (c : Dev nD) : (dat1 V c).arrAt 1 cfg1.N = V c (Pipeline.arrRef spec1 1) :=
  ((dat1 V c).arrAt_in 1 rfl cfg1.N).trans (A_eq1 V c 1)
theorem arrAt_in1_2 (c : Dev nD) : (dat1 V c).arrAt 2 cfg1.N = V c (Pipeline.arrRef spec1 2) :=
  ((dat1 V c).arrAt_in 2 rfl cfg1.N).trans (A_eq1 V c 2)

end Cert.KernelIdeal.Hand

end
-- ==== Proof.Region2Runs.lean ====
import proofs.«178500_j188978561286_1_alg».proof.Proof.Gen.KernelIdeal.Launch
import proofs.«178500_j188978561286_1_alg».proof.Proof.Gen.KernelIdeal.Skeleton
import proofs.«178500_j188978561286_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The body's two conditions, over the grid

The grid is 4 × 4, walked row-major: point `t` is tile `k = t % 4` of block row `i = t / 4`.  The body's first
conditional (clear the accumulator) tests `k = 0`, its second (finish the row: add the bias row, apply the leaky
rectifier, store the output block) tests `k = 3`. -/

/-- The first conditional's test, from the grid coordinates. -/
abbrev cond2_0 (i : grid2.Coords) : Prop := (Scalar.cmpi .ne (Scalar.extui (Scalar.cmpi .eq (BitVec.ofNat 32 (i 1).val) 0#32)) 0#32) = 1#1
/-- It holds exactly at the points whose position is 0 modulo 4. -/
theorem hcond2_0 : ∀ t : Fin cfg2.N, cond2_0 (grid2.coords t) ↔ t.val % 4 = 0 :=
  (by decide +kernel : ∀ t : Fin grid2.N, cond2_0 (grid2.coords t) ↔ t.val % 4 = 0)

/-- The second conditional's test. -/
abbrev cond2_1 (i : grid2.Coords) : Prop := k2_cond2 i = 1#1
/-- It holds exactly at the points whose position is 3 modulo 4. -/
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

/-- The four inputs are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- The output is idle, and not written back, at every point but the last of a row. -/
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
/-- At the last point of a row it is live. -/
theorem liveAt2_4 : ∀ t : Fin cfg2.N, cond2_1 (grid2.coords t) → cfg2.idle 4 (grid2.coords t) = false := by decide +kernel

/-! ## The memrefs the body is called with -/

/-- One staging buffer of the output window, through which its contents are stated. -/
abbrev VO2_4 : View sig .tc .vmem S2048x64 .f32 := (Memref.whole cc2_stg4_0 : Memref sig .tc .vmem S2048x64 .f32).view
/-- Each window's current staging memref at point `t`, and its wholeness. -/
abbrev ms2_0 (t : Fin cfg2.N) : Memref sig .tc .vmem S2048x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S2048x64 .f32 := win2_4.stage (cfg2.slots t 4)
abbrev hs2_4 (t : Fin cfg2.N) : (ms2_4 t).IsWhole := hstage2_4 ((cfg2.slots t 4).cast nbuf2_4)
/-- The accumulator: a whole scoped buffer of the kernel's own, carried from point to point. -/
abbrev scM2_0 : Memref sig .tc .vmem S2048x64 .f32 := Memref.whole cc2_scratch0
abbrev VS2_0 : View sig .tc .vmem S2048x64 .f32 := scM2_0.view

/-- What the launch hands the region, with the accumulator split off as a memref owned at some contents; the other
    scoped buffers stay unopened. -/
theorem PhiA2_eq (c : Dev nD) :
    (Pipeline.ΦA spec2 c : sProp 𝕄)
      = iprop(iprop((∃ d, owns (c : Thread nD τ) scM2_0 fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

/-! ## The body's three runs

Each is the body's triple on whole memrefs, with the lists of pieces its stores leave as the witness found by the
symbolic run. -/

set_option maxHeartbeats 1000000 in
/-- First tile of a row (`k = 0`): the accumulator, at anything, is cleared and one tile product added; the output's
    buffer is handed back untouched. -/
noncomputable def kernelRun2_A (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole) (hc0 : cond2_0 i) (hc1 : ¬cond2_1 i)
    (x0 : Vec F S2048x2048 .bf16) (x1 : Vec F S2048x128 .f32) (x2 : Vec F S128x64 .f32) (x3 : Vec F S1x64 .f32) :
    Σ' (L4 : List (View.Piece (Elt F) S2048x64 .f32)), { LS0 : List (View.Piece (Elt F) S2048x64 .f32) //
      ∀ (xi4 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc2__gcn_kernel i arg2 harg2 arg3 harg3 arg4 harg4 arg5 harg5 arg6 harg6 arg7 harg7) K } := by
  refine ⟨[], ?_, fun xi4 E K => ?run⟩
  case run =>
    simp only [cc2__gcn_kernel_eq_skeleton]; unfold cc2__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- A middle tile (`k = 1, 2`): one tile product is added to the accumulator the point before left; the output's
    buffer is handed back untouched. -/
noncomputable def kernelRun2_B (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole) (hc0 : ¬cond2_0 i) (hc1 : ¬cond2_1 i)
    (x0 : Vec F S2048x2048 .bf16) (x1 : Vec F S2048x128 .f32) (x2 : Vec F S128x64 .f32) (x3 : Vec F S1x64 .f32) (xs0 : Vec F S2048x64 .f32) :
    Σ' (L4 : List (View.Piece (Elt F) S2048x64 .f32)), { LS0 : List (View.Piece (Elt F) S2048x64 .f32) //
      ∀ (xi4 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc2__gcn_kernel i arg2 harg2 arg3 harg3 arg4 harg4 arg5 harg5 arg6 harg6 arg7 harg7) K } := by
  refine ⟨[], ?_, fun xi4 E K => ?run⟩
  case run =>
    simp only [cc2__gcn_kernel_eq_skeleton]; unfold cc2__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- Last tile of a row (`k = 3`): the last tile product is added, then the output block is stored from the finished
    accumulator and the bias row. -/
noncomputable def kernelRun2_C (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole) (hc0 : ¬cond2_0 i) (hc1 : cond2_1 i)
    (x0 : Vec F S2048x2048 .bf16) (x1 : Vec F S2048x128 .f32) (x2 : Vec F S128x64 .f32) (x3 : Vec F S1x64 .f32) (xs0 : Vec F S2048x64 .f32) :
    Σ' (L4 : List (View.Piece (Elt F) S2048x64 .f32)), { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc2__gcn_kernel i arg2 harg2 arg3 harg3 arg4 harg4 arg5 harg5 arg6 harg6 arg7 harg7) K } := by
  refine ⟨?_, ?_, fun E K => ?run⟩
  case run =>
    simp only [cc2__gcn_kernel_eq_skeleton]; unfold cc2__gcn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.Region2.lean ====
import proofs.«178500_j188978561286_1_alg».proof.Proof.Region2Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the first graph-convolution layer, at the entry contents `V`

The grid is 4 × 4.  At point `t = 4 i + k` the body adds tile `k` of block row `i` of the product to an accumulator
it carries from point to point (cleared at `k = 0`), and at `k = 3` stores the finished row block.  The proof data
records, point by point, what the accumulator and the output's staging buffer hold. -/

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not: where it is not
    fetched its block index has not moved.  For any proof data whose array is the entry contents and whose body
    leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves -/

/-- The first tile of a row at point `t`. -/
abbrev runA2 (c : Dev nD) (t : Fin cfg2.N) (h0 : t.val % 4 = 0) :=
  kernelRun2_A (F := F) c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => by have h3 := (hcond2_1 t).mp h; omega) (iblk2 V c 0 t) (iblk2 V c 1 t) (iblk2 V c 2 t) (iblk2 V c 3 t)
/-- A middle tile at point `t`, over what the accumulator held. -/
abbrev runB2 (c : Dev nD) (t : Fin cfg2.N) (h0 : ¬t.val % 4 = 0) (h1 : ¬t.val % 4 = 3) (prev : Vec F S2048x64 .f32) :=
  kernelRun2_B (F := F) c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk2 V c 0 t) (iblk2 V c 1 t) (iblk2 V c 2 t) (iblk2 V c 3 t) prev
/-- The last tile of a row at point `t`, over what the accumulator held. -/
abbrev runC2 (c : Dev nD) (t : Fin cfg2.N) (h0 : ¬t.val % 4 = 0) (h1 : t.val % 4 = 3) (prev : Vec F S2048x64 .f32) :=
  kernelRun2_C (F := F) c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) prev

/-- A list of pieces read back through the accumulator's view, and through the output's. -/
abbrev readS2 (L : List (View.Piece (Elt F) S2048x64 .f32)) : Vec F S2048x64 .f32 := VS2_0.read (Elt F) (VS2_0.writes (Elt F) VS2_0.junk L)
abbrev readO2 (L : List (View.Piece (Elt F) S2048x64 .f32)) : Vec F S2048x64 .f32 := VO2_4.read (Elt F) (VO2_4.writes (Elt F) VO2_4.junk L)

/-- In every case the pieces stored into the accumulator tile it, so they cover it. -/
theorem scover2_A (c : Dev nD) (t : Fin cfg2.N) (h0 : t.val % 4 = 0) (y : S2048x64.Idx) :
    ∃ pc ∈ (runA2 V c t h0).2.1, y ∈ pc.1.set :=
  View.cover_of_tiledL (runA2 V c t h0).2.1 S2048x64.size (by sl_kernel_rfl) y
theorem scover2_B (c : Dev nD) (t : Fin cfg2.N) (h0 : ¬t.val % 4 = 0) (h1 : ¬t.val % 4 = 3) (prev : Vec F S2048x64 .f32) (y : S2048x64.Idx) :
    ∃ pc ∈ (runB2 V c t h0 h1 prev).2.1, y ∈ pc.1.set :=
  View.cover_of_tiledL (runB2 V c t h0 h1 prev).2.1 S2048x64.size (by sl_kernel_rfl) y
theorem scover2_C (c : Dev nD) (t : Fin cfg2.N) (h0 : ¬t.val % 4 = 0) (h1 : t.val % 4 = 3) (prev : Vec F S2048x64 .f32) (y : S2048x64.Idx) :
    ∃ pc ∈ (runC2 V c t h0 h1 prev).2.1, y ∈ pc.1.set :=
  View.cover_of_tiledL (runC2 V c t h0 h1 prev).2.1 S2048x64.size (by sl_kernel_rfl) y
/-- At the last tile of a row the one store into the output's buffer covers it. -/
theorem cover2_C (c : Dev nD) (t : Fin cfg2.N) (h0 : ¬t.val % 4 = 0) (h1 : t.val % 4 = 3) (prev : Vec F S2048x64 .f32) (y : S2048x64.Idx) :
    ∃ pc ∈ (runC2 V c t h0 h1 prev).1, y ∈ pc.1.set :=
  View.cover_of_tiledL (runC2 V c t h0 h1 prev).1 S2048x64.size (by sl_kernel_rfl) y

/-! ## Point by point -/

/-- One step: what the output's staging buffer and the accumulator hold after the body at point `t`, from what the
    accumulator held before it (not consulted at the first tile of a row, where it is cleared).  Where the output is
    not stored its component is a placeholder nothing reads. -/
def stepAt2 (c : Dev nD) (t : Fin cfg2.N) (prev : Vec F S2048x64 .f32) : Vec F S2048x64 .f32 × Vec F S2048x64 .f32 :=
  if h0 : t.val % 4 = 0 then (readO2 (runA2 V c t h0).1, readS2 (runA2 V c t h0).2.1)
  else if h1 : t.val % 4 = 3 then (readO2 (runC2 V c t h0 h1 prev).1, readS2 (runC2 V c t h0 h1 prev).2.1)
  else (readO2 (runB2 V c t h0 h1 prev).1, readS2 (runB2 V c t h0 h1 prev).2.1)

theorem stepAt2_A (c : Dev nD) (t : Fin cfg2.N) (prev : Vec F S2048x64 .f32) (h0 : t.val % 4 = 0) :
    stepAt2 V c t prev = (readO2 (runA2 V c t h0).1, readS2 (runA2 V c t h0).2.1) := dif_pos h0
theorem stepAt2_B (c : Dev nD) (t : Fin cfg2.N) (prev : Vec F S2048x64 .f32) (h0 : ¬t.val % 4 = 0) (h1 : ¬t.val % 4 = 3) :
    stepAt2 V c t prev = (readO2 (runB2 V c t h0 h1 prev).1, readS2 (runB2 V c t h0 h1 prev).2.1) := (dif_neg h0).trans (dif_neg h1)
theorem stepAt2_C (c : Dev nD) (t : Fin cfg2.N) (prev : Vec F S2048x64 .f32) (h0 : ¬t.val % 4 = 0) (h1 : t.val % 4 = 3) :
    stepAt2 V c t prev = (readO2 (runC2 V c t h0 h1 prev).1, readS2 (runC2 V c t h0 h1 prev).2.1) := (dif_neg h0).trans (dif_pos h1)

/-- THE ACCUMULATION: the pair after the body at position `n`, by recursion on the position. -/
def outsAt2 (c : Dev nD) : (n : ℕ) → n < cfg2.N → Vec F S2048x64 .f32 × Vec F S2048x64 .f32
  | 0, hn => stepAt2 V c ⟨0, hn⟩ (readS2 [])
  | n + 1, hn => stepAt2 V c ⟨n + 1, hn⟩ (outsAt2 c n (Nat.lt_of_succ_lt hn)).2

/-- What the accumulator holds when the body is entered at point `t`. -/
def prevAt2 (c : Dev nD) (t : Fin cfg2.N) : Vec F S2048x64 .f32 :=
  if h : t.val = 0 then readS2 [] else (outsAt2 V c (t.val - 1) (Nat.lt_of_le_of_lt (Nat.sub_le _ _) t.isLt)).2

theorem outsAt2_eq (c : Dev nD) (t : Fin cfg2.N) : outsAt2 V c t.val t.isLt = stepAt2 V c t (prevAt2 V c t) := by
  obtain ⟨n, hn⟩ := t
  cases n with
  | zero => rfl
  | succ n => rfl

theorem prevAt2_pos (c : Dev nD) (t : Fin cfg2.N) (hz : t.val ≠ 0) :
    prevAt2 V c t = (outsAt2 V c (t.val - 1) (Nat.lt_of_le_of_lt (Nat.sub_le _ _) t.isLt)).2 := dif_neg hz

/-! ## The invariant -/

/-- Before the first point: what the launch hands over.  Afterwards: the accumulator at what the point before left,
    the other scoped buffers unopened, the generator register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2)
      ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2)
      ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2)
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The proof data -/

/-- The arrays as the region finds them; after the body each input's buffer at its block and the output's at the
    step's first component; the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- An input's array is never written: after the run it is the entry contents. -/
theorem arrAt_in2_0 (c : Dev nD) : (dat2 V c).arrAt 0 cfg2.N = V c (Pipeline.arrRef spec2 0) := ((dat2 V c).arrAt_in 0 rfl _).trans (A_eq2 V c 0)
theorem arrAt_in2_1 (c : Dev nD) : (dat2 V c).arrAt 1 cfg2.N = V c (Pipeline.arrRef spec2 1) := ((dat2 V c).arrAt_in 1 rfl _).trans (A_eq2 V c 1)
theorem arrAt_in2_2 (c : Dev nD) : (dat2 V c).arrAt 2 cfg2.N = V c (Pipeline.arrRef spec2 2) := ((dat2 V c).arrAt_in 2 rfl _).trans (A_eq2 V c 2)
theorem arrAt_in2_3 (c : Dev nD) : (dat2 V c).arrAt 3 cfg2.N = V c (Pipeline.arrRef spec2 3) := ((dat2 V c).arrAt_in 3 rfl _).trans (A_eq2 V c 3)

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point.  The inputs' buffers hold their blocks; the position modulo 4 says which of the three runs
    applies; the invariant hands the body the accumulator (at anything before the first point, else at what the point
    before left) and takes it back at this point's contents, the pieces stored into it covering it; the output's buffer
    is handed back untouched except at the last tile of a row, where the one store covers it. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  have hN : t.val < 16 := lt_of_lt_of_eq t.isLt (show cfg2.N = 16 from N_2)
  by_cases h0 : t.val % 4 = 0
  · have h1 : ¬t.val % 4 = 3 := by omega
    rw [Dat.leavesExact_idle (dat2 V c) 4 t (idleAt2_4 t (fun h => h1 ((hcond2_1 t).mp h))) (noFlush2_4 t (fun h => h1 ((hcond2_1 t).mp h)))]
    rw [outsAt2_eq V c t, stepAt2_A V c t _ h0]
    (try dsimp only)
    by_cases hz : t.val = 0
    · rw [PhiS2_castSucc V c t, PhiS2_zero V c _ _ hz, PhiA2_eq]
      iintro ⟨⟨⟨HS0, Hr⟩, Hg⟩, Ho, ⟨%d0, H0⟩, ⟨%d1, H1⟩, ⟨%d2, H2⟩, ⟨%d3, H3⟩, ⟨%d4, H4⟩⟩
      iapply ((runA2 V c t h0).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover2_A V c t h0)
          iexact Hr
        iexact Hg
      isplitl [Ho]; · iexact Ho
      isplitl [H0]; · iexact H0
      isplitl [H1]; · iexact H1
      isplitl [H2]; · iexact H2
      isplitl [H3]; · iexact H3
      iexists _; iexact H4
    · rw [PhiS2_castSucc V c t, PhiS2_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((runA2 V c t h0).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover2_A V c t h0)
          iexact Hr
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 4 = 3
    · rw [show (dat2 V c).leavesExact 4 t = owns (c : Thread nD τ) (ms2_4 t) fullShare ((dat2 V c).after 4 t) from by
        unfold Dat.leavesExact; rw [liveAt2_4 t ((hcond2_1 t).mpr h1)], after2_4]
      rw [outsAt2_eq V c t, stepAt2_C V c t _ h0 h1]
      (try dsimp only)
      rw [PhiS2_castSucc V c t, PhiS2_pos V c _ _ hz, prevAt2_pos V c t hz]
      iintro ⟨⟨⟨HS0, Hr⟩, Hg⟩, Ho, ⟨%d0, H0⟩, ⟨%d1, H1⟩, ⟨%d2, H2⟩, ⟨%d3, H3⟩, ⟨%d4, H4⟩⟩
      iapply ((runC2 V c t h0 h1 _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover2_C V c t h0 h1 _)
          iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover2_C V c t h0 h1 _)
    · rw [Dat.leavesExact_idle (dat2 V c) 4 t (idleAt2_4 t (fun h => h1 ((hcond2_1 t).mp h))) (noFlush2_4 t (fun h => h1 ((hcond2_1 t).mp h)))]
      rw [outsAt2_eq V c t, stepAt2_B V c t _ h0 h1]
      (try dsimp only)
      rw [PhiS2_castSucc V c t, PhiS2_pos V c _ _ hz, prevAt2_pos V c t hz]
      iintro ⟨⟨⟨HS0, Hr⟩, Hg⟩, Ho, ⟨%d0, H0⟩, ⟨%d1, H1⟩, ⟨%d2, H2⟩, ⟨%d3, H3⟩, ⟨%d4, H4⟩⟩
      iapply ((runB2 V c t h0 h1 _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover2_B V c t h0 h1 _)
          iexact Hr
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives it back: what the accumulator holds is forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hr⟩, Hg⟩
  isplitl [HS0 Hr]
  · isplitl [HS0]
    · iexists _; iexact HS0
    iexact Hr
  iexact Hg

/-- The same after the last point. -/
theorem hout2 (c : Dev nD) : (dat2 V c).Φ (Fin.last cfg2.N) ⊢ Pipeline.ΦA spec2 c :=
  Phi_out2 V c _ (by rw [Fin.val_last]; have : cfg2.N = 16 := N_2; omega)

end Cert.KernelIdeal.Hand

end
-- ==== Proof.Region3Runs.lean ====
import proofs.«178500_j188978561286_1_alg».proof.Proof.Gen.KernelIdeal.Launch
import proofs.«178500_j188978561286_1_alg».proof.Proof.Gen.KernelIdeal.Skeleton
import proofs.«178500_j188978561286_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The body's two conditions, over the grid

The grid is 4 × 4, walked row-major: point `t` is tile `k = t % 4` of block row `i = t / 4`.  The body's first
conditional (clear the accumulator) tests `k = 0`, its second (finish the row: add the bias row, apply the leaky
rectifier, store the output block) tests `k = 3`. -/

/-- The first conditional's test, from the grid coordinates. -/
abbrev cond3_0 (i : grid3.Coords) : Prop := (Scalar.cmpi .ne (Scalar.extui (Scalar.cmpi .eq (BitVec.ofNat 32 (i 1).val) 0#32)) 0#32) = 1#1
/-- It holds exactly at the points whose position is 0 modulo 4. -/
theorem hcond3_0 : ∀ t : Fin cfg3.N, cond3_0 (grid3.coords t) ↔ t.val % 4 = 0 :=
  (by decide +kernel : ∀ t : Fin grid3.N, cond3_0 (grid3.coords t) ↔ t.val % 4 = 0)

/-- The second conditional's test. -/
abbrev cond3_1 (i : grid3.Coords) : Prop := k3_cond2 i = 1#1
/-- It holds exactly at the points whose position is 3 modulo 4. -/
theorem hcond3_1 : ∀ t : Fin cfg3.N, cond3_1 (grid3.coords t) ↔ t.val % 4 = 3 :=
  (by decide +kernel : ∀ t : Fin grid3.N, cond3_1 (grid3.coords t) ↔ t.val % 4 = 3)

/-! ## Where the windows are idle -/

/-- The four inputs are never idle. -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
/-- The output is idle, and not written back, at every point but the last of a row. -/
theorem idleAt3_4 : ∀ t : Fin cfg3.N, ¬cond3_1 (grid3.coords t) → cfg3.idle 4 (grid3.coords t) = true := by decide +kernel
theorem noFlush3_4 : ∀ t : Fin cfg3.N, ¬cond3_1 (grid3.coords t) → (cfg3.win 4).flush t = false := by decide +kernel
/-- At the last point of a row it is live. -/
theorem liveAt3_4 : ∀ t : Fin cfg3.N, cond3_1 (grid3.coords t) → cfg3.idle 4 (grid3.coords t) = false := by decide +kernel

/-! ## The memrefs the body is called with -/

/-- One staging buffer of the output window, through which its contents are stated. -/
abbrev VO3_4 : View sig .tc .vmem S2048x128 .f32 := (Memref.whole cc3_stg4_0 : Memref sig .tc .vmem S2048x128 .f32).view
/-- Each window's current staging memref at point `t`, and its wholeness. -/
abbrev ms3_0 (t : Fin cfg3.N) : Memref sig .tc .vmem S2048x2048 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x64 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S64x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x128 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S2048x128 .f32 := win3_4.stage (cfg3.slots t 4)
abbrev hs3_4 (t : Fin cfg3.N) : (ms3_4 t).IsWhole := hstage3_4 ((cfg3.slots t 4).cast nbuf3_4)
/-- The accumulator: a whole scoped buffer of the kernel's own, carried from point to point. -/
abbrev scM3_0 : Memref sig .tc .vmem S2048x128 .f32 := Memref.whole cc3_scratch0
abbrev VS3_0 : View sig .tc .vmem S2048x128 .f32 := scM3_0.view

/-- What the launch hands the region, with the accumulator split off as a memref owned at some contents; the other
    scoped buffers stay unopened. -/
theorem PhiA3_eq (c : Dev nD) :
    (Pipeline.ΦA spec3 c : sProp 𝕄)
      = iprop(iprop((∃ d, owns (c : Thread nD τ) scM3_0 fullShare d)
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

/-! ## The body's three runs

Each is the body's triple on whole memrefs, with the lists of pieces its stores leave as the witness found by the
symbolic run. -/

set_option maxHeartbeats 1000000 in
/-- First tile of a row (`k = 0`): the accumulator, at anything, is cleared and one tile product added; the output's
    buffer is handed back untouched. -/
noncomputable def kernelRun3_A (c : Dev nD) (i : grid3.Coords) (arg2 : Memref sig .tc .vmem S2048x2048 .bf16) (harg2 : arg2.IsWhole) (arg3 : Memref sig .tc .vmem S2048x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : cond3_0 i) (hc1 : ¬cond3_1 i)
    (x0 : Vec F S2048x2048 .bf16) (x1 : Vec F S2048x64 .f32) (x2 : Vec F S64x128 .f32) (x3 : Vec F S1x128 .f32) :
    Σ' (L4 : List (View.Piece (Elt F) S2048x128 .f32)), { LS0 : List (View.Piece (Elt F) S2048x128 .f32) //
      ∀ (xi4 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc3__gcn_kernel i arg2 harg2 arg3 harg3 arg4 harg4 arg5 harg5 arg6 harg6 arg7 harg7) K } := by
  refine ⟨[], ?_, fun xi4 E K => ?run⟩
  case run =>
    simp only [cc3__gcn_kernel_eq_skeleton]; unfold cc3__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- A middle tile (`k = 1, 2`): one tile product is added to the accumulator the point before left; the output's
    buffer is handed back untouched. -/
noncomputable def kernelRun3_B (c : Dev nD) (i : grid3.Coords) (arg2 : Memref sig .tc .vmem S2048x2048 .bf16) (harg2 : arg2.IsWhole) (arg3 : Memref sig .tc .vmem S2048x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬cond3_0 i) (hc1 : ¬cond3_1 i)
    (x0 : Vec F S2048x2048 .bf16) (x1 : Vec F S2048x64 .f32) (x2 : Vec F S64x128 .f32) (x3 : Vec F S1x128 .f32) (xs0 : Vec F S2048x128 .f32) :
    Σ' (L4 : List (View.Piece (Elt F) S2048x128 .f32)), { LS0 : List (View.Piece (Elt F) S2048x128 .f32) //
      ∀ (xi4 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc3__gcn_kernel i arg2 harg2 arg3 harg3 arg4 harg4 arg5 harg5 arg6 harg6 arg7 harg7) K } := by
  refine ⟨[], ?_, fun xi4 E K => ?run⟩
  case run =>
    simp only [cc3__gcn_kernel_eq_skeleton]; unfold cc3__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- Last tile of a row (`k = 3`): the last tile product is added, then the output block is stored from the finished
    accumulator and the bias row. -/
noncomputable def kernelRun3_C (c : Dev nD) (i : grid3.Coords) (arg2 : Memref sig .tc .vmem S2048x2048 .bf16) (harg2 : arg2.IsWhole) (arg3 : Memref sig .tc .vmem S2048x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬cond3_0 i) (hc1 : cond3_1 i)
    (x0 : Vec F S2048x2048 .bf16) (x1 : Vec F S2048x64 .f32) (x2 : Vec F S64x128 .f32) (x3 : Vec F S1x128 .f32) (xs0 : Vec F S2048x128 .f32) :
    Σ' (L4 : List (View.Piece (Elt F) S2048x128 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc3__gcn_kernel i arg2 harg2 arg3 harg3 arg4 harg4 arg5 harg5 arg6 harg6 arg7 harg7) K } := by
  refine ⟨?_, ?_, fun E K => ?run⟩
  case run =>
    simp only [cc3__gcn_kernel_eq_skeleton]; unfold cc3__gcn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.Region3.lean ====
import proofs.«178500_j188978561286_1_alg».proof.Proof.Region3Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 3: the layer producing the latent code, at the entry contents `V`

The grid is 4 × 4.  At point `t = 4 i + k` the body adds tile `k` of block row `i` of the product to an accumulator
it carries from point to point (cleared at `k = 0`), and at `k = 3` stores the finished row block.  The proof data
records, point by point, what the accumulator and the output's staging buffer hold. -/

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not: where it is not
    fetched its block index has not moved.  For any proof data whose array is the entry contents and whose body
    leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## What each case leaves -/

/-- The first tile of a row at point `t`. -/
abbrev runA3 (c : Dev nD) (t : Fin cfg3.N) (h0 : t.val % 4 = 0) :=
  kernelRun3_A (F := F) c (grid3.coords t) (ms3_0 t) (hs3_0 t) (ms3_1 t) (hs3_1 t) (ms3_2 t) (hs3_2 t) (ms3_3 t) (hs3_3 t) (ms3_4 t) (hs3_4 t) scM3_0 (Memref.isWhole_whole _) ((hcond3_0 t).mpr h0) (fun h => by have h3 := (hcond3_1 t).mp h; omega) (iblk3 V c 0 t) (iblk3 V c 1 t) (iblk3 V c 2 t) (iblk3 V c 3 t)
/-- A middle tile at point `t`, over what the accumulator held. -/
abbrev runB3 (c : Dev nD) (t : Fin cfg3.N) (h0 : ¬t.val % 4 = 0) (h1 : ¬t.val % 4 = 3) (prev : Vec F S2048x128 .f32) :=
  kernelRun3_B (F := F) c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) (fun h => h1 ((hcond3_1 t).mp h)) (iblk3 V c 0 t) (iblk3 V c 1 t) (iblk3 V c 2 t) (iblk3 V c 3 t) prev
/-- The last tile of a row at point `t`, over what the accumulator held. -/
abbrev runC3 (c : Dev nD) (t : Fin cfg3.N) (h0 : ¬t.val % 4 = 0) (h1 : t.val % 4 = 3) (prev : Vec F S2048x128 .f32) :=
  kernelRun3_C (F := F) c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) ((hcond3_1 t).mpr h1) (iblk3 V c 0 t) (iblk3 V c 1 t) (iblk3 V c 2 t) (iblk3 V c 3 t) prev

/-- A list of pieces read back through the accumulator's view, and through the output's. -/
abbrev readS3 (L : List (View.Piece (Elt F) S2048x128 .f32)) : Vec F S2048x128 .f32 := VS3_0.read (Elt F) (VS3_0.writes (Elt F) VS3_0.junk L)
abbrev readO3 (L : List (View.Piece (Elt F) S2048x128 .f32)) : Vec F S2048x128 .f32 := VO3_4.read (Elt F) (VO3_4.writes (Elt F) VO3_4.junk L)

/-- In every case the pieces stored into the accumulator tile it, so they cover it. -/
theorem scover3_A (c : Dev nD) (t : Fin cfg3.N) (h0 : t.val % 4 = 0) (y : S2048x128.Idx) :
    ∃ pc ∈ (runA3 V c t h0).2.1, y ∈ pc.1.set :=
  View.cover_of_tiledL (runA3 V c t h0).2.1 S2048x128.size (by sl_kernel_rfl) y
theorem scover3_B (c : Dev nD) (t : Fin cfg3.N) (h0 : ¬t.val % 4 = 0) (h1 : ¬t.val % 4 = 3) (prev : Vec F S2048x128 .f32) (y : S2048x128.Idx) :
    ∃ pc ∈ (runB3 V c t h0 h1 prev).2.1, y ∈ pc.1.set :=
  View.cover_of_tiledL (runB3 V c t h0 h1 prev).2.1 S2048x128.size (by sl_kernel_rfl) y
theorem scover3_C (c : Dev nD) (t : Fin cfg3.N) (h0 : ¬t.val % 4 = 0) (h1 : t.val % 4 = 3) (prev : Vec F S2048x128 .f32) (y : S2048x128.Idx) :
    ∃ pc ∈ (runC3 V c t h0 h1 prev).2.1, y ∈ pc.1.set :=
  View.cover_of_tiledL (runC3 V c t h0 h1 prev).2.1 S2048x128.size (by sl_kernel_rfl) y
/-- At the last tile of a row the one store into the output's buffer covers it. -/
theorem cover3_C (c : Dev nD) (t : Fin cfg3.N) (h0 : ¬t.val % 4 = 0) (h1 : t.val % 4 = 3) (prev : Vec F S2048x128 .f32) (y : S2048x128.Idx) :
    ∃ pc ∈ (runC3 V c t h0 h1 prev).1, y ∈ pc.1.set :=
  View.cover_of_tiledL (runC3 V c t h0 h1 prev).1 S2048x128.size (by sl_kernel_rfl) y

/-! ## Point by point -/

/-- One step: what the output's staging buffer and the accumulator hold after the body at point `t`, from what the
    accumulator held before it (not consulted at the first tile of a row, where it is cleared).  Where the output is
    not stored its component is a placeholder nothing reads. -/
def stepAt3 (c : Dev nD) (t : Fin cfg3.N) (prev : Vec F S2048x128 .f32) : Vec F S2048x128 .f32 × Vec F S2048x128 .f32 :=
  if h0 : t.val % 4 = 0 then (readO3 (runA3 V c t h0).1, readS3 (runA3 V c t h0).2.1)
  else if h1 : t.val % 4 = 3 then (readO3 (runC3 V c t h0 h1 prev).1, readS3 (runC3 V c t h0 h1 prev).2.1)
  else (readO3 (runB3 V c t h0 h1 prev).1, readS3 (runB3 V c t h0 h1 prev).2.1)

theorem stepAt3_A (c : Dev nD) (t : Fin cfg3.N) (prev : Vec F S2048x128 .f32) (h0 : t.val % 4 = 0) :
    stepAt3 V c t prev = (readO3 (runA3 V c t h0).1, readS3 (runA3 V c t h0).2.1) := dif_pos h0
theorem stepAt3_B (c : Dev nD) (t : Fin cfg3.N) (prev : Vec F S2048x128 .f32) (h0 : ¬t.val % 4 = 0) (h1 : ¬t.val % 4 = 3) :
    stepAt3 V c t prev = (readO3 (runB3 V c t h0 h1 prev).1, readS3 (runB3 V c t h0 h1 prev).2.1) := (dif_neg h0).trans (dif_neg h1)
theorem stepAt3_C (c : Dev nD) (t : Fin cfg3.N) (prev : Vec F S2048x128 .f32) (h0 : ¬t.val % 4 = 0) (h1 : t.val % 4 = 3) :
    stepAt3 V c t prev = (readO3 (runC3 V c t h0 h1 prev).1, readS3 (runC3 V c t h0 h1 prev).2.1) := (dif_neg h0).trans (dif_pos h1)

/-- THE ACCUMULATION: the pair after the body at position `n`, by recursion on the position. -/
def outsAt3 (c : Dev nD) : (n : ℕ) → n < cfg3.N → Vec F S2048x128 .f32 × Vec F S2048x128 .f32
  | 0, hn => stepAt3 V c ⟨0, hn⟩ (readS3 [])
  | n + 1, hn => stepAt3 V c ⟨n + 1, hn⟩ (outsAt3 c n (Nat.lt_of_succ_lt hn)).2

/-- What the accumulator holds when the body is entered at point `t`. -/
def prevAt3 (c : Dev nD) (t : Fin cfg3.N) : Vec F S2048x128 .f32 :=
  if h : t.val = 0 then readS3 [] else (outsAt3 V c (t.val - 1) (Nat.lt_of_le_of_lt (Nat.sub_le _ _) t.isLt)).2

theorem outsAt3_eq (c : Dev nD) (t : Fin cfg3.N) : outsAt3 V c t.val t.isLt = stepAt3 V c t (prevAt3 V c t) := by
  obtain ⟨n, hn⟩ := t
  cases n with
  | zero => rfl
  | succ n => rfl

theorem prevAt3_pos (c : Dev nD) (t : Fin cfg3.N) (hz : t.val ≠ 0) :
    prevAt3 V c t = (outsAt3 V c (t.val - 1) (Nat.lt_of_le_of_lt (Nat.sub_le _ _) t.isLt)).2 := dif_neg hz

/-! ## The invariant -/

/-- Before the first point: what the launch hands over.  Afterwards: the accumulator at what the point before left,
    the other scoped buffers unopened, the generator register at some state. -/
def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2)
      ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3_0 fullShare ((outsAt3 V c n hn).2)
      ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(owns (c : Thread nD τ) scM3_0 fullShare ((outsAt3 V c (n - 1) (by omega)).2)
      ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The proof data -/

/-- The arrays as the region finds them; after the body each input's buffer at its block and the output's at the
    step's first component; the invariant above; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- An input's array is never written: after the run it is the entry contents. -/
theorem arrAt_in3_0 (c : Dev nD) : (dat3 V c).arrAt 0 cfg3.N = V c (Pipeline.arrRef spec3 0) := ((dat3 V c).arrAt_in 0 rfl _).trans (A_eq3 V c 0)
theorem arrAt_in3_1 (c : Dev nD) : (dat3 V c).arrAt 1 cfg3.N = V c (Pipeline.arrRef spec3 1) := ((dat3 V c).arrAt_in 1 rfl _).trans (A_eq3 V c 1)
theorem arrAt_in3_2 (c : Dev nD) : (dat3 V c).arrAt 2 cfg3.N = V c (Pipeline.arrRef spec3 2) := ((dat3 V c).arrAt_in 2 rfl _).trans (A_eq3 V c 2)
theorem arrAt_in3_3 (c : Dev nD) : (dat3 V c).arrAt 3 cfg3.N = V c (Pipeline.arrRef spec3 3) := ((dat3 V c).arrAt_in 3 rfl _).trans (A_eq3 V c 3)

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 4800000 in
/-- The body at any point.  The inputs' buffers hold their blocks; the position modulo 4 says which of the three runs
    applies; the invariant hands the body the accumulator (at anything before the first point, else at what the point
    before left) and takes it back at this point's contents, the pieces stored into it covering it; the output's buffer
    is handed back untouched except at the last tile of a row, where the one store covers it. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  have hN : t.val < 16 := lt_of_lt_of_eq t.isLt (show cfg3.N = 16 from N_3)
  by_cases h0 : t.val % 4 = 0
  · have h1 : ¬t.val % 4 = 3 := by omega
    rw [Dat.leavesExact_idle (dat3 V c) 4 t (idleAt3_4 t (fun h => h1 ((hcond3_1 t).mp h))) (noFlush3_4 t (fun h => h1 ((hcond3_1 t).mp h)))]
    rw [outsAt3_eq V c t, stepAt3_A V c t _ h0]
    (try dsimp only)
    by_cases hz : t.val = 0
    · rw [PhiS3_castSucc V c t, PhiS3_zero V c _ _ hz, PhiA3_eq]
      iintro ⟨⟨⟨HS0, Hr⟩, Hg⟩, Ho, ⟨%d0, H0⟩, ⟨%d1, H1⟩, ⟨%d2, H2⟩, ⟨%d3, H3⟩, ⟨%d4, H4⟩⟩
      iapply ((runA3 V c t h0).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_A V c t h0)
          iexact Hr
        iexact Hg
      isplitl [Ho]; · iexact Ho
      isplitl [H0]; · iexact H0
      isplitl [H1]; · iexact H1
      isplitl [H2]; · iexact H2
      isplitl [H3]; · iexact H3
      iexists _; iexact H4
    · rw [PhiS3_castSucc V c t, PhiS3_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((runA3 V c t h0).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_A V c t h0)
          iexact Hr
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 4 = 3
    · rw [show (dat3 V c).leavesExact 4 t = owns (c : Thread nD τ) (ms3_4 t) fullShare ((dat3 V c).after 4 t) from by
        unfold Dat.leavesExact; rw [liveAt3_4 t ((hcond3_1 t).mpr h1)], after3_4]
      rw [outsAt3_eq V c t, stepAt3_C V c t _ h0 h1]
      (try dsimp only)
      rw [PhiS3_castSucc V c t, PhiS3_pos V c _ _ hz, prevAt3_pos V c t hz]
      iintro ⟨⟨⟨HS0, Hr⟩, Hg⟩, Ho, ⟨%d0, H0⟩, ⟨%d1, H1⟩, ⟨%d2, H2⟩, ⟨%d3, H3⟩, ⟨%d4, H4⟩⟩
      iapply ((runC3 V c t h0 h1 _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_C V c t h0 h1 _)
          iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover3_C V c t h0 h1 _)
    · rw [Dat.leavesExact_idle (dat3 V c) 4 t (idleAt3_4 t (fun h => h1 ((hcond3_1 t).mp h))) (noFlush3_4 t (fun h => h1 ((hcond3_1 t).mp h)))]
      rw [outsAt3_eq V c t, stepAt3_B V c t _ h0 h1]
      (try dsimp only)
      rw [PhiS3_castSucc V c t, PhiS3_pos V c _ _ hz, prevAt3_pos V c t hz]
      iintro ⟨⟨⟨HS0, Hr⟩, Hg⟩, Ho, ⟨%d0, H0⟩, ⟨%d1, H1⟩, ⟨%d2, H2⟩, ⟨%d3, H3⟩, ⟨%d4, H4⟩⟩
      iapply ((runB3 V c t h0 h1 _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_B V c t h0 h1 _)
          iexact Hr
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point the invariant gives it back: what the accumulator holds is forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS0, Hr⟩, Hg⟩
  isplitl [HS0 Hr]
  · isplitl [HS0]
    · iexists _; iexact HS0
    iexact Hr
  iexact Hg

/-- The same after the last point. -/
theorem hout3 (c : Dev nD) : (dat3 V c).Φ (Fin.last cfg3.N) ⊢ Pipeline.ΦA spec3 c :=
  Phi_out3 V c _ (by rw [Fin.val_last]; have : cfg3.N = 16 := N_3; omega)

end Cert.KernelIdeal.Hand

end
-- ==== Proof.Region4Runs.lean ====
import proofs.«178500_j188978561286_1_alg».proof.Proof.Gen.KernelIdeal.Launch
import proofs.«178500_j188978561286_1_alg».proof.Proof.Gen.KernelIdeal.Skeleton
import proofs.«178500_j188978561286_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The body's two conditions, over the grid

The grid is 4 × 4, walked row-major: point `t` is tile `k = t % 4` of block row `i = t / 4`.  The body's first
conditional (clear the accumulator) tests `k = 0`, its second (finish the row: add the bias row, apply the leaky
rectifier, store the output block) tests `k = 3`. -/

/-- The first conditional's test, from the grid coordinates. -/
abbrev cond4_0 (i : grid4.Coords) : Prop := (Scalar.cmpi .ne (Scalar.extui (Scalar.cmpi .eq (BitVec.ofNat 32 (i 1).val) 0#32)) 0#32) = 1#1
/-- It holds exactly at the points whose position is 0 modulo 4. -/
theorem hcond4_0 : ∀ t : Fin cfg4.N, cond4_0 (grid4.coords t) ↔ t.val % 4 = 0 :=
  (by decide +kernel : ∀ t : Fin grid4.N, cond4_0 (grid4.coords t) ↔ t.val % 4 = 0)

/-- The second conditional's test. -/
abbrev cond4_1 (i : grid4.Coords) : Prop := k4_cond2 i = 1#1
/-- It holds exactly at the points whose position is 3 modulo 4. -/
theorem hcond4_1 : ∀ t : Fin cfg4.N, cond4_1 (grid4.coords t) ↔ t.val % 4 = 3 :=
  (by decide +kernel : ∀ t : Fin grid4.N, cond4_1 (grid4.coords t) ↔ t.val % 4 = 3)

/-! ## Where the windows are idle -/

/-- The four inputs are never idle. -/
theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
/-- The output is idle, and not written back, at every point but the last of a row. -/
theorem idleAt4_4 : ∀ t : Fin cfg4.N, ¬cond4_1 (grid4.coords t) → cfg4.idle 4 (grid4.coords t) = true := by decide +kernel
theorem noFlush4_4 : ∀ t : Fin cfg4.N, ¬cond4_1 (grid4.coords t) → (cfg4.win 4).flush t = false := by decide +kernel
/-- At the last point of a row it is live. -/
theorem liveAt4_4 : ∀ t : Fin cfg4.N, cond4_1 (grid4.coords t) → cfg4.idle 4 (grid4.coords t) = false := by decide +kernel

/-! ## The memrefs the body is called with -/

/-- One staging buffer of the output window, through which its contents are stated. -/
abbrev VO4_4 : View sig .tc .vmem S2048x64 .f32 := (Memref.whole cc4_stg4_0 : Memref sig .tc .vmem S2048x64 .f32).view
/-- Each window's current staging memref at point `t`, and its wholeness. -/
abbrev ms4_0 (t : Fin cfg4.N) : Memref sig .tc .vmem S2048x2048 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2048x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S128x64 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x64 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S2048x64 .f32 := win4_4.stage (cfg4.slots t 4)
abbrev hs4_4 (t : Fin cfg4.N) : (ms4_4 t).IsWhole := hstage4_4 ((cfg4.slots t 4).cast nbuf4_4)
/-- The accumulator: a whole scoped buffer of the kernel's own, carried from point to point. -/
abbrev scM4_0 : Memref sig .tc .vmem S2048x64 .f32 := Memref.whole cc4_scratch0
abbrev VS4_0 : View sig .tc .vmem S2048x64 .f32 := scM4_0.view

/-- What the launch hands the region, with the accumulator split off as a memref owned at some contents; the other
    scoped buffers stay unopened. -/
theorem PhiA4_eq (c : Dev nD) :
    (Pipeline.ΦA spec4 c : sProp 𝕄)
      = iprop(iprop((∃ d, owns (c : Thread nD τ) scM4_0 fullShare d)
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4_0, owns_whole]; try rfl

/-! ## The body's three runs

Each is the body's triple on whole memrefs, with the lists of pieces its stores leave as the witness found by the
symbolic run. -/

set_option maxHeartbeats 1000000 in
/-- First tile of a row (`k = 0`): the accumulator, at anything, is cleared and one tile product added; the output's
    buffer is handed back untouched. -/
noncomputable def kernelRun4_A (c : Dev nD) (i : grid4.Coords) (arg2 : Memref sig .tc .vmem S2048x2048 .bf16) (harg2 : arg2.IsWhole) (arg3 : Memref sig .tc .vmem S2048x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole) (hc0 : cond4_0 i) (hc1 : ¬cond4_1 i)
    (x0 : Vec F S2048x2048 .bf16) (x1 : Vec F S2048x128 .f32) (x2 : Vec F S128x64 .f32) (x3 : Vec F S1x64 .f32) :
    Σ' (L4 : List (View.Piece (Elt F) S2048x64 .f32)), { LS0 : List (View.Piece (Elt F) S2048x64 .f32) //
      ∀ (xi4 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc4__gcn_kernel i arg2 harg2 arg3 harg3 arg4 harg4 arg5 harg5 arg6 harg6 arg7 harg7) K } := by
  refine ⟨[], ?_, fun xi4 E K => ?run⟩
  case run =>
    simp only [cc4__gcn_kernel_eq_skeleton]; unfold cc4__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- A middle tile (`k = 1, 2`): one tile product is added to the accumulator the point before left; the output's
    buffer is handed back untouched. -/
noncomputable def kernelRun4_B (c : Dev nD) (i : grid4.Coords) (arg2 : Memref sig .tc .vmem S2048x2048 .bf16) (harg2 : arg2.IsWhole) (arg3 : Memref sig .tc .vmem S2048x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole) (hc0 : ¬cond4_0 i) (hc1 : ¬cond4_1 i)
    (x0 : Vec F S2048x2048 .bf16) (x1 : Vec F S2048x128 .f32) (x2 : Vec F S128x64 .f32) (x3 : Vec F S1x64 .f32) (xs0 : Vec F S2048x64 .f32) :
    Σ' (L4 : List (View.Piece (Elt F) S2048x64 .f32)), { LS0 : List (View.Piece (Elt F) S2048x64 .f32) //
      ∀ (xi4 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc4__gcn_kernel i arg2 harg2 arg3 harg3 arg4 harg4 arg5 harg5 arg6 harg6 arg7 harg7) K } := by
  refine ⟨[], ?_, fun xi4 E K => ?run⟩
  case run =>
    simp only [cc4__gcn_kernel_eq_skeleton]; unfold cc4__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- Last tile of a row (`k = 3`): the last tile product is added, then the output block is stored from the finished
    accumulator and the bias row. -/
noncomputable def kernelRun4_C (c : Dev nD) (i : grid4.Coords) (arg2 : Memref sig .tc .vmem S2048x2048 .bf16) (harg2 : arg2.IsWhole) (arg3 : Memref sig .tc .vmem S2048x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole) (hc0 : ¬cond4_0 i) (hc1 : cond4_1 i)
    (x0 : Vec F S2048x2048 .bf16) (x1 : Vec F S2048x128 .f32) (x2 : Vec F S128x64 .f32) (x3 : Vec F S1x64 .f32) (xs0 : Vec F S2048x64 .f32) :
    Σ' (L4 : List (View.Piece (Elt F) S2048x64 .f32)), { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc4__gcn_kernel i arg2 harg2 arg3 harg3 arg4 harg4 arg5 harg5 arg6 harg6 arg7 harg7) K } := by
  refine ⟨?_, ?_, fun E K => ?run⟩
  case run =>
    simp only [cc4__gcn_kernel_eq_skeleton]; unfold cc4__gcn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.Region4.lean ====
import proofs.«178500_j188978561286_1_alg».proof.Proof.Region4Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 4: the layer producing the features the edge decoder multiplies, at the entry contents `V`

The grid is 4 × 4.  At point `t = 4 i + k` the body adds tile `k` of block row `i` of the product to an accumulator
it carries from point to point (cleared at `k = 0`), and at `k = 3` stores the finished row block.  The proof data
records, point by point, what the accumulator and the output's staging buffer hold. -/

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not: where it is not
    fetched its block index has not moved.  For any proof data whose array is the entry contents and whose body
    leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## What each case leaves -/

/-- The first tile of a row at point `t`. -/
abbrev runA4 (c : Dev nD) (t : Fin cfg4.N) (h0 : t.val % 4 = 0) :=
  kernelRun4_A (F := F) c (grid4.coords t) (ms4_0 t) (hs4_0 t) (ms4_1 t) (hs4_1 t) (ms4_2 t) (hs4_2 t) (ms4_3 t) (hs4_3 t) (ms4_4 t) (hs4_4 t) scM4_0 (Memref.isWhole_whole _) ((hcond4_0 t).mpr h0) (fun h => by have h3 := (hcond4_1 t).mp h; omega) (iblk4 V c 0 t) (iblk4 V c 1 t) (iblk4 V c 2 t) (iblk4 V c 3 t)
/-- A middle tile at point `t`, over what the accumulator held. -/
abbrev runB4 (c : Dev nD) (t : Fin cfg4.N) (h0 : ¬t.val % 4 = 0) (h1 : ¬t.val % 4 = 3) (prev : Vec F S2048x64 .f32) :=
  kernelRun4_B (F := F) c (grid4.coords t) (ms4_0 t) (hs4_0 t) (ms4_1 t) (hs4_1 t) (ms4_2 t) (hs4_2 t) (ms4_3 t) (hs4_3 t) (ms4_4 t) (hs4_4 t) scM4_0 (Memref.isWhole_whole _) (fun h => h0 ((hcond4_0 t).mp h)) (fun h => h1 ((hcond4_1 t).mp h)) (iblk4 V c 0 t) (iblk4 V c 1 t) (iblk4 V c 2 t) (iblk4 V c 3 t) prev
/-- The last tile of a row at point `t`, over what the accumulator held. -/
abbrev runC4 (c : Dev nD) (t : Fin cfg4.N) (h0 : ¬t.val % 4 = 0) (h1 : t.val % 4 = 3) (prev : Vec F S2048x64 .f32) :=
  kernelRun4_C (F := F) c (grid4.coords t) (ms4_0 t) (hs4_0 t) (ms4_1 t) (hs4_1 t) (ms4_2 t) (hs4_2 t) (ms4_3 t) (hs4_3 t) (ms4_4 t) (hs4_4 t) scM4_0 (Memref.isWhole_whole _) (fun h => h0 ((hcond4_0 t).mp h)) ((hcond4_1 t).mpr h1) (iblk4 V c 0 t) (iblk4 V c 1 t) (iblk4 V c 2 t) (iblk4 V c 3 t) prev

/-- A list of pieces read back through the accumulator's view, and through the output's. -/
abbrev readS4 (L : List (View.Piece (Elt F) S2048x64 .f32)) : Vec F S2048x64 .f32 := VS4_0.read (Elt F) (VS4_0.writes (Elt F) VS4_0.junk L)
abbrev readO4 (L : List (View.Piece (Elt F) S2048x64 .f32)) : Vec F S2048x64 .f32 := VO4_4.read (Elt F) (VO4_4.writes (Elt F) VO4_4.junk L)

/-- In every case the pieces stored into the accumulator tile it, so they cover it. -/
theorem scover4_A (c : Dev nD) (t : Fin cfg4.N) (h0 : t.val % 4 = 0) (y : S2048x64.Idx) :
    ∃ pc ∈ (runA4 V c t h0).2.1, y ∈ pc.1.set :=
  View.cover_of_tiledL (runA4 V c t h0).2.1 S2048x64.size (by sl_kernel_rfl) y
theorem scover4_B (c : Dev nD) (t : Fin cfg4.N) (h0 : ¬t.val % 4 = 0) (h1 : ¬t.val % 4 = 3) (prev : Vec F S2048x64 .f32) (y : S2048x64.Idx) :
    ∃ pc ∈ (runB4 V c t h0 h1 prev).2.1, y ∈ pc.1.set :=
  View.cover_of_tiledL (runB4 V c t h0 h1 prev).2.1 S2048x64.size (by sl_kernel_rfl) y
theorem scover4_C (c : Dev nD) (t : Fin cfg4.N) (h0 : ¬t.val % 4 = 0) (h1 : t.val % 4 = 3) (prev : Vec F S2048x64 .f32) (y : S2048x64.Idx) :
    ∃ pc ∈ (runC4 V c t h0 h1 prev).2.1, y ∈ pc.1.set :=
  View.cover_of_tiledL (runC4 V c t h0 h1 prev).2.1 S2048x64.size (by sl_kernel_rfl) y
/-- At the last tile of a row the one store into the output's buffer covers it. -/
theorem cover4_C (c : Dev nD) (t : Fin cfg4.N) (h0 : ¬t.val % 4 = 0) (h1 : t.val % 4 = 3) (prev : Vec F S2048x64 .f32) (y : S2048x64.Idx) :
    ∃ pc ∈ (runC4 V c t h0 h1 prev).1, y ∈ pc.1.set :=
  View.cover_of_tiledL (runC4 V c t h0 h1 prev).1 S2048x64.size (by sl_kernel_rfl) y

/-! ## Point by point -/

/-- One step: what the output's staging buffer and the accumulator hold after the body at point `t`, from what the
    accumulator held before it (not consulted at the first tile of a row, where it is cleared).  Where the output is
    not stored its component is a placeholder nothing reads. -/
def stepAt4 (c : Dev nD) (t : Fin cfg4.N) (prev : Vec F S2048x64 .f32) : Vec F S2048x64 .f32 × Vec F S2048x64 .f32 :=
  if h0 : t.val % 4 = 0 then (readO4 (runA4 V c t h0).1, readS4 (runA4 V c t h0).2.1)
  else if h1 : t.val % 4 = 3 then (readO4 (runC4 V c t h0 h1 prev).1, readS4 (runC4 V c t h0 h1 prev).2.1)
  else (readO4 (runB4 V c t h0 h1 prev).1, readS4 (runB4 V c t h0 h1 prev).2.1)

theorem stepAt4_A (c : Dev nD) (t : Fin cfg4.N) (prev : Vec F S2048x64 .f32) (h0 : t.val % 4 = 0) :
    stepAt4 V c t prev = (readO4 (runA4 V c t h0).1, readS4 (runA4 V c t h0).2.1) := dif_pos h0
theorem stepAt4_B (c : Dev nD) (t : Fin cfg4.N) (prev : Vec F S2048x64 .f32) (h0 : ¬t.val % 4 = 0) (h1 : ¬t.val % 4 = 3) :
    stepAt4 V c t prev = (readO4 (runB4 V c t h0 h1 prev).1, readS4 (runB4 V c t h0 h1 prev).2.1) := (dif_neg h0).trans (dif_neg h1)
theorem stepAt4_C (c : Dev nD) (t : Fin cfg4.N) (prev : Vec F S2048x64 .f32) (h0 : ¬t.val % 4 = 0) (h1 : t.val % 4 = 3) :
    stepAt4 V c t prev = (readO4 (runC4 V c t h0 h1 prev).1, readS4 (runC4 V c t h0 h1 prev).2.1) := (dif_neg h0).trans (dif_pos h1)

/-- THE ACCUMULATION: the pair after the body at position `n`, by recursion on the position. -/
def outsAt4 (c : Dev nD) : (n : ℕ) → n < cfg4.N → Vec F S2048x64 .f32 × Vec F S2048x64 .f32
  | 0, hn => stepAt4 V c ⟨0, hn⟩ (readS4 [])
  | n + 1, hn => stepAt4 V c ⟨n + 1, hn⟩ (outsAt4 c n (Nat.lt_of_succ_lt hn)).2

/-- What the accumulator holds when the body is entered at point `t`. -/
def prevAt4 (c : Dev nD) (t : Fin cfg4.N) : Vec F S2048x64 .f32 :=
  if h : t.val = 0 then readS4 [] else (outsAt4 V c (t.val - 1) (Nat.lt_of_le_of_lt (Nat.sub_le _ _) t.isLt)).2

theorem outsAt4_eq (c : Dev nD) (t : Fin cfg4.N) : outsAt4 V c t.val t.isLt = stepAt4 V c t (prevAt4 V c t) := by
  obtain ⟨n, hn⟩ := t
  cases n with
  | zero => rfl
  | succ n => rfl

theorem prevAt4_pos (c : Dev nD) (t : Fin cfg4.N) (hz : t.val ≠ 0) :
    prevAt4 V c t = (outsAt4 V c (t.val - 1) (Nat.lt_of_le_of_lt (Nat.sub_le _ _) t.isLt)).2 := dif_neg hz

/-! ## The invariant -/

/-- Before the first point: what the launch hands over.  Afterwards: the accumulator at what the point before left,
    the other scoped buffers unopened, the generator register at some state. -/
def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2)
      ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4_0 fullShare ((outsAt4 V c n hn).2)
      ∗ Pipeline.scopedRestBut (Ix := Unit) (Name := ℕ) (U := UR sig nD τ) (Lvl := ℕ) (Val := Elt F) spec4 c [cc4_scratch0]) ∗ (∃ r, prngReg c r)) := rfl

theorem PhiS4_pos (c : Dev nD) (n : ℕ) (h : n ≤ cfg4.N) (hz : n ≠ 0) :
    PhiS4 V c n h = iprop(iprop(owns (c : Thread nD τ) scM4_0 fullShare ((outsAt4 V c (n - 1) (by omega)).2)
      ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-! ## The proof data -/

/-- The arrays as the region finds them; after the body each input's buffer at its block and the output's at the
    step's first component; the invariant above; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-- An input's array is never written: after the run it is the entry contents. -/
theorem arrAt_in4_0 (c : Dev nD) : (dat4 V c).arrAt 0 cfg4.N = V c (Pipeline.arrRef spec4 0) := ((dat4 V c).arrAt_in 0 rfl _).trans (A_eq4 V c 0)
theorem arrAt_in4_1 (c : Dev nD) : (dat4 V c).arrAt 1 cfg4.N = V c (Pipeline.arrRef spec4 1) := ((dat4 V c).arrAt_in 1 rfl _).trans (A_eq4 V c 1)
theorem arrAt_in4_2 (c : Dev nD) : (dat4 V c).arrAt 2 cfg4.N = V c (Pipeline.arrRef spec4 2) := ((dat4 V c).arrAt_in 2 rfl _).trans (A_eq4 V c 2)
theorem arrAt_in4_3 (c : Dev nD) : (dat4 V c).arrAt 3 cfg4.N = V c (Pipeline.arrRef spec4 3) := ((dat4 V c).arrAt_in 3 rfl _).trans (A_eq4 V c 3)

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

set_option maxHeartbeats 4800000 in
/-- The body at any point.  The inputs' buffers hold their blocks; the position modulo 4 says which of the three runs
    applies; the invariant hands the body the accumulator (at anything before the first point, else at what the point
    before left) and takes it back at this point's contents, the pieces stored into it covering it; the output's buffer
    is handed back untouched except at the last tile of a row, where the one store covers it. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  have hN : t.val < 16 := lt_of_lt_of_eq t.isLt (show cfg4.N = 16 from N_4)
  by_cases h0 : t.val % 4 = 0
  · have h1 : ¬t.val % 4 = 3 := by omega
    rw [Dat.leavesExact_idle (dat4 V c) 4 t (idleAt4_4 t (fun h => h1 ((hcond4_1 t).mp h))) (noFlush4_4 t (fun h => h1 ((hcond4_1 t).mp h)))]
    rw [outsAt4_eq V c t, stepAt4_A V c t _ h0]
    (try dsimp only)
    by_cases hz : t.val = 0
    · rw [PhiS4_castSucc V c t, PhiS4_zero V c _ _ hz, PhiA4_eq]
      iintro ⟨⟨⟨HS0, Hr⟩, Hg⟩, Ho, ⟨%d0, H0⟩, ⟨%d1, H1⟩, ⟨%d2, H2⟩, ⟨%d3, H3⟩, ⟨%d4, H4⟩⟩
      iapply ((runA4 V c t h0).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover4_A V c t h0)
          iexact Hr
        iexact Hg
      isplitl [Ho]; · iexact Ho
      isplitl [H0]; · iexact H0
      isplitl [H1]; · iexact H1
      isplitl [H2]; · iexact H2
      isplitl [H3]; · iexact H3
      iexists _; iexact H4
    · rw [PhiS4_castSucc V c t, PhiS4_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((runA4 V c t h0).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover4_A V c t h0)
          iexact Hr
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 4 = 3
    · rw [show (dat4 V c).leavesExact 4 t = owns (c : Thread nD τ) (ms4_4 t) fullShare ((dat4 V c).after 4 t) from by
        unfold Dat.leavesExact; rw [liveAt4_4 t ((hcond4_1 t).mpr h1)], after4_4]
      rw [outsAt4_eq V c t, stepAt4_C V c t _ h0 h1]
      (try dsimp only)
      rw [PhiS4_castSucc V c t, PhiS4_pos V c _ _ hz, prevAt4_pos V c t hz]
      iintro ⟨⟨⟨HS0, Hr⟩, Hg⟩, Ho, ⟨%d0, H0⟩, ⟨%d1, H1⟩, ⟨%d2, H2⟩, ⟨%d3, H3⟩, ⟨%d4, H4⟩⟩
      iapply ((runC4 V c t h0 h1 _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover4_C V c t h0 h1 _)
          iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover4_C V c t h0 h1 _)
    · rw [Dat.leavesExact_idle (dat4 V c) 4 t (idleAt4_4 t (fun h => h1 ((hcond4_1 t).mp h))) (noFlush4_4 t (fun h => h1 ((hcond4_1 t).mp h)))]
      rw [outsAt4_eq V c t, stepAt4_B V c t _ h0 h1]
      (try dsimp only)
      rw [PhiS4_castSucc V c t, PhiS4_pos V c _ _ hz, prevAt4_pos V c t hz]
      iintro ⟨⟨⟨HS0, Hr⟩, Hg⟩, Ho, ⟨%d0, H0⟩, ⟨%d1, H1⟩, ⟨%d2, H2⟩, ⟨%d3, H3⟩, ⟨%d4, H4⟩⟩
      iapply ((runB4 V c t h0 h1 _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover4_B V c t h0 h1 _)
          iexact Hr
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point the invariant gives it back: what the accumulator holds is forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, Hr⟩, Hg⟩
  isplitl [HS0 Hr]
  · isplitl [HS0]
    · iexists _; iexact HS0
    iexact Hr
  iexact Hg

/-- The same after the last point. -/
theorem hout4 (c : Dev nD) : (dat4 V c).Φ (Fin.last cfg4.N) ⊢ Pipeline.ΦA spec4 c :=
  Phi_out4 V c _ (by rw [Fin.val_last]; have : cfg4.N = 16 := N_4; omega)

end Cert.KernelIdeal.Hand

end
-- ==== Proof.Region5.lean ====
/-
  The edge-decoder region (pipeline 5), frame half, at any float model.

  The grid is 8 × 4.  At the point (i, j) the body reads the 1024 × 64 block i and the 2048 × 64 block j of
  ONE array of decoded features, and stores one whole 1024 × 2048 block of the result.  Every point is alike,
  so the invariant is the constant one.  Because the two input windows read the same array, the array's
  ownership is dealt between them in two halves; the two lemmas at the end say how the core's buffers make
  the windows' arrays at entry and how they are put back at exit.
-/
import proofs.«178500_j188978561286_1_alg».proof.Proof.Gen.KernelIdeal.Launch
import proofs.«178500_j188978561286_1_alg».proof.Proof.Gen.KernelIdeal.Skeleton
import proofs.«178500_j188978561286_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, whether the block was
    fetched at this point or at an earlier one with the same block index. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each buffer is read and written whole -/

abbrev r5_a : Rect S1024x64 := Rect.unit (s := S1024x64) ![0, 0] S1024x64.size inb_S1024x64_S1024x64_0_0
abbrev r5_b : Rect S2048x64 := Rect.unit (s := S2048x64) ![0, 0] S2048x64.size inb_S2048x64_S2048x64_0_0
abbrev r5_o : Rect S1024x2048 := Rect.unit (s := S1024x2048) ![0, 0] S1024x2048.size inb_S1024x2048_S1024x2048_0_0

/-! ## What the body leaves in the output window's buffer -/

/-- The output's staging buffer after the body, from the two blocks read: its one store, of the whole block. -/
def out5_2 (x0 : Vec F S1024x64 .f32) (x1 : Vec F S2048x64 .f32) : Vec F S1024x2048 .f32 :=
  View.canon [⟨r5_o, k5_pay1 (View.ld x0 r5_a) (View.ld x1 r5_b)⟩]

/-- The one store covers the buffer. -/
theorem cover5_2 (p0 : Vec F S1024x2048 .f32) (y : S1024x2048.Idx) :
    ∃ pc ∈ ([⟨r5_o, p0⟩] : List (View.Piece (Elt F) S1024x2048 .f32)), y ∈ pc.1.set :=
  View.cover_of_tiled [⟨r5_o, p0⟩] S1024x2048.size (by rfl) y

/-! ## The body's triple -/

set_option maxHeartbeats 1000000 in
/-- The kernel body on whole staging memrefs, the inputs' at contents `xW` and the output's at anything, runs to
    the continuation holding the inputs' as they were and the output's at `out5_2` of the inputs'. -/
theorem sound_kernel5 (c : Dev nD) (E : Set ℕ) (i : grid5.Coords)
    (arg2 : Memref sig .tc .vmem S1024x64 .f32) (harg2 : arg2.IsWhole) (arg3 : Memref sig .tc .vmem S2048x64 .f32) (harg3 : arg3.IsWhole)
    (arg4 : Memref sig .tc .vmem S1024x2048 .f32) (harg4 : arg4.IsWhole)
    (x0 : Vec F S1024x64 .f32) (x1 : Vec F S2048x64 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out5_2 x0 x1)) -∗ K ⟨⟩))
      ⊢ wp frame (wpE (defs₀ (F := F)) Variants.none c none) E (cc5__recon_kernel i arg2 harg2 arg3 harg3 arg4 harg4) K := by
  simp only [cc5__recon_kernel_eq_skeleton]; unfold cc5__recon_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-! ## The pipeline's proof data -/

/-- The proof data of pipeline 5 on core `c`: the arrays as the region finds them; after the body at point `t`
    each input's buffer at its block and the output's at `out5_2` of the input blocks; the constant invariant;
    nothing owed.  The two input windows read one array: the first holds the left half of its ownership, the
    second the right half. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q w := match w with
    | ⟨0, _⟩ => fullShare.left
    | ⟨1, _⟩ => fullShare.right
    | ⟨2, _⟩ => fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) :
    (dat5 V c).after 2 t = out5_2 (iblk5 V c 0 t) (iblk5 V c 1 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' memrefs hold their blocks, so the kernel's triple applies; the invariant and
    the core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ (grid5.coords t) _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation5 (c : Dev nD) : BodyObligation (dat5 (F := F) V c) (defs₀ (F := F)) Variants.none () Set.univ := fun t => by
  rw [bigSep_W5, bigSep_W5]
  exact sound_body5 V c t

/-! ## The invariant at the two ends, and the input arrays at the end -/

theorem hin5 (c : Dev nD) : Pipeline.ΦA spec5 c ⊢ (dat5 V c).Φ 0 := .rfl

theorem hout5 (c : Dev nD) : (dat5 V c).Φ (Fin.last cfg5.N) ⊢ Pipeline.ΦA spec5 c := .rfl

/-- An input window's array is never written: at the end it is what the region found. -/
theorem arrAt_in5_0 (c : Dev nD) : (dat5 V c).arrAt 0 cfg5.N = V c (Pipeline.arrRef spec5 0) :=
  ((dat5 V c).arrAt_in 0 rfl cfg5.N).trans (A_eq5 V c 0)
theorem arrAt_in5_1 (c : Dev nD) : (dat5 V c).arrAt 1 cfg5.N = V c (Pipeline.arrRef spec5 1) :=
  ((dat5 V c).arrAt_in 1 rfl cfg5.N).trans (A_eq5 V c 1)

/-! ## The shared array: the core's buffers into the windows' arrays, and back -/

/-- The shares the windows hold their arrays at. -/
theorem share5_0 (c : Dev nD) : (dat5 V c).share 0 = fullShare.left := rfl
theorem share5_1 (c : Dev nD) : (dat5 V c).share 1 = fullShare.right := rfl
theorem share5_2 (c : Dev nD) : (dat5 V c).share 2 = fullShare := rfl

/-- The buffers behind the windows' arrays are two: the features and the result. -/
theorem arrImage5 : Finset.univ.image (Pipeline.arrRef spec5) = {main_v8, main_v9} := by decide

/-- ENTRY: a core's unscoped buffers at contents `V c` are the windows' arrays at those contents — the feature
    array's ownership cut in two halves, one per input window — and the unscoped rest. -/
theorem hsplit5 (c : Dev nD) :
    (unscopedBufs c (V c) : sProp 𝕄)
      ⊢ iprop((dat5 V c).arrays ((dat5 V c).arrAt · 0) ∗ Pipeline.unscopedRest spec5 c (V c)) := by
  rw [Pipeline.unscopedBufs_split₀ cfgs 5 winFacts₀5.arr_unscoped c (V c)]
  refine sep_mono ?_ .rfl
  unfold Pipeline.arrBufs Dat.arrays
  rw [bigSep_W5, show Finset.image (Pipeline.arrRef (cfgs 5).spec) Finset.univ = {main_v8, main_v9} from arrImage5,
    bigSep_insert (by decide), bigSep_singleton]
  show iprop(((c : Thread nD τ).loc main_v8 ↦{fullShare} V c main_v8) ∗ ((c : Thread nD τ).loc main_v9 ↦{fullShare} V c main_v9))
    ⊢ iprop(((c : Thread nD τ).loc main_v8 ↦[(Memref.whole main_v8).view.set]{fullShare.left} V c main_v8)
      ∗ ((c : Thread nD τ).loc main_v8 ↦[(Memref.whole main_v8).view.set]{fullShare.right} V c main_v8)
      ∗ ((c : Thread nD τ).loc main_v9 ↦[(Memref.whole main_v9).view.set]{fullShare} V c main_v9))
  rw [(Memref.isWhole_whole main_v8).set_eq_univ, (Memref.isWhole_whole main_v9).set_eq_univ]
  iintro ⟨H8, H9⟩
  ihave H8 := (pointsTo_share (PosShare.mem_left_op_right fullShare)).1 $$ H8
  icases H8 with ⟨Hl, Hr⟩
  isplitl [Hl]; · iexact Hl
  isplitl [Hr]; · iexact Hr
  iexact H9

/-- EXIT: the windows' arrays at their final contents — the two halves of the feature array, which no point
    writes, and the result — and the unscoped rest make the core's unscoped buffers at any contents `V'` that
    agree with the final arrays (`hF`) and, off the arrays, with the entry contents (`hrest`). -/
theorem hjoin5 (c : Dev nD) (V' : (b : Ref sig .tc) → Buf (Elt F) ((c : Thread nD τ).loc b))
    (hF : ∀ w, (dat5 V c).arrAt w cfg5.N = V' (Pipeline.arrRef spec5 w))
    (hrest : ∀ b, b ∉ Finset.univ.image (Pipeline.arrRef spec5) → V' b = V c b) :
    iprop((dat5 V c).arrays ((dat5 V c).arrAt · cfg5.N) ∗ Pipeline.unscopedRest spec5 c (V c))
      ⊢ (unscopedBufs c V' : sProp 𝕄) := by
  rw [Pipeline.unscopedBufs_split₀ cfgs 5 winFacts₀5.arr_unscoped c V']
  refine sep_mono ?_ (Entails.of_eq ?_)
  · unfold Pipeline.arrBufs Dat.arrays
    rw [bigSep_W5, show Finset.image (Pipeline.arrRef (cfgs 5).spec) Finset.univ = {main_v8, main_v9} from arrImage5,
      bigSep_insert (by decide), bigSep_singleton]
    simp only [hF]
    show iprop(((c : Thread nD τ).loc main_v8 ↦[(Memref.whole main_v8).view.set]{fullShare.left} V' main_v8)
        ∗ ((c : Thread nD τ).loc main_v8 ↦[(Memref.whole main_v8).view.set]{fullShare.right} V' main_v8)
        ∗ ((c : Thread nD τ).loc main_v9 ↦[(Memref.whole main_v9).view.set]{fullShare} V' main_v9))
      ⊢ iprop(((c : Thread nD τ).loc main_v8 ↦{fullShare} V' main_v8) ∗ ((c : Thread nD τ).loc main_v9 ↦{fullShare} V' main_v9))
    rw [(Memref.isWhole_whole main_v8).set_eq_univ, (Memref.isWhole_whole main_v9).set_eq_univ]
    iintro ⟨Hl, Hr, H9⟩
    ihave H8 := (pointsTo_share (PosShare.mem_left_op_right fullShare)).2 $$ [Hl Hr]
    · isplitl [Hl] <;> iassumption
    isplitl [H8]; · iexact H8
    iexact H9
  · unfold Pipeline.unscopedRest
    exact bigSep_congr fun b hb => by rw [hrest b (Finset.mem_sdiff.mp hb).2]

end Cert.KernelIdeal.Hand

end
-- ==== Proof.Region6Runs.lean ====
import proofs.«178500_j188978561286_1_alg».proof.Proof.Gen.KernelIdeal.Launch
import proofs.«178500_j188978561286_1_alg».proof.Proof.Gen.KernelIdeal.Skeleton
import proofs.«178500_j188978561286_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The body's two conditions, over the grid

The grid is 4 × 4, walked row-major: point `t` is tile `k = t % 4` of block row `i = t / 4`.  The body's first
conditional (clear the accumulator) tests `k = 0`, its second (finish the row: add the bias row, apply the leaky
rectifier, store the output block) tests `k = 3`. -/

/-- The first conditional's test, from the grid coordinates. -/
abbrev cond6_0 (i : grid6.Coords) : Prop := (Scalar.cmpi .ne (Scalar.extui (Scalar.cmpi .eq (BitVec.ofNat 32 (i 1).val) 0#32)) 0#32) = 1#1
/-- It holds exactly at the points whose position is 0 modulo 4. -/
theorem hcond6_0 : ∀ t : Fin cfg6.N, cond6_0 (grid6.coords t) ↔ t.val % 4 = 0 :=
  (by decide +kernel : ∀ t : Fin grid6.N, cond6_0 (grid6.coords t) ↔ t.val % 4 = 0)

/-- The second conditional's test. -/
abbrev cond6_1 (i : grid6.Coords) : Prop := k6_cond2 i = 1#1
/-- It holds exactly at the points whose position is 3 modulo 4. -/
theorem hcond6_1 : ∀ t : Fin cfg6.N, cond6_1 (grid6.coords t) ↔ t.val % 4 = 3 :=
  (by decide +kernel : ∀ t : Fin grid6.N, cond6_1 (grid6.coords t) ↔ t.val % 4 = 3)

/-! ## Where the windows are idle -/

/-- The four inputs are never idle. -/
theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel
theorem liveAt6_3 : ∀ t : Fin cfg6.N, cfg6.idle 3 (grid6.coords t) = false := by decide +kernel
/-- The output is idle, and not written back, at every point but the last of a row. -/
theorem idleAt6_4 : ∀ t : Fin cfg6.N, ¬cond6_1 (grid6.coords t) → cfg6.idle 4 (grid6.coords t) = true := by decide +kernel
theorem noFlush6_4 : ∀ t : Fin cfg6.N, ¬cond6_1 (grid6.coords t) → (cfg6.win 4).flush t = false := by decide +kernel
/-- At the last point of a row it is live. -/
theorem liveAt6_4 : ∀ t : Fin cfg6.N, cond6_1 (grid6.coords t) → cfg6.idle 4 (grid6.coords t) = false := by decide +kernel

/-! ## The memrefs the body is called with -/

/-- One staging buffer of the output window, through which its contents are stated. -/
abbrev VO6_4 : View sig .tc .vmem S2048x64 .f32 := (Memref.whole cc6_stg4_0 : Memref sig .tc .vmem S2048x64 .f32).view
/-- Each window's current staging memref at point `t`, and its wholeness. -/
abbrev ms6_0 (t : Fin cfg6.N) : Memref sig .tc .vmem S2048x2048 .bf16 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S2048x128 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S128x64 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S1x64 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S2048x64 .f32 := win6_4.stage (cfg6.slots t 4)
abbrev hs6_4 (t : Fin cfg6.N) : (ms6_4 t).IsWhole := hstage6_4 ((cfg6.slots t 4).cast nbuf6_4)
/-- The accumulator: a whole scoped buffer of the kernel's own, carried from point to point. -/
abbrev scM6_0 : Memref sig .tc .vmem S2048x64 .f32 := Memref.whole cc6_scratch0
abbrev VS6_0 : View sig .tc .vmem S2048x64 .f32 := scM6_0.view

/-- What the launch hands the region, with the accumulator split off as a memref owned at some contents; the other
    scoped buffers stay unopened. -/
theorem PhiA6_eq (c : Dev nD) :
    (Pipeline.ΦA spec6 c : sProp 𝕄)
      = iprop(iprop((∃ d, owns (c : Thread nD τ) scM6_0 fullShare d)
          ∗ Pipeline.scopedRestBut (Ix := Unit) (Name := ℕ) (U := UR sig nD τ) (Lvl := ℕ) (Val := Elt F) spec6 c [cc6_scratch0]) ∗ (∃ r, prngReg c r)) := by
  unfold Pipeline.ΦA; rw [scopedRest6_split]; simp only [scM6_0, owns_whole]; try rfl

/-! ## The body's three runs

Each is the body's triple on whole memrefs, with the lists of pieces its stores leave as the witness found by the
symbolic run. -/

set_option maxHeartbeats 1000000 in
/-- First tile of a row (`k = 0`): the accumulator, at anything, is cleared and one tile product added; the output's
    buffer is handed back untouched. -/
noncomputable def kernelRun6_A (c : Dev nD) (i : grid6.Coords) (arg2 : Memref sig .tc .vmem S2048x2048 .bf16) (harg2 : arg2.IsWhole) (arg3 : Memref sig .tc .vmem S2048x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole) (hc0 : cond6_0 i) (hc1 : ¬cond6_1 i)
    (x0 : Vec F S2048x2048 .bf16) (x1 : Vec F S2048x128 .f32) (x2 : Vec F S128x64 .f32) (x3 : Vec F S1x64 .f32) :
    Σ' (L4 : List (View.Piece (Elt F) S2048x64 .f32)), { LS0 : List (View.Piece (Elt F) S2048x64 .f32) //
      ∀ (xi4 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc6__gcn_kernel i arg2 harg2 arg3 harg3 arg4 harg4 arg5 harg5 arg6 harg6 arg7 harg7) K } := by
  refine ⟨[], ?_, fun xi4 E K => ?run⟩
  case run =>
    simp only [cc6__gcn_kernel_eq_skeleton]; unfold cc6__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- A middle tile (`k = 1, 2`): one tile product is added to the accumulator the point before left; the output's
    buffer is handed back untouched. -/
noncomputable def kernelRun6_B (c : Dev nD) (i : grid6.Coords) (arg2 : Memref sig .tc .vmem S2048x2048 .bf16) (harg2 : arg2.IsWhole) (arg3 : Memref sig .tc .vmem S2048x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole) (hc0 : ¬cond6_0 i) (hc1 : ¬cond6_1 i)
    (x0 : Vec F S2048x2048 .bf16) (x1 : Vec F S2048x128 .f32) (x2 : Vec F S128x64 .f32) (x3 : Vec F S1x64 .f32) (xs0 : Vec F S2048x64 .f32) :
    Σ' (L4 : List (View.Piece (Elt F) S2048x64 .f32)), { LS0 : List (View.Piece (Elt F) S2048x64 .f32) //
      ∀ (xi4 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc6__gcn_kernel i arg2 harg2 arg3 harg3 arg4 harg4 arg5 harg5 arg6 harg6 arg7 harg7) K } := by
  refine ⟨[], ?_, fun xi4 E K => ?run⟩
  case run =>
    simp only [cc6__gcn_kernel_eq_skeleton]; unfold cc6__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- Last tile of a row (`k = 3`): the last tile product is added, then the output block is stored from the finished
    accumulator and the bias row. -/
noncomputable def kernelRun6_C (c : Dev nD) (i : grid6.Coords) (arg2 : Memref sig .tc .vmem S2048x2048 .bf16) (harg2 : arg2.IsWhole) (arg3 : Memref sig .tc .vmem S2048x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole) (hc0 : ¬cond6_0 i) (hc1 : cond6_1 i)
    (x0 : Vec F S2048x2048 .bf16) (x1 : Vec F S2048x128 .f32) (x2 : Vec F S128x64 .f32) (x3 : Vec F S1x64 .f32) (xs0 : Vec F S2048x64 .f32) :
    Σ' (L4 : List (View.Piece (Elt F) S2048x64 .f32)), { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc6__gcn_kernel i arg2 harg2 arg3 harg3 arg4 harg4 arg5 harg5 arg6 harg6 arg7 harg7) K } := by
  refine ⟨?_, ?_, fun E K => ?run⟩
  case run =>
    simp only [cc6__gcn_kernel_eq_skeleton]; unfold cc6__gcn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.Region6.lean ====
import proofs.«178500_j188978561286_1_alg».proof.Proof.Region6Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 6: the feature decoder's hidden layer, at the entry contents `V`

The grid is 4 × 4.  At point `t = 4 i + k` the body adds tile `k` of block row `i` of the product to an accumulator
it carries from point to point (cleared at `k = 0`), and at `k = 3` stores the finished row block.  The proof data
records, point by point, what the accumulator and the output's staging buffer hold. -/

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current staging buffer holds its block at every point, fetched there or not: where it is not
    fetched its block index has not moved.  For any proof data whose array is the entry contents and whose body
    leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-! ## What each case leaves -/

/-- The first tile of a row at point `t`. -/
abbrev runA6 (c : Dev nD) (t : Fin cfg6.N) (h0 : t.val % 4 = 0) :=
  kernelRun6_A (F := F) c (grid6.coords t) (ms6_0 t) (hs6_0 t) (ms6_1 t) (hs6_1 t) (ms6_2 t) (hs6_2 t) (ms6_3 t) (hs6_3 t) (ms6_4 t) (hs6_4 t) scM6_0 (Memref.isWhole_whole _) ((hcond6_0 t).mpr h0) (fun h => by have h3 := (hcond6_1 t).mp h; omega) (iblk6 V c 0 t) (iblk6 V c 1 t) (iblk6 V c 2 t) (iblk6 V c 3 t)
/-- A middle tile at point `t`, over what the accumulator held. -/
abbrev runB6 (c : Dev nD) (t : Fin cfg6.N) (h0 : ¬t.val % 4 = 0) (h1 : ¬t.val % 4 = 3) (prev : Vec F S2048x64 .f32) :=
  kernelRun6_B (F := F) c (grid6.coords t) (ms6_0 t) (hs6_0 t) (ms6_1 t) (hs6_1 t) (ms6_2 t) (hs6_2 t) (ms6_3 t) (hs6_3 t) (ms6_4 t) (hs6_4 t) scM6_0 (Memref.isWhole_whole _) (fun h => h0 ((hcond6_0 t).mp h)) (fun h => h1 ((hcond6_1 t).mp h)) (iblk6 V c 0 t) (iblk6 V c 1 t) (iblk6 V c 2 t) (iblk6 V c 3 t) prev
/-- The last tile of a row at point `t`, over what the accumulator held. -/
abbrev runC6 (c : Dev nD) (t : Fin cfg6.N) (h0 : ¬t.val % 4 = 0) (h1 : t.val % 4 = 3) (prev : Vec F S2048x64 .f32) :=
  kernelRun6_C (F := F) c (grid6.coords t) (ms6_0 t) (hs6_0 t) (ms6_1 t) (hs6_1 t) (ms6_2 t) (hs6_2 t) (ms6_3 t) (hs6_3 t) (ms6_4 t) (hs6_4 t) scM6_0 (Memref.isWhole_whole _) (fun h => h0 ((hcond6_0 t).mp h)) ((hcond6_1 t).mpr h1) (iblk6 V c 0 t) (iblk6 V c 1 t) (iblk6 V c 2 t) (iblk6 V c 3 t) prev

/-- A list of pieces read back through the accumulator's view, and through the output's. -/
abbrev readS6 (L : List (View.Piece (Elt F) S2048x64 .f32)) : Vec F S2048x64 .f32 := VS6_0.read (Elt F) (VS6_0.writes (Elt F) VS6_0.junk L)
abbrev readO6 (L : List (View.Piece (Elt F) S2048x64 .f32)) : Vec F S2048x64 .f32 := VO6_4.read (Elt F) (VO6_4.writes (Elt F) VO6_4.junk L)

/-- In every case the pieces stored into the accumulator tile it, so they cover it. -/
theorem scover6_A (c : Dev nD) (t : Fin cfg6.N) (h0 : t.val % 4 = 0) (y : S2048x64.Idx) :
    ∃ pc ∈ (runA6 V c t h0).2.1, y ∈ pc.1.set :=
  View.cover_of_tiledL (runA6 V c t h0).2.1 S2048x64.size (by sl_kernel_rfl) y
theorem scover6_B (c : Dev nD) (t : Fin cfg6.N) (h0 : ¬t.val % 4 = 0) (h1 : ¬t.val % 4 = 3) (prev : Vec F S2048x64 .f32) (y : S2048x64.Idx) :
    ∃ pc ∈ (runB6 V c t h0 h1 prev).2.1, y ∈ pc.1.set :=
  View.cover_of_tiledL (runB6 V c t h0 h1 prev).2.1 S2048x64.size (by sl_kernel_rfl) y
theorem scover6_C (c : Dev nD) (t : Fin cfg6.N) (h0 : ¬t.val % 4 = 0) (h1 : t.val % 4 = 3) (prev : Vec F S2048x64 .f32) (y : S2048x64.Idx) :
    ∃ pc ∈ (runC6 V c t h0 h1 prev).2.1, y ∈ pc.1.set :=
  View.cover_of_tiledL (runC6 V c t h0 h1 prev).2.1 S2048x64.size (by sl_kernel_rfl) y
/-- At the last tile of a row the one store into the output's buffer covers it. -/
theorem cover6_C (c : Dev nD) (t : Fin cfg6.N) (h0 : ¬t.val % 4 = 0) (h1 : t.val % 4 = 3) (prev : Vec F S2048x64 .f32) (y : S2048x64.Idx) :
    ∃ pc ∈ (runC6 V c t h0 h1 prev).1, y ∈ pc.1.set :=
  View.cover_of_tiledL (runC6 V c t h0 h1 prev).1 S2048x64.size (by sl_kernel_rfl) y

/-! ## Point by point -/

/-- One step: what the output's staging buffer and the accumulator hold after the body at point `t`, from what the
    accumulator held before it (not consulted at the first tile of a row, where it is cleared).  Where the output is
    not stored its component is a placeholder nothing reads. -/
def stepAt6 (c : Dev nD) (t : Fin cfg6.N) (prev : Vec F S2048x64 .f32) : Vec F S2048x64 .f32 × Vec F S2048x64 .f32 :=
  if h0 : t.val % 4 = 0 then (readO6 (runA6 V c t h0).1, readS6 (runA6 V c t h0).2.1)
  else if h1 : t.val % 4 = 3 then (readO6 (runC6 V c t h0 h1 prev).1, readS6 (runC6 V c t h0 h1 prev).2.1)
  else (readO6 (runB6 V c t h0 h1 prev).1, readS6 (runB6 V c t h0 h1 prev).2.1)

theorem stepAt6_A (c : Dev nD) (t : Fin cfg6.N) (prev : Vec F S2048x64 .f32) (h0 : t.val % 4 = 0) :
    stepAt6 V c t prev = (readO6 (runA6 V c t h0).1, readS6 (runA6 V c t h0).2.1) := dif_pos h0
theorem stepAt6_B (c : Dev nD) (t : Fin cfg6.N) (prev : Vec F S2048x64 .f32) (h0 : ¬t.val % 4 = 0) (h1 : ¬t.val % 4 = 3) :
    stepAt6 V c t prev = (readO6 (runB6 V c t h0 h1 prev).1, readS6 (runB6 V c t h0 h1 prev).2.1) := (dif_neg h0).trans (dif_neg h1)
theorem stepAt6_C (c : Dev nD) (t : Fin cfg6.N) (prev : Vec F S2048x64 .f32) (h0 : ¬t.val % 4 = 0) (h1 : t.val % 4 = 3) :
    stepAt6 V c t prev = (readO6 (runC6 V c t h0 h1 prev).1, readS6 (runC6 V c t h0 h1 prev).2.1) := (dif_neg h0).trans (dif_pos h1)

/-- THE ACCUMULATION: the pair after the body at position `n`, by recursion on the position. -/
def outsAt6 (c : Dev nD) : (n : ℕ) → n < cfg6.N → Vec F S2048x64 .f32 × Vec F S2048x64 .f32
  | 0, hn => stepAt6 V c ⟨0, hn⟩ (readS6 [])
  | n + 1, hn => stepAt6 V c ⟨n + 1, hn⟩ (outsAt6 c n (Nat.lt_of_succ_lt hn)).2

/-- What the accumulator holds when the body is entered at point `t`. -/
def prevAt6 (c : Dev nD) (t : Fin cfg6.N) : Vec F S2048x64 .f32 :=
  if h : t.val = 0 then readS6 [] else (outsAt6 V c (t.val - 1) (Nat.lt_of_le_of_lt (Nat.sub_le _ _) t.isLt)).2

theorem outsAt6_eq (c : Dev nD) (t : Fin cfg6.N) : outsAt6 V c t.val t.isLt = stepAt6 V c t (prevAt6 V c t) := by
  obtain ⟨n, hn⟩ := t
  cases n with
  | zero => rfl
  | succ n => rfl

theorem prevAt6_pos (c : Dev nD) (t : Fin cfg6.N) (hz : t.val ≠ 0) :
    prevAt6 V c t = (outsAt6 V c (t.val - 1) (Nat.lt_of_le_of_lt (Nat.sub_le _ _) t.isLt)).2 := dif_neg hz

/-! ## The invariant -/

/-- Before the first point: what the launch hands over.  Afterwards: the accumulator at what the point before left,
    the other scoped buffers unopened, the generator register at some state. -/
def PhiS6 (c : Dev nD) : (n : ℕ) → n ≤ cfg6.N → sProp 𝕄
  | 0, _ => Pipeline.ΦA spec6 c
  | n + 1, hn => iprop(iprop(owns (c : Thread nD τ) scM6_0 fullShare ((outsAt6 V c n hn).2)
      ∗ Pipeline.scopedRestBut (Ix := Unit) (Name := ℕ) (U := UR sig nD τ) (Lvl := ℕ) (Val := Elt F) spec6 c [cc6_scratch0]) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(owns (c : Thread nD τ) scM6_0 fullShare ((outsAt6 V c n hn).2)
      ∗ Pipeline.scopedRestBut (Ix := Unit) (Name := ℕ) (U := UR sig nD τ) (Lvl := ℕ) (Val := Elt F) spec6 c [cc6_scratch0]) ∗ (∃ r, prngReg c r)) := rfl

theorem PhiS6_pos (c : Dev nD) (n : ℕ) (h : n ≤ cfg6.N) (hz : n ≠ 0) :
    PhiS6 V c n h = iprop(iprop(owns (c : Thread nD τ) scM6_0 fullShare ((outsAt6 V c (n - 1) (by omega)).2)
      ∗ Pipeline.scopedRestBut (Ix := Unit) (Name := ℕ) (U := UR sig nD τ) (Lvl := ℕ) (Val := Elt F) spec6 c [cc6_scratch0]) ∗ (∃ r, prngReg c r)) := by
  cases n with
  | zero => exact absurd rfl hz
  | succ n => rfl

/-! ## The proof data -/

/-- The arrays as the region finds them; after the body each input's buffer at its block and the output's at the
    step's first component; the invariant above; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => (outsAt6 V c t.val t.isLt).1
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = (outsAt6 V c t.val t.isLt).1 := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d

/-- An input's array is never written: after the run it is the entry contents. -/
theorem arrAt_in6_0 (c : Dev nD) : (dat6 V c).arrAt 0 cfg6.N = V c (Pipeline.arrRef spec6 0) := ((dat6 V c).arrAt_in 0 rfl _).trans (A_eq6 V c 0)
theorem arrAt_in6_1 (c : Dev nD) : (dat6 V c).arrAt 1 cfg6.N = V c (Pipeline.arrRef spec6 1) := ((dat6 V c).arrAt_in 1 rfl _).trans (A_eq6 V c 1)
theorem arrAt_in6_2 (c : Dev nD) : (dat6 V c).arrAt 2 cfg6.N = V c (Pipeline.arrRef spec6 2) := ((dat6 V c).arrAt_in 2 rfl _).trans (A_eq6 V c 2)
theorem arrAt_in6_3 (c : Dev nD) : (dat6 V c).arrAt 3 cfg6.N = V c (Pipeline.arrRef spec6 3) := ((dat6 V c).arrAt_in 3 rfl _).trans (A_eq6 V c 3)

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d)))

/-- and what it returns. -/
def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t)

set_option maxHeartbeats 4800000 in
/-- The body at any point.  The inputs' buffers hold their blocks; the position modulo 4 says which of the three runs
    applies; the invariant hands the body the accumulator (at anything before the first point, else at what the point
    before left) and takes it back at this point's contents, the pieces stored into it covering it; the output's buffer
    is handed back untouched except at the last tile of a row, where the one store covers it. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).owesAt () t.succ = (dat6 V c).owesAt () t.castSucc from rfl]
  rw [show (dat6 V c).Φ t.succ = PhiS6 V c (t.val + 1) t.isLt from rfl, PhiS6_succ]
  rw [show (dat6 V c).leavesExact 0 t = owns (c : Thread nD τ) (ms6_0 t) fullShare ((dat6 V c).after 0 t) from by
    unfold Dat.leavesExact; rw [liveAt6_0 t], after6_0]
  rw [show (dat6 V c).leavesExact 1 t = owns (c : Thread nD τ) (ms6_1 t) fullShare ((dat6 V c).after 1 t) from by
    unfold Dat.leavesExact; rw [liveAt6_1 t], after6_1]
  rw [show (dat6 V c).leavesExact 2 t = owns (c : Thread nD τ) (ms6_2 t) fullShare ((dat6 V c).after 2 t) from by
    unfold Dat.leavesExact; rw [liveAt6_2 t], after6_2]
  rw [show (dat6 V c).leavesExact 3 t = owns (c : Thread nD τ) (ms6_3 t) fullShare ((dat6 V c).after 3 t) from by
    unfold Dat.leavesExact; rw [liveAt6_3 t], after6_3]
  have hN : t.val < 16 := lt_of_lt_of_eq t.isLt (show cfg6.N = 16 from N_6)
  by_cases h0 : t.val % 4 = 0
  · have h1 : ¬t.val % 4 = 3 := by omega
    rw [Dat.leavesExact_idle (dat6 V c) 4 t (idleAt6_4 t (fun h => h1 ((hcond6_1 t).mp h))) (noFlush6_4 t (fun h => h1 ((hcond6_1 t).mp h)))]
    rw [outsAt6_eq V c t, stepAt6_A V c t _ h0]
    (try dsimp only)
    by_cases hz : t.val = 0
    · rw [PhiS6_castSucc V c t, PhiS6_zero V c _ _ hz, PhiA6_eq]
      iintro ⟨⟨⟨HS0, Hr⟩, Hg⟩, Ho, ⟨%d0, H0⟩, ⟨%d1, H1⟩, ⟨%d2, H2⟩, ⟨%d3, H3⟩, ⟨%d4, H4⟩⟩
      iapply ((runA6 V c t h0).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover6_A V c t h0)
          iexact Hr
        iexact Hg
      isplitl [Ho]; · iexact Ho
      isplitl [H0]; · iexact H0
      isplitl [H1]; · iexact H1
      isplitl [H2]; · iexact H2
      isplitl [H3]; · iexact H3
      iexists _; iexact H4
    · rw [PhiS6_castSucc V c t, PhiS6_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((runA6 V c t h0).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover6_A V c t h0)
          iexact Hr
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 4 = 3
    · rw [show (dat6 V c).leavesExact 4 t = owns (c : Thread nD τ) (ms6_4 t) fullShare ((dat6 V c).after 4 t) from by
        unfold Dat.leavesExact; rw [liveAt6_4 t ((hcond6_1 t).mpr h1)], after6_4]
      rw [outsAt6_eq V c t, stepAt6_C V c t _ h0 h1]
      (try dsimp only)
      rw [PhiS6_castSucc V c t, PhiS6_pos V c _ _ hz, prevAt6_pos V c t hz]
      iintro ⟨⟨⟨HS0, Hr⟩, Hg⟩, Ho, ⟨%d0, H0⟩, ⟨%d1, H1⟩, ⟨%d2, H2⟩, ⟨%d3, H3⟩, ⟨%d4, H4⟩⟩
      iapply ((runC6 V c t h0 h1 _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover6_C V c t h0 h1 _)
          iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover6_C V c t h0 h1 _)
    · rw [Dat.leavesExact_idle (dat6 V c) 4 t (idleAt6_4 t (fun h => h1 ((hcond6_1 t).mp h))) (noFlush6_4 t (fun h => h1 ((hcond6_1 t).mp h)))]
      rw [outsAt6_eq V c t, stepAt6_B V c t _ h0 h1]
      (try dsimp only)
      rw [PhiS6_castSucc V c t, PhiS6_pos V c _ _ hz, prevAt6_pos V c t hz]
      iintro ⟨⟨⟨HS0, Hr⟩, Hg⟩, Ho, ⟨%d0, H0⟩, ⟨%d1, H1⟩, ⟨%d2, H2⟩, ⟨%d3, H3⟩, ⟨%d4, H4⟩⟩
      iapply ((runB6 V c t h0 h1 _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover6_B V c t h0 h1 _)
          iexact Hr
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation6 (c : Dev nD) : BodyObligation (dat6 (F := F) V c) (defs₀ (F := F)) Variants.none () Set.univ := fun t => by
  rw [bigSep_W6, bigSep_W6]
  exact sound_body6 V c t

/-- What the launch hands the region is the invariant before the first point. -/
theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

/-- After any point the invariant gives it back: what the accumulator holds is forgotten. -/
theorem Phi_out6 (c : Dev nD) (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨HS0, Hr⟩, Hg⟩
  isplitl [HS0 Hr]
  · isplitl [HS0]
    · iexists _; iexact HS0
    iexact Hr
  iexact Hg

/-- The same after the last point. -/
theorem hout6 (c : Dev nD) : (dat6 V c).Φ (Fin.last cfg6.N) ⊢ Pipeline.ΦA spec6 c :=
  Phi_out6 V c _ (by rw [Fin.val_last]; have : cfg6.N = 16 := N_6; omega)

end Cert.KernelIdeal.Hand

end
-- ==== Proof.Region7Runs.lean ====
import proofs.«178500_j188978561286_1_alg».proof.Proof.Gen.KernelIdeal.Launch
import proofs.«178500_j188978561286_1_alg».proof.Proof.Gen.KernelIdeal.Skeleton
import proofs.«178500_j188978561286_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The body's two conditions, over the grid

The grid is 4 × 4, walked row-major: point `t` is tile `k = t % 4` of block row `i = t / 4`.  The body's first
conditional (clear the accumulator) tests `k = 0`, its second (finish the row: add the bias row, apply the leaky
rectifier, store the output block) tests `k = 3`. -/

/-- The first conditional's test, from the grid coordinates. -/
abbrev cond7_0 (i : grid7.Coords) : Prop := (Scalar.cmpi .ne (Scalar.extui (Scalar.cmpi .eq (BitVec.ofNat 32 (i 1).val) 0#32)) 0#32) = 1#1
/-- It holds exactly at the points whose position is 0 modulo 4. -/
theorem hcond7_0 : ∀ t : Fin cfg7.N, cond7_0 (grid7.coords t) ↔ t.val % 4 = 0 :=
  (by decide +kernel : ∀ t : Fin grid7.N, cond7_0 (grid7.coords t) ↔ t.val % 4 = 0)

/-- The second conditional's test. -/
abbrev cond7_1 (i : grid7.Coords) : Prop := k7_cond2 i = 1#1
/-- It holds exactly at the points whose position is 3 modulo 4. -/
theorem hcond7_1 : ∀ t : Fin cfg7.N, cond7_1 (grid7.coords t) ↔ t.val % 4 = 3 :=
  (by decide +kernel : ∀ t : Fin grid7.N, cond7_1 (grid7.coords t) ↔ t.val % 4 = 3)

/-! ## Where the windows are idle -/

/-- The four inputs are never idle. -/
theorem liveAt7_0 : ∀ t : Fin cfg7.N, cfg7.idle 0 (grid7.coords t) = false := by decide +kernel
theorem liveAt7_1 : ∀ t : Fin cfg7.N, cfg7.idle 1 (grid7.coords t) = false := by decide +kernel
theorem liveAt7_2 : ∀ t : Fin cfg7.N, cfg7.idle 2 (grid7.coords t) = false := by decide +kernel
theorem liveAt7_3 : ∀ t : Fin cfg7.N, cfg7.idle 3 (grid7.coords t) = false := by decide +kernel
/-- The output is idle, and not written back, at every point but the last of a row. -/
theorem idleAt7_4 : ∀ t : Fin cfg7.N, ¬cond7_1 (grid7.coords t) → cfg7.idle 4 (grid7.coords t) = true := by decide +kernel
theorem noFlush7_4 : ∀ t : Fin cfg7.N, ¬cond7_1 (grid7.coords t) → (cfg7.win 4).flush t = false := by decide +kernel
/-- At the last point of a row it is live. -/
theorem liveAt7_4 : ∀ t : Fin cfg7.N, cond7_1 (grid7.coords t) → cfg7.idle 4 (grid7.coords t) = false := by decide +kernel

/-! ## The memrefs the body is called with -/

/-- One staging buffer of the output window, through which its contents are stated. -/
abbrev VO7_4 : View sig .tc .vmem S2048x128 .f32 := (Memref.whole cc7_stg4_0 : Memref sig .tc .vmem S2048x128 .f32).view
/-- Each window's current staging memref at point `t`, and its wholeness. -/
abbrev ms7_0 (t : Fin cfg7.N) : Memref sig .tc .vmem S2048x2048 .bf16 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S2048x64 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S64x128 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1x128 .f32 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S2048x128 .f32 := win7_4.stage (cfg7.slots t 4)
abbrev hs7_4 (t : Fin cfg7.N) : (ms7_4 t).IsWhole := hstage7_4 ((cfg7.slots t 4).cast nbuf7_4)
/-- The accumulator: a whole scoped buffer of the kernel's own, carried from point to point. -/
abbrev scM7_0 : Memref sig .tc .vmem S2048x128 .f32 := Memref.whole cc7_scratch0
abbrev VS7_0 : View sig .tc .vmem S2048x128 .f32 := scM7_0.view

/-- What the launch hands the region, with the accumulator split off as a memref owned at some contents; the other
    scoped buffers stay unopened. -/
theorem PhiA7_eq (c : Dev nD) :
    (Pipeline.ΦA spec7 c : sProp 𝕄)
      = iprop(iprop((∃ d, owns (c : Thread nD τ) scM7_0 fullShare d)
          ∗ Pipeline.scopedRestBut (Ix := Unit) (Name := ℕ) (U := UR sig nD τ) (Lvl := ℕ) (Val := Elt F) spec7 c [cc7_scratch0]) ∗ (∃ r, prngReg c r)) := by
  unfold Pipeline.ΦA; rw [scopedRest7_split]; simp only [scM7_0, owns_whole]; try rfl

/-! ## The body's three runs

Each is the body's triple on whole memrefs, with the lists of pieces its stores leave as the witness found by the
symbolic run. -/

set_option maxHeartbeats 1000000 in
/-- First tile of a row (`k = 0`): the accumulator, at anything, is cleared and one tile product added; the output's
    buffer is handed back untouched. -/
noncomputable def kernelRun7_A (c : Dev nD) (i : grid7.Coords) (arg2 : Memref sig .tc .vmem S2048x2048 .bf16) (harg2 : arg2.IsWhole) (arg3 : Memref sig .tc .vmem S2048x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : cond7_0 i) (hc1 : ¬cond7_1 i)
    (x0 : Vec F S2048x2048 .bf16) (x1 : Vec F S2048x64 .f32) (x2 : Vec F S64x128 .f32) (x3 : Vec F S1x128 .f32) :
    Σ' (L4 : List (View.Piece (Elt F) S2048x128 .f32)), { LS0 : List (View.Piece (Elt F) S2048x128 .f32) //
      ∀ (xi4 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc7__gcn_kernel i arg2 harg2 arg3 harg3 arg4 harg4 arg5 harg5 arg6 harg6 arg7 harg7) K } := by
  refine ⟨[], ?_, fun xi4 E K => ?run⟩
  case run =>
    simp only [cc7__gcn_kernel_eq_skeleton]; unfold cc7__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- A middle tile (`k = 1, 2`): one tile product is added to the accumulator the point before left; the output's
    buffer is handed back untouched. -/
noncomputable def kernelRun7_B (c : Dev nD) (i : grid7.Coords) (arg2 : Memref sig .tc .vmem S2048x2048 .bf16) (harg2 : arg2.IsWhole) (arg3 : Memref sig .tc .vmem S2048x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬cond7_0 i) (hc1 : ¬cond7_1 i)
    (x0 : Vec F S2048x2048 .bf16) (x1 : Vec F S2048x64 .f32) (x2 : Vec F S64x128 .f32) (x3 : Vec F S1x128 .f32) (xs0 : Vec F S2048x128 .f32) :
    Σ' (L4 : List (View.Piece (Elt F) S2048x128 .f32)), { LS0 : List (View.Piece (Elt F) S2048x128 .f32) //
      ∀ (xi4 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc7__gcn_kernel i arg2 harg2 arg3 harg3 arg4 harg4 arg5 harg5 arg6 harg6 arg7 harg7) K } := by
  refine ⟨[], ?_, fun xi4 E K => ?run⟩
  case run =>
    simp only [cc7__gcn_kernel_eq_skeleton]; unfold cc7__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- Last tile of a row (`k = 3`): the last tile product is added, then the output block is stored from the finished
    accumulator and the bias row. -/
noncomputable def kernelRun7_C (c : Dev nD) (i : grid7.Coords) (arg2 : Memref sig .tc .vmem S2048x2048 .bf16) (harg2 : arg2.IsWhole) (arg3 : Memref sig .tc .vmem S2048x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬cond7_0 i) (hc1 : cond7_1 i)
    (x0 : Vec F S2048x2048 .bf16) (x1 : Vec F S2048x64 .f32) (x2 : Vec F S64x128 .f32) (x3 : Vec F S1x128 .f32) (xs0 : Vec F S2048x128 .f32) :
    Σ' (L4 : List (View.Piece (Elt F) S2048x128 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc7__gcn_kernel i arg2 harg2 arg3 harg3 arg4 harg4 arg5 harg5 arg6 harg6 arg7 harg7) K } := by
  refine ⟨?_, ?_, fun E K => ?run⟩
  case run =>
    simp only [cc7__gcn_kernel_eq_skeleton]; unfold cc7__gcn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.Region7.lean ====
import proofs.«178500_j188978561286_1_alg».proof.Proof.Region7Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 7: the layer producing the reconstructed features, at the entry contents `V`

The grid is 4 × 4.  At point `t = 4 i + k` the body adds tile `k` of block row `i` of the product to an accumulator
it carries from point to point (cleared at `k = 0`), and at `k = 3` stores the finished row block.  The proof data
records, point by point, what the accumulator and the output's staging buffer hold. -/

/-! ## The windows' blocks -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's current staging buffer holds its block at every point, fetched there or not: where it is not
    fetched its block index has not moved.  For any proof data whose array is the entry contents and whose body
    leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-! ## What each case leaves -/

/-- The first tile of a row at point `t`. -/
abbrev runA7 (c : Dev nD) (t : Fin cfg7.N) (h0 : t.val % 4 = 0) :=
  kernelRun7_A (F := F) c (grid7.coords t) (ms7_0 t) (hs7_0 t) (ms7_1 t) (hs7_1 t) (ms7_2 t) (hs7_2 t) (ms7_3 t) (hs7_3 t) (ms7_4 t) (hs7_4 t) scM7_0 (Memref.isWhole_whole _) ((hcond7_0 t).mpr h0) (fun h => by have h3 := (hcond7_1 t).mp h; omega) (iblk7 V c 0 t) (iblk7 V c 1 t) (iblk7 V c 2 t) (iblk7 V c 3 t)
/-- A middle tile at point `t`, over what the accumulator held. -/
abbrev runB7 (c : Dev nD) (t : Fin cfg7.N) (h0 : ¬t.val % 4 = 0) (h1 : ¬t.val % 4 = 3) (prev : Vec F S2048x128 .f32) :=
  kernelRun7_B (F := F) c (grid7.coords t) (ms7_0 t) (hs7_0 t) (ms7_1 t) (hs7_1 t) (ms7_2 t) (hs7_2 t) (ms7_3 t) (hs7_3 t) (ms7_4 t) (hs7_4 t) scM7_0 (Memref.isWhole_whole _) (fun h => h0 ((hcond7_0 t).mp h)) (fun h => h1 ((hcond7_1 t).mp h)) (iblk7 V c 0 t) (iblk7 V c 1 t) (iblk7 V c 2 t) (iblk7 V c 3 t) prev
/-- The last tile of a row at point `t`, over what the accumulator held. -/
abbrev runC7 (c : Dev nD) (t : Fin cfg7.N) (h0 : ¬t.val % 4 = 0) (h1 : t.val % 4 = 3) (prev : Vec F S2048x128 .f32) :=
  kernelRun7_C (F := F) c (grid7.coords t) (ms7_0 t) (hs7_0 t) (ms7_1 t) (hs7_1 t) (ms7_2 t) (hs7_2 t) (ms7_3 t) (hs7_3 t) (ms7_4 t) (hs7_4 t) scM7_0 (Memref.isWhole_whole _) (fun h => h0 ((hcond7_0 t).mp h)) ((hcond7_1 t).mpr h1) (iblk7 V c 0 t) (iblk7 V c 1 t) (iblk7 V c 2 t) (iblk7 V c 3 t) prev

/-- A list of pieces read back through the accumulator's view, and through the output's. -/
abbrev readS7 (L : List (View.Piece (Elt F) S2048x128 .f32)) : Vec F S2048x128 .f32 := VS7_0.read (Elt F) (VS7_0.writes (Elt F) VS7_0.junk L)
abbrev readO7 (L : List (View.Piece (Elt F) S2048x128 .f32)) : Vec F S2048x128 .f32 := VO7_4.read (Elt F) (VO7_4.writes (Elt F) VO7_4.junk L)

/-- In every case the pieces stored into the accumulator tile it, so they cover it. -/
theorem scover7_A (c : Dev nD) (t : Fin cfg7.N) (h0 : t.val % 4 = 0) (y : S2048x128.Idx) :
    ∃ pc ∈ (runA7 V c t h0).2.1, y ∈ pc.1.set :=
  View.cover_of_tiledL (runA7 V c t h0).2.1 S2048x128.size (by sl_kernel_rfl) y
theorem scover7_B (c : Dev nD) (t : Fin cfg7.N) (h0 : ¬t.val % 4 = 0) (h1 : ¬t.val % 4 = 3) (prev : Vec F S2048x128 .f32) (y : S2048x128.Idx) :
    ∃ pc ∈ (runB7 V c t h0 h1 prev).2.1, y ∈ pc.1.set :=
  View.cover_of_tiledL (runB7 V c t h0 h1 prev).2.1 S2048x128.size (by sl_kernel_rfl) y
theorem scover7_C (c : Dev nD) (t : Fin cfg7.N) (h0 : ¬t.val % 4 = 0) (h1 : t.val % 4 = 3) (prev : Vec F S2048x128 .f32) (y : S2048x128.Idx) :
    ∃ pc ∈ (runC7 V c t h0 h1 prev).2.1, y ∈ pc.1.set :=
  View.cover_of_tiledL (runC7 V c t h0 h1 prev).2.1 S2048x128.size (by sl_kernel_rfl) y
/-- At the last tile of a row the one store into the output's buffer covers it. -/
theorem cover7_C (c : Dev nD) (t : Fin cfg7.N) (h0 : ¬t.val % 4 = 0) (h1 : t.val % 4 = 3) (prev : Vec F S2048x128 .f32) (y : S2048x128.Idx) :
    ∃ pc ∈ (runC7 V c t h0 h1 prev).1, y ∈ pc.1.set :=
  View.cover_of_tiledL (runC7 V c t h0 h1 prev).1 S2048x128.size (by sl_kernel_rfl) y

/-! ## Point by point -/

/-- One step: what the output's staging buffer and the accumulator hold after the body at point `t`, from what the
    accumulator held before it (not consulted at the first tile of a row, where it is cleared).  Where the output is
    not stored its component is a placeholder nothing reads. -/
def stepAt7 (c : Dev nD) (t : Fin cfg7.N) (prev : Vec F S2048x128 .f32) : Vec F S2048x128 .f32 × Vec F S2048x128 .f32 :=
  if h0 : t.val % 4 = 0 then (readO7 (runA7 V c t h0).1, readS7 (runA7 V c t h0).2.1)
  else if h1 : t.val % 4 = 3 then (readO7 (runC7 V c t h0 h1 prev).1, readS7 (runC7 V c t h0 h1 prev).2.1)
  else (readO7 (runB7 V c t h0 h1 prev).1, readS7 (runB7 V c t h0 h1 prev).2.1)

theorem stepAt7_A (c : Dev nD) (t : Fin cfg7.N) (prev : Vec F S2048x128 .f32) (h0 : t.val % 4 = 0) :
    stepAt7 V c t prev = (readO7 (runA7 V c t h0).1, readS7 (runA7 V c t h0).2.1) := dif_pos h0
theorem stepAt7_B (c : Dev nD) (t : Fin cfg7.N) (prev : Vec F S2048x128 .f32) (h0 : ¬t.val % 4 = 0) (h1 : ¬t.val % 4 = 3) :
    stepAt7 V c t prev = (readO7 (runB7 V c t h0 h1 prev).1, readS7 (runB7 V c t h0 h1 prev).2.1) := (dif_neg h0).trans (dif_neg h1)
theorem stepAt7_C (c : Dev nD) (t : Fin cfg7.N) (prev : Vec F S2048x128 .f32) (h0 : ¬t.val % 4 = 0) (h1 : t.val % 4 = 3) :
    stepAt7 V c t prev = (readO7 (runC7 V c t h0 h1 prev).1, readS7 (runC7 V c t h0 h1 prev).2.1) := (dif_neg h0).trans (dif_pos h1)

/-- THE ACCUMULATION: the pair after the body at position `n`, by recursion on the position. -/
def outsAt7 (c : Dev nD) : (n : ℕ) → n < cfg7.N → Vec F S2048x128 .f32 × Vec F S2048x128 .f32
  | 0, hn => stepAt7 V c ⟨0, hn⟩ (readS7 [])
  | n + 1, hn => stepAt7 V c ⟨n + 1, hn⟩ (outsAt7 c n (Nat.lt_of_succ_lt hn)).2

/-- What the accumulator holds when the body is entered at point `t`. -/
def prevAt7 (c : Dev nD) (t : Fin cfg7.N) : Vec F S2048x128 .f32 :=
  if h : t.val = 0 then readS7 [] else (outsAt7 V c (t.val - 1) (Nat.lt_of_le_of_lt (Nat.sub_le _ _) t.isLt)).2

theorem outsAt7_eq (c : Dev nD) (t : Fin cfg7.N) : outsAt7 V c t.val t.isLt = stepAt7 V c t (prevAt7 V c t) := by
  obtain ⟨n, hn⟩ := t
  cases n with
  | zero => rfl
  | succ n => rfl

theorem prevAt7_pos (c : Dev nD) (t : Fin cfg7.N) (hz : t.val ≠ 0) :
    prevAt7 V c t = (outsAt7 V c (t.val - 1) (Nat.lt_of_le_of_lt (Nat.sub_le _ _) t.isLt)).2 := dif_neg hz

/-! ## The invariant -/

/-- Before the first point: what the launch hands over.  Afterwards: the accumulator at what the point before left,
    the other scoped buffers unopened, the generator register at some state. -/
def PhiS7 (c : Dev nD) : (n : ℕ) → n ≤ cfg7.N → sProp 𝕄
  | 0, _ => Pipeline.ΦA spec7 c
  | n + 1, hn => iprop(iprop(owns (c : Thread nD τ) scM7_0 fullShare ((outsAt7 V c n hn).2)
      ∗ Pipeline.scopedRestBut (Ix := Unit) (Name := ℕ) (U := UR sig nD τ) (Lvl := ℕ) (Val := Elt F) spec7 c [cc7_scratch0]) ∗ (∃ r, prngReg c r))

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = iprop(iprop(owns (c : Thread nD τ) scM7_0 fullShare ((outsAt7 V c n hn).2)
      ∗ Pipeline.scopedRestBut (Ix := Unit) (Name := ℕ) (U := UR sig nD τ) (Lvl := ℕ) (Val := Elt F) spec7 c [cc7_scratch0]) ∗ (∃ r, prngReg c r)) := rfl

theorem PhiS7_pos (c : Dev nD) (n : ℕ) (h : n ≤ cfg7.N) (hz : n ≠ 0) :
    PhiS7 V c n h = iprop(iprop(owns (c : Thread nD τ) scM7_0 fullShare ((outsAt7 V c (n - 1) (by omega)).2)
      ∗ Pipeline.scopedRestBut (Ix := Unit) (Name := ℕ) (U := UR sig nD τ) (Lvl := ℕ) (Val := Elt F) spec7 c [cc7_scratch0]) ∗ (∃ r, prngReg c r)) := by
  cases n with
  | zero => exact absurd rfl hz
  | succ n => rfl

/-! ## The proof data -/

/-- The arrays as the region finds them; after the body each input's buffer at its block and the output's at the
    step's first component; the invariant above; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => (outsAt7 V c t.val t.isLt).1
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = (outsAt7 V c t.val t.isLt).1 := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d

/-- An input's array is never written: after the run it is the entry contents. -/
theorem arrAt_in7_0 (c : Dev nD) : (dat7 V c).arrAt 0 cfg7.N = V c (Pipeline.arrRef spec7 0) := ((dat7 V c).arrAt_in 0 rfl _).trans (A_eq7 V c 0)
theorem arrAt_in7_1 (c : Dev nD) : (dat7 V c).arrAt 1 cfg7.N = V c (Pipeline.arrRef spec7 1) := ((dat7 V c).arrAt_in 1 rfl _).trans (A_eq7 V c 1)
theorem arrAt_in7_2 (c : Dev nD) : (dat7 V c).arrAt 2 cfg7.N = V c (Pipeline.arrRef spec7 2) := ((dat7 V c).arrAt_in 2 rfl _).trans (A_eq7 V c 2)
theorem arrAt_in7_3 (c : Dev nD) : (dat7 V c).arrAt 3 cfg7.N = V c (Pipeline.arrRef spec7 3) := ((dat7 V c).arrAt_in 3 rfl _).trans (A_eq7 V c 3)

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d))
    ∗ (∃ d, owns (c : Thread nD τ) (ms7_4 t) fullShare ((dat7 V c).before 4 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t
    ∗ (dat7 V c).leavesExact 4 t)

set_option maxHeartbeats 4800000 in
/-- The body at any point.  The inputs' buffers hold their blocks; the position modulo 4 says which of the three runs
    applies; the invariant hands the body the accumulator (at anything before the first point, else at what the point
    before left) and takes it back at this point's contents, the pieces stored into it covering it; the output's buffer
    is handed back untouched except at the last tile of a row, where the one store covers it. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3]
  rw [show (dat7 V c).owesAt () t.succ = (dat7 V c).owesAt () t.castSucc from rfl]
  rw [show (dat7 V c).Φ t.succ = PhiS7 V c (t.val + 1) t.isLt from rfl, PhiS7_succ]
  rw [show (dat7 V c).leavesExact 0 t = owns (c : Thread nD τ) (ms7_0 t) fullShare ((dat7 V c).after 0 t) from by
    unfold Dat.leavesExact; rw [liveAt7_0 t], after7_0]
  rw [show (dat7 V c).leavesExact 1 t = owns (c : Thread nD τ) (ms7_1 t) fullShare ((dat7 V c).after 1 t) from by
    unfold Dat.leavesExact; rw [liveAt7_1 t], after7_1]
  rw [show (dat7 V c).leavesExact 2 t = owns (c : Thread nD τ) (ms7_2 t) fullShare ((dat7 V c).after 2 t) from by
    unfold Dat.leavesExact; rw [liveAt7_2 t], after7_2]
  rw [show (dat7 V c).leavesExact 3 t = owns (c : Thread nD τ) (ms7_3 t) fullShare ((dat7 V c).after 3 t) from by
    unfold Dat.leavesExact; rw [liveAt7_3 t], after7_3]
  have hN : t.val < 16 := lt_of_lt_of_eq t.isLt (show cfg7.N = 16 from N_7)
  by_cases h0 : t.val % 4 = 0
  · have h1 : ¬t.val % 4 = 3 := by omega
    rw [Dat.leavesExact_idle (dat7 V c) 4 t (idleAt7_4 t (fun h => h1 ((hcond7_1 t).mp h))) (noFlush7_4 t (fun h => h1 ((hcond7_1 t).mp h)))]
    rw [outsAt7_eq V c t, stepAt7_A V c t _ h0]
    (try dsimp only)
    by_cases hz : t.val = 0
    · rw [PhiS7_castSucc V c t, PhiS7_zero V c _ _ hz, PhiA7_eq]
      iintro ⟨⟨⟨HS0, Hr⟩, Hg⟩, Ho, ⟨%d0, H0⟩, ⟨%d1, H1⟩, ⟨%d2, H2⟩, ⟨%d3, H3⟩, ⟨%d4, H4⟩⟩
      iapply ((runA7 V c t h0).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover7_A V c t h0)
          iexact Hr
        iexact Hg
      isplitl [Ho]; · iexact Ho
      isplitl [H0]; · iexact H0
      isplitl [H1]; · iexact H1
      isplitl [H2]; · iexact H2
      isplitl [H3]; · iexact H3
      iexists _; iexact H4
    · rw [PhiS7_castSucc V c t, PhiS7_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((runA7 V c t h0).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover7_A V c t h0)
          iexact Hr
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 4 = 3
    · rw [show (dat7 V c).leavesExact 4 t = owns (c : Thread nD τ) (ms7_4 t) fullShare ((dat7 V c).after 4 t) from by
        unfold Dat.leavesExact; rw [liveAt7_4 t ((hcond7_1 t).mpr h1)], after7_4]
      rw [outsAt7_eq V c t, stepAt7_C V c t _ h0 h1]
      (try dsimp only)
      rw [PhiS7_castSucc V c t, PhiS7_pos V c _ _ hz, prevAt7_pos V c t hz]
      iintro ⟨⟨⟨HS0, Hr⟩, Hg⟩, Ho, ⟨%d0, H0⟩, ⟨%d1, H1⟩, ⟨%d2, H2⟩, ⟨%d3, H3⟩, ⟨%d4, H4⟩⟩
      iapply ((runC7 V c t h0 h1 _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover7_C V c t h0 h1 _)
          iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover7_C V c t h0 h1 _)
    · rw [Dat.leavesExact_idle (dat7 V c) 4 t (idleAt7_4 t (fun h => h1 ((hcond7_1 t).mp h))) (noFlush7_4 t (fun h => h1 ((hcond7_1 t).mp h)))]
      rw [outsAt7_eq V c t, stepAt7_B V c t _ h0 h1]
      (try dsimp only)
      rw [PhiS7_castSucc V c t, PhiS7_pos V c _ _ hz, prevAt7_pos V c t hz]
      iintro ⟨⟨⟨HS0, Hr⟩, Hg⟩, Ho, ⟨%d0, H0⟩, ⟨%d1, H1⟩, ⟨%d2, H2⟩, ⟨%d3, H3⟩, ⟨%d4, H4⟩⟩
      iapply ((runB7 V c t h0 h1 _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover7_B V c t h0 h1 _)
          iexact Hr
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation7 (c : Dev nD) : BodyObligation (dat7 (F := F) V c) (defs₀ (F := F)) Variants.none () Set.univ := fun t => by
  rw [bigSep_W7, bigSep_W7]
  exact sound_body7 V c t

/-- What the launch hands the region is the invariant before the first point. -/
theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

/-- After any point the invariant gives it back: what the accumulator holds is forgotten. -/
theorem Phi_out7 (c : Dev nD) (t : Fin (cfg7.N + 1)) (ht : t.val ≠ 0) : (dat7 V c).Φ t ⊢ Pipeline.ΦA spec7 c := by
  rw [show (dat7 V c).Φ t = PhiS7 V c t.val (Nat.le_of_lt_succ t.isLt) from rfl, PhiS7_pos V c _ _ ht, PhiA7_eq]
  iintro ⟨⟨HS0, Hr⟩, Hg⟩
  isplitl [HS0 Hr]
  · isplitl [HS0]
    · iexists _; iexact HS0
    iexact Hr
  iexact Hg

/-- The same after the last point. -/
theorem hout7 (c : Dev nD) : (dat7 V c).Φ (Fin.last cfg7.N) ⊢ Pipeline.ΦA spec7 c :=
  Phi_out7 V c _ (by rw [Fin.val_last]; have : cfg7.N = 16 := N_7; omega)

end Cert.KernelIdeal.Hand

end
-- ==== Proof.Bundles.lean ====
/-
  The eight regions' data gathered as the run's parameters.

  Each kernel region's module states, at any contents the region may be entered from, its proof data (arrays read off
  the contents, every share full but for the one array two windows of the edge decoder both read, nothing owed, no
  bound on recorded pairs), its body obligation and its invariant's first and last states.  This module only
  packs them in the form the run takes.
-/
import proofs.«178500_j188978561286_1_alg».proof.Proof.Run
import proofs.«178500_j188978561286_1_alg».proof.Proof.Region0
import proofs.«178500_j188978561286_1_alg».proof.Proof.Region1
import proofs.«178500_j188978561286_1_alg».proof.Proof.Region2
import proofs.«178500_j188978561286_1_alg».proof.Proof.Region3
import proofs.«178500_j188978561286_1_alg».proof.Proof.Region4
import proofs.«178500_j188978561286_1_alg».proof.Proof.Region5
import proofs.«178500_j188978561286_1_alg».proof.Proof.Region6
import proofs.«178500_j188978561286_1_alg».proof.Proof.Region7

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)

variable {F : FTy → Type} [FloatOps F]

/-- Region 0's data. -/
def bundle0 : Region0 (F := F) where
  dat := dat0
  A_eq := A_eq0
  q_eq := fun _ _ _ => rfl
  owed_eq := fun _ _ _ => rfl
  rec_eq := fun _ _ _ => rfl
  body := body_obligation0
  hin := hin0
  hout := hout0

/-- Region 1's data. -/
def bundle1 : Region1 (F := F) where
  dat := dat1
  A_eq := A_eq1
  q_eq := fun _ _ _ => rfl
  owed_eq := fun _ _ _ => rfl
  rec_eq := fun _ _ _ => rfl
  body := body_obligation1
  hin := hin1
  hout := hout1

/-- Region 2's data. -/
def bundle2 : Region2 (F := F) where
  dat := dat2
  A_eq := A_eq2
  q_eq := fun _ _ _ => rfl
  owed_eq := fun _ _ _ => rfl
  rec_eq := fun _ _ _ => rfl
  body := body_obligation2
  hin := hin2
  hout := hout2

/-- Region 3's data. -/
def bundle3 : Region3 (F := F) where
  dat := dat3
  A_eq := A_eq3
  q_eq := fun _ _ _ => rfl
  owed_eq := fun _ _ _ => rfl
  rec_eq := fun _ _ _ => rfl
  body := body_obligation3
  hin := hin3
  hout := hout3

/-- Region 4's data. -/
def bundle4 : Region4 (F := F) where
  dat := dat4
  A_eq := A_eq4
  q_eq := fun _ _ _ => rfl
  owed_eq := fun _ _ _ => rfl
  rec_eq := fun _ _ _ => rfl
  body := body_obligation4
  hin := hin4
  hout := hout4

/-- Region 5's data. -/
def bundle5 : Region5 (F := F) where
  dat := dat5
  A_eq := A_eq5
  q_eq := fun _ _ _ => rfl
  owed_eq := fun _ _ _ => rfl
  rec_eq := fun _ _ _ => rfl
  body := body_obligation5
  hin := hin5
  hout := hout5
  hsplit := hsplit5
  hjoin := hjoin5

/-- Region 6's data. -/
def bundle6 : Region6 (F := F) where
  dat := dat6
  A_eq := A_eq6
  q_eq := fun _ _ _ => rfl
  owed_eq := fun _ _ _ => rfl
  rec_eq := fun _ _ _ => rfl
  body := body_obligation6
  hin := hin6
  hout := hout6

/-- Region 7's data. -/
def bundle7 : Region7 (F := F) where
  dat := dat7
  A_eq := A_eq7
  q_eq := fun _ _ _ => rfl
  owed_eq := fun _ _ _ => rfl
  rec_eq := fun _ _ _ => rfl
  body := body_obligation7
  hin := hin7
  hout := hout7

end Cert.KernelIdeal.Hand

end
-- ==== Proof.Spec.lean ====
/-
  The graph autoencoder as one function of its argument arrays, on the extended reals.

  An edge table E (8192 × 8192 integers) gives the adjacency indicator ind(i,j) = 1 when E(i,j) ≠ 0, else 0;
  a self loop is added on the diagonal, A = ind + I; a row's degree is the sum of its entries of A, and the
  symmetric normalisation scales entry (i,j) of A by deg(i)^(-1/2) on the left and deg(j)^(-1/2) on the right.
  A graph-convolution layer maps node features X through a weight matrix W, mixes the rows with the normalised
  adjacency, adds a bias row and applies the leaky rectifier of slope 0.01 (the f32 nearest 0.01, the same word in
  both programs, never evaluated).  The edge decoder is the logistic function of the Gram matrix of the
  64 decoded features.  Everything is stated index by index, with indices built from literal coordinates.
-/
import Idealize.ShloMosaic.PureOps.Ideal.Laws
import Idealize.ShloMosaic.Lib.ValueIdx

noncomputable section

namespace Cert.Spec

open Idealize.ShloMosaic Idealize.ShloMosaic.ValueIdx

/-- The number of nodes. -/
abbrev Nn : ℕ := 8192

/-- The edge table: 32-bit integers at (i, j). -/
abbrev Edges : Type := (⟨2, ![8192, 8192]⟩ : Shape).Idx → BitVec 32

/-- A real matrix with a rows and b columns, entries extended reals. -/
abbrev Mat (a b : ℕ) : Type := (⟨2, ![a, b]⟩ : Shape).Idx → EReal

/-- A real vector of length a. -/
abbrev Vc (a : ℕ) : Type := (⟨1, ![a]⟩ : Shape).Idx → EReal

/-- The adjacency indicator of one table entry: 1 for a nonzero word, else 0. -/
def ind (e : BitVec 32) : EReal := if e = 0#32 then 0 else 1

/-- The diagonal indicator. -/
def diag (i j : Fin 8192) : EReal := if i = j then 1 else 0

/-- The adjacency with self loops, A = ind + I, at (i, j). -/
def adj (E : Edges) (i j : Fin 8192) : EReal := ind (E (ix2 i j)) + diag i j

/-- The degree of node i: the sum of row i of A. -/
def deg (E : Edges) (i : Fin 8192) : EReal := ∑ j : Fin 8192, adj E i j

/-- deg^(-1/2). -/
def dinv (E : Edges) (i : Fin 8192) : EReal := Ideal.rsqrt (deg E i)

/-- The symmetrically normalised adjacency at (i, j): (dinv i · A(i,j)) · dinv j. -/
def nadj (E : Edges) (i j : Fin 8192) : EReal := dinv E i * adj E i j * dinv E j

/-- The rectifier's slope: the f32 word nearest 0.01, as both programs spell it. -/
def slope : EReal := Ideal.ofBits .f32 0x3C23D70A#32

/-- The leaky rectifier: v when 0 ≤ v, else slope · v. -/
def lrelu (v : EReal) : EReal := if 0 ≤ v then v else slope * v

/-- One graph-convolution layer at (i, c): lrelu((∑ₖ nadj(i,k) · (∑_d X(k,d) · W(d,c))) + b(c)). -/
def gcn {K C : ℕ} (E : Edges) (X : Mat 8192 K) (W : Mat K C) (b : Vc C) : Mat 8192 C := fun j =>
  lrelu ((∑ k : Fin 8192, nadj E (j 0) k * ∑ d : Fin K, X (ix2 k d) * W (ix2 d (j 1))) + b (ix1 (j 1)))

/-- The edge decoder at (i, j): the logistic function of ∑_d R(i,d) · R(j,d). -/
def recon (R : Mat 8192 64) : Mat 8192 8192 := fun j =>
  Ideal.logistic (∑ d : Fin 64, R (ix2 (j 0) d) * R (ix2 (j 1) d))

/-! ## The same functions stated over the arrays the kernels actually receive

Each kernel region reads whole arrays: the degree column, its row form, the normalised adjacency as a matrix, a
bias as a one-row matrix.  These forms say what one region computes from the arrays it is handed; the equations
below identify them with the functions above. -/

/-- deg^(-1/2) as the one-column matrix the degree pass writes. -/
def dinvCol (E : Edges) : Mat 8192 1 := fun j => dinv E (j 0)

/-- The same as a one-row matrix. -/
def dinvRow (E : Edges) : Mat 1 8192 := fun j => dinv E (j 1)

/-- The normalised adjacency from ANY column and row of scales: (dc(i) · A(i,j)) · dr(j). -/
def nadjOf (E : Edges) (dc : Mat 8192 1) (dr : Mat 1 8192) : Mat 8192 8192 := fun j =>
  dc (ix2 (j 0) (0 : Fin 1)) * adj E (j 0) (j 1) * dr (ix2 (0 : Fin 1) (j 1))

/-- The normalised adjacency as a matrix. -/
def nadjMat (E : Edges) : Mat 8192 8192 := fun j => nadj E (j 0) (j 1)

theorem nadjOf_dinv (E : Edges) : nadjOf E (dinvCol E) (dinvRow E) = nadjMat E := rfl

/-- A bias vector as a one-row matrix. -/
def asRow {C : ℕ} (b : Vc C) : Mat 1 C := fun j => b (ix1 (j 1))

/-- One layer from ANY mixing matrix NA and bias row: lrelu((∑ₖ NA(i,k) · (∑_d X(k,d) · W(d,c))) + brow(0,c)). -/
def layer {K C : ℕ} (NA : Mat 8192 8192) (X : Mat 8192 K) (W : Mat K C) (brow : Mat 1 C) : Mat 8192 C := fun j =>
  lrelu ((∑ k : Fin 8192, NA (ix2 (j 0) k) * ∑ d : Fin K, X (ix2 k d) * W (ix2 d (j 1))) + brow (ix2 (0 : Fin 1) (j 1)))

theorem gcn_eq_layer {K C : ℕ} (E : Edges) (X : Mat 8192 K) (W : Mat K C) (b : Vc C) :
    gcn E X W b = layer (nadjMat E) X W (asRow b) := rfl

section Net

variable (E : Edges) (x : Mat 8192 128) (W1 : Mat 128 64) (b1 : Vc 64) (W2 : Mat 64 128) (b2 : Vc 128)
  (We : Mat 128 64) (be : Vc 64) (Wd1 : Mat 128 64) (bd1 : Vc 64) (Wd2 : Mat 64 128) (bd2 : Vc 128)

/-- The first hidden layer. -/
def hid : Mat 8192 64 := gcn E x W1 b1
/-- The latent code (third result). -/
def lat : Mat 8192 128 := gcn E (hid E x W1 b1) W2 b2
/-- The features the edge decoder multiplies. -/
def edgeFeat : Mat 8192 64 := gcn E (lat E x W1 b1 W2 b2) We be
/-- The reconstructed adjacency (first result). -/
def reconEdge : Mat 8192 8192 := recon (edgeFeat E x W1 b1 W2 b2 We be)
/-- The feature decoder's hidden layer. -/
def decHid : Mat 8192 64 := gcn E (lat E x W1 b1 W2 b2) Wd1 bd1
/-- The reconstructed features (second result). -/
def xOut : Mat 8192 128 := gcn E (decHid E x W1 b1 W2 b2 Wd1 bd1) Wd2 bd2

end Net

end Cert.Spec

end
-- ==== Proof.HostReshapes.lean ====
/-
  The six host reshapes of the program, read as the specification's forms on the extended reals.

  Between its kernel regions the program reshapes the degree column [8192, 1] to a row [1, 8192] and each bias vector
  [C] to a one-row matrix [1, C]. A reshape keeps the row-major position of every entry: entry (0, q) of the row is
  entry (q, 0) of the column, and entry (0, q) of a one-row matrix is entry q of the vector. So each reshape's result
  is the specification's row form of its operand, whatever the other buffers hold when it runs.
-/
import proofs.«178500_j188978561286_1_alg».proof.Proof.Gen.KernelIdeal.Launch
import proofs.«178500_j188978561286_1_alg».proof.Proof.Spec
import Idealize.ShloMosaic.Lib.StableHlo.Run
import Idealize.ShloMosaic.Lib.Pipeline.Value
import Idealize.ShloMosaic.Lib.ValueIdx
import Idealize.ShloMosaic.Lib.Tactic

noncomputable section

namespace Cert.KernelIdeal.Hand

open Idealize.ShloMosaic Idealize.ShloMosaic.TcCoe Idealize.ShloMosaic.ValueIdx
open Idealize.SL.Sem
open Cert.KernelIdeal.Gen

namespace HostR

/-- A column [a, 1] reshaped to a row [1, a] reads, at (0, q), the column's entry (q, 0). -/
theorem colToRow_apply {α : Type} {a : ℕ} (x : (⟨2, ![a, 1]⟩ : Shape).Idx → α)
    (h : (⟨2, ![a, 1]⟩ : Shape).ShapeCasts ⟨2, ![1, a]⟩) (j : (⟨2, ![1, a]⟩ : Shape).Idx) :
    shapeCast ⟨2, ![1, a]⟩ x h j = x (ix2 (⟨(j 1).val, (j 1).isLt⟩ : Fin a) (0 : Fin 1)) := by
  refine shapeCast_apply x h j _ ?_
  have h0 : (j 0).val = 0 := by have hlt : (j 0).val < 1 := (j 0).isLt; omega
  simp only [Shape.rowMajor_val_two]
  show (j 1).val * 1 + 0 = (j 0).val * a + (j 1).val
  rw [h0]; simp

/-- A vector [n] reshaped to a one-row matrix [1, n] reads, at (0, q), the vector's entry q. -/
theorem vecToRow_apply {α : Type} {n : ℕ} (b : (⟨1, ![n]⟩ : Shape).Idx → α)
    (h : (⟨1, ![n]⟩ : Shape).ShapeCasts ⟨2, ![1, n]⟩) (j : (⟨2, ![1, n]⟩ : Shape).Idx) :
    shapeCast ⟨2, ![1, n]⟩ b h j = b (ix1 (⟨(j 1).val, (j 1).isLt⟩ : Fin n)) := by
  refine shapeCast_apply b h j _ ?_
  have h0 : (j 0).val = 0 := by have hlt : (j 0).val < 1 := (j 0).isLt; omega
  simp only [Shape.rowMajor_val_two, Shape.rowMajor_val_one]
  show (j 1).val = (j 0).val * n + (j 1).val
  rw [h0]; simp

end HostR

/-- The degree column reshaped to a row is the specification's row of deg^(-1/2). -/
theorem reshape_v1 (V : Valuation τ sig (Elt Ideal)) (E : Cert.Spec.Edges)
    (h : V (Proc.devRef .tc main_v0) = Cert.Spec.dinvCol E) :
    StableHlo.after (hostOps1 (F := Ideal)) V (Proc.devRef .tc main_v1) = Cert.Spec.dinvRow E := by
  after_results
  rw [h]
  funext j
  exact HostR.colToRow_apply (Cert.Spec.dinvCol E) shapeCasts_S8192x1_S1x8192 j

/-- The first layer's bias as a one-row matrix. -/
theorem reshape_v3 (V : Valuation τ sig (Elt Ideal)) :
    StableHlo.after (hostOps2 (F := Ideal)) V (Proc.devRef .tc main_v3) = Cert.Spec.asRow (V (Proc.devRef .tc main_arg3)) := by
  after_results
  funext j
  exact HostR.vecToRow_apply (V (Proc.devRef .tc main_arg3)) shapeCasts_S64_S1x64 j

/-- The second layer's bias as a one-row matrix. -/
theorem reshape_v5 (V : Valuation τ sig (Elt Ideal)) :
    StableHlo.after (hostOps3 (F := Ideal)) V (Proc.devRef .tc main_v5) = Cert.Spec.asRow (V (Proc.devRef .tc main_arg5)) := by
  after_results
  funext j
  exact HostR.vecToRow_apply (V (Proc.devRef .tc main_arg5)) shapeCasts_S128_S1x128 j

/-- The edge-feature layer's bias as a one-row matrix. -/
theorem reshape_v7 (V : Valuation τ sig (Elt Ideal)) :
    StableHlo.after (hostOps4 (F := Ideal)) V (Proc.devRef .tc main_v7) = Cert.Spec.asRow (V (Proc.devRef .tc main_arg7)) := by
  after_results
  funext j
  exact HostR.vecToRow_apply (V (Proc.devRef .tc main_arg7)) shapeCasts_S64_S1x64 j

/-- The decoder's hidden layer's bias as a one-row matrix. -/
theorem reshape_v10 (V : Valuation τ sig (Elt Ideal)) :
    StableHlo.after (hostOps6 (F := Ideal)) V (Proc.devRef .tc main_v10) = Cert.Spec.asRow (V (Proc.devRef .tc main_arg9)) := by
  after_results
  funext j
  exact HostR.vecToRow_apply (V (Proc.devRef .tc main_arg9)) shapeCasts_S64_S1x64 j

/-- The output layer's bias as a one-row matrix. -/
theorem reshape_v12 (V : Valuation τ sig (Elt Ideal)) :
    StableHlo.after (hostOps7 (F := Ideal)) V (Proc.devRef .tc main_v12) = Cert.Spec.asRow (V (Proc.devRef .tc main_arg11)) := by
  after_results
  funext j
  exact HostR.vecToRow_apply (V (Proc.devRef .tc main_arg11)) shapeCasts_S128_S1x128 j

end Cert.KernelIdeal.Hand

end
-- ==== Proof.LibRowOps.lean ====
/-
  Sums along the feature axis, and the keep-dimension column forms, read at an entry.

  A tile with nodes down its rows and features across its columns is reduced along axis 1: the result at row p is
  the sum of that row's b entries. On the extended reals the reduction from the zero accumulator is that plain
  sum. A per-row statistic is then kept as a one-column matrix: a length-a vector cast to [a, 1] reads its entry
  p at (p, 0), and the column broadcast across b columns reads (p, 0) at every (p, c). Every extent is generic.
-/
import Idealize.ShloMosaic.PureOps.Ideal.Laws
import Idealize.ShloMosaic.Lib.ValueIdx
import Idealize.ShloMosaic.Lib.Pipeline.Value

namespace RowOps

open Idealize.ShloMosaic Idealize.ShloMosaic.ValueIdx

variable {a b : ℕ}

/-- Row p with the feature coordinate k put back on axis 1 is the entry (p, k). -/
theorem lift_row (h : Shape.Reduces ⟨2, ![a, b]⟩ [1] ⟨1, ![a]⟩) (p : Fin a) (k : Fin b) :
    h.lift (ix1 p) k = ix2 p k := by
  funext d
  apply Fin.ext
  match d with
  | ⟨0, h0⟩ =>
    show h.liftVal (ix1 p) k.val ⟨0, h0⟩ = p.val
    unfold Shape.Reduces.liftVal
    split
    · next hc => exact absurd hc Nat.zero_ne_one
    · split
      · rfl
      · next hlt => exact absurd Nat.zero_lt_one hlt
  | ⟨1, h1⟩ =>
    show h.liftVal (ix1 p) k.val ⟨1, h1⟩ = k.val
    unfold Shape.Reduces.liftVal
    split
    · rfl
    · next hc => exact absurd rfl hc

/-- A sum along axis 1 from the zero accumulator, at row p: the sum of the row's b entries. -/
theorem rowSum_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ v 0x00000000#32 h hφ hacc (ix1 p) = ∑ k : Fin b, v (ix2 p k) := by
  refine (Ideal.multiReduction_add_single v 0x00000000#32 h hφ hacc (ix1 p)).trans ?_
  exact Finset.sum_congr rfl fun k _ => congrArg v (lift_row h p k)

variable {α : Type}

/-- A length-a vector cast to the column [a, 1] reads, at (p, u), the vector's entry p. -/
theorem shapeCast_a_a1_apply (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] broadcast over [a, b] reads, at (p, c), the column's entry (p, 0). -/
theorem broadcastTo_a1_ab_apply (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end RowOps
-- ==== Proof.Region0Value.lean ====
import proofs.«178500_j188978561286_1_alg».proof.Proof.Region0
import proofs.«178500_j188978561286_1_alg».proof.Proof.Spec
import proofs.«178500_j188978561286_1_alg».proof.Proof.LibRowOps
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Hand

open Idealize.ShloMosaic Idealize.ShloMosaic.TcCoe Idealize.ShloMosaic.Tactic Idealize.ShloMosaic.ValueIdx
open Idealize.SL.Sem
open Idealize.ShloMosaic.Pipeline (Dat)
open Cert.KernelIdeal.Gen

namespace V0

variable {F : FTy → Type} [FloatOps F]

theorem hz : (![0, 0] : Fin 2 → Nat) = fun _ => 0 := funext fun a => by fin_cases a <;> rfl

/-- A middle tile leaves, in the accumulator holding xs, the accumulating payload of the edge block x and xs. -/
theorem sout_B (c : Dev nD) (i : grid0.Coords) (a2 : Memref sig .tc .vmem S1024x2048 .i32) (h2 : a2.IsWhole) (a3 : Memref sig .tc .vmem S1024x1 .f32) (h3 : a3.IsWhole) (a4 : Memref sig .tc .vmem S1024x1 .f32) (h4 : a4.IsWhole) (hc0 : ¬cond0_0 i) (hc1 : ¬cond0_1 i) (x : Vec F S1024x2048 .i32) (xs : Vec F S1024x1 .f32) :
    sout0_B_0 c i a2 h2 a3 h3 a4 h4 hc0 hc1 x xs = k0_pay2 x xs := by
  unfold sout0_B_0
  rw [View.read_writes_eq_canon _ _ _ (scover0_B_0 c i a2 h2 a3 h3 a4 h4 hc0 hc1 x xs)]
  unfold kernelRun0_B
  dsimp only
  rw [View.canon_unit_zero hz]
  simp only [View.readAt_eq_ld, h2.read_unread, h4.read_unread, View.ld_unit_zero (S := S1024x2048) hz, View.ld_unit_zero (S := S1024x1) hz]

/-- The first tile of a row leaves the accumulating payload of the edge block and the zero block just stored. -/
theorem sout_A (c : Dev nD) (i : grid0.Coords) (a2 : Memref sig .tc .vmem S1024x2048 .i32) (h2 : a2.IsWhole) (a3 : Memref sig .tc .vmem S1024x1 .f32) (h3 : a3.IsWhole) (a4 : Memref sig .tc .vmem S1024x1 .f32) (h4 : a4.IsWhole) (hc0 : cond0_0 i) (hc1 : ¬cond0_1 i) (x : Vec F S1024x2048 .i32) :
    sout0_A_0 c i a2 h2 a3 h3 a4 h4 hc0 hc1 x = k0_pay2 x (k0_pay1 (F := F)) := by
  unfold sout0_A_0
  rw [View.read_writes_eq_canon _ _ _ (scover0_A_0 c i a2 h2 a3 h3 a4 h4 hc0 hc1 x)]
  unfold kernelRun0_A
  dsimp only
  sl_unfold_words
  rw [View.canon_cons_unit_zero (S := S1024x1) hz, View.readCov_unit_zero (S := S1024x1) _ hz]
  simp only [View.readAt_eq_ld, h2.read_unread, View.ld_unit_zero (S := S1024x2048) hz]

/-- The last tile of a row leaves the same accumulating payload in the accumulator … -/
theorem sout_C (c : Dev nD) (i : grid0.Coords) (a2 : Memref sig .tc .vmem S1024x2048 .i32) (h2 : a2.IsWhole) (a3 : Memref sig .tc .vmem S1024x1 .f32) (h3 : a3.IsWhole) (a4 : Memref sig .tc .vmem S1024x1 .f32) (h4 : a4.IsWhole) (hc0 : ¬cond0_0 i) (hc1 : cond0_1 i) (x : Vec F S1024x2048 .i32) (xs : Vec F S1024x1 .f32) :
    sout0_C_0 c i a2 h2 a3 h3 a4 h4 hc0 hc1 x xs = k0_pay2 x xs := by
  unfold sout0_C_0
  rw [View.read_writes_eq_canon _ _ _ (scover0_C_0 c i a2 h2 a3 h3 a4 h4 hc0 hc1 x xs)]
  unfold kernelRun0_C
  dsimp only
  sl_unfold_words
  rw [View.canon_unit_zero hz]
  simp only [View.readAt_eq_ld, h2.read_unread, h4.read_unread, View.ld_unit_zero (S := S1024x2048) hz, View.ld_unit_zero (S := S1024x1) hz]

/-- … and stores into the output block the finishing payload of that accumulator. -/
theorem out_C (c : Dev nD) (i : grid0.Coords) (a2 : Memref sig .tc .vmem S1024x2048 .i32) (h2 : a2.IsWhole) (a3 : Memref sig .tc .vmem S1024x1 .f32) (h3 : a3.IsWhole) (a4 : Memref sig .tc .vmem S1024x1 .f32) (h4 : a4.IsWhole) (hc0 : ¬cond0_0 i) (hc1 : cond0_1 i) (x : Vec F S1024x2048 .i32) (xs : Vec F S1024x1 .f32) :
    out0_C_1 c i a2 h2 a3 h3 a4 h4 hc0 hc1 x xs = k0_pay3 (k0_pay2 x xs) := by
  unfold out0_C_1
  rw [View.read_writes_eq_canon _ _ _ (cover0_C_1 c i a2 h2 a3 h3 a4 h4 hc0 hc1 x xs)]
  unfold kernelRun0_C
  dsimp only
  sl_unfold_words
  rw [View.canon_unit_zero hz, View.readCov_unit_zero (S := S1024x1) _ hz]
  simp only [View.readAt_eq_ld, h2.read_unread, h4.read_unread, View.ld_unit_zero (S := S1024x2048) hz, View.ld_unit_zero (S := S1024x1) hz]

/-! ## The three payloads on the extended reals, entry by entry -/

/-- The word of 1.0 is the extended real 1. -/
theorem ofBits_one_f32 : Ideal.ofBits .f32 0x3F800000#32 = 1 := by
  simp [Ideal.ofBits, Ideal.ieee, -EReal.coe_mul]; norm_num

/-- The comparison bit "e ≠ 0", widened to 32 bits and converted to a float, is the adjacency indicator of e. -/
theorem ind_word (e : BitVec 32) :
    FloatOps.sitofp (F := Ideal) .f32 ((IntOp.cmpi .ne e 0#32).setWidth 32) = Cert.Spec.ind e := by
  show ((((IntOp.cmpi .ne e 0#32).setWidth 32).toInt : ℝ) : EReal) = Cert.Spec.ind e
  unfold Cert.Spec.ind
  by_cases h : e = 0#32
  · subst h; rw [if_pos rfl]
    have : ((IntOp.cmpi .ne 0#32 0#32).setWidth 32).toInt = 0 := by decide
    rw [this]; simp
  · rw [if_neg h]
    have hb : IntOp.cmpi .ne e 0#32 = 1#1 := by
      unfold IntOp.cmpi
      have : (e != 0#32) = true := by simpa using h
      rw [this]; rfl
    rw [hb]
    have : ((1#1 : BitVec 1).setWidth 32).toInt = 1 := by decide
    rw [this]; simp

/-- The zero block. -/
theorem pay1_apply (j : S1024x1.Idx) : k0_pay1 (F := Ideal) j = 0 := by
  unfold k0_pay1
  rw [shapeCast_self]
  exact Ideal.ofBits_zero_f32

/-- The accumulating payload at row r: the accumulator's entry plus the number of nonzero words in row r of the tile. -/
theorem pay2_apply (x : Vec Ideal S1024x2048 .i32) (acc : Vec Ideal S1024x1 .f32) (r : Fin 1024) :
    k0_pay2 x acc (ix2 r (0 : Fin 1)) = acc (ix2 r (0 : Fin 1)) + ∑ k : Fin 2048, Cert.Spec.ind (x (ix2 r k)) := by
  unfold k0_pay2
  rw [shapeCast_self]
  refine congrArg (acc (ix2 r (0 : Fin 1)) + ·) ?_
  refine (RowOps.shapeCast_a_a1_apply _ shapeCasts_S1024_S1024x1 r (0 : Fin 1)).trans ?_
  refine (RowOps.rowSum_apply _ reduces_S1024x2048_S1024 (.inl rfl) rfl r).trans ?_
  exact Finset.sum_congr rfl fun k _ => ind_word (x (ix2 r k))

/-- The finishing payload: one more than the accumulator's entry, to the power -1/2. -/
theorem pay3_apply (acc : Vec Ideal S1024x1 .f32) (j : S1024x1.Idx) :
    k0_pay3 acc j = Ideal.rsqrt (acc j + 1) := by
  unfold k0_pay3
  show Ideal.rsqrt (acc j + Ideal.ofBits .f32 0x3F800000#32) = _
  rw [ofBits_one_f32]

/-! ## The edge block a point reads, entry by entry -/

variable (V : (c : Dev nD) → (b : Ref sig .tc) → Buf (Elt Ideal) ((c : Thread nD τ).loc b))

/-- Point t = (t / 4, t mod 4) reads the edge table's block (t / 4, t mod 4) and writes the output's block (t / 4, 0). -/
theorem idx0_0 : ∀ t : Fin cfg0.N, win0_0.index t 0 = t.val / 4 ∧ win0_0.index t 1 = t.val % 4 :=
  (by decide +kernel : ∀ t : Fin grid0.N, win0_0.index t 0 = t.val / 4 ∧ win0_0.index t 1 = t.val % 4)
theorem idx0_1 : ∀ t : Fin cfg0.N, win0_1.index t 0 = t.val / 4 ∧ win0_1.index t 1 = 0 :=
  (by decide +kernel : ∀ t : Fin grid0.N, win0_1.index t 0 = t.val / 4 ∧ win0_1.index t 1 = 0)

/-- Entry (r, k) of the edge block at point t is entry (1024·(t / 4) + r, 2048·(t mod 4) + k) of the table. -/
theorem iblk0_apply (c : Dev nD) (t : Fin cfg0.N) (r : Fin 1024) (k : Fin 2048) (i j : Fin 8192)
    (hi : i.val = 1024 * (t.val / 4) + r.val) (hj : j.val = 2048 * (t.val % 4) + k.val) :
    (iblk0 V c 0 t : Vec Ideal S1024x2048 .i32) (ix2 r k) = V c main_arg1 (ix2 i j) := by
  obtain ⟨h0, h1⟩ := idx0_0 t
  unfold iblk0
  rw [View.read_apply]
  show V c main_arg1 _ = V c main_arg1 _
  congr 1
  funext a
  apply Fin.ext
  match a with
  | ⟨0, _⟩ => show win0_0.index t 0 * 1024 + 1 * r.val = i.val; rw [h0, hi]; omega
  | ⟨1, _⟩ => show win0_0.index t 1 * 2048 + 1 * k.val = j.val; rw [h1, hj]; omega

/-- The number of nonzero words in row i of the table among the 2048 columns of column tile s (s below 4). -/
def tileSum (E : Cert.Spec.Edges) (i : Fin 8192) (s : ℕ) : EReal :=
  if h : s < 4 then ∑ k : Fin 2048, Cert.Spec.ind (E (ix2 i (⟨2048 * s + k.val, by omega⟩ : Fin 8192))) else 0

/-- The row sums of the indicator over the edge block at point t are the tile sums of tile t mod 4. -/
theorem tile_eq (c : Dev nD) (t : Fin cfg0.N) (r : Fin 1024) (i : Fin 8192) (hi : i.val = 1024 * (t.val / 4) + r.val)
    (s : ℕ) (hs : t.val % 4 = s) :
    ∑ k : Fin 2048, Cert.Spec.ind ((iblk0 V c 0 t : Vec Ideal S1024x2048 .i32) (ix2 r k)) = tileSum (V c main_arg1) i s := by
  subst hs
  unfold tileSum
  rw [dif_pos (Nat.mod_lt _ (by norm_num))]
  exact Finset.sum_congr rfl fun k _ => congrArg Cert.Spec.ind (iblk0_apply V c t r k i _ hi rfl)

/-! ## The accumulator after each point -/

/-- After the first tile of a row the accumulator holds that tile's sums. -/
theorem acc_A (c : Dev nD) (t : Fin cfg0.N) (h0 : t.val % 4 = 0) (r : Fin 1024) (i : Fin 8192)
    (hi : i.val = 1024 * (t.val / 4) + r.val) :
    (outsAt0 V c t.val t.isLt).2 (ix2 r (0 : Fin 1)) = tileSum (V c main_arg1) i 0 := by
  have h1 : ¬t.val % 4 = 3 := by omega
  rw [outsAt0_A V c t h0 h1]
  dsimp only
  rw [sout_A, pay2_apply, pay1_apply, zero_add]
  exact tile_eq V c t r i hi 0 h0

/-- After any other tile it holds what the point before left plus this tile's sums. -/
theorem acc_step (c : Dev nD) (t : Fin cfg0.N) (h0 : ¬t.val % 4 = 0) (r : Fin 1024) (i : Fin 8192)
    (hi : i.val = 1024 * (t.val / 4) + r.val) :
    (outsAt0 V c t.val t.isLt).2 (ix2 r (0 : Fin 1))
      = (outsAt0 V c (t.val - 1) (Nat.lt_of_le_of_lt (Nat.sub_le _ _) t.isLt)).2 (ix2 r (0 : Fin 1)) + tileSum (V c main_arg1) i (t.val % 4) := by
  by_cases h1 : t.val % 4 = 3
  · rw [outsAt0_C V c t h0 h1]
    dsimp only
    rw [sout_C, pay2_apply]
    exact congrArg (_ + ·) (tile_eq V c t r i hi _ rfl)
  · rw [outsAt0_B V c t h0 h1]
    dsimp only
    rw [sout_B, pay2_apply]
    exact congrArg (_ + ·) (tile_eq V c t r i hi _ rfl)

/-- So after point n the accumulator holds the sums of the tiles 0 … n mod 4 of its row block. -/
theorem acc_eq (c : Dev nD) : ∀ (n : ℕ) (h : n < cfg0.N) (r : Fin 1024) (i : Fin 8192), i.val = 1024 * (n / 4) + r.val →
    (outsAt0 V c n h).2 (ix2 r (0 : Fin 1)) = ∑ s ∈ Finset.range (n % 4 + 1), tileSum (V c main_arg1) i s
  | 0, h, r, i, hi => by
    rw [acc_A V c ⟨0, h⟩ rfl r i hi]
    simp [Finset.sum_range_one]
  | n + 1, h, r, i, hi => by
    by_cases h0 : (n + 1) % 4 = 0
    · rw [acc_A V c ⟨n + 1, h⟩ h0 r i hi, h0]
      simp [Finset.sum_range_one]
    · rw [acc_step V c ⟨n + 1, h⟩ h0 r i hi]
      show (outsAt0 V c n _).2 (ix2 r (0 : Fin 1)) + tileSum (V c main_arg1) i ((n + 1) % 4) = _
      rw [acc_eq c n (Nat.lt_of_succ_lt h) r i (by rw [hi]; omega), show (n + 1) % 4 = n % 4 + 1 from by omega,
        Finset.sum_range_succ _ (n % 4 + 1)]

/-! ## The degree is the four tile sums and the self loop -/

/-- A sum over the 8192 columns regrouped into 4 tiles of 2048. -/
theorem sum_tiles (f : Fin 8192 → EReal) :
    ∑ j : Fin 8192, f j = ∑ s ∈ Finset.range 4, (if h : s < 4 then ∑ k : Fin 2048, f (⟨2048 * s + k.val, by omega⟩ : Fin 8192) else 0) := by
  rw [Finset.sum_range, ← Equiv.sum_comp (finProdFinEquiv : Fin 4 × Fin 2048 ≃ Fin 8192) f, Fintype.sum_prod_type]
  refine Finset.sum_congr rfl fun a _ => ?_
  rw [dif_pos a.isLt]
  refine Finset.sum_congr rfl fun b _ => congrArg f (Fin.ext ?_)
  show b.val + 2048 * a.val = 2048 * a.val + b.val
  omega

/-- Row i of the diagonal indicator sums to 1. -/
theorem sum_diag (i : Fin 8192) : ∑ j : Fin 8192, Cert.Spec.diag i j = 1 := by
  unfold Cert.Spec.diag
  rw [Finset.sum_ite_eq Finset.univ i (fun _ => (1 : EReal)), if_pos (Finset.mem_univ i)]

/-- The degree of node i: its four tile sums, and 1 for the self loop. -/
theorem deg_eq (E : Cert.Spec.Edges) (i : Fin 8192) :
    Cert.Spec.deg E i = (∑ s ∈ Finset.range 4, tileSum E i s) + 1 := by
  unfold Cert.Spec.deg Cert.Spec.adj
  rw [Finset.sum_add_distrib, sum_diag, sum_tiles fun j => Cert.Spec.ind (E (ix2 i j))]
  rfl

/-! ## What the last tile of a row writes back, and the array after the run -/

/-- After the last tile of a row block the output's staging buffer holds deg^(-1/2) of the block's rows. -/
theorem out_eq (c : Dev nD) (t : Fin cfg0.N) (h3 : t.val % 4 = 3) (r : Fin 1024) (i : Fin 8192)
    (hi : i.val = 1024 * (t.val / 4) + r.val) :
    (outsAt0 V c t.val t.isLt).1 (ix2 r (0 : Fin 1)) = Cert.Spec.dinv (V c main_arg1) i := by
  have h0 : ¬t.val % 4 = 0 := by omega
  have hacc := acc_eq V c t.val t.isLt r i hi
  rw [outsAt0_C V c t h0 h3] at hacc ⊢
  dsimp only at hacc ⊢
  rw [out_C, pay3_apply, ← sout_C c (grid0.coords t) (ms0_0 t) (hs0_0 t) (ms0_1 t) (hs0_1 t) scM0_0 (Memref.isWhole_whole _) (fun h => h0 ((hcond0_0 t).mp h)) ((hcond0_1 t).mpr h3), hacc, h3]
  unfold Cert.Spec.dinv
  rw [deg_eq]

/-- The whole column the degree pass computes, as contents of the output array. -/
abbrev G0 (c : Dev nD) : Buf (Elt Ideal) ((cfg0.win 1).arr.view.loc (c.tc : Thread nD τ)) := Cert.Spec.dinvCol (V c main_arg1)

theorem flushed_eq0 (c : Dev nD) (t : Fin cfg0.N) (hf : (cfg0.win 1).flush t = true) :
    (dat0 V c).flushed 1 t = ((cfg0.win 1).blk t).view.read (Elt Ideal) (G0 V c) := by
  have h3 : t.val % 4 = 3 := (flush0_1 t).mp hf
  obtain ⟨i0, i1⟩ := idx0_1 t
  have hN : t.val < 32 := lt_of_lt_of_eq t.isLt (show cfg0.N = 32 from N_0)
  show (cfg0.win 1).cut (grid0.coords t) ((dat0 V c).after 1 t) = _
  rw [after0_1]
  funext y
  obtain ⟨r, u, rfl⟩ : ∃ (r : Fin 1024) (u : Fin 1), y = ix2 r u := ⟨y 0, y 1, eq_ix2 y⟩
  obtain rfl : u = 0 := Subsingleton.elim _ _
  rw [View.read_apply]
  show (outsAt0 V c t.val t.isLt).1 (ix2 r (0 : Fin 1)) = Cert.Spec.dinvCol (V c main_arg1) _
  rw [out_eq V c t h3 r ⟨1024 * (t.val / 4) + r.val, by omega⟩ rfl]
  unfold Cert.Spec.dinvCol
  refine congrArg (Cert.Spec.dinv (V c main_arg1)) (Fin.ext ?_)
  show 1024 * (t.val / 4) + r.val = win0_1.index t 0 * 1024 + 1 * r.val
  rw [i0]; omega

end V0

open V0 in
/-- THE DEGREE PASS: the output array ends holding deg^(-1/2) of the entry contents of the edge table. -/
theorem final0 (V : (c : Dev nD) → (b : Ref sig .tc) → Buf (Elt Ideal) ((c : Thread nD τ).loc b)) (c : Dev nD) : (dat0 (F := Ideal) V c).arrAt 1 cfg0.N = Cert.Spec.dinvCol (V c main_arg1) :=
  (dat0 V c).arrAt_eq_of_cover 1 (G0 V c) (flushed_eq0 V c) fun i => by
    have ha : (i 0 : ℕ) < 8192 := (i 0).isLt
    have hb : (i 1 : ℕ) < 1 := (i 1).isLt
    have hN : cfg0.N = 32 := N_0
    obtain ⟨t, ht⟩ : ∃ t : Fin cfg0.N, t.val = 4 * ((i 0 : ℕ) / 1024) + 3 := ⟨⟨4 * ((i 0 : ℕ) / 1024) + 3, by rw [hN]; omega⟩, rfl⟩
    obtain ⟨i0, i1⟩ := idx0_1 t
    refine ⟨t, (flush0_1 t).mpr (by rw [ht]; omega), ?_⟩
    show i ∈ ((View.whole main_v0).slice (win0_1.rect t)).set
    rw [View.set_slice_whole, Rect.mem_set_unit]
    intro a
    match a with
    | ⟨0, _⟩ =>
      show win0_1.index t 0 * win0_1.size 0 ≤ (i 0 : ℕ) ∧ (i 0 : ℕ) < win0_1.index t 0 * win0_1.size 0 + win0_1.xsize (grid0.coords t) 0
      rw [i0, ht, show win0_1.size 0 = 1024 from rfl, show win0_1.xsize (grid0.coords t) 0 = 1024 from rfl]
      omega
    | ⟨1, _⟩ =>
      show win0_1.index t 1 * win0_1.size 1 ≤ (i 1 : ℕ) ∧ (i 1 : ℕ) < win0_1.index t 1 * win0_1.size 1 + win0_1.xsize (grid0.coords t) 1
      rw [i1, show win0_1.size 1 = 1 from rfl, show win0_1.xsize (grid0.coords t) 1 = 1 from rfl]
      omega

end Cert.KernelIdeal.Hand

end
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibDotRecord.lean ====
/-
  A printed matrix-product record read as the plain product, and a row vector broadcast down the rows.

  A matrix product of an [M, K] by a [K, N] operand that contracts the left operand's columns with the right
  operand's rows and has no batch axis is determined by its six lists of axes; the record's last field is a proof.
  So any record with those lists IS the plain record, and every lemma about the plain product reads it: at entry
  (p, q) the product accumulated into zero is the sum over k of lhs (p, k) * rhs (k, q).
  A [1, b] row broadcast over [a, b] reads, at (r, c), the row's entry c.
-/
import proofs.«178500_j188978561286_1_alg».proof.Proof.LibPlainDot
import Idealize.ShloMosaic.Lib.Pipeline.Value

namespace DotRecord

open Idealize.ShloMosaic Idealize.ShloMosaic.ValueIdx

variable {M K N : ℕ}

/-- A record whose six axis lists are the plain product's is the plain product's record. -/
theorem eq_plain (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) :
    d = DotDims.plain M K N := by
  obtain ⟨lc, rc, ln, rn, lb, rb, wf⟩ := d
  simp only at h1 h2 h3 h4 h5 h6
  subst h1 h2 h3 h4 h5 h6
  rfl

/-- The matrix unit accumulating into the zero vector, under any record with the plain lists, at entry (p, q). -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (lhs : FVec Ideal ⟨2, ![M, K]⟩ φ₁) (rhs : FVec Ideal ⟨2, ![K, N]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 k q) := by
  rw [eq_plain d h1 h2 h3 h4 h5 h6]
  exact Gcn.Lib.plain_matmul_zero_apply lhs rhs prec p q

/-- A row [1, b] broadcast over [a, b] reads, at (r, c), the row's entry c. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end DotRecord
-- ==== Proof.Region1Value.lean ====
/-
  The normalised-adjacency region (pipeline 1), value half, on the extended reals.

  At the point (i, j) the body stores, at the local entry (r, s) of its 1024 × 2048 block,
      (dc(r) · (ind(E(r, s)) + [i·1024 + r = j·2048 + s])) · dr(s),
  where E, dc, dr are the blocks read.  The bracket compares two 32-bit words; since both sums stay below
  8192 there is no wrap-around, so it is the statement "global row = global column", the diagonal
  indicator.  The blocks tile the 8192 × 8192 array, so after the last point the array is the normalised
  adjacency built from the whole edge table, the whole scale column and the whole scale row.
-/
import proofs.«178500_j188978561286_1_alg».proof.Proof.Region1
import proofs.«178500_j188978561286_1_alg».proof.Proof.Spec
import proofs.«178500_j188978561286_1_alg».proof.Proof.LibRowOps
import proofs.«178500_j188978561286_1_alg».proof.Proof.LibDotRecord
import proofs.«178500_j188978561286_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal.Gen

variable (V : (c : Dev nD) → (b : Ref sig .tc) → Buf (Elt Ideal) ((c : Thread nD τ).loc b))

namespace V1

/-! ## Words and bits -/

theorem hz2 : (![0, 0] : Fin 2 → Nat) = fun _ => 0 := funext fun a => by fin_cases a <;> rfl

/-- A one-bit word, widened and converted, is 1 or 0 on the extended reals. -/
theorem sitofp_bit (b : Bool) :
    (FloatOps.sitofp (F := Ideal) FTy.f32 (BitVec.setWidth 32 (BitVec.ofBool b))) = if b then (1 : EReal) else 0 := by
  cases b
  · show (((BitVec.setWidth 32 (BitVec.ofBool false)).toInt : ℝ) : EReal) = 0
    rw [show (BitVec.setWidth 32 (BitVec.ofBool false)).toInt = 0 from by decide]; simp
  · show (((BitVec.setWidth 32 (BitVec.ofBool true)).toInt : ℝ) : EReal) = 1
    rw [show (BitVec.setWidth 32 (BitVec.ofBool true)).toInt = 1 from by decide]; simp

/-- The edge indicator: "the word is not zero", widened and converted. -/
theorem sitofp_ne_zero (e : BitVec 32) :
    (FloatOps.sitofp (F := Ideal) FTy.f32 (BitVec.setWidth 32 (IntOp.cmpi .ne e 0#32))) = Cert.Spec.ind e := by
  show FloatOps.sitofp (F := Ideal) FTy.f32 (BitVec.setWidth 32 (BitVec.ofBool (e != 0#32))) = _
  rw [sitofp_bit]
  unfold Cert.Spec.ind
  by_cases h : e = 0#32
  · subst h; simp
  · simp [h]

/-- a · k + r as 32-bit words is the word of the natural number. -/
theorem word_lin (a k r : ℕ) :
    IntOp.addi (Scalar.muli (BitVec.ofNat 32 a) (BitVec.ofNat 32 k)) (BitVec.ofNat 32 r) = BitVec.ofNat 32 (a * k + r) := by
  show BitVec.ofNat 32 a * BitVec.ofNat 32 k + BitVec.ofNat 32 r = _
  rw [BitVec.ofNat_mul_ofNat, BitVec.ofNat_add_ofNat]

/-- Two words of numbers below 2^32 are equal exactly when the numbers are. -/
theorem cmpi_eq_ofNat (x y : ℕ) (hx : x < 2 ^ 32) (hy : y < 2 ^ 32) :
    IntOp.cmpi .eq (BitVec.ofNat 32 x) (BitVec.ofNat 32 y) = BitVec.ofBool (decide (x = y)) := by
  show BitVec.ofBool (BitVec.ofNat 32 x == BitVec.ofNat 32 y) = _
  have hiff : BitVec.ofNat 32 x = BitVec.ofNat 32 y ↔ x = y := by
    constructor
    · intro h
      have h' := congrArg BitVec.toNat h
      rw [BitVec.toNat_ofNat, BitVec.toNat_ofNat, Nat.mod_eq_of_lt hx, Nat.mod_eq_of_lt hy] at h'
      exact h'
    · rintro rfl; rfl
  by_cases hxy : x = y
  · subst hxy; simp
  · have hne : BitVec.ofNat 32 x ≠ BitVec.ofNat 32 y := fun h => hxy (hiff.mp h)
    rw [beq_eq_false_iff_ne.mpr hne, decide_eq_false hxy]

/-! ## The stored block at a local entry -/

/-- The payload at the local entry (r, s), at the point with coordinates `i` (first below 8, second below 4). -/
theorem pay1_apply (i : grid1.Coords) (x0 : Vec Ideal S1024x2048 .i32) (x1 : Vec Ideal S1024x1 .f32) (x2 : Vec Ideal S1x2048 .f32)
    (hi0 : (i 0).val ≤ 7) (hi1 : (i 1).val ≤ 3) (r : Fin 1024) (s : Fin 2048) :
    k1_pay1 i x0 x1 x2 (ix2 r s)
      = x1 (ix2 r (0 : Fin 1)) * (Cert.Spec.ind (x0 (ix2 r s))
          + (if (i 0).val * 1024 + r.val = (i 1).val * 2048 + s.val then (1 : EReal) else 0)) * x2 (ix2 (0 : Fin 1) s) := by
  unfold k1_pay1
  simp only [truncf_apply, mulf_apply, addf_apply, sitofp_apply, extui_apply]
  rw [RowOps.broadcastTo_a1_ab_apply, broadcastTo_1b_ab_apply,
    shapeCast_apply x1 shapeCasts_S1024x1_S1024x1 (ix2 r (0 : Fin 1)) (ix2 r (0 : Fin 1)) rfl,
    shapeCast_apply x2 shapeCasts_S1x2048_S1x2048 (ix2 (0 : Fin 1) s) (ix2 (0 : Fin 1) s) rfl]
  have hne : cmpi CmpIPredicate.ne x0 (broadcast S1024x2048 0#32) (ix2 r s) = IntOp.cmpi .ne (x0 (ix2 r s)) 0#32 := rfl
  have heq : cmpi CmpIPredicate.eq
        (addi (broadcast S1024x2048 (Scalar.muli (BitVec.ofNat 32 (i 0).val) 1024#32)) (iota Kind.tc S1024x2048 32 [0] iota_S1024x2048_d0_w32))
        (addi (broadcast S1024x2048 (Scalar.muli (BitVec.ofNat 32 (i 1).val) 2048#32)) (iota Kind.tc S1024x2048 32 [1] iota_S1024x2048_d1_w32))
        (ix2 r s)
      = BitVec.ofBool (decide ((i 0).val * 1024 + r.val = (i 1).val * 2048 + s.val)) := by
    show IntOp.cmpi .eq
        (IntOp.addi (Scalar.muli (BitVec.ofNat 32 (i 0).val) 1024#32) (iota Kind.tc S1024x2048 32 [0] iota_S1024x2048_d0_w32 (ix2 r s)))
        (IntOp.addi (Scalar.muli (BitVec.ofNat 32 (i 1).val) 2048#32) (iota Kind.tc S1024x2048 32 [1] iota_S1024x2048_d1_w32 (ix2 r s))) = _
    rw [iota_single_apply, iota_single_apply]
    show IntOp.cmpi .eq
        (IntOp.addi (Scalar.muli (BitVec.ofNat 32 (i 0).val) (BitVec.ofNat 32 1024)) (BitVec.ofNat 32 r.val))
        (IntOp.addi (Scalar.muli (BitVec.ofNat 32 (i 1).val) (BitVec.ofNat 32 2048)) (BitVec.ofNat 32 s.val)) = _
    rw [word_lin, word_lin]
    exact cmpi_eq_ofNat _ _ (by have := r.isLt; omega) (by have := s.isLt; omega)
  rw [hne, heq, sitofp_ne_zero, sitofp_bit]
  simp only [decide_eq_true_eq]

/-! ## The windows' index maps, decided over the 32 points -/

/-- Each input window moves with the output window: the edge block at the same block index, the scale column at
    the output's block row, the scale row at the output's block column; the point's coordinates are the
    output's block index, within 8 × 4. -/
theorem idx_facts1 : ∀ t : Fin cfg1.N,
    win1_0.index t (0 : Fin 2) = win1_3.index t (0 : Fin 2) ∧ win1_0.index t (1 : Fin 2) = win1_3.index t (1 : Fin 2)
    ∧ win1_1.index t (0 : Fin 2) = win1_3.index t (0 : Fin 2) ∧ win1_1.index t (1 : Fin 2) = 0
    ∧ win1_2.index t (0 : Fin 2) = 0 ∧ win1_2.index t (1 : Fin 2) = win1_3.index t (1 : Fin 2)
    ∧ (grid1.coords t (0 : Fin 2)).val = win1_3.index t (0 : Fin 2) ∧ (grid1.coords t (1 : Fin 2)).val = win1_3.index t (1 : Fin 2)
    ∧ win1_3.index t (0 : Fin 2) ≤ 7 ∧ win1_3.index t (1 : Fin 2) ≤ 3 :=
  (by decide +kernel : ∀ t : Fin grid1.N, _)

/-- Every block of the 8 × 4 tiling is some point's. -/
theorem idx_onto1 : ∀ (q0 : Fin 8) (q1 : Fin 4), ∃ t : Fin cfg1.N, win1_3.index t = ![q0.val, q1.val] :=
  (by decide +kernel : ∀ (q0 : Fin 8) (q1 : Fin 4), ∃ t : Fin grid1.N, win1_3.index t = ![q0.val, q1.val])

/-! ## What a point writes back -/

/-- WHAT POINT `t` WRITES BACK is block `t` of the normalised adjacency of the arrays as the region finds them. -/
theorem flushed1_3_eq (c : Dev nD) (t : Fin cfg1.N) :
    (dat1 (F := Ideal) V c).flushed 3 t
      = ((cfg1.win 3).blk t).view.read (Elt Ideal) (Cert.Spec.nadjOf (V c main_arg1) (V c main_v0) (V c main_v1)) := by
  show (cfg1.win 3).cut (grid1.coords t) ((dat1 V c).after 3 t) = _
  rw [after1_3]
  unfold out1_3
  rw [View.canon_unit_zero hz2]
  simp only [View.ld_unit_zero (S := S1024x2048) hz2, View.ld_unit_zero (S := S1024x1) hz2, View.ld_unit_zero (S := S1x2048) hz2]
  obtain ⟨e00, e01, e10, e11, e20, e21, ec0, ec1, b0, b1⟩ := idx_facts1 t
  refine funext fun (j : S1024x2048.Idx) => ?_
  show k1_pay1 (grid1.coords t) (iblk1 V c 0 t) (iblk1 V c 1 t) (iblk1 V c 2 t) j
    = Cert.Spec.nadjOf (V c main_arg1) (V c main_v0) (V c main_v1) (((cfg1.win 3).blk t).view.emb j)
  obtain ⟨r, s, rfl⟩ : ∃ (r : Fin 1024) (s : Fin 2048), j = ix2 r s := ⟨j 0, j 1, eq_ix2 j⟩
  rw [pay1_apply _ _ _ _ (by omega) (by omega)]
  have hr := r.isLt
  have hs := s.isLt
  -- the global entry (gr, gc) that the local entry (r, s) of block t is
  have g0' : ((((cfg1.win 3).blk t).view.emb (ix2 r s)) (0 : Fin 2)).val = win1_3.index t (0 : Fin 2) * 1024 + r.val := by
    show win1_3.index t (0 : Fin 2) * 1024 + 1 * r.val = _; omega
  have g1' : ((((cfg1.win 3).blk t).view.emb (ix2 r s)) (1 : Fin 2)).val = win1_3.index t (1 : Fin 2) * 2048 + s.val := by
    show win1_3.index t (1 : Fin 2) * 2048 + 1 * s.val = _; omega
  obtain ⟨gr, gc, hg⟩ : ∃ (gr gc : Fin 8192), ((cfg1.win 3).blk t).view.emb (ix2 r s) = ix2 gr gc :=
    ⟨_, _, eq_ix2 (n0 := 8192) (n1 := 8192) _⟩
  rw [hg] at g0' g1'
  have g0 : gr.val = win1_3.index t (0 : Fin 2) * 1024 + r.val := g0'
  have g1 : gc.val = win1_3.index t (1 : Fin 2) * 2048 + s.val := g1'
  -- the three blocks read, at their local entries, are the arrays at the global entry's row and column
  have h0 : iblk1 V c 0 t (ix2 r s) = V c main_arg1 (ix2 gr gc) := by
    show V c main_arg1 (((cfg1.win 0).blk t).view.emb (ix2 r s)) = _
    refine congrArg (V c main_arg1) (funext fun a => Fin.ext ?_)
    match a with
    | ⟨0, _⟩ => show win1_0.index t (0 : Fin 2) * 1024 + 1 * r.val = gr.val; omega
    | ⟨1, _⟩ => show win1_0.index t (1 : Fin 2) * 2048 + 1 * s.val = gc.val; omega
  have h1 : iblk1 V c 1 t (ix2 r (0 : Fin 1)) = V c main_v0 (ix2 gr (0 : Fin 1)) := by
    show V c main_v0 (((cfg1.win 1).blk t).view.emb (ix2 r (0 : Fin 1))) = _
    refine congrArg (V c main_v0) (funext fun a => Fin.ext ?_)
    match a with
    | ⟨0, _⟩ => show win1_1.index t (0 : Fin 2) * 1024 + 1 * r.val = gr.val; omega
    | ⟨1, _⟩ => show win1_1.index t (1 : Fin 2) * 1 + 1 * 0 = 0; omega
  have h2 : iblk1 V c 2 t (ix2 (0 : Fin 1) s) = V c main_v1 (ix2 (0 : Fin 1) gc) := by
    show V c main_v1 (((cfg1.win 2).blk t).view.emb (ix2 (0 : Fin 1) s)) = _
    refine congrArg (V c main_v1) (funext fun a => Fin.ext ?_)
    match a with
    | ⟨0, _⟩ => show win1_2.index t (0 : Fin 2) * 1 + 1 * 0 = 0; omega
    | ⟨1, _⟩ => show win1_2.index t (1 : Fin 2) * 2048 + 1 * s.val = gc.val; omega
  -- the word comparison is the diagonal indicator: no sum reaches 8192
  have hd : (if (grid1.coords t (0 : Fin 2)).val * 1024 + r.val = (grid1.coords t (1 : Fin 2)).val * 2048 + s.val then (1 : EReal) else 0)
      = Cert.Spec.diag gr gc := by
    unfold Cert.Spec.diag
    refine if_congr ?_ rfl rfl
    rw [Fin.ext_iff, g0, g1, ec0, ec1]
  rw [h0, h1, h2, hd, hg]
  rfl

/-! ## The blocks tile the array -/

/-- An index of the array is in point `t`'s block iff each coordinate is in the block's range on its axis. -/
theorem mem_blk1 (t : Fin cfg1.N) (i : S8192x8192.Idx) :
    i ∈ ((cfg1.win 3).blk t).view.set ↔ ∀ a : Fin 2, win1_3.index t a * S1024x2048.size a ≤ (i a).val
      ∧ (i a).val < win1_3.index t a * S1024x2048.size a + S1024x2048.size a := by
  show i ∈ ((View.whole main_v2).slice (win1_3.rect t)).set ↔ _
  rw [View.set_slice_whole, Rect.mem_set_unit]
  exact Iff.rfl

/-- Every index of the array is in some point's block: the point whose block index is the index's row
    divided by 1024 and column divided by 2048. -/
theorem cover1 (i : S8192x8192.Idx) :
    ∃ t : Fin cfg1.N, (cfg1.win 3).flush t = true ∧ i ∈ ((cfg1.win 3).blk t).view.set := by
  have hi0 : (i 0).val < 8192 := (i 0).isLt
  have hi1 : (i 1).val < 8192 := (i 1).isLt
  obtain ⟨t, ht⟩ := idx_onto1 ⟨(i 0).val / 1024, by omega⟩ ⟨(i 1).val / 2048, by omega⟩
  have q0 : win1_3.index t (0 : Fin 2) = (i 0).val / 1024 := congrFun ht 0
  have q1 : win1_3.index t (1 : Fin 2) = (i 1).val / 2048 := congrFun ht 1
  refine ⟨t, flush1_3 t, ?_⟩
  rw [mem_blk1]
  intro a
  match a with
  | ⟨0, _⟩ =>
    show win1_3.index t (0 : Fin 2) * 1024 ≤ (i 0).val ∧ (i 0).val < win1_3.index t (0 : Fin 2) * 1024 + 1024
    omega
  | ⟨1, _⟩ =>
    show win1_3.index t (1 : Fin 2) * 2048 ≤ (i 1).val ∧ (i 1).val < win1_3.index t (1 : Fin 2) * 2048 + 2048
    omega

end V1

/-! ## The array after the run -/

/-- THE ARRAY after the last point: every block written is the block of one function of the arrays the region
    found, and the blocks cover the array. -/
theorem final1 (c : Dev nD) :
    (dat1 (F := Ideal) V c).arrAt 3 cfg1.N = Cert.Spec.nadjOf (V c main_arg1) (V c main_v0) (V c main_v1) :=
  (dat1 V c).arrAt_eq_of_cover 3 _ (fun t _ => V1.flushed1_3_eq V c t) V1.cover1

end Cert.KernelIdeal.Hand

end
-- ==== Proof.Region2ValueA.lean ====
import proofs.«178500_j188978561286_1_alg».proof.Proof.Region2
import proofs.«178500_j188978561286_1_alg».proof.Proof.Spec
import proofs.«178500_j188978561286_1_alg».proof.Proof.LibDotRecord
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.Sem
open Idealize.ShloMosaic.Pipeline (Dat Cfg Window cellOf)
open Cert.KernelIdeal.Gen

/-! ## What the three runs leave, as values of the payloads (at any float interpretation) -/

section Pieces
variable {F : FTy → Type} [FloatOps F]

theorem hz2 : (![0, 0] : Fin 2 → Nat) = fun _ => 0 := funext fun a => by fin_cases a <;> rfl

/-- A middle tile leaves in the accumulator the tile's update of what it held. -/
theorem sB2 (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole) (hc0 : ¬cond2_0 i) (hc1 : ¬cond2_1 i)
    (x0 : Vec F S2048x2048 .bf16) (x1 : Vec F S2048x128 .f32) (x2 : Vec F S128x64 .f32) (x3 : Vec F S1x64 .f32) (prev : Vec F S2048x64 .f32) :
    readS2 (kernelRun2_B (F := F) c i arg2 harg2 arg3 harg3 arg4 harg4 arg5 harg5 arg6 harg6 arg7 harg7 hc0 hc1 x0 x1 x2 x3 prev).2.1 = k2_pay2 x1 x2 x0 prev := by
  funext y
  unfold readS2
  rw [View.read_writes_junk_apply_eq_canon]
  unfold kernelRun2_B
  dsimp only
  rw [View.canon_unit_zero hz2]
  simp only [View.readAt_eq_ld, harg2.read_unread, harg3.read_unread, harg4.read_unread, harg5.read_unread, harg7.read_unread, View.ld_unit_zero (S := S2048x2048) hz2, View.ld_unit_zero (S := S2048x128) hz2, View.ld_unit_zero (S := S128x64) hz2, View.ld_unit_zero (S := S2048x64) hz2, View.ld_unit_zero (S := S1x64) hz2]

/-- The first tile of a row leaves the tile's update of the cleared accumulator. -/
theorem sA2 (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole) (hc0 : cond2_0 i) (hc1 : ¬cond2_1 i)
    (x0 : Vec F S2048x2048 .bf16) (x1 : Vec F S2048x128 .f32) (x2 : Vec F S128x64 .f32) (x3 : Vec F S1x64 .f32) :
    readS2 (kernelRun2_A (F := F) c i arg2 harg2 arg3 harg3 arg4 harg4 arg5 harg5 arg6 harg6 arg7 harg7 hc0 hc1 x0 x1 x2 x3).2.1 = k2_pay2 x1 x2 x0 (k2_pay1 (F := F)) := by
  funext y
  unfold readS2
  rw [View.read_writes_junk_apply_eq_canon]
  unfold kernelRun2_A
  dsimp only
  sl_unfold_words
  rw [View.canon_cons_unit_zero (S := S2048x64) hz2, View.readCov_unit_zero (S := S2048x64) _ hz2]
  simp only [View.readAt_eq_ld, harg2.read_unread, harg3.read_unread, harg4.read_unread, harg5.read_unread, harg7.read_unread, View.ld_unit_zero (S := S2048x2048) hz2, View.ld_unit_zero (S := S2048x128) hz2, View.ld_unit_zero (S := S128x64) hz2, View.ld_unit_zero (S := S2048x64) hz2, View.ld_unit_zero (S := S1x64) hz2]

/-- The last tile of a row leaves the same update in the accumulator, -/
theorem sC2 (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole) (hc0 : ¬cond2_0 i) (hc1 : cond2_1 i)
    (x0 : Vec F S2048x2048 .bf16) (x1 : Vec F S2048x128 .f32) (x2 : Vec F S128x64 .f32) (x3 : Vec F S1x64 .f32) (prev : Vec F S2048x64 .f32) :
    readS2 (kernelRun2_C (F := F) c i arg2 harg2 arg3 harg3 arg4 harg4 arg5 harg5 arg6 harg6 arg7 harg7 hc0 hc1 x0 x1 x2 x3 prev).2.1 = k2_pay2 x1 x2 x0 prev := by
  funext y
  unfold readS2
  rw [View.read_writes_junk_apply_eq_canon]
  unfold kernelRun2_C
  dsimp only
  sl_unfold_words
  rw [View.canon_unit_zero hz2]
  simp only [View.readAt_eq_ld, harg2.read_unread, harg3.read_unread, harg4.read_unread, harg5.read_unread, harg7.read_unread, View.ld_unit_zero (S := S2048x2048) hz2, View.ld_unit_zero (S := S2048x128) hz2, View.ld_unit_zero (S := S128x64) hz2, View.ld_unit_zero (S := S2048x64) hz2, View.ld_unit_zero (S := S1x64) hz2]

/-- and in the output's buffer the finished accumulator plus the bias row, through the rectifier. -/
theorem oC2 (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole) (hc0 : ¬cond2_0 i) (hc1 : cond2_1 i)
    (x0 : Vec F S2048x2048 .bf16) (x1 : Vec F S2048x128 .f32) (x2 : Vec F S128x64 .f32) (x3 : Vec F S1x64 .f32) (prev : Vec F S2048x64 .f32) :
    readO2 (kernelRun2_C (F := F) c i arg2 harg2 arg3 harg3 arg4 harg4 arg5 harg5 arg6 harg6 arg7 harg7 hc0 hc1 x0 x1 x2 x3 prev).1 = k2_pay3 (k2_pay2 x1 x2 x0 prev) x3 := by
  funext y
  unfold readO2
  rw [View.read_writes_junk_apply_eq_canon]
  unfold kernelRun2_C
  dsimp only
  sl_unfold_words
  rw [View.canon_unit_zero hz2, View.readCov_unit_zero (S := S2048x64) _ hz2]
  simp only [View.readAt_eq_ld, harg2.read_unread, harg3.read_unread, harg4.read_unread, harg5.read_unread, harg7.read_unread, View.ld_unit_zero (S := S2048x2048) hz2, View.ld_unit_zero (S := S2048x128) hz2, View.ld_unit_zero (S := S128x64) hz2, View.ld_unit_zero (S := S2048x64) hz2, View.ld_unit_zero (S := S1x64) hz2]

end Pieces

/-! ## The payloads on the extended reals, entry by entry -/

section IdealPay

/-- The clearing store's payload is zero at every entry. -/
theorem pay1_apply (y : S2048x64.Idx) : k2_pay1 (F := Ideal) y = 0 := by
  unfold k2_pay1
  exact (congrFun (shapeCast_self _ _) y).trans Ideal.ofBits_zero_f32

/-- One tile's update at entry (p, q): the accumulator's entry plus the tile product's, the inner product first. -/
theorem pay2_apply (X : FVec Ideal S2048x128 .f32) (W : FVec Ideal S128x64 .f32) (NA : FVec Ideal S2048x2048 .bf16)
    (acc : FVec Ideal S2048x64 .f32) (p : Fin 2048) (q : Fin 64) :
    k2_pay2 (F := Ideal) X W NA acc (ix2 p q)
      = acc (ix2 p q) + ∑ k : Fin 2048, NA (ix2 p k) * ∑ d : Fin 128, X (ix2 k d) * W (ix2 d q) := by
  unfold k2_pay2
  refine (congrFun (shapeCast_self _ _) (ix2 p q)).trans ?_
  refine congrArg (acc (ix2 p q) + ·) ?_
  refine (DotRecord.matmul_zero_apply (M := 2048) (K := 2048) (N := 64) dot_S2048x2048_S2048x64_S2048x64_1_0_0_1_n_n rfl rfl rfl rfl rfl rfl _ _ none p q).trans ?_
  refine Finset.sum_congr rfl fun k _ => ?_
  refine congr (congrArg (· * ·) (congrFun (shapeCast_self NA _) (ix2 p k))) ?_
  exact DotRecord.matmul_zero_apply (M := 2048) (K := 128) (N := 64) dot_S2048x128_S128x64_S2048x64_1_0_0_1_n_n rfl rfl rfl rfl rfl rfl _ _ none k q

/-- The rectifier as the kernel spells it on one extended real: compare with zero, keep or scale by the slope word. -/
theorem lrelu_scalar (v : EReal) :
    Scalar.select (Ideal.cmp .oge v (Ideal.ofBits .f32 0x00000000#32)) v (Ideal.ofBits .f32 0x3C23D70A#32 * v) = Cert.Spec.lrelu v := by
  unfold Cert.Spec.lrelu Cert.Spec.slope Scalar.select Ideal.cmp
  rw [Ideal.ofBits_zero_f32]
  by_cases h : (0 : EReal) ≤ v
  · rw [if_pos h]; simp only [decide_eq_true h]; rfl
  · rw [if_neg h]; simp only [decide_eq_false h]; rfl

/-- The finishing payload at entry (p, q): the rectifier of the accumulator's entry plus the bias row's entry q. -/
theorem pay3_apply (acc : FVec Ideal S2048x64 .f32) (b : FVec Ideal S1x64 .f32) (p : Fin 2048) (q : Fin 64) :
    k2_pay3 (F := Ideal) acc b (ix2 p q) = Cert.Spec.lrelu (acc (ix2 p q) + b (ix2 (0 : Fin 1) q)) := by
  have hb : broadcastTo S2048x64 (shapeCast S1x64 b shapeCasts_S1x64_S1x64) broadcasts_S1x64_S2048x64 (ix2 p q) = b (ix2 (0 : Fin 1) q) :=
    (DotRecord.broadcastTo_1b_ab_apply (a := 2048) (b := 64) _ broadcasts_S1x64_S2048x64 p q).trans (congrFun (shapeCast_self b _) _)
  unfold k2_pay3
  refine Eq.trans ?_ (lrelu_scalar (acc (ix2 p q) + b (ix2 (0 : Fin 1) q)))
  rw [← hb]
  rfl

end IdealPay

end Cert.KernelIdeal.Hand

end
-- ==== Proof.LibFourTiles.lean ====
/-
  A sum over 8192 columns, regrouped into four tiles of 2048 columns and written as the left-nested chain
  ((((0 + s₀) + s₁) + s₂) + s₃) of the four tile sums.

  The columns 0 … 8191 are the pairs (tile, offset) with 4 tiles of 2048 offsets: column 2048·a + r is offset r of
  tile a. A finite sum in a commutative additive monoid does not depend on the order or the grouping of its terms, so
  the sum over all columns is the sum over the tiles of the sums over the offsets; nothing here needs a finite value.
-/
import Idealize.ShloMosaic.PureOps.Ideal.Laws

noncomputable section

namespace Cert.KernelIdeal.Hand

open scoped BigOperators

/-- Column 2048·a + r is the image of (a, r) under the pairing of 4 tiles of 2048 offsets with the 8192 columns. -/
theorem fourTiles_pair (a : Fin 4) (r : Fin 2048) (h : 2048 * a.val + r.val < 8192) :
    (finProdFinEquiv : Fin 4 × Fin 2048 ≃ Fin 8192) (a, r) = (⟨2048 * a.val + r.val, h⟩ : Fin 8192) :=
  Fin.ext (Nat.add_comm r.val (2048 * a.val))

/-- The sum over the 8192 columns is the chain of the four tile sums, the first tile added to zero. -/
theorem sum_four_tiles (f : Fin 8192 → EReal) : ∑ k : Fin 8192, f k = (((0 + ∑ r : Fin 2048, f ⟨2048 * 0 + r.val, by omega⟩) + ∑ r : Fin 2048, f ⟨2048 * 1 + r.val, by omega⟩) + ∑ r : Fin 2048, f ⟨2048 * 2 + r.val, by omega⟩) + ∑ r : Fin 2048, f ⟨2048 * 3 + r.val, by omega⟩ := by
  rw [← Equiv.sum_comp (finProdFinEquiv : Fin 4 × Fin 2048 ≃ Fin 8192) f, Fintype.sum_prod_type, Fin.sum_univ_four, zero_add]
  refine congrArg₂ (· + ·) (congrArg₂ (· + ·) (congrArg₂ (· + ·) ?_ ?_) ?_) ?_
  · exact Finset.sum_congr rfl fun r _ => congrArg f (fourTiles_pair 0 r (by have := r.isLt; show 2048 * 0 + r.val < 8192; omega))
  · exact Finset.sum_congr rfl fun r _ => congrArg f (fourTiles_pair 1 r (by have := r.isLt; show 2048 * 1 + r.val < 8192; omega))
  · exact Finset.sum_congr rfl fun r _ => congrArg f (fourTiles_pair 2 r (by have := r.isLt; show 2048 * 2 + r.val < 8192; omega))
  · exact Finset.sum_congr rfl fun r _ => congrArg f (fourTiles_pair 3 r (by have := r.isLt; show 2048 * 3 + r.val < 8192; omega))

end Cert.KernelIdeal.Hand

end
-- ==== Proof.Region2Value.lean ====
import proofs.«178500_j188978561286_1_alg».proof.Proof.Region2ValueA
import proofs.«178500_j188978561286_1_alg».proof.Proof.LibFourTiles

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.Sem
open Idealize.ShloMosaic.Pipeline (Dat Cfg Window cellOf)
open Cert.KernelIdeal.Gen

/-! ## The accumulator, point by point, as a fold of tile updates -/

section Fold
variable (V : (c : Dev nD) → (b : Ref sig .tc) → Buf (Elt Ideal) ((c : Thread nD τ).loc b))

/-- One tile's update of an accumulator at point `t`: its entry plus the entry of (adjacency block) · ((feature block) · weights). -/
abbrev tileUpd2 (c : Dev nD) (t : Fin cfg2.N) (acc : FVec Ideal S2048x64 .f32) : FVec Ideal S2048x64 .f32 :=
  k2_pay2 (F := Ideal) (iblk2 V c 1 t) (iblk2 V c 2 t) (iblk2 V c 0 t) acc

/-- The three runs' values at point `t`. -/
theorem sA2_at (c : Dev nD) (t : Fin cfg2.N) (h0 : t.val % 4 = 0) :
    readS2 (runA2 V c t h0).2.1 = tileUpd2 V c t (k2_pay1 (F := Ideal)) :=
  sA2 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => by have h3 := (hcond2_1 t).mp h; omega) (iblk2 V c 0 t) (iblk2 V c 1 t) (iblk2 V c 2 t) (iblk2 V c 3 t)
theorem sB2_at (c : Dev nD) (t : Fin cfg2.N) (h0 : ¬t.val % 4 = 0) (h1 : ¬t.val % 4 = 3) (prev : FVec Ideal S2048x64 .f32) :
    readS2 (runB2 V c t h0 h1 prev).2.1 = tileUpd2 V c t prev :=
  sB2 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk2 V c 0 t) (iblk2 V c 1 t) (iblk2 V c 2 t) (iblk2 V c 3 t) prev
theorem sC2_at (c : Dev nD) (t : Fin cfg2.N) (h0 : ¬t.val % 4 = 0) (h1 : t.val % 4 = 3) (prev : FVec Ideal S2048x64 .f32) :
    readS2 (runC2 V c t h0 h1 prev).2.1 = tileUpd2 V c t prev :=
  sC2 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) prev
theorem oC2_at (c : Dev nD) (t : Fin cfg2.N) (h0 : ¬t.val % 4 = 0) (h1 : t.val % 4 = 3) (prev : FVec Ideal S2048x64 .f32) :
    readO2 (runC2 V c t h0 h1 prev).1 = k2_pay3 (F := Ideal) (tileUpd2 V c t prev) (iblk2 V c 3 t) :=
  oC2 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) prev

/-- At the first tile of a row the accumulator ends at the update of the zero block. -/
theorem acc2_first (c : Dev nD) (n : ℕ) (h : n < cfg2.N) (h0 : n % 4 = 0) :
    (outsAt2 V c n h).2 = tileUpd2 V c ⟨n, h⟩ (k2_pay1 (F := Ideal)) := by
  have e0 : outsAt2 V c n h = stepAt2 V c ⟨n, h⟩ (prevAt2 V c ⟨n, h⟩) := outsAt2_eq V c ⟨n, h⟩
  have e1 := stepAt2_A V c ⟨n, h⟩ (prevAt2 V c ⟨n, h⟩) h0
  have e3 : (outsAt2 V c n h).2 = readS2 (runA2 V c ⟨n, h⟩ h0).2.1 := by rw [e0, e1]
  exact e3.trans (sA2_at V c ⟨n, h⟩ h0)

/-- At every other point it ends at the update of what the point before left. -/
theorem acc2_step (c : Dev nD) (n : ℕ) (h : n + 1 < cfg2.N) (h0 : ¬(n + 1) % 4 = 0) :
    (outsAt2 V c (n + 1) h).2 = tileUpd2 V c ⟨n + 1, h⟩ (outsAt2 V c n (Nat.lt_of_succ_lt h)).2 := by
  have e0 : outsAt2 V c (n + 1) h = stepAt2 V c ⟨n + 1, h⟩ (outsAt2 V c n (Nat.lt_of_succ_lt h)).2 := rfl
  by_cases h1 : (n + 1) % 4 = 3
  · have e1 := stepAt2_C V c ⟨n + 1, h⟩ (outsAt2 V c n (Nat.lt_of_succ_lt h)).2 h0 h1
    have e3 : (outsAt2 V c (n + 1) h).2 = readS2 (runC2 V c ⟨n + 1, h⟩ h0 h1 (outsAt2 V c n (Nat.lt_of_succ_lt h)).2).2.1 := by rw [e0, e1]
    exact e3.trans (sC2_at V c ⟨n + 1, h⟩ h0 h1 _)
  · have e1 := stepAt2_B V c ⟨n + 1, h⟩ (outsAt2 V c n (Nat.lt_of_succ_lt h)).2 h0 h1
    have e3 : (outsAt2 V c (n + 1) h).2 = readS2 (runB2 V c ⟨n + 1, h⟩ h0 h1 (outsAt2 V c n (Nat.lt_of_succ_lt h)).2).2.1 := by rw [e0, e1]
    exact e3.trans (sB2_at V c ⟨n + 1, h⟩ h0 h1 _)

/-- So at the last tile of block row `i` the accumulator is the four updates of the zero block, in order. -/
theorem acc2_last (c : Dev nD) (i : ℕ) (h : 4 * i + 3 < cfg2.N) :
    (outsAt2 V c (4 * i + 3) h).2
      = tileUpd2 V c ⟨4 * i + 3, h⟩ (tileUpd2 V c ⟨4 * i + 2, by omega⟩ (tileUpd2 V c ⟨4 * i + 1, by omega⟩
          (tileUpd2 V c ⟨4 * i + 0, by omega⟩ (k2_pay1 (F := Ideal))))) :=
  Pipeline.eq_accAt (fun n h => (outsAt2 V c n h).2) 4 (fun n h => tileUpd2 V c ⟨n, h⟩ (k2_pay1 (F := Ideal)))
    (fun n h acc => tileUpd2 V c ⟨n, h⟩ acc) (acc2_first V c) (acc2_step V c) i 3 (by decide) h

/-- At that point the output's buffer holds the finishing payload of the accumulator and the bias row. -/
theorem out2_last (c : Dev nD) (t : Fin cfg2.N) (h3 : t.val % 4 = 3) :
    (outsAt2 V c t.val t.isLt).1 = k2_pay3 (F := Ideal) (outsAt2 V c t.val t.isLt).2 (iblk2 V c 3 t) := by
  have h0 : ¬t.val % 4 = 0 := by omega
  have e := (outsAt2_eq V c t).trans (stepAt2_C V c t _ h0 h3)
  have e1 : (outsAt2 V c t.val t.isLt).1 = readO2 (runC2 V c t h0 h3 (prevAt2 V c t)).1 := by rw [e]
  have e2 : (outsAt2 V c t.val t.isLt).2 = readS2 (runC2 V c t h0 h3 (prevAt2 V c t)).2.1 := by rw [e]
  rw [e1, e2, oC2_at V c t h0 h3, sC2_at V c t h0 h3]

end Fold

/-! ## The windows' blocks as entries of the arrays -/

section Blocks
variable (V : (c : Dev nD) → (b : Ref sig .tc) → Buf (Elt Ideal) ((c : Thread nD τ).loc b))

/-- The four arrays the region reads, as matrices of extended reals. -/
abbrev NA2 (c : Dev nD) : Cert.Spec.Mat 8192 8192 := V c main_v2
abbrev X2 (c : Dev nD) : Cert.Spec.Mat 8192 128 := V c main_arg0
abbrev W2 (c : Dev nD) : Cert.Spec.Mat 128 64 := V c main_arg2
abbrev Brow2 (c : Dev nD) : Cert.Spec.Mat 1 64 := V c main_v3

/-- The block indices, over the grid: point `t` is tile `t % 4` of block row `t / 4`. -/
theorem index2_0 : ∀ t : Fin cfg2.N, win2_0.index t 0 = t.val / 4 ∧ win2_0.index t 1 = t.val % 4 :=
  (by decide +kernel : ∀ t : Fin grid2.N, win2_0.index t 0 = t.val / 4 ∧ win2_0.index t 1 = t.val % 4)
theorem index2_1 : ∀ t : Fin cfg2.N, win2_1.index t 0 = t.val % 4 ∧ win2_1.index t 1 = 0 :=
  (by decide +kernel : ∀ t : Fin grid2.N, win2_1.index t 0 = t.val % 4 ∧ win2_1.index t 1 = 0)
theorem index2_2 : ∀ t : Fin cfg2.N, win2_2.index t 0 = 0 ∧ win2_2.index t 1 = 0 :=
  (by decide +kernel : ∀ t : Fin grid2.N, win2_2.index t 0 = 0 ∧ win2_2.index t 1 = 0)
theorem index2_3 : ∀ t : Fin cfg2.N, win2_3.index t 0 = 0 ∧ win2_3.index t 1 = 0 :=
  (by decide +kernel : ∀ t : Fin grid2.N, win2_3.index t 0 = 0 ∧ win2_3.index t 1 = 0)
theorem index2_4 : ∀ t : Fin cfg2.N, win2_4.index t 0 = t.val / 4 ∧ win2_4.index t 1 = 0 :=
  (by decide +kernel : ∀ t : Fin grid2.N, win2_4.index t 0 = t.val / 4 ∧ win2_4.index t 1 = 0)
/-- The output's blocks are never cut. -/
theorem xsize2_4 : ∀ t : Fin cfg2.N, win2_4.xsize (grid2.coords t) 0 = 2048 ∧ win2_4.xsize (grid2.coords t) 1 = 64 :=
  (by decide +kernel : ∀ t : Fin grid2.N, win2_4.xsize (grid2.coords t) 0 = 2048 ∧ win2_4.xsize (grid2.coords t) 1 = 64)

/-- Entry (p, r) of the adjacency block at tile `s` of block row `I` is entry (2048 I + p, 2048 s + r) of the array. -/
theorem iblk2_0_apply (c : Dev nD) (t : Fin cfg2.N) (I s : ℕ) (hI : t.val / 4 = I) (hs : t.val % 4 = s) (hI4 : I < 4) (hs4 : s < 4)
    (p r : Fin 2048) :
    iblk2 V c 0 t (ix2 p r) = NA2 V c (ix2 (⟨2048 * I + p.val, by omega⟩ : Fin 8192) (⟨2048 * s + r.val, by omega⟩ : Fin 8192)) := by
  unfold iblk2
  rw [View.read_apply]
  show V c main_v2 _ = V c main_v2 _
  congr 1
  funext a
  apply Fin.ext
  match a with
  | ⟨0, _⟩ => show win2_0.index t 0 * 2048 + 1 * p.val = 2048 * I + p.val; rw [(index2_0 t).1, hI]; omega
  | ⟨1, _⟩ => show win2_0.index t 1 * 2048 + 1 * r.val = 2048 * s + r.val; rw [(index2_0 t).2, hs]; omega

/-- Entry (r, d) of the feature block at tile `s` is entry (2048 s + r, d) of the array. -/
theorem iblk2_1_apply (c : Dev nD) (t : Fin cfg2.N) (s : ℕ) (hs : t.val % 4 = s) (hs4 : s < 4) (r : Fin 2048) (d : Fin 128) :
    iblk2 V c 1 t (ix2 r d) = X2 V c (ix2 (⟨2048 * s + r.val, by omega⟩ : Fin 8192) d) := by
  unfold iblk2
  rw [View.read_apply]
  show V c main_arg0 _ = V c main_arg0 _
  congr 1
  funext a
  apply Fin.ext
  match a with
  | ⟨0, _⟩ => show win2_1.index t 0 * 2048 + 1 * r.val = 2048 * s + r.val; rw [(index2_1 t).1, hs]; omega
  | ⟨1, _⟩ => show win2_1.index t 1 * 128 + 1 * d.val = d.val; rw [(index2_1 t).2]; omega

/-- The weights' one block is the array. -/
theorem iblk2_2_apply (c : Dev nD) (t : Fin cfg2.N) (d : Fin 128) (q : Fin 64) :
    iblk2 V c 2 t (ix2 d q) = W2 V c (ix2 d q) := by
  unfold iblk2
  rw [View.read_apply]
  show V c main_arg2 _ = V c main_arg2 _
  congr 1
  funext a
  apply Fin.ext
  match a with
  | ⟨0, _⟩ => show win2_2.index t 0 * 128 + 1 * d.val = d.val; rw [(index2_2 t).1]; omega
  | ⟨1, _⟩ => show win2_2.index t 1 * 64 + 1 * q.val = q.val; rw [(index2_2 t).2]; omega

/-- The bias row's one block is the array. -/
theorem iblk2_3_apply (c : Dev nD) (t : Fin cfg2.N) (z : Fin 1) (q : Fin 64) :
    iblk2 V c 3 t (ix2 z q) = Brow2 V c (ix2 z q) := by
  unfold iblk2
  rw [View.read_apply]
  show V c main_v3 _ = V c main_v3 _
  congr 1
  funext a
  apply Fin.ext
  match a with
  | ⟨0, _⟩ => show win2_3.index t 0 * 1 + 1 * z.val = z.val; rw [(index2_3 t).1]; omega
  | ⟨1, _⟩ => show win2_3.index t 1 * 64 + 1 * q.val = q.val; rw [(index2_3 t).2]; omega

/-- One tile's update at entry (p, q), over the arrays: tile `s` of block row `I` adds the part of row 2048 I + p's
    product that runs over the 2048 neighbours 2048 s … 2048 s + 2047. -/
theorem tileUpd2_apply (c : Dev nD) (t : Fin cfg2.N) (I s : ℕ) (hI : t.val / 4 = I) (hs : t.val % 4 = s) (hI4 : I < 4) (hs4 : s < 4)
    (acc : FVec Ideal S2048x64 .f32) (p : Fin 2048) (q : Fin 64) :
    tileUpd2 V c t acc (ix2 p q)
      = acc (ix2 p q) + ∑ r : Fin 2048, NA2 V c (ix2 (⟨2048 * I + p.val, by omega⟩ : Fin 8192) (⟨2048 * s + r.val, by omega⟩ : Fin 8192))
          * ∑ d : Fin 128, X2 V c (ix2 (⟨2048 * s + r.val, by omega⟩ : Fin 8192) d) * W2 V c (ix2 d q) := by
  refine (pay2_apply _ _ _ acc p q).trans ?_
  refine congrArg (acc (ix2 p q) + ·) ?_
  refine Finset.sum_congr rfl fun r _ => ?_
  rw [iblk2_0_apply V c t I s hI hs hI4 hs4 p r]
  congr 1
  refine Finset.sum_congr rfl fun d _ => ?_
  rw [iblk2_1_apply V c t s hs hs4 r d, iblk2_2_apply V c t d q]

end Blocks

/-! ## The output array after the run -/

section Final
variable (V : (c : Dev nD) → (b : Ref sig .tc) → Buf (Elt Ideal) ((c : Thread nD τ).loc b))

/-- What the output's buffer holds at the last tile of block row `i`, at entry (p, q): the layer at row 2048 i + p. -/
theorem out2_val (c : Dev nD) (i : ℕ) (h : 4 * i + 3 < cfg2.N) (p : Fin 2048) (q : Fin 64) :
    (outsAt2 V c (4 * i + 3) h).1 (ix2 p q)
      = Cert.Spec.layer (NA2 V c) (X2 V c) (W2 V c) (Brow2 V c)
          (ix2 (⟨2048 * i + p.val, by have hN : cfg2.N = 16 := N_2; omega⟩ : Fin 8192) q) := by
  have hN : cfg2.N = 16 := N_2
  have hi : i < 4 := by omega
  have e1 := out2_last V c ⟨4 * i + 3, h⟩ (by show (4 * i + 3) % 4 = 3; omega)
  refine (congrFun e1 (ix2 p q)).trans ?_
  refine (pay3_apply _ _ p q).trans ?_
  show Cert.Spec.lrelu (_ + _) = Cert.Spec.lrelu ((∑ k : Fin 8192, NA2 V c (ix2 (⟨2048 * i + p.val, by omega⟩ : Fin 8192) k)
    * ∑ d : Fin 128, X2 V c (ix2 k d) * W2 V c (ix2 d q)) + Brow2 V c (ix2 (0 : Fin 1) q))
  rw [iblk2_3_apply V c _ 0 q]
  refine congrArg Cert.Spec.lrelu ?_
  congr 1
  refine (congrFun (acc2_last V c i h) (ix2 p q)).trans ?_
  rw [tileUpd2_apply V c ⟨4 * i + 3, h⟩ i 3 (by show (4 * i + 3) / 4 = i; omega) (by show (4 * i + 3) % 4 = 3; omega) hi (by decide) _ p q, tileUpd2_apply V c ⟨4 * i + 2, by omega⟩ i 2 (by show (4 * i + 2) / 4 = i; omega) (by show (4 * i + 2) % 4 = 2; omega) hi (by decide) _ p q, tileUpd2_apply V c ⟨4 * i + 1, by omega⟩ i 1 (by show (4 * i + 1) / 4 = i; omega) (by show (4 * i + 1) % 4 = 1; omega) hi (by decide) _ p q, tileUpd2_apply V c ⟨4 * i + 0, by omega⟩ i 0 (by show (4 * i + 0) / 4 = i; omega) (by show (4 * i + 0) % 4 = 0; omega) hi (by decide) _ p q, pay1_apply]
  exact (sum_four_tiles (fun k : Fin 8192 => NA2 V c (ix2 (⟨2048 * i + p.val, by omega⟩ : Fin 8192) k)
    * ∑ d : Fin 128, X2 V c (ix2 k d) * W2 V c (ix2 d q))).symm

/-- Every write-back writes the layer's block. -/
theorem flushed_eq2 (c : Dev nD) (t : Fin cfg2.N) (hf : (cfg2.win 4).flush t = true) :
    (dat2 V c).flushed 4 t
      = ((cfg2.win 4).blk t).view.read (Elt Ideal) (Cert.Spec.layer (NA2 V c) (X2 V c) (W2 V c) (Brow2 V c)) := by
  have h3 : t.val % 4 = 3 := (flush2_4 t).mp hf
  have hN : cfg2.N = 16 := N_2
  obtain ⟨n, hn⟩ := t
  obtain ⟨i, rfl⟩ : ∃ i, n = 4 * i + 3 := ⟨n / 4, by dsimp only at h3; omega⟩
  funext y
  obtain ⟨p, q, rfl⟩ : ∃ (p : Fin 2048) (q : Fin 64), y = ix2 p q := ⟨y 0, y 1, eq_ix2 y⟩
  show (dat2 V c).after 4 ⟨4 * i + 3, hn⟩ (ix2 p q) = _
  rw [after2_4, View.read_apply]
  refine (out2_val V c i hn p q).trans ?_
  show Cert.Spec.layer (NA2 V c) (X2 V c) (W2 V c) (Brow2 V c) _ = Cert.Spec.layer (NA2 V c) (X2 V c) (W2 V c) (Brow2 V c) _
  congr 1
  funext a
  apply Fin.ext
  match a with
  | ⟨0, _⟩ =>
    show 2048 * i + p.val = win2_4.index ⟨4 * i + 3, hn⟩ 0 * 2048 + 1 * p.val
    rw [(index2_4 ⟨4 * i + 3, hn⟩).1]
    show 2048 * i + p.val = (4 * i + 3) / 4 * 2048 + 1 * p.val
    omega
  | ⟨1, _⟩ =>
    show q.val = win2_4.index ⟨4 * i + 3, hn⟩ 1 * 64 + 1 * q.val
    rw [(index2_4 ⟨4 * i + 3, hn⟩).2]
    omega

end Final

section Final2
variable (V : (c : Dev nD) → (b : Ref sig .tc) → Buf (Elt Ideal) ((c : Thread nD τ).loc b))

/-- The four write-backs cover the output array: row `r` lies in the block written at the last tile of block row `r / 2048`. -/
theorem cover2_4' (c : Dev nD) (i : ((cfg2.win 4).arr.view.loc (c.tc : Thread nD τ)).2.ty.Idx) :
    ∃ t : Fin cfg2.N, (cfg2.win 4).flush t = true ∧ i ∈ ((cfg2.win 4).blk t).view.set := by
  have h0 : (i 0 : ℕ) < 8192 := (i 0).isLt
  have h1 : (i 1 : ℕ) < 64 := (i 1).isLt
  have hN : cfg2.N = 16 := N_2
  have ht : 4 * ((i 0 : ℕ) / 2048) + 3 < cfg2.N := by omega
  refine ⟨⟨4 * ((i 0 : ℕ) / 2048) + 3, ht⟩, (flush2_4 _).mpr (by show (4 * ((i 0 : ℕ) / 2048) + 3) % 4 = 3; omega), ?_⟩
  show i ∈ ((View.whole main_v4).slice (win2_4.rect ⟨4 * ((i 0 : ℕ) / 2048) + 3, ht⟩)).set
  rw [View.set_slice_whole, Rect.mem_set_unit]
  intro a
  match a with
  | ⟨0, _⟩ =>
    show win2_4.index ⟨4 * ((i 0 : ℕ) / 2048) + 3, ht⟩ 0 * win2_4.size 0 ≤ (i 0 : ℕ)
      ∧ (i 0 : ℕ) < win2_4.index ⟨4 * ((i 0 : ℕ) / 2048) + 3, ht⟩ 0 * win2_4.size 0 + win2_4.xsize (grid2.coords ⟨4 * ((i 0 : ℕ) / 2048) + 3, ht⟩) 0
    rw [(index2_4 ⟨4 * ((i 0 : ℕ) / 2048) + 3, ht⟩).1, (xsize2_4 ⟨4 * ((i 0 : ℕ) / 2048) + 3, ht⟩).1]
    show (4 * ((i 0 : ℕ) / 2048) + 3) / 4 * 2048 ≤ (i 0 : ℕ) ∧ (i 0 : ℕ) < (4 * ((i 0 : ℕ) / 2048) + 3) / 4 * 2048 + 2048
    omega
  | ⟨1, _⟩ =>
    show win2_4.index ⟨4 * ((i 0 : ℕ) / 2048) + 3, ht⟩ 1 * win2_4.size 1 ≤ (i 1 : ℕ)
      ∧ (i 1 : ℕ) < win2_4.index ⟨4 * ((i 0 : ℕ) / 2048) + 3, ht⟩ 1 * win2_4.size 1 + win2_4.xsize (grid2.coords ⟨4 * ((i 0 : ℕ) / 2048) + 3, ht⟩) 1
    rw [(index2_4 ⟨4 * ((i 0 : ℕ) / 2048) + 3, ht⟩).2, (xsize2_4 ⟨4 * ((i 0 : ℕ) / 2048) + 3, ht⟩).2]
    omega

/-- THE REGION'S VALUE: after the run the output array holds the layer of the four arrays the region was entered with. -/
theorem final2 (c : Dev nD) :
    (dat2 (F := Ideal) V c).arrAt 4 cfg2.N = Cert.Spec.layer (V c main_v2) (V c main_arg0) (V c main_arg2) (V c main_v3) :=
  (dat2 V c).arrAt_eq_of_cover 4 _ (flushed_eq2 V c) (cover2_4' c)

end Final2

end Cert.KernelIdeal.Hand

end
-- ==== Proof.Region3ValueA.lean ====
import proofs.«178500_j188978561286_1_alg».proof.Proof.Region3
import proofs.«178500_j188978561286_1_alg».proof.Proof.Spec
import proofs.«178500_j188978561286_1_alg».proof.Proof.LibDotRecord
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.Sem
open Idealize.ShloMosaic.Pipeline (Dat Cfg Window cellOf)
open Cert.KernelIdeal.Gen

/-! ## What the three runs leave, as values of the payloads (at any float interpretation) -/

section Pieces
variable {F : FTy → Type} [FloatOps F]

theorem hz3 : (![0, 0] : Fin 2 → Nat) = fun _ => 0 := funext fun a => by fin_cases a <;> rfl

/-- A middle tile leaves in the accumulator the tile's update of what it held. -/
theorem sB3 (c : Dev nD) (i : grid3.Coords) (arg2 : Memref sig .tc .vmem S2048x2048 .bf16) (harg2 : arg2.IsWhole) (arg3 : Memref sig .tc .vmem S2048x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬cond3_0 i) (hc1 : ¬cond3_1 i)
    (x0 : Vec F S2048x2048 .bf16) (x1 : Vec F S2048x64 .f32) (x2 : Vec F S64x128 .f32) (x3 : Vec F S1x128 .f32) (prev : Vec F S2048x128 .f32) :
    readS3 (kernelRun3_B (F := F) c i arg2 harg2 arg3 harg3 arg4 harg4 arg5 harg5 arg6 harg6 arg7 harg7 hc0 hc1 x0 x1 x2 x3 prev).2.1 = k3_pay2 x1 x2 x0 prev := by
  funext y
  unfold readS3
  rw [View.read_writes_junk_apply_eq_canon]
  unfold kernelRun3_B
  dsimp only
  rw [View.canon_unit_zero hz3]
  simp only [View.readAt_eq_ld, harg2.read_unread, harg3.read_unread, harg4.read_unread, harg5.read_unread, harg7.read_unread, View.ld_unit_zero (S := S2048x2048) hz3, View.ld_unit_zero (S := S2048x64) hz3, View.ld_unit_zero (S := S64x128) hz3, View.ld_unit_zero (S := S2048x128) hz3, View.ld_unit_zero (S := S1x128) hz3]

/-- The first tile of a row leaves the tile's update of the cleared accumulator. -/
theorem sA3 (c : Dev nD) (i : grid3.Coords) (arg2 : Memref sig .tc .vmem S2048x2048 .bf16) (harg2 : arg2.IsWhole) (arg3 : Memref sig .tc .vmem S2048x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : cond3_0 i) (hc1 : ¬cond3_1 i)
    (x0 : Vec F S2048x2048 .bf16) (x1 : Vec F S2048x64 .f32) (x2 : Vec F S64x128 .f32) (x3 : Vec F S1x128 .f32) :
    readS3 (kernelRun3_A (F := F) c i arg2 harg2 arg3 harg3 arg4 harg4 arg5 harg5 arg6 harg6 arg7 harg7 hc0 hc1 x0 x1 x2 x3).2.1 = k3_pay2 x1 x2 x0 (k3_pay1 (F := F)) := by
  funext y
  unfold readS3
  rw [View.read_writes_junk_apply_eq_canon]
  unfold kernelRun3_A
  dsimp only
  sl_unfold_words
  rw [View.canon_cons_unit_zero (S := S2048x128) hz3, View.readCov_unit_zero (S := S2048x128) _ hz3]
  simp only [View.readAt_eq_ld, harg2.read_unread, harg3.read_unread, harg4.read_unread, harg5.read_unread, harg7.read_unread, View.ld_unit_zero (S := S2048x2048) hz3, View.ld_unit_zero (S := S2048x64) hz3, View.ld_unit_zero (S := S64x128) hz3, View.ld_unit_zero (S := S2048x128) hz3, View.ld_unit_zero (S := S1x128) hz3]

/-- The last tile of a row leaves the same update in the accumulator, -/
theorem sC3 (c : Dev nD) (i : grid3.Coords) (arg2 : Memref sig .tc .vmem S2048x2048 .bf16) (harg2 : arg2.IsWhole) (arg3 : Memref sig .tc .vmem S2048x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬cond3_0 i) (hc1 : cond3_1 i)
    (x0 : Vec F S2048x2048 .bf16) (x1 : Vec F S2048x64 .f32) (x2 : Vec F S64x128 .f32) (x3 : Vec F S1x128 .f32) (prev : Vec F S2048x128 .f32) :
    readS3 (kernelRun3_C (F := F) c i arg2 harg2 arg3 harg3 arg4 harg4 arg5 harg5 arg6 harg6 arg7 harg7 hc0 hc1 x0 x1 x2 x3 prev).2.1 = k3_pay2 x1 x2 x0 prev := by
  funext y
  unfold readS3
  rw [View.read_writes_junk_apply_eq_canon]
  unfold kernelRun3_C
  dsimp only
  sl_unfold_words
  rw [View.canon_unit_zero hz3]
  simp only [View.readAt_eq_ld, harg2.read_unread, harg3.read_unread, harg4.read_unread, harg5.read_unread, harg7.read_unread, View.ld_unit_zero (S := S2048x2048) hz3, View.ld_unit_zero (S := S2048x64) hz3, View.ld_unit_zero (S := S64x128) hz3, View.ld_unit_zero (S := S2048x128) hz3, View.ld_unit_zero (S := S1x128) hz3]

/-- and in the output's buffer the finished accumulator plus the bias row, through the rectifier. -/
theorem oC3 (c : Dev nD) (i : grid3.Coords) (arg2 : Memref sig .tc .vmem S2048x2048 .bf16) (harg2 : arg2.IsWhole) (arg3 : Memref sig .tc .vmem S2048x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬cond3_0 i) (hc1 : cond3_1 i)
    (x0 : Vec F S2048x2048 .bf16) (x1 : Vec F S2048x64 .f32) (x2 : Vec F S64x128 .f32) (x3 : Vec F S1x128 .f32) (prev : Vec F S2048x128 .f32) :
    readO3 (kernelRun3_C (F := F) c i arg2 harg2 arg3 harg3 arg4 harg4 arg5 harg5 arg6 harg6 arg7 harg7 hc0 hc1 x0 x1 x2 x3 prev).1 = k3_pay3 (k3_pay2 x1 x2 x0 prev) x3 := by
  funext y
  unfold readO3
  rw [View.read_writes_junk_apply_eq_canon]
  unfold kernelRun3_C
  dsimp only
  sl_unfold_words
  rw [View.canon_unit_zero hz3, View.readCov_unit_zero (S := S2048x128) _ hz3]
  simp only [View.readAt_eq_ld, harg2.read_unread, harg3.read_unread, harg4.read_unread, harg5.read_unread, harg7.read_unread, View.ld_unit_zero (S := S2048x2048) hz3, View.ld_unit_zero (S := S2048x64) hz3, View.ld_unit_zero (S := S64x128) hz3, View.ld_unit_zero (S := S2048x128) hz3, View.ld_unit_zero (S := S1x128) hz3]

end Pieces

/-! ## The payloads on the extended reals, entry by entry -/

section IdealPay

/-- The clearing store's payload is zero at every entry. -/
theorem pay1_apply_3 (y : S2048x128.Idx) : k3_pay1 (F := Ideal) y = 0 := by
  unfold k3_pay1
  exact (congrFun (shapeCast_self _ _) y).trans Ideal.ofBits_zero_f32

/-- One tile's update at entry (p, q): the accumulator's entry plus the tile product's, the inner product first. -/
theorem pay2_apply_3 (X : FVec Ideal S2048x64 .f32) (W : FVec Ideal S64x128 .f32) (NA : FVec Ideal S2048x2048 .bf16)
    (acc : FVec Ideal S2048x128 .f32) (p : Fin 2048) (q : Fin 128) :
    k3_pay2 (F := Ideal) X W NA acc (ix2 p q)
      = acc (ix2 p q) + ∑ k : Fin 2048, NA (ix2 p k) * ∑ d : Fin 64, X (ix2 k d) * W (ix2 d q) := by
  unfold k3_pay2
  refine (congrFun (shapeCast_self _ _) (ix2 p q)).trans ?_
  refine congrArg (acc (ix2 p q) + ·) ?_
  refine (DotRecord.matmul_zero_apply (M := 2048) (K := 2048) (N := 128) dot_S2048x2048_S2048x128_S2048x128_1_0_0_1_n_n rfl rfl rfl rfl rfl rfl _ _ none p q).trans ?_
  refine Finset.sum_congr rfl fun k _ => ?_
  refine congr (congrArg (· * ·) (congrFun (shapeCast_self NA _) (ix2 p k))) ?_
  refine (DotRecord.matmul_zero_apply (M := 2048) (K := 64) (N := 128) dot_S2048x64_S64x128_S2048x128_1_0_0_1_n_n rfl rfl rfl rfl rfl rfl _ _ none k q).trans ?_
  exact Finset.sum_congr rfl fun d _ => congrArg (· * W (ix2 d q)) (congrFun (shapeCast_self X _) (ix2 k d))

/-- The rectifier as the kernel spells it on one extended real: compare with zero, keep or scale by the slope word. -/
theorem lrelu_scalar_3 (v : EReal) :
    Scalar.select (Ideal.cmp .oge v (Ideal.ofBits .f32 0x00000000#32)) v (Ideal.ofBits .f32 0x3C23D70A#32 * v) = Cert.Spec.lrelu v := by
  unfold Cert.Spec.lrelu Cert.Spec.slope Scalar.select Ideal.cmp
  rw [Ideal.ofBits_zero_f32]
  by_cases h : (0 : EReal) ≤ v
  · rw [if_pos h]; simp only [decide_eq_true h]; rfl
  · rw [if_neg h]; simp only [decide_eq_false h]; rfl

/-- The finishing payload at entry (p, q): the rectifier of the accumulator's entry plus the bias row's entry q. -/
theorem pay3_apply_3 (acc : FVec Ideal S2048x128 .f32) (b : FVec Ideal S1x128 .f32) (p : Fin 2048) (q : Fin 128) :
    k3_pay3 (F := Ideal) acc b (ix2 p q) = Cert.Spec.lrelu (acc (ix2 p q) + b (ix2 (0 : Fin 1) q)) := by
  have hb : broadcastTo S2048x128 (shapeCast S1x128 b shapeCasts_S1x128_S1x128) broadcasts_S1x128_S2048x128 (ix2 p q) = b (ix2 (0 : Fin 1) q) :=
    (DotRecord.broadcastTo_1b_ab_apply (a := 2048) (b := 128) _ broadcasts_S1x128_S2048x128 p q).trans (congrFun (shapeCast_self b _) _)
  unfold k3_pay3
  refine Eq.trans ?_ (lrelu_scalar_3 (acc (ix2 p q) + b (ix2 (0 : Fin 1) q)))
  rw [← hb]
  rfl

end IdealPay

end Cert.KernelIdeal.Hand

end
-- ==== Proof.Region3Value.lean ====
import proofs.«178500_j188978561286_1_alg».proof.Proof.Region3ValueA
import proofs.«178500_j188978561286_1_alg».proof.Proof.LibFourTiles

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.Sem
open Idealize.ShloMosaic.Pipeline (Dat Cfg Window cellOf)
open Cert.KernelIdeal.Gen

/-! ## The accumulator, point by point, as a fold of tile updates -/

section Fold
variable (V : (c : Dev nD) → (b : Ref sig .tc) → Buf (Elt Ideal) ((c : Thread nD τ).loc b))

/-- One tile's update of an accumulator at point `t`: its entry plus the entry of (adjacency block) · ((feature block) · weights). -/
abbrev tileUpd3 (c : Dev nD) (t : Fin cfg3.N) (acc : FVec Ideal S2048x128 .f32) : FVec Ideal S2048x128 .f32 :=
  k3_pay2 (F := Ideal) (iblk3 V c 1 t) (iblk3 V c 2 t) (iblk3 V c 0 t) acc

/-- The three runs' values at point `t`. -/
theorem sA3_at (c : Dev nD) (t : Fin cfg3.N) (h0 : t.val % 4 = 0) :
    readS3 (runA3 V c t h0).2.1 = tileUpd3 V c t (k3_pay1 (F := Ideal)) :=
  sA3 c (grid3.coords t) (ms3_0 t) (hs3_0 t) (ms3_1 t) (hs3_1 t) (ms3_2 t) (hs3_2 t) (ms3_3 t) (hs3_3 t) (ms3_4 t) (hs3_4 t) scM3_0 (Memref.isWhole_whole _) ((hcond3_0 t).mpr h0) (fun h => by have h3 := (hcond3_1 t).mp h; omega) (iblk3 V c 0 t) (iblk3 V c 1 t) (iblk3 V c 2 t) (iblk3 V c 3 t)
theorem sB3_at (c : Dev nD) (t : Fin cfg3.N) (h0 : ¬t.val % 4 = 0) (h1 : ¬t.val % 4 = 3) (prev : FVec Ideal S2048x128 .f32) :
    readS3 (runB3 V c t h0 h1 prev).2.1 = tileUpd3 V c t prev :=
  sB3 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) (fun h => h1 ((hcond3_1 t).mp h)) (iblk3 V c 0 t) (iblk3 V c 1 t) (iblk3 V c 2 t) (iblk3 V c 3 t) prev
theorem sC3_at (c : Dev nD) (t : Fin cfg3.N) (h0 : ¬t.val % 4 = 0) (h1 : t.val % 4 = 3) (prev : FVec Ideal S2048x128 .f32) :
    readS3 (runC3 V c t h0 h1 prev).2.1 = tileUpd3 V c t prev :=
  sC3 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) ((hcond3_1 t).mpr h1) (iblk3 V c 0 t) (iblk3 V c 1 t) (iblk3 V c 2 t) (iblk3 V c 3 t) prev
theorem oC3_at (c : Dev nD) (t : Fin cfg3.N) (h0 : ¬t.val % 4 = 0) (h1 : t.val % 4 = 3) (prev : FVec Ideal S2048x128 .f32) :
    readO3 (runC3 V c t h0 h1 prev).1 = k3_pay3 (F := Ideal) (tileUpd3 V c t prev) (iblk3 V c 3 t) :=
  oC3 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) ((hcond3_1 t).mpr h1) (iblk3 V c 0 t) (iblk3 V c 1 t) (iblk3 V c 2 t) (iblk3 V c 3 t) prev

/-- At the first tile of a row the accumulator ends at the update of the zero block. -/
theorem acc3_first (c : Dev nD) (n : ℕ) (h : n < cfg3.N) (h0 : n % 4 = 0) :
    (outsAt3 V c n h).2 = tileUpd3 V c ⟨n, h⟩ (k3_pay1 (F := Ideal)) := by
  have e0 : outsAt3 V c n h = stepAt3 V c ⟨n, h⟩ (prevAt3 V c ⟨n, h⟩) := outsAt3_eq V c ⟨n, h⟩
  have e1 := stepAt3_A V c ⟨n, h⟩ (prevAt3 V c ⟨n, h⟩) h0
  have e3 : (outsAt3 V c n h).2 = readS3 (runA3 V c ⟨n, h⟩ h0).2.1 := by rw [e0, e1]
  exact e3.trans (sA3_at V c ⟨n, h⟩ h0)

/-- At every other point it ends at the update of what the point before left. -/
theorem acc3_step (c : Dev nD) (n : ℕ) (h : n + 1 < cfg3.N) (h0 : ¬(n + 1) % 4 = 0) :
    (outsAt3 V c (n + 1) h).2 = tileUpd3 V c ⟨n + 1, h⟩ (outsAt3 V c n (Nat.lt_of_succ_lt h)).2 := by
  have e0 : outsAt3 V c (n + 1) h = stepAt3 V c ⟨n + 1, h⟩ (outsAt3 V c n (Nat.lt_of_succ_lt h)).2 := rfl
  by_cases h1 : (n + 1) % 4 = 3
  · have e1 := stepAt3_C V c ⟨n + 1, h⟩ (outsAt3 V c n (Nat.lt_of_succ_lt h)).2 h0 h1
    have e3 : (outsAt3 V c (n + 1) h).2 = readS3 (runC3 V c ⟨n + 1, h⟩ h0 h1 (outsAt3 V c n (Nat.lt_of_succ_lt h)).2).2.1 := by rw [e0, e1]
    exact e3.trans (sC3_at V c ⟨n + 1, h⟩ h0 h1 _)
  · have e1 := stepAt3_B V c ⟨n + 1, h⟩ (outsAt3 V c n (Nat.lt_of_succ_lt h)).2 h0 h1
    have e3 : (outsAt3 V c (n + 1) h).2 = readS3 (runB3 V c ⟨n + 1, h⟩ h0 h1 (outsAt3 V c n (Nat.lt_of_succ_lt h)).2).2.1 := by rw [e0, e1]
    exact e3.trans (sB3_at V c ⟨n + 1, h⟩ h0 h1 _)

/-- So at the last tile of block row `i` the accumulator is the four updates of the zero block, in order. -/
theorem acc3_last (c : Dev nD) (i : ℕ) (h : 4 * i + 3 < cfg3.N) :
    (outsAt3 V c (4 * i + 3) h).2
      = tileUpd3 V c ⟨4 * i + 3, h⟩ (tileUpd3 V c ⟨4 * i + 2, by omega⟩ (tileUpd3 V c ⟨4 * i + 1, by omega⟩
          (tileUpd3 V c ⟨4 * i + 0, by omega⟩ (k3_pay1 (F := Ideal))))) :=
  Pipeline.eq_accAt (fun n h => (outsAt3 V c n h).2) 4 (fun n h => tileUpd3 V c ⟨n, h⟩ (k3_pay1 (F := Ideal)))
    (fun n h acc => tileUpd3 V c ⟨n, h⟩ acc) (acc3_first V c) (acc3_step V c) i 3 (by decide) h

/-- At that point the output's buffer holds the finishing payload of the accumulator and the bias row. -/
theorem out3_last (c : Dev nD) (t : Fin cfg3.N) (h3 : t.val % 4 = 3) :
    (outsAt3 V c t.val t.isLt).1 = k3_pay3 (F := Ideal) (outsAt3 V c t.val t.isLt).2 (iblk3 V c 3 t) := by
  have h0 : ¬t.val % 4 = 0 := by omega
  have e := (outsAt3_eq V c t).trans (stepAt3_C V c t _ h0 h3)
  have e1 : (outsAt3 V c t.val t.isLt).1 = readO3 (runC3 V c t h0 h3 (prevAt3 V c t)).1 := by rw [e]
  have e2 : (outsAt3 V c t.val t.isLt).2 = readS3 (runC3 V c t h0 h3 (prevAt3 V c t)).2.1 := by rw [e]
  rw [e1, e2, oC3_at V c t h0 h3, sC3_at V c t h0 h3]

end Fold

/-! ## The windows' blocks as entries of the arrays -/

section Blocks
variable (V : (c : Dev nD) → (b : Ref sig .tc) → Buf (Elt Ideal) ((c : Thread nD τ).loc b))

/-- The four arrays the region reads, as matrices of extended reals. -/
abbrev NA3 (c : Dev nD) : Cert.Spec.Mat 8192 8192 := V c main_v2
abbrev X3 (c : Dev nD) : Cert.Spec.Mat 8192 64 := V c main_v4
abbrev W3 (c : Dev nD) : Cert.Spec.Mat 64 128 := V c main_arg4
abbrev Brow3 (c : Dev nD) : Cert.Spec.Mat 1 128 := V c main_v5

/-- The block indices, over the grid: point `t` is tile `t % 4` of block row `t / 4`. -/
theorem index3_0 : ∀ t : Fin cfg3.N, win3_0.index t 0 = t.val / 4 ∧ win3_0.index t 1 = t.val % 4 :=
  (by decide +kernel : ∀ t : Fin grid3.N, win3_0.index t 0 = t.val / 4 ∧ win3_0.index t 1 = t.val % 4)
theorem index3_1 : ∀ t : Fin cfg3.N, win3_1.index t 0 = t.val % 4 ∧ win3_1.index t 1 = 0 :=
  (by decide +kernel : ∀ t : Fin grid3.N, win3_1.index t 0 = t.val % 4 ∧ win3_1.index t 1 = 0)
theorem index3_2 : ∀ t : Fin cfg3.N, win3_2.index t 0 = 0 ∧ win3_2.index t 1 = 0 :=
  (by decide +kernel : ∀ t : Fin grid3.N, win3_2.index t 0 = 0 ∧ win3_2.index t 1 = 0)
theorem index3_3 : ∀ t : Fin cfg3.N, win3_3.index t 0 = 0 ∧ win3_3.index t 1 = 0 :=
  (by decide +kernel : ∀ t : Fin grid3.N, win3_3.index t 0 = 0 ∧ win3_3.index t 1 = 0)
theorem index3_4 : ∀ t : Fin cfg3.N, win3_4.index t 0 = t.val / 4 ∧ win3_4.index t 1 = 0 :=
  (by decide +kernel : ∀ t : Fin grid3.N, win3_4.index t 0 = t.val / 4 ∧ win3_4.index t 1 = 0)
/-- The output's blocks are never cut. -/
theorem xsize3_4 : ∀ t : Fin cfg3.N, win3_4.xsize (grid3.coords t) 0 = 2048 ∧ win3_4.xsize (grid3.coords t) 1 = 128 :=
  (by decide +kernel : ∀ t : Fin grid3.N, win3_4.xsize (grid3.coords t) 0 = 2048 ∧ win3_4.xsize (grid3.coords t) 1 = 128)

/-- Entry (p, r) of the adjacency block at tile `s` of block row `I` is entry (2048 I + p, 2048 s + r) of the array. -/
theorem iblk3_0_apply (c : Dev nD) (t : Fin cfg3.N) (I s : ℕ) (hI : t.val / 4 = I) (hs : t.val % 4 = s) (hI4 : I < 4) (hs4 : s < 4)
    (p r : Fin 2048) :
    iblk3 V c 0 t (ix2 p r) = NA3 V c (ix2 (⟨2048 * I + p.val, by omega⟩ : Fin 8192) (⟨2048 * s + r.val, by omega⟩ : Fin 8192)) := by
  unfold iblk3
  rw [View.read_apply]
  show V c main_v2 _ = V c main_v2 _
  congr 1
  funext a
  apply Fin.ext
  match a with
  | ⟨0, _⟩ => show win3_0.index t 0 * 2048 + 1 * p.val = 2048 * I + p.val; rw [(index3_0 t).1, hI]; omega
  | ⟨1, _⟩ => show win3_0.index t 1 * 2048 + 1 * r.val = 2048 * s + r.val; rw [(index3_0 t).2, hs]; omega

/-- Entry (r, d) of the feature block at tile `s` is entry (2048 s + r, d) of the array. -/
theorem iblk3_1_apply (c : Dev nD) (t : Fin cfg3.N) (s : ℕ) (hs : t.val % 4 = s) (hs4 : s < 4) (r : Fin 2048) (d : Fin 64) :
    iblk3 V c 1 t (ix2 r d) = X3 V c (ix2 (⟨2048 * s + r.val, by omega⟩ : Fin 8192) d) := by
  unfold iblk3
  rw [View.read_apply]
  show V c main_v4 _ = V c main_v4 _
  congr 1
  funext a
  apply Fin.ext
  match a with
  | ⟨0, _⟩ => show win3_1.index t 0 * 2048 + 1 * r.val = 2048 * s + r.val; rw [(index3_1 t).1, hs]; omega
  | ⟨1, _⟩ => show win3_1.index t 1 * 64 + 1 * d.val = d.val; rw [(index3_1 t).2]; omega

/-- The weights' one block is the array. -/
theorem iblk3_2_apply (c : Dev nD) (t : Fin cfg3.N) (d : Fin 64) (q : Fin 128) :
    iblk3 V c 2 t (ix2 d q) = W3 V c (ix2 d q) := by
  unfold iblk3
  rw [View.read_apply]
  show V c main_arg4 _ = V c main_arg4 _
  congr 1
  funext a
  apply Fin.ext
  match a with
  | ⟨0, _⟩ => show win3_2.index t 0 * 64 + 1 * d.val = d.val; rw [(index3_2 t).1]; omega
  | ⟨1, _⟩ => show win3_2.index t 1 * 128 + 1 * q.val = q.val; rw [(index3_2 t).2]; omega

/-- The bias row's one block is the array. -/
theorem iblk3_3_apply (c : Dev nD) (t : Fin cfg3.N) (z : Fin 1) (q : Fin 128) :
    iblk3 V c 3 t (ix2 z q) = Brow3 V c (ix2 z q) := by
  unfold iblk3
  rw [View.read_apply]
  show V c main_v5 _ = V c main_v5 _
  congr 1
  funext a
  apply Fin.ext
  match a with
  | ⟨0, _⟩ => show win3_3.index t 0 * 1 + 1 * z.val = z.val; rw [(index3_3 t).1]; omega
  | ⟨1, _⟩ => show win3_3.index t 1 * 128 + 1 * q.val = q.val; rw [(index3_3 t).2]; omega

/-- One tile's update at entry (p, q), over the arrays: tile `s` of block row `I` adds the part of row 2048 I + p's
    product that runs over the 2048 neighbours 2048 s … 2048 s + 2047. -/
theorem tileUpd3_apply (c : Dev nD) (t : Fin cfg3.N) (I s : ℕ) (hI : t.val / 4 = I) (hs : t.val % 4 = s) (hI4 : I < 4) (hs4 : s < 4)
    (acc : FVec Ideal S2048x128 .f32) (p : Fin 2048) (q : Fin 128) :
    tileUpd3 V c t acc (ix2 p q)
      = acc (ix2 p q) + ∑ r : Fin 2048, NA3 V c (ix2 (⟨2048 * I + p.val, by omega⟩ : Fin 8192) (⟨2048 * s + r.val, by omega⟩ : Fin 8192))
          * ∑ d : Fin 64, X3 V c (ix2 (⟨2048 * s + r.val, by omega⟩ : Fin 8192) d) * W3 V c (ix2 d q) := by
  refine (pay2_apply_3 _ _ _ acc p q).trans ?_
  refine congrArg (acc (ix2 p q) + ·) ?_
  refine Finset.sum_congr rfl fun r _ => ?_
  rw [iblk3_0_apply V c t I s hI hs hI4 hs4 p r]
  congr 1
  refine Finset.sum_congr rfl fun d _ => ?_
  rw [iblk3_1_apply V c t s hs hs4 r d, iblk3_2_apply V c t d q]

end Blocks

/-! ## The output array after the run -/

section Final
variable (V : (c : Dev nD) → (b : Ref sig .tc) → Buf (Elt Ideal) ((c : Thread nD τ).loc b))

/-- What the output's buffer holds at the last tile of block row `i`, at entry (p, q): the layer at row 2048 i + p. -/
theorem out3_val (c : Dev nD) (i : ℕ) (h : 4 * i + 3 < cfg3.N) (p : Fin 2048) (q : Fin 128) :
    (outsAt3 V c (4 * i + 3) h).1 (ix2 p q)
      = Cert.Spec.layer (NA3 V c) (X3 V c) (W3 V c) (Brow3 V c)
          (ix2 (⟨2048 * i + p.val, by have hN : cfg3.N = 16 := N_3; omega⟩ : Fin 8192) q) := by
  have hN : cfg3.N = 16 := N_3
  have hi : i < 4 := by omega
  have e1 := out3_last V c ⟨4 * i + 3, h⟩ (by show (4 * i + 3) % 4 = 3; omega)
  refine (congrFun e1 (ix2 p q)).trans ?_
  refine (pay3_apply_3 _ _ p q).trans ?_
  show Cert.Spec.lrelu (_ + _) = Cert.Spec.lrelu ((∑ k : Fin 8192, NA3 V c (ix2 (⟨2048 * i + p.val, by omega⟩ : Fin 8192) k)
    * ∑ d : Fin 64, X3 V c (ix2 k d) * W3 V c (ix2 d q)) + Brow3 V c (ix2 (0 : Fin 1) q))
  rw [iblk3_3_apply V c _ 0 q]
  refine congrArg Cert.Spec.lrelu ?_
  congr 1
  refine (congrFun (acc3_last V c i h) (ix2 p q)).trans ?_
  rw [tileUpd3_apply V c ⟨4 * i + 3, h⟩ i 3 (by show (4 * i + 3) / 4 = i; omega) (by show (4 * i + 3) % 4 = 3; omega) hi (by decide) _ p q, tileUpd3_apply V c ⟨4 * i + 2, by omega⟩ i 2 (by show (4 * i + 2) / 4 = i; omega) (by show (4 * i + 2) % 4 = 2; omega) hi (by decide) _ p q, tileUpd3_apply V c ⟨4 * i + 1, by omega⟩ i 1 (by show (4 * i + 1) / 4 = i; omega) (by show (4 * i + 1) % 4 = 1; omega) hi (by decide) _ p q, tileUpd3_apply V c ⟨4 * i + 0, by omega⟩ i 0 (by show (4 * i + 0) / 4 = i; omega) (by show (4 * i + 0) % 4 = 0; omega) hi (by decide) _ p q, pay1_apply_3]
  exact (sum_four_tiles (fun k : Fin 8192 => NA3 V c (ix2 (⟨2048 * i + p.val, by omega⟩ : Fin 8192) k)
    * ∑ d : Fin 64, X3 V c (ix2 k d) * W3 V c (ix2 d q))).symm

/-- Every write-back writes the layer's block. -/
theorem flushed_eq3 (c : Dev nD) (t : Fin cfg3.N) (hf : (cfg3.win 4).flush t = true) :
    (dat3 V c).flushed 4 t
      = ((cfg3.win 4).blk t).view.read (Elt Ideal) (Cert.Spec.layer (NA3 V c) (X3 V c) (W3 V c) (Brow3 V c)) := by
  have h3 : t.val % 4 = 3 := (flush3_4 t).mp hf
  have hN : cfg3.N = 16 := N_3
  obtain ⟨n, hn⟩ := t
  obtain ⟨i, rfl⟩ : ∃ i, n = 4 * i + 3 := ⟨n / 4, by dsimp only at h3; omega⟩
  funext y
  obtain ⟨p, q, rfl⟩ : ∃ (p : Fin 2048) (q : Fin 128), y = ix2 p q := ⟨y 0, y 1, eq_ix2 y⟩
  show (dat3 V c).after 4 ⟨4 * i + 3, hn⟩ (ix2 p q) = _
  rw [after3_4, View.read_apply]
  refine (out3_val V c i hn p q).trans ?_
  show Cert.Spec.layer (NA3 V c) (X3 V c) (W3 V c) (Brow3 V c) _ = Cert.Spec.layer (NA3 V c) (X3 V c) (W3 V c) (Brow3 V c) _
  congr 1
  funext a
  apply Fin.ext
  match a with
  | ⟨0, _⟩ =>
    show 2048 * i + p.val = win3_4.index ⟨4 * i + 3, hn⟩ 0 * 2048 + 1 * p.val
    rw [(index3_4 ⟨4 * i + 3, hn⟩).1]
    show 2048 * i + p.val = (4 * i + 3) / 4 * 2048 + 1 * p.val
    omega
  | ⟨1, _⟩ =>
    show q.val = win3_4.index ⟨4 * i + 3, hn⟩ 1 * 128 + 1 * q.val
    rw [(index3_4 ⟨4 * i + 3, hn⟩).2]
    omega

end Final

section Final3
variable (V : (c : Dev nD) → (b : Ref sig .tc) → Buf (Elt Ideal) ((c : Thread nD τ).loc b))

/-- The four write-backs cover the output array: row `r` lies in the block written at the last tile of block row `r / 2048`. -/
theorem cover3_4' (c : Dev nD) (i : ((cfg3.win 4).arr.view.loc (c.tc : Thread nD τ)).2.ty.Idx) :
    ∃ t : Fin cfg3.N, (cfg3.win 4).flush t = true ∧ i ∈ ((cfg3.win 4).blk t).view.set := by
  have h0 : (i 0 : ℕ) < 8192 := (i 0).isLt
  have h1 : (i 1 : ℕ) < 128 := (i 1).isLt
  have hN : cfg3.N = 16 := N_3
  have ht : 4 * ((i 0 : ℕ) / 2048) + 3 < cfg3.N := by omega
  refine ⟨⟨4 * ((i 0 : ℕ) / 2048) + 3, ht⟩, (flush3_4 _).mpr (by show (4 * ((i 0 : ℕ) / 2048) + 3) % 4 = 3; omega), ?_⟩
  show i ∈ ((View.whole main_v6).slice (win3_4.rect ⟨4 * ((i 0 : ℕ) / 2048) + 3, ht⟩)).set
  rw [View.set_slice_whole, Rect.mem_set_unit]
  intro a
  match a with
  | ⟨0, _⟩ =>
    show win3_4.index ⟨4 * ((i 0 : ℕ) / 2048) + 3, ht⟩ 0 * win3_4.size 0 ≤ (i 0 : ℕ)
      ∧ (i 0 : ℕ) < win3_4.index ⟨4 * ((i 0 : ℕ) / 2048) + 3, ht⟩ 0 * win3_4.size 0 + win3_4.xsize (grid3.coords ⟨4 * ((i 0 : ℕ) / 2048) + 3, ht⟩) 0
    rw [(index3_4 ⟨4 * ((i 0 : ℕ) / 2048) + 3, ht⟩).1, (xsize3_4 ⟨4 * ((i 0 : ℕ) / 2048) + 3, ht⟩).1]
    show (4 * ((i 0 : ℕ) / 2048) + 3) / 4 * 2048 ≤ (i 0 : ℕ) ∧ (i 0 : ℕ) < (4 * ((i 0 : ℕ) / 2048) + 3) / 4 * 2048 + 2048
    omega
  | ⟨1, _⟩ =>
    show win3_4.index ⟨4 * ((i 0 : ℕ) / 2048) + 3, ht⟩ 1 * win3_4.size 1 ≤ (i 1 : ℕ)
      ∧ (i 1 : ℕ) < win3_4.index ⟨4 * ((i 0 : ℕ) / 2048) + 3, ht⟩ 1 * win3_4.size 1 + win3_4.xsize (grid3.coords ⟨4 * ((i 0 : ℕ) / 2048) + 3, ht⟩) 1
    rw [(index3_4 ⟨4 * ((i 0 : ℕ) / 2048) + 3, ht⟩).2, (xsize3_4 ⟨4 * ((i 0 : ℕ) / 2048) + 3, ht⟩).2]
    omega

/-- THE REGION'S VALUE: after the run the output array holds the layer of the four arrays the region was entered with. -/
theorem final3 (c : Dev nD) :
    (dat3 (F := Ideal) V c).arrAt 4 cfg3.N = Cert.Spec.layer (V c main_v2) (V c main_v4) (V c main_arg4) (V c main_v5) :=
  (dat3 V c).arrAt_eq_of_cover 4 _ (flushed_eq3 V c) (cover3_4' c)

end Final3

end Cert.KernelIdeal.Hand

end
-- ==== Proof.Region4ValueA.lean ====
import proofs.«178500_j188978561286_1_alg».proof.Proof.Region4
import proofs.«178500_j188978561286_1_alg».proof.Proof.Spec
import proofs.«178500_j188978561286_1_alg».proof.Proof.LibDotRecord
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.Sem
open Idealize.ShloMosaic.Pipeline (Dat Cfg Window cellOf)
open Cert.KernelIdeal.Gen

/-! ## What the three runs leave, as values of the payloads (at any float interpretation) -/

section Pieces
variable {F : FTy → Type} [FloatOps F]

theorem hz4 : (![0, 0] : Fin 2 → Nat) = fun _ => 0 := funext fun a => by fin_cases a <;> rfl

/-- A middle tile leaves in the accumulator the tile's update of what it held. -/
theorem sB4 (c : Dev nD) (i : grid4.Coords) (arg2 : Memref sig .tc .vmem S2048x2048 .bf16) (harg2 : arg2.IsWhole) (arg3 : Memref sig .tc .vmem S2048x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole) (hc0 : ¬cond4_0 i) (hc1 : ¬cond4_1 i)
    (x0 : Vec F S2048x2048 .bf16) (x1 : Vec F S2048x128 .f32) (x2 : Vec F S128x64 .f32) (x3 : Vec F S1x64 .f32) (prev : Vec F S2048x64 .f32) :
    readS4 (kernelRun4_B (F := F) c i arg2 harg2 arg3 harg3 arg4 harg4 arg5 harg5 arg6 harg6 arg7 harg7 hc0 hc1 x0 x1 x2 x3 prev).2.1 = k4_pay2 x1 x2 x0 prev := by
  funext y
  unfold readS4
  rw [View.read_writes_junk_apply_eq_canon]
  unfold kernelRun4_B
  dsimp only
  rw [View.canon_unit_zero hz4]
  simp only [View.readAt_eq_ld, harg2.read_unread, harg3.read_unread, harg4.read_unread, harg5.read_unread, harg7.read_unread, View.ld_unit_zero (S := S2048x2048) hz4, View.ld_unit_zero (S := S2048x128) hz4, View.ld_unit_zero (S := S128x64) hz4, View.ld_unit_zero (S := S2048x64) hz4, View.ld_unit_zero (S := S1x64) hz4]

/-- The first tile of a row leaves the tile's update of the cleared accumulator. -/
theorem sA4 (c : Dev nD) (i : grid4.Coords) (arg2 : Memref sig .tc .vmem S2048x2048 .bf16) (harg2 : arg2.IsWhole) (arg3 : Memref sig .tc .vmem S2048x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole) (hc0 : cond4_0 i) (hc1 : ¬cond4_1 i)
    (x0 : Vec F S2048x2048 .bf16) (x1 : Vec F S2048x128 .f32) (x2 : Vec F S128x64 .f32) (x3 : Vec F S1x64 .f32) :
    readS4 (kernelRun4_A (F := F) c i arg2 harg2 arg3 harg3 arg4 harg4 arg5 harg5 arg6 harg6 arg7 harg7 hc0 hc1 x0 x1 x2 x3).2.1 = k4_pay2 x1 x2 x0 (k4_pay1 (F := F)) := by
  funext y
  unfold readS4
  rw [View.read_writes_junk_apply_eq_canon]
  unfold kernelRun4_A
  dsimp only
  sl_unfold_words
  rw [View.canon_cons_unit_zero (S := S2048x64) hz4, View.readCov_unit_zero (S := S2048x64) _ hz4]
  simp only [View.readAt_eq_ld, harg2.read_unread, harg3.read_unread, harg4.read_unread, harg5.read_unread, harg7.read_unread, View.ld_unit_zero (S := S2048x2048) hz4, View.ld_unit_zero (S := S2048x128) hz4, View.ld_unit_zero (S := S128x64) hz4, View.ld_unit_zero (S := S2048x64) hz4, View.ld_unit_zero (S := S1x64) hz4]

/-- The last tile of a row leaves the same update in the accumulator, -/
theorem sC4 (c : Dev nD) (i : grid4.Coords) (arg2 : Memref sig .tc .vmem S2048x2048 .bf16) (harg2 : arg2.IsWhole) (arg3 : Memref sig .tc .vmem S2048x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole) (hc0 : ¬cond4_0 i) (hc1 : cond4_1 i)
    (x0 : Vec F S2048x2048 .bf16) (x1 : Vec F S2048x128 .f32) (x2 : Vec F S128x64 .f32) (x3 : Vec F S1x64 .f32) (prev : Vec F S2048x64 .f32) :
    readS4 (kernelRun4_C (F := F) c i arg2 harg2 arg3 harg3 arg4 harg4 arg5 harg5 arg6 harg6 arg7 harg7 hc0 hc1 x0 x1 x2 x3 prev).2.1 = k4_pay2 x1 x2 x0 prev := by
  funext y
  unfold readS4
  rw [View.read_writes_junk_apply_eq_canon]
  unfold kernelRun4_C
  dsimp only
  sl_unfold_words
  rw [View.canon_unit_zero hz4]
  simp only [View.readAt_eq_ld, harg2.read_unread, harg3.read_unread, harg4.read_unread, harg5.read_unread, harg7.read_unread, View.ld_unit_zero (S := S2048x2048) hz4, View.ld_unit_zero (S := S2048x128) hz4, View.ld_unit_zero (S := S128x64) hz4, View.ld_unit_zero (S := S2048x64) hz4, View.ld_unit_zero (S := S1x64) hz4]

/-- and in the output's buffer the finished accumulator plus the bias row, through the rectifier. -/
theorem oC4 (c : Dev nD) (i : grid4.Coords) (arg2 : Memref sig .tc .vmem S2048x2048 .bf16) (harg2 : arg2.IsWhole) (arg3 : Memref sig .tc .vmem S2048x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole) (hc0 : ¬cond4_0 i) (hc1 : cond4_1 i)
    (x0 : Vec F S2048x2048 .bf16) (x1 : Vec F S2048x128 .f32) (x2 : Vec F S128x64 .f32) (x3 : Vec F S1x64 .f32) (prev : Vec F S2048x64 .f32) :
    readO4 (kernelRun4_C (F := F) c i arg2 harg2 arg3 harg3 arg4 harg4 arg5 harg5 arg6 harg6 arg7 harg7 hc0 hc1 x0 x1 x2 x3 prev).1 = k4_pay3 (k4_pay2 x1 x2 x0 prev) x3 := by
  funext y
  unfold readO4
  rw [View.read_writes_junk_apply_eq_canon]
  unfold kernelRun4_C
  dsimp only
  sl_unfold_words
  rw [View.canon_unit_zero hz4, View.readCov_unit_zero (S := S2048x64) _ hz4]
  simp only [View.readAt_eq_ld, harg2.read_unread, harg3.read_unread, harg4.read_unread, harg5.read_unread, harg7.read_unread, View.ld_unit_zero (S := S2048x2048) hz4, View.ld_unit_zero (S := S2048x128) hz4, View.ld_unit_zero (S := S128x64) hz4, View.ld_unit_zero (S := S2048x64) hz4, View.ld_unit_zero (S := S1x64) hz4]

end Pieces

/-! ## The payloads on the extended reals, entry by entry -/

section IdealPay

/-- The clearing store's payload is zero at every entry. -/
theorem pay1_apply_4 (y : S2048x64.Idx) : k4_pay1 (F := Ideal) y = 0 := by
  unfold k4_pay1
  exact (congrFun (shapeCast_self _ _) y).trans Ideal.ofBits_zero_f32

/-- One tile's update at entry (p, q): the accumulator's entry plus the tile product's, the inner product first. -/
theorem pay2_apply_4 (X : FVec Ideal S2048x128 .f32) (W : FVec Ideal S128x64 .f32) (NA : FVec Ideal S2048x2048 .bf16)
    (acc : FVec Ideal S2048x64 .f32) (p : Fin 2048) (q : Fin 64) :
    k4_pay2 (F := Ideal) X W NA acc (ix2 p q)
      = acc (ix2 p q) + ∑ k : Fin 2048, NA (ix2 p k) * ∑ d : Fin 128, X (ix2 k d) * W (ix2 d q) := by
  unfold k4_pay2
  refine (congrFun (shapeCast_self _ _) (ix2 p q)).trans ?_
  refine congrArg (acc (ix2 p q) + ·) ?_
  refine (DotRecord.matmul_zero_apply (M := 2048) (K := 2048) (N := 64) dot_S2048x2048_S2048x64_S2048x64_1_0_0_1_n_n rfl rfl rfl rfl rfl rfl _ _ none p q).trans ?_
  refine Finset.sum_congr rfl fun k _ => ?_
  refine congr (congrArg (· * ·) (congrFun (shapeCast_self NA _) (ix2 p k))) ?_
  refine (DotRecord.matmul_zero_apply (M := 2048) (K := 128) (N := 64) dot_S2048x128_S128x64_S2048x64_1_0_0_1_n_n rfl rfl rfl rfl rfl rfl _ _ none k q).trans ?_
  refine Finset.sum_congr rfl fun d _ => ?_
  exact congrArg (· * W (ix2 d q)) (congrFun (shapeCast_self X _) (ix2 k d))

/-- The rectifier as the kernel spells it on one extended real: compare with zero, keep or scale by the slope word. -/
theorem lrelu_scalar_4 (v : EReal) :
    Scalar.select (Ideal.cmp .oge v (Ideal.ofBits .f32 0x00000000#32)) v (Ideal.ofBits .f32 0x3C23D70A#32 * v) = Cert.Spec.lrelu v := by
  unfold Cert.Spec.lrelu Cert.Spec.slope Scalar.select Ideal.cmp
  rw [Ideal.ofBits_zero_f32]
  by_cases h : (0 : EReal) ≤ v
  · rw [if_pos h]; simp only [decide_eq_true h]; rfl
  · rw [if_neg h]; simp only [decide_eq_false h]; rfl

/-- The finishing payload at entry (p, q): the rectifier of the accumulator's entry plus the bias row's entry q. -/
theorem pay3_apply_4 (acc : FVec Ideal S2048x64 .f32) (b : FVec Ideal S1x64 .f32) (p : Fin 2048) (q : Fin 64) :
    k4_pay3 (F := Ideal) acc b (ix2 p q) = Cert.Spec.lrelu (acc (ix2 p q) + b (ix2 (0 : Fin 1) q)) := by
  have hb : broadcastTo S2048x64 (shapeCast S1x64 b shapeCasts_S1x64_S1x64) broadcasts_S1x64_S2048x64 (ix2 p q) = b (ix2 (0 : Fin 1) q) :=
    (DotRecord.broadcastTo_1b_ab_apply (a := 2048) (b := 64) _ broadcasts_S1x64_S2048x64 p q).trans (congrFun (shapeCast_self b _) _)
  unfold k4_pay3
  refine Eq.trans ?_ (lrelu_scalar_4 (acc (ix2 p q) + b (ix2 (0 : Fin 1) q)))
  rw [← hb]
  rfl

end IdealPay

end Cert.KernelIdeal.Hand

end
-- ==== Proof.Region4Value.lean ====
import proofs.«178500_j188978561286_1_alg».proof.Proof.Region4ValueA
import proofs.«178500_j188978561286_1_alg».proof.Proof.LibFourTiles

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.Sem
open Idealize.ShloMosaic.Pipeline (Dat Cfg Window cellOf)
open Cert.KernelIdeal.Gen

/-! ## The accumulator, point by point, as a fold of tile updates -/

section Fold
variable (V : (c : Dev nD) → (b : Ref sig .tc) → Buf (Elt Ideal) ((c : Thread nD τ).loc b))

/-- One tile's update of an accumulator at point `t`: its entry plus the entry of (adjacency block) · ((feature block) · weights). -/
abbrev tileUpd4 (c : Dev nD) (t : Fin cfg4.N) (acc : FVec Ideal S2048x64 .f32) : FVec Ideal S2048x64 .f32 :=
  k4_pay2 (F := Ideal) (iblk4 V c 1 t) (iblk4 V c 2 t) (iblk4 V c 0 t) acc

/-- The three runs' values at point `t`. -/
theorem sA4_at (c : Dev nD) (t : Fin cfg4.N) (h0 : t.val % 4 = 0) :
    readS4 (runA4 V c t h0).2.1 = tileUpd4 V c t (k4_pay1 (F := Ideal)) :=
  sA4 c (grid4.coords t) (ms4_0 t) (hs4_0 t) (ms4_1 t) (hs4_1 t) (ms4_2 t) (hs4_2 t) (ms4_3 t) (hs4_3 t) (ms4_4 t) (hs4_4 t) scM4_0 (Memref.isWhole_whole _) ((hcond4_0 t).mpr h0) (fun h => by have h3 := (hcond4_1 t).mp h; omega) (iblk4 V c 0 t) (iblk4 V c 1 t) (iblk4 V c 2 t) (iblk4 V c 3 t)
theorem sB4_at (c : Dev nD) (t : Fin cfg4.N) (h0 : ¬t.val % 4 = 0) (h1 : ¬t.val % 4 = 3) (prev : FVec Ideal S2048x64 .f32) :
    readS4 (runB4 V c t h0 h1 prev).2.1 = tileUpd4 V c t prev :=
  sB4 c (grid4.coords t) (ms4_0 t) (hs4_0 t) (ms4_1 t) (hs4_1 t) (ms4_2 t) (hs4_2 t) (ms4_3 t) (hs4_3 t) (ms4_4 t) (hs4_4 t) scM4_0 (Memref.isWhole_whole _) (fun h => h0 ((hcond4_0 t).mp h)) (fun h => h1 ((hcond4_1 t).mp h)) (iblk4 V c 0 t) (iblk4 V c 1 t) (iblk4 V c 2 t) (iblk4 V c 3 t) prev
theorem sC4_at (c : Dev nD) (t : Fin cfg4.N) (h0 : ¬t.val % 4 = 0) (h1 : t.val % 4 = 3) (prev : FVec Ideal S2048x64 .f32) :
    readS4 (runC4 V c t h0 h1 prev).2.1 = tileUpd4 V c t prev :=
  sC4 c (grid4.coords t) (ms4_0 t) (hs4_0 t) (ms4_1 t) (hs4_1 t) (ms4_2 t) (hs4_2 t) (ms4_3 t) (hs4_3 t) (ms4_4 t) (hs4_4 t) scM4_0 (Memref.isWhole_whole _) (fun h => h0 ((hcond4_0 t).mp h)) ((hcond4_1 t).mpr h1) (iblk4 V c 0 t) (iblk4 V c 1 t) (iblk4 V c 2 t) (iblk4 V c 3 t) prev
theorem oC4_at (c : Dev nD) (t : Fin cfg4.N) (h0 : ¬t.val % 4 = 0) (h1 : t.val % 4 = 3) (prev : FVec Ideal S2048x64 .f32) :
    readO4 (runC4 V c t h0 h1 prev).1 = k4_pay3 (F := Ideal) (tileUpd4 V c t prev) (iblk4 V c 3 t) :=
  oC4 c (grid4.coords t) (ms4_0 t) (hs4_0 t) (ms4_1 t) (hs4_1 t) (ms4_2 t) (hs4_2 t) (ms4_3 t) (hs4_3 t) (ms4_4 t) (hs4_4 t) scM4_0 (Memref.isWhole_whole _) (fun h => h0 ((hcond4_0 t).mp h)) ((hcond4_1 t).mpr h1) (iblk4 V c 0 t) (iblk4 V c 1 t) (iblk4 V c 2 t) (iblk4 V c 3 t) prev

/-- At the first tile of a row the accumulator ends at the update of the zero block. -/
theorem acc4_first (c : Dev nD) (n : ℕ) (h : n < cfg4.N) (h0 : n % 4 = 0) :
    (outsAt4 V c n h).2 = tileUpd4 V c ⟨n, h⟩ (k4_pay1 (F := Ideal)) := by
  have e0 : outsAt4 V c n h = stepAt4 V c ⟨n, h⟩ (prevAt4 V c ⟨n, h⟩) := outsAt4_eq V c ⟨n, h⟩
  have e1 := stepAt4_A V c ⟨n, h⟩ (prevAt4 V c ⟨n, h⟩) h0
  have e3 : (outsAt4 V c n h).2 = readS4 (runA4 V c ⟨n, h⟩ h0).2.1 := by rw [e0, e1]
  exact e3.trans (sA4_at V c ⟨n, h⟩ h0)

/-- At every other point it ends at the update of what the point before left. -/
theorem acc4_step (c : Dev nD) (n : ℕ) (h : n + 1 < cfg4.N) (h0 : ¬(n + 1) % 4 = 0) :
    (outsAt4 V c (n + 1) h).2 = tileUpd4 V c ⟨n + 1, h⟩ (outsAt4 V c n (Nat.lt_of_succ_lt h)).2 := by
  have e0 : outsAt4 V c (n + 1) h = stepAt4 V c ⟨n + 1, h⟩ (outsAt4 V c n (Nat.lt_of_succ_lt h)).2 := rfl
  by_cases h1 : (n + 1) % 4 = 3
  · have e1 := stepAt4_C V c ⟨n + 1, h⟩ (outsAt4 V c n (Nat.lt_of_succ_lt h)).2 h0 h1
    have e3 : (outsAt4 V c (n + 1) h).2 = readS4 (runC4 V c ⟨n + 1, h⟩ h0 h1 (outsAt4 V c n (Nat.lt_of_succ_lt h)).2).2.1 := by rw [e0, e1]
    exact e3.trans (sC4_at V c ⟨n + 1, h⟩ h0 h1 _)
  · have e1 := stepAt4_B V c ⟨n + 1, h⟩ (outsAt4 V c n (Nat.lt_of_succ_lt h)).2 h0 h1
    have e3 : (outsAt4 V c (n + 1) h).2 = readS4 (runB4 V c ⟨n + 1, h⟩ h0 h1 (outsAt4 V c n (Nat.lt_of_succ_lt h)).2).2.1 := by rw [e0, e1]
    exact e3.trans (sB4_at V c ⟨n + 1, h⟩ h0 h1 _)

/-- So at the last tile of block row `i` the accumulator is the four updates of the zero block, in order. -/
theorem acc4_last (c : Dev nD) (i : ℕ) (h : 4 * i + 3 < cfg4.N) :
    (outsAt4 V c (4 * i + 3) h).2
      = tileUpd4 V c ⟨4 * i + 3, h⟩ (tileUpd4 V c ⟨4 * i + 2, by omega⟩ (tileUpd4 V c ⟨4 * i + 1, by omega⟩
          (tileUpd4 V c ⟨4 * i + 0, by omega⟩ (k4_pay1 (F := Ideal))))) :=
  Pipeline.eq_accAt (fun n h => (outsAt4 V c n h).2) 4 (fun n h => tileUpd4 V c ⟨n, h⟩ (k4_pay1 (F := Ideal)))
    (fun n h acc => tileUpd4 V c ⟨n, h⟩ acc) (acc4_first V c) (acc4_step V c) i 3 (by decide) h

/-- At that point the output's buffer holds the finishing payload of the accumulator and the bias row. -/
theorem out4_last (c : Dev nD) (t : Fin cfg4.N) (h3 : t.val % 4 = 3) :
    (outsAt4 V c t.val t.isLt).1 = k4_pay3 (F := Ideal) (outsAt4 V c t.val t.isLt).2 (iblk4 V c 3 t) := by
  have h0 : ¬t.val % 4 = 0 := by omega
  have e := (outsAt4_eq V c t).trans (stepAt4_C V c t _ h0 h3)
  have e1 : (outsAt4 V c t.val t.isLt).1 = readO4 (runC4 V c t h0 h3 (prevAt4 V c t)).1 := by rw [e]
  have e2 : (outsAt4 V c t.val t.isLt).2 = readS4 (runC4 V c t h0 h3 (prevAt4 V c t)).2.1 := by rw [e]
  rw [e1, e2, oC4_at V c t h0 h3, sC4_at V c t h0 h3]

end Fold

/-! ## The windows' blocks as entries of the arrays -/

section Blocks
variable (V : (c : Dev nD) → (b : Ref sig .tc) → Buf (Elt Ideal) ((c : Thread nD τ).loc b))

/-- The four arrays the region reads, as matrices of extended reals. -/
abbrev NA4 (c : Dev nD) : Cert.Spec.Mat 8192 8192 := V c main_v2
abbrev X4 (c : Dev nD) : Cert.Spec.Mat 8192 128 := V c main_v6
abbrev W4 (c : Dev nD) : Cert.Spec.Mat 128 64 := V c main_arg6
abbrev Brow4 (c : Dev nD) : Cert.Spec.Mat 1 64 := V c main_v7

/-- The block indices, over the grid: point `t` is tile `t % 4` of block row `t / 4`. -/
theorem index4_0 : ∀ t : Fin cfg4.N, win4_0.index t 0 = t.val / 4 ∧ win4_0.index t 1 = t.val % 4 :=
  (by decide +kernel : ∀ t : Fin grid4.N, win4_0.index t 0 = t.val / 4 ∧ win4_0.index t 1 = t.val % 4)
theorem index4_1 : ∀ t : Fin cfg4.N, win4_1.index t 0 = t.val % 4 ∧ win4_1.index t 1 = 0 :=
  (by decide +kernel : ∀ t : Fin grid4.N, win4_1.index t 0 = t.val % 4 ∧ win4_1.index t 1 = 0)
theorem index4_2 : ∀ t : Fin cfg4.N, win4_2.index t 0 = 0 ∧ win4_2.index t 1 = 0 :=
  (by decide +kernel : ∀ t : Fin grid4.N, win4_2.index t 0 = 0 ∧ win4_2.index t 1 = 0)
theorem index4_3 : ∀ t : Fin cfg4.N, win4_3.index t 0 = 0 ∧ win4_3.index t 1 = 0 :=
  (by decide +kernel : ∀ t : Fin grid4.N, win4_3.index t 0 = 0 ∧ win4_3.index t 1 = 0)
theorem index4_4 : ∀ t : Fin cfg4.N, win4_4.index t 0 = t.val / 4 ∧ win4_4.index t 1 = 0 :=
  (by decide +kernel : ∀ t : Fin grid4.N, win4_4.index t 0 = t.val / 4 ∧ win4_4.index t 1 = 0)
/-- The output's blocks are never cut. -/
theorem xsize4_4 : ∀ t : Fin cfg4.N, win4_4.xsize (grid4.coords t) 0 = 2048 ∧ win4_4.xsize (grid4.coords t) 1 = 64 :=
  (by decide +kernel : ∀ t : Fin grid4.N, win4_4.xsize (grid4.coords t) 0 = 2048 ∧ win4_4.xsize (grid4.coords t) 1 = 64)

/-- Entry (p, r) of the adjacency block at tile `s` of block row `I` is entry (2048 I + p, 2048 s + r) of the array. -/
theorem iblk4_0_apply (c : Dev nD) (t : Fin cfg4.N) (I s : ℕ) (hI : t.val / 4 = I) (hs : t.val % 4 = s) (hI4 : I < 4) (hs4 : s < 4)
    (p r : Fin 2048) :
    iblk4 V c 0 t (ix2 p r) = NA4 V c (ix2 (⟨2048 * I + p.val, by omega⟩ : Fin 8192) (⟨2048 * s + r.val, by omega⟩ : Fin 8192)) := by
  unfold iblk4
  rw [View.read_apply]
  show V c main_v2 _ = V c main_v2 _
  congr 1
  funext a
  apply Fin.ext
  match a with
  | ⟨0, _⟩ => show win4_0.index t 0 * 2048 + 1 * p.val = 2048 * I + p.val; rw [(index4_0 t).1, hI]; omega
  | ⟨1, _⟩ => show win4_0.index t 1 * 2048 + 1 * r.val = 2048 * s + r.val; rw [(index4_0 t).2, hs]; omega

/-- Entry (r, d) of the feature block at tile `s` is entry (2048 s + r, d) of the array. -/
theorem iblk4_1_apply (c : Dev nD) (t : Fin cfg4.N) (s : ℕ) (hs : t.val % 4 = s) (hs4 : s < 4) (r : Fin 2048) (d : Fin 128) :
    iblk4 V c 1 t (ix2 r d) = X4 V c (ix2 (⟨2048 * s + r.val, by omega⟩ : Fin 8192) d) := by
  unfold iblk4
  rw [View.read_apply]
  show V c main_v6 _ = V c main_v6 _
  congr 1
  funext a
  apply Fin.ext
  match a with
  | ⟨0, _⟩ => show win4_1.index t 0 * 2048 + 1 * r.val = 2048 * s + r.val; rw [(index4_1 t).1, hs]; omega
  | ⟨1, _⟩ => show win4_1.index t 1 * 128 + 1 * d.val = d.val; rw [(index4_1 t).2]; omega

/-- The weights' one block is the array. -/
theorem iblk4_2_apply (c : Dev nD) (t : Fin cfg4.N) (d : Fin 128) (q : Fin 64) :
    iblk4 V c 2 t (ix2 d q) = W4 V c (ix2 d q) := by
  unfold iblk4
  rw [View.read_apply]
  show V c main_arg6 _ = V c main_arg6 _
  congr 1
  funext a
  apply Fin.ext
  match a with
  | ⟨0, _⟩ => show win4_2.index t 0 * 128 + 1 * d.val = d.val; rw [(index4_2 t).1]; omega
  | ⟨1, _⟩ => show win4_2.index t 1 * 64 + 1 * q.val = q.val; rw [(index4_2 t).2]; omega

/-- The bias row's one block is the array. -/
theorem iblk4_3_apply (c : Dev nD) (t : Fin cfg4.N) (z : Fin 1) (q : Fin 64) :
    iblk4 V c 3 t (ix2 z q) = Brow4 V c (ix2 z q) := by
  unfold iblk4
  rw [View.read_apply]
  show V c main_v7 _ = V c main_v7 _
  congr 1
  funext a
  apply Fin.ext
  match a with
  | ⟨0, _⟩ => show win4_3.index t 0 * 1 + 1 * z.val = z.val; rw [(index4_3 t).1]; omega
  | ⟨1, _⟩ => show win4_3.index t 1 * 64 + 1 * q.val = q.val; rw [(index4_3 t).2]; omega

/-- One tile's update at entry (p, q), over the arrays: tile `s` of block row `I` adds the part of row 2048 I + p's
    product that runs over the 2048 neighbours 2048 s … 2048 s + 2047. -/
theorem tileUpd4_apply (c : Dev nD) (t : Fin cfg4.N) (I s : ℕ) (hI : t.val / 4 = I) (hs : t.val % 4 = s) (hI4 : I < 4) (hs4 : s < 4)
    (acc : FVec Ideal S2048x64 .f32) (p : Fin 2048) (q : Fin 64) :
    tileUpd4 V c t acc (ix2 p q)
      = acc (ix2 p q) + ∑ r : Fin 2048, NA4 V c (ix2 (⟨2048 * I + p.val, by omega⟩ : Fin 8192) (⟨2048 * s + r.val, by omega⟩ : Fin 8192))
          * ∑ d : Fin 128, X4 V c (ix2 (⟨2048 * s + r.val, by omega⟩ : Fin 8192) d) * W4 V c (ix2 d q) := by
  refine (pay2_apply_4 _ _ _ acc p q).trans ?_
  refine congrArg (acc (ix2 p q) + ·) ?_
  refine Finset.sum_congr rfl fun r _ => ?_
  rw [iblk4_0_apply V c t I s hI hs hI4 hs4 p r]
  congr 1
  refine Finset.sum_congr rfl fun d _ => ?_
  rw [iblk4_1_apply V c t s hs hs4 r d, iblk4_2_apply V c t d q]

end Blocks

/-! ## The output array after the run -/

section Final
variable (V : (c : Dev nD) → (b : Ref sig .tc) → Buf (Elt Ideal) ((c : Thread nD τ).loc b))

/-- What the output's buffer holds at the last tile of block row `i`, at entry (p, q): the layer at row 2048 i + p. -/
theorem out4_val (c : Dev nD) (i : ℕ) (h : 4 * i + 3 < cfg4.N) (p : Fin 2048) (q : Fin 64) :
    (outsAt4 V c (4 * i + 3) h).1 (ix2 p q)
      = Cert.Spec.layer (NA4 V c) (X4 V c) (W4 V c) (Brow4 V c)
          (ix2 (⟨2048 * i + p.val, by have hN : cfg4.N = 16 := N_4; omega⟩ : Fin 8192) q) := by
  have hN : cfg4.N = 16 := N_4
  have hi : i < 4 := by omega
  have e1 := out4_last V c ⟨4 * i + 3, h⟩ (by show (4 * i + 3) % 4 = 3; omega)
  refine (congrFun e1 (ix2 p q)).trans ?_
  refine (pay3_apply_4 _ _ p q).trans ?_
  show Cert.Spec.lrelu (_ + _) = Cert.Spec.lrelu ((∑ k : Fin 8192, NA4 V c (ix2 (⟨2048 * i + p.val, by omega⟩ : Fin 8192) k)
    * ∑ d : Fin 128, X4 V c (ix2 k d) * W4 V c (ix2 d q)) + Brow4 V c (ix2 (0 : Fin 1) q))
  rw [iblk4_3_apply V c _ 0 q]
  refine congrArg Cert.Spec.lrelu ?_
  congr 1
  refine (congrFun (acc4_last V c i h) (ix2 p q)).trans ?_
  rw [tileUpd4_apply V c ⟨4 * i + 3, h⟩ i 3 (by show (4 * i + 3) / 4 = i; omega) (by show (4 * i + 3) % 4 = 3; omega) hi (by decide) _ p q, tileUpd4_apply V c ⟨4 * i + 2, by omega⟩ i 2 (by show (4 * i + 2) / 4 = i; omega) (by show (4 * i + 2) % 4 = 2; omega) hi (by decide) _ p q, tileUpd4_apply V c ⟨4 * i + 1, by omega⟩ i 1 (by show (4 * i + 1) / 4 = i; omega) (by show (4 * i + 1) % 4 = 1; omega) hi (by decide) _ p q, tileUpd4_apply V c ⟨4 * i + 0, by omega⟩ i 0 (by show (4 * i + 0) / 4 = i; omega) (by show (4 * i + 0) % 4 = 0; omega) hi (by decide) _ p q, pay1_apply_4]
  exact (sum_four_tiles (fun k : Fin 8192 => NA4 V c (ix2 (⟨2048 * i + p.val, by omega⟩ : Fin 8192) k)
    * ∑ d : Fin 128, X4 V c (ix2 k d) * W4 V c (ix2 d q))).symm

/-- Every write-back writes the layer's block. -/
theorem flushed_eq4 (c : Dev nD) (t : Fin cfg4.N) (hf : (cfg4.win 4).flush t = true) :
    (dat4 V c).flushed 4 t
      = ((cfg4.win 4).blk t).view.read (Elt Ideal) (Cert.Spec.layer (NA4 V c) (X4 V c) (W4 V c) (Brow4 V c)) := by
  have h3 : t.val % 4 = 3 := (flush4_4 t).mp hf
  have hN : cfg4.N = 16 := N_4
  obtain ⟨n, hn⟩ := t
  obtain ⟨i, rfl⟩ : ∃ i, n = 4 * i + 3 := ⟨n / 4, by dsimp only at h3; omega⟩
  funext y
  obtain ⟨p, q, rfl⟩ : ∃ (p : Fin 2048) (q : Fin 64), y = ix2 p q := ⟨y 0, y 1, eq_ix2 y⟩
  show (dat4 V c).after 4 ⟨4 * i + 3, hn⟩ (ix2 p q) = _
  rw [after4_4, View.read_apply]
  refine (out4_val V c i hn p q).trans ?_
  show Cert.Spec.layer (NA4 V c) (X4 V c) (W4 V c) (Brow4 V c) _ = Cert.Spec.layer (NA4 V c) (X4 V c) (W4 V c) (Brow4 V c) _
  congr 1
  funext a
  apply Fin.ext
  match a with
  | ⟨0, _⟩ =>
    show 2048 * i + p.val = win4_4.index ⟨4 * i + 3, hn⟩ 0 * 2048 + 1 * p.val
    rw [(index4_4 ⟨4 * i + 3, hn⟩).1]
    show 2048 * i + p.val = (4 * i + 3) / 4 * 2048 + 1 * p.val
    omega
  | ⟨1, _⟩ =>
    show q.val = win4_4.index ⟨4 * i + 3, hn⟩ 1 * 64 + 1 * q.val
    rw [(index4_4 ⟨4 * i + 3, hn⟩).2]
    omega

end Final

section Final2
variable (V : (c : Dev nD) → (b : Ref sig .tc) → Buf (Elt Ideal) ((c : Thread nD τ).loc b))

/-- The four write-backs cover the output array: row `r` lies in the block written at the last tile of block row `r / 2048`. -/
theorem cover4_4' (c : Dev nD) (i : ((cfg4.win 4).arr.view.loc (c.tc : Thread nD τ)).2.ty.Idx) :
    ∃ t : Fin cfg4.N, (cfg4.win 4).flush t = true ∧ i ∈ ((cfg4.win 4).blk t).view.set := by
  have h0 : (i 0 : ℕ) < 8192 := (i 0).isLt
  have h1 : (i 1 : ℕ) < 64 := (i 1).isLt
  have hN : cfg4.N = 16 := N_4
  have ht : 4 * ((i 0 : ℕ) / 2048) + 3 < cfg4.N := by omega
  refine ⟨⟨4 * ((i 0 : ℕ) / 2048) + 3, ht⟩, (flush4_4 _).mpr (by show (4 * ((i 0 : ℕ) / 2048) + 3) % 4 = 3; omega), ?_⟩
  show i ∈ ((View.whole main_v8).slice (win4_4.rect ⟨4 * ((i 0 : ℕ) / 2048) + 3, ht⟩)).set
  rw [View.set_slice_whole, Rect.mem_set_unit]
  intro a
  match a with
  | ⟨0, _⟩ =>
    show win4_4.index ⟨4 * ((i 0 : ℕ) / 2048) + 3, ht⟩ 0 * win4_4.size 0 ≤ (i 0 : ℕ)
      ∧ (i 0 : ℕ) < win4_4.index ⟨4 * ((i 0 : ℕ) / 2048) + 3, ht⟩ 0 * win4_4.size 0 + win4_4.xsize (grid4.coords ⟨4 * ((i 0 : ℕ) / 2048) + 3, ht⟩) 0
    rw [(index4_4 ⟨4 * ((i 0 : ℕ) / 2048) + 3, ht⟩).1, (xsize4_4 ⟨4 * ((i 0 : ℕ) / 2048) + 3, ht⟩).1]
    show (4 * ((i 0 : ℕ) / 2048) + 3) / 4 * 2048 ≤ (i 0 : ℕ) ∧ (i 0 : ℕ) < (4 * ((i 0 : ℕ) / 2048) + 3) / 4 * 2048 + 2048
    omega
  | ⟨1, _⟩ =>
    show win4_4.index ⟨4 * ((i 0 : ℕ) / 2048) + 3, ht⟩ 1 * win4_4.size 1 ≤ (i 1 : ℕ)
      ∧ (i 1 : ℕ) < win4_4.index ⟨4 * ((i 0 : ℕ) / 2048) + 3, ht⟩ 1 * win4_4.size 1 + win4_4.xsize (grid4.coords ⟨4 * ((i 0 : ℕ) / 2048) + 3, ht⟩) 1
    rw [(index4_4 ⟨4 * ((i 0 : ℕ) / 2048) + 3, ht⟩).2, (xsize4_4 ⟨4 * ((i 0 : ℕ) / 2048) + 3, ht⟩).2]
    omega

/-- THE REGION'S VALUE: after the run the output array holds the layer of the four arrays the region was entered with. -/
theorem final4 (c : Dev nD) :
    (dat4 (F := Ideal) V c).arrAt 4 cfg4.N = Cert.Spec.layer (V c main_v2) (V c main_v6) (V c main_arg6) (V c main_v7) :=
  (dat4 V c).arrAt_eq_of_cover 4 _ (flushed_eq4 V c) (cover4_4' c)

end Final2

end Cert.KernelIdeal.Hand

end
-- ==== Proof.Region5Value.lean ====
/-
  The edge-decoder region (pipeline 5), value half, on the extended reals.

  At the point (i, j) the body stores, at the local entry (p, q) of its 1024 × 2048 block, the logistic
  function of ∑_d a(p, d) · b(q, d), where a is the 1024 × 64 block i and b the 2048 × 64 block j of the same
  feature array R: the matrix product contracts the two blocks' feature axes, and the narrowing of the
  operands is the identity on the extended reals.  The blocks tile the 8192 × 8192 result, so after the last
  point the array is the logistic function of the Gram matrix of R.
-/
import proofs.«178500_j188978561286_1_alg».proof.Proof.Region5
import proofs.«178500_j188978561286_1_alg».proof.Proof.Spec
import proofs.«178500_j188978561286_1_alg».proof.Proof.LibRowOps
import proofs.«178500_j188978561286_1_alg».proof.Proof.LibDotRecord
import proofs.«178500_j188978561286_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal.Gen

variable (V : (c : Dev nD) → (b : Ref sig .tc) → Buf (Elt Ideal) ((c : Thread nD τ).loc b))

namespace V5

/-! ## A product contracting both operands' second axes, read at an entry -/

section Gram

variable {M K N : ℕ}

/-- A record whose six axis lists are "contract axis 1 with axis 1, no batch axis" is that product's record. -/
theorem eq_transposedRhs (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = []) :
    d = DotDims.transposedRhs M K N := by
  obtain ⟨lc, rc, ln, rn, lb, rb, wf⟩ := d
  simp only at h1 h2 h3 h4 h5 h6
  subst h1 h2 h3 h4 h5 h6
  rfl

/-- The left operand's index at output entry (p, q) and contracted coordinate k is (p, k). -/
theorem tr_lhsIdx (p : Fin M) (q : Fin N) (k : Fin K) :
    (DotDims.transposedRhs M K N).lhsIdx (ix2 p q) ((contrEquiv1 (DotDims.transposedRhs M K N) K rfl rfl).symm k) = ix2 p k := by
  have hk := contrEquiv1_symm_val (DotDims.transposedRhs M K N) K rfl rfl k
  funext a
  apply Fin.ext
  match a with
  | ⟨0, _⟩ => rfl
  | ⟨1, _⟩ => exact ((DotDims.transposedRhs M K N).lhsIdx_val_of_single (cl := 1) rfl _ _).trans hk

/-- The right operand's index at output entry (p, q) and contracted coordinate k is (q, k). -/
theorem tr_rhsIdx (p : Fin M) (q : Fin N) (k : Fin K) :
    (DotDims.transposedRhs M K N).rhsIdx (ix2 p q) ((contrEquiv1 (DotDims.transposedRhs M K N) K rfl rfl).symm k) = ix2 q k := by
  have hk := contrEquiv1_symm_val (DotDims.transposedRhs M K N) K rfl rfl k
  funext a
  apply Fin.ext
  match a with
  | ⟨0, _⟩ => rfl
  | ⟨1, _⟩ => exact ((DotDims.transposedRhs M K N).rhsIdx_val_of_single (cr := 1) rfl _ _).trans hk

/-- The matrix unit accumulating into the zero vector under such a record, at entry (p, q):
    the sum over the K contracted coordinates of lhs (p, k) · rhs (q, k). -/
theorem tr_matmul_zero_apply {φ₁ φ₂ : FTy} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = [])
    (lhs : FVec Ideal ⟨2, ![M, K]⟩ φ₁) (rhs : FVec Ideal ⟨2, ![N, K]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 q k) := by
  rw [eq_transposedRhs d h1 h2 h3 h4 h5 h6, Ideal.matmul_constant_zero_apply,
    ← Equiv.sum_comp (contrEquiv1 (DotDims.transposedRhs M K N) K rfl rfl).symm]
  refine Finset.sum_congr rfl fun k _ => ?_
  rw [tr_lhsIdx, tr_rhsIdx]

end Gram

/-! ## The stored block at a local entry -/

theorem hz2 : (![0, 0] : Fin 2 → Nat) = fun _ => 0 := funext fun a => by fin_cases a <;> rfl

/-- The payload at the local entry (p, q): the logistic function of the two feature rows' product. -/
theorem pay5_apply (x0 : Vec Ideal S1024x64 .f32) (x1 : Vec Ideal S2048x64 .f32) (p : Fin 1024) (q : Fin 2048) :
    k5_pay1 x0 x1 (ix2 p q) = Ideal.logistic (∑ d : Fin 64, x0 (ix2 p d) * x1 (ix2 q d)) := by
  unfold k5_pay1
  show Ideal.logistic (FloatOps.matmul (F := Ideal) dot_S1024x64_S2048x64_S1024x2048_1_1_0_0_n_n none
      (truncf .bf16 (shapeCast S1024x64 x0 shapeCasts_S1024x64_S1024x64) bitsLt_bf16_f32)
      (truncf .bf16 (shapeCast S2048x64 x1 shapeCasts_S2048x64_S2048x64) bitsLt_bf16_f32)
      (constant (F := Ideal) S1024x2048 .f32 0x00000000#32) (ix2 p q)) = _
  rw [tr_matmul_zero_apply _ rfl rfl rfl rfl rfl rfl]
  refine congrArg Ideal.logistic (Finset.sum_congr rfl fun d _ => ?_)
  rw [truncf_apply, truncf_apply,
    shapeCast_apply x0 shapeCasts_S1024x64_S1024x64 (ix2 p d) (ix2 p d) rfl,
    shapeCast_apply x1 shapeCasts_S2048x64_S2048x64 (ix2 q d) (ix2 q d) rfl]

/-! ## The windows' index maps, decided over the 32 points -/

/-- The first input window sits at the output's block row, the second at the output's block column, both at
    feature block 0; the output's block index is within 8 × 4. -/
theorem idx_facts5 : ∀ t : Fin cfg5.N,
    win5_0.index t (0 : Fin 2) = win5_2.index t (0 : Fin 2) ∧ win5_0.index t (1 : Fin 2) = 0
    ∧ win5_1.index t (0 : Fin 2) = win5_2.index t (1 : Fin 2) ∧ win5_1.index t (1 : Fin 2) = 0
    ∧ win5_2.index t (0 : Fin 2) ≤ 7 ∧ win5_2.index t (1 : Fin 2) ≤ 3 :=
  (by decide +kernel : ∀ t : Fin grid5.N, _)

/-- Every block of the 8 × 4 tiling is some point's. -/
theorem idx_onto5 : ∀ (q0 : Fin 8) (q1 : Fin 4), ∃ t : Fin cfg5.N, win5_2.index t = ![q0.val, q1.val] :=
  (by decide +kernel : ∀ (q0 : Fin 8) (q1 : Fin 4), ∃ t : Fin grid5.N, win5_2.index t = ![q0.val, q1.val])

/-! ## What a point writes back -/

/-- WHAT POINT `t` WRITES BACK is block `t` of the decoder's result on the feature array as the region finds it. -/
theorem flushed5_2_eq (c : Dev nD) (t : Fin cfg5.N) :
    (dat5 (F := Ideal) V c).flushed 2 t
      = ((cfg5.win 2).blk t).view.read (Elt Ideal) (Cert.Spec.recon (V c main_v8)) := by
  show (cfg5.win 2).cut (grid5.coords t) ((dat5 V c).after 2 t) = _
  rw [after5_2]
  unfold out5_2
  rw [View.canon_unit_zero hz2]
  simp only [View.ld_unit_zero (S := S1024x64) hz2, View.ld_unit_zero (S := S2048x64) hz2]
  obtain ⟨e00, e01, e10, e11, b0, b1⟩ := idx_facts5 t
  refine funext fun (j : S1024x2048.Idx) => ?_
  show k5_pay1 (iblk5 V c 0 t) (iblk5 V c 1 t) j = Cert.Spec.recon (V c main_v8) (((cfg5.win 2).blk t).view.emb j)
  obtain ⟨p, q, rfl⟩ : ∃ (p : Fin 1024) (q : Fin 2048), j = ix2 p q := ⟨j 0, j 1, eq_ix2 j⟩
  rw [pay5_apply]
  have hp := p.isLt
  have hq := q.isLt
  have g0' : ((((cfg5.win 2).blk t).view.emb (ix2 p q)) (0 : Fin 2)).val = win5_2.index t (0 : Fin 2) * 1024 + p.val := by
    show win5_2.index t (0 : Fin 2) * 1024 + 1 * p.val = _; omega
  have g1' : ((((cfg5.win 2).blk t).view.emb (ix2 p q)) (1 : Fin 2)).val = win5_2.index t (1 : Fin 2) * 2048 + q.val := by
    show win5_2.index t (1 : Fin 2) * 2048 + 1 * q.val = _; omega
  obtain ⟨gr, gc, hg⟩ : ∃ (gr gc : Fin 8192), ((cfg5.win 2).blk t).view.emb (ix2 p q) = ix2 gr gc :=
    ⟨_, _, eq_ix2 (n0 := 8192) (n1 := 8192) _⟩
  rw [hg] at g0' g1'
  have g0 : gr.val = win5_2.index t (0 : Fin 2) * 1024 + p.val := g0'
  have g1 : gc.val = win5_2.index t (1 : Fin 2) * 2048 + q.val := g1'
  have h0 : ∀ d : Fin 64, iblk5 V c 0 t (ix2 p d) = V c main_v8 (ix2 gr d) := fun d => by
    show V c main_v8 (((cfg5.win 0).blk t).view.emb (ix2 p d)) = _
    refine congrArg (V c main_v8) (funext fun a => Fin.ext ?_)
    match a with
    | ⟨0, _⟩ => show win5_0.index t (0 : Fin 2) * 1024 + 1 * p.val = gr.val; omega
    | ⟨1, _⟩ => show win5_0.index t (1 : Fin 2) * 64 + 1 * d.val = d.val; omega
  have h1 : ∀ d : Fin 64, iblk5 V c 1 t (ix2 q d) = V c main_v8 (ix2 gc d) := fun d => by
    show V c main_v8 (((cfg5.win 1).blk t).view.emb (ix2 q d)) = _
    refine congrArg (V c main_v8) (funext fun a => Fin.ext ?_)
    match a with
    | ⟨0, _⟩ => show win5_1.index t (0 : Fin 2) * 2048 + 1 * q.val = gc.val; omega
    | ⟨1, _⟩ => show win5_1.index t (1 : Fin 2) * 64 + 1 * d.val = d.val; omega
  simp only [h0, h1]
  rw [hg]
  rfl

/-! ## The blocks tile the array -/

/-- An index of the array is in point `t`'s block iff each coordinate is in the block's range on its axis. -/
theorem mem_blk5 (t : Fin cfg5.N) (i : S8192x8192.Idx) :
    i ∈ ((cfg5.win 2).blk t).view.set ↔ ∀ a : Fin 2, win5_2.index t a * S1024x2048.size a ≤ (i a).val
      ∧ (i a).val < win5_2.index t a * S1024x2048.size a + S1024x2048.size a := by
  show i ∈ ((View.whole main_v9).slice (win5_2.rect t)).set ↔ _
  rw [View.set_slice_whole, Rect.mem_set_unit]
  exact Iff.rfl

/-- Every index of the array is in some point's block: the point whose block index is the index's row
    divided by 1024 and column divided by 2048. -/
theorem cover5 (i : S8192x8192.Idx) :
    ∃ t : Fin cfg5.N, (cfg5.win 2).flush t = true ∧ i ∈ ((cfg5.win 2).blk t).view.set := by
  have hi0 : (i 0).val < 8192 := (i 0).isLt
  have hi1 : (i 1).val < 8192 := (i 1).isLt
  obtain ⟨t, ht⟩ := idx_onto5 ⟨(i 0).val / 1024, by omega⟩ ⟨(i 1).val / 2048, by omega⟩
  have q0 : win5_2.index t (0 : Fin 2) = (i 0).val / 1024 := congrFun ht 0
  have q1 : win5_2.index t (1 : Fin 2) = (i 1).val / 2048 := congrFun ht 1
  refine ⟨t, flush5_2 t, ?_⟩
  rw [mem_blk5]
  intro a
  match a with
  | ⟨0, _⟩ =>
    show win5_2.index t (0 : Fin 2) * 1024 ≤ (i 0).val ∧ (i 0).val < win5_2.index t (0 : Fin 2) * 1024 + 1024
    omega
  | ⟨1, _⟩ =>
    show win5_2.index t (1 : Fin 2) * 2048 ≤ (i 1).val ∧ (i 1).val < win5_2.index t (1 : Fin 2) * 2048 + 2048
    omega

end V5

/-! ## The array after the run -/

/-- THE ARRAY after the last point: every block written is the block of one function of the arrays the region
    found, and the blocks cover the array. -/
theorem final5 (c : Dev nD) :
    (dat5 (F := Ideal) V c).arrAt 2 cfg5.N = Cert.Spec.recon (V c main_v8) :=
  (dat5 V c).arrAt_eq_of_cover 2 _ (fun t _ => V5.flushed5_2_eq V c t) V5.cover5

end Cert.KernelIdeal.Hand

end
-- ==== Proof.Region6ValueA.lean ====
import proofs.«178500_j188978561286_1_alg».proof.Proof.Region6
import proofs.«178500_j188978561286_1_alg».proof.Proof.Spec
import proofs.«178500_j188978561286_1_alg».proof.Proof.LibDotRecord
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.Sem
open Idealize.ShloMosaic.Pipeline (Dat Cfg Window cellOf)
open Cert.KernelIdeal.Gen

/-! ## What the three runs leave, as values of the payloads (at any float interpretation) -/

section Pieces
variable {F : FTy → Type} [FloatOps F]

theorem hz6 : (![0, 0] : Fin 2 → Nat) = fun _ => 0 := funext fun a => by fin_cases a <;> rfl

/-- A middle tile leaves in the accumulator the tile's update of what it held. -/
theorem sB6 (c : Dev nD) (i : grid6.Coords) (arg2 : Memref sig .tc .vmem S2048x2048 .bf16) (harg2 : arg2.IsWhole) (arg3 : Memref sig .tc .vmem S2048x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole) (hc0 : ¬cond6_0 i) (hc1 : ¬cond6_1 i)
    (x0 : Vec F S2048x2048 .bf16) (x1 : Vec F S2048x128 .f32) (x2 : Vec F S128x64 .f32) (x3 : Vec F S1x64 .f32) (prev : Vec F S2048x64 .f32) :
    readS6 (kernelRun6_B (F := F) c i arg2 harg2 arg3 harg3 arg4 harg4 arg5 harg5 arg6 harg6 arg7 harg7 hc0 hc1 x0 x1 x2 x3 prev).2.1 = k6_pay2 x1 x2 x0 prev := by
  funext y
  unfold readS6
  rw [View.read_writes_junk_apply_eq_canon]
  unfold kernelRun6_B
  dsimp only
  rw [View.canon_unit_zero hz6]
  simp only [View.readAt_eq_ld, harg2.read_unread, harg3.read_unread, harg4.read_unread, harg5.read_unread, harg7.read_unread, View.ld_unit_zero (S := S2048x2048) hz6, View.ld_unit_zero (S := S2048x128) hz6, View.ld_unit_zero (S := S128x64) hz6, View.ld_unit_zero (S := S2048x64) hz6, View.ld_unit_zero (S := S1x64) hz6]

/-- The first tile of a row leaves the tile's update of the cleared accumulator. -/
theorem sA6 (c : Dev nD) (i : grid6.Coords) (arg2 : Memref sig .tc .vmem S2048x2048 .bf16) (harg2 : arg2.IsWhole) (arg3 : Memref sig .tc .vmem S2048x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole) (hc0 : cond6_0 i) (hc1 : ¬cond6_1 i)
    (x0 : Vec F S2048x2048 .bf16) (x1 : Vec F S2048x128 .f32) (x2 : Vec F S128x64 .f32) (x3 : Vec F S1x64 .f32) :
    readS6 (kernelRun6_A (F := F) c i arg2 harg2 arg3 harg3 arg4 harg4 arg5 harg5 arg6 harg6 arg7 harg7 hc0 hc1 x0 x1 x2 x3).2.1 = k6_pay2 x1 x2 x0 (k6_pay1 (F := F)) := by
  funext y
  unfold readS6
  rw [View.read_writes_junk_apply_eq_canon]
  unfold kernelRun6_A
  dsimp only
  sl_unfold_words
  rw [View.canon_cons_unit_zero (S := S2048x64) hz6, View.readCov_unit_zero (S := S2048x64) _ hz6]
  simp only [View.readAt_eq_ld, harg2.read_unread, harg3.read_unread, harg4.read_unread, harg5.read_unread, harg7.read_unread, View.ld_unit_zero (S := S2048x2048) hz6, View.ld_unit_zero (S := S2048x128) hz6, View.ld_unit_zero (S := S128x64) hz6, View.ld_unit_zero (S := S2048x64) hz6, View.ld_unit_zero (S := S1x64) hz6]

/-- The last tile of a row leaves the same update in the accumulator, -/
theorem sC6 (c : Dev nD) (i : grid6.Coords) (arg2 : Memref sig .tc .vmem S2048x2048 .bf16) (harg2 : arg2.IsWhole) (arg3 : Memref sig .tc .vmem S2048x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole) (hc0 : ¬cond6_0 i) (hc1 : cond6_1 i)
    (x0 : Vec F S2048x2048 .bf16) (x1 : Vec F S2048x128 .f32) (x2 : Vec F S128x64 .f32) (x3 : Vec F S1x64 .f32) (prev : Vec F S2048x64 .f32) :
    readS6 (kernelRun6_C (F := F) c i arg2 harg2 arg3 harg3 arg4 harg4 arg5 harg5 arg6 harg6 arg7 harg7 hc0 hc1 x0 x1 x2 x3 prev).2.1 = k6_pay2 x1 x2 x0 prev := by
  funext y
  unfold readS6
  rw [View.read_writes_junk_apply_eq_canon]
  unfold kernelRun6_C
  dsimp only
  sl_unfold_words
  rw [View.canon_unit_zero hz6]
  simp only [View.readAt_eq_ld, harg2.read_unread, harg3.read_unread, harg4.read_unread, harg5.read_unread, harg7.read_unread, View.ld_unit_zero (S := S2048x2048) hz6, View.ld_unit_zero (S := S2048x128) hz6, View.ld_unit_zero (S := S128x64) hz6, View.ld_unit_zero (S := S2048x64) hz6, View.ld_unit_zero (S := S1x64) hz6]

/-- and in the output's buffer the finished accumulator plus the bias row, through the rectifier. -/
theorem oC6 (c : Dev nD) (i : grid6.Coords) (arg2 : Memref sig .tc .vmem S2048x2048 .bf16) (harg2 : arg2.IsWhole) (arg3 : Memref sig .tc .vmem S2048x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole) (hc0 : ¬cond6_0 i) (hc1 : cond6_1 i)
    (x0 : Vec F S2048x2048 .bf16) (x1 : Vec F S2048x128 .f32) (x2 : Vec F S128x64 .f32) (x3 : Vec F S1x64 .f32) (prev : Vec F S2048x64 .f32) :
    readO6 (kernelRun6_C (F := F) c i arg2 harg2 arg3 harg3 arg4 harg4 arg5 harg5 arg6 harg6 arg7 harg7 hc0 hc1 x0 x1 x2 x3 prev).1 = k6_pay3 (k6_pay2 x1 x2 x0 prev) x3 := by
  funext y
  unfold readO6
  rw [View.read_writes_junk_apply_eq_canon]
  unfold kernelRun6_C
  dsimp only
  sl_unfold_words
  rw [View.canon_unit_zero hz6, View.readCov_unit_zero (S := S2048x64) _ hz6]
  simp only [View.readAt_eq_ld, harg2.read_unread, harg3.read_unread, harg4.read_unread, harg5.read_unread, harg7.read_unread, View.ld_unit_zero (S := S2048x2048) hz6, View.ld_unit_zero (S := S2048x128) hz6, View.ld_unit_zero (S := S128x64) hz6, View.ld_unit_zero (S := S2048x64) hz6, View.ld_unit_zero (S := S1x64) hz6]

end Pieces

/-! ## The payloads on the extended reals, entry by entry -/

section IdealPay

/-- The clearing store's payload is zero at every entry. -/
theorem pay1_apply_6 (y : S2048x64.Idx) : k6_pay1 (F := Ideal) y = 0 := by
  unfold k6_pay1
  exact (congrFun (shapeCast_self _ _) y).trans Ideal.ofBits_zero_f32

/-- One tile's update at entry (p, q): the accumulator's entry plus the tile product's, the inner product first. -/
theorem pay2_apply_6 (X : FVec Ideal S2048x128 .f32) (W : FVec Ideal S128x64 .f32) (NA : FVec Ideal S2048x2048 .bf16)
    (acc : FVec Ideal S2048x64 .f32) (p : Fin 2048) (q : Fin 64) :
    k6_pay2 (F := Ideal) X W NA acc (ix2 p q)
      = acc (ix2 p q) + ∑ k : Fin 2048, NA (ix2 p k) * ∑ d : Fin 128, X (ix2 k d) * W (ix2 d q) := by
  unfold k6_pay2
  refine (congrFun (shapeCast_self _ _) (ix2 p q)).trans ?_
  refine congrArg (acc (ix2 p q) + ·) ?_
  refine (DotRecord.matmul_zero_apply (M := 2048) (K := 2048) (N := 64) dot_S2048x2048_S2048x64_S2048x64_1_0_0_1_n_n rfl rfl rfl rfl rfl rfl _ _ none p q).trans ?_
  refine Finset.sum_congr rfl fun k _ => ?_
  refine congr (congrArg (· * ·) (congrFun (shapeCast_self NA _) (ix2 p k))) ?_
  refine (DotRecord.matmul_zero_apply (M := 2048) (K := 128) (N := 64) dot_S2048x128_S128x64_S2048x64_1_0_0_1_n_n rfl rfl rfl rfl rfl rfl _ _ none k q).trans ?_
  refine Finset.sum_congr rfl fun d _ => ?_
  exact congrArg (· * W (ix2 d q)) (congrFun (shapeCast_self X _) (ix2 k d))

/-- The rectifier as the kernel spells it on one extended real: compare with zero, keep or scale by the slope word. -/
theorem lrelu_scalar_6 (v : EReal) :
    Scalar.select (Ideal.cmp .oge v (Ideal.ofBits .f32 0x00000000#32)) v (Ideal.ofBits .f32 0x3C23D70A#32 * v) = Cert.Spec.lrelu v := by
  unfold Cert.Spec.lrelu Cert.Spec.slope Scalar.select Ideal.cmp
  rw [Ideal.ofBits_zero_f32]
  by_cases h : (0 : EReal) ≤ v
  · rw [if_pos h]; simp only [decide_eq_true h]; rfl
  · rw [if_neg h]; simp only [decide_eq_false h]; rfl

/-- The finishing payload at entry (p, q): the rectifier of the accumulator's entry plus the bias row's entry q. -/
theorem pay3_apply_6 (acc : FVec Ideal S2048x64 .f32) (b : FVec Ideal S1x64 .f32) (p : Fin 2048) (q : Fin 64) :
    k6_pay3 (F := Ideal) acc b (ix2 p q) = Cert.Spec.lrelu (acc (ix2 p q) + b (ix2 (0 : Fin 1) q)) := by
  have hb : broadcastTo S2048x64 (shapeCast S1x64 b shapeCasts_S1x64_S1x64) broadcasts_S1x64_S2048x64 (ix2 p q) = b (ix2 (0 : Fin 1) q) :=
    (DotRecord.broadcastTo_1b_ab_apply (a := 2048) (b := 64) _ broadcasts_S1x64_S2048x64 p q).trans (congrFun (shapeCast_self b _) _)
  unfold k6_pay3
  refine Eq.trans ?_ (lrelu_scalar_6 (acc (ix2 p q) + b (ix2 (0 : Fin 1) q)))
  rw [← hb]
  rfl

end IdealPay

end Cert.KernelIdeal.Hand

end
-- ==== Proof.Region6Value.lean ====
import proofs.«178500_j188978561286_1_alg».proof.Proof.Region6ValueA
import proofs.«178500_j188978561286_1_alg».proof.Proof.LibFourTiles

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.Sem
open Idealize.ShloMosaic.Pipeline (Dat Cfg Window cellOf)
open Cert.KernelIdeal.Gen

/-! ## The accumulator, point by point, as a fold of tile updates -/

section Fold
variable (V : (c : Dev nD) → (b : Ref sig .tc) → Buf (Elt Ideal) ((c : Thread nD τ).loc b))

/-- One tile's update of an accumulator at point `t`: its entry plus the entry of (adjacency block) · ((feature block) · weights). -/
abbrev tileUpd6 (c : Dev nD) (t : Fin cfg6.N) (acc : FVec Ideal S2048x64 .f32) : FVec Ideal S2048x64 .f32 :=
  k6_pay2 (F := Ideal) (iblk6 V c 1 t) (iblk6 V c 2 t) (iblk6 V c 0 t) acc

/-- The three runs' values at point `t`. -/
theorem sA6_at (c : Dev nD) (t : Fin cfg6.N) (h0 : t.val % 4 = 0) :
    readS6 (runA6 V c t h0).2.1 = tileUpd6 V c t (k6_pay1 (F := Ideal)) :=
  sA6 c (grid6.coords t) (ms6_0 t) (hs6_0 t) (ms6_1 t) (hs6_1 t) (ms6_2 t) (hs6_2 t) (ms6_3 t) (hs6_3 t) (ms6_4 t) (hs6_4 t) scM6_0 (Memref.isWhole_whole _) ((hcond6_0 t).mpr h0) (fun h => by have h3 := (hcond6_1 t).mp h; omega) (iblk6 V c 0 t) (iblk6 V c 1 t) (iblk6 V c 2 t) (iblk6 V c 3 t)
theorem sB6_at (c : Dev nD) (t : Fin cfg6.N) (h0 : ¬t.val % 4 = 0) (h1 : ¬t.val % 4 = 3) (prev : FVec Ideal S2048x64 .f32) :
    readS6 (runB6 V c t h0 h1 prev).2.1 = tileUpd6 V c t prev :=
  sB6 c (grid6.coords t) (ms6_0 t) (hs6_0 t) (ms6_1 t) (hs6_1 t) (ms6_2 t) (hs6_2 t) (ms6_3 t) (hs6_3 t) (ms6_4 t) (hs6_4 t) scM6_0 (Memref.isWhole_whole _) (fun h => h0 ((hcond6_0 t).mp h)) (fun h => h1 ((hcond6_1 t).mp h)) (iblk6 V c 0 t) (iblk6 V c 1 t) (iblk6 V c 2 t) (iblk6 V c 3 t) prev
theorem sC6_at (c : Dev nD) (t : Fin cfg6.N) (h0 : ¬t.val % 4 = 0) (h1 : t.val % 4 = 3) (prev : FVec Ideal S2048x64 .f32) :
    readS6 (runC6 V c t h0 h1 prev).2.1 = tileUpd6 V c t prev :=
  sC6 c (grid6.coords t) (ms6_0 t) (hs6_0 t) (ms6_1 t) (hs6_1 t) (ms6_2 t) (hs6_2 t) (ms6_3 t) (hs6_3 t) (ms6_4 t) (hs6_4 t) scM6_0 (Memref.isWhole_whole _) (fun h => h0 ((hcond6_0 t).mp h)) ((hcond6_1 t).mpr h1) (iblk6 V c 0 t) (iblk6 V c 1 t) (iblk6 V c 2 t) (iblk6 V c 3 t) prev
theorem oC6_at (c : Dev nD) (t : Fin cfg6.N) (h0 : ¬t.val % 4 = 0) (h1 : t.val % 4 = 3) (prev : FVec Ideal S2048x64 .f32) :
    readO6 (runC6 V c t h0 h1 prev).1 = k6_pay3 (F := Ideal) (tileUpd6 V c t prev) (iblk6 V c 3 t) :=
  oC6 c (grid6.coords t) (ms6_0 t) (hs6_0 t) (ms6_1 t) (hs6_1 t) (ms6_2 t) (hs6_2 t) (ms6_3 t) (hs6_3 t) (ms6_4 t) (hs6_4 t) scM6_0 (Memref.isWhole_whole _) (fun h => h0 ((hcond6_0 t).mp h)) ((hcond6_1 t).mpr h1) (iblk6 V c 0 t) (iblk6 V c 1 t) (iblk6 V c 2 t) (iblk6 V c 3 t) prev

/-- At the first tile of a row the accumulator ends at the update of the zero block. -/
theorem acc6_first (c : Dev nD) (n : ℕ) (h : n < cfg6.N) (h0 : n % 4 = 0) :
    (outsAt6 V c n h).2 = tileUpd6 V c ⟨n, h⟩ (k6_pay1 (F := Ideal)) := by
  have e0 : outsAt6 V c n h = stepAt6 V c ⟨n, h⟩ (prevAt6 V c ⟨n, h⟩) := outsAt6_eq V c ⟨n, h⟩
  have e1 := stepAt6_A V c ⟨n, h⟩ (prevAt6 V c ⟨n, h⟩) h0
  have e3 : (outsAt6 V c n h).2 = readS6 (runA6 V c ⟨n, h⟩ h0).2.1 := by rw [e0, e1]
  exact e3.trans (sA6_at V c ⟨n, h⟩ h0)

/-- At every other point it ends at the update of what the point before left. -/
theorem acc6_step (c : Dev nD) (n : ℕ) (h : n + 1 < cfg6.N) (h0 : ¬(n + 1) % 4 = 0) :
    (outsAt6 V c (n + 1) h).2 = tileUpd6 V c ⟨n + 1, h⟩ (outsAt6 V c n (Nat.lt_of_succ_lt h)).2 := by
  have e0 : outsAt6 V c (n + 1) h = stepAt6 V c ⟨n + 1, h⟩ (outsAt6 V c n (Nat.lt_of_succ_lt h)).2 := rfl
  by_cases h1 : (n + 1) % 4 = 3
  · have e1 := stepAt6_C V c ⟨n + 1, h⟩ (outsAt6 V c n (Nat.lt_of_succ_lt h)).2 h0 h1
    have e3 : (outsAt6 V c (n + 1) h).2 = readS6 (runC6 V c ⟨n + 1, h⟩ h0 h1 (outsAt6 V c n (Nat.lt_of_succ_lt h)).2).2.1 := by rw [e0, e1]
    exact e3.trans (sC6_at V c ⟨n + 1, h⟩ h0 h1 _)
  · have e1 := stepAt6_B V c ⟨n + 1, h⟩ (outsAt6 V c n (Nat.lt_of_succ_lt h)).2 h0 h1
    have e3 : (outsAt6 V c (n + 1) h).2 = readS6 (runB6 V c ⟨n + 1, h⟩ h0 h1 (outsAt6 V c n (Nat.lt_of_succ_lt h)).2).2.1 := by rw [e0, e1]
    exact e3.trans (sB6_at V c ⟨n + 1, h⟩ h0 h1 _)

/-- So at the last tile of block row `i` the accumulator is the four updates of the zero block, in order. -/
theorem acc6_last (c : Dev nD) (i : ℕ) (h : 4 * i + 3 < cfg6.N) :
    (outsAt6 V c (4 * i + 3) h).2
      = tileUpd6 V c ⟨4 * i + 3, h⟩ (tileUpd6 V c ⟨4 * i + 2, by omega⟩ (tileUpd6 V c ⟨4 * i + 1, by omega⟩
          (tileUpd6 V c ⟨4 * i + 0, by omega⟩ (k6_pay1 (F := Ideal))))) :=
  Pipeline.eq_accAt (fun n h => (outsAt6 V c n h).2) 4 (fun n h => tileUpd6 V c ⟨n, h⟩ (k6_pay1 (F := Ideal)))
    (fun n h acc => tileUpd6 V c ⟨n, h⟩ acc) (acc6_first V c) (acc6_step V c) i 3 (by decide) h

/-- At that point the output's buffer holds the finishing payload of the accumulator and the bias row. -/
theorem out6_last (c : Dev nD) (t : Fin cfg6.N) (h3 : t.val % 4 = 3) :
    (outsAt6 V c t.val t.isLt).1 = k6_pay3 (F := Ideal) (outsAt6 V c t.val t.isLt).2 (iblk6 V c 3 t) := by
  have h0 : ¬t.val % 4 = 0 := by omega
  have e := (outsAt6_eq V c t).trans (stepAt6_C V c t _ h0 h3)
  have e1 : (outsAt6 V c t.val t.isLt).1 = readO6 (runC6 V c t h0 h3 (prevAt6 V c t)).1 := by rw [e]
  have e2 : (outsAt6 V c t.val t.isLt).2 = readS6 (runC6 V c t h0 h3 (prevAt6 V c t)).2.1 := by rw [e]
  rw [e1, e2, oC6_at V c t h0 h3, sC6_at V c t h0 h3]

end Fold

/-! ## The windows' blocks as entries of the arrays -/

section Blocks
variable (V : (c : Dev nD) → (b : Ref sig .tc) → Buf (Elt Ideal) ((c : Thread nD τ).loc b))

/-- The four arrays the region reads, as matrices of extended reals. -/
abbrev NA6 (c : Dev nD) : Cert.Spec.Mat 8192 8192 := V c main_v2
abbrev X6 (c : Dev nD) : Cert.Spec.Mat 8192 128 := V c main_v6
abbrev W6 (c : Dev nD) : Cert.Spec.Mat 128 64 := V c main_arg8
abbrev Brow6 (c : Dev nD) : Cert.Spec.Mat 1 64 := V c main_v10

/-- The block indices, over the grid: point `t` is tile `t % 4` of block row `t / 4`. -/
theorem index6_0 : ∀ t : Fin cfg6.N, win6_0.index t 0 = t.val / 4 ∧ win6_0.index t 1 = t.val % 4 :=
  (by decide +kernel : ∀ t : Fin grid6.N, win6_0.index t 0 = t.val / 4 ∧ win6_0.index t 1 = t.val % 4)
theorem index6_1 : ∀ t : Fin cfg6.N, win6_1.index t 0 = t.val % 4 ∧ win6_1.index t 1 = 0 :=
  (by decide +kernel : ∀ t : Fin grid6.N, win6_1.index t 0 = t.val % 4 ∧ win6_1.index t 1 = 0)
theorem index6_2 : ∀ t : Fin cfg6.N, win6_2.index t 0 = 0 ∧ win6_2.index t 1 = 0 :=
  (by decide +kernel : ∀ t : Fin grid6.N, win6_2.index t 0 = 0 ∧ win6_2.index t 1 = 0)
theorem index6_3 : ∀ t : Fin cfg6.N, win6_3.index t 0 = 0 ∧ win6_3.index t 1 = 0 :=
  (by decide +kernel : ∀ t : Fin grid6.N, win6_3.index t 0 = 0 ∧ win6_3.index t 1 = 0)
theorem index6_4 : ∀ t : Fin cfg6.N, win6_4.index t 0 = t.val / 4 ∧ win6_4.index t 1 = 0 :=
  (by decide +kernel : ∀ t : Fin grid6.N, win6_4.index t 0 = t.val / 4 ∧ win6_4.index t 1 = 0)
/-- The output's blocks are never cut. -/
theorem xsize6_4 : ∀ t : Fin cfg6.N, win6_4.xsize (grid6.coords t) 0 = 2048 ∧ win6_4.xsize (grid6.coords t) 1 = 64 :=
  (by decide +kernel : ∀ t : Fin grid6.N, win6_4.xsize (grid6.coords t) 0 = 2048 ∧ win6_4.xsize (grid6.coords t) 1 = 64)

/-- Entry (p, r) of the adjacency block at tile `s` of block row `I` is entry (2048 I + p, 2048 s + r) of the array. -/
theorem iblk6_0_apply (c : Dev nD) (t : Fin cfg6.N) (I s : ℕ) (hI : t.val / 4 = I) (hs : t.val % 4 = s) (hI4 : I < 4) (hs4 : s < 4)
    (p r : Fin 2048) :
    iblk6 V c 0 t (ix2 p r) = NA6 V c (ix2 (⟨2048 * I + p.val, by omega⟩ : Fin 8192) (⟨2048 * s + r.val, by omega⟩ : Fin 8192)) := by
  unfold iblk6
  rw [View.read_apply]
  show V c main_v2 _ = V c main_v2 _
  congr 1
  funext a
  apply Fin.ext
  match a with
  | ⟨0, _⟩ => show win6_0.index t 0 * 2048 + 1 * p.val = 2048 * I + p.val; rw [(index6_0 t).1, hI]; omega
  | ⟨1, _⟩ => show win6_0.index t 1 * 2048 + 1 * r.val = 2048 * s + r.val; rw [(index6_0 t).2, hs]; omega

/-- Entry (r, d) of the feature block at tile `s` is entry (2048 s + r, d) of the array. -/
theorem iblk6_1_apply (c : Dev nD) (t : Fin cfg6.N) (s : ℕ) (hs : t.val % 4 = s) (hs4 : s < 4) (r : Fin 2048) (d : Fin 128) :
    iblk6 V c 1 t (ix2 r d) = X6 V c (ix2 (⟨2048 * s + r.val, by omega⟩ : Fin 8192) d) := by
  unfold iblk6
  rw [View.read_apply]
  show V c main_v6 _ = V c main_v6 _
  congr 1
  funext a
  apply Fin.ext
  match a with
  | ⟨0, _⟩ => show win6_1.index t 0 * 2048 + 1 * r.val = 2048 * s + r.val; rw [(index6_1 t).1, hs]; omega
  | ⟨1, _⟩ => show win6_1.index t 1 * 128 + 1 * d.val = d.val; rw [(index6_1 t).2]; omega

/-- The weights' one block is the array. -/
theorem iblk6_2_apply (c : Dev nD) (t : Fin cfg6.N) (d : Fin 128) (q : Fin 64) :
    iblk6 V c 2 t (ix2 d q) = W6 V c (ix2 d q) := by
  unfold iblk6
  rw [View.read_apply]
  show V c main_arg8 _ = V c main_arg8 _
  congr 1
  funext a
  apply Fin.ext
  match a with
  | ⟨0, _⟩ => show win6_2.index t 0 * 128 + 1 * d.val = d.val; rw [(index6_2 t).1]; omega
  | ⟨1, _⟩ => show win6_2.index t 1 * 64 + 1 * q.val = q.val; rw [(index6_2 t).2]; omega

/-- The bias row's one block is the array. -/
theorem iblk6_3_apply (c : Dev nD) (t : Fin cfg6.N) (z : Fin 1) (q : Fin 64) :
    iblk6 V c 3 t (ix2 z q) = Brow6 V c (ix2 z q) := by
  unfold iblk6
  rw [View.read_apply]
  show V c main_v10 _ = V c main_v10 _
  congr 1
  funext a
  apply Fin.ext
  match a with
  | ⟨0, _⟩ => show win6_3.index t 0 * 1 + 1 * z.val = z.val; rw [(index6_3 t).1]; omega
  | ⟨1, _⟩ => show win6_3.index t 1 * 64 + 1 * q.val = q.val; rw [(index6_3 t).2]; omega

/-- One tile's update at entry (p, q), over the arrays: tile `s` of block row `I` adds the part of row 2048 I + p's
    product that runs over the 2048 neighbours 2048 s … 2048 s + 2047. -/
theorem tileUpd6_apply (c : Dev nD) (t : Fin cfg6.N) (I s : ℕ) (hI : t.val / 4 = I) (hs : t.val % 4 = s) (hI4 : I < 4) (hs4 : s < 4)
    (acc : FVec Ideal S2048x64 .f32) (p : Fin 2048) (q : Fin 64) :
    tileUpd6 V c t acc (ix2 p q)
      = acc (ix2 p q) + ∑ r : Fin 2048, NA6 V c (ix2 (⟨2048 * I + p.val, by omega⟩ : Fin 8192) (⟨2048 * s + r.val, by omega⟩ : Fin 8192))
          * ∑ d : Fin 128, X6 V c (ix2 (⟨2048 * s + r.val, by omega⟩ : Fin 8192) d) * W6 V c (ix2 d q) := by
  refine (pay2_apply_6 _ _ _ acc p q).trans ?_
  refine congrArg (acc (ix2 p q) + ·) ?_
  refine Finset.sum_congr rfl fun r _ => ?_
  rw [iblk6_0_apply V c t I s hI hs hI4 hs4 p r]
  congr 1
  refine Finset.sum_congr rfl fun d _ => ?_
  rw [iblk6_1_apply V c t s hs hs4 r d, iblk6_2_apply V c t d q]

end Blocks

/-! ## The output array after the run -/

section Final
variable (V : (c : Dev nD) → (b : Ref sig .tc) → Buf (Elt Ideal) ((c : Thread nD τ).loc b))

/-- What the output's buffer holds at the last tile of block row `i`, at entry (p, q): the layer at row 2048 i + p. -/
theorem out6_val (c : Dev nD) (i : ℕ) (h : 4 * i + 3 < cfg6.N) (p : Fin 2048) (q : Fin 64) :
    (outsAt6 V c (4 * i + 3) h).1 (ix2 p q)
      = Cert.Spec.layer (NA6 V c) (X6 V c) (W6 V c) (Brow6 V c)
          (ix2 (⟨2048 * i + p.val, by have hN : cfg6.N = 16 := N_6; omega⟩ : Fin 8192) q) := by
  have hN : cfg6.N = 16 := N_6
  have hi : i < 4 := by omega
  have e1 := out6_last V c ⟨4 * i + 3, h⟩ (by show (4 * i + 3) % 4 = 3; omega)
  refine (congrFun e1 (ix2 p q)).trans ?_
  refine (pay3_apply_6 _ _ p q).trans ?_
  show Cert.Spec.lrelu (_ + _) = Cert.Spec.lrelu ((∑ k : Fin 8192, NA6 V c (ix2 (⟨2048 * i + p.val, by omega⟩ : Fin 8192) k)
    * ∑ d : Fin 128, X6 V c (ix2 k d) * W6 V c (ix2 d q)) + Brow6 V c (ix2 (0 : Fin 1) q))
  rw [iblk6_3_apply V c _ 0 q]
  refine congrArg Cert.Spec.lrelu ?_
  congr 1
  refine (congrFun (acc6_last V c i h) (ix2 p q)).trans ?_
  rw [tileUpd6_apply V c ⟨4 * i + 3, h⟩ i 3 (by show (4 * i + 3) / 4 = i; omega) (by show (4 * i + 3) % 4 = 3; omega) hi (by decide) _ p q, tileUpd6_apply V c ⟨4 * i + 2, by omega⟩ i 2 (by show (4 * i + 2) / 4 = i; omega) (by show (4 * i + 2) % 4 = 2; omega) hi (by decide) _ p q, tileUpd6_apply V c ⟨4 * i + 1, by omega⟩ i 1 (by show (4 * i + 1) / 4 = i; omega) (by show (4 * i + 1) % 4 = 1; omega) hi (by decide) _ p q, tileUpd6_apply V c ⟨4 * i + 0, by omega⟩ i 0 (by show (4 * i + 0) / 4 = i; omega) (by show (4 * i + 0) % 4 = 0; omega) hi (by decide) _ p q, pay1_apply_6]
  exact (sum_four_tiles (fun k : Fin 8192 => NA6 V c (ix2 (⟨2048 * i + p.val, by omega⟩ : Fin 8192) k)
    * ∑ d : Fin 128, X6 V c (ix2 k d) * W6 V c (ix2 d q))).symm

/-- Every write-back writes the layer's block. -/
theorem flushed_eq6 (c : Dev nD) (t : Fin cfg6.N) (hf : (cfg6.win 4).flush t = true) :
    (dat6 V c).flushed 4 t
      = ((cfg6.win 4).blk t).view.read (Elt Ideal) (Cert.Spec.layer (NA6 V c) (X6 V c) (W6 V c) (Brow6 V c)) := by
  have h3 : t.val % 4 = 3 := (flush6_4 t).mp hf
  have hN : cfg6.N = 16 := N_6
  obtain ⟨n, hn⟩ := t
  obtain ⟨i, rfl⟩ : ∃ i, n = 4 * i + 3 := ⟨n / 4, by dsimp only at h3; omega⟩
  funext y
  obtain ⟨p, q, rfl⟩ : ∃ (p : Fin 2048) (q : Fin 64), y = ix2 p q := ⟨y 0, y 1, eq_ix2 y⟩
  show (dat6 V c).after 4 ⟨4 * i + 3, hn⟩ (ix2 p q) = _
  rw [after6_4, View.read_apply]
  refine (out6_val V c i hn p q).trans ?_
  show Cert.Spec.layer (NA6 V c) (X6 V c) (W6 V c) (Brow6 V c) _ = Cert.Spec.layer (NA6 V c) (X6 V c) (W6 V c) (Brow6 V c) _
  congr 1
  funext a
  apply Fin.ext
  match a with
  | ⟨0, _⟩ =>
    show 2048 * i + p.val = win6_4.index ⟨4 * i + 3, hn⟩ 0 * 2048 + 1 * p.val
    rw [(index6_4 ⟨4 * i + 3, hn⟩).1]
    show 2048 * i + p.val = (4 * i + 3) / 4 * 2048 + 1 * p.val
    omega
  | ⟨1, _⟩ =>
    show q.val = win6_4.index ⟨4 * i + 3, hn⟩ 1 * 64 + 1 * q.val
    rw [(index6_4 ⟨4 * i + 3, hn⟩).2]
    omega

end Final

section Final2
variable (V : (c : Dev nD) → (b : Ref sig .tc) → Buf (Elt Ideal) ((c : Thread nD τ).loc b))

/-- The four write-backs cover the output array: row `r` lies in the block written at the last tile of block row `r / 2048`. -/
theorem cover6_4' (c : Dev nD) (i : ((cfg6.win 4).arr.view.loc (c.tc : Thread nD τ)).2.ty.Idx) :
    ∃ t : Fin cfg6.N, (cfg6.win 4).flush t = true ∧ i ∈ ((cfg6.win 4).blk t).view.set := by
  have h0 : (i 0 : ℕ) < 8192 := (i 0).isLt
  have h1 : (i 1 : ℕ) < 64 := (i 1).isLt
  have hN : cfg6.N = 16 := N_6
  have ht : 4 * ((i 0 : ℕ) / 2048) + 3 < cfg6.N := by omega
  refine ⟨⟨4 * ((i 0 : ℕ) / 2048) + 3, ht⟩, (flush6_4 _).mpr (by show (4 * ((i 0 : ℕ) / 2048) + 3) % 4 = 3; omega), ?_⟩
  show i ∈ ((View.whole main_v11).slice (win6_4.rect ⟨4 * ((i 0 : ℕ) / 2048) + 3, ht⟩)).set
  rw [View.set_slice_whole, Rect.mem_set_unit]
  intro a
  match a with
  | ⟨0, _⟩ =>
    show win6_4.index ⟨4 * ((i 0 : ℕ) / 2048) + 3, ht⟩ 0 * win6_4.size 0 ≤ (i 0 : ℕ)
      ∧ (i 0 : ℕ) < win6_4.index ⟨4 * ((i 0 : ℕ) / 2048) + 3, ht⟩ 0 * win6_4.size 0 + win6_4.xsize (grid6.coords ⟨4 * ((i 0 : ℕ) / 2048) + 3, ht⟩) 0
    rw [(index6_4 ⟨4 * ((i 0 : ℕ) / 2048) + 3, ht⟩).1, (xsize6_4 ⟨4 * ((i 0 : ℕ) / 2048) + 3, ht⟩).1]
    show (4 * ((i 0 : ℕ) / 2048) + 3) / 4 * 2048 ≤ (i 0 : ℕ) ∧ (i 0 : ℕ) < (4 * ((i 0 : ℕ) / 2048) + 3) / 4 * 2048 + 2048
    omega
  | ⟨1, _⟩ =>
    show win6_4.index ⟨4 * ((i 0 : ℕ) / 2048) + 3, ht⟩ 1 * win6_4.size 1 ≤ (i 1 : ℕ)
      ∧ (i 1 : ℕ) < win6_4.index ⟨4 * ((i 0 : ℕ) / 2048) + 3, ht⟩ 1 * win6_4.size 1 + win6_4.xsize (grid6.coords ⟨4 * ((i 0 : ℕ) / 2048) + 3, ht⟩) 1
    rw [(index6_4 ⟨4 * ((i 0 : ℕ) / 2048) + 3, ht⟩).2, (xsize6_4 ⟨4 * ((i 0 : ℕ) / 2048) + 3, ht⟩).2]
    omega

/-- THE REGION'S VALUE: after the run the output array holds the layer of the four arrays the region was entered with. -/
theorem final6 (c : Dev nD) :
    (dat6 (F := Ideal) V c).arrAt 4 cfg6.N = Cert.Spec.layer (V c main_v2) (V c main_v6) (V c main_arg8) (V c main_v10) :=
  (dat6 V c).arrAt_eq_of_cover 4 _ (flushed_eq6 V c) (cover6_4' c)

end Final2

end Cert.KernelIdeal.Hand

end
-- ==== Proof.Region7ValueA.lean ====
import proofs.«178500_j188978561286_1_alg».proof.Proof.Region7
import proofs.«178500_j188978561286_1_alg».proof.Proof.Spec
import proofs.«178500_j188978561286_1_alg».proof.Proof.LibDotRecord
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.Sem
open Idealize.ShloMosaic.Pipeline (Dat Cfg Window cellOf)
open Cert.KernelIdeal.Gen

/-! ## What the three runs leave, as values of the payloads (at any float interpretation) -/

section Pieces
variable {F : FTy → Type} [FloatOps F]

theorem hz7 : (![0, 0] : Fin 2 → Nat) = fun _ => 0 := funext fun a => by fin_cases a <;> rfl

/-- A middle tile leaves in the accumulator the tile's update of what it held. -/
theorem sB7 (c : Dev nD) (i : grid7.Coords) (arg2 : Memref sig .tc .vmem S2048x2048 .bf16) (harg2 : arg2.IsWhole) (arg3 : Memref sig .tc .vmem S2048x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬cond7_0 i) (hc1 : ¬cond7_1 i)
    (x0 : Vec F S2048x2048 .bf16) (x1 : Vec F S2048x64 .f32) (x2 : Vec F S64x128 .f32) (x3 : Vec F S1x128 .f32) (prev : Vec F S2048x128 .f32) :
    readS7 (kernelRun7_B (F := F) c i arg2 harg2 arg3 harg3 arg4 harg4 arg5 harg5 arg6 harg6 arg7 harg7 hc0 hc1 x0 x1 x2 x3 prev).2.1 = k7_pay2 x1 x2 x0 prev := by
  funext y
  unfold readS7
  rw [View.read_writes_junk_apply_eq_canon]
  unfold kernelRun7_B
  dsimp only
  rw [View.canon_unit_zero hz7]
  simp only [View.readAt_eq_ld, harg2.read_unread, harg3.read_unread, harg4.read_unread, harg5.read_unread, harg7.read_unread, View.ld_unit_zero (S := S2048x2048) hz7, View.ld_unit_zero (S := S2048x64) hz7, View.ld_unit_zero (S := S64x128) hz7, View.ld_unit_zero (S := S2048x128) hz7, View.ld_unit_zero (S := S1x128) hz7]

/-- The first tile of a row leaves the tile's update of the cleared accumulator. -/
theorem sA7 (c : Dev nD) (i : grid7.Coords) (arg2 : Memref sig .tc .vmem S2048x2048 .bf16) (harg2 : arg2.IsWhole) (arg3 : Memref sig .tc .vmem S2048x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : cond7_0 i) (hc1 : ¬cond7_1 i)
    (x0 : Vec F S2048x2048 .bf16) (x1 : Vec F S2048x64 .f32) (x2 : Vec F S64x128 .f32) (x3 : Vec F S1x128 .f32) :
    readS7 (kernelRun7_A (F := F) c i arg2 harg2 arg3 harg3 arg4 harg4 arg5 harg5 arg6 harg6 arg7 harg7 hc0 hc1 x0 x1 x2 x3).2.1 = k7_pay2 x1 x2 x0 (k7_pay1 (F := F)) := by
  funext y
  unfold readS7
  rw [View.read_writes_junk_apply_eq_canon]
  unfold kernelRun7_A
  dsimp only
  sl_unfold_words
  rw [View.canon_cons_unit_zero (S := S2048x128) hz7, View.readCov_unit_zero (S := S2048x128) _ hz7]
  simp only [View.readAt_eq_ld, harg2.read_unread, harg3.read_unread, harg4.read_unread, harg5.read_unread, harg7.read_unread, View.ld_unit_zero (S := S2048x2048) hz7, View.ld_unit_zero (S := S2048x64) hz7, View.ld_unit_zero (S := S64x128) hz7, View.ld_unit_zero (S := S2048x128) hz7, View.ld_unit_zero (S := S1x128) hz7]

/-- The last tile of a row leaves the same update in the accumulator, -/
theorem sC7 (c : Dev nD) (i : grid7.Coords) (arg2 : Memref sig .tc .vmem S2048x2048 .bf16) (harg2 : arg2.IsWhole) (arg3 : Memref sig .tc .vmem S2048x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬cond7_0 i) (hc1 : cond7_1 i)
    (x0 : Vec F S2048x2048 .bf16) (x1 : Vec F S2048x64 .f32) (x2 : Vec F S64x128 .f32) (x3 : Vec F S1x128 .f32) (prev : Vec F S2048x128 .f32) :
    readS7 (kernelRun7_C (F := F) c i arg2 harg2 arg3 harg3 arg4 harg4 arg5 harg5 arg6 harg6 arg7 harg7 hc0 hc1 x0 x1 x2 x3 prev).2.1 = k7_pay2 x1 x2 x0 prev := by
  funext y
  unfold readS7
  rw [View.read_writes_junk_apply_eq_canon]
  unfold kernelRun7_C
  dsimp only
  sl_unfold_words
  rw [View.canon_unit_zero hz7]
  simp only [View.readAt_eq_ld, harg2.read_unread, harg3.read_unread, harg4.read_unread, harg5.read_unread, harg7.read_unread, View.ld_unit_zero (S := S2048x2048) hz7, View.ld_unit_zero (S := S2048x64) hz7, View.ld_unit_zero (S := S64x128) hz7, View.ld_unit_zero (S := S2048x128) hz7, View.ld_unit_zero (S := S1x128) hz7]

/-- and in the output's buffer the finished accumulator plus the bias row, through the rectifier. -/
theorem oC7 (c : Dev nD) (i : grid7.Coords) (arg2 : Memref sig .tc .vmem S2048x2048 .bf16) (harg2 : arg2.IsWhole) (arg3 : Memref sig .tc .vmem S2048x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬cond7_0 i) (hc1 : cond7_1 i)
    (x0 : Vec F S2048x2048 .bf16) (x1 : Vec F S2048x64 .f32) (x2 : Vec F S64x128 .f32) (x3 : Vec F S1x128 .f32) (prev : Vec F S2048x128 .f32) :
    readO7 (kernelRun7_C (F := F) c i arg2 harg2 arg3 harg3 arg4 harg4 arg5 harg5 arg6 harg6 arg7 harg7 hc0 hc1 x0 x1 x2 x3 prev).1 = k7_pay3 (k7_pay2 x1 x2 x0 prev) x3 := by
  funext y
  unfold readO7
  rw [View.read_writes_junk_apply_eq_canon]
  unfold kernelRun7_C
  dsimp only
  sl_unfold_words
  rw [View.canon_unit_zero hz7, View.readCov_unit_zero (S := S2048x128) _ hz7]
  simp only [View.readAt_eq_ld, harg2.read_unread, harg3.read_unread, harg4.read_unread, harg5.read_unread, harg7.read_unread, View.ld_unit_zero (S := S2048x2048) hz7, View.ld_unit_zero (S := S2048x64) hz7, View.ld_unit_zero (S := S64x128) hz7, View.ld_unit_zero (S := S2048x128) hz7, View.ld_unit_zero (S := S1x128) hz7]

end Pieces

/-! ## The payloads on the extended reals, entry by entry -/

section IdealPay

/-- The clearing store's payload is zero at every entry. -/
theorem pay1_apply_7 (y : S2048x128.Idx) : k7_pay1 (F := Ideal) y = 0 := by
  unfold k7_pay1
  exact (congrFun (shapeCast_self _ _) y).trans Ideal.ofBits_zero_f32

/-- One tile's update at entry (p, q): the accumulator's entry plus the tile product's, the inner product first. -/
theorem pay2_apply_7 (X : FVec Ideal S2048x64 .f32) (W : FVec Ideal S64x128 .f32) (NA : FVec Ideal S2048x2048 .bf16)
    (acc : FVec Ideal S2048x128 .f32) (p : Fin 2048) (q : Fin 128) :
    k7_pay2 (F := Ideal) X W NA acc (ix2 p q)
      = acc (ix2 p q) + ∑ k : Fin 2048, NA (ix2 p k) * ∑ d : Fin 64, X (ix2 k d) * W (ix2 d q) := by
  unfold k7_pay2
  refine (congrFun (shapeCast_self _ _) (ix2 p q)).trans ?_
  refine congrArg (acc (ix2 p q) + ·) ?_
  refine (DotRecord.matmul_zero_apply (M := 2048) (K := 2048) (N := 128) dot_S2048x2048_S2048x128_S2048x128_1_0_0_1_n_n rfl rfl rfl rfl rfl rfl _ _ none p q).trans ?_
  refine Finset.sum_congr rfl fun k _ => ?_
  refine congr (congrArg (· * ·) (congrFun (shapeCast_self NA _) (ix2 p k))) ?_
  refine (DotRecord.matmul_zero_apply (M := 2048) (K := 64) (N := 128) dot_S2048x64_S64x128_S2048x128_1_0_0_1_n_n rfl rfl rfl rfl rfl rfl _ _ none k q).trans ?_
  exact Finset.sum_congr rfl fun d _ => congrArg (· * W (ix2 d q)) (congrFun (shapeCast_self X _) (ix2 k d))

/-- The rectifier as the kernel spells it on one extended real: compare with zero, keep or scale by the slope word. -/
theorem lrelu_scalar_7 (v : EReal) :
    Scalar.select (Ideal.cmp .oge v (Ideal.ofBits .f32 0x00000000#32)) v (Ideal.ofBits .f32 0x3C23D70A#32 * v) = Cert.Spec.lrelu v := by
  unfold Cert.Spec.lrelu Cert.Spec.slope Scalar.select Ideal.cmp
  rw [Ideal.ofBits_zero_f32]
  by_cases h : (0 : EReal) ≤ v
  · rw [if_pos h]; simp only [decide_eq_true h]; rfl
  · rw [if_neg h]; simp only [decide_eq_false h]; rfl

/-- The finishing payload at entry (p, q): the rectifier of the accumulator's entry plus the bias row's entry q. -/
theorem pay3_apply_7 (acc : FVec Ideal S2048x128 .f32) (b : FVec Ideal S1x128 .f32) (p : Fin 2048) (q : Fin 128) :
    k7_pay3 (F := Ideal) acc b (ix2 p q) = Cert.Spec.lrelu (acc (ix2 p q) + b (ix2 (0 : Fin 1) q)) := by
  have hb : broadcastTo S2048x128 (shapeCast S1x128 b shapeCasts_S1x128_S1x128) broadcasts_S1x128_S2048x128 (ix2 p q) = b (ix2 (0 : Fin 1) q) :=
    (DotRecord.broadcastTo_1b_ab_apply (a := 2048) (b := 128) _ broadcasts_S1x128_S2048x128 p q).trans (congrFun (shapeCast_self b _) _)
  unfold k7_pay3
  refine Eq.trans ?_ (lrelu_scalar_7 (acc (ix2 p q) + b (ix2 (0 : Fin 1) q)))
  rw [← hb]
  rfl

end IdealPay

end Cert.KernelIdeal.Hand

end
-- ==== Proof.Region7Value.lean ====
import proofs.«178500_j188978561286_1_alg».proof.Proof.Region7ValueA
import proofs.«178500_j188978561286_1_alg».proof.Proof.LibFourTiles

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.Sem
open Idealize.ShloMosaic.Pipeline (Dat Cfg Window cellOf)
open Cert.KernelIdeal.Gen

/-! ## The accumulator, point by point, as a fold of tile updates -/

section Fold
variable (V : (c : Dev nD) → (b : Ref sig .tc) → Buf (Elt Ideal) ((c : Thread nD τ).loc b))

/-- One tile's update of an accumulator at point `t`: its entry plus the entry of (adjacency block) · ((feature block) · weights). -/
abbrev tileUpd7 (c : Dev nD) (t : Fin cfg7.N) (acc : FVec Ideal S2048x128 .f32) : FVec Ideal S2048x128 .f32 :=
  k7_pay2 (F := Ideal) (iblk7 V c 1 t) (iblk7 V c 2 t) (iblk7 V c 0 t) acc

/-- The three runs' values at point `t`. -/
theorem sA7_at (c : Dev nD) (t : Fin cfg7.N) (h0 : t.val % 4 = 0) :
    readS7 (runA7 V c t h0).2.1 = tileUpd7 V c t (k7_pay1 (F := Ideal)) :=
  sA7 c (grid7.coords t) (ms7_0 t) (hs7_0 t) (ms7_1 t) (hs7_1 t) (ms7_2 t) (hs7_2 t) (ms7_3 t) (hs7_3 t) (ms7_4 t) (hs7_4 t) scM7_0 (Memref.isWhole_whole _) ((hcond7_0 t).mpr h0) (fun h => by have h3 := (hcond7_1 t).mp h; omega) (iblk7 V c 0 t) (iblk7 V c 1 t) (iblk7 V c 2 t) (iblk7 V c 3 t)
theorem sB7_at (c : Dev nD) (t : Fin cfg7.N) (h0 : ¬t.val % 4 = 0) (h1 : ¬t.val % 4 = 3) (prev : FVec Ideal S2048x128 .f32) :
    readS7 (runB7 V c t h0 h1 prev).2.1 = tileUpd7 V c t prev :=
  sB7 c (grid7.coords t) (ms7_0 t) (hs7_0 t) (ms7_1 t) (hs7_1 t) (ms7_2 t) (hs7_2 t) (ms7_3 t) (hs7_3 t) (ms7_4 t) (hs7_4 t) scM7_0 (Memref.isWhole_whole _) (fun h => h0 ((hcond7_0 t).mp h)) (fun h => h1 ((hcond7_1 t).mp h)) (iblk7 V c 0 t) (iblk7 V c 1 t) (iblk7 V c 2 t) (iblk7 V c 3 t) prev
theorem sC7_at (c : Dev nD) (t : Fin cfg7.N) (h0 : ¬t.val % 4 = 0) (h1 : t.val % 4 = 3) (prev : FVec Ideal S2048x128 .f32) :
    readS7 (runC7 V c t h0 h1 prev).2.1 = tileUpd7 V c t prev :=
  sC7 c (grid7.coords t) (ms7_0 t) (hs7_0 t) (ms7_1 t) (hs7_1 t) (ms7_2 t) (hs7_2 t) (ms7_3 t) (hs7_3 t) (ms7_4 t) (hs7_4 t) scM7_0 (Memref.isWhole_whole _) (fun h => h0 ((hcond7_0 t).mp h)) ((hcond7_1 t).mpr h1) (iblk7 V c 0 t) (iblk7 V c 1 t) (iblk7 V c 2 t) (iblk7 V c 3 t) prev
theorem oC7_at (c : Dev nD) (t : Fin cfg7.N) (h0 : ¬t.val % 4 = 0) (h1 : t.val % 4 = 3) (prev : FVec Ideal S2048x128 .f32) :
    readO7 (runC7 V c t h0 h1 prev).1 = k7_pay3 (F := Ideal) (tileUpd7 V c t prev) (iblk7 V c 3 t) :=
  oC7 c (grid7.coords t) (ms7_0 t) (hs7_0 t) (ms7_1 t) (hs7_1 t) (ms7_2 t) (hs7_2 t) (ms7_3 t) (hs7_3 t) (ms7_4 t) (hs7_4 t) scM7_0 (Memref.isWhole_whole _) (fun h => h0 ((hcond7_0 t).mp h)) ((hcond7_1 t).mpr h1) (iblk7 V c 0 t) (iblk7 V c 1 t) (iblk7 V c 2 t) (iblk7 V c 3 t) prev

/-- At the first tile of a row the accumulator ends at the update of the zero block. -/
theorem acc7_first (c : Dev nD) (n : ℕ) (h : n < cfg7.N) (h0 : n % 4 = 0) :
    (outsAt7 V c n h).2 = tileUpd7 V c ⟨n, h⟩ (k7_pay1 (F := Ideal)) := by
  have e0 : outsAt7 V c n h = stepAt7 V c ⟨n, h⟩ (prevAt7 V c ⟨n, h⟩) := outsAt7_eq V c ⟨n, h⟩
  have e1 := stepAt7_A V c ⟨n, h⟩ (prevAt7 V c ⟨n, h⟩) h0
  have e3 : (outsAt7 V c n h).2 = readS7 (runA7 V c ⟨n, h⟩ h0).2.1 := by rw [e0, e1]
  exact e3.trans (sA7_at V c ⟨n, h⟩ h0)

/-- At every other point it ends at the update of what the point before left. -/
theorem acc7_step (c : Dev nD) (n : ℕ) (h : n + 1 < cfg7.N) (h0 : ¬(n + 1) % 4 = 0) :
    (outsAt7 V c (n + 1) h).2 = tileUpd7 V c ⟨n + 1, h⟩ (outsAt7 V c n (Nat.lt_of_succ_lt h)).2 := by
  have e0 : outsAt7 V c (n + 1) h = stepAt7 V c ⟨n + 1, h⟩ (outsAt7 V c n (Nat.lt_of_succ_lt h)).2 := rfl
  by_cases h1 : (n + 1) % 4 = 3
  · have e1 := stepAt7_C V c ⟨n + 1, h⟩ (outsAt7 V c n (Nat.lt_of_succ_lt h)).2 h0 h1
    have e3 : (outsAt7 V c (n + 1) h).2 = readS7 (runC7 V c ⟨n + 1, h⟩ h0 h1 (outsAt7 V c n (Nat.lt_of_succ_lt h)).2).2.1 := by rw [e0, e1]
    exact e3.trans (sC7_at V c ⟨n + 1, h⟩ h0 h1 _)
  · have e1 := stepAt7_B V c ⟨n + 1, h⟩ (outsAt7 V c n (Nat.lt_of_succ_lt h)).2 h0 h1
    have e3 : (outsAt7 V c (n + 1) h).2 = readS7 (runB7 V c ⟨n + 1, h⟩ h0 h1 (outsAt7 V c n (Nat.lt_of_succ_lt h)).2).2.1 := by rw [e0, e1]
    exact e3.trans (sB7_at V c ⟨n + 1, h⟩ h0 h1 _)

/-- So at the last tile of block row `i` the accumulator is the four updates of the zero block, in order. -/
theorem acc7_last (c : Dev nD) (i : ℕ) (h : 4 * i + 3 < cfg7.N) :
    (outsAt7 V c (4 * i + 3) h).2
      = tileUpd7 V c ⟨4 * i + 3, h⟩ (tileUpd7 V c ⟨4 * i + 2, by omega⟩ (tileUpd7 V c ⟨4 * i + 1, by omega⟩
          (tileUpd7 V c ⟨4 * i + 0, by omega⟩ (k7_pay1 (F := Ideal))))) :=
  Pipeline.eq_accAt (fun n h => (outsAt7 V c n h).2) 4 (fun n h => tileUpd7 V c ⟨n, h⟩ (k7_pay1 (F := Ideal)))
    (fun n h acc => tileUpd7 V c ⟨n, h⟩ acc) (acc7_first V c) (acc7_step V c) i 3 (by decide) h

/-- At that point the output's buffer holds the finishing payload of the accumulator and the bias row. -/
theorem out7_last (c : Dev nD) (t : Fin cfg7.N) (h3 : t.val % 4 = 3) :
    (outsAt7 V c t.val t.isLt).1 = k7_pay3 (F := Ideal) (outsAt7 V c t.val t.isLt).2 (iblk7 V c 3 t) := by
  have h0 : ¬t.val % 4 = 0 := by omega
  have e := (outsAt7_eq V c t).trans (stepAt7_C V c t _ h0 h3)
  have e1 : (outsAt7 V c t.val t.isLt).1 = readO7 (runC7 V c t h0 h3 (prevAt7 V c t)).1 := by rw [e]
  have e2 : (outsAt7 V c t.val t.isLt).2 = readS7 (runC7 V c t h0 h3 (prevAt7 V c t)).2.1 := by rw [e]
  rw [e1, e2, oC7_at V c t h0 h3, sC7_at V c t h0 h3]

end Fold

/-! ## The windows' blocks as entries of the arrays -/

section Blocks
variable (V : (c : Dev nD) → (b : Ref sig .tc) → Buf (Elt Ideal) ((c : Thread nD τ).loc b))

/-- The four arrays the region reads, as matrices of extended reals. -/
abbrev NA7 (c : Dev nD) : Cert.Spec.Mat 8192 8192 := V c main_v2
abbrev X7 (c : Dev nD) : Cert.Spec.Mat 8192 64 := V c main_v11
abbrev W7 (c : Dev nD) : Cert.Spec.Mat 64 128 := V c main_arg10
abbrev Brow7 (c : Dev nD) : Cert.Spec.Mat 1 128 := V c main_v12

/-- The block indices, over the grid: point `t` is tile `t % 4` of block row `t / 4`. -/
theorem index7_0 : ∀ t : Fin cfg7.N, win7_0.index t 0 = t.val / 4 ∧ win7_0.index t 1 = t.val % 4 :=
  (by decide +kernel : ∀ t : Fin grid7.N, win7_0.index t 0 = t.val / 4 ∧ win7_0.index t 1 = t.val % 4)
theorem index7_1 : ∀ t : Fin cfg7.N, win7_1.index t 0 = t.val % 4 ∧ win7_1.index t 1 = 0 :=
  (by decide +kernel : ∀ t : Fin grid7.N, win7_1.index t 0 = t.val % 4 ∧ win7_1.index t 1 = 0)
theorem index7_2 : ∀ t : Fin cfg7.N, win7_2.index t 0 = 0 ∧ win7_2.index t 1 = 0 :=
  (by decide +kernel : ∀ t : Fin grid7.N, win7_2.index t 0 = 0 ∧ win7_2.index t 1 = 0)
theorem index7_3 : ∀ t : Fin cfg7.N, win7_3.index t 0 = 0 ∧ win7_3.index t 1 = 0 :=
  (by decide +kernel : ∀ t : Fin grid7.N, win7_3.index t 0 = 0 ∧ win7_3.index t 1 = 0)
theorem index7_4 : ∀ t : Fin cfg7.N, win7_4.index t 0 = t.val / 4 ∧ win7_4.index t 1 = 0 :=
  (by decide +kernel : ∀ t : Fin grid7.N, win7_4.index t 0 = t.val / 4 ∧ win7_4.index t 1 = 0)
/-- The output's blocks are never cut. -/
theorem xsize7_4 : ∀ t : Fin cfg7.N, win7_4.xsize (grid7.coords t) 0 = 2048 ∧ win7_4.xsize (grid7.coords t) 1 = 128 :=
  (by decide +kernel : ∀ t : Fin grid7.N, win7_4.xsize (grid7.coords t) 0 = 2048 ∧ win7_4.xsize (grid7.coords t) 1 = 128)

/-- Entry (p, r) of the adjacency block at tile `s` of block row `I` is entry (2048 I + p, 2048 s + r) of the array. -/
theorem iblk7_0_apply (c : Dev nD) (t : Fin cfg7.N) (I s : ℕ) (hI : t.val / 4 = I) (hs : t.val % 4 = s) (hI4 : I < 4) (hs4 : s < 4)
    (p r : Fin 2048) :
    iblk7 V c 0 t (ix2 p r) = NA7 V c (ix2 (⟨2048 * I + p.val, by omega⟩ : Fin 8192) (⟨2048 * s + r.val, by omega⟩ : Fin 8192)) := by
  unfold iblk7
  rw [View.read_apply]
  show V c main_v2 _ = V c main_v2 _
  congr 1
  funext a
  apply Fin.ext
  match a with
  | ⟨0, _⟩ => show win7_0.index t 0 * 2048 + 1 * p.val = 2048 * I + p.val; rw [(index7_0 t).1, hI]; omega
  | ⟨1, _⟩ => show win7_0.index t 1 * 2048 + 1 * r.val = 2048 * s + r.val; rw [(index7_0 t).2, hs]; omega

/-- Entry (r, d) of the feature block at tile `s` is entry (2048 s + r, d) of the array. -/
theorem iblk7_1_apply (c : Dev nD) (t : Fin cfg7.N) (s : ℕ) (hs : t.val % 4 = s) (hs4 : s < 4) (r : Fin 2048) (d : Fin 64) :
    iblk7 V c 1 t (ix2 r d) = X7 V c (ix2 (⟨2048 * s + r.val, by omega⟩ : Fin 8192) d) := by
  unfold iblk7
  rw [View.read_apply]
  show V c main_v11 _ = V c main_v11 _
  congr 1
  funext a
  apply Fin.ext
  match a with
  | ⟨0, _⟩ => show win7_1.index t 0 * 2048 + 1 * r.val = 2048 * s + r.val; rw [(index7_1 t).1, hs]; omega
  | ⟨1, _⟩ => show win7_1.index t 1 * 64 + 1 * d.val = d.val; rw [(index7_1 t).2]; omega

/-- The weights' one block is the array. -/
theorem iblk7_2_apply (c : Dev nD) (t : Fin cfg7.N) (d : Fin 64) (q : Fin 128) :
    iblk7 V c 2 t (ix2 d q) = W7 V c (ix2 d q) := by
  unfold iblk7
  rw [View.read_apply]
  show V c main_arg10 _ = V c main_arg10 _
  congr 1
  funext a
  apply Fin.ext
  match a with
  | ⟨0, _⟩ => show win7_2.index t 0 * 64 + 1 * d.val = d.val; rw [(index7_2 t).1]; omega
  | ⟨1, _⟩ => show win7_2.index t 1 * 128 + 1 * q.val = q.val; rw [(index7_2 t).2]; omega

/-- The bias row's one block is the array. -/
theorem iblk7_3_apply (c : Dev nD) (t : Fin cfg7.N) (z : Fin 1) (q : Fin 128) :
    iblk7 V c 3 t (ix2 z q) = Brow7 V c (ix2 z q) := by
  unfold iblk7
  rw [View.read_apply]
  show V c main_v12 _ = V c main_v12 _
  congr 1
  funext a
  apply Fin.ext
  match a with
  | ⟨0, _⟩ => show win7_3.index t 0 * 1 + 1 * z.val = z.val; rw [(index7_3 t).1]; omega
  | ⟨1, _⟩ => show win7_3.index t 1 * 128 + 1 * q.val = q.val; rw [(index7_3 t).2]; omega

/-- One tile's update at entry (p, q), over the arrays: tile `s` of block row `I` adds the part of row 2048 I + p's
    product that runs over the 2048 neighbours 2048 s … 2048 s + 2047. -/
theorem tileUpd7_apply (c : Dev nD) (t : Fin cfg7.N) (I s : ℕ) (hI : t.val / 4 = I) (hs : t.val % 4 = s) (hI4 : I < 4) (hs4 : s < 4)
    (acc : FVec Ideal S2048x128 .f32) (p : Fin 2048) (q : Fin 128) :
    tileUpd7 V c t acc (ix2 p q)
      = acc (ix2 p q) + ∑ r : Fin 2048, NA7 V c (ix2 (⟨2048 * I + p.val, by omega⟩ : Fin 8192) (⟨2048 * s + r.val, by omega⟩ : Fin 8192))
          * ∑ d : Fin 64, X7 V c (ix2 (⟨2048 * s + r.val, by omega⟩ : Fin 8192) d) * W7 V c (ix2 d q) := by
  refine (pay2_apply_7 _ _ _ acc p q).trans ?_
  refine congrArg (acc (ix2 p q) + ·) ?_
  refine Finset.sum_congr rfl fun r _ => ?_
  rw [iblk7_0_apply V c t I s hI hs hI4 hs4 p r]
  congr 1
  refine Finset.sum_congr rfl fun d _ => ?_
  rw [iblk7_1_apply V c t s hs hs4 r d, iblk7_2_apply V c t d q]

end Blocks

/-! ## The output array after the run -/

section Final
variable (V : (c : Dev nD) → (b : Ref sig .tc) → Buf (Elt Ideal) ((c : Thread nD τ).loc b))

/-- What the output's buffer holds at the last tile of block row `i`, at entry (p, q): the layer at row 2048 i + p. -/
theorem out7_val (c : Dev nD) (i : ℕ) (h : 4 * i + 3 < cfg7.N) (p : Fin 2048) (q : Fin 128) :
    (outsAt7 V c (4 * i + 3) h).1 (ix2 p q)
      = Cert.Spec.layer (NA7 V c) (X7 V c) (W7 V c) (Brow7 V c)
          (ix2 (⟨2048 * i + p.val, by have hN : cfg7.N = 16 := N_7; omega⟩ : Fin 8192) q) := by
  have hN : cfg7.N = 16 := N_7
  have hi : i < 4 := by omega
  have e1 := out7_last V c ⟨4 * i + 3, h⟩ (by show (4 * i + 3) % 4 = 3; omega)
  refine (congrFun e1 (ix2 p q)).trans ?_
  refine (pay3_apply_7 _ _ p q).trans ?_
  show Cert.Spec.lrelu (_ + _) = Cert.Spec.lrelu ((∑ k : Fin 8192, NA7 V c (ix2 (⟨2048 * i + p.val, by omega⟩ : Fin 8192) k)
    * ∑ d : Fin 64, X7 V c (ix2 k d) * W7 V c (ix2 d q)) + Brow7 V c (ix2 (0 : Fin 1) q))
  rw [iblk7_3_apply V c _ 0 q]
  refine congrArg Cert.Spec.lrelu ?_
  congr 1
  refine (congrFun (acc7_last V c i h) (ix2 p q)).trans ?_
  rw [tileUpd7_apply V c ⟨4 * i + 3, h⟩ i 3 (by show (4 * i + 3) / 4 = i; omega) (by show (4 * i + 3) % 4 = 3; omega) hi (by decide) _ p q, tileUpd7_apply V c ⟨4 * i + 2, by omega⟩ i 2 (by show (4 * i + 2) / 4 = i; omega) (by show (4 * i + 2) % 4 = 2; omega) hi (by decide) _ p q, tileUpd7_apply V c ⟨4 * i + 1, by omega⟩ i 1 (by show (4 * i + 1) / 4 = i; omega) (by show (4 * i + 1) % 4 = 1; omega) hi (by decide) _ p q, tileUpd7_apply V c ⟨4 * i + 0, by omega⟩ i 0 (by show (4 * i + 0) / 4 = i; omega) (by show (4 * i + 0) % 4 = 0; omega) hi (by decide) _ p q, pay1_apply_7]
  exact (sum_four_tiles (fun k : Fin 8192 => NA7 V c (ix2 (⟨2048 * i + p.val, by omega⟩ : Fin 8192) k)
    * ∑ d : Fin 64, X7 V c (ix2 k d) * W7 V c (ix2 d q))).symm

/-- Every write-back writes the layer's block. -/
theorem flushed_eq7 (c : Dev nD) (t : Fin cfg7.N) (hf : (cfg7.win 4).flush t = true) :
    (dat7 V c).flushed 4 t
      = ((cfg7.win 4).blk t).view.read (Elt Ideal) (Cert.Spec.layer (NA7 V c) (X7 V c) (W7 V c) (Brow7 V c)) := by
  have h3 : t.val % 4 = 3 := (flush7_4 t).mp hf
  have hN : cfg7.N = 16 := N_7
  obtain ⟨n, hn⟩ := t
  obtain ⟨i, rfl⟩ : ∃ i, n = 4 * i + 3 := ⟨n / 4, by dsimp only at h3; omega⟩
  funext y
  obtain ⟨p, q, rfl⟩ : ∃ (p : Fin 2048) (q : Fin 128), y = ix2 p q := ⟨y 0, y 1, eq_ix2 y⟩
  show (dat7 V c).after 4 ⟨4 * i + 3, hn⟩ (ix2 p q) = _
  rw [after7_4, View.read_apply]
  refine (out7_val V c i hn p q).trans ?_
  show Cert.Spec.layer (NA7 V c) (X7 V c) (W7 V c) (Brow7 V c) _ = Cert.Spec.layer (NA7 V c) (X7 V c) (W7 V c) (Brow7 V c) _
  congr 1
  funext a
  apply Fin.ext
  match a with
  | ⟨0, _⟩ =>
    show 2048 * i + p.val = win7_4.index ⟨4 * i + 3, hn⟩ 0 * 2048 + 1 * p.val
    rw [(index7_4 ⟨4 * i + 3, hn⟩).1]
    show 2048 * i + p.val = (4 * i + 3) / 4 * 2048 + 1 * p.val
    omega
  | ⟨1, _⟩ =>
    show q.val = win7_4.index ⟨4 * i + 3, hn⟩ 1 * 128 + 1 * q.val
    rw [(index7_4 ⟨4 * i + 3, hn⟩).2]
    omega

end Final

section Final7
variable (V : (c : Dev nD) → (b : Ref sig .tc) → Buf (Elt Ideal) ((c : Thread nD τ).loc b))

/-- The four write-backs cover the output array: row `r` lies in the block written at the last tile of block row `r / 2048`. -/
theorem cover7_4' (c : Dev nD) (i : ((cfg7.win 4).arr.view.loc (c.tc : Thread nD τ)).2.ty.Idx) :
    ∃ t : Fin cfg7.N, (cfg7.win 4).flush t = true ∧ i ∈ ((cfg7.win 4).blk t).view.set := by
  have h0 : (i 0 : ℕ) < 8192 := (i 0).isLt
  have h1 : (i 1 : ℕ) < 128 := (i 1).isLt
  have hN : cfg7.N = 16 := N_7
  have ht : 4 * ((i 0 : ℕ) / 2048) + 3 < cfg7.N := by omega
  refine ⟨⟨4 * ((i 0 : ℕ) / 2048) + 3, ht⟩, (flush7_4 _).mpr (by show (4 * ((i 0 : ℕ) / 2048) + 3) % 4 = 3; omega), ?_⟩
  show i ∈ ((View.whole main_v13).slice (win7_4.rect ⟨4 * ((i 0 : ℕ) / 2048) + 3, ht⟩)).set
  rw [View.set_slice_whole, Rect.mem_set_unit]
  intro a
  match a with
  | ⟨0, _⟩ =>
    show win7_4.index ⟨4 * ((i 0 : ℕ) / 2048) + 3, ht⟩ 0 * win7_4.size 0 ≤ (i 0 : ℕ)
      ∧ (i 0 : ℕ) < win7_4.index ⟨4 * ((i 0 : ℕ) / 2048) + 3, ht⟩ 0 * win7_4.size 0 + win7_4.xsize (grid7.coords ⟨4 * ((i 0 : ℕ) / 2048) + 3, ht⟩) 0
    rw [(index7_4 ⟨4 * ((i 0 : ℕ) / 2048) + 3, ht⟩).1, (xsize7_4 ⟨4 * ((i 0 : ℕ) / 2048) + 3, ht⟩).1]
    show (4 * ((i 0 : ℕ) / 2048) + 3) / 4 * 2048 ≤ (i 0 : ℕ) ∧ (i 0 : ℕ) < (4 * ((i 0 : ℕ) / 2048) + 3) / 4 * 2048 + 2048
    omega
  | ⟨1, _⟩ =>
    show win7_4.index ⟨4 * ((i 0 : ℕ) / 2048) + 3, ht⟩ 1 * win7_4.size 1 ≤ (i 1 : ℕ)
      ∧ (i 1 : ℕ) < win7_4.index ⟨4 * ((i 0 : ℕ) / 2048) + 3, ht⟩ 1 * win7_4.size 1 + win7_4.xsize (grid7.coords ⟨4 * ((i 0 : ℕ) / 2048) + 3, ht⟩) 1
    rw [(index7_4 ⟨4 * ((i 0 : ℕ) / 2048) + 3, ht⟩).2, (xsize7_4 ⟨4 * ((i 0 : ℕ) / 2048) + 3, ht⟩).2]
    omega

/-- THE REGION'S VALUE: after the run the output array holds the layer of the four arrays the region was entered with. -/
theorem final7 (c : Dev nD) :
    (dat7 (F := Ideal) V c).arrAt 4 cfg7.N = Cert.Spec.layer (V c main_v2) (V c main_v11) (V c main_arg10) (V c main_v12) :=
  (dat7 V c).arrAt_eq_of_cover 4 _ (flushed_eq7 V c) (cover7_4' c)

end Final7

end Cert.KernelIdeal.Hand

end
-- ==== Proof.KernelValue.lean ====
/-
  What the kernel program's buffers hold at the end, as the specification's functions of the argument arrays.

  The run leaves every unscoped buffer at the last boundary's contents.  Walking the boundaries forward: the degree
  pass writes deg^(-1/2) as a column; the host reshapes it to a row; the adjacency build writes the normalised
  adjacency from the edge table, the column and the row; each graph-convolution region writes one layer of the
  network from the adjacency, its input features, its weights and its bias row (a host reshape of the bias vector);
  the edge decoder writes the logistic Gram matrix.  A buffer no later item writes keeps its contents to the end.
-/
import proofs.«178500_j188978561286_1_alg».proof.Proof.Bundles
import proofs.«178500_j188978561286_1_alg».proof.Proof.HostReshapes
import proofs.«178500_j188978561286_1_alg».proof.Proof.Region0Value
import proofs.«178500_j188978561286_1_alg».proof.Proof.Region1Value
import proofs.«178500_j188978561286_1_alg».proof.Proof.Region2Value
import proofs.«178500_j188978561286_1_alg».proof.Proof.Region3Value
import proofs.«178500_j188978561286_1_alg».proof.Proof.Region4Value
import proofs.«178500_j188978561286_1_alg».proof.Proof.Region5Value
import proofs.«178500_j188978561286_1_alg».proof.Proof.Region6Value
import proofs.«178500_j188978561286_1_alg».proof.Proof.Region7Value

noncomputable section

namespace Cert.KernelIdeal.Hand

open Cert.KernelIdeal Cert.KernelIdeal.Gen
open Idealize.ShloMosaic Idealize.ShloMosaic.TcCoe
open Idealize.SL Idealize.SL.Sem

variable (m : (ℓ : Loc nD τ sig) → Buf (Elt Ideal) ℓ) (c : Dev nD)

/-! ## The argument arrays, named -/
abbrev aX : Cert.Spec.Mat 8192 128 := m ((c : Thread nD τ).loc main_arg0)
abbrev aE : Cert.Spec.Edges := m ((c : Thread nD τ).loc main_arg1)
abbrev aW1 : Cert.Spec.Mat 128 64 := m ((c : Thread nD τ).loc main_arg2)
abbrev ab1 : Cert.Spec.Vc 64 := m ((c : Thread nD τ).loc main_arg3)
abbrev aW2 : Cert.Spec.Mat 64 128 := m ((c : Thread nD τ).loc main_arg4)
abbrev ab2 : Cert.Spec.Vc 128 := m ((c : Thread nD τ).loc main_arg5)
abbrev aWe : Cert.Spec.Mat 128 64 := m ((c : Thread nD τ).loc main_arg6)
abbrev abe : Cert.Spec.Vc 64 := m ((c : Thread nD τ).loc main_arg7)
abbrev aWd1 : Cert.Spec.Mat 128 64 := m ((c : Thread nD τ).loc main_arg8)
abbrev abd1 : Cert.Spec.Vc 64 := m ((c : Thread nD τ).loc main_arg9)
abbrev aWd2 : Cert.Spec.Mat 64 128 := m ((c : Thread nD τ).loc main_arg10)
abbrev abd2 : Cert.Spec.Vc 128 := m ((c : Thread nD τ).loc main_arg11)

local notation "b0" => (bundle0 (F := Ideal))
local notation "b1" => (bundle1 (F := Ideal))
local notation "b2" => (bundle2 (F := Ideal))
local notation "b3" => (bundle3 (F := Ideal))
local notation "b4" => (bundle4 (F := Ideal))
local notation "b5" => (bundle5 (F := Ideal))
local notation "b6" => (bundle6 (F := Ideal))
local notation "b7" => (bundle7 (F := Ideal))

/-! ## The arguments at every region's entry -/
theorem arg1_B2 : B2 m b0 c (Proc.devRef .tc main_arg1) = aE m c :=
  ((B2_keep m b0 c main_arg1 (by decide)).trans (B1_keep m b0 c main_arg1 (by decide))).trans rfl
theorem arg3_B3 : B3 m b0 b1 c (Proc.devRef .tc main_arg3) = ab1 m c :=
  ((B3_keep m b0 b1 c main_arg3 (by decide)).trans ((B2_keep m b0 c main_arg3 (by decide)).trans (B1_keep m b0 c main_arg3 (by decide)))).trans rfl
theorem arg0_B4 : B4 m b0 b1 c (Proc.devRef .tc main_arg0) = aX m c :=
  ((B4_keep m b0 b1 c main_arg0 (by decide)).trans ((B3_keep m b0 b1 c main_arg0 (by decide)).trans ((B2_keep m b0 c main_arg0 (by decide)).trans (B1_keep m b0 c main_arg0 (by decide))))).trans rfl
theorem arg2_B4 : B4 m b0 b1 c (Proc.devRef .tc main_arg2) = aW1 m c :=
  ((B4_keep m b0 b1 c main_arg2 (by decide)).trans ((B3_keep m b0 b1 c main_arg2 (by decide)).trans ((B2_keep m b0 c main_arg2 (by decide)).trans (B1_keep m b0 c main_arg2 (by decide))))).trans rfl
theorem arg5_B5 : B5 m b0 b1 b2 c (Proc.devRef .tc main_arg5) = ab2 m c :=
  ((B5_keep m b0 b1 b2 c main_arg5 (by decide)).trans ((B4_keep m b0 b1 c main_arg5 (by decide)).trans ((B3_keep m b0 b1 c main_arg5 (by decide)).trans ((B2_keep m b0 c main_arg5 (by decide)).trans (B1_keep m b0 c main_arg5 (by decide)))))).trans rfl
theorem arg4_B6 : B6 m b0 b1 b2 c (Proc.devRef .tc main_arg4) = aW2 m c :=
  ((B6_keep m b0 b1 b2 c main_arg4 (by decide)).trans ((B5_keep m b0 b1 b2 c main_arg4 (by decide)).trans ((B4_keep m b0 b1 c main_arg4 (by decide)).trans ((B3_keep m b0 b1 c main_arg4 (by decide)).trans ((B2_keep m b0 c main_arg4 (by decide)).trans (B1_keep m b0 c main_arg4 (by decide))))))).trans rfl
theorem arg7_B7 : B7 m b0 b1 b2 b3 c (Proc.devRef .tc main_arg7) = abe m c :=
  ((B7_keep m b0 b1 b2 b3 c main_arg7 (by decide)).trans ((B6_keep m b0 b1 b2 c main_arg7 (by decide)).trans ((B5_keep m b0 b1 b2 c main_arg7 (by decide)).trans ((B4_keep m b0 b1 c main_arg7 (by decide)).trans ((B3_keep m b0 b1 c main_arg7 (by decide)).trans ((B2_keep m b0 c main_arg7 (by decide)).trans (B1_keep m b0 c main_arg7 (by decide)))))))).trans rfl
theorem arg6_B8 : B8 m b0 b1 b2 b3 c (Proc.devRef .tc main_arg6) = aWe m c :=
  ((B8_keep m b0 b1 b2 b3 c main_arg6 (by decide)).trans ((B7_keep m b0 b1 b2 b3 c main_arg6 (by decide)).trans ((B6_keep m b0 b1 b2 c main_arg6 (by decide)).trans ((B5_keep m b0 b1 b2 c main_arg6 (by decide)).trans ((B4_keep m b0 b1 c main_arg6 (by decide)).trans ((B3_keep m b0 b1 c main_arg6 (by decide)).trans ((B2_keep m b0 c main_arg6 (by decide)).trans (B1_keep m b0 c main_arg6 (by decide))))))))).trans rfl
theorem arg9_B10 : B10 m b0 b1 b2 b3 b4 b5 c (Proc.devRef .tc main_arg9) = abd1 m c :=
  ((B10_keep m b0 b1 b2 b3 b4 b5 c main_arg9 (by decide)).trans ((B9_keep m b0 b1 b2 b3 b4 c main_arg9 (by decide)).trans ((B8_keep m b0 b1 b2 b3 c main_arg9 (by decide)).trans ((B7_keep m b0 b1 b2 b3 c main_arg9 (by decide)).trans ((B6_keep m b0 b1 b2 c main_arg9 (by decide)).trans ((B5_keep m b0 b1 b2 c main_arg9 (by decide)).trans ((B4_keep m b0 b1 c main_arg9 (by decide)).trans ((B3_keep m b0 b1 c main_arg9 (by decide)).trans ((B2_keep m b0 c main_arg9 (by decide)).trans (B1_keep m b0 c main_arg9 (by decide))))))))))).trans rfl
theorem arg8_B11 : B11 m b0 b1 b2 b3 b4 b5 c (Proc.devRef .tc main_arg8) = aWd1 m c :=
  ((B11_keep m b0 b1 b2 b3 b4 b5 c main_arg8 (by decide)).trans ((B10_keep m b0 b1 b2 b3 b4 b5 c main_arg8 (by decide)).trans ((B9_keep m b0 b1 b2 b3 b4 c main_arg8 (by decide)).trans ((B8_keep m b0 b1 b2 b3 c main_arg8 (by decide)).trans ((B7_keep m b0 b1 b2 b3 c main_arg8 (by decide)).trans ((B6_keep m b0 b1 b2 c main_arg8 (by decide)).trans ((B5_keep m b0 b1 b2 c main_arg8 (by decide)).trans ((B4_keep m b0 b1 c main_arg8 (by decide)).trans ((B3_keep m b0 b1 c main_arg8 (by decide)).trans ((B2_keep m b0 c main_arg8 (by decide)).trans (B1_keep m b0 c main_arg8 (by decide)))))))))))).trans rfl
theorem arg11_B12 : B12 m b0 b1 b2 b3 b4 b5 b6 c (Proc.devRef .tc main_arg11) = abd2 m c :=
  ((B12_keep m b0 b1 b2 b3 b4 b5 b6 c main_arg11 (by decide)).trans ((B11_keep m b0 b1 b2 b3 b4 b5 c main_arg11 (by decide)).trans ((B10_keep m b0 b1 b2 b3 b4 b5 c main_arg11 (by decide)).trans ((B9_keep m b0 b1 b2 b3 b4 c main_arg11 (by decide)).trans ((B8_keep m b0 b1 b2 b3 c main_arg11 (by decide)).trans ((B7_keep m b0 b1 b2 b3 c main_arg11 (by decide)).trans ((B6_keep m b0 b1 b2 c main_arg11 (by decide)).trans ((B5_keep m b0 b1 b2 c main_arg11 (by decide)).trans ((B4_keep m b0 b1 c main_arg11 (by decide)).trans ((B3_keep m b0 b1 c main_arg11 (by decide)).trans ((B2_keep m b0 c main_arg11 (by decide)).trans (B1_keep m b0 c main_arg11 (by decide))))))))))))).trans rfl
theorem arg10_B13 : B13 m b0 b1 b2 b3 b4 b5 b6 c (Proc.devRef .tc main_arg10) = aWd2 m c :=
  ((B13_keep m b0 b1 b2 b3 b4 b5 b6 c main_arg10 (by decide)).trans ((B12_keep m b0 b1 b2 b3 b4 b5 b6 c main_arg10 (by decide)).trans ((B11_keep m b0 b1 b2 b3 b4 b5 c main_arg10 (by decide)).trans ((B10_keep m b0 b1 b2 b3 b4 b5 c main_arg10 (by decide)).trans ((B9_keep m b0 b1 b2 b3 b4 c main_arg10 (by decide)).trans ((B8_keep m b0 b1 b2 b3 c main_arg10 (by decide)).trans ((B7_keep m b0 b1 b2 b3 c main_arg10 (by decide)).trans ((B6_keep m b0 b1 b2 c main_arg10 (by decide)).trans ((B5_keep m b0 b1 b2 c main_arg10 (by decide)).trans ((B4_keep m b0 b1 c main_arg10 (by decide)).trans ((B3_keep m b0 b1 c main_arg10 (by decide)).trans ((B2_keep m b0 c main_arg10 (by decide)).trans (B1_keep m b0 c main_arg10 (by decide)))))))))))))).trans rfl

/-! ## The degree column, its row, the normalised adjacency -/

theorem v0_B1 : B1 m b0 c (Proc.devRef .tc main_v0) = Cert.Spec.dinvCol (aE m c) :=
  (B1_arr m b0 c 1).trans ((final0 (C0 m) c).trans rfl)
theorem v0_B2 : B2 m b0 c (Proc.devRef .tc main_v0) = Cert.Spec.dinvCol (aE m c) :=
  (B2_keep m b0 c main_v0 (by decide)).trans (v0_B1 m c)
theorem v1_B2 : B2 m b0 c (Proc.devRef .tc main_v1) = Cert.Spec.dinvRow (aE m c) :=
  reshape_v1 (B1 m b0 c) (aE m c) (v0_B1 m c)
theorem v2_B3 : B3 m b0 b1 c (Proc.devRef .tc main_v2) = (Cert.Spec.nadjMat (aE m c)) := by
  refine (B3_arr m b0 b1 c 3).trans ((final1 (C2 m b0) c).trans ?_)
  show Cert.Spec.nadjOf (B2 m b0 c (Proc.devRef .tc main_arg1)) (B2 m b0 c (Proc.devRef .tc main_v0)) (B2 m b0 c (Proc.devRef .tc main_v1)) = _
  rw [arg1_B2, v0_B2, v1_B2]
  exact Cert.Spec.nadjOf_dinv _

/-! ## Region 2: the first hidden layer -/

theorem v2_B4 : B4 m b0 b1 c (Proc.devRef .tc main_v2) = (Cert.Spec.nadjMat (aE m c)) :=
  (B4_keep m b0 b1 c main_v2 (by decide)).trans (v2_B3 m c)
theorem v3_B4 : B4 m b0 b1 c (Proc.devRef .tc main_v3) = Cert.Spec.asRow (ab1 m c) :=
  (reshape_v3 (B3 m b0 b1 c)).trans (congrArg Cert.Spec.asRow (arg3_B3 m c))
theorem v4_B5 : B5 m b0 b1 b2 c (Proc.devRef .tc main_v4) = (Cert.Spec.hid (aE m c) (aX m c) (aW1 m c) (ab1 m c)) := by
  refine (B5_arr m b0 b1 b2 c 4).trans ((final2 (C4 m b0 b1) c).trans ?_)
  show Cert.Spec.layer (B4 m b0 b1 c (Proc.devRef .tc main_v2)) (B4 m b0 b1 c (Proc.devRef .tc main_arg0)) (B4 m b0 b1 c (Proc.devRef .tc main_arg2)) (B4 m b0 b1 c (Proc.devRef .tc main_v3)) = _
  rw [v2_B4, arg0_B4, arg2_B4, v3_B4]
  rfl

/-! ## Region 3: the latent code -/

theorem v2_B6 : B6 m b0 b1 b2 c (Proc.devRef .tc main_v2) = (Cert.Spec.nadjMat (aE m c)) :=
  ((B6_keep m b0 b1 b2 c main_v2 (by decide)).trans ((B5_keep m b0 b1 b2 c main_v2 (by decide)).trans (B4_keep m b0 b1 c main_v2 (by decide)))).trans (v2_B3 m c)
theorem v5_B6 : B6 m b0 b1 b2 c (Proc.devRef .tc main_v5) = Cert.Spec.asRow (ab2 m c) :=
  (reshape_v5 (B5 m b0 b1 b2 c)).trans (congrArg Cert.Spec.asRow (arg5_B5 m c))
theorem v4_B6 : B6 m b0 b1 b2 c (Proc.devRef .tc main_v4) = (Cert.Spec.hid (aE m c) (aX m c) (aW1 m c) (ab1 m c)) :=
  (B6_keep m b0 b1 b2 c main_v4 (by decide)).trans (v4_B5 m c)
theorem v6_B7 : B7 m b0 b1 b2 b3 c (Proc.devRef .tc main_v6) = (Cert.Spec.lat (aE m c) (aX m c) (aW1 m c) (ab1 m c) (aW2 m c) (ab2 m c)) := by
  refine (B7_arr m b0 b1 b2 b3 c 4).trans ((final3 (C6 m b0 b1 b2) c).trans ?_)
  show Cert.Spec.layer (B6 m b0 b1 b2 c (Proc.devRef .tc main_v2)) (B6 m b0 b1 b2 c (Proc.devRef .tc main_v4)) (B6 m b0 b1 b2 c (Proc.devRef .tc main_arg4)) (B6 m b0 b1 b2 c (Proc.devRef .tc main_v5)) = _
  rw [v2_B6, v4_B6, arg4_B6, v5_B6]
  rfl

/-! ## Region 4: the edge decoder's features -/

theorem v2_B8 : B8 m b0 b1 b2 b3 c (Proc.devRef .tc main_v2) = (Cert.Spec.nadjMat (aE m c)) :=
  ((B8_keep m b0 b1 b2 b3 c main_v2 (by decide)).trans ((B7_keep m b0 b1 b2 b3 c main_v2 (by decide)).trans ((B6_keep m b0 b1 b2 c main_v2 (by decide)).trans ((B5_keep m b0 b1 b2 c main_v2 (by decide)).trans (B4_keep m b0 b1 c main_v2 (by decide)))))).trans (v2_B3 m c)
theorem v7_B8 : B8 m b0 b1 b2 b3 c (Proc.devRef .tc main_v7) = Cert.Spec.asRow (abe m c) :=
  (reshape_v7 (B7 m b0 b1 b2 b3 c)).trans (congrArg Cert.Spec.asRow (arg7_B7 m c))
theorem v6_B8 : B8 m b0 b1 b2 b3 c (Proc.devRef .tc main_v6) = (Cert.Spec.lat (aE m c) (aX m c) (aW1 m c) (ab1 m c) (aW2 m c) (ab2 m c)) :=
  (B8_keep m b0 b1 b2 b3 c main_v6 (by decide)).trans (v6_B7 m c)
theorem v8_B9 : B9 m b0 b1 b2 b3 b4 c (Proc.devRef .tc main_v8) = (Cert.Spec.edgeFeat (aE m c) (aX m c) (aW1 m c) (ab1 m c) (aW2 m c) (ab2 m c) (aWe m c) (abe m c)) := by
  refine (B9_arr m b0 b1 b2 b3 b4 c 4).trans ((final4 (C8 m b0 b1 b2 b3) c).trans ?_)
  show Cert.Spec.layer (B8 m b0 b1 b2 b3 c (Proc.devRef .tc main_v2)) (B8 m b0 b1 b2 b3 c (Proc.devRef .tc main_v6)) (B8 m b0 b1 b2 b3 c (Proc.devRef .tc main_arg6)) (B8 m b0 b1 b2 b3 c (Proc.devRef .tc main_v7)) = _
  rw [v2_B8, v6_B8, arg6_B8, v7_B8]
  rfl

/-! ## Region 5: the edge decoder -/

theorem v9_B10 : B10 m b0 b1 b2 b3 b4 b5 c (Proc.devRef .tc main_v9) = (Cert.Spec.reconEdge (aE m c) (aX m c) (aW1 m c) (ab1 m c) (aW2 m c) (ab2 m c) (aWe m c) (abe m c)) := by
  refine (B10_out m b0 b1 b2 b3 b4 b5 c).trans ((final5 (C9 m b0 b1 b2 b3 b4) c).trans ?_)
  show Cert.Spec.recon (B9 m b0 b1 b2 b3 b4 c (Proc.devRef .tc main_v8)) = _
  rw [v8_B9]
  rfl

/-! ## Region 6: the feature decoder's hidden layer -/

theorem v2_B11 : B11 m b0 b1 b2 b3 b4 b5 c (Proc.devRef .tc main_v2) = (Cert.Spec.nadjMat (aE m c)) :=
  ((B11_keep m b0 b1 b2 b3 b4 b5 c main_v2 (by decide)).trans ((B10_keep m b0 b1 b2 b3 b4 b5 c main_v2 (by decide)).trans ((B9_keep m b0 b1 b2 b3 b4 c main_v2 (by decide)).trans ((B8_keep m b0 b1 b2 b3 c main_v2 (by decide)).trans ((B7_keep m b0 b1 b2 b3 c main_v2 (by decide)).trans ((B6_keep m b0 b1 b2 c main_v2 (by decide)).trans ((B5_keep m b0 b1 b2 c main_v2 (by decide)).trans (B4_keep m b0 b1 c main_v2 (by decide))))))))).trans (v2_B3 m c)
theorem v10_B11 : B11 m b0 b1 b2 b3 b4 b5 c (Proc.devRef .tc main_v10) = Cert.Spec.asRow (abd1 m c) :=
  (reshape_v10 (B10 m b0 b1 b2 b3 b4 b5 c)).trans (congrArg Cert.Spec.asRow (arg9_B10 m c))
theorem v6_B11 : B11 m b0 b1 b2 b3 b4 b5 c (Proc.devRef .tc main_v6) = (Cert.Spec.lat (aE m c) (aX m c) (aW1 m c) (ab1 m c) (aW2 m c) (ab2 m c)) :=
  ((B11_keep m b0 b1 b2 b3 b4 b5 c main_v6 (by decide)).trans ((B10_keep m b0 b1 b2 b3 b4 b5 c main_v6 (by decide)).trans ((B9_keep m b0 b1 b2 b3 b4 c main_v6 (by decide)).trans (B8_keep m b0 b1 b2 b3 c main_v6 (by decide))))).trans (v6_B7 m c)
theorem v11_B12 : B12 m b0 b1 b2 b3 b4 b5 b6 c (Proc.devRef .tc main_v11) = (Cert.Spec.decHid (aE m c) (aX m c) (aW1 m c) (ab1 m c) (aW2 m c) (ab2 m c) (aWd1 m c) (abd1 m c)) := by
  refine (B12_arr m b0 b1 b2 b3 b4 b5 b6 c 4).trans ((final6 (C11 m b0 b1 b2 b3 b4 b5) c).trans ?_)
  show Cert.Spec.layer (B11 m b0 b1 b2 b3 b4 b5 c (Proc.devRef .tc main_v2)) (B11 m b0 b1 b2 b3 b4 b5 c (Proc.devRef .tc main_v6)) (B11 m b0 b1 b2 b3 b4 b5 c (Proc.devRef .tc main_arg8)) (B11 m b0 b1 b2 b3 b4 b5 c (Proc.devRef .tc main_v10)) = _
  rw [v2_B11, v6_B11, arg8_B11, v10_B11]
  rfl

/-! ## Region 7: the reconstructed features -/

theorem v2_B13 : B13 m b0 b1 b2 b3 b4 b5 b6 c (Proc.devRef .tc main_v2) = (Cert.Spec.nadjMat (aE m c)) :=
  ((B13_keep m b0 b1 b2 b3 b4 b5 b6 c main_v2 (by decide)).trans ((B12_keep m b0 b1 b2 b3 b4 b5 b6 c main_v2 (by decide)).trans ((B11_keep m b0 b1 b2 b3 b4 b5 c main_v2 (by decide)).trans ((B10_keep m b0 b1 b2 b3 b4 b5 c main_v2 (by decide)).trans ((B9_keep m b0 b1 b2 b3 b4 c main_v2 (by decide)).trans ((B8_keep m b0 b1 b2 b3 c main_v2 (by decide)).trans ((B7_keep m b0 b1 b2 b3 c main_v2 (by decide)).trans ((B6_keep m b0 b1 b2 c main_v2 (by decide)).trans ((B5_keep m b0 b1 b2 c main_v2 (by decide)).trans (B4_keep m b0 b1 c main_v2 (by decide))))))))))).trans (v2_B3 m c)
theorem v12_B13 : B13 m b0 b1 b2 b3 b4 b5 b6 c (Proc.devRef .tc main_v12) = Cert.Spec.asRow (abd2 m c) :=
  (reshape_v12 (B12 m b0 b1 b2 b3 b4 b5 b6 c)).trans (congrArg Cert.Spec.asRow (arg11_B12 m c))
theorem v11_B13 : B13 m b0 b1 b2 b3 b4 b5 b6 c (Proc.devRef .tc main_v11) = (Cert.Spec.decHid (aE m c) (aX m c) (aW1 m c) (ab1 m c) (aW2 m c) (ab2 m c) (aWd1 m c) (abd1 m c)) :=
  (B13_keep m b0 b1 b2 b3 b4 b5 b6 c main_v11 (by decide)).trans (v11_B12 m c)
theorem v13_B14 : B14 m b0 b1 b2 b3 b4 b5 b6 b7 c (Proc.devRef .tc main_v13) = (Cert.Spec.xOut (aE m c) (aX m c) (aW1 m c) (ab1 m c) (aW2 m c) (ab2 m c) (aWd1 m c) (abd1 m c) (aWd2 m c) (abd2 m c)) := by
  refine (B14_arr m b0 b1 b2 b3 b4 b5 b6 b7 c 4).trans ((final7 (C13 m b0 b1 b2 b3 b4 b5 b6) c).trans ?_)
  show Cert.Spec.layer (B13 m b0 b1 b2 b3 b4 b5 b6 c (Proc.devRef .tc main_v2)) (B13 m b0 b1 b2 b3 b4 b5 b6 c (Proc.devRef .tc main_v11)) (B13 m b0 b1 b2 b3 b4 b5 b6 c (Proc.devRef .tc main_arg10)) (B13 m b0 b1 b2 b3 b4 b5 b6 c (Proc.devRef .tc main_v12)) = _
  rw [v2_B13, v11_B13, arg10_B13, v12_B13]
  rfl

/-! ## The three results at the end -/

theorem v9_B14 : B14 m b0 b1 b2 b3 b4 b5 b6 b7 c (Proc.devRef .tc main_v9) = (Cert.Spec.reconEdge (aE m c) (aX m c) (aW1 m c) (ab1 m c) (aW2 m c) (ab2 m c) (aWe m c) (abe m c)) :=
  ((B14_keep m b0 b1 b2 b3 b4 b5 b6 b7 c main_v9 (by decide)).trans ((B13_keep m b0 b1 b2 b3 b4 b5 b6 c main_v9 (by decide)).trans ((B12_keep m b0 b1 b2 b3 b4 b5 b6 c main_v9 (by decide)).trans (B11_keep m b0 b1 b2 b3 b4 b5 c main_v9 (by decide))))).trans (v9_B10 m c)
theorem v6_B14 : B14 m b0 b1 b2 b3 b4 b5 b6 b7 c (Proc.devRef .tc main_v6) = (Cert.Spec.lat (aE m c) (aX m c) (aW1 m c) (ab1 m c) (aW2 m c) (ab2 m c)) :=
  ((B14_keep m b0 b1 b2 b3 b4 b5 b6 b7 c main_v6 (by decide)).trans ((B13_keep m b0 b1 b2 b3 b4 b5 b6 c main_v6 (by decide)).trans ((B12_keep m b0 b1 b2 b3 b4 b5 b6 c main_v6 (by decide)).trans ((B11_keep m b0 b1 b2 b3 b4 b5 c main_v6 (by decide)).trans ((B10_keep m b0 b1 b2 b3 b4 b5 c main_v6 (by decide)).trans ((B9_keep m b0 b1 b2 b3 b4 c main_v6 (by decide)).trans (B8_keep m b0 b1 b2 b3 c main_v6 (by decide)))))))).trans (v6_B7 m c)

/-- THE KERNEL PROGRAM'S RUN, with its results named: every weakly fair execution terminates, nothing faulting; the three
    results hold the reconstructed adjacency, the reconstructed features and the latent code of the argument arrays, and the
    arguments end as launched. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v9) = (Cert.Spec.reconEdge (aE m c) (aX m c) (aW1 m c) (ab1 m c) (aW2 m c) (ab2 m c) (aWe m c) (abe m c))
      ∧ r.2.mem ((c.tc : Thread nD τ).loc main_v13) = (Cert.Spec.xOut (aE m c) (aX m c) (aW1 m c) (ab1 m c) (aW2 m c) (ab2 m c) (aWd1 m c) (abd1 m c) (aWd2 m c) (abd2 m c))
      ∧ r.2.mem ((c.tc : Thread nD τ).loc main_v6) = (Cert.Spec.lat (aE m c) (aX m c) (aW1 m c) (ab1 m c) (aW2 m c) (ab2 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_v9 (by decide))).trans (v9_B14 m c),
     (h c _ (mem_uc main_v13 (by decide))).trans (v13_B14 m c),
     (h c _ (mem_uc main_v6 (by decide))).trans (v6_B14 m c),
     (h c _ (mem_uc main_arg0 (by decide))).trans (B14_arg0 m b0 b1 b2 b3 b4 b5 b6 b7 c),
     (h c _ (mem_uc main_arg1 (by decide))).trans (B14_arg1 m b0 b1 b2 b3 b4 b5 b6 b7 c),
     (h c _ (mem_uc main_arg2 (by decide))).trans (B14_arg2 m b0 b1 b2 b3 b4 b5 b6 b7 c),
     (h c _ (mem_uc main_arg3 (by decide))).trans (B14_arg3 m b0 b1 b2 b3 b4 b5 b6 b7 c),
     (h c _ (mem_uc main_arg4 (by decide))).trans (B14_arg4 m b0 b1 b2 b3 b4 b5 b6 b7 c),
     (h c _ (mem_uc main_arg5 (by decide))).trans (B14_arg5 m b0 b1 b2 b3 b4 b5 b6 b7 c),
     (h c _ (mem_uc main_arg6 (by decide))).trans (B14_arg6 m b0 b1 b2 b3 b4 b5 b6 b7 c),
     (h c _ (mem_uc main_arg7 (by decide))).trans (B14_arg7 m b0 b1 b2 b3 b4 b5 b6 b7 c),
     (h c _ (mem_uc main_arg8 (by decide))).trans (B14_arg8 m b0 b1 b2 b3 b4 b5 b6 b7 c),
     (h c _ (mem_uc main_arg9 (by decide))).trans (B14_arg9 m b0 b1 b2 b3 b4 b5 b6 b7 c),
     (h c _ (mem_uc main_arg10 (by decide))).trans (B14_arg10 m b0 b1 b2 b3 b4 b5 b6 b7 c),
     (h c _ (mem_uc main_arg11 (by decide))).trans (B14_arg11 m b0 b1 b2 b3 b4 b5 b6 b7 c)⟩)
    (run_all m ρ b0 b1 b2 b3 b4 b5 b6 b7)

end Cert.KernelIdeal.Hand

end
-- ==== Proof.RefRun1.lean ====
/-
  The reference program's values as whole-array functions of its argument arrays.

  Each function below is the composition of host operations that @main performs to produce one of its named
  intermediate arrays, written once: the adjacency with self loops, its row sums, the guarded inverse square root,
  the normalised adjacency, the leaky rectifier at the two widths, one graph-convolution layer at the two pairs
  of widths, the edge decoder, and the network built from them.
-/
import proofs.«178500_j188978561286_1_alg».proof.Proof.Gen.ReferenceIdeal

noncomputable section

namespace Cert.ReferenceIdeal.Hand

open Cert.ReferenceIdeal Cert.ReferenceIdeal.Gen Idealize.ShloMosaic

variable {F : FTy → Type} [FloatOps F]

/-- The adjacency with self loops: the indicator of a nonzero table entry, as a float, plus the indicator of the
    diagonal (row coordinate equal to column coordinate), as a float. -/
def sAdj (E : IVec S8192x8192 32) : FVec F S8192x8192 .f32 :=
  addf (uitofp .f32 (cmpi .ne E (broadcastInDim S8192x8192 ![] bcast_S_S8192x8192 (constantI S_ 32 0#32))))
    (uitofp .f32 (cmpi .eq
      (addi (iotaInDim S8192x8192 32 0) (broadcastInDim S8192x8192 ![] bcast_S_S8192x8192 (constantI S_ 32 0#32)))
      (iotaInDim S8192x8192 32 1)))

/-- The degrees: the sums of the rows of the adjacency, from the constant zero. -/
def sDeg (E : IVec S8192x8192 32) : FVec F S8192 .f32 :=
  Host.reduceAdd (sAdj (F := F) E) (constant S_ .f32 0x00000000#32) reducesTo_S8192x8192_S8192_d1 h_S_

/-- The inverse square roots of the degrees where a degree is positive, zero elsewhere. -/
def sDinv (E : IVec S8192x8192 32) : FVec F S8192 .f32 :=
  select (cmpf .ogt (sDeg (F := F) E) (broadcastInDim S8192 ![] bcast_S_S8192 (constant S_ .f32 0x00000000#32)))
    (Host.rsqrt (sDeg (F := F) E))
    (broadcastInDim S8192 ![] bcast_S_S8192 (id (constant S_ .f32 0x00000000#32)))

/-- The normalised adjacency: the column of scales times the adjacency, times the row of scales. -/
def sNadj (E : IVec S8192x8192 32) : FVec F S8192x8192 .f32 :=
  mulf
    (mulf
      (broadcastInDim S8192x8192 ![0, 1] bcast_S8192x1_S8192x8192_0_1
        (broadcastInDim S8192x1 ![0] bcast_S8192_S8192x1_0 (sDinv (F := F) E)))
      (sAdj (F := F) E))
    (broadcastInDim S8192x8192 ![0, 1] bcast_S1x8192_S8192x8192_0_1
      (broadcastInDim S1x8192 ![1] bcast_S8192_S1x8192_1 (sDinv (F := F) E)))

/-- The leaky rectifier on 64 columns: the entry where it is at least zero, the slope times the entry elsewhere. -/
def sLrelu64 (x : FVec F S8192x64 .f32) (s : FVec F S_ .f32) : FVec F S8192x64 .f32 :=
  select (cmpf .oge x (broadcastInDim S8192x64 ![] bcast_S_S8192x64 (constant S_ .f32 0x00000000#32))) x
    (mulf (broadcastInDim S8192x64 ![] bcast_S_S8192x64 (id s)) x)

/-- The leaky rectifier on 128 columns. -/
def sLrelu128 (x : FVec F S8192x128 .f32) (s : FVec F S_ .f32) : FVec F S8192x128 .f32 :=
  select (cmpf .oge x (broadcastInDim S8192x128 ![] bcast_S_S8192x128 (constant S_ .f32 0x00000000#32))) x
    (mulf (broadcastInDim S8192x128 ![] bcast_S_S8192x128 (id s)) x)

/-- One layer from 128 to 64 features: the mixing matrix times (features times weights), plus the bias on every
    row, through the rectifier. -/
def sLayerA (N : FVec F S8192x8192 .f32) (X : FVec F S8192x128 .f32) (W : FVec F S128x64 .f32) (b : FVec F S64 .f32) :
    FVec F S8192x64 .f32 :=
  sLrelu64
    (addf
      (Host.dotGeneral dot_S8192x8192_S8192x64_S8192x64_1_0_0_1_n_n none N
        (Host.dotGeneral dot_S8192x128_S128x64_S8192x64_1_0_0_1_n_n none X W))
      (broadcastInDim S8192x64 ![0, 1] bcast_S1x64_S8192x64_0_1 (broadcastInDim S1x64 ![1] bcast_S64_S1x64_1 b)))
    (constant S_ .f32 0x3C23D70A#32)

/-- One layer from 64 to 128 features. -/
def sLayerB (N : FVec F S8192x8192 .f32) (X : FVec F S8192x64 .f32) (W : FVec F S64x128 .f32) (b : FVec F S128 .f32) :
    FVec F S8192x128 .f32 :=
  sLrelu128
    (addf
      (Host.dotGeneral dot_S8192x8192_S8192x128_S8192x128_1_0_0_1_n_n none N
        (Host.dotGeneral dot_S8192x64_S64x128_S8192x128_1_0_0_1_n_n none X W))
      (broadcastInDim S8192x128 ![0, 1] bcast_S1x128_S8192x128_0_1 (broadcastInDim S1x128 ![1] bcast_S128_S1x128_1 b)))
    (constant S_ .f32 0x3C23D70A#32)

/-- The edge decoder: one over one plus the exponential of minus the Gram matrix of the rows. -/
def sRecon (R : FVec F S8192x64 .f32) : FVec F S8192x8192 .f32 :=
  Host.divf (broadcastInDim S8192x8192 ![] bcast_S_S8192x8192 (constant S_ .f32 0x3F800000#32))
    (addf (broadcastInDim S8192x8192 ![] bcast_S_S8192x8192 (constant S_ .f32 0x3F800000#32))
      (Host.exp (Host.negf
        (Host.dotGeneral dot_S8192x64_S64x8192_S8192x8192_1_0_0_1_n_n none R
          (transpose S64x8192 [1, 0] R transposes_S8192x64_S64x8192_1_0)))))

section Net

variable (E : IVec S8192x8192 32) (x : FVec F S8192x128 .f32) (W1 : FVec F S128x64 .f32) (b1 : FVec F S64 .f32)
  (W2 : FVec F S64x128 .f32) (b2 : FVec F S128 .f32) (We : FVec F S128x64 .f32) (be : FVec F S64 .f32)
  (Wd1 : FVec F S128x64 .f32) (bd1 : FVec F S64 .f32) (Wd2 : FVec F S64x128 .f32) (bd2 : FVec F S128 .f32)

/-- The first hidden layer. -/
def sHid : FVec F S8192x64 .f32 := sLayerA (sNadj E) x W1 b1
/-- The latent code. -/
def sLat : FVec F S8192x128 .f32 := sLayerB (sNadj E) (sHid E x W1 b1) W2 b2
/-- The features the edge decoder multiplies. -/
def sEdgeFeat : FVec F S8192x64 .f32 := sLayerA (sNadj E) (sLat E x W1 b1 W2 b2) We be
/-- The reconstructed adjacency. -/
def sReconEdge : FVec F S8192x8192 .f32 := sRecon (sEdgeFeat E x W1 b1 W2 b2 We be)
/-- The feature decoder's hidden layer. -/
def sDecHid : FVec F S8192x64 .f32 := sLayerA (sNadj E) (sLat E x W1 b1 W2 b2) Wd1 bd1
/-- The reconstructed features. -/
def sXOut : FVec F S8192x128 .f32 := sLayerB (sNadj E) (sDecHid E x W1 b1 W2 b2 Wd1 bd1) Wd2 bd2

end Net

end Cert.ReferenceIdeal.Hand

end
-- ==== Proof.RefRun.lean ====
/-
  The reference program's @main as one straight line of host operations, and its run.

  The printed @main is 71 statements, six of them calls of small functions (a select against a broadcast
  scalar; the leaky rectifier at two widths, which itself calls a select).  Unfolding each call at its site gives
  103 operations over the device's buffers; every weakly fair execution of such a line terminates with each buffer
  at the fold of the operations over the launch contents.  The fold at the three result buffers is then read as
  the whole-array functions of the argument arrays, and the argument buffers are never written.
-/
import proofs.«178500_j188978561286_1_alg».proof.Proof.RefRun1
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The operations of @main's first window (statements 1 to 60), each call unfolded at its site over that call's buffer record. -/
abbrev ops0 : List (HloOp τ sig (Elt F)) :=
  [ nullary main_c (constantI S_ 32 0#32),
    unary main_c main_v0 (broadcastInDim S8192x8192 ![] bcast_S_S8192x8192 : (⟨S_, .i32⟩ : BufTy).Contents (Elt F) → (⟨S8192x8192, .i32⟩ : BufTy).Contents (Elt F)),
    binary main_arg1 main_v0 main_v1 (cmpi .ne : (⟨S8192x8192, .i32⟩ : BufTy).Contents (Elt F) → (⟨S8192x8192, .i32⟩ : BufTy).Contents (Elt F) → (⟨S8192x8192, .i1⟩ : BufTy).Contents (Elt F)),
    unary main_v1 main_v2 (uitofp .f32 : (⟨S8192x8192, .i1⟩ : BufTy).Contents (Elt F) → (⟨S8192x8192, .f32⟩ : BufTy).Contents (Elt F)),
    nullary main_v3 (iotaInDim S8192x8192 32 0),
    nullary main_v4 (iotaInDim S8192x8192 32 1),
    nullary main_c_0 (constantI S_ 32 0#32),
    unary main_c_0 main_v5 (broadcastInDim S8192x8192 ![] bcast_S_S8192x8192 : (⟨S_, .i32⟩ : BufTy).Contents (Elt F) → (⟨S8192x8192, .i32⟩ : BufTy).Contents (Elt F)),
    binary main_v3 main_v5 main_v6 (addi : (⟨S8192x8192, .i32⟩ : BufTy).Contents (Elt F) → (⟨S8192x8192, .i32⟩ : BufTy).Contents (Elt F) → (⟨S8192x8192, .i32⟩ : BufTy).Contents (Elt F)),
    binary main_v6 main_v4 main_v7 (cmpi .eq : (⟨S8192x8192, .i32⟩ : BufTy).Contents (Elt F) → (⟨S8192x8192, .i32⟩ : BufTy).Contents (Elt F) → (⟨S8192x8192, .i1⟩ : BufTy).Contents (Elt F)),
    unary main_v7 main_v8 (uitofp .f32 : (⟨S8192x8192, .i1⟩ : BufTy).Contents (Elt F) → (⟨S8192x8192, .f32⟩ : BufTy).Contents (Elt F)),
    binary main_v2 main_v8 main_v9 (addf : (⟨S8192x8192, .f32⟩ : BufTy).Contents (Elt F) → (⟨S8192x8192, .f32⟩ : BufTy).Contents (Elt F) → (⟨S8192x8192, .f32⟩ : BufTy).Contents (Elt F)),
    nullary main_cst (constant S_ .f32 0x00000000#32),
    binary main_v9 main_cst main_v10 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_1 (constant S_ .f32 0x00000000#32),
    unary main_cst_1 main_v11 (broadcastInDim S8192 ![] bcast_S_S8192 : (⟨S_, .f32⟩ : BufTy).Contents (Elt F) → (⟨S8192, .f32⟩ : BufTy).Contents (Elt F)),
    binary main_v10 main_v11 main_v12 (cmpf .ogt : (⟨S8192, .f32⟩ : BufTy).Contents (Elt F) → (⟨S8192, .f32⟩ : BufTy).Contents (Elt F) → (⟨S8192, .i1⟩ : BufTy).Contents (Elt F)),
    unary main_v10 main_v13 (Host.rsqrt : (⟨S8192, .f32⟩ : BufTy).Contents (Elt F) → (⟨S8192, .f32⟩ : BufTy).Contents (Elt F)),
    nullary main_cst_2 (constant S_ .f32 0x00000000#32),
    TRef.unary (.of main_cst_2 : TRef sig ⟨S_, .f32⟩) main_call0.v0 id,
    TRef.unary main_call0.v0 main_call0.v1 (broadcastInDim S8192 ![] bcast_S_S8192),
    TRef.ternary (.of main_v12 : TRef sig ⟨S8192, .i1⟩) (.of main_v13 : TRef sig ⟨S8192, .f32⟩) main_call0.v1 main_call0.v2 select,
    unary main_v14 main_v15 (broadcastInDim S8192x1 ![0] bcast_S8192_S8192x1_0 : (⟨S8192, .f32⟩ : BufTy).Contents (Elt F) → (⟨S8192x1, .f32⟩ : BufTy).Contents (Elt F)),
    unary main_v15 main_v16 (broadcastInDim S8192x8192 ![0, 1] bcast_S8192x1_S8192x8192_0_1 : (⟨S8192x1, .f32⟩ : BufTy).Contents (Elt F) → (⟨S8192x8192, .f32⟩ : BufTy).Contents (Elt F)),
    binary main_v16 main_v9 main_v17 (mulf : (⟨S8192x8192, .f32⟩ : BufTy).Contents (Elt F) → (⟨S8192x8192, .f32⟩ : BufTy).Contents (Elt F) → (⟨S8192x8192, .f32⟩ : BufTy).Contents (Elt F)),
    unary main_v14 main_v18 (broadcastInDim S1x8192 ![1] bcast_S8192_S1x8192_1 : (⟨S8192, .f32⟩ : BufTy).Contents (Elt F) → (⟨S1x8192, .f32⟩ : BufTy).Contents (Elt F)),
    unary main_v18 main_v19 (broadcastInDim S8192x8192 ![0, 1] bcast_S1x8192_S8192x8192_0_1 : (⟨S1x8192, .f32⟩ : BufTy).Contents (Elt F) → (⟨S8192x8192, .f32⟩ : BufTy).Contents (Elt F)),
    binary main_v17 main_v19 main_v20 (mulf : (⟨S8192x8192, .f32⟩ : BufTy).Contents (Elt F) → (⟨S8192x8192, .f32⟩ : BufTy).Contents (Elt F) → (⟨S8192x8192, .f32⟩ : BufTy).Contents (Elt F)),
    binary main_arg0 main_arg2 main_v21 ((fun l r => Host.dotGeneral dot_S8192x128_S128x64_S8192x64_1_0_0_1_n_n none l r) : (⟨S8192x128, .f32⟩ : BufTy).Contents (Elt F) → (⟨S128x64, .f32⟩ : BufTy).Contents (Elt F) → (⟨S8192x64, .f32⟩ : BufTy).Contents (Elt F)),
    binary main_v20 main_v21 main_v22 ((fun l r => Host.dotGeneral dot_S8192x8192_S8192x64_S8192x64_1_0_0_1_n_n none l r) : (⟨S8192x8192, .f32⟩ : BufTy).Contents (Elt F) → (⟨S8192x64, .f32⟩ : BufTy).Contents (Elt F) → (⟨S8192x64, .f32⟩ : BufTy).Contents (Elt F)),
    unary main_arg3 main_v23 (broadcastInDim S1x64 ![1] bcast_S64_S1x64_1 : (⟨S64, .f32⟩ : BufTy).Contents (Elt F) → (⟨S1x64, .f32⟩ : BufTy).Contents (Elt F)),
    unary main_v23 main_v24 (broadcastInDim S8192x64 ![0, 1] bcast_S1x64_S8192x64_0_1 : (⟨S1x64, .f32⟩ : BufTy).Contents (Elt F) → (⟨S8192x64, .f32⟩ : BufTy).Contents (Elt F)),
    binary main_v22 main_v24 main_v25 (addf : (⟨S8192x64, .f32⟩ : BufTy).Contents (Elt F) → (⟨S8192x64, .f32⟩ : BufTy).Contents (Elt F) → (⟨S8192x64, .f32⟩ : BufTy).Contents (Elt F)),
    nullary main_cst_3 (constant S_ .f32 0x3C23D70A#32),
    TRef.nullary main_call1.cst (constant S_ .f32 0x00000000#32),
    TRef.unary main_call1.cst main_call1.v0 (broadcastInDim S8192x64 ![] bcast_S_S8192x64),
    TRef.binary (.of main_v25 : TRef sig ⟨S8192x64, .f32⟩) main_call1.v0 main_call1.v1 (cmpf .oge),
    TRef.unary (.of main_cst_3 : TRef sig ⟨S_, .f32⟩) main_call1.v2 id,
    TRef.unary main_call1.v2 main_call1.v3 (broadcastInDim S8192x64 ![] bcast_S_S8192x64),
    TRef.binary main_call1.v3 (.of main_v25 : TRef sig ⟨S8192x64, .f32⟩) main_call1.v4 mulf,
    TRef.ternary main_call1.v1 (.of main_v25 : TRef sig ⟨S8192x64, .f32⟩) main_call1.v4 main_call1.call0.v0 select,
    binary main_v26 main_arg4 main_v27 ((fun l r => Host.dotGeneral dot_S8192x64_S64x128_S8192x128_1_0_0_1_n_n none l r) : (⟨S8192x64, .f32⟩ : BufTy).Contents (Elt F) → (⟨S64x128, .f32⟩ : BufTy).Contents (Elt F) → (⟨S8192x128, .f32⟩ : BufTy).Contents (Elt F)),
    binary main_v20 main_v27 main_v28 ((fun l r => Host.dotGeneral dot_S8192x8192_S8192x128_S8192x128_1_0_0_1_n_n none l r) : (⟨S8192x8192, .f32⟩ : BufTy).Contents (Elt F) → (⟨S8192x128, .f32⟩ : BufTy).Contents (Elt F) → (⟨S8192x128, .f32⟩ : BufTy).Contents (Elt F)),
    unary main_arg5 main_v29 (broadcastInDim S1x128 ![1] bcast_S128_S1x128_1 : (⟨S128, .f32⟩ : BufTy).Contents (Elt F) → (⟨S1x128, .f32⟩ : BufTy).Contents (Elt F)),
    unary main_v29 main_v30 (broadcastInDim S8192x128 ![0, 1] bcast_S1x128_S8192x128_0_1 : (⟨S1x128, .f32⟩ : BufTy).Contents (Elt F) → (⟨S8192x128, .f32⟩ : BufTy).Contents (Elt F)),
    binary main_v28 main_v30 main_v31 (addf : (⟨S8192x128, .f32⟩ : BufTy).Contents (Elt F) → (⟨S8192x128, .f32⟩ : BufTy).Contents (Elt F) → (⟨S8192x128, .f32⟩ : BufTy).Contents (Elt F)),
    nullary main_cst_4 (constant S_ .f32 0x3C23D70A#32),
    TRef.nullary main_call2.cst (constant S_ .f32 0x00000000#32),
    TRef.unary main_call2.cst main_call2.v0 (broadcastInDim S8192x128 ![] bcast_S_S8192x128),
    TRef.binary (.of main_v31 : TRef sig ⟨S8192x128, .f32⟩) main_call2.v0 main_call2.v1 (cmpf .oge),
    TRef.unary (.of main_cst_4 : TRef sig ⟨S_, .f32⟩) main_call2.v2 id,
    TRef.unary main_call2.v2 main_call2.v3 (broadcastInDim S8192x128 ![] bcast_S_S8192x128),
    TRef.binary main_call2.v3 (.of main_v31 : TRef sig ⟨S8192x128, .f32⟩) main_call2.v4 mulf,
    TRef.ternary main_call2.v1 (.of main_v31 : TRef sig ⟨S8192x128, .f32⟩) main_call2.v4 main_call2.call0.v0 select,
    binary main_v32 main_arg6 main_v33 ((fun l r => Host.dotGeneral dot_S8192x128_S128x64_S8192x64_1_0_0_1_n_n none l r) : (⟨S8192x128, .f32⟩ : BufTy).Contents (Elt F) → (⟨S128x64, .f32⟩ : BufTy).Contents (Elt F) → (⟨S8192x64, .f32⟩ : BufTy).Contents (Elt F)),
    binary main_v20 main_v33 main_v34 ((fun l r => Host.dotGeneral dot_S8192x8192_S8192x64_S8192x64_1_0_0_1_n_n none l r) : (⟨S8192x8192, .f32⟩ : BufTy).Contents (Elt F) → (⟨S8192x64, .f32⟩ : BufTy).Contents (Elt F) → (⟨S8192x64, .f32⟩ : BufTy).Contents (Elt F)),
    unary main_arg7 main_v35 (broadcastInDim S1x64 ![1] bcast_S64_S1x64_1 : (⟨S64, .f32⟩ : BufTy).Contents (Elt F) → (⟨S1x64, .f32⟩ : BufTy).Contents (Elt F)),
    unary main_v35 main_v36 (broadcastInDim S8192x64 ![0, 1] bcast_S1x64_S8192x64_0_1 : (⟨S1x64, .f32⟩ : BufTy).Contents (Elt F) → (⟨S8192x64, .f32⟩ : BufTy).Contents (Elt F)),
    binary main_v34 main_v36 main_v37 (addf : (⟨S8192x64, .f32⟩ : BufTy).Contents (Elt F) → (⟨S8192x64, .f32⟩ : BufTy).Contents (Elt F) → (⟨S8192x64, .f32⟩ : BufTy).Contents (Elt F)),
    nullary main_cst_5 (constant S_ .f32 0x3C23D70A#32),
    TRef.nullary main_call3.cst (constant S_ .f32 0x00000000#32),
    TRef.unary main_call3.cst main_call3.v0 (broadcastInDim S8192x64 ![] bcast_S_S8192x64),
    TRef.binary (.of main_v37 : TRef sig ⟨S8192x64, .f32⟩) main_call3.v0 main_call3.v1 (cmpf .oge),
    TRef.unary (.of main_cst_5 : TRef sig ⟨S_, .f32⟩) main_call3.v2 id,
    TRef.unary main_call3.v2 main_call3.v3 (broadcastInDim S8192x64 ![] bcast_S_S8192x64),
    TRef.binary main_call3.v3 (.of main_v37 : TRef sig ⟨S8192x64, .f32⟩) main_call3.v4 mulf,
    TRef.ternary main_call3.v1 (.of main_v37 : TRef sig ⟨S8192x64, .f32⟩) main_call3.v4 main_call3.call0.v0 select,
    unary main_v38 main_v39 ((transpose S64x8192 [1, 0] · transposes_S8192x64_S64x8192_1_0) : (⟨S8192x64, .f32⟩ : BufTy).Contents (Elt F) → (⟨S64x8192, .f32⟩ : BufTy).Contents (Elt F)),
    binary main_v38 main_v39 main_v40 ((fun l r => Host.dotGeneral dot_S8192x64_S64x8192_S8192x8192_1_0_0_1_n_n none l r) : (⟨S8192x64, .f32⟩ : BufTy).Contents (Elt F) → (⟨S64x8192, .f32⟩ : BufTy).Contents (Elt F) → (⟨S8192x8192, .f32⟩ : BufTy).Contents (Elt F)),
    unary main_v40 main_v41 (Host.negf : (⟨S8192x8192, .f32⟩ : BufTy).Contents (Elt F) → (⟨S8192x8192, .f32⟩ : BufTy).Contents (Elt F)),
    unary main_v41 main_v42 (Host.exp : (⟨S8192x8192, .f32⟩ : BufTy).Contents (Elt F) → (⟨S8192x8192, .f32⟩ : BufTy).Contents (Elt F)),
    nullary main_cst_6 (constant S_ .f32 0x3F800000#32),
    unary main_cst_6 main_v43 (broadcastInDim S8192x8192 ![] bcast_S_S8192x8192 : (⟨S_, .f32⟩ : BufTy).Contents (Elt F) → (⟨S8192x8192, .f32⟩ : BufTy).Contents (Elt F)),
    binary main_v43 main_v42 main_v44 (addf : (⟨S8192x8192, .f32⟩ : BufTy).Contents (Elt F) → (⟨S8192x8192, .f32⟩ : BufTy).Contents (Elt F) → (⟨S8192x8192, .f32⟩ : BufTy).Contents (Elt F)),
    nullary main_cst_7 (constant S_ .f32 0x3F800000#32),
    unary main_cst_7 main_v45 (broadcastInDim S8192x8192 ![] bcast_S_S8192x8192 : (⟨S_, .f32⟩ : BufTy).Contents (Elt F) → (⟨S8192x8192, .f32⟩ : BufTy).Contents (Elt F)),
    binary main_v45 main_v44 main_v46 (Host.divf : (⟨S8192x8192, .f32⟩ : BufTy).Contents (Elt F) → (⟨S8192x8192, .f32⟩ : BufTy).Contents (Elt F) → (⟨S8192x8192, .f32⟩ : BufTy).Contents (Elt F)),
    binary main_v32 main_arg8 main_v47 ((fun l r => Host.dotGeneral dot_S8192x128_S128x64_S8192x64_1_0_0_1_n_n none l r) : (⟨S8192x128, .f32⟩ : BufTy).Contents (Elt F) → (⟨S128x64, .f32⟩ : BufTy).Contents (Elt F) → (⟨S8192x64, .f32⟩ : BufTy).Contents (Elt F)),
    binary main_v20 main_v47 main_v48 ((fun l r => Host.dotGeneral dot_S8192x8192_S8192x64_S8192x64_1_0_0_1_n_n none l r) : (⟨S8192x8192, .f32⟩ : BufTy).Contents (Elt F) → (⟨S8192x64, .f32⟩ : BufTy).Contents (Elt F) → (⟨S8192x64, .f32⟩ : BufTy).Contents (Elt F)),
    unary main_arg9 main_v49 (broadcastInDim S1x64 ![1] bcast_S64_S1x64_1 : (⟨S64, .f32⟩ : BufTy).Contents (Elt F) → (⟨S1x64, .f32⟩ : BufTy).Contents (Elt F)) ]

/-- The operations of @main's second window (statements 61 to 71). -/
abbrev ops1 : List (HloOp τ sig (Elt F)) :=
  [ unary main_v49 main_v50 (broadcastInDim S8192x64 ![0, 1] bcast_S1x64_S8192x64_0_1 : (⟨S1x64, .f32⟩ : BufTy).Contents (Elt F) → (⟨S8192x64, .f32⟩ : BufTy).Contents (Elt F)),
    binary main_v48 main_v50 main_v51 (addf : (⟨S8192x64, .f32⟩ : BufTy).Contents (Elt F) → (⟨S8192x64, .f32⟩ : BufTy).Contents (Elt F) → (⟨S8192x64, .f32⟩ : BufTy).Contents (Elt F)),
    nullary main_cst_8 (constant S_ .f32 0x3C23D70A#32),
    TRef.nullary main_call4.cst (constant S_ .f32 0x00000000#32),
    TRef.unary main_call4.cst main_call4.v0 (broadcastInDim S8192x64 ![] bcast_S_S8192x64),
    TRef.binary (.of main_v51 : TRef sig ⟨S8192x64, .f32⟩) main_call4.v0 main_call4.v1 (cmpf .oge),
    TRef.unary (.of main_cst_8 : TRef sig ⟨S_, .f32⟩) main_call4.v2 id,
    TRef.unary main_call4.v2 main_call4.v3 (broadcastInDim S8192x64 ![] bcast_S_S8192x64),
    TRef.binary main_call4.v3 (.of main_v51 : TRef sig ⟨S8192x64, .f32⟩) main_call4.v4 mulf,
    TRef.ternary main_call4.v1 (.of main_v51 : TRef sig ⟨S8192x64, .f32⟩) main_call4.v4 main_call4.call0.v0 select,
    binary main_v52 main_arg10 main_v53 ((fun l r => Host.dotGeneral dot_S8192x64_S64x128_S8192x128_1_0_0_1_n_n none l r) : (⟨S8192x64, .f32⟩ : BufTy).Contents (Elt F) → (⟨S64x128, .f32⟩ : BufTy).Contents (Elt F) → (⟨S8192x128, .f32⟩ : BufTy).Contents (Elt F)),
    binary main_v20 main_v53 main_v54 ((fun l r => Host.dotGeneral dot_S8192x8192_S8192x128_S8192x128_1_0_0_1_n_n none l r) : (⟨S8192x8192, .f32⟩ : BufTy).Contents (Elt F) → (⟨S8192x128, .f32⟩ : BufTy).Contents (Elt F) → (⟨S8192x128, .f32⟩ : BufTy).Contents (Elt F)),
    unary main_arg11 main_v55 (broadcastInDim S1x128 ![1] bcast_S128_S1x128_1 : (⟨S128, .f32⟩ : BufTy).Contents (Elt F) → (⟨S1x128, .f32⟩ : BufTy).Contents (Elt F)),
    unary main_v55 main_v56 (broadcastInDim S8192x128 ![0, 1] bcast_S1x128_S8192x128_0_1 : (⟨S1x128, .f32⟩ : BufTy).Contents (Elt F) → (⟨S8192x128, .f32⟩ : BufTy).Contents (Elt F)),
    binary main_v54 main_v56 main_v57 (addf : (⟨S8192x128, .f32⟩ : BufTy).Contents (Elt F) → (⟨S8192x128, .f32⟩ : BufTy).Contents (Elt F) → (⟨S8192x128, .f32⟩ : BufTy).Contents (Elt F)),
    nullary main_cst_9 (constant S_ .f32 0x3C23D70A#32),
    TRef.nullary main_call5.cst (constant S_ .f32 0x00000000#32),
    TRef.unary main_call5.cst main_call5.v0 (broadcastInDim S8192x128 ![] bcast_S_S8192x128),
    TRef.binary (.of main_v57 : TRef sig ⟨S8192x128, .f32⟩) main_call5.v0 main_call5.v1 (cmpf .oge),
    TRef.unary (.of main_cst_9 : TRef sig ⟨S_, .f32⟩) main_call5.v2 id,
    TRef.unary main_call5.v2 main_call5.v3 (broadcastInDim S8192x128 ![] bcast_S_S8192x128),
    TRef.binary main_call5.v3 (.of main_v57 : TRef sig ⟨S8192x128, .f32⟩) main_call5.v4 mulf,
    TRef.ternary main_call5.v1 (.of main_v57 : TRef sig ⟨S8192x128, .f32⟩) main_call5.v4 main_call5.call0.v0 select ]

/-- @main's 103 operations in order. -/
abbrev ops : List (HloOp τ sig (Elt F)) :=
  [ nullary main_c (constantI S_ 32 0#32),
    unary main_c main_v0 (broadcastInDim S8192x8192 ![] bcast_S_S8192x8192 : (⟨S_, .i32⟩ : BufTy).Contents (Elt F) → (⟨S8192x8192, .i32⟩ : BufTy).Contents (Elt F)),
    binary main_arg1 main_v0 main_v1 (cmpi .ne : (⟨S8192x8192, .i32⟩ : BufTy).Contents (Elt F) → (⟨S8192x8192, .i32⟩ : BufTy).Contents (Elt F) → (⟨S8192x8192, .i1⟩ : BufTy).Contents (Elt F)),
    unary main_v1 main_v2 (uitofp .f32 : (⟨S8192x8192, .i1⟩ : BufTy).Contents (Elt F) → (⟨S8192x8192, .f32⟩ : BufTy).Contents (Elt F)),
    nullary main_v3 (iotaInDim S8192x8192 32 0),
    nullary main_v4 (iotaInDim S8192x8192 32 1),
    nullary main_c_0 (constantI S_ 32 0#32),
    unary main_c_0 main_v5 (broadcastInDim S8192x8192 ![] bcast_S_S8192x8192 : (⟨S_, .i32⟩ : BufTy).Contents (Elt F) → (⟨S8192x8192, .i32⟩ : BufTy).Contents (Elt F)),
    binary main_v3 main_v5 main_v6 (addi : (⟨S8192x8192, .i32⟩ : BufTy).Contents (Elt F) → (⟨S8192x8192, .i32⟩ : BufTy).Contents (Elt F) → (⟨S8192x8192, .i32⟩ : BufTy).Contents (Elt F)),
    binary main_v6 main_v4 main_v7 (cmpi .eq : (⟨S8192x8192, .i32⟩ : BufTy).Contents (Elt F) → (⟨S8192x8192, .i32⟩ : BufTy).Contents (Elt F) → (⟨S8192x8192, .i1⟩ : BufTy).Contents (Elt F)),
    unary main_v7 main_v8 (uitofp .f32 : (⟨S8192x8192, .i1⟩ : BufTy).Contents (Elt F) → (⟨S8192x8192, .f32⟩ : BufTy).Contents (Elt F)),
    binary main_v2 main_v8 main_v9 (addf : (⟨S8192x8192, .f32⟩ : BufTy).Contents (Elt F) → (⟨S8192x8192, .f32⟩ : BufTy).Contents (Elt F) → (⟨S8192x8192, .f32⟩ : BufTy).Contents (Elt F)),
    nullary main_cst (constant S_ .f32 0x00000000#32),
    binary main_v9 main_cst main_v10 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_1 (constant S_ .f32 0x00000000#32),
    unary main_cst_1 main_v11 (broadcastInDim S8192 ![] bcast_S_S8192 : (⟨S_, .f32⟩ : BufTy).Contents (Elt F) → (⟨S8192, .f32⟩ : BufTy).Contents (Elt F)),
    binary main_v10 main_v11 main_v12 (cmpf .ogt : (⟨S8192, .f32⟩ : BufTy).Contents (Elt F) → (⟨S8192, .f32⟩ : BufTy).Contents (Elt F) → (⟨S8192, .i1⟩ : BufTy).Contents (Elt F)),
    unary main_v10 main_v13 (Host.rsqrt : (⟨S8192, .f32⟩ : BufTy).Contents (Elt F) → (⟨S8192, .f32⟩ : BufTy).Contents (Elt F)),
    nullary main_cst_2 (constant S_ .f32 0x00000000#32),
    TRef.unary (.of main_cst_2 : TRef sig ⟨S_, .f32⟩) main_call0.v0 id,
    TRef.unary main_call0.v0 main_call0.v1 (broadcastInDim S8192 ![] bcast_S_S8192),
    TRef.ternary (.of main_v12 : TRef sig ⟨S8192, .i1⟩) (.of main_v13 : TRef sig ⟨S8192, .f32⟩) main_call0.v1 main_call0.v2 select,
    unary main_v14 main_v15 (broadcastInDim S8192x1 ![0] bcast_S8192_S8192x1_0 : (⟨S8192, .f32⟩ : BufTy).Contents (Elt F) → (⟨S8192x1, .f32⟩ : BufTy).Contents (Elt F)),
    unary main_v15 main_v16 (broadcastInDim S8192x8192 ![0, 1] bcast_S8192x1_S8192x8192_0_1 : (⟨S8192x1, .f32⟩ : BufTy).Contents (Elt F) → (⟨S8192x8192, .f32⟩ : BufTy).Contents (Elt F)),
    binary main_v16 main_v9 main_v17 (mulf : (⟨S8192x8192, .f32⟩ : BufTy).Contents (Elt F) → (⟨S8192x8192, .f32⟩ : BufTy).Contents (Elt F) → (⟨S8192x8192, .f32⟩ : BufTy).Contents (Elt F)),
    unary main_v14 main_v18 (broadcastInDim S1x8192 ![1] bcast_S8192_S1x8192_1 : (⟨S8192, .f32⟩ : BufTy).Contents (Elt F) → (⟨S1x8192, .f32⟩ : BufTy).Contents (Elt F)),
    unary main_v18 main_v19 (broadcastInDim S8192x8192 ![0, 1] bcast_S1x8192_S8192x8192_0_1 : (⟨S1x8192, .f32⟩ : BufTy).Contents (Elt F) → (⟨S8192x8192, .f32⟩ : BufTy).Contents (Elt F)),
    binary main_v17 main_v19 main_v20 (mulf : (⟨S8192x8192, .f32⟩ : BufTy).Contents (Elt F) → (⟨S8192x8192, .f32⟩ : BufTy).Contents (Elt F) → (⟨S8192x8192, .f32⟩ : BufTy).Contents (Elt F)),
    binary main_arg0 main_arg2 main_v21 ((fun l r => Host.dotGeneral dot_S8192x128_S128x64_S8192x64_1_0_0_1_n_n none l r) : (⟨S8192x128, .f32⟩ : BufTy).Contents (Elt F) → (⟨S128x64, .f32⟩ : BufTy).Contents (Elt F) → (⟨S8192x64, .f32⟩ : BufTy).Contents (Elt F)),
    binary main_v20 main_v21 main_v22 ((fun l r => Host.dotGeneral dot_S8192x8192_S8192x64_S8192x64_1_0_0_1_n_n none l r) : (⟨S8192x8192, .f32⟩ : BufTy).Contents (Elt F) → (⟨S8192x64, .f32⟩ : BufTy).Contents (Elt F) → (⟨S8192x64, .f32⟩ : BufTy).Contents (Elt F)),
    unary main_arg3 main_v23 (broadcastInDim S1x64 ![1] bcast_S64_S1x64_1 : (⟨S64, .f32⟩ : BufTy).Contents (Elt F) → (⟨S1x64, .f32⟩ : BufTy).Contents (Elt F)),
    unary main_v23 main_v24 (broadcastInDim S8192x64 ![0, 1] bcast_S1x64_S8192x64_0_1 : (⟨S1x64, .f32⟩ : BufTy).Contents (Elt F) → (⟨S8192x64, .f32⟩ : BufTy).Contents (Elt F)),
    binary main_v22 main_v24 main_v25 (addf : (⟨S8192x64, .f32⟩ : BufTy).Contents (Elt F) → (⟨S8192x64, .f32⟩ : BufTy).Contents (Elt F) → (⟨S8192x64, .f32⟩ : BufTy).Contents (Elt F)),
    nullary main_cst_3 (constant S_ .f32 0x3C23D70A#32),
    TRef.nullary main_call1.cst (constant S_ .f32 0x00000000#32),
    TRef.unary main_call1.cst main_call1.v0 (broadcastInDim S8192x64 ![] bcast_S_S8192x64),
    TRef.binary (.of main_v25 : TRef sig ⟨S8192x64, .f32⟩) main_call1.v0 main_call1.v1 (cmpf .oge),
    TRef.unary (.of main_cst_3 : TRef sig ⟨S_, .f32⟩) main_call1.v2 id,
    TRef.unary main_call1.v2 main_call1.v3 (broadcastInDim S8192x64 ![] bcast_S_S8192x64),
    TRef.binary main_call1.v3 (.of main_v25 : TRef sig ⟨S8192x64, .f32⟩) main_call1.v4 mulf,
    TRef.ternary main_call1.v1 (.of main_v25 : TRef sig ⟨S8192x64, .f32⟩) main_call1.v4 main_call1.call0.v0 select,
    binary main_v26 main_arg4 main_v27 ((fun l r => Host.dotGeneral dot_S8192x64_S64x128_S8192x128_1_0_0_1_n_n none l r) : (⟨S8192x64, .f32⟩ : BufTy).Contents (Elt F) → (⟨S64x128, .f32⟩ : BufTy).Contents (Elt F) → (⟨S8192x128, .f32⟩ : BufTy).Contents (Elt F)),
    binary main_v20 main_v27 main_v28 ((fun l r => Host.dotGeneral dot_S8192x8192_S8192x128_S8192x128_1_0_0_1_n_n none l r) : (⟨S8192x8192, .f32⟩ : BufTy).Contents (Elt F) → (⟨S8192x128, .f32⟩ : BufTy).Contents (Elt F) → (⟨S8192x128, .f32⟩ : BufTy).Contents (Elt F)),
    unary main_arg5 main_v29 (broadcastInDim S1x128 ![1] bcast_S128_S1x128_1 : (⟨S128, .f32⟩ : BufTy).Contents (Elt F) → (⟨S1x128, .f32⟩ : BufTy).Contents (Elt F)),
    unary main_v29 main_v30 (broadcastInDim S8192x128 ![0, 1] bcast_S1x128_S8192x128_0_1 : (⟨S1x128, .f32⟩ : BufTy).Contents (Elt F) → (⟨S8192x128, .f32⟩ : BufTy).Contents (Elt F)),
    binary main_v28 main_v30 main_v31 (addf : (⟨S8192x128, .f32⟩ : BufTy).Contents (Elt F) → (⟨S8192x128, .f32⟩ : BufTy).Contents (Elt F) → (⟨S8192x128, .f32⟩ : BufTy).Contents (Elt F)),
    nullary main_cst_4 (constant S_ .f32 0x3C23D70A#32),
    TRef.nullary main_call2.cst (constant S_ .f32 0x00000000#32),
    TRef.unary main_call2.cst main_call2.v0 (broadcastInDim S8192x128 ![] bcast_S_S8192x128),
    TRef.binary (.of main_v31 : TRef sig ⟨S8192x128, .f32⟩) main_call2.v0 main_call2.v1 (cmpf .oge),
    TRef.unary (.of main_cst_4 : TRef sig ⟨S_, .f32⟩) main_call2.v2 id,
    TRef.unary main_call2.v2 main_call2.v3 (broadcastInDim S8192x128 ![] bcast_S_S8192x128),
    TRef.binary main_call2.v3 (.of main_v31 : TRef sig ⟨S8192x128, .f32⟩) main_call2.v4 mulf,
    TRef.ternary main_call2.v1 (.of main_v31 : TRef sig ⟨S8192x128, .f32⟩) main_call2.v4 main_call2.call0.v0 select,
    binary main_v32 main_arg6 main_v33 ((fun l r => Host.dotGeneral dot_S8192x128_S128x64_S8192x64_1_0_0_1_n_n none l r) : (⟨S8192x128, .f32⟩ : BufTy).Contents (Elt F) → (⟨S128x64, .f32⟩ : BufTy).Contents (Elt F) → (⟨S8192x64, .f32⟩ : BufTy).Contents (Elt F)),
    binary main_v20 main_v33 main_v34 ((fun l r => Host.dotGeneral dot_S8192x8192_S8192x64_S8192x64_1_0_0_1_n_n none l r) : (⟨S8192x8192, .f32⟩ : BufTy).Contents (Elt F) → (⟨S8192x64, .f32⟩ : BufTy).Contents (Elt F) → (⟨S8192x64, .f32⟩ : BufTy).Contents (Elt F)),
    unary main_arg7 main_v35 (broadcastInDim S1x64 ![1] bcast_S64_S1x64_1 : (⟨S64, .f32⟩ : BufTy).Contents (Elt F) → (⟨S1x64, .f32⟩ : BufTy).Contents (Elt F)),
    unary main_v35 main_v36 (broadcastInDim S8192x64 ![0, 1] bcast_S1x64_S8192x64_0_1 : (⟨S1x64, .f32⟩ : BufTy).Contents (Elt F) → (⟨S8192x64, .f32⟩ : BufTy).Contents (Elt F)),
    binary main_v34 main_v36 main_v37 (addf : (⟨S8192x64, .f32⟩ : BufTy).Contents (Elt F) → (⟨S8192x64, .f32⟩ : BufTy).Contents (Elt F) → (⟨S8192x64, .f32⟩ : BufTy).Contents (Elt F)),
    nullary main_cst_5 (constant S_ .f32 0x3C23D70A#32),
    TRef.nullary main_call3.cst (constant S_ .f32 0x00000000#32),
    TRef.unary main_call3.cst main_call3.v0 (broadcastInDim S8192x64 ![] bcast_S_S8192x64),
    TRef.binary (.of main_v37 : TRef sig ⟨S8192x64, .f32⟩) main_call3.v0 main_call3.v1 (cmpf .oge),
    TRef.unary (.of main_cst_5 : TRef sig ⟨S_, .f32⟩) main_call3.v2 id,
    TRef.unary main_call3.v2 main_call3.v3 (broadcastInDim S8192x64 ![] bcast_S_S8192x64),
    TRef.binary main_call3.v3 (.of main_v37 : TRef sig ⟨S8192x64, .f32⟩) main_call3.v4 mulf,
    TRef.ternary main_call3.v1 (.of main_v37 : TRef sig ⟨S8192x64, .f32⟩) main_call3.v4 main_call3.call0.v0 select,
    unary main_v38 main_v39 ((transpose S64x8192 [1, 0] · transposes_S8192x64_S64x8192_1_0) : (⟨S8192x64, .f32⟩ : BufTy).Contents (Elt F) → (⟨S64x8192, .f32⟩ : BufTy).Contents (Elt F)),
    binary main_v38 main_v39 main_v40 ((fun l r => Host.dotGeneral dot_S8192x64_S64x8192_S8192x8192_1_0_0_1_n_n none l r) : (⟨S8192x64, .f32⟩ : BufTy).Contents (Elt F) → (⟨S64x8192, .f32⟩ : BufTy).Contents (Elt F) → (⟨S8192x8192, .f32⟩ : BufTy).Contents (Elt F)),
    unary main_v40 main_v41 (Host.negf : (⟨S8192x8192, .f32⟩ : BufTy).Contents (Elt F) → (⟨S8192x8192, .f32⟩ : BufTy).Contents (Elt F)),
    unary main_v41 main_v42 (Host.exp : (⟨S8192x8192, .f32⟩ : BufTy).Contents (Elt F) → (⟨S8192x8192, .f32⟩ : BufTy).Contents (Elt F)),
    nullary main_cst_6 (constant S_ .f32 0x3F800000#32),
    unary main_cst_6 main_v43 (broadcastInDim S8192x8192 ![] bcast_S_S8192x8192 : (⟨S_, .f32⟩ : BufTy).Contents (Elt F) → (⟨S8192x8192, .f32⟩ : BufTy).Contents (Elt F)),
    binary main_v43 main_v42 main_v44 (addf : (⟨S8192x8192, .f32⟩ : BufTy).Contents (Elt F) → (⟨S8192x8192, .f32⟩ : BufTy).Contents (Elt F) → (⟨S8192x8192, .f32⟩ : BufTy).Contents (Elt F)),
    nullary main_cst_7 (constant S_ .f32 0x3F800000#32),
    unary main_cst_7 main_v45 (broadcastInDim S8192x8192 ![] bcast_S_S8192x8192 : (⟨S_, .f32⟩ : BufTy).Contents (Elt F) → (⟨S8192x8192, .f32⟩ : BufTy).Contents (Elt F)),
    binary main_v45 main_v44 main_v46 (Host.divf : (⟨S8192x8192, .f32⟩ : BufTy).Contents (Elt F) → (⟨S8192x8192, .f32⟩ : BufTy).Contents (Elt F) → (⟨S8192x8192, .f32⟩ : BufTy).Contents (Elt F)),
    binary main_v32 main_arg8 main_v47 ((fun l r => Host.dotGeneral dot_S8192x128_S128x64_S8192x64_1_0_0_1_n_n none l r) : (⟨S8192x128, .f32⟩ : BufTy).Contents (Elt F) → (⟨S128x64, .f32⟩ : BufTy).Contents (Elt F) → (⟨S8192x64, .f32⟩ : BufTy).Contents (Elt F)),
    binary main_v20 main_v47 main_v48 ((fun l r => Host.dotGeneral dot_S8192x8192_S8192x64_S8192x64_1_0_0_1_n_n none l r) : (⟨S8192x8192, .f32⟩ : BufTy).Contents (Elt F) → (⟨S8192x64, .f32⟩ : BufTy).Contents (Elt F) → (⟨S8192x64, .f32⟩ : BufTy).Contents (Elt F)),
    unary main_arg9 main_v49 (broadcastInDim S1x64 ![1] bcast_S64_S1x64_1 : (⟨S64, .f32⟩ : BufTy).Contents (Elt F) → (⟨S1x64, .f32⟩ : BufTy).Contents (Elt F)),
    unary main_v49 main_v50 (broadcastInDim S8192x64 ![0, 1] bcast_S1x64_S8192x64_0_1 : (⟨S1x64, .f32⟩ : BufTy).Contents (Elt F) → (⟨S8192x64, .f32⟩ : BufTy).Contents (Elt F)),
    binary main_v48 main_v50 main_v51 (addf : (⟨S8192x64, .f32⟩ : BufTy).Contents (Elt F) → (⟨S8192x64, .f32⟩ : BufTy).Contents (Elt F) → (⟨S8192x64, .f32⟩ : BufTy).Contents (Elt F)),
    nullary main_cst_8 (constant S_ .f32 0x3C23D70A#32),
    TRef.nullary main_call4.cst (constant S_ .f32 0x00000000#32),
    TRef.unary main_call4.cst main_call4.v0 (broadcastInDim S8192x64 ![] bcast_S_S8192x64),
    TRef.binary (.of main_v51 : TRef sig ⟨S8192x64, .f32⟩) main_call4.v0 main_call4.v1 (cmpf .oge),
    TRef.unary (.of main_cst_8 : TRef sig ⟨S_, .f32⟩) main_call4.v2 id,
    TRef.unary main_call4.v2 main_call4.v3 (broadcastInDim S8192x64 ![] bcast_S_S8192x64),
    TRef.binary main_call4.v3 (.of main_v51 : TRef sig ⟨S8192x64, .f32⟩) main_call4.v4 mulf,
    TRef.ternary main_call4.v1 (.of main_v51 : TRef sig ⟨S8192x64, .f32⟩) main_call4.v4 main_call4.call0.v0 select,
    binary main_v52 main_arg10 main_v53 ((fun l r => Host.dotGeneral dot_S8192x64_S64x128_S8192x128_1_0_0_1_n_n none l r) : (⟨S8192x64, .f32⟩ : BufTy).Contents (Elt F) → (⟨S64x128, .f32⟩ : BufTy).Contents (Elt F) → (⟨S8192x128, .f32⟩ : BufTy).Contents (Elt F)),
    binary main_v20 main_v53 main_v54 ((fun l r => Host.dotGeneral dot_S8192x8192_S8192x128_S8192x128_1_0_0_1_n_n none l r) : (⟨S8192x8192, .f32⟩ : BufTy).Contents (Elt F) → (⟨S8192x128, .f32⟩ : BufTy).Contents (Elt F) → (⟨S8192x128, .f32⟩ : BufTy).Contents (Elt F)),
    unary main_arg11 main_v55 (broadcastInDim S1x128 ![1] bcast_S128_S1x128_1 : (⟨S128, .f32⟩ : BufTy).Contents (Elt F) → (⟨S1x128, .f32⟩ : BufTy).Contents (Elt F)),
    unary main_v55 main_v56 (broadcastInDim S8192x128 ![0, 1] bcast_S1x128_S8192x128_0_1 : (⟨S1x128, .f32⟩ : BufTy).Contents (Elt F) → (⟨S8192x128, .f32⟩ : BufTy).Contents (Elt F)),
    binary main_v54 main_v56 main_v57 (addf : (⟨S8192x128, .f32⟩ : BufTy).Contents (Elt F) → (⟨S8192x128, .f32⟩ : BufTy).Contents (Elt F) → (⟨S8192x128, .f32⟩ : BufTy).Contents (Elt F)),
    nullary main_cst_9 (constant S_ .f32 0x3C23D70A#32),
    TRef.nullary main_call5.cst (constant S_ .f32 0x00000000#32),
    TRef.unary main_call5.cst main_call5.v0 (broadcastInDim S8192x128 ![] bcast_S_S8192x128),
    TRef.binary (.of main_v57 : TRef sig ⟨S8192x128, .f32⟩) main_call5.v0 main_call5.v1 (cmpf .oge),
    TRef.unary (.of main_cst_9 : TRef sig ⟨S_, .f32⟩) main_call5.v2 id,
    TRef.unary main_call5.v2 main_call5.v3 (broadcastInDim S8192x128 ![] bcast_S_S8192x128),
    TRef.binary main_call5.v3 (.of main_v57 : TRef sig ⟨S8192x128, .f32⟩) main_call5.v4 mulf,
    TRef.ternary main_call5.v1 (.of main_v57 : TRef sig ⟨S8192x128, .f32⟩) main_call5.v4 main_call5.call0.v0 select ]

set_option maxRecDepth 8192 in
set_option maxHeartbeats 1000000 in
/-- The first window is its operations in sequence: binding a step to the rest of a line is, by computation, the
    step continued by the rest, so both sides are the same chain of host steps. -/
theorem part0_eq (c : Dev nD) : main_part0 (F := F) c = seq ops0 := rfl

set_option maxRecDepth 8192 in
/-- The second window likewise. -/
theorem part1_eq (c : Dev nD) : main_part1 (F := F) c = seq ops1 := rfl

theorem ops_eq : (ops : List (HloOp τ sig (Elt F))) = ops0 ++ ops1 := rfl

/-- @main is that straight line. -/
theorem main_eq (c : Dev nD) : main (F := F) c = seq ops := by
  rw [ops_eq, seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., unary_bufs_sub .., nullary_bufs_sub .., nullary_bufs_sub .., nullary_bufs_sub .., unary_bufs_sub .., binary_bufs_sub .., binary_bufs_sub .., unary_bufs_sub .., binary_bufs_sub .., nullary_bufs_sub .., binary_bufs_sub .., nullary_bufs_sub .., unary_bufs_sub .., binary_bufs_sub .., unary_bufs_sub .., nullary_bufs_sub .., unary_bufs_sub .., unary_bufs_sub .., ternary_bufs_sub .., unary_bufs_sub .., unary_bufs_sub .., binary_bufs_sub .., unary_bufs_sub .., unary_bufs_sub .., binary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

/-- From any memory with zero counters, every weakly fair execution of @main terminates, and every final state has
    each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The fold at the result buffers

Each operation's result at its own buffer is its function of the operands' contents, and at any other buffer what
was there; rewriting outermost first leaves a composition of the host operations over the argument buffers'
contents, which is the whole-array function by unfolding its definition. -/

set_option maxHeartbeats 4000000 in
/-- The latent code's buffer holds the latent code of the arguments. -/
theorem after_v32 (V : Valuation τ sig (Elt F)) :
    after ops V (main_v32 : DevRef τ sig) = sLat (V (main_arg1 : DevRef τ sig)) (V (main_arg0 : DevRef τ sig)) (V (main_arg2 : DevRef τ sig)) (V (main_arg3 : DevRef τ sig)) (V (main_arg4 : DevRef τ sig)) (V (main_arg5 : DevRef τ sig)) := by
  after_results_simp
  rfl

set_option maxHeartbeats 4000000 in
/-- The reconstructed adjacency's buffer holds the edge decoder's value of the arguments. -/
theorem after_v46 (V : Valuation τ sig (Elt F)) :
    after ops V (main_v46 : DevRef τ sig)
      = sReconEdge (V (main_arg1 : DevRef τ sig)) (V (main_arg0 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) := by
  after_results_simp
  rfl

set_option maxHeartbeats 4000000 in
/-- The reconstructed features' buffer holds the feature decoder's value of the arguments. -/
theorem after_v58 (V : Valuation τ sig (Elt F)) :
    after ops V (main_v58 : DevRef τ sig)
      = sXOut (V (main_arg1 : DevRef τ sig)) (V (main_arg0 : DevRef τ sig)) (V (main_arg2 : DevRef τ sig)) (V (main_arg3 : DevRef τ sig)) (V (main_arg4 : DevRef τ sig)) (V (main_arg5 : DevRef τ sig)) (V (main_arg8 : DevRef τ sig)) (V (main_arg9 : DevRef τ sig)) (V (main_arg10 : DevRef τ sig)) (V (main_arg11 : DevRef τ sig)) := by
  after_results_simp
  rfl

/-! ## No operation writes an argument buffer -/

theorem after_arg0 (V : Valuation τ sig (Elt F)) :
    after ops V (main_arg0 : DevRef τ sig) = V (main_arg0 : DevRef τ sig) := by
  after_results_simp

theorem after_arg1 (V : Valuation τ sig (Elt F)) :
    after ops V (main_arg1 : DevRef τ sig) = V (main_arg1 : DevRef τ sig) := by
  after_results_simp

theorem after_arg2 (V : Valuation τ sig (Elt F)) :
    after ops V (main_arg2 : DevRef τ sig) = V (main_arg2 : DevRef τ sig) := by
  after_results_simp

theorem after_arg3 (V : Valuation τ sig (Elt F)) :
    after ops V (main_arg3 : DevRef τ sig) = V (main_arg3 : DevRef τ sig) := by
  after_results_simp

theorem after_arg4 (V : Valuation τ sig (Elt F)) :
    after ops V (main_arg4 : DevRef τ sig) = V (main_arg4 : DevRef τ sig) := by
  after_results_simp

theorem after_arg5 (V : Valuation τ sig (Elt F)) :
    after ops V (main_arg5 : DevRef τ sig) = V (main_arg5 : DevRef τ sig) := by
  after_results_simp

theorem after_arg6 (V : Valuation τ sig (Elt F)) :
    after ops V (main_arg6 : DevRef τ sig) = V (main_arg6 : DevRef τ sig) := by
  after_results_simp

theorem after_arg7 (V : Valuation τ sig (Elt F)) :
    after ops V (main_arg7 : DevRef τ sig) = V (main_arg7 : DevRef τ sig) := by
  after_results_simp

theorem after_arg8 (V : Valuation τ sig (Elt F)) :
    after ops V (main_arg8 : DevRef τ sig) = V (main_arg8 : DevRef τ sig) := by
  after_results_simp

theorem after_arg9 (V : Valuation τ sig (Elt F)) :
    after ops V (main_arg9 : DevRef τ sig) = V (main_arg9 : DevRef τ sig) := by
  after_results_simp

theorem after_arg10 (V : Valuation τ sig (Elt F)) :
    after ops V (main_arg10 : DevRef τ sig) = V (main_arg10 : DevRef τ sig) := by
  after_results_simp

theorem after_arg11 (V : Valuation τ sig (Elt F)) :
    after ops V (main_arg11 : DevRef τ sig) = V (main_arg11 : DevRef τ sig) := by
  after_results_simp

/-- On every device, for any float values, from any memory with zero counters: every weakly fair execution of
    @main terminates with the three results at the whole-array functions of the arguments' launch contents, and the
    twelve arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v46)
          = sReconEdge (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v58)
          = sXOut (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v32)
          = sLat (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v46).trans (after_v46 _), (h c main_v58).trans (after_v58 _),
      (h c main_v32).trans (after_v32 _),
      (h c main_arg0).trans (after_arg0 _),
      (h c main_arg1).trans (after_arg1 _),
      (h c main_arg2).trans (after_arg2 _),
      (h c main_arg3).trans (after_arg3 _),
      (h c main_arg4).trans (after_arg4 _),
      (h c main_arg5).trans (after_arg5 _),
      (h c main_arg6).trans (after_arg6 _),
      (h c main_arg7).trans (after_arg7 _),
      (h c main_arg8).trans (after_arg8 _),
      (h c main_arg9).trans (after_arg9 _),
      (h c main_arg10).trans (after_arg10 _),
      (h c main_arg11).trans (after_arg11 _)⟩)
    (run_main m ρ)

end Cert.ReferenceIdeal.Hand

end
-- ==== Proof.LibHostSlab.lean ====
/-
  Two host forms read at an entry.

  The reference slices one `[1, a, b]` slab out of a weight stack `[M, a, b]`, drops the unit axis and transposes the
  matrix: at `(j, i)` the result is the stack at `(k, i, j)`. And it multiplies matrices by the host's
  `dot_general` contracting the left operand's columns with the right operand's rows: on the extended reals, at
  `(p, q)`, the sum over the contracted axis, whatever record the program prints for those dimension numbers.
-/
import proofs.«178500_j188978561286_1_alg».proof.Proof.LibDotRecord
import Idealize.ShloMosaic.Lib.ValueLayout

namespace Bilinear.Host

open Idealize.ShloMosaic Idealize.ShloMosaic.ValueIdx

/-- The host's plain matrix product at `(p, q)`: the sum over the contracted axis. -/
theorem dot_apply {M K N : ℕ} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : FVec Ideal ⟨2, ![M, K]⟩ φ₁) (r : FVec Ideal ⟨2, ![K, N]⟩ φ₂) (prec : Option ContractPrecision)
    (p : Fin M) (q : Fin N) :
    Host.dotGeneral d prec l r (ix2 p q) = ∑ k : Fin K, l (ix2 p k) * r (ix2 k q) := by
  have e := DotRecord.eq_plain d h1 h2 h3 h4 h5 h6
  subst e
  exact Gcn.Lib.plain_dotGeneral_apply l r prec .single p q

/-- Slab `k` of a stack, sliced out, read as a matrix and transposed. -/
theorem slabT_apply {α : Type} {M a b : ℕ} (A : (⟨3, ![M, a, b]⟩ : Shape).Idx → α) (o : ℕ) (k : Fin M) (hk : k.val = o)
    (hs : (⟨3, ![M, a, b]⟩ : Shape).Slices ![o, 0, 0] ⟨3, ![1, a, b]⟩)
    (hc : (⟨3, ![1, a, b]⟩ : Shape).ShapeCasts ⟨2, ![a, b]⟩)
    (ht : (⟨2, ![a, b]⟩ : Shape).Transposes [1, 0] ⟨2, ![b, a]⟩) (j : Fin b) (i : Fin a) :
    transpose ⟨2, ![b, a]⟩ [1, 0] (shapeCast ⟨2, ![a, b]⟩ (extractStridedSlice ⟨3, ![1, a, b]⟩ ![o, 0, 0] A hs) hc) ht (ix2 j i)
      = A (ix3 k i j) :=
  (transpose_ix2_apply _ ht j i).trans <| (shapeCast_1ab_ab_apply _ hc i j).trans <|
    extractStridedSlice_apply ![o, 0, 0] A hs (ix3 (0 : Fin 1) i j) (ix3 k i j) (fun ax => by
      match ax with
      | ⟨0, _⟩ => show k.val = o + 0; omega
      | ⟨1, _⟩ => exact (Nat.zero_add _).symm
      | ⟨2, _⟩ => exact (Nat.zero_add _).symm)

end Bilinear.Host
-- ==== Proof.LibLay2.lean ====
/-
  Two layout operations on rank-2 arrays read at an entry: the transpose, and a unit-stride block cut out of an
  array with the block's offset added to the coordinates. Every extent generic.
-/
import Idealize.ShloMosaic.Lib.ValueIdx
import Idealize.ShloMosaic.Lib.Pipeline.Value

namespace Lay2

open Idealize.ShloMosaic Idealize.ShloMosaic.ValueIdx

/-- The transpose of an [a, b] array at entry (i, j) is the array at (j, i). -/
theorem transpose_apply {α : Type} {a b : ℕ} (x : (⟨2, ![a, b]⟩ : Shape).Idx → α)
    (h : (⟨2, ![a, b]⟩ : Shape).Transposes [1, 0] ⟨2, ![b, a]⟩) (i : Fin b) (j : Fin a) :
    transpose ⟨2, ![b, a]⟩ [1, 0] x h (ix2 i j) = x (ix2 j i) := by
  refine Idealize.ShloMosaic.transpose_apply [1, 0] x h (ix2 i j) (ix2 j i) fun c => ?_
  match c with
  | ⟨0, _⟩ => rfl
  | ⟨1, _⟩ => rfl

/-- A unit-stride block of extents [c, d] cut out of an [a, b] array at offsets (o₀, o₁), at entry (i, j), is the
    array at (o₀ + i, o₁ + j). -/
theorem slice_apply {α : Type} {a b c d : ℕ} (o₀ o₁ : ℕ) (x : (⟨2, ![a, b]⟩ : Shape).Idx → α)
    (h : (⟨2, ![a, b]⟩ : Shape).Slices ![o₀, o₁] ⟨2, ![c, d]⟩) (i : Fin c) (j : Fin d)
    (hi : o₀ + i.val < a) (hj : o₁ + j.val < b) :
    extractStridedSlice ⟨2, ![c, d]⟩ ![o₀, o₁] x h (ix2 i j) = x (ix2 ⟨o₀ + i.val, hi⟩ ⟨o₁ + j.val, hj⟩) := by
  refine extractStridedSlice_apply ![o₀, o₁] x h (ix2 i j) (ix2 ⟨o₀ + i.val, hi⟩ ⟨o₁ + j.val, hj⟩) fun c => ?_
  match c with
  | ⟨0, _⟩ => rfl
  | ⟨1, _⟩ => rfl

end Lay2
-- ==== Proof.RefRun2.lean ====
/-
  The reference's whole-array functions are the specification, index by index, on the extended reals.

  An indicator bit converted to a float is 0 or 1; the row sums of the adjacency with self loops are the degrees,
  each a sum of terms 0 or 1 that contains the diagonal's 1, hence positive, so the guarded inverse square root is
  the inverse square root; the scales broadcast down the columns and along the rows read the scale of the row and of
  the column; the comparison with zero and the select are the leaky rectifier; a matrix product at an entry is the
  sum over the contracted axis; one over one plus the exponential of the negation is the logistic function.
-/
import proofs.«178500_j188978561286_1_alg».proof.Proof.RefRun1
import proofs.«178500_j188978561286_1_alg».proof.Proof.Spec
import proofs.«178500_j188978561286_1_alg».proof.Proof.LibHostSlab
import proofs.«178500_j188978561286_1_alg».proof.Proof.LibRowOps
import proofs.«178500_j188978561286_1_alg».proof.Proof.LibLay2
import Idealize.ShloMosaic.Lib.IdealHost

noncomputable section

namespace Cert.ReferenceIdeal.Hand

open Cert.ReferenceIdeal Cert.ReferenceIdeal.Gen Idealize.ShloMosaic Idealize.ShloMosaic.ValueIdx Cert.Spec

/-! ## Bits as reals -/

/-- A one-bit word converted to a float is 1 for a set bit and 0 for a clear one. -/
theorem uitofp_bit (c : Bool) : FloatOps.uitofp (F := Ideal) .f32 (BitVec.ofBool c) = if c then 1 else 0 := by
  cases c
  · show (((BitVec.ofBool false).toNat : ℝ) : EReal) = 0
    simp
  · show (((BitVec.ofBool true).toNat : ℝ) : EReal) = 1
    simp

/-- The comparison of a table entry with the zero word, as a float, is the adjacency indicator. -/
theorem indBit (e : BitVec 32) : FloatOps.uitofp (F := Ideal) .f32 (IntOp.cmpi .ne e 0#32) = ind e := by
  show FloatOps.uitofp (F := Ideal) .f32 (BitVec.ofBool (e != 0#32)) = ind e
  rw [uitofp_bit]
  unfold ind
  by_cases h : e = 0#32
  · subst h; simp
  · simp [h]

/-- Two coordinates below 8192 are equal exactly when their 32-bit words are. -/
theorem ofNat_inj (i j : Fin 8192) : BitVec.ofNat 32 i.val = BitVec.ofNat 32 j.val ↔ i = j := by
  constructor
  · intro h
    have h' := congrArg BitVec.toNat h
    simp only [BitVec.toNat_ofNat] at h'
    apply Fin.ext
    have := i.isLt
    have := j.isLt
    omega
  · rintro rfl; rfl

/-- The comparison of the row coordinate (plus the zero word) with the column coordinate, as a float, is the
    diagonal indicator. -/
theorem diagBit (i j : Fin 8192) :
    FloatOps.uitofp (F := Ideal) .f32 (IntOp.cmpi .eq (IntOp.addi (BitVec.ofNat 32 i.val) 0#32) (BitVec.ofNat 32 j.val))
      = diag i j := by
  show FloatOps.uitofp (F := Ideal) .f32 (BitVec.ofBool (BitVec.ofNat 32 i.val + 0#32 == BitVec.ofNat 32 j.val)) = diag i j
  rw [uitofp_bit, BitVec.add_zero]
  unfold diag
  by_cases h : i = j
  · subst h; simp
  · have h' : ¬ BitVec.ofNat 32 i.val = BitVec.ofNat 32 j.val := fun e => h ((ofNat_inj i j).mp e)
    simp [h, h']

/-! ## Broadcasts read at an entry -/

/-- A vector made a one-row matrix and broadcast down the rows reads, at (p, q), the vector's entry q. -/
theorem rowBcast_apply {α : Type} {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
    match a with
    | ⟨0, _⟩ => show (0 : ℕ) = if (1 : ℕ) = 1 then 0 else p.val; rw [if_pos rfl]
    | ⟨1, _⟩ =>
      show q.val = if N = 1 then 0 else q.val
      split
      · have := q.isLt; omega
      · rfl)]
  exact broadcastInDim_apply ![1] h1 b (ix2 (0 : Fin 1) q) (ix1 q) (fun a => by
    match a with
    | ⟨0, _⟩ =>
      show q.val = if N = 1 then 0 else q.val
      split
      · have := q.isLt; omega
      · rfl)

/-- A vector made a one-column matrix and broadcast along the columns reads, at (p, q), the vector's entry p. -/
theorem colBcast_apply {α : Type} {M N : ℕ} (v : (⟨1, ![M]⟩ : Shape).Idx → α)
    (h1 : (⟨1, ![M]⟩ : Shape).BroadcastsInDim ⟨2, ![M, 1]⟩ ![0])
    (h2 : (⟨2, ![M, 1]⟩ : Shape).BroadcastsInDim ⟨2, ![M, N]⟩ ![0, 1]) (p : Fin M) (q : Fin N) :
    broadcastInDim ⟨2, ![M, N]⟩ ![0, 1] h2 (broadcastInDim ⟨2, ![M, 1]⟩ ![0] h1 v) (ix2 p q) = v (ix1 p) := by
  rw [broadcastInDim_apply ![0, 1] h2 _ (ix2 p q) (ix2 p (0 : Fin 1)) (fun a => by
    match a with
    | ⟨0, _⟩ =>
      show p.val = if M = 1 then 0 else p.val
      split
      · have := p.isLt; omega
      · rfl
    | ⟨1, _⟩ => show (0 : ℕ) = if (1 : ℕ) = 1 then 0 else q.val; rw [if_pos rfl])]
  exact broadcastInDim_apply ![0] h1 v (ix2 p (0 : Fin 1)) (ix1 p) (fun a => by
    match a with
    | ⟨0, _⟩ =>
      show p.val = if M = 1 then 0 else p.val
      split
      · have := p.isLt; omega
      · rfl)

/-! ## The adjacency, the degrees and the scales -/

/-- The adjacency with self loops at (i, j). -/
theorem sAdj_apply (E : Edges) (i j : Fin 8192) : sAdj (F := Ideal) E (ix2 i j) = adj E i j := by
  have hb : broadcastInDim S8192x8192 ![] bcast_S_S8192x8192 (constantI S_ 32 0#32) (ix2 i j) = 0#32 :=
    broadcastInDim_scalar_apply _ _ _
  show FloatOps.uitofp (F := Ideal) .f32 (IntOp.cmpi .ne (E (ix2 i j))
        (broadcastInDim S8192x8192 ![] bcast_S_S8192x8192 (constantI S_ 32 0#32) (ix2 i j)))
      + FloatOps.uitofp (F := Ideal) .f32 (IntOp.cmpi .eq (IntOp.addi (BitVec.ofNat 32 i.val)
        (broadcastInDim S8192x8192 ![] bcast_S_S8192x8192 (constantI S_ 32 0#32) (ix2 i j))) (BitVec.ofNat 32 j.val))
      = ind (E (ix2 i j)) + diag i j
  rw [hb, indBit, diagBit]

/-- The degree of node i: the row sum from the constant zero is the plain sum of the row. -/
theorem sDeg_apply (E : Edges) (i : Fin 8192) : sDeg (F := Ideal) E (ix1 i) = deg E i := by
  have h : Shape.Reduces S8192x8192 [1] S8192 := by decide
  show Ideal.hostReduceAdd reducesTo_S8192x8192_S8192_d1 (sAdj (F := Ideal) E)
      (constant (F := Ideal) S_ .f32 0x00000000#32 (Shape.Idx.first h_S_)) (ix1 i) = ∑ j : Fin 8192, adj E i j
  rw [Ideal.hostReduceAdd_single reducesTo_S8192x8192_S8192_d1 h, constant_apply, Ideal.ofBits_zero_f32, zero_add]
  exact Finset.sum_congr rfl fun k _ => (congrArg (sAdj (F := Ideal) E) (RowOps.lift_row h i k)).trans (sAdj_apply E i k)

theorem ind_nonneg (e : BitVec 32) : 0 ≤ ind e := by
  unfold ind; split
  · exact le_refl _
  · exact zero_le_one

theorem diag_nonneg (i j : Fin 8192) : 0 ≤ diag i j := by
  unfold diag; split
  · exact zero_le_one
  · exact le_refl _

theorem adj_nonneg (E : Edges) (i j : Fin 8192) : 0 ≤ adj E i j := add_nonneg (ind_nonneg _) (diag_nonneg _ _)

/-- A degree is positive: every entry of the row is at least zero and the diagonal entry is at least one. -/
theorem deg_pos (E : Edges) (i : Fin 8192) : 0 < deg E i := by
  have h1 : (1 : EReal) ≤ adj E i i := by
    unfold adj diag
    rw [if_pos rfl]
    exact le_add_of_nonneg_left (ind_nonneg _)
  have h2 : adj E i i ≤ deg E i :=
    Finset.single_le_sum (f := fun j => adj E i j) (fun j _ => adj_nonneg E i j) (Finset.mem_univ i)
  exact lt_of_lt_of_le zero_lt_one (h1.trans h2)

/-- The guarded inverse square root is the inverse square root, the degree being positive. -/
theorem sDinv_apply (E : Edges) (i : Fin 8192) : sDinv (F := Ideal) E (ix1 i) = dinv E i := by
  have hb : ∀ x : FVec Ideal S_ .f32, broadcastInDim S8192 ![] bcast_S_S8192 x (ix1 i) = x ix0 :=
    fun x => broadcastInDim_scalar_apply _ x _
  show Scalar.select (Ideal.cmp .ogt (sDeg (F := Ideal) E (ix1 i))
        (broadcastInDim S8192 ![] bcast_S_S8192 (constant (F := Ideal) S_ .f32 0x00000000#32) (ix1 i)))
      (Ideal.rsqrt (sDeg (F := Ideal) E (ix1 i)))
      (broadcastInDim S8192 ![] bcast_S_S8192 (id (constant (F := Ideal) S_ .f32 0x00000000#32)) (ix1 i))
    = Ideal.rsqrt (deg E i)
  rw [hb, sDeg_apply]
  have hc : Ideal.cmp .ogt (deg E i) (constant (F := Ideal) S_ .f32 0x00000000#32 ix0) = 1#1 := by
    show BitVec.ofBool (decide (Ideal.ofBits .f32 0x00000000#32 < deg E i)) = 1#1
    rw [Ideal.ofBits_zero_f32, decide_eq_true (deg_pos E i)]
    rfl
  rw [hc]
  exact if_pos rfl

/-- The normalised adjacency at (i, j). -/
theorem sNadj_apply (E : Edges) (i j : Fin 8192) : sNadj (F := Ideal) E (ix2 i j) = nadj E i j := by
  show broadcastInDim S8192x8192 ![0, 1] bcast_S8192x1_S8192x8192_0_1
        (broadcastInDim S8192x1 ![0] bcast_S8192_S8192x1_0 (sDinv (F := Ideal) E)) (ix2 i j) * sAdj (F := Ideal) E (ix2 i j)
      * broadcastInDim S8192x8192 ![0, 1] bcast_S1x8192_S8192x8192_0_1
        (broadcastInDim S1x8192 ![1] bcast_S8192_S1x8192_1 (sDinv (F := Ideal) E)) (ix2 i j)
    = dinv E i * adj E i j * dinv E j
  rw [colBcast_apply, rowBcast_apply, sAdj_apply, sDinv_apply, sDinv_apply]

/-! ## The rectifier, a layer, the decoder -/

/-- The select on the comparison with zero is the leaky rectifier. -/
theorem lreluBit (v s : EReal) : Scalar.select (Ideal.cmp .oge v 0) v (s * v) = if 0 ≤ v then v else s * v := by
  show (if BitVec.ofBool (decide (0 ≤ v)) = 1 then v else s * v) = if 0 ≤ v then v else s * v
  by_cases h : 0 ≤ v
  · rw [decide_eq_true h, if_pos h]; exact if_pos rfl
  · rw [decide_eq_false h, if_neg h]; exact if_neg (by decide)

theorem sLrelu64_apply (x : FVec Ideal S8192x64 .f32) (j : S8192x64.Idx) :
    sLrelu64 (F := Ideal) x (constant S_ .f32 0x3C23D70A#32) j = lrelu (x j) := by
  show Scalar.select (Ideal.cmp .oge (x j)
        (broadcastInDim S8192x64 ![] bcast_S_S8192x64 (constant (F := Ideal) S_ .f32 0x00000000#32) j)) (x j)
      (broadcastInDim S8192x64 ![] bcast_S_S8192x64 (id (constant (F := Ideal) S_ .f32 0x3C23D70A#32)) j * x j) = _
  rw [broadcastInDim_scalar_apply, broadcastInDim_scalar_apply]
  show Scalar.select (Ideal.cmp .oge (x j) (Ideal.ofBits .f32 0x00000000#32)) (x j)
      (Ideal.ofBits .f32 0x3C23D70A#32 * x j) = _
  rw [Ideal.ofBits_zero_f32]
  exact lreluBit _ _

theorem sLrelu128_apply (x : FVec Ideal S8192x128 .f32) (j : S8192x128.Idx) :
    sLrelu128 (F := Ideal) x (constant S_ .f32 0x3C23D70A#32) j = lrelu (x j) := by
  show Scalar.select (Ideal.cmp .oge (x j)
        (broadcastInDim S8192x128 ![] bcast_S_S8192x128 (constant (F := Ideal) S_ .f32 0x00000000#32) j)) (x j)
      (broadcastInDim S8192x128 ![] bcast_S_S8192x128 (id (constant (F := Ideal) S_ .f32 0x3C23D70A#32)) j * x j) = _
  rw [broadcastInDim_scalar_apply, broadcastInDim_scalar_apply]
  show Scalar.select (Ideal.cmp .oge (x j) (Ideal.ofBits .f32 0x00000000#32)) (x j)
      (Ideal.ofBits .f32 0x3C23D70A#32 * x j) = _
  rw [Ideal.ofBits_zero_f32]
  exact lreluBit _ _

/-- One layer from 128 to 64 features over the normalised adjacency is the specification's layer. -/
theorem sLayerA_eq (E : Edges) (X : Mat 8192 128) (W : Mat 128 64) (b : Vc 64) :
    sLayerA (F := Ideal) (sNadj (F := Ideal) E) X W b = gcn E X W b := by
  funext j
  obtain ⟨i, c, rfl⟩ : ∃ (i : Fin 8192) (c : Fin 64), j = ix2 i c := ⟨j 0, j 1, eq_ix2 j⟩
  unfold sLayerA
  rw [sLrelu64_apply]
  show lrelu (Host.dotGeneral (F := Ideal) (φ₁ := .f32) (φ₂ := .f32) dot_S8192x8192_S8192x64_S8192x64_1_0_0_1_n_n none (sNadj (F := Ideal) E)
          (Host.dotGeneral (F := Ideal) (φ₁ := .f32) (φ₂ := .f32) dot_S8192x128_S128x64_S8192x64_1_0_0_1_n_n none
            (X : FVec Ideal S8192x128 .f32) (W : FVec Ideal S128x64 .f32)) (ix2 i c)
        + broadcastInDim S8192x64 ![0, 1] bcast_S1x64_S8192x64_0_1 (broadcastInDim S1x64 ![1] bcast_S64_S1x64_1 b) (ix2 i c))
      = lrelu ((∑ k : Fin 8192, nadj E i k * ∑ d : Fin 128, X (ix2 k d) * W (ix2 d c)) + b (ix1 c))
  rw [Bilinear.Host.dot_apply dot_S8192x8192_S8192x64_S8192x64_1_0_0_1_n_n rfl rfl rfl rfl rfl rfl, rowBcast_apply]
  have hs : (∑ k : Fin 8192, sNadj (F := Ideal) E (ix2 i k)
        * Host.dotGeneral (F := Ideal) (φ₁ := .f32) (φ₂ := .f32) dot_S8192x128_S128x64_S8192x64_1_0_0_1_n_n none
            (X : FVec Ideal S8192x128 .f32) (W : FVec Ideal S128x64 .f32) (ix2 k c))
      = ∑ k : Fin 8192, nadj E i k * ∑ d : Fin 128, X (ix2 k d) * W (ix2 d c) :=
    Finset.sum_congr rfl fun k _ => by
      rw [sNadj_apply, Bilinear.Host.dot_apply dot_S8192x128_S128x64_S8192x64_1_0_0_1_n_n rfl rfl rfl rfl rfl rfl]
  rw [hs]

/-- One layer from 64 to 128 features over the normalised adjacency is the specification's layer. -/
theorem sLayerB_eq (E : Edges) (X : Mat 8192 64) (W : Mat 64 128) (b : Vc 128) :
    sLayerB (F := Ideal) (sNadj (F := Ideal) E) X W b = gcn E X W b := by
  funext j
  obtain ⟨i, c, rfl⟩ : ∃ (i : Fin 8192) (c : Fin 128), j = ix2 i c := ⟨j 0, j 1, eq_ix2 j⟩
  unfold sLayerB
  rw [sLrelu128_apply]
  show lrelu (Host.dotGeneral (F := Ideal) (φ₁ := .f32) (φ₂ := .f32) dot_S8192x8192_S8192x128_S8192x128_1_0_0_1_n_n none (sNadj (F := Ideal) E)
          (Host.dotGeneral (F := Ideal) (φ₁ := .f32) (φ₂ := .f32) dot_S8192x64_S64x128_S8192x128_1_0_0_1_n_n none
            (X : FVec Ideal S8192x64 .f32) (W : FVec Ideal S64x128 .f32)) (ix2 i c)
        + broadcastInDim S8192x128 ![0, 1] bcast_S1x128_S8192x128_0_1 (broadcastInDim S1x128 ![1] bcast_S128_S1x128_1 b) (ix2 i c))
      = lrelu ((∑ k : Fin 8192, nadj E i k * ∑ d : Fin 64, X (ix2 k d) * W (ix2 d c)) + b (ix1 c))
  rw [Bilinear.Host.dot_apply dot_S8192x8192_S8192x128_S8192x128_1_0_0_1_n_n rfl rfl rfl rfl rfl rfl, rowBcast_apply]
  have hs : (∑ k : Fin 8192, sNadj (F := Ideal) E (ix2 i k)
        * Host.dotGeneral (F := Ideal) (φ₁ := .f32) (φ₂ := .f32) dot_S8192x64_S64x128_S8192x128_1_0_0_1_n_n none
            (X : FVec Ideal S8192x64 .f32) (W : FVec Ideal S64x128 .f32) (ix2 k c))
      = ∑ k : Fin 8192, nadj E i k * ∑ d : Fin 64, X (ix2 k d) * W (ix2 d c) :=
    Finset.sum_congr rfl fun k _ => by
      rw [sNadj_apply, Bilinear.Host.dot_apply dot_S8192x64_S64x128_S8192x128_1_0_0_1_n_n rfl rfl rfl rfl rfl rfl]
  rw [hs]

/-- The edge decoder is the logistic function of the Gram matrix. -/
theorem sRecon_eq (R : Mat 8192 64) : sRecon (F := Ideal) R = recon R := by
  funext j
  obtain ⟨i, k, rfl⟩ : ∃ (i k : Fin 8192), j = ix2 i k := ⟨j 0, j 1, eq_ix2 j⟩
  have hb : ∀ x : FVec Ideal S_ .f32, broadcastInDim S8192x8192 ![] bcast_S_S8192x8192 x (ix2 i k) = x ix0 :=
    fun x => broadcastInDim_scalar_apply _ x _
  show Ideal.div (broadcastInDim S8192x8192 ![] bcast_S_S8192x8192 (constant (F := Ideal) S_ .f32 0x3F800000#32) (ix2 i k))
      (broadcastInDim S8192x8192 ![] bcast_S_S8192x8192 (constant (F := Ideal) S_ .f32 0x3F800000#32) (ix2 i k)
        + Ideal.exp (-(Host.dotGeneral (F := Ideal) (φ₁ := .f32) (φ₂ := .f32) dot_S8192x64_S64x8192_S8192x8192_1_0_0_1_n_n none
            (R : FVec Ideal S8192x64 .f32)
            (transpose S64x8192 [1, 0] (R : FVec Ideal S8192x64 .f32) transposes_S8192x64_S64x8192_1_0) (ix2 i k))))
    = Ideal.logistic (∑ d : Fin 64, R (ix2 i d) * R (ix2 k d))
  rw [hb, Bilinear.Host.dot_apply dot_S8192x64_S64x8192_S8192x8192_1_0_0_1_n_n rfl rfl rfl rfl rfl rfl]
  have hs : (∑ d : Fin 64, R (ix2 i d) * transpose S64x8192 [1, 0] R transposes_S8192x64_S64x8192_1_0 (ix2 d k))
      = ∑ d : Fin 64, R (ix2 i d) * R (ix2 k d) :=
    Finset.sum_congr rfl fun d _ => by rw [Lay2.transpose_apply]
  rw [hs]
  show Ideal.div (Ideal.ofBits .f32 0x3F800000#32) (Ideal.ofBits .f32 0x3F800000#32
      + Ideal.exp (-(∑ d : Fin 64, R (ix2 i d) * R (ix2 k d)))) = _
  rw [Ideal.ofBits_one_f32]
  rfl

/-! ## The network -/

section Net

variable (E : Edges) (x : Mat 8192 128) (W1 : Mat 128 64) (b1 : Vc 64) (W2 : Mat 64 128) (b2 : Vc 128)
  (We : Mat 128 64) (be : Vc 64) (Wd1 : Mat 128 64) (bd1 : Vc 64) (Wd2 : Mat 64 128) (bd2 : Vc 128)

theorem sHid_eq : sHid (F := Ideal) E x W1 b1 = hid E x W1 b1 := sLayerA_eq E x W1 b1

theorem sLat_eq : sLat (F := Ideal) E x W1 b1 W2 b2 = lat E x W1 b1 W2 b2 := by
  unfold sLat lat
  rw [sHid_eq, sLayerB_eq]

theorem sEdgeFeat_eq : sEdgeFeat (F := Ideal) E x W1 b1 W2 b2 We be = edgeFeat E x W1 b1 W2 b2 We be := by
  unfold sEdgeFeat edgeFeat
  rw [sLat_eq, sLayerA_eq]

theorem sReconEdge_eq : sReconEdge (F := Ideal) E x W1 b1 W2 b2 We be = reconEdge E x W1 b1 W2 b2 We be := by
  unfold sReconEdge reconEdge
  rw [sEdgeFeat_eq, sRecon_eq]

theorem sDecHid_eq : sDecHid (F := Ideal) E x W1 b1 W2 b2 Wd1 bd1 = decHid E x W1 b1 W2 b2 Wd1 bd1 := by
  unfold sDecHid decHid
  rw [sLat_eq, sLayerA_eq]

theorem sXOut_eq : sXOut (F := Ideal) E x W1 b1 W2 b2 Wd1 bd1 Wd2 bd2 = xOut E x W1 b1 W2 b2 Wd1 bd1 Wd2 bd2 := by
  unfold sXOut xOut
  rw [sDecHid_eq, sLayerB_eq]

end Net

end Cert.ReferenceIdeal.Hand

end
-- ==== Proof.RefValue.lean ====
/-
  The reference's run with its three results read as the specification.

  Every weakly fair execution of the reference terminates with the reconstructed adjacency, the reconstructed
  features and the latent code at the specification's functions of the twelve argument arrays, and the arguments
  unchanged: the run leaves each result at the composition of the host operations, and that composition is the
  specification index by index on the extended reals.
-/
import proofs.«178500_j188978561286_1_alg».proof.Proof.RefRun
import proofs.«178500_j188978561286_1_alg».proof.Proof.RefRun2

noncomputable section

namespace Cert.ReferenceIdeal.Hand

open Cert.ReferenceIdeal Cert.ReferenceIdeal.Gen Idealize.ShloMosaic Idealize.ShloMosaic.TcCoe Idealize.SL.Sem

/-- The reference at the ideal instance, from any memory with zero counters: its results are the specification's
    reconstructed adjacency, reconstructed features and latent code of the argument arrays; the arguments stay. -/
theorem run_spec (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v46)
            = Cert.Spec.reconEdge (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))
        ∧ r.2.mem ((c.tc : Thread Cert.ReferenceIdeal.nD Cert.ReferenceIdeal.τ).loc Cert.ReferenceIdeal.main_v58)
            = Cert.Spec.xOut (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))
        ∧ r.2.mem ((c.tc : Thread Cert.ReferenceIdeal.nD Cert.ReferenceIdeal.τ).loc Cert.ReferenceIdeal.main_v32)
            = Cert.Spec.lat (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
        ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
        ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)) :=
  (θ_run (Cert.ReferenceIdeal.defs (F := Ideal)) _ _).mono (fun _ h c => by
    obtain ⟨h46, h58, h32, hargs⟩ := h c
    exact ⟨h46.trans (sReconEdge_eq ..), h58.trans (sXOut_eq ..), h32.trans (sLat_eq ..), hargs⟩)
    (run (F := Ideal) m' ρ')

end Cert.ReferenceIdeal.Hand

end
-- ==== Proof.lean ====
/-
  The certificate of a graph autoencoder's kernel program against its reference.

  The kernel program is eight kernel regions: a degree pass (row sums of the adjacency indicator accumulated over four
  column tiles, then deg^(-1/2)), the build of the symmetrically normalised adjacency with self loops, five
  graph-convolution layers (each accumulating, over four tiles of nodes, the normalised adjacency times the
  features-times-weights product, then adding a bias and applying the leaky rectifier) and an edge decoder (the
  logistic function of a Gram matrix).  The reference computes the same network with whole-array operations.

  On the extended reals the two are one function of the argument arrays (`Cert.Spec`): a change of float format is
  the identity, the kernel's matrix unit accumulating into zero and the host's contraction are the same sum, and the
  kernel's tiled sums are the whole sums regrouped — sums on the extended reals are sums in a commutative monoid, so
  no finiteness is used and the precondition is never opened.  The degree is a sum of zeros and ones plus the
  diagonal's one, hence positive, which decides the reference's guard on the reciprocal square root.

  The frames: every program terminates, faults nowhere and leaves its arguments as launched — for the kernel program
  (read at words and at the extended reals) from the run assembled region by region, for the reference from its
  run with the results dropped.  The ideal pass rewrote nothing, so the idealization claim is trivial.
-/
import proofs.«178500_j188978561286_1_alg».proof.Defs
import proofs.«178500_j188978561286_1_alg».proof.Proof.Gen.Kernel
import proofs.«178500_j188978561286_1_alg».proof.Proof.Gen.KernelIdeal
import proofs.«178500_j188978561286_1_alg».proof.Proof.Gen.ReferenceIdeal
import proofs.«178500_j188978561286_1_alg».proof.Proof.Gen.Pre_finite_inputs
import proofs.«178500_j188978561286_1_alg».proof.Proof.KBundles
import proofs.«178500_j188978561286_1_alg».proof.Proof.KernelValue
import proofs.«178500_j188978561286_1_alg».proof.Proof.RefValue
import Idealize.ShloMosaic.Adequacy
import Idealize.ShloMosaic.Init

noncomputable section

namespace Cert.Proof

open Idealize.ShloMosaic Idealize.SL.Sem

/-- The word-level kernel program's frame: the run assembled from its eight regions. -/
theorem frame_k : Cert.frame_Kernel (hKernel := Cert.Kernel.Gen.facts) (hPre_finite_inputs := Cert.Pre_finite_inputs.Gen.facts) :=
  fun m ρ _ => Cert.Kernel.Hand.frame m ρ (Cert.Kernel.Hand.bundle0 (F := Bits)) (Cert.Kernel.Hand.bundle1 (F := Bits)) (Cert.Kernel.Hand.bundle2 (F := Bits)) (Cert.Kernel.Hand.bundle3 (F := Bits)) (Cert.Kernel.Hand.bundle4 (F := Bits)) (Cert.Kernel.Hand.bundle5 (F := Bits)) (Cert.Kernel.Hand.bundle6 (F := Bits)) (Cert.Kernel.Hand.bundle7 (F := Bits))

/-- The idealized kernel program's frame: the same assembly read at the extended reals. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ (Cert.KernelIdeal.Hand.bundle0 (F := Ideal)) (Cert.KernelIdeal.Hand.bundle1 (F := Ideal)) (Cert.KernelIdeal.Hand.bundle2 (F := Ideal)) (Cert.KernelIdeal.Hand.bundle3 (F := Ideal)) (Cert.KernelIdeal.Hand.bundle4 (F := Ideal)) (Cert.KernelIdeal.Hand.bundle5 (F := Ideal)) (Cert.KernelIdeal.Hand.bundle6 (F := Ideal)) (Cert.KernelIdeal.Hand.bundle7 (F := Ideal))

/-- The reference's frame: its run with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2) (Cert.ReferenceIdeal.Hand.run_spec m ρ)

/-- Both idealized programs end with the specification's three arrays of their (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, _, Cert.KernelIdeal.Hand.run_spec m ρ, ?_⟩
  refine (θ_run Cert.ReferenceIdeal.defs _ _).mono (fun _ h c => ?_) (Cert.ReferenceIdeal.Hand.run_spec m' ρ')
  obtain ⟨h46, h58, h32, hargs⟩ := h c
  obtain ⟨e0, e1, e2, e3, e4, e5, e6, e7, e8, e9, e10, e11⟩ := hagree c
  refine ⟨h46.trans ?_, h58.trans ?_, h32.trans ?_, hargs⟩
  · rw [e0, e1, e2, e3, e4, e5, e6, e7]
  · rw [e0, e1, e2, e3, e4, e5, e8, e9, e10, e11]
  · rw [e0, e1, e2, e3, e4, e5]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
